-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2x2048x128 : Shape := ⟨3, ![2, 2048, 128]⟩
abbrev S2x2048x32x128 : Shape := ⟨4, ![2, 2048, 32, 128]⟩
abbrev S2x2048x32 : Shape := ⟨3, ![2, 2048, 32]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S_ : Shape := ⟨0, ![]⟩

class Facts : Prop where
  bcast_S_S2x2048x128 : S_.BroadcastsInDim S2x2048x128 (![] : Fin 0 → Fin S2x2048x128.rank)
  reducesTo_S2x2048x128_S_d0_1_2 : S2x2048x128.ReducesTo [0, 1, 2] S_
  h_S_ : 0 < S_.numel
  bcast_S_S2x2048x32x128 : S_.BroadcastsInDim S2x2048x32x128 (![] : Fin 0 → Fin S2x2048x32x128.rank)
  reducesTo_S2x2048x32x128_S_d0_1_2_3 : S2x2048x32x128.ReducesTo [0, 1, 2, 3] S_
  bcast_S_S2x2048x32 : S_.BroadcastsInDim S2x2048x32 (![] : Fin 0 → Fin S2x2048x32.rank)
  reducesTo_S2x2048x32_S_d0_1_2 : S2x2048x32.ReducesTo [0, 1, 2] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg3 : IVec S2x2048x32 32) (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_c_36 : IVec S_ 32 := constantI S_ 32 0#32
  let main_v94 : IVec S2x2048x32 32 := broadcastInDim S2x2048x32 ![] bcast_S_S2x2048x32 main_c_36
  let main_v95 : IVec S2x2048x32 1 := cmpi .sge main_arg3 main_v94
  let main_c_37 : IVec S_ 32 := constantI S_ 32 2047#32
  let main_v96 : IVec S2x2048x32 32 := broadcastInDim S2x2048x32 ![] bcast_S_S2x2048x32 main_c_37
  let main_v97 : IVec S2x2048x32 1 := cmpi .sle main_arg3 main_v96
  let main_v98 : IVec S2x2048x32 1 := andi main_v95 main_v97
  let main_c_38 : IVec S_ 1 := constantI S_ 1 1#1
  let main_v99 : IVec S_ 1 := (fun x v => Host.reduce IntOp.andi x v reducesTo_S2x2048x32_S_d0_1_2 h_S_) main_v98 main_c_38
  let main_v100 : IVec S_ 1 := andi main_v93 main_v99
  main_v100

def fn_part4 {F : FTy → Type} [FloatOps F] (main_arg3 : IVec S2x2048x32 32) (main_arg16 : FVec F S128 .f32) (main_arg17 : FVec F S128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg3 main_arg20 main_v83 main_v84 main_cst_32

def fn_part3 {F : FTy → Type} [FloatOps F] (main_arg3 : IVec S2x2048x32 32) (main_arg13 : FVec F S128x512 .f32) (main_arg14 : FVec F S512 .f32) (main_arg15 : FVec F S512x128 .f32) (main_arg16 : FVec F S128 .f32) (main_arg17 : FVec F S128 .f32) (main_arg18 : FVec F S128 .f32) (main_arg19 : FVec F S128 .f32) (main_arg20 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x512 .f32 := Host.absf main_arg13
  let main_cst_20 : FVec F S_ .f32 := constant S_ .f32 0x7F800000#32
  let main_v55 : FVec F S128x512 .f32 := broadcastInDim S128x512 ![] bcast_S_S128x512 main_cst_20
  let main_v56 : IVec S128x512 1 := cmpf .olt main_v54 main_v55
  let main_c_21 : IVec S_ 1 := constantI S_ 1 1#1
  let main_v57 : IVec S_ 1 := (fun x v => Host.reduce IntOp.andi x v reducesTo_S128x512_S_d0_1 h_S_) main_v56 main_c_21
  let main_v58 : IVec S_ 1 := andi main_v53 main_v57
  let main_v59 : FVec F S512 .f32 := Host.absf main_arg14
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x128 .f32 := Host.absf main_arg15
  let main_cst_24 : FVec F S_ .f32 := constant S_ .f32 0x7F800000#32
  let main_v65 : FVec F S512x128 .f32 := broadcastInDim S512x128 ![] bcast_S_S512x128 main_cst_24
  let main_v66 : IVec S512x128 1 := cmpf .olt main_v64 main_v65
  let main_c_25 : IVec S_ 1 := constantI S_ 1 1#1
  let main_v67 : IVec S_ 1 := (fun x v => Host.reduce IntOp.andi x v reducesTo_S512x128_S_d0_1 h_S_) main_v66 main_c_25
  fn_part4 (F := F) main_arg3 main_arg16 main_arg17 main_arg18 main_arg19 main_arg20 main_v63 main_v67

def fn_part2 {F : FTy → Type} [FloatOps F] (main_arg3 : IVec S2x2048x32 32) (main_arg9 : FVec F S128x128 .f32) (main_arg10 : FVec F S128 .f32) (main_arg11 : FVec F S128x128 .f32) (main_arg12 : FVec F S128 .f32) (main_arg13 : FVec F S128x512 .f32) (main_arg14 : FVec F S512 .f32) (main_arg15 : FVec F S512x128 .f32) (main_arg16 : FVec F S128 .f32) (main_arg17 : FVec F S128 .f32) (main_arg18 : FVec F S128 .f32) (main_arg19 : FVec F S128 .f32) (main_arg20 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg3 main_arg13 main_arg14 main_arg15 main_arg16 main_arg17 main_arg18 main_arg19 main_arg20 main_v48 main_v49 main_v50

def fn_part1 {F : FTy → Type} [FloatOps F] (main_arg3 : IVec S2x2048x32 32) (main_arg5 : FVec F S2x2048x32 .f32) (main_arg7 : FVec F S512x128 .f32) (main_arg8 : FVec F S128 .f32) (main_arg9 : FVec F S128x128 .f32) (main_arg10 : FVec F S128 .f32) (main_arg11 : FVec F S128x128 .f32) (main_arg12 : FVec F S128 .f32) (main_arg13 : FVec F S128x512 .f32) (main_arg14 : FVec F S512 .f32) (main_arg15 : FVec F S512x128 .f32) (main_arg16 : FVec F S128 .f32) (main_arg17 : FVec F S128 .f32) (main_arg18 : FVec F S128 .f32) (main_arg19 : FVec F S128 .f32) (main_arg20 : FVec F S128 .f32) (main_v13 : IVec S_ 1) (main_v16 : IVec S2x2048x128 1) : IVec S_ 1 :=
  let main_c_5 : IVec S_ 1 := constantI S_ 1 1#1
  let main_v17 : IVec S_ 1 := (fun x v => Host.reduce IntOp.andi x v reducesTo_S2x2048x128_S_d0_1_2 h_S_) main_v16 main_c_5
  let main_v18 : IVec S_ 1 := andi main_v13 main_v17
  let main_v19 : FVec F S2x2048x32 .f32 := Host.absf main_arg5
  let main_cst_6 : FVec F S_ .f32 := constant S_ .f32 0x7F800000#32
  let main_v20 : FVec F S2x2048x32 .f32 := broadcastInDim S2x2048x32 ![] bcast_S_S2x2048x32 main_cst_6
  let main_v21 : IVec S2x2048x32 1 := cmpf .olt main_v19 main_v20
  let main_c_7 : IVec S_ 1 := constantI S_ 1 1#1
  let main_v22 : IVec S_ 1 := (fun x v => Host.reduce IntOp.andi x v reducesTo_S2x2048x32_S_d0_1_2 h_S_) main_v21 main_c_7
  let main_v23 : IVec S_ 1 := andi main_v18 main_v22
  let main_v24 : FVec F S512x128 .f32 := Host.absf main_arg7
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg9 main_arg10 main_arg11 main_arg12 main_arg13 main_arg14 main_arg15 main_arg16 main_arg17 main_arg18 main_arg19 main_arg20 main_v33

def fn {F : FTy → Type} [FloatOps F] (main_arg0 : FVec F S2x2048x128 .f32) (main_arg1 : FVec F S2x2048x128 .f32) (main_arg2 : FVec F S2x2048x32x128 .f32) (main_arg3 : IVec S2x2048x32 32) (main_arg4 : FVec F S2x2048x128 .f32) (main_arg5 : FVec F S2x2048x32 .f32) (main_arg6 : IVec S2x2048x32 1) (main_arg7 : FVec F S512x128 .f32) (main_arg8 : FVec F S128 .f32) (main_arg9 : FVec F S128x128 .f32) (main_arg10 : FVec F S128 .f32) (main_arg11 : FVec F S128x128 .f32) (main_arg12 : FVec F S128 .f32) (main_arg13 : FVec F S128x512 .f32) (main_arg14 : FVec F S512 .f32) (main_arg15 : FVec F S512x128 .f32) (main_arg16 : FVec F S128 .f32) (main_arg17 : FVec F S128 .f32) (main_arg18 : FVec F S128 .f32) (main_arg19 : FVec F S128 .f32) (main_arg20 : FVec F S128 .f32) : IVec S_ 1 :=
  let main_v0 : FVec F S2x2048x128 .f32 := Host.absf main_arg0
  let main_cst : FVec F S_ .f32 := constant S_ .f32 0x7F800000#32
  let main_v1 : FVec F S2x2048x128 .f32 := broadcastInDim S2x2048x128 ![] bcast_S_S2x2048x128 main_cst
  let main_v2 : IVec S2x2048x128 1 := cmpf .olt main_v0 main_v1
  let main_c : IVec S_ 1 := constantI S_ 1 1#1
  let main_v3 : IVec S_ 1 := (fun x v => Host.reduce IntOp.andi x v reducesTo_S2x2048x128_S_d0_1_2 h_S_) main_v2 main_c
  let main_v4 : FVec F S2x2048x128 .f32 := Host.absf main_arg1
  let main_cst_0 : FVec F S_ .f32 := constant S_ .f32 0x7F800000#32
  let main_v5 : FVec F S2x2048x128 .f32 := broadcastInDim S2x2048x128 ![] bcast_S_S2x2048x128 main_cst_0
  let main_v6 : IVec S2x2048x128 1 := cmpf .olt main_v4 main_v5
  let main_c_1 : IVec S_ 1 := constantI S_ 1 1#1
  let main_v7 : IVec S_ 1 := (fun x v => Host.reduce IntOp.andi x v reducesTo_S2x2048x128_S_d0_1_2 h_S_) main_v6 main_c_1
  let main_v8 : IVec S_ 1 := andi main_v3 main_v7
  let main_v9 : FVec F S2x2048x32x128 .f32 := Host.absf main_arg2
  let main_cst_2 : FVec F S_ .f32 := constant S_ .f32 0x7F800000#32
  let main_v10 : FVec F S2x2048x32x128 .f32 := broadcastInDim S2x2048x32x128 ![] bcast_S_S2x2048x32x128 main_cst_2
  let main_v11 : IVec S2x2048x32x128 1 := cmpf .olt main_v9 main_v10
  let main_c_3 : IVec S_ 1 := constantI S_ 1 1#1
  let main_v12 : IVec S_ 1 := (fun x v => Host.reduce IntOp.andi x v reducesTo_S2x2048x32x128_S_d0_1_2_3 h_S_) main_v11 main_c_3
  let main_v13 : IVec S_ 1 := andi main_v8 main_v12
  let main_v14 : FVec F S2x2048x128 .f32 := Host.absf main_arg4
  let main_cst_4 : FVec F S_ .f32 := constant S_ .f32 0x7F800000#32
  let main_v15 : FVec F S2x2048x128 .f32 := broadcastInDim S2x2048x128 ![] bcast_S_S2x2048x128 main_cst_4
  let main_v16 : IVec S2x2048x128 1 := cmpf .olt main_v14 main_v15
  fn_part1 (F := F) main_arg3 main_arg5 main_arg7 main_arg8 main_arg9 main_arg10 main_arg11 main_arg12 main_arg13 main_arg14 main_arg15 main_arg16 main_arg17 main_arg18 main_arg19 main_arg20 main_v13 main_v16
-- ==== Kernel.lean ====
abbrev S2x2048x128 : Shape := ⟨3, ![2, 2048, 128]⟩
abbrev S2x2048x32x128 : Shape := ⟨4, ![2, 2048, 32, 128]⟩
abbrev S2x2048x32 : Shape := ⟨3, ![2, 2048, 32]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S8192x128 : Shape := ⟨2, ![8192, 128]⟩
abbrev S4096x128 : Shape := ⟨2, ![4096, 128]⟩
abbrev S1x2048x128 : Shape := ⟨3, ![1, 2048, 128]⟩
abbrev S2048x128 : Shape := ⟨2, ![2048, 128]⟩
abbrev S1x2048x32 : Shape := ⟨3, ![1, 2048, 32]⟩
abbrev S2048x32 : Shape := ⟨2, ![2048, 32]⟩
abbrev S1024x128 : Shape := ⟨2, ![1024, 128]⟩
abbrev S131072x128 : Shape := ⟨2, ![131072, 128]⟩
abbrev S32x128 : Shape := ⟨2, ![32, 128]⟩
abbrev S2x128x128 : Shape := ⟨3, ![2, 128, 128]⟩
abbrev S_ : Shape := ⟨0, ![]⟩
abbrev S1x128x128 : Shape := ⟨3, ![1, 128, 128]⟩
abbrev S1x128 : Shape := ⟨2, ![1, 128]⟩
abbrev S4096x32 : Shape := ⟨2, ![4096, 32]⟩
abbrev S1x512 : Shape := ⟨2, ![1, 512]⟩
abbrev S256x128 : Shape := ⟨2, ![256, 128]⟩
abbrev S256x32 : Shape := ⟨2, ![256, 32]⟩
abbrev S256x1x128 : Shape := ⟨3, ![256, 1, 128]⟩
abbrev S256x32x128 : Shape := ⟨3, ![256, 32, 128]⟩
abbrev S256x32x1 : Shape := ⟨3, ![256, 32, 1]⟩
abbrev S256 : Shape := ⟨1, ![256]⟩
abbrev S256x1 : Shape := ⟨2, ![256, 1]⟩
abbrev S256x512 : Shape := ⟨2, ![256, 512]⟩

abbrev nBuf : Table → Nat
  | .hbm => 42
  | .local .tc .vmem => 35
  | .shared => 1
  | .local .scVector .vmem => 2
  | _ => 0

abbrev bufTy : (tb : Table) → Fin (nBuf tb) → BufTy
  | .hbm, ⟨0, _⟩ => ⟨S2x2048x128, .f32⟩
  | .hbm, ⟨1, _⟩ => ⟨S2x2048x128, .f32⟩
  | .hbm, ⟨2, _⟩ => ⟨S2x2048x32x128, .f32⟩
  | .hbm, ⟨3, _⟩ => ⟨S2x2048x32, .i32⟩
  | .hbm, ⟨4, _⟩ => ⟨S2x2048x128, .f32⟩
  | .hbm, ⟨5, _⟩ => ⟨S2x2048x32, .f32⟩
  | .hbm, ⟨6, _⟩ => ⟨S2x2048x32, .i1⟩
  | .hbm, ⟨7, _⟩ => ⟨S512x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x512, .f32⟩
  | .hbm, ⟨14, _⟩ => ⟨S512, .f32⟩
  | .hbm, ⟨15, _⟩ => ⟨S512x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S2x2048x32, .i32⟩
  | .hbm, ⟨22, _⟩ => ⟨S8192x128, .f32⟩
  | .hbm, ⟨23, _⟩ => ⟨S4096x128, .f32⟩
  | .hbm, ⟨24, _⟩ => ⟨S2x2048x32, .i32⟩
  | .hbm, ⟨25, _⟩ => ⟨S1024x128, .i32⟩
  | .hbm, ⟨26, _⟩ => ⟨S131072x128, .f32⟩
  | .hbm, ⟨27, _⟩ => ⟨S131072x128, .f32⟩
  | .hbm, ⟨28, _⟩ => ⟨S4096x128, .f32⟩
  | .hbm, ⟨29, _⟩ => ⟨S4096x32, .f32⟩
  | .hbm, ⟨30, _⟩ => ⟨S128x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x512, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S4096x128, .f32⟩
  | .hbm, ⟨41, _⟩ => ⟨S2x2048x128, .f32⟩
  | .local .tc .vmem, ⟨0, _⟩ => ⟨S2x2048x128, .f32⟩
  | .local .tc .vmem, ⟨1, _⟩ => ⟨S2x2048x128, .f32⟩
  | .local .tc .vmem, ⟨2, _⟩ => ⟨S2x2048x128, .f32⟩
  | .local .tc .vmem, ⟨3, _⟩ => ⟨S2x2048x32, .i32⟩
  | .local .tc .vmem, ⟨4, _⟩ => ⟨S2x2048x32, .i32⟩
  | .local .tc .vmem, ⟨5, _⟩ => ⟨S512x128, .f32⟩
  | .local .tc .vmem, ⟨6, _⟩ => ⟨S8192x128, .f32⟩
  | .local .tc .vmem, ⟨7, _⟩ => ⟨S4096x128, .f32⟩
  | .local .tc .vmem, ⟨8, _⟩ => ⟨S2x2048x32, .i32⟩
  | .local .tc .vmem, ⟨9, _⟩ => ⟨S8192x128, .f32⟩
  | .local .tc .vmem, ⟨10, _⟩ => ⟨S8192x128, .f32⟩
  | .local .tc .vmem, ⟨11, _⟩ => ⟨S8192x128, .f32⟩
  | .local .tc .vmem, ⟨12, _⟩ => ⟨S8192x128, .f32⟩
  | .local .tc .vmem, ⟨13, _⟩ => ⟨S256x128, .f32⟩
  | .local .tc .vmem, ⟨14, _⟩ => ⟨S256x128, .f32⟩
  | .local .tc .vmem, ⟨15, _⟩ => ⟨S256x128, .f32⟩
  | .local .tc .vmem, ⟨16, _⟩ => ⟨S256x128, .f32⟩
  | .local .tc .vmem, ⟨17, _⟩ => ⟨S256x32, .f32⟩
  | .local .tc .vmem, ⟨18, _⟩ => ⟨S256x32, .f32⟩
  | .local .tc .vmem, ⟨19, _⟩ => ⟨S128x128, .f32⟩
  | .local .tc .vmem, ⟨20, _⟩ => ⟨S1x128, .f32⟩
  | .local .tc .vmem, ⟨21, _⟩ => ⟨S128x128, .f32⟩
  | .local .tc .vmem, ⟨22, _⟩ => ⟨S1x128, .f32⟩
  | .local .tc .vmem, ⟨23, _⟩ => ⟨S128x128, .f32⟩
  | .local .tc .vmem, ⟨24, _⟩ => ⟨S1x128, .f32⟩
  | .local .tc .vmem, ⟨25, _⟩ => ⟨S128x512, .f32⟩
  | .local .tc .vmem, ⟨26, _⟩ => ⟨S1x512, .f32⟩
  | .local .tc .vmem, ⟨27, _⟩ => ⟨S512x128, .f32⟩
  | .local .tc .vmem, ⟨28, _⟩ => ⟨S1x128, .f32⟩
  | .local .tc .vmem, ⟨29, _⟩ => ⟨S1x128, .f32⟩
  | .local .tc .vmem, ⟨30, _⟩ => ⟨S1x128, .f32⟩
  | .local .tc .vmem, ⟨31, _⟩ => ⟨S1x128, .f32⟩
  | .local .tc .vmem, ⟨32, _⟩ => ⟨S1x128, .f32⟩
  | .local .tc .vmem, ⟨33, _⟩ => ⟨S256x128, .f32⟩
  | .local .tc .vmem, ⟨34, _⟩ => ⟨S256x128, .f32⟩
  | .shared, ⟨0, _⟩ => ⟨S8192x128, .f32⟩
  | .local .scVector .vmem, ⟨0, _⟩ => ⟨S32x128, .i32⟩
  | .local .scVector .vmem, ⟨1, _⟩ => ⟨S2x128x128, .f32⟩
  | _, _ => ⟨S2x2048x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTables nBuf rfl bufTy 5 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1_0 : Ref sig .tc := ⟨.hbm, 22, rfl⟩
abbrev main_v1_1 : Ref sig .tc := ⟨.hbm, 23, rfl⟩
abbrev main_v1_2 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v1_0_scv : Ref sig .scVector := ⟨.hbm, 22, rfl⟩
abbrev main_v2_scv : Ref sig .scVector := ⟨.hbm, 25, rfl⟩
abbrev main_v3_scv : Ref sig .scVector := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_stg10_0 : Ref sig .tc := ⟨.vmem, 24, rfl⟩
abbrev cc2_stg11_0 : Ref sig .tc := ⟨.vmem, 25, rfl⟩
abbrev cc2_stg12_0 : Ref sig .tc := ⟨.vmem, 26, rfl⟩
abbrev cc2_stg13_0 : Ref sig .tc := ⟨.vmem, 27, rfl⟩
abbrev cc2_stg14_0 : Ref sig .tc := ⟨.vmem, 28, rfl⟩
abbrev cc2_stg15_0 : Ref sig .tc := ⟨.vmem, 29, rfl⟩
abbrev cc2_stg16_0 : Ref sig .tc := ⟨.vmem, 30, rfl⟩
abbrev cc2_stg17_0 : Ref sig .tc := ⟨.vmem, 31, rfl⟩
abbrev cc2_stg18_0 : Ref sig .tc := ⟨.vmem, 32, rfl⟩
abbrev cc2_stg19_0 : Ref sig .tc := ⟨.vmem, 33, rfl⟩
abbrev cc2_stg19_1 : Ref sig .tc := ⟨.vmem, 34, rfl⟩
abbrev cc1_scratch2 : Ref sig .scVector := ⟨.shared, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem13_0 : DmaSem sig := 31
abbrev cc2_sem14_0 : DmaSem sig := 32
abbrev cc2_sem15_0 : DmaSem sig := 33
abbrev cc2_sem16_0 : DmaSem sig := 34
abbrev cc2_sem17_0 : DmaSem sig := 35
abbrev cc2_sem18_0 : DmaSem sig := 36
abbrev cc2_sem19_0 : DmaSem sig := 37
abbrev cc2_sem19_1 : DmaSem sig := 38
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S2x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048x32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048x32 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2048x32 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v6 : BitVec 32 := Scalar.muli v1 c32_i32
  let c0_i32_26_r1 : BitVec 32 := 0#32
  ![v6.toNat, 0]
@[reducible] def k1_t1_loop : Scf.Loop 32 :=
  let c0_i32_9 : BitVec 32 := 0#32
  let c32_i32_10 : BitVec 32 := 32#32
  let v12 : BitVec 32 := Scalar.addi c0_i32_9 c32_i32_10
  let c1_i32 : BitVec 32 := 1#32
  ⟨c0_i32_9, v12, c1_i32⟩
def k1_off2 (k1_t1 : Fin k1_t1_loop.trips) : Fin 3 → Nat :=
  let c0_i32_9 : BitVec 32 := 0#32
  let c1_i32 : BitVec 32 := 1#32
  let arg10 : BitVec 32 := Scf.iv c0_i32_9 c1_i32 k1_t1
  let c2_i32_26 : BitVec 32 := 2#32
  let v25 : BitVec 32 := Scalar.remsi arg10 c2_i32_26
  let c0_i32_27 : BitVec 32 := 0#32
  let c0_i32_28 : BitVec 32 := 0#32
  ![v25.toNat, 0, 0]
def k1_off3 (k1_t1 : Fin k1_t1_loop.trips) : Fin 2 → Nat :=
  let c0_i32_9 : BitVec 32 := 0#32
  let c1_i32 : BitVec 32 := 1#32
  let arg10 : BitVec 32 := Scf.iv c0_i32_9 c1_i32 k1_t1
  let c0_i32_29 : BitVec 32 := 0#32
  ![arg10.toNat, 0]
def k1_cond2 (k1_t1 : Fin k1_t1_loop.trips) : BitVec 1 :=
  let c0_i32_9 : BitVec 32 := 0#32
  let c1_i32 : BitVec 32 := 1#32
  let arg10 : BitVec 32 := Scf.iv c0_i32_9 c1_i32 k1_t1
  let c1_i32_32 : BitVec 32 := 1#32
  let v31 : BitVec 32 := Scalar.addi arg10 c1_i32_32
  let c32_i32_33 : BitVec 32 := 32#32
  let v32 : BitVec 1 := Scalar.cmpi .slt v31 c32_i32_33
  let v33 : BitVec 32 := Scalar.extui v32
  let c0_i32_34 : BitVec 32 := 0#32
  let v34 : BitVec 1 := Scalar.cmpi .ne v33 c0_i32_34
  v34

def k1_cond3 (k1_t1 : Fin k1_t1_loop.trips) : BitVec 1 :=
  let c0_i32_9 : BitVec 32 := 0#32
  let c1_i32 : BitVec 32 := 1#32
  let arg10 : BitVec 32 := Scf.iv c0_i32_9 c1_i32 k1_t1
  let c1_i32_41 : BitVec 32 := 1#32
  let v43 : BitVec 1 := Scalar.cmpi .sge arg10 c1_i32_41
  let v44 : BitVec 32 := Scalar.extui v43
  let c0_i32_42 : BitVec 32 := 0#32
  let v45 : BitVec 1 := Scalar.cmpi .ne v44 c0_i32_42
  v45

def k1_off4 (k1_t1 : Fin k1_t1_loop.trips) : Fin 3 → Nat :=
  let c1_i32_50 : BitVec 32 := 1#32
  let c0_i32_9 : BitVec 32 := 0#32
  let c1_i32 : BitVec 32 := 1#32
  let arg10 : BitVec 32 := Scf.iv c0_i32_9 c1_i32 k1_t1
  let c2_i32_26 : BitVec 32 := 2#32
  let v25 : BitVec 32 := Scalar.remsi arg10 c2_i32_26
  let v53 : BitVec 32 := Scalar.subi c1_i32_50 v25
  let c0_i32_53 : BitVec 32 := 0#32
  let c0_i32_54 : BitVec 32 := 0#32
  ![v53.toNat, 0, 0]
def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_9 : BitVec 32 := 0#32
  let c1_i32 : BitVec 32 := 1#32
  let arg10 : BitVec 32 := Scf.iv c0_i32_9 c1_i32 k1_t1
  let c1_i32_51 : BitVec 32 := 1#32
  let v54 : BitVec 32 := Scalar.subi arg10 c1_i32_51
  let c128_i32_52 : BitVec 32 := 128#32
  let v55 : BitVec 32 := Scalar.muli v54 c128_i32_52
  let v56 : BitVec 32 := Scalar.addi v2 v55
  let c0_i32_55 : BitVec 32 := 0#32
  ![v56.toNat, 0]
def k1_off6 (k1_t1 : Fin k1_t1_loop.trips) : Fin 3 → Nat :=
  let c1_i32_44 : BitVec 32 := 1#32
  let c0_i32_9 : BitVec 32 := 0#32
  let c1_i32 : BitVec 32 := 1#32
  let arg10 : BitVec 32 := Scf.iv c0_i32_9 c1_i32 k1_t1
  let c2_i32_26 : BitVec 32 := 2#32
  let v25 : BitVec 32 := Scalar.remsi arg10 c2_i32_26
  let v47 : BitVec 32 := Scalar.subi c1_i32_44 v25
  let c0_i32_45 : BitVec 32 := 0#32
  let c0_i32_46 : BitVec 32 := 0#32
  ![v47.toNat, 0, 0]
def k1_off7 (k1_t1 : Fin k1_t1_loop.trips) : Fin 2 → Nat :=
  let c0_i32_9 : BitVec 32 := 0#32
  let c1_i32 : BitVec 32 := 1#32
  let arg10 : BitVec 32 := Scf.iv c0_i32_9 c1_i32 k1_t1
  let c1_i32_43 : BitVec 32 := 1#32
  let v46 : BitVec 32 := Scalar.addi arg10 c1_i32_43
  let c0_i32_47 : BitVec 32 := 0#32
  ![v46.toNat, 0]
def k1_off8 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_9 : BitVec 32 := 0#32
  let c1_i32 : BitVec 32 := 1#32
  let arg10 : BitVec 32 := Scf.iv c0_i32_9 c1_i32 k1_t1
  let c128_i32 : BitVec 32 := 128#32
  let v35 : BitVec 32 := Scalar.muli arg10 c128_i32
  let v36 : BitVec 32 := Scalar.addi v2 v35
  let c0_i32_37 : BitVec 32 := 0#32
  ![v36.toNat, 0]
def k1_off9 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_15 : BitVec 32 := 0#32
  ![v2.toNat, 0]
abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x512 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x512 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S512x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S1x128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S1x128 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 2 → Memref sig .tc .vmem S256x128 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  natLt_1_32 : 1 < 32
  inb_S512x128_S128x128_0_0 : ∀ a, (![0, 0] : Fin 2 → Nat) a + S128x128.size a ≤ S512x128.size a
  h_S128x128 : 0 < S128x128.numel
  inb_S512x128_S128x128_128_0 : ∀ a, (![128, 0] : Fin 2 → Nat) a + S128x128.size a ≤ S512x128.size a
  inb_S512x128_S128x128_384_0 : ∀ a, (![384, 0] : Fin 2 → Nat) a + S128x128.size a ≤ S512x128.size a
  inb_S2x2048x128_S1x2048x128_0_0_0 : ∀ a, (![0, 0, 0] : Fin 3 → Nat) a + S1x2048x128.size a ≤ S2x2048x128.size a
  h_S1x2048x128 : 0 < S1x2048x128.numel
  shapeCasts_S1x2048x128_S2048x128 : S1x2048x128.ShapeCasts S2048x128
  inb_S8192x128_S2048x128_0_0 : ∀ a, (![0, 0] : Fin 2 → Nat) a + S2048x128.size a ≤ S8192x128.size a
  h_S2048x128 : 0 < S2048x128.numel
  inb_S8192x128_S2048x128_4096_0 : ∀ a, (![4096, 0] : Fin 2 → Nat) a + S2048x128.size a ≤ S8192x128.size a
  inb_S4096x128_S2048x128_0_0 : ∀ a, (![0, 0] : Fin 2 → Nat) a + S2048x128.size a ≤ S4096x128.size a
  inb_S2x2048x32_S1x2048x32_0_0_0 : ∀ a, (![0, 0, 0] : Fin 3 → Nat) a + S1x2048x32.size a ≤ S2x2048x32.size a
  h_S1x2048x32 : 0 < S1x2048x32.numel
  shapeCasts_S1x2048x32_S2048x32 : S1x2048x32.ShapeCasts S2048x32
  shapeCasts_S2048x32_S1x2048x32 : S2048x32.ShapeCasts S1x2048x32
  inb_S2x2048x128_S1x2048x128_1_0_0 : ∀ a, (![1, 0, 0] : Fin 3 → Nat) a + S1x2048x128.size a ≤ S2x2048x128.size a
  inb_S8192x128_S2048x128_2048_0 : ∀ a, (![2048, 0] : Fin 2 → Nat) a + S2048x128.size a ≤ S8192x128.size a
  inb_S8192x128_S2048x128_6144_0 : ∀ a, (![6144, 0] : Fin 2 → Nat) a + S2048x128.size a ≤ S8192x128.size a
  inb_S4096x128_S2048x128_2048_0 : ∀ a, (![2048, 0] : Fin 2 → Nat) a + S2048x128.size a ≤ S4096x128.size a
  inb_S2x2048x32_S1x2048x32_1_0_0 : ∀ a, (![1, 0, 0] : Fin 3 → Nat) a + S1x2048x32.size a ≤ S2x2048x32.size a
  shapeCasts_S2x2048x32_S1024x128 : S2x2048x32.ShapeCasts S1024x128
  inb_S2x128x128_S1x128x128_0_0_0 : ∀ a, (![0, 0, 0] : Fin 3 → Nat) a + S1x128x128.size a ≤ S2x128x128.size a
  squeezes_S1x128x128_S128x128 : S1x128x128.Squeezes S128x128
  inb_S32x128_S1x128_0_0 : ∀ a, (![0, 0] : Fin 2 → Nat) a + S1x128.size a ≤ S32x128.size a
  squeezes_S1x128_S128 : S1x128.Squeezes S128
  inb_S8192x128_S8192x128_0_0 : ∀ a, (![0, 0] : Fin 2 → Nat) a + S8192x128.size a ≤ S8192x128.size a
  gathers_S8192x128_S128x128 : S8192x128.Gathers 0 S128x128
  shapeCasts_S2x2048x32x128_S131072x128 : S2x2048x32x128.ShapeCasts S131072x128
  shapeCasts_S2x2048x128_S4096x128 : S2x2048x128.ShapeCasts S4096x128
  shapeCasts_S2x2048x32_S4096x32 : S2x2048x32.ShapeCasts S4096x32
  slices_S512x128_S128x128_256_0 : S512x128.Slices ![256, 0] S128x128
  shapeCasts_S128_S1x128 : S128.ShapeCasts S1x128
  shapeCasts_S512_S1x512 : S512.ShapeCasts S1x512
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  shapeCasts_S128x128_S128x128 : S128x128.ShapeCasts S128x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S256x128_S256x1x128 : S256x128.ShapeCasts S256x1x128
  shapeCasts_S256x1x128_S256x1x128 : S256x1x128.ShapeCasts S256x1x128
  broadcasts_S256x1x128_S256x32x128 : S256x1x128.Broadcasts S256x32x128
  shapeCasts_S256x32x128_S8192x128 : S256x32x128.ShapeCasts S8192x128
  inb_S1x128_S1x128_0_0 : ∀ a, (![0, 0] : Fin 2 → Nat) a + S1x128.size a ≤ S1x128.size a
  h_S1x128 : 0 < S1x128.numel
  shapeCasts_S1x128_S128 : S1x128.ShapeCasts S128
  broadcasts_S1x128_S8192x128 : S1x128.Broadcasts S8192x128
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S256x32_S256x32x1 : S256x32.ShapeCasts S256x32x1
  shapeCasts_S256x32x1_S256x32x1 : S256x32x1.ShapeCasts S256x32x1
  broadcasts_S256x32x1_S256x32x128 : S256x32x1.Broadcasts S256x32x128
  shapeCasts_S8192x128_S256x32x128 : S8192x128.ShapeCasts S256x32x128
  reduces_S256x32x128_S256x128 : S256x32x128.Reduces [1] S256x128
  reduces_S256x128_S256 : S256x128.Reduces [1] S256
  shapeCasts_S256_S256x1 : S256.ShapeCasts S256x1
  broadcasts_S256x1_S256x128 : S256x1.Broadcasts S256x128
  broadcasts_S1x128_S256x128 : S1x128.Broadcasts S256x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S512 : S1x512.ShapeCasts S512
  broadcasts_S1x512_S256x512 : S1x512.Broadcasts S256x512
  inb_S512x128_S512x128_0_0 : ∀ a, (![0, 0] : Fin 2 → Nat) a + S512x128.size a ≤ S512x128.size a
  h_S512x128 : 0 < S512x128.numel
  shapeCasts_S4096x128_S2x2048x128 : S4096x128.ShapeCasts S2x2048x128
  dot_S2048x128_S128x128_S2048x128_1_0_0_1_n_n_wf : DotDims.WF S2048x128 S128x128 S2048x128 [1] [0] [0] [1] [] []
  dot_S8192x128_S128x128_S8192x128_1_0_0_1_n_n_wf : DotDims.WF S8192x128 S128x128 S8192x128 [1] [0] [0] [1] [] []
  dot_S256x128_S128x512_S256x512_1_0_0_1_n_n_wf : DotDims.WF S256x128 S128x512 S256x512 [1] [0] [0] [1] [] []
  dot_S256x512_S512x128_S256x128_1_0_0_1_n_n_wf : DotDims.WF S256x512 S512x128 S256x128 [1] [0] [0] [1] [] []
  hcc1_scratch3 : 9 + S_.numel ≤ 39
  hcc1_scratch4 : 10 + S_.numel ≤ 39
  hcc1_scoped0 : 11 + S_.numel ≤ 39
  hcc1_scoped1 : 12 + S_.numel ≤ 39
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hcore1 : grid1.bound 0 ≤ τ.nSC
  hsub1 : grid1.bound 1 ≤ τ.nSub
  k1_off1_inb : ∀ i : grid1.Coords, ∀ a, (k1_off1 i) a + S32x128.size a ≤ S1024x128.size a
  k1_t1_ok : k1_t1_loop.OK
  k1_off2_inb : ∀ k1_t1 : Fin k1_t1_loop.trips, ∀ a, (k1_off2 k1_t1) a + S1x128x128.size a ≤ S2x128x128.size a
  k1_off3_inb : ∀ k1_t1 : Fin k1_t1_loop.trips, ∀ a, (k1_off3 k1_t1) a + S1x128.size a ≤ S32x128.size a
  k1_off4_inb : ∀ k1_t1 : Fin k1_t1_loop.trips, ∀ (k1_h2 : k1_cond2 k1_t1 = 1#1), ∀ (k1_h3 : k1_cond3 k1_t1 = 1#1), ∀ a, (k1_off4 k1_t1) a + S1x128x128.size a ≤ S2x128x128.size a
  k1_off5_inb : ∀ (i : grid1.Coords) (k1_t1 : Fin k1_t1_loop.trips), ∀ (k1_h2 : k1_cond2 k1_t1 = 1#1), ∀ (k1_h3 : k1_cond3 k1_t1 = 1#1), ∀ a, (k1_off5 i k1_t1) a + S128x128.size a ≤ S131072x128.size a
  k1_off6_inb : ∀ k1_t1 : Fin k1_t1_loop.trips, ∀ (k1_h2 : k1_cond2 k1_t1 = 1#1), ∀ a, (k1_off6 k1_t1) a + S1x128x128.size a ≤ S2x128x128.size a
  k1_off7_inb : ∀ k1_t1 : Fin k1_t1_loop.trips, ∀ (k1_h2 : k1_cond2 k1_t1 = 1#1), ∀ a, (k1_off7 k1_t1) a + S1x128.size a ≤ S32x128.size a
  k1_off8_inb : ∀ (i : grid1.Coords) (k1_t1 : Fin k1_t1_loop.trips), ∀ a, (k1_off8 i k1_t1) a + S128x128.size a ≤ S131072x128.size a
  k1_off9_inb : ∀ i : grid1.Coords, ∀ a, (k1_off9 i) a + S128x128.size a ≤ S131072x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S131072x128.size a
  hwx2_0 : ∀ i : grid2.Coords, EltTy.bits .f32 = 32 ∨ (Rect.block (s := S131072x128) S8192x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S131072x128.size a
  hwx2_1 : ∀ i : grid2.Coords, EltTy.bits .f32 = 32 ∨ (Rect.block (s := S131072x128) S8192x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S4096x128.size a
  hwx2_2 : ∀ i : grid2.Coords, EltTy.bits .f32 = 32 ∨ (Rect.block (s := S4096x128) S256x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S4096x128.size a
  hwx2_3 : ∀ i : grid2.Coords, EltTy.bits .f32 = 32 ∨ (Rect.block (s := S4096x128) S256x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x32.size a ≤ S4096x32.size a
  hwx2_4 : ∀ i : grid2.Coords, EltTy.bits .f32 = 32 ∨ (Rect.block (s := S4096x32) S256x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x512.size a ≤ S128x512.size a
  hwx2_11 : ∀ i : grid2.Coords, EltTy.bits .f32 = 32 ∨ (Rect.block (s := S128x512) S128x512.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x512.size a ≤ S1x512.size a
  hwx2_12 : ∀ i : grid2.Coords, EltTy.bits .f32 = 32 ∨ (Rect.block (s := S1x512) S1x512.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S512x128.size a ≤ S512x128.size a
  hwx2_13 : ∀ i : grid2.Coords, EltTy.bits .f32 = 32 ∨ (Rect.block (s := S512x128) S512x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x128.size a
  hwx2_14 : ∀ i : grid2.Coords, EltTy.bits .f32 = 32 ∨ (Rect.block (s := S1x128) S1x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S1x128.size a ≤ S1x128.size a
  hwx2_15 : ∀ i : grid2.Coords, EltTy.bits .f32 = 32 ∨ (Rect.block (s := S1x128) S1x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x128.size a ≤ S1x128.size a
  hwx2_16 : ∀ i : grid2.Coords, EltTy.bits .f32 = 32 ∨ (Rect.block (s := S1x128) S1x128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S1x128.size a ≤ S1x128.size a
  hwx2_17 : ∀ i : grid2.Coords, EltTy.bits .f32 = 32 ∨ (Rect.block (s := S1x128) S1x128.size (cc2_transform_17 i) (hinb2_17 i)).WholeWords (EltTy.packing .f32)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S1x128.size a ≤ S1x128.size a
  hwx2_18 : ∀ i : grid2.Coords, EltTy.bits .f32 = 32 ∨ (Rect.block (s := S1x128) S1x128.size (cc2_transform_18 i) (hinb2_18 i)).WholeWords (EltTy.packing .f32)
  hstage2_19 : ∀ j, (stage2_19 j).IsWhole
  nbuf2_19 : grid2.bufCount reads2_19 false = 2
  hreads2_19 : ∀ i i' : grid2.Coords, (∀ a, reads2_19 a = true → i a = i' a) → cc2_transform_19 i = cc2_transform_19 i'
  hinb2_19 : ∀ (i : grid2.Coords) a, (cc2_transform_19 i a + 1) * S256x128.size a ≤ S4096x128.size a
  hwx2_19 : ∀ i : grid2.Coords, EltTy.bits .f32 = 32 ∨ (Rect.block (s := S4096x128) S256x128.size (cc2_transform_19 i) (hinb2_19 i)).WholeWords (EltTy.packing .f32)

variable [Facts₀]

abbrev cc1_scratch3 : DmaSems sig S_ := SemArray.consecutive 9 S_ hcc1_scratch3
abbrev cc1_scratch4 : DmaSems sig S_ := SemArray.consecutive 10 S_ hcc1_scratch4
abbrev cc1_scoped0 : DmaSems sig S_ := SemArray.consecutive 11 S_ hcc1_scoped0
abbrev cc1_scoped1 : DmaSems sig S_ := SemArray.consecutive 12 S_ hcc1_scoped1
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg4) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v0) false false (stage0_4 0) (sem0_4 0) (Memref.isWhole_whole _) (hstage0_4 0)

abbrev win0_5 : Pipeline.Window sig grid0 :=
  Pipeline.Window.whole (Memref.whole main_arg7) false false (stage0_5 0) (sem0_5 0) (Memref.isWhole_whole _) (hstage0_5 0)

abbrev win0_6 : Pipeline.Window sig grid0 :=
  Pipeline.Window.whole (Memref.whole main_v1_0) true false (stage0_6 0) (sem0_6 0) (Memref.isWhole_whole _) (hstage0_6 0)

abbrev win0_7 : Pipeline.Window sig grid0 :=
  Pipeline.Window.whole (Memref.whole main_v1_1) true false (stage0_7 0) (sem0_7 0) (Memref.isWhole_whole _) (hstage0_7 0)

abbrev win0_8 : Pipeline.Window sig grid0 :=
  Pipeline.Window.whole (Memref.whole main_v1_2) true false (stage0_8 0) (sem0_8 0) (Memref.isWhole_whole _) (hstage0_8 0)

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win2_0 : Pipeline.Window sig grid2 :=
  Pipeline.Window.ofSpec (Memref.whole main_v4) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S8192x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_1) S256x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S256x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6) S256x32.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v7) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v9) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg11) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v10) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg13) S128x512.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v11) S1x512.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg15) S512x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v12) S1x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v13) S1x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v14) S1x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v15) S1x128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v16) S1x128.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_v17) S256x128.size cc2_transform_19 reads2_19 true false 2 stage2_19 sem2_19
    hrank2 hreads2_19 hinb2_19 nbuf2_19 (Memref.isWhole_whole _) hwx2_19 hstage2_19

abbrev win2 : Fin 20 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | ⟨_ + 20, h⟩ => absurd h (Nat.not_lt.2 (Nat.le_add_left _ _))
abbrev spec2 : Fin 20 → Pipeline.WinSpec sig grid2.rank := fun w => (win2 w).toWinSpec

class Facts : Prop extends Facts₀ where

variable [Facts]
-- ==== ReferenceIdeal.lean ====
abbrev S2x2048x128 : Shape := ⟨3, ![2, 2048, 128]⟩
abbrev S2x2048x32x128 : Shape := ⟨4, ![2, 2048, 32, 128]⟩
abbrev S2x2048x32 : Shape := ⟨3, ![2, 2048, 32]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S2x2048x1x128 : Shape := ⟨4, ![2, 2048, 1, 128]⟩
abbrev S2x2048x32x1 : Shape := ⟨4, ![2, 2048, 32, 1]⟩
abbrev S_ : Shape := ⟨0, ![]⟩
abbrev S2x2048x32x128x1 : Shape := ⟨5, ![2, 2048, 32, 128, 1]⟩
abbrev S1 : Shape := ⟨1, ![1]⟩
abbrev S1x1x1x1x1 : Shape := ⟨5, ![1, 1, 1, 1, 1]⟩
abbrev S2x2048x32x256 : Shape := ⟨4, ![2, 2048, 32, 256]⟩
abbrev S2x2048x32x512 : Shape := ⟨4, ![2, 2048, 32, 512]⟩
abbrev S1x1x1x128 : Shape := ⟨4, ![1, 1, 1, 128]⟩
abbrev S2x2048 : Shape := ⟨2, ![2, 2048]⟩
abbrev S2x2048x1 : Shape := ⟨3, ![2, 2048, 1]⟩
abbrev S1x1x128 : Shape := ⟨3, ![1, 1, 128]⟩
abbrev S2x2048x512 : Shape := ⟨3, ![2, 2048, 512]⟩
abbrev S1x1x512 : Shape := ⟨3, ![1, 1, 512]⟩

abbrev nBuf : Space → Nat
  | .hbm => 250
  | .vmem => 0
  | .smem => 0
  | _ => 0

abbrev hbmTy0_0 (i : Nat) : BufTy := match i % 128 with
  | 0 => ⟨S2x2048x128, .f32⟩
  | 1 => ⟨S2x2048x128, .f32⟩
  | 2 => ⟨S2x2048x32x128, .f32⟩
  | 3 => ⟨S2x2048x32, .i32⟩
  | 4 => ⟨S2x2048x128, .f32⟩
  | 5 => ⟨S2x2048x32, .f32⟩
  | 6 => ⟨S2x2048x32, .i1⟩
  | 7 => ⟨S512x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x512, .f32⟩
  | 14 => ⟨S512, .f32⟩
  | 15 => ⟨S512x128, .f32⟩
  | 16 => ⟨S128, .f32⟩
  | 17 => ⟨S128, .f32⟩
  | 18 => ⟨S128, .f32⟩
  | 19 => ⟨S128, .f32⟩
  | 20 => ⟨S128, .f32⟩
  | 21 => ⟨S2x2048x1x128, .f32⟩
  | 22 => ⟨S2x2048x32x128, .f32⟩
  | 23 => ⟨S2x2048x32x1, .i32⟩
  | 24 => ⟨S2x2048x32x128, .i32⟩
  | 25 => ⟨S_, .i32⟩
  | 26 => ⟨S2x2048x32x128, .i32⟩
  | 27 => ⟨S2x2048x32x128, .i1⟩
  | 28 => ⟨S_, .i32⟩
  | 29 => ⟨S2x2048x32x128, .i32⟩
  | 30 => ⟨S2x2048x32x128, .i32⟩
  | 31 => ⟨S2x2048x32x128, .i32⟩
  | 32 => ⟨S2x2048x32x128x1, .i32⟩
  | 33 => ⟨S1, .i32⟩
  | 34 => ⟨S_, .i32⟩
  | 35 => ⟨S2x2048x32x128x1, .i32⟩
  | 36 => ⟨S2x2048x32x128x1, .i1⟩
  | 37 => ⟨S1x1x1x1x1, .i32⟩
  | 38 => ⟨S2x2048x32x128x1, .i32⟩
  | 39 => ⟨S2x2048x32x128x1, .i1⟩
  | 40 => ⟨S2x2048x32x128x1, .i1⟩
  | 41 => ⟨S_, .i1⟩
  | 42 => ⟨S2x2048x32x128, .i1⟩
  | 43 => ⟨S2x2048x32x128, .f32⟩
  | 44 => ⟨S_, .f32⟩
  | 45 => ⟨S2x2048x32x128, .f32⟩
  | 46 => ⟨S2x2048x32x128, .f32⟩
  | 47 => ⟨S2x2048x32x1, .i1⟩
  | 48 => ⟨S2x2048x32x1, .f32⟩
  | 49 => ⟨S2x2048x32x128, .f32⟩
  | 50 => ⟨S2x2048x32x128, .f32⟩
  | 51 => ⟨S2x2048x32x256, .f32⟩
  | 52 => ⟨S2x2048x1x128, .f32⟩
  | 53 => ⟨S2x2048x32x128, .f32⟩
  | 54 => ⟨S2x2048x32x1, .i32⟩
  | 55 => ⟨S2x2048x32x128, .i32⟩
  | 56 => ⟨S_, .i32⟩
  | 57 => ⟨S2x2048x32x128, .i32⟩
  | 58 => ⟨S2x2048x32x128, .i1⟩
  | 59 => ⟨S_, .i32⟩
  | 60 => ⟨S2x2048x32x128, .i32⟩
  | 61 => ⟨S2x2048x32x128, .i32⟩
  | 62 => ⟨S2x2048x32x128, .i32⟩
  | 63 => ⟨S2x2048x32x128x1, .i32⟩
  | 64 => ⟨S1, .i32⟩
  | 65 => ⟨S_, .i32⟩
  | 66 => ⟨S2x2048x32x128x1, .i32⟩
  | 67 => ⟨S2x2048x32x128x1, .i1⟩
  | 68 => ⟨S1x1x1x1x1, .i32⟩
  | 69 => ⟨S2x2048x32x128x1, .i32⟩
  | 70 => ⟨S2x2048x32x128x1, .i1⟩
  | 71 => ⟨S2x2048x32x128x1, .i1⟩
  | 72 => ⟨S_, .i1⟩
  | 73 => ⟨S2x2048x32x128, .i1⟩
  | 74 => ⟨S2x2048x32x128, .f32⟩
  | 75 => ⟨S_, .f32⟩
  | 76 => ⟨S2x2048x32x128, .f32⟩
  | 77 => ⟨S2x2048x32x128, .f32⟩
  | 78 => ⟨S2x2048x1x128, .f32⟩
  | 79 => ⟨S2x2048x32x128, .f32⟩
  | 80 => ⟨S2x2048x32x1, .i32⟩
  | 81 => ⟨S2x2048x32x128, .i32⟩
  | 82 => ⟨S_, .i32⟩
  | 83 => ⟨S2x2048x32x128, .i32⟩
  | 84 => ⟨S2x2048x32x128, .i1⟩
  | 85 => ⟨S_, .i32⟩
  | 86 => ⟨S2x2048x32x128, .i32⟩
  | 87 => ⟨S2x2048x32x128, .i32⟩
  | 88 => ⟨S2x2048x32x128, .i32⟩
  | 89 => ⟨S2x2048x32x128x1, .i32⟩
  | 90 => ⟨S1, .i32⟩
  | 91 => ⟨S_, .i32⟩
  | 92 => ⟨S2x2048x32x128x1, .i32⟩
  | 93 => ⟨S2x2048x32x128x1, .i1⟩
  | 94 => ⟨S1x1x1x1x1, .i32⟩
  | 95 => ⟨S2x2048x32x128x1, .i32⟩
  | 96 => ⟨S2x2048x32x128x1, .i1⟩
  | 97 => ⟨S2x2048x32x128x1, .i1⟩
  | 98 => ⟨S_, .i1⟩
  | 99 => ⟨S2x2048x32x128, .i1⟩
  | 100 => ⟨S2x2048x32x128, .f32⟩
  | 101 => ⟨S_, .f32⟩
  | 102 => ⟨S2x2048x32x128, .f32⟩
  | 103 => ⟨S2x2048x32x128, .f32⟩
  | 104 => ⟨S2x2048x32x1, .i1⟩
  | 105 => ⟨S2x2048x32x128, .i1⟩
  | 106 => ⟨S2x2048x32x128, .f32⟩
  | 107 => ⟨S2x2048x32x512, .f32⟩
  | 108 => ⟨S2x2048x32x128, .f32⟩
  | 109 => ⟨S1x1x1x128, .f32⟩
  | 110 => ⟨S2x2048x32x128, .f32⟩
  | 111 => ⟨S2x2048x32x128, .f32⟩
  | 112 => ⟨S_, .f32⟩
  | 113 => ⟨S2x2048x32x128, .f32⟩
  | 114 => ⟨S2x2048x32x128, .f32⟩
  | 115 => ⟨S2x2048x32x128, .f32⟩
  | 116 => ⟨S_, .f32⟩
  | 117 => ⟨S2x2048x32x128, .f32⟩
  | 118 => ⟨S2x2048x32x128, .f32⟩
  | 119 => ⟨S2x2048x32x128, .f32⟩
  | 120 => ⟨S2x2048x32x128, .f32⟩
  | 121 => ⟨S2x2048x32x128, .f32⟩
  | 122 => ⟨S1x1x1x128, .f32⟩
  | 123 => ⟨S2x2048x32x128, .f32⟩
  | 124 => ⟨S2x2048x32x128, .f32⟩
  | 125 => ⟨S_, .f32⟩
  | 126 => ⟨S2x2048x32x128, .f32⟩
  | 127 => ⟨S2x2048x32x128, .f32⟩
  | _ => ⟨S2x2048x128, .f32⟩

abbrev hbmTy0_1 (i : Nat) : BufTy := match i % 128 with
  | 0 => ⟨S2x2048x32x128, .f32⟩
  | 1 => ⟨S_, .f32⟩
  | 2 => ⟨S2x2048x32x128, .f32⟩
  | 3 => ⟨S2x2048x32x128, .f32⟩
  | 4 => ⟨S2x2048x32x128, .f32⟩
  | 5 => ⟨S2x2048x32x128, .f32⟩
  | 6 => ⟨S2x2048x32x128, .f32⟩
  | 7 => ⟨S1x1x1x128, .f32⟩
  | 8 => ⟨S2x2048x32x128, .f32⟩
  | 9 => ⟨S2x2048x32x128, .f32⟩
  | 10 => ⟨S2x2048x32x1, .f32⟩
  | 11 => ⟨S2x2048x32x128, .f32⟩
  | 12 => ⟨S2x2048x32x128, .f32⟩
  | 13 => ⟨S_, .f32⟩
  | 14 => ⟨S2x2048x128, .f32⟩
  | 15 => ⟨S2x2048x128, .f32⟩
  | 16 => ⟨S_, .f32⟩
  | 17 => ⟨S2x2048, .f32⟩
  | 18 => ⟨S2x2048x1, .f32⟩
  | 19 => ⟨S_, .f32⟩
  | 20 => ⟨S2x2048x1, .f32⟩
  | 21 => ⟨S2x2048x1, .f32⟩
  | 22 => ⟨S_, .i32⟩
  | 23 => ⟨S_, .f32⟩
  | 24 => ⟨S2x2048, .f32⟩
  | 25 => ⟨S2x2048x1, .f32⟩
  | 26 => ⟨S_, .f32⟩
  | 27 => ⟨S2x2048x1, .f32⟩
  | 28 => ⟨S2x2048x1, .f32⟩
  | 29 => ⟨S2x2048x128, .f32⟩
  | 30 => ⟨S2x2048x128, .f32⟩
  | 31 => ⟨S2x2048x128, .f32⟩
  | 32 => ⟨S_, .f32⟩
  | 33 => ⟨S_, .f32⟩
  | 34 => ⟨S_, .f32⟩
  | 35 => ⟨S_, .f32⟩
  | 36 => ⟨S2x2048, .f32⟩
  | 37 => ⟨S2x2048x1, .f32⟩
  | 38 => ⟨S2x2048x1, .f32⟩
  | 39 => ⟨S2x2048x1, .f32⟩
  | 40 => ⟨S_, .f32⟩
  | 41 => ⟨S_, .i1⟩
  | 42 => ⟨S_, .f32⟩
  | 43 => ⟨S_, .f32⟩
  | 44 => ⟨S2x2048x1, .f32⟩
  | 45 => ⟨S2x2048x1, .f32⟩
  | 46 => ⟨S2x2048x128, .f32⟩
  | 47 => ⟨S2x2048x128, .f32⟩
  | 48 => ⟨S_, .f32⟩
  | 49 => ⟨S2x2048x1, .f32⟩
  | 50 => ⟨S2x2048x1, .f32⟩
  | 51 => ⟨S2x2048x1, .f32⟩
  | 52 => ⟨S2x2048x128, .f32⟩
  | 53 => ⟨S2x2048x128, .f32⟩
  | 54 => ⟨S1x1x128, .f32⟩
  | 55 => ⟨S2x2048x128, .f32⟩
  | 56 => ⟨S2x2048x128, .f32⟩
  | 57 => ⟨S1x1x128, .f32⟩
  | 58 => ⟨S2x2048x128, .f32⟩
  | 59 => ⟨S2x2048x128, .f32⟩
  | 60 => ⟨S2x2048x512, .f32⟩
  | 61 => ⟨S1x1x512, .f32⟩
  | 62 => ⟨S2x2048x512, .f32⟩
  | 63 => ⟨S2x2048x512, .f32⟩
  | 64 => ⟨S_, .f32⟩
  | 65 => ⟨S2x2048x512, .f32⟩
  | 66 => ⟨S2x2048x512, .f32⟩
  | 67 => ⟨S2x2048x512, .f32⟩
  | 68 => ⟨S_, .f32⟩
  | 69 => ⟨S2x2048x512, .f32⟩
  | 70 => ⟨S2x2048x512, .f32⟩
  | 71 => ⟨S2x2048x512, .f32⟩
  | 72 => ⟨S2x2048x512, .f32⟩
  | 73 => ⟨S2x2048x128, .f32⟩
  | 74 => ⟨S1x1x128, .f32⟩
  | 75 => ⟨S2x2048x128, .f32⟩
  | 76 => ⟨S2x2048x128, .f32⟩
  | 77 => ⟨S2x2048x128, .f32⟩
  | 78 => ⟨S_, .f32⟩
  | 79 => ⟨S2x2048, .f32⟩
  | 80 => ⟨S2x2048x1, .f32⟩
  | 81 => ⟨S_, .f32⟩
  | 82 => ⟨S2x2048x1, .f32⟩
  | 83 => ⟨S2x2048x1, .f32⟩
  | 84 => ⟨S_, .i32⟩
  | 85 => ⟨S_, .f32⟩
  | 86 => ⟨S2x2048, .f32⟩
  | 87 => ⟨S2x2048x1, .f32⟩
  | 88 => ⟨S_, .f32⟩
  | 89 => ⟨S2x2048x1, .f32⟩
  | 90 => ⟨S2x2048x1, .f32⟩
  | 91 => ⟨S2x2048x128, .f32⟩
  | 92 => ⟨S2x2048x128, .f32⟩
  | 93 => ⟨S2x2048x128, .f32⟩
  | 94 => ⟨S_, .f32⟩
  | 95 => ⟨S_, .f32⟩
  | 96 => ⟨S_, .f32⟩
  | 97 => ⟨S_, .f32⟩
  | 98 => ⟨S2x2048, .f32⟩
  | 99 => ⟨S2x2048x1, .f32⟩
  | 100 => ⟨S2x2048x1, .f32⟩
  | 101 => ⟨S2x2048x1, .f32⟩
  | 102 => ⟨S_, .f32⟩
  | 103 => ⟨S_, .i1⟩
  | 104 => ⟨S_, .f32⟩
  | 105 => ⟨S_, .f32⟩
  | 106 => ⟨S2x2048x1, .f32⟩
  | 107 => ⟨S2x2048x1, .f32⟩
  | 108 => ⟨S2x2048x128, .f32⟩
  | 109 => ⟨S2x2048x128, .f32⟩
  | 110 => ⟨S_, .f32⟩
  | 111 => ⟨S2x2048x1, .f32⟩
  | 112 => ⟨S2x2048x1, .f32⟩
  | 113 => ⟨S2x2048x1, .f32⟩
  | 114 => ⟨S2x2048x128, .f32⟩
  | 115 => ⟨S2x2048x128, .f32⟩
  | 116 => ⟨S1x1x128, .f32⟩
  | 117 => ⟨S2x2048x128, .f32⟩
  | 118 => ⟨S2x2048x128, .f32⟩
  | 119 => ⟨S1x1x128, .f32⟩
  | 120 => ⟨S2x2048x128, .f32⟩
  | 121 => ⟨S2x2048x128, .f32⟩
  | _ => ⟨S2x2048x128, .f32⟩

abbrev hbmTy (i : Nat) : BufTy := match i / 128 with
  | 0 => hbmTy0_0 i
  | 1 => hbmTy0_1 i
  | _ => ⟨S2x2048x128, .f32⟩

abbrev bufTy : (tb : Table) → Fin (tcTables nBuf tb) → BufTy
  | .hbm, ⟨i, _⟩ => hbmTy i
  | _, _ => ⟨S2x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_cst : Ref sig .tc := ⟨.hbm, 44, rfl⟩
abbrev main_call0_v14 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_cst : Ref sig .tc := ⟨.hbm, 75, rfl⟩
abbrev main_call1_v14 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_cst : Ref sig .tc := ⟨.hbm, 101, rfl⟩
abbrev main_call2_v14 : Ref sig .tc := ⟨.hbm, 102, rfl⟩
abbrev main_v19 : Ref sig .tc := ⟨.hbm, 103, rfl⟩
abbrev main_v20 : Ref sig .tc := ⟨.hbm, 104, rfl⟩
abbrev main_call3_v0 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_cst : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_cst_0 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_cst_1 : Ref sig .tc := ⟨.hbm, 125, rfl⟩
abbrev main_v38 : Ref sig .tc := ⟨.hbm, 126, rfl⟩
abbrev main_v39 : Ref sig .tc := ⟨.hbm, 127, rfl⟩
abbrev main_v40 : Ref sig .tc := ⟨.hbm, 128, rfl⟩
abbrev main_cst_2 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_cst_3 : Ref sig .tc := ⟨.hbm, 141, rfl⟩
abbrev main_v52 : Ref sig .tc := ⟨.hbm, 142, rfl⟩
abbrev main_v53 : Ref sig .tc := ⟨.hbm, 143, rfl⟩
abbrev main_cst_4 : Ref sig .tc := ⟨.hbm, 144, rfl⟩
abbrev main_v54 : Ref sig .tc := ⟨.hbm, 145, rfl⟩
abbrev main_v55 : Ref sig .tc := ⟨.hbm, 146, rfl⟩
abbrev main_cst_5 : Ref sig .tc := ⟨.hbm, 147, rfl⟩
abbrev main_v56 : Ref sig .tc := ⟨.hbm, 148, rfl⟩
abbrev main_v57 : Ref sig .tc := ⟨.hbm, 149, rfl⟩
abbrev main_c : Ref sig .tc := ⟨.hbm, 150, rfl⟩
abbrev main_call4_cst : Ref sig .tc := ⟨.hbm, 151, rfl⟩
abbrev main_call4_v0 : Ref sig .tc := ⟨.hbm, 152, rfl⟩
abbrev main_call4_v1 : Ref sig .tc := ⟨.hbm, 153, rfl⟩
abbrev main_call4_cst_0 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_call4_v5 : Ref sig .tc := ⟨.hbm, 158, rfl⟩
abbrev main_call4_v6 : Ref sig .tc := ⟨.hbm, 159, rfl⟩
abbrev main_call4_v7 : Ref sig .tc := ⟨.hbm, 160, rfl⟩
abbrev main_call4_cst_1 : Ref sig .tc := ⟨.hbm, 161, rfl⟩
abbrev main_call4_v8 : Ref sig .tc := ⟨.hbm, 162, rfl⟩
abbrev main_call4_cst_2 : Ref sig .tc := ⟨.hbm, 163, rfl⟩
abbrev main_call4_v9 : Ref sig .tc := ⟨.hbm, 164, rfl⟩
abbrev main_call4_v10 : Ref sig .tc := ⟨.hbm, 165, rfl⟩
abbrev main_call4_v11 : Ref sig .tc := ⟨.hbm, 166, rfl⟩
abbrev main_call4_v12 : Ref sig .tc := ⟨.hbm, 167, rfl⟩
abbrev main_call4_cst_3 : Ref sig .tc := ⟨.hbm, 168, rfl⟩
abbrev main_call4_v13 : Ref sig .tc := ⟨.hbm, 169, rfl⟩
abbrev main_call4_cst_4 : Ref sig .tc := ⟨.hbm, 170, rfl⟩
abbrev main_call4_call0_v0 : Ref sig .tc := ⟨.hbm, 171, rfl⟩
abbrev main_call4_call0_v1 : Ref sig .tc := ⟨.hbm, 172, rfl⟩
abbrev main_v58 : Ref sig .tc := ⟨.hbm, 173, rfl⟩
abbrev main_v59 : Ref sig .tc := ⟨.hbm, 174, rfl⟩
abbrev main_v60 : Ref sig .tc := ⟨.hbm, 175, rfl⟩
abbrev main_cst_6 : Ref sig .tc := ⟨.hbm, 176, rfl⟩
abbrev main_v61 : Ref sig .tc := ⟨.hbm, 177, rfl⟩
abbrev main_v62 : Ref sig .tc := ⟨.hbm, 178, rfl⟩
abbrev main_v63 : Ref sig .tc := ⟨.hbm, 179, rfl⟩
abbrev main_v64 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_v68 : Ref sig .tc := ⟨.hbm, 184, rfl⟩
abbrev main_v69 : Ref sig .tc := ⟨.hbm, 185, rfl⟩
abbrev main_v70 : Ref sig .tc := ⟨.hbm, 186, rfl⟩
abbrev main_v71 : Ref sig .tc := ⟨.hbm, 187, rfl⟩
abbrev main_v72 : Ref sig .tc := ⟨.hbm, 188, rfl⟩
abbrev main_v73 : Ref sig .tc := ⟨.hbm, 189, rfl⟩
abbrev main_v74 : Ref sig .tc := ⟨.hbm, 190, rfl⟩
abbrev main_v75 : Ref sig .tc := ⟨.hbm, 191, rfl⟩
abbrev main_cst_7 : Ref sig .tc := ⟨.hbm, 192, rfl⟩
abbrev main_v76 : Ref sig .tc := ⟨.hbm, 193, rfl⟩
abbrev main_v77 : Ref sig .tc := ⟨.hbm, 194, rfl⟩
abbrev main_v78 : Ref sig .tc := ⟨.hbm, 195, rfl⟩
abbrev main_cst_8 : Ref sig .tc := ⟨.hbm, 196, rfl⟩
abbrev main_v79 : Ref sig .tc := ⟨.hbm, 197, rfl⟩
abbrev main_v80 : Ref sig .tc := ⟨.hbm, 198, rfl⟩
abbrev main_v81 : Ref sig .tc := ⟨.hbm, 199, rfl⟩
abbrev main_v82 : Ref sig .tc := ⟨.hbm, 200, rfl⟩
abbrev main_v83 : Ref sig .tc := ⟨.hbm, 201, rfl⟩
abbrev main_v84 : Ref sig .tc := ⟨.hbm, 202, rfl⟩
abbrev main_v85 : Ref sig .tc := ⟨.hbm, 203, rfl⟩
abbrev main_v86 : Ref sig .tc := ⟨.hbm, 204, rfl⟩
abbrev main_v87 : Ref sig .tc := ⟨.hbm, 205, rfl⟩
abbrev main_cst_9 : Ref sig .tc := ⟨.hbm, 206, rfl⟩
abbrev main_v88 : Ref sig .tc := ⟨.hbm, 207, rfl⟩
abbrev main_v89 : Ref sig .tc := ⟨.hbm, 208, rfl⟩
abbrev main_cst_10 : Ref sig .tc := ⟨.hbm, 209, rfl⟩
abbrev main_v90 : Ref sig .tc := ⟨.hbm, 210, rfl⟩
abbrev main_v91 : Ref sig .tc := ⟨.hbm, 211, rfl⟩
abbrev main_c_11 : Ref sig .tc := ⟨.hbm, 212, rfl⟩
abbrev main_call5_cst : Ref sig .tc := ⟨.hbm, 213, rfl⟩
abbrev main_call5_v0 : Ref sig .tc := ⟨.hbm, 214, rfl⟩
abbrev main_call5_v1 : Ref sig .tc := ⟨.hbm, 215, rfl⟩
abbrev main_call5_cst_0 : Ref sig .tc := ⟨.hbm, 216, rfl⟩
abbrev main_call5_v2 : Ref sig .tc := ⟨.hbm, 217, rfl⟩
abbrev main_call5_v3 : Ref sig .tc := ⟨.hbm, 218, rfl⟩
abbrev main_call5_v4 : Ref sig .tc := ⟨.hbm, 219, rfl⟩
abbrev main_call5_v5 : Ref sig .tc := ⟨.hbm, 220, rfl⟩
abbrev main_call5_v6 : Ref sig .tc := ⟨.hbm, 221, rfl⟩
abbrev main_call5_v7 : Ref sig .tc := ⟨.hbm, 222, rfl⟩
abbrev main_call5_cst_1 : Ref sig .tc := ⟨.hbm, 223, rfl⟩
abbrev main_call5_v8 : Ref sig .tc := ⟨.hbm, 224, rfl⟩
abbrev main_call5_cst_2 : Ref sig .tc := ⟨.hbm, 225, rfl⟩
abbrev main_call5_v9 : Ref sig .tc := ⟨.hbm, 226, rfl⟩
abbrev main_call5_v10 : Ref sig .tc := ⟨.hbm, 227, rfl⟩
abbrev main_call5_v11 : Ref sig .tc := ⟨.hbm, 228, rfl⟩
abbrev main_call5_v12 : Ref sig .tc := ⟨.hbm, 229, rfl⟩
abbrev main_call5_cst_3 : Ref sig .tc := ⟨.hbm, 230, rfl⟩
abbrev main_call5_v13 : Ref sig .tc := ⟨.hbm, 231, rfl⟩
abbrev main_call5_cst_4 : Ref sig .tc := ⟨.hbm, 232, rfl⟩
abbrev main_call5_call0_v0 : Ref sig .tc := ⟨.hbm, 233, rfl⟩
abbrev main_call5_call0_v1 : Ref sig .tc := ⟨.hbm, 234, rfl⟩
abbrev main_v92 : Ref sig .tc := ⟨.hbm, 235, rfl⟩
abbrev main_v93 : Ref sig .tc := ⟨.hbm, 236, rfl⟩
abbrev main_v94 : Ref sig .tc := ⟨.hbm, 237, rfl⟩
abbrev main_cst_12 : Ref sig .tc := ⟨.hbm, 238, rfl⟩
abbrev main_v95 : Ref sig .tc := ⟨.hbm, 239, rfl⟩
abbrev main_v96 : Ref sig .tc := ⟨.hbm, 240, rfl⟩
abbrev main_v97 : Ref sig .tc := ⟨.hbm, 241, rfl⟩
abbrev main_v98 : Ref sig .tc := ⟨.hbm, 242, rfl⟩
abbrev main_v99 : Ref sig .tc := ⟨.hbm, 243, rfl⟩
abbrev main_v100 : Ref sig .tc := ⟨.hbm, 244, rfl⟩
abbrev main_v101 : Ref sig .tc := ⟨.hbm, 245, rfl⟩
abbrev main_v102 : Ref sig .tc := ⟨.hbm, 246, rfl⟩
abbrev main_v103 : Ref sig .tc := ⟨.hbm, 247, rfl⟩
abbrev main_v104 : Ref sig .tc := ⟨.hbm, 248, rfl⟩
abbrev main_v105 : Ref sig .tc := ⟨.hbm, 249, rfl⟩

abbrev nD : Nat := 1
abbrev τ : Topo := Topo.v7x

variable {F : FTy → Type} [FloatOps F]

class Facts₀ : Prop where
  bcast_S2x2048x128_S2x2048x1x128_0_1_3 : S2x2048x128.BroadcastsInDim S2x2048x1x128 (![0, 1, 3] : Fin 3 → Fin S2x2048x1x128.rank)
  bcast_S2x2048x1x128_S2x2048x32x128_0_1_2_3 : S2x2048x1x128.BroadcastsInDim S2x2048x32x128 (![0, 1, 2, 3] : Fin 4 → Fin S2x2048x32x128.rank)
  bcast_S2x2048x32_S2x2048x32x1_0_1_2 : S2x2048x32.BroadcastsInDim S2x2048x32x1 (![0, 1, 2] : Fin 3 → Fin S2x2048x32x1.rank)
  bcast_S2x2048x32x1_S2x2048x32x128_0_1_2_3 : S2x2048x32x1.BroadcastsInDim S2x2048x32x128 (![0, 1, 2, 3] : Fin 4 → Fin S2x2048x32x128.rank)
  bcast_S_S2x2048x32x128 : S_.BroadcastsInDim S2x2048x32x128 (![] : Fin 0 → Fin S2x2048x32x128.rank)
  shapeCasts_S2x2048x32x128_S2x2048x32x128x1 : S2x2048x32x128.ShapeCasts S2x2048x32x128x1
  bcast_S_S2x2048x32x128x1 : S_.BroadcastsInDim S2x2048x32x128x1 (![] : Fin 0 → Fin S2x2048x32x128x1.rank)
  bcast_S1_S1x1x1x1x1_4 : S1.BroadcastsInDim S1x1x1x1x1 (![4] : Fin 1 → Fin S1x1x1x1x1.rank)
  bcast_S1x1x1x1x1_S2x2048x32x128x1_0_1_2_3_4 : S1x1x1x1x1.BroadcastsInDim S2x2048x32x128x1 (![0, 1, 2, 3, 4] : Fin 5 → Fin S2x2048x32x128x1.rank)
  reducesTo_S2x2048x32x128x1_S2x2048x32x128_d4 : S2x2048x32x128x1.ReducesTo [4] S2x2048x32x128
  h_S_ : 0 < S_.numel
  concatenates_S2x2048x32x128_S2x2048x32x128_S2x2048x32x256_d3 : Shape.Concatenates [S2x2048x32x128, S2x2048x32x128] S2x2048x32x256 3
  concatenates_S2x2048x32x128_S2x2048x32x128_S2x2048x32x256_S2x2048x32x512_d3 : Shape.Concatenates [S2x2048x32x128, S2x2048x32x128, S2x2048x32x256] S2x2048x32x512 3
  bcast_S128_S1x1x1x128_3 : S128.BroadcastsInDim S1x1x1x128 (![3] : Fin 1 → Fin S1x1x1x128.rank)
  bcast_S1x1x1x128_S2x2048x32x128_0_1_2_3 : S1x1x1x128.BroadcastsInDim S2x2048x32x128 (![0, 1, 2, 3] : Fin 4 → Fin S2x2048x32x128.rank)
  reducesTo_S2x2048x32x128_S2x2048x128_d2 : S2x2048x32x128.ReducesTo [2] S2x2048x128
  reducesTo_S2x2048x128_S2x2048_d2 : S2x2048x128.ReducesTo [2] S2x2048
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x128_0_1_2 : S2x2048x1.BroadcastsInDim S2x2048x128 (![0, 1, 2] : Fin 3 → Fin S2x2048x128.rank)
  bcast_S128_S1x1x128_2 : S128.BroadcastsInDim S1x1x128 (![2] : Fin 1 → Fin S1x1x128.rank)
  bcast_S1x1x128_S2x2048x128_0_1_2 : S1x1x128.BroadcastsInDim S2x2048x128 (![0, 1, 2] : Fin 3 → Fin S2x2048x128.rank)
  bcast_S512_S1x1x512_2 : S512.BroadcastsInDim S1x1x512 (![2] : Fin 1 → Fin S1x1x512.rank)
  bcast_S1x1x512_S2x2048x512_0_1_2 : S1x1x512.BroadcastsInDim S2x2048x512 (![0, 1, 2] : Fin 3 → Fin S2x2048x512.rank)
  bcast_S_S2x2048x512 : S_.BroadcastsInDim S2x2048x512 (![] : Fin 0 → Fin S2x2048x512.rank)
  gather_S2x2048x32x128_S2x2048x32x128x1_S2x2048x32x128_n_1_023_023_1_4_1111_wf : GatherDims.WF S2x2048x32x128 S2x2048x32x128x1 S2x2048x32x128 [] [1] [0, 2, 3] [1] [0, 2, 3] 4 ![1, 1, 1, 1]
  dot_S2x2048x32x512_S512x128_S2x2048x32x128_3_0_012_1_n_n_wf : DotDims.WF S2x2048x32x512 S512x128 S2x2048x32x128 [3] [0] [0, 1, 2] [1] [] []
  dot_S2x2048x32x128_S128x128_S2x2048x32x128_3_0_012_1_n_n_wf : DotDims.WF S2x2048x32x128 S128x128 S2x2048x32x128 [3] [0] [0, 1, 2] [1] [] []
  dot_S2x2048x128_S128x512_S2x2048x512_2_0_01_1_n_n_wf : DotDims.WF S2x2048x128 S128x512 S2x2048x512 [2] [0] [0, 1] [1] [] []
  dot_S2x2048x512_S512x128_S2x2048x128_2_0_01_1_n_n_wf : DotDims.WF S2x2048x512 S512x128 S2x2048x128 [2] [0] [0, 1] [1] [] []

variable [Facts₀]

def gather_S2x2048x32x128_S2x2048x32x128x1_S2x2048x32x128_n_1_023_023_1_4_1111 : GatherDims S2x2048x32x128 S2x2048x32x128x1 S2x2048x32x128 where
  offsetDims := []
  collapsedSliceDims := [1]
  operandBatchingDims := [0, 2, 3]
  startIndicesBatchingDims := [0, 2, 3]
  startIndexMap := [1]
  indexVectorDim := 4
  sliceSizes := ![1, 1, 1, 1]
  wf := gather_S2x2048x32x128_S2x2048x32x128x1_S2x2048x32x128_n_1_023_023_1_4_1111_wf
def dot_S2x2048x32x512_S512x128_S2x2048x32x128_3_0_012_1_n_n : DotDims S2x2048x32x512 S512x128 S2x2048x32x128 where
  lhsContracting := [3]
  rhsContracting := [0]
  lhsNonContracting := [0, 1, 2]
  rhsNonContracting := [1]
  lhsBatch := []
  rhsBatch := []
  wf := dot_S2x2048x32x512_S512x128_S2x2048x32x128_3_0_012_1_n_n_wf
def dot_S2x2048x32x128_S128x128_S2x2048x32x128_3_0_012_1_n_n : DotDims S2x2048x32x128 S128x128 S2x2048x32x128 where
  lhsContracting := [3]
  rhsContracting := [0]
  lhsNonContracting := [0, 1, 2]
  rhsNonContracting := [1]
  lhsBatch := []
  rhsBatch := []
  wf := dot_S2x2048x32x128_S128x128_S2x2048x32x128_3_0_012_1_n_n_wf
def dot_S2x2048x128_S128x512_S2x2048x512_2_0_01_1_n_n : DotDims S2x2048x128 S128x512 S2x2048x512 where
  lhsContracting := [2]
  rhsContracting := [0]
  lhsNonContracting := [0, 1]
  rhsNonContracting := [1]
  lhsBatch := []
  rhsBatch := []
  wf := dot_S2x2048x128_S128x512_S2x2048x512_2_0_01_1_n_n_wf
def dot_S2x2048x512_S512x128_S2x2048x128_2_0_01_1_n_n : DotDims S2x2048x512 S512x128 S2x2048x128 where
  lhsContracting := [2]
  rhsContracting := [0]
  lhsNonContracting := [0, 1]
  rhsNonContracting := [1]
  lhsBatch := []
  rhsBatch := []
  wf := dot_S2x2048x512_S512x128_S2x2048x128_2_0_01_1_n_n_wf

class Facts : Prop extends Facts₀ where

variable [Facts]
-- ==== Proof.ScBase.lean ====
/-
  The idealized kernel's program as the SparseCore launch theorem sees it: the call table, the body table, the
  variants, the program's stated facts about the launch semaphores, and the ghost state — the handshakes' rounds,
  the subcore barrier cells' rounds, the TensorCore pipelines' staging cells' rounds, and the transfers' counters.
-/
import proofs.«208327_g62569083568895_cont_9to1c4b_407_46_alg».proof.KernelIdeal
import proofs.«208327_g62569083568895_cont_9to1c4b_407_46_alg».proof.Proof.Gen.KernelIdeal
import proofs.«208327_g62569083568895_cont_9to1c4b_407_46_alg».proof.Proof.Gen.KernelIdeal.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore pipelines' staging cells' rounds library. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

end Cert.KernelIdeal.Sc

end
-- ==== Proof.ScCells.lean ====
/-
  The subcore barrier of the gather kernel as cells of the rounds library, and what it carries. On each SparseCore the
  first vector subcore copies the whole table into the SparseCore's shared vector memory and every subcore then meets
  the others at the barrier; what the barrier hands over is READ ACCESS to that copy: the first subcore's duty in
  subcore j's round carries the j-th of sixteen read shares of the shared table, at the table's contents. The other
  duties carry nothing.
-/
import proofs.«208327_g62569083568895_cont_9to1c4b_407_46_alg».proof.Proof.ScBase

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays the kernel touches -/

/-- The table in HBM (the first TensorCore call's first result), the index list (its third result, reshaped) and the
    gathered rows (the SparseCore call's result). -/
abbrev tabLoc (d : Dev nD) : Loc nD τ sig := (SparseCore.T d).loc main_v1_0
abbrev idxLoc (d : Dev nD) : Loc nD τ sig := (SparseCore.T d).loc main_v2
abbrev outLoc (d : Dev nD) : Loc nD τ sig := (SparseCore.T d).loc main_v3

/-- SparseCore `c`'s shared vector memory, as every subcore of it addresses it. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem bound_one : grid1.bound 1 = 16 := rfl
theorem bound_zero : grid1.bound 0 = 2 := rfl

variable (Tab : (d : Dev nD) → Buf (Elt F) (tabLoc d))

/-- The table's contents as contents of SparseCore `c`'s shared memory: the same 8192 × 128 numbers. -/
def TabSh (d : Dev nD) (c : Fin τ.nSC) : Buf (Elt F) (shLoc d c) := fun i => Tab d i

/-- The j-th of sixteen read shares of the shared table. -/
abbrev shTok (j : Fin 16) : PosShare TreeShare := Transfers.shareTok fullShare 16 j
abbrev shShare (d : Dev nD) (c : Fin τ.nSC) (j : Fin 16) : sProp 𝕄 := shLoc d c ↦{shTok j} TabSh Tab d c

/-! ## The barrier cells -/

variable [FloatOps F]

/-- Subcore `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What a duty in subcore `j`'s round hands over: the first subcore's, subcore `j`'s read share of the shared table;
    the others', nothing. -/
def bPay (g : GSem nD τ sig) (n : ℕ) : sProp 𝕄 :=
  match g with
  | ((d, .scVector c j), _) => if n = 0 then shShare Tab d c (Fin.cast nSub_eq j) else iprop(emp)
  | _ => iprop(emp)

/-- The barrier cells' schedule: one round on each, of one unit duty per subcore of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay Tab g n
  amount_pos _ _ _ _ := Nat.one_pos

instance bRd_payload_storable (g : GSem nD τ sig) (r n : ℕ) : BI.Storable (upEmb : UEmb _ 𝕄) ((bRd (F := F) Tab).payload g r n) := by
  show BI.Storable upEmb (bPay Tab g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) Tab).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) Tab).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) Tab).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a subcore owe for the barrier: a unit on every subcore's cell of its SparseCore, at the call's
    index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Subcore `(c, i)`'s barrier kit: every subcore's cell invariant of its SparseCore and that each has reached round 0,
    its own position at the origin of round 0, its duty token in every subcore's round 0, and the credit for the sixteen
    units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) Tab) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

end Cert.KernelIdeal.Sc

end
-- ==== Proof.ScTile.lean ====
/-
  One vector subcore's task of the gather kernel: what it is handed, what it hands back, and its run.
-/
import proofs.«208327_g62569083568895_cont_9to1c4b_407_46_alg».proof.Proof.ScCells

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_0_scv : Memref Cert.KernelIdeal.sig Kind.scVector Space.hbm Cert.KernelIdeal.S8192x128 EltTy.f32)
local notation "iV" => (Memref.whole Cert.KernelIdeal.main_v2_scv : Memref Cert.KernelIdeal.sig Kind.scVector Space.hbm Cert.KernelIdeal.S1024x128 EltTy.i32)
local notation "oV" => (Memref.whole Cert.KernelIdeal.main_v3_scv : Memref Cert.KernelIdeal.sig Kind.scVector Space.hbm Cert.KernelIdeal.S131072x128 EltTy.f32)
local notation "s0V" => (Memref.whole Cert.KernelIdeal.cc1_scratch0 : Memref Cert.KernelIdeal.sig Kind.scVector Space.vmem Cert.KernelIdeal.S32x128 EltTy.i32)
local notation "s1V" => (Memref.whole Cert.KernelIdeal.cc1_scratch1 : Memref Cert.KernelIdeal.sig Kind.scVector Space.vmem Cert.KernelIdeal.S2x128x128 EltTy.f32)
local notation "shV" => (Memref.whole Cert.KernelIdeal.cc1_scratch2 : Memref Cert.KernelIdeal.sig Kind.scVector Space.shared Cert.KernelIdeal.S8192x128 EltTy.f32)

variable (Tab : (d : Dev nD) → Buf (Elt F) (tabLoc d)) (Idx : (d : Dev nD) → Buf (Elt F) (idxLoc d))

section Tile

variable (d : Dev nD) (L : grid1.Coords)

abbrev cV (L : grid1.Coords) : Fin τ.nSC := (L 0).castLE hcore1
abbrev jV (L : grid1.Coords) : Fin τ.nSub := (L 1).castLE hsub1
abbrev jL (L : grid1.Coords) : Fin 16 := Fin.cast bound_one (L 1)

/-- The subcore's thirty-two rows of the index list, and its k-th block of 128 rows of the result. -/
abbrev idxChunk (L : grid1.Coords) : Memref sig .scVector .hbm S32x128 .i32 :=
  (iV).slice (Rect.unit (s := S1024x128) (k1_off1 L) S32x128.size (k1_off1_inb L)) (fun _ => rfl)
abbrev outBlk (L : grid1.Coords) (k : Fin k1_t1_loop.trips) : Memref sig .scVector .hbm S128x128 .f32 :=
  (oV).slice (Rect.unit (s := S131072x128) (k1_off8 L k) S128x128.size (k1_off8_inb L k)) (fun _ => rfl)

variable [FloatOps F]

abbrev gCell (d : Dev nD) (c : Fin τ.nSC) (i : Fin τ.nSub) : GSem nD τ sig := (V d c i, .dma cc1_scratch3.sem)
abbrev oCell (d : Dev nD) (c : Fin τ.nSC) (i : Fin τ.nSub) : GSem nD τ sig := (V d c i, .dma cc1_scratch4.sem)
abbrev aCell (d : Dev nD) (c : Fin τ.nSC) (i : Fin τ.nSub) : GSem nD τ sig := (V d c i, .dma cc1_scoped0.sem)
abbrev bCell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (gCell d (cV L) (jV L)) 0 ∗ semVal (oCell d (cV L) (jV L)) 0 ∗ semVal (aCell d (cV L) (jV L)) 0 ∗ semVal (bCell d (cV L) (jV L)) 0
          ∗ bigSep (((((ownCells (V d (cV L) (jV L))).erase (gCell d (cV L) (jV L))).erase (oCell d (cV L) (jV L))).erase (aCell d (cV L) (jV L))).erase (bCell d (cV L) (jV L))) fun g => semVal g 0) := by
  unfold SparseCore.Cfg.ownSems0
  rw [SparseCore.bigSep_erase' ((mem_ownCells (g := gCell d (cV L) (jV L))).mpr ⟨rfl, by
      show (SemLoc.dma cc1_scratch3.sem : SemLoc sig).isScoped .scVector = true; decide⟩),
    SparseCore.bigSep_erase' (Finset.mem_erase.mpr ⟨by simp [gCell, oCell]; decide, (mem_ownCells (g := oCell d (cV L) (jV L))).mpr ⟨rfl, by
      show (SemLoc.dma cc1_scratch4.sem : SemLoc sig).isScoped .scVector = true; decide⟩⟩),
    SparseCore.bigSep_erase' (Finset.mem_erase.mpr ⟨by simp [oCell, aCell]; decide, Finset.mem_erase.mpr ⟨by simp [gCell, aCell]; decide,
      (mem_ownCells (g := aCell d (cV L) (jV L))).mpr ⟨rfl, by show (SemLoc.dma cc1_scoped0.sem : SemLoc sig).isScoped .scVector = true; decide⟩⟩⟩),
    SparseCore.bigSep_erase' (Finset.mem_erase.mpr ⟨by simp [aCell, bCell]; decide, Finset.mem_erase.mpr ⟨by simp [oCell, bCell]; decide, Finset.mem_erase.mpr ⟨by simp [gCell, bCell]; decide,
      (mem_ownCells (g := bCell d (cV L) (jV L))).mpr ⟨rfl, by show (SemLoc.dma cc1_scoped1.sem : SemLoc sig).isScoped .scVector = true; decide⟩⟩⟩⟩)]

omit [FloatOps F] in
/-- The index scratch and the two-slot row scratch are among the subcore's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase ((Proc.scVector (cV L) (jV L)).devRef cc1_scratch1))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc1_scratch0) rfl),
    SparseCore.bigSep_erase' (Finset.mem_erase.mpr ⟨(by intro e; have h := congrArg (fun b => b.idx.val) e; exact absurd h (by show (1 : Nat) ≠ 0; decide)), SparseCore.Cfg.mem_ownRefs_of_owner (p := Proc.scVector (cV L) (jV L)) (b := (Proc.scVector (cV L) (jV L)).devRef cc1_scratch1) rfl⟩)]

end Tile

end Cert.KernelIdeal.Sc

end
-- ==== Proof.ScPay.lean ====
/-
  What the SparseCore call's handshakes carry. The TensorCore hands each SparseCore a read share of the table, its
  subcores' rows of the index list and their blocks of the result; the sequencer hands each subcore its own, and the
  first subcore also the table's share and the SparseCore's shared memory; each subcore hands back what it was given,
  its blocks written, and its read share of the shared table (the first, also the rest of it).
-/
import proofs.«208327_g62569083568895_cont_9to1c4b_407_46_alg».proof.Proof.ScTile

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

/-- The grid point of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The share of the HBM table a SparseCore's first subcore reads it through. -/
abbrev tabTok (L : grid1.Coords) : PosShare TreeShare := Transfers.shareTok fullShare 2 (Fin.cast bound_zero (L 0))

local notation "tV" => (Memref.whole Cert.KernelIdeal.main_v1_0_scv : Memref Cert.KernelIdeal.sig Kind.scVector Space.hbm Cert.KernelIdeal.S8192x128 EltTy.f32)

theorem inb_chunkRow (k : Fin k1_t1_loop.trips) : ∀ a, (![k.val, 0] : Fin 2 → Nat) a + S1x128.size a ≤ S32x128.size a := by
  revert k; decide

/-- The k-th row of a subcore's rows of the index list. -/
abbrev chunkRow (L : grid1.Coords) (k : Fin k1_t1_loop.trips) : Memref sig .scVector .hbm S128 .i32 :=
  ((idxChunk L).slice (Rect.unit (s := S32x128) ![k.val, 0] S1x128.size (inb_chunkRow k)) (fun _ => rfl)).squeeze S128 squeezes_S1x128_S128

/-- What block k of a subcore's rows of the result must hold: the rows of the table that the k-th row of its rows of
    the index list names. -/
def ExpBlk (d : Dev nD) (L : grid1.Coords) (k : Fin k1_t1_loop.trips)
    (hb : ∀ x, (View.read (Elt F) (chunkRow L k).view (Idx d) x).toNat < S8192x128.size gathers_S8192x128_S128x128.axis) : S128x128.Idx → Elt F .f32 :=
  SparseCore.gatherPayload gathers_S8192x128_S128x128 (View.read (Elt F) (tV).view (Tab d))
    (SparseCore.rows (View.read (Elt F) (chunkRow L k).view (Idx d)) rfl hb)

variable [FloatOps F]

/-- Block k of a subcore's rows of the result, written: at contents that are the gathered rows. -/
abbrev BlkDone (d : Dev nD) (L : grid1.Coords) (k : Fin k1_t1_loop.trips) : sProp 𝕄 :=
  iprop(∃ f, (outLoc d ↦[(outBlk L k).view.set]{fullShare} f)
    ∗ ⌜∀ hb, View.read (Elt F) (outBlk L k).view f = ExpBlk Tab Idx d L k hb⌝)

section Tile

variable (d : Dev nD) (L : grid1.Coords)

/-- What the subcore is handed: its rows of the index list, its blocks of the result at contents not chosen; the first
    subcore of a SparseCore also a read share of the table and the SparseCore's shared memory. -/
abbrev goTile : sProp 𝕄 :=
  iprop((if (L 1).val = 0 then iprop((tabLoc d ↦{tabTok L} Tab d) ∗ ∃ f, shLoc d (cV L) ↦{fullShare} f) else iprop(emp))
    ∗ (idxLoc d ↦[(idxChunk L).view.set]{fullShare} Idx d)
    ∗ bigSep Finset.univ fun k : Fin k1_t1_loop.trips => iprop(∃ f, outLoc d ↦[(outBlk L k).view.set]{fullShare} f))

/-- What it hands back. -/
abbrev tdTile : sProp 𝕄 :=
  iprop((if (L 1).val = 0 then iprop((tabLoc d ↦{tabTok L} Tab d) ∗ shLoc d (cV L) ↦{Transfers.shareDrop fullShare 16} TabSh Tab d (cV L)) else iprop(emp))
    ∗ shShare Tab d (cV L) (jL L)
    ∗ (idxLoc d ↦[(idxChunk L).view.set]{fullShare} Idx d)
    ∗ bigSep Finset.univ fun k : Fin k1_t1_loop.trips => BlkDone Tab Idx d L k)

end Tile

/-- What the TensorCore hands SparseCore `c` at the call, and gets back. -/
abbrev stCore (d : Dev nD) (c : Fin (grid1.bound 0)) : sProp 𝕄 :=
  iprop((tabLoc d ↦{Transfers.shareTok fullShare 2 (Fin.cast bound_zero c)} Tab d)
    ∗ (bigSep Finset.univ fun s : Fin (grid1.bound 1) => idxLoc d ↦[(idxChunk (coordsV c s)).view.set]{fullShare} Idx d)
    ∗ bigSep Finset.univ fun s : Fin (grid1.bound 1) => bigSep Finset.univ fun k : Fin k1_t1_loop.trips =>
        iprop(∃ f, outLoc d ↦[(outBlk (coordsV c s) k).view.set]{fullShare} f))

/-- What the TensorCore gets back from SparseCore `c`: the same, the blocks written with the gathered rows. -/
abbrev dnCore (d : Dev nD) (c : Fin (grid1.bound 0)) : sProp 𝕄 :=
  iprop((tabLoc d ↦{Transfers.shareTok fullShare 2 (Fin.cast bound_zero c)} Tab d)
    ∗ (bigSep Finset.univ fun s : Fin (grid1.bound 1) => idxLoc d ↦[(idxChunk (coordsV c s)).view.set]{fullShare} Idx d)
    ∗ bigSep Finset.univ fun s : Fin (grid1.bound 1) => bigSep Finset.univ fun k : Fin k1_t1_loop.trips =>
        BlkDone Tab Idx d (coordsV c s) k)

def P : (K (F := F)).Pay (nD := nD) (Val := Elt F) (Name := ℕ) (U := UU) where
  st := fun q d c => match q with | 0 => stCore Tab Idx d c
  dn := fun q d c => match q with | 0 => dnCore Tab Idx d c
  go := fun q d c i => match q with | 0 => goTile Tab Idx d (coordsV c i)
  td := fun q d c i => match q with | 0 => tdTile Tab Idx d (coordsV c i)
  x := fun _ thr => match thr with
    | (d, .scVector c i) => if c.val < 2 then bkit Tab d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub1) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) Tab Idx).IsStorable where
  st q d c := match q with
    | 0 => (inferInstance : BI.Storable (upEmb : UEmb _ 𝕄) (stCore Tab Idx d c))
  dn q d c := match q with
    | 0 => (inferInstance : BI.Storable (upEmb : UEmb _ 𝕄) (dnCore Tab Idx d c))
  go q d c i := match q with
    | 0 => by
      show BI.Storable (upEmb : UEmb _ 𝕄) (goTile Tab Idx d (coordsV c i))
      unfold goTile; split <;> infer_instance
  td q d c i := match q with
    | 0 => by
      show BI.Storable (upEmb : UEmb _ 𝕄) (tdTile Tab Idx d (coordsV c i))
      unfold tdTile; split <;> infer_instance

end Cert.KernelIdeal.Sc

end
-- ==== Proof.ScTileGeom.lean ====
/-
  The memrefs one vector subcore's task addresses — the two slots of its row scratch, the rows of its index scratch,
  the SparseCore's shared memory through the kernel's full-extent slice — with the set facts the run needs, and
  what the barrier's duties hand over.
-/
import proofs.«208327_g62569083568895_cont_9to1c4b_407_46_alg».proof.Proof.ScPay
import Idealize.ShloMosaic.Lib.Pipeline.Value

set_option pp.maxSteps 6000
set_option pp.deepTerms false

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_0_scv : Memref Cert.KernelIdeal.sig Kind.scVector Space.hbm Cert.KernelIdeal.S8192x128 EltTy.f32)
local notation "iV" => (Memref.whole Cert.KernelIdeal.main_v2_scv : Memref Cert.KernelIdeal.sig Kind.scVector Space.hbm Cert.KernelIdeal.S1024x128 EltTy.i32)
local notation "oV" => (Memref.whole Cert.KernelIdeal.main_v3_scv : Memref Cert.KernelIdeal.sig Kind.scVector Space.hbm Cert.KernelIdeal.S131072x128 EltTy.f32)
local notation "s0V" => (Memref.whole Cert.KernelIdeal.cc1_scratch0 : Memref Cert.KernelIdeal.sig Kind.scVector Space.vmem Cert.KernelIdeal.S32x128 EltTy.i32)
local notation "s1V" => (Memref.whole Cert.KernelIdeal.cc1_scratch1 : Memref Cert.KernelIdeal.sig Kind.scVector Space.vmem Cert.KernelIdeal.S2x128x128 EltTy.f32)
local notation "shV" => (Memref.whole Cert.KernelIdeal.cc1_scratch2 : Memref Cert.KernelIdeal.sig Kind.scVector Space.shared Cert.KernelIdeal.S8192x128 EltTy.f32)

variable (Tab : (d : Dev nD) → Buf (Elt F) (tabLoc d)) (Idx : (d : Dev nD) → Buf (Elt F) (idxLoc d))

section Tile

variable (d : Dev nD) (L : grid1.Coords)

variable [FloatOps F]

/-- Before the barrier the first subcore's sixteen read shares are what its duties hand over, one per round. -/
theorem pays_intro (h0 : (L 1).val = 0) :
    (bigSep Finset.univ fun j : Fin 16 => shShare Tab d (cV L) j)
    ⊢ (bigSep Finset.univ fun j : Fin (grid1.bound 1) => (bRd (F := F) Tab).payload (bcell d (cV L) (j.castLE hsub1)) 0 (jV L).val : sProp 𝕄) := by
  refine Entails.of_eq ?_
  refine bigSep_congr fun j _ => ?_
  show _ = bPay Tab (bcell d (cV L) (j.castLE hsub1)) (jV L).val
  unfold bPay; dsimp only
  rw [if_pos (show (jV L).val = 0 from h0)]
  rfl

/-- The other subcores' duties hand over nothing. -/
theorem pays_intro' (h0 : ¬ (L 1).val = 0) :
    (iprop(emp) : sProp 𝕄)
    ⊢ (bigSep Finset.univ fun j : Fin (grid1.bound 1) => (bRd (F := F) Tab).payload (bcell d (cV L) (j.castLE hsub1)) 0 (jV L).val : sProp 𝕄) := by
  rw [show (bigSep Finset.univ fun j : Fin (grid1.bound 1) => (bRd (F := F) Tab).payload (bcell d (cV L) (j.castLE hsub1)) 0 (jV L).val)
      = bigSep Finset.univ fun _ : Fin (grid1.bound 1) => (iprop(emp) : sProp 𝕄) from
      bigSep_congr fun j _ => if_neg (show ¬ (jV L).val = 0 from h0), bigSep_emp']

/-- After the barrier, what a subcore's own round collected holds its read share of the shared table. -/
theorem pays_elim : (bigSep ((bRd (F := F) Tab).duties (bcell d (cV L) (jV L)) 0 \ ∅) fun n => (bRd (F := F) Tab).payload (bcell d (cV L) (jV L)) 0 n)
    ⊢ (shShare Tab d (cV L) (jL L) : sProp 𝕄) := by
  rw [Finset.sdiff_empty, bRd_duties₀]
  refine (bigSep_elim (i := 0) (Finset.mem_image.mpr ⟨(⟨0, by decide⟩ : Fin τ.nSub), Finset.mem_univ _, rfl⟩)).trans ?_
  show bPay Tab (bcell d (cV L) (jV L)) 0 ⊢ _
  unfold bPay; dsimp only
  rw [if_pos rfl]; exact BI.Entails.refl _

/-! ## The two slots of the row scratch -/

/-- One slot of the two-slot row scratch, at printed offsets. -/
abbrev slotAt (off : Fin 3 → Nat) (h : ∀ a, off a + S1x128x128.size a ≤ S2x128x128.size a) : Memref sig .scVector .vmem S128x128 .f32 :=
  ((s1V).slice (Rect.unit (s := S2x128x128) off S1x128x128.size h) (fun _ => rfl)).squeeze S128x128 squeezes_S1x128x128_S128x128

theorem inb_slot (b : Fin 2) : ∀ a, (![b.val, 0, 0] : Fin 3 → Nat) a + S1x128x128.size a ≤ S2x128x128.size a := by
  revert b; decide

/-- Slot `b`. -/
abbrev slot (b : Fin 2) : Memref sig .scVector .vmem S128x128 .f32 := slotAt ![b.val, 0, 0] (inb_slot b)

theorem slotAt_congr {off off' : Fin 3 → Nat} (e : off = off') (h : ∀ a, off a + S1x128x128.size a ≤ S2x128x128.size a) :
    slotAt off h = slotAt off' (e ▸ h) := by subst e; rfl

theorem set_slotAt (off : Fin 3 → Nat) (h : ∀ a, off a + S1x128x128.size a ≤ S2x128x128.size a) :
    (slotAt off h).view.set = (Rect.unit (s := S2x128x128) off S1x128x128.size h).set := by
  show (((s1V).view.slice (Rect.unit (s := S2x128x128) off S1x128x128.size h)).reshape S128x128 squeezes_S1x128x128_S128x128.numel_eq).set = _
  rw [View.set_reshape, View.set_slice_whole]

theorem mem_slot (b : Fin 2) (x : S2x128x128.Idx) : x ∈ (slot b).view.set ↔ (x 0).val = b.val := by
  rw [set_slotAt, Rect.mem_set_unit]
  have h0 : (x 0).val < 2 := (x 0).isLt
  have h1 : (x 1).val < 128 := (x 1).isLt
  have h2 : (x 2).val < 128 := (x 2).isLt
  constructor
  · intro h
    have := h 0
    change b.val ≤ (x 0).val ∧ (x 0).val < b.val + 1 at this
    omega
  · intro h a
    match a with
    | ⟨0, _⟩ => change b.val ≤ (x 0).val ∧ (x 0).val < b.val + 1; omega
    | ⟨1, _⟩ => change 0 ≤ (x 1).val ∧ (x 1).val < 0 + 128; omega
    | ⟨2, _⟩ => change 0 ≤ (x 2).val ∧ (x 2).val < 0 + 128; omega

theorem slots_disjoint : Disjoint (slot 0).view.set (slot 1).view.set :=
  Finset.disjoint_left.mpr fun x h0 h1 => by
    rw [mem_slot] at h0 h1; simp at h0 h1; omega

theorem slots_cover : (slot 0).view.set ∪ (slot 1).view.set = Finset.univ :=
  Finset.eq_univ_of_forall fun x => by
    rw [Finset.mem_union, mem_slot, mem_slot]
    have h0 : (x 0).val < 2 := (x 0).isLt
    simp; omega

/-- The SparseCore's shared memory through the full-extent slice the kernel gathers from. -/
abbrev shFull : Memref sig .scVector .shared S8192x128 .f32 :=
  (shV).slice (Rect.unit (s := S8192x128) ![0, 0] S8192x128.size inb_S8192x128_S8192x128_0_0) (fun _ => rfl)

omit [FloatOps F] in
theorem set_shFull : (shFull).view.set = Finset.univ := by
  show ((View.whole cc1_scratch2).slice _).set = _
  rw [View.set_slice_whole]
  exact Finset.eq_univ_of_forall (View.mem_set_unit_zero (by funext a; fin_cases a <;> rfl) _)

omit [FloatOps F] in
theorem pts_shFull (q : PosShare TreeShare) (f : Buf (Elt F) (shLoc d (cV L))) :
    ((shFull).view.loc (V d (cV L) (jV L)) ↦[(shFull).view.set]{q} f : sProp 𝕄) = shLoc d (cV L) ↦{q} f := by
  rw [set_shFull]; rfl

omit [FloatOps F] in
/-- The row scratch is its two slots. -/
theorem pts_slots (f : Buf (Elt F) ((V d (cV L) (jV L)).loc cc1_scratch1)) :
    ((V d (cV L) (jV L)).loc cc1_scratch1 ↦{fullShare} f : sProp 𝕄)
      ⊣⊢ iprop(((slot 0).view.loc (V d (cV L) (jV L)) ↦[(slot 0).view.set]{fullShare} f) ∗ ((slot 1).view.loc (V d (cV L) (jV L)) ↦[(slot 1).view.set]{fullShare} f)) := by
  have h : (((V d (cV L) (jV L)).loc cc1_scratch1 ↦[(slot 0).view.set ∪ (slot 1).view.set]{fullShare} f : sProp 𝕄)
      ⊣⊢ iprop(((V d (cV L) (jV L)).loc cc1_scratch1 ↦[(slot 0).view.set]{fullShare} f) ∗ ((V d (cV L) (jV L)).loc cc1_scratch1 ↦[(slot 1).view.set]{fullShare} f))) :=
    pointsTo_union slots_disjoint
  rw [slots_cover] at h
  exact h

omit [FloatOps F] in
theorem pts_idx (q : PosShare TreeShare) (f : Buf (Elt F) (idxLoc d)) :
    ((idxChunk L).view.loc (V d (cV L) (jV L)) ↦[(idxChunk L).view.set]{q} f : sProp 𝕄) = idxLoc d ↦[(idxChunk L).view.set]{q} f := rfl
omit [FloatOps F] in
theorem pts_s0 (f : Buf (Elt F) ((V d (cV L) (jV L)).loc cc1_scratch0)) :
    ((s0V).view.loc (V d (cV L) (jV L)) ↦{fullShare} f : sProp 𝕄) = (V d (cV L) (jV L)).loc cc1_scratch0 ↦{fullShare} f := rfl
omit [FloatOps F] in
theorem pts_blk (k : Fin k1_t1_loop.trips) (f : Buf (Elt F) (outLoc d)) :
    ((outBlk L k).view.loc (V d (cV L) (jV L)) ↦[(outBlk L k).view.set]{fullShare} f : sProp 𝕄) = outLoc d ↦[(outBlk L k).view.set]{fullShare} f := rfl

/-- A row of the index scratch, at printed offsets. -/
abbrev idxRowAt (row : Fin 2 → Nat) (hk : ∀ a, row a + S1x128.size a ≤ S32x128.size a) : Memref sig .scVector .vmem S128 .i32 :=
  ((s0V).slice (Rect.unit (s := S32x128) row S1x128.size hk) (fun _ => rfl)).squeeze S128 squeezes_S1x128_S128

omit [FloatOps F] in
/-- Every word of the index scratch, once the subcore's rows of the index list have been copied into it, names a row of
    the table: the copied rows are the list's, whose words are below 8192. Stated for any row of the scratch and any
    prior contents of it. -/
theorem inb_of_idx (hIdx : ∀ x, ((iV).view.read (Elt F) (Idx d) x).toNat < 8192)
    (g0 : Buf (Elt F) ((s0V).view.loc (V d (cV L) (jV L))))
    (pay : S32x128.Idx → Elt F .i32) (hpay : pay = View.read (Elt F) (idxChunk L).view (Idx d))
    (row : Fin 2 → Nat) (hk : ∀ a, row a + S1x128.size a ≤ S32x128.size a) :
    ∀ x, (View.read (Elt F) (idxRowAt row hk).view
      (View.write (Elt F) (s0V).view g0 pay Finset.univ) x).toNat < 8192 := by
  subst hpay; intro x
  have e : View.read (Elt F) (idxRowAt row hk).view (View.write (Elt F) (s0V).view g0 (View.read (Elt F) (idxChunk L).view (Idx d)) Finset.univ) x
      = View.read (Elt F) (s0V).view (View.write (Elt F) (s0V).view g0 (View.read (Elt F) (idxChunk L).view (Idx d)) Finset.univ)
          ((Rect.unit (s := S32x128) row S1x128.size hk).emb ((Shape.reshapeEquiv squeezes_S1x128_S128.numel_eq) x)) := by
    rw [View.read_apply, View.read_apply]; rfl
  rw [e, View.read_write_univ]
  have e2 : ∀ y, View.read (Elt F) (idxChunk L).view (Idx d) y
      = View.read (Elt F) (iV).view (Idx d) ((Rect.unit (s := S1024x128) (k1_off1 L) S32x128.size (k1_off1_inb L)).emb y) := fun y => by
    rw [View.read_apply, View.read_apply]; rfl
  rw [e2]; exact hIdx _

end Tile

end Cert.KernelIdeal.Sc

end
-- ==== Proof.ScLoop.lean ====
/-
  The gather loop of one vector subcore's task, by its invariant: before trip n the n-th gather is in flight into slot
  n mod 2, the copy of block n-1 out of the other slot is in flight, the blocks before it are written; the last two
  copies out are one counted batch, drained after the loop.
-/
import proofs.«208327_g62569083568895_cont_9to1c4b_407_46_alg».proof.Proof.ScTileGeom

set_option pp.maxSteps 6000
set_option pp.deepTerms false

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_0_scv : Memref Cert.KernelIdeal.sig Kind.scVector Space.hbm Cert.KernelIdeal.S8192x128 EltTy.f32)
local notation "iV" => (Memref.whole Cert.KernelIdeal.main_v2_scv : Memref Cert.KernelIdeal.sig Kind.scVector Space.hbm Cert.KernelIdeal.S1024x128 EltTy.i32)
local notation "oV" => (Memref.whole Cert.KernelIdeal.main_v3_scv : Memref Cert.KernelIdeal.sig Kind.scVector Space.hbm Cert.KernelIdeal.S131072x128 EltTy.f32)
local notation "s0V" => (Memref.whole Cert.KernelIdeal.cc1_scratch0 : Memref Cert.KernelIdeal.sig Kind.scVector Space.vmem Cert.KernelIdeal.S32x128 EltTy.i32)
local notation "s1V" => (Memref.whole Cert.KernelIdeal.cc1_scratch1 : Memref Cert.KernelIdeal.sig Kind.scVector Space.vmem Cert.KernelIdeal.S2x128x128 EltTy.f32)
local notation "shV" => (Memref.whole Cert.KernelIdeal.cc1_scratch2 : Memref Cert.KernelIdeal.sig Kind.scVector Space.shared Cert.KernelIdeal.S8192x128 EltTy.f32)

variable (Tab : (d : Dev nD) → Buf (Elt F) (tabLoc d)) (Idx : (d : Dev nD) → Buf (Elt F) (idxLoc d))

section Tile

variable (d : Dev nD) (L : grid1.Coords)

variable [FloatOps F]

local notation "thr" => (V d (cV L) (jV L))

theorem trips_eq : k1_t1_loop.trips = 32 := by decide

theorem inb_slotN (n : ℕ) : ∀ a, (![n % 2, 0, 0] : Fin 3 → Nat) a + S1x128x128.size a ≤ S2x128x128.size a := by
  intro a
  have h : n % 2 < 2 := Nat.mod_lt _ (by decide)
  match a with
  | ⟨0, _⟩ => show n % 2 + 1 ≤ 2; omega
  | ⟨1, _⟩ => show 0 + 128 ≤ 128; omega
  | ⟨2, _⟩ => show 0 + 128 ≤ 128; omega

/-- The slot the n-th gather lands in. -/
abbrev slotN (n : ℕ) : Memref sig .scVector .vmem S128x128 .f32 := slotAt ![n % 2, 0, 0] (inb_slotN n)

theorem inb_rowN (n : ℕ) (h : n < 32) : ∀ a, (![n, 0] : Fin 2 → Nat) a + S1x128.size a ≤ S32x128.size a := by
  intro a
  match a with
  | ⟨0, _⟩ => show n + 1 ≤ 32; omega
  | ⟨1, _⟩ => show 0 + 128 ≤ 128; omega

/-- The n-th row of the index scratch: the n-th gather's list. -/
abbrev rowN (n : ℕ) (h : n < 32) : Memref sig .scVector .vmem S128 .i32 := idxRowAt ![n, 0] (inb_rowN n h)

theorem idxRowAt_congr {row row' : Fin 2 → Nat} (e : row = row') (h : ∀ a, row a + S1x128.size a ≤ S32x128.size a) :
    idxRowAt row h = idxRowAt row' (e ▸ h) := by subst e; rfl

/-- The trip's two conditions: there is a next gather; there is a previous copy out. -/
theorem cond2_iff : ∀ k : Fin k1_t1_loop.trips, k1_cond2 k = 1#1 ↔ k.val + 1 < 32 := by decide
theorem cond3_iff : ∀ k : Fin k1_t1_loop.trips, k1_cond3 k = 1#1 ↔ 1 ≤ k.val := by decide

theorem slot_off2 (k : Fin k1_t1_loop.trips) : slotAt (k1_off2 k) (k1_off2_inb k) = slotN k.val := slotAt_congr (k1_off2_eq k) _
theorem slot_off6 (k : Fin k1_t1_loop.trips) (h2 : k1_cond2 k = 1#1) : slotAt (k1_off6 k) (k1_off6_inb k h2) = slotN (k.val + 1) := by
  rw [slotAt_congr (k1_off6_eq k)]
  exact slotAt_congr (by rw [show 1 - k.val % 2 = (k.val + 1) % 2 by omega]) _
theorem row_off7 (k : Fin k1_t1_loop.trips) (h2 : k1_cond2 k = 1#1) (h : k.val + 1 < 32) :
    idxRowAt (k1_off7 k) (k1_off7_inb k h2) = rowN (k.val + 1) h := idxRowAt_congr (k1_off7_eq k) _

def kOf (m : ℕ) (hm : m < 32) : Fin k1_t1_loop.trips := ⟨m, by rw [trips_eq]; exact hm⟩

/-! ## What the loop holds -/

abbrev SlotPts (n : ℕ) : sProp 𝕄 :=
  iprop(∃ f : Buf (Elt F) ((V d (cV L) (jV L)).loc cc1_scratch1), (V d (cV L) (jV L)).loc cc1_scratch1 ↦[(slotN n).view.set]{fullShare} f)

omit [FloatOps F] in
/-- A slot held under its number is the slot under any printed spelling of it. -/
theorem slot_respell (n : ℕ) (off : Fin 3 → Nat) (h : ∀ a, off a + S1x128x128.size a ≤ S2x128x128.size a) (e : (![n % 2, 0, 0] : Fin 3 → Nat) = off)
    (f : Buf (Elt F) ((V d (cV L) (jV L)).loc cc1_scratch1)) :
    ((V d (cV L) (jV L)).loc cc1_scratch1 ↦[(slotN n).view.set]{fullShare} f : sProp 𝕄)
      = ((slotAt off h).view.loc thr ↦[(slotAt off h).view.set]{fullShare} f) := by
  subst e; rfl

omit [FloatOps F] in
/-- A row of the index scratch under its number is the row under any printed spelling of it. -/
theorem row_respell (n : ℕ) (hn : n < 32) (row : Fin 2 → Nat) (h : ∀ a, row a + S1x128.size a ≤ S32x128.size a) (e : (![n, 0] : Fin 2 → Nat) = row) :
    (rowN n hn).view.set = (idxRowAt row h).view.set := by
  subst e; rfl

omit [FloatOps F] in
/-- A slot of the row scratch, as the run addresses it. -/
theorem pts_slotAt (off : Fin 3 → Nat) (h : ∀ a, off a + S1x128x128.size a ≤ S2x128x128.size a) (f : Buf (Elt F) ((V d (cV L) (jV L)).loc cc1_scratch1)) :
    ((slotAt off h).view.loc thr ↦[(slotAt off h).view.set]{fullShare} f : sProp 𝕄)
      = ((V d (cV L) (jV L)).loc cc1_scratch1 ↦[(slotAt off h).view.set]{fullShare} f) := rfl
abbrev BlkPts (k : Fin k1_t1_loop.trips) : sProp 𝕄 := iprop(∃ f, (outBlk L k).view.loc thr ↦[(outBlk L k).view.set]{fullShare} f)
abbrev ShPts : sProp 𝕄 := (shFull).view.loc thr ↦[(shFull).view.set]{shTok (jL L)} TabSh Tab d (cV L)

variable (fo : Buf (Elt F) ((s0V).view.loc (V d (cV L) (jV L))))
variable (hfo : ∀ n h x, (View.read (Elt F) (rowN n h).view fo x).toNat < 8192)

/-- The rows the n-th gather fetches: the shared table's rows named by the n-th row of the index scratch. -/
def GPn (n : ℕ) (h : n < 32) : S128x128.Idx → Elt F .f32 :=
  SparseCore.gatherPayload gathers_S8192x128_S128x128 (View.read (Elt F) (shFull).view (TabSh Tab d (cV L)))
    (SparseCore.rows (View.read (Elt F) (rowN n h).view fo) rfl (hfo n h))

/-- Slot n mod 2 holding the n-th gather's rows. -/
abbrev SlotG (n : ℕ) (h : n < 32) : sProp 𝕄 :=
  iprop(∃ f : Buf (Elt F) ((V d (cV L) (jV L)).loc cc1_scratch1), ((V d (cV L) (jV L)).loc cc1_scratch1 ↦[(slotN n).view.set]{fullShare} f)
    ∗ ⌜View.read (Elt F) (slotN n).view f = GPn Tab d L fo hfo n h⌝)

/-- Block m of the subcore's rows of the result, written with the m-th gather's rows. -/
abbrev BlkG (m : ℕ) (hm : m < 32) : sProp 𝕄 :=
  iprop(∃ f, ((outBlk L (kOf m hm)).view.loc thr ↦[(outBlk L (kOf m hm)).view.set]{fullShare} f)
    ∗ ⌜View.read (Elt F) (outBlk L (kOf m hm)).view f = GPn Tab d L fo hfo m hm⌝)

/-- Before trip n, block j is written if its copy out has been waited for (j + 1 < n), else at contents not chosen. -/
def BlkAt (n : ℕ) (j : Fin k1_t1_loop.trips) : sProp 𝕄 :=
  if h : j.val + 1 < n then BlkG Tab d L fo hfo j.val (Nat.lt_of_lt_of_eq j.isLt trips_eq) else BlkPts d L j

/-- What the n-th gather delivers: its slot written, its row of the index scratch and the shared table's share back. -/
abbrev DG (n : ℕ) (h : n < 32) : sProp 𝕄 :=
  iprop(SlotG Tab d L fo hfo n h ∗ ((s0V).view.loc thr ↦[(rowN n h).view.set]{fullShare} fo) ∗ ShPts Tab d L)

/-- What the m-th copy out delivers: the block written, the slot back. -/
abbrev DO (m : ℕ) (hm : m < 32) : sProp 𝕄 := iprop(SlotPts d L m ∗ BlkG Tab d L fo hfo m hm)

/-- The gather side before trip n. -/
def GSide (n : ℕ) : sProp 𝕄 :=
  if h : n < 32 then
    iprop(Transfers.Flight countersEmb thr (SemLoc.dma cc1_scratch3.sem) (default : HIx 1) 524288 (DG Tab d L fo hfo n h)
      ∗ ((s0V).view.loc thr ↦[Finset.univ \ (rowN n h).view.set]{fullShare} fo))
  else iprop(semVal (gCell d (cV L) (jV L)) 0 ∗ ((s0V).view.loc thr ↦{fullShare} fo) ∗ ShPts Tab d L)

/-- What the last two copies out deliver: they are one counted batch on their semaphore. -/
abbrev DB : Fin 2 → sProp 𝕄 := fun t => DO Tab d L fo hfo (30 + t.val) (by have := t.isLt; omega)

/-- The copy-out side before trip n. -/
def OSide (n : ℕ) : sProp 𝕄 :=
  if h0 : n = 0 then iprop(semVal (oCell d (cV L) (jV L)) 0 ∗ SlotPts d L 1 ∗ bigSep Finset.univ (BlkAt Tab d L fo hfo n))
  else if h30 : n ≤ 30 then
    iprop(Transfers.Flight countersEmb thr (SemLoc.dma cc1_scratch4.sem) (default : HIx 1) 524288 (DO Tab d L fo hfo (n - 1) (by omega))
      ∗ bigSep (Finset.univ.erase (kOf (n - 1) (by omega))) (BlkAt Tab d L fo hfo n))
  else if h31 : n = 31 then
    iprop(Transfers.Batch countersEmb thr (SemLoc.dma cc1_scratch4.sem) (default : HIx 1) 524288 (DB Tab d L fo hfo) 1 0
      ∗ bigSep (Finset.univ.erase (kOf 30 (by omega))) (BlkAt Tab d L fo hfo n))
  else
    iprop(Transfers.Batch countersEmb thr (SemLoc.dma cc1_scratch4.sem) (default : HIx 1) 524288 (DB Tab d L fo hfo) 2 0
      ∗ bigSep ((Finset.univ.erase (kOf 30 (by omega))).erase (kOf 31 (by omega))) (BlkAt Tab d L fo hfo n))

variable (O : CellTallies nD τ sig (HIx 1)) (W0 : Waits sig (HIx 1))

omit [FloatOps F] in
/-- The words of any row of the index scratch name rows of the table, whatever the row's printed spelling. -/
theorem hin_of (hfo : ∀ n h x, (View.read (Elt F) (rowN n h).view fo x).toNat < 8192)
    (row : Fin 2 → Nat) (hk : ∀ a, row a + S1x128.size a ≤ S32x128.size a) (n : ℕ) (hn : n < 32) (e : row = ![n, 0]) :
    ∀ x, (View.read (Elt F) (idxRowAt row hk).view fo x).toNat < 8192 := by
  subst e; exact hfo n hn

def LoopInvT (n : ℕ) : sProp 𝕄 :=
  iprop(Transfers.MayWaits thr (default : HIx 1) O
    ∗ (∃ W', ⌜∀ p ∈ W', p ∈ W0 ∨ p.2 = none⌝ ∗ owes thr O W')
    ∗ GSide Tab d L fo hfo n ∗ OSide Tab d L fo hfo n)

omit [FloatOps F] in
/-- Reading a slot under its number is reading it under any printed spelling of it. -/
theorem slot_read_respell (n : ℕ) (off : Fin 3 → Nat) (h : ∀ a, off a + S1x128x128.size a ≤ S2x128x128.size a) (e : (![n % 2, 0, 0] : Fin 3 → Nat) = off)
    (f : Buf (Elt F) ((V d (cV L) (jV L)).loc cc1_scratch1)) :
    View.read (Elt F) (slotN n).view f = View.read (Elt F) (slotAt off h).view f := by
  subst e; rfl

omit [FloatOps F] in
/-- The gathered rows, for the row of the index scratch under any printed spelling of it. -/
theorem gp_respell (n : ℕ) (hn : n < 32) (row : Fin 2 → Nat) (hrow : ∀ a, row a + S1x128.size a ≤ S32x128.size a) (e : (![n, 0] : Fin 2 → Nat) = row)
    (hin : ∀ x, (View.read (Elt F) (idxRowAt row hrow).view fo x).toNat < 8192) :
    SparseCore.gatherPayload gathers_S8192x128_S128x128 (View.read (Elt F) (shFull).view (TabSh Tab d (cV L)))
        (SparseCore.rows (View.read (Elt F) (idxRowAt row hrow).view fo) rfl hin) = GPn Tab d L fo hfo n hn := by
  subst e; rfl

set_option maxHeartbeats 4000000 in
/-- A middle trip (1 ≤ k ≤ 29). -/
theorem step_mid
    (k : Fin k1_t1_loop.trips) (hk1 : 1 ≤ k.val) (hk2 : k.val ≤ 29) :
    LoopInvT Tab d L fo hfo O W0 k.val
      ⊢ wp frame (wpE (defs₀ (F := F)) 𝒱₀ thr none) Set.univ
          (k1_t1_body L tV (Memref.isWhole_whole _) iV (Memref.isWhole_whole _) oV (Memref.isWhole_whole _) s0V (Memref.isWhole_whole _) s1V (Memref.isWhole_whole _)
            shV (Memref.isWhole_whole _) cc1_scratch3 cc1_scratch4 cc1_scoped0 cc1_scoped1 k ())
          fun _ => LoopInvT Tab d L fo hfo O W0 (k.val + 1) := by
  have hlt : k.val < 32 := by omega
  have h2 : k1_cond2 k = 1#1 := (cond2_iff k).mpr (by omega)
  have h3 : k1_cond3 k = 1#1 := (cond3_iff k).mpr hk1
  unfold k1_t1_body
  rw [show LoopInvT Tab d L fo hfo O W0 k.val = iprop(Transfers.MayWaits thr (default : HIx 1) O
      ∗ (∃ W', ⌜∀ p ∈ W', p ∈ W0 ∨ p.2 = none⌝ ∗ owes thr O W')
      ∗ (Transfers.Flight countersEmb thr (SemLoc.dma cc1_scratch3.sem) (default : HIx 1) 524288 (DG Tab d L fo hfo k.val hlt)
        ∗ ((s0V).view.loc thr ↦[Finset.univ \ (rowN k.val hlt).view.set]{fullShare} fo))
      ∗ (Transfers.Flight countersEmb thr (SemLoc.dma cc1_scratch4.sem) (default : HIx 1) 524288 (DO Tab d L fo hfo (k.val - 1) (by omega))
        ∗ bigSep (Finset.univ.erase (kOf (k.val - 1) (by omega))) (BlkAt Tab d L fo hfo k.val))) from by
    unfold LoopInvT GSide OSide
    rw [dif_pos hlt, dif_neg (by omega : ¬ k.val = 0), dif_pos (by omega : k.val ≤ 30)]]
  iintro ⟨#Hmw, ⟨%W', %hW', HO⟩, ⟨HFg, Hs0r⟩, ⟨HFo, Hblks⟩⟩
  sl_exec
  -- the k-th gather has landed: its slot, its row of the index scratch, the shared table's share
  ihave Hmwg := (Transfers.MayWaits.elim (SemLoc.dma cc1_scratch3.sem)) $$ Hmw
  iapply (Transfers.wp_waitLocalO countersEmb 𝒱₀ thr none (default : HIx 1) rfl) $$ [HFg HO Hmwg]
  · isplitl [HFg]; · iexact HFg
    isplitl [HO]; · iexact HO
    iexact Hmwg
  iintro ⟨⟨⟨%fs, Hslot, %hfs⟩, Hrow, Hsh⟩, HsemG, HO⟩
  ihave Hs0 := ((pointsTo_split_subset (ℓ := (s0V).view.loc thr) (q := fullShare) (f := fo) (Finset.subset_univ (rowN k.val hlt).view.set)).2) $$ [Hrow Hs0r]
  · isplitl [Hrow]; · iexact Hrow
    iexact Hs0r
  sl_exec
  -- the copy of block k-1 out has landed: the other slot is free again, the block is written
  ihave Hmwo := (Transfers.MayWaits.elim (SemLoc.dma cc1_scratch4.sem)) $$ Hmw
  iapply (Transfers.wp_waitLocalO countersEmb 𝒱₀ thr none (default : HIx 1) rfl) $$ [HFo HO Hmwo]
  · isplitl [HFo]; · iexact HFo
    isplitl [HO]; · iexact HO
    iexact Hmwo
  iintro ⟨⟨⟨%fp, Hprev⟩, Hblkp⟩, HsemO, HO⟩
  -- the resources in the trip's own spellings
  have e6 : (![(k.val - 1) % 2, 0, 0] : Fin 3 → Nat) = k1_off6 k := by
    rw [k1_off6_eq k, show (k.val - 1) % 2 = 1 - k.val % 2 by omega]
  have e2 : (![k.val % 2, 0, 0] : Fin 3 → Nat) = k1_off2 k := (k1_off2_eq k).symm
  have hk' : k.val + 1 < 32 := by omega
  have hin7 : ∀ x, (View.read (Elt F) (idxRowAt (k1_off7 k) (k1_off7_inb k h2)).view fo x).toNat < 8192 :=
    hin_of d L fo hfo (k1_off7 k) (k1_off7_inb k h2) (k.val + 1) hk' (k1_off7_eq k)
  ihave Hprev' := (Entails.of_eq (slot_respell (F := F) d L (k.val - 1) (k1_off6 k) (k1_off6_inb k h2) e6 fp)) $$ Hprev
  ihave Hslot' := (Entails.of_eq (slot_respell (F := F) d L k.val (k1_off2 k) (k1_off2_inb k) e2 fs)) $$ Hslot
  -- block k, out of the blocks still held
  have hmem : k ∈ Finset.univ.erase (kOf (k.val - 1) (by omega)) :=
    Finset.mem_erase.mpr ⟨fun e => by have := congrArg Fin.val e; simp [kOf] at this; omega, Finset.mem_univ _⟩
  ihave Hblks' := (Entails.of_eq (SparseCore.bigSep_erase' (Φ := BlkAt (F := F) Tab d L fo hfo k.val) hmem)) $$ Hblks
  icases Hblks' with ⟨Hblk0, Hblks⟩
  ihave Hblk1 := (Entails.of_eq (show BlkAt (F := F) Tab d L fo hfo k.val k = BlkPts d L k from by unfold BlkAt; rw [dif_neg (by omega)])) $$ Hblk0
  icases Hblk1 with ⟨%fb, Hblk⟩
  sl_exec
  sl_step
  -- the invariant before trip k + 1
  have e6' : (![(k.val + 1) % 2, 0, 0] : Fin 3 → Nat) = k1_off6 k := by
    rw [k1_off6_eq k, show (k.val + 1) % 2 = 1 - k.val % 2 by omega]
  have er : (rowN (k.val + 1) hk').view.set = (idxRowAt (k1_off7 k) (k1_off7_inb k h2)).view.set :=
    row_respell (k.val + 1) hk' (k1_off7 k) (k1_off7_inb k h2) (k1_off7_eq k).symm
  unfold LoopInvT GSide OSide
  rw [dif_pos hk', dif_neg (by omega : ¬ k.val + 1 = 0), dif_pos (by omega : k.val + 1 ≤ 30)]
  isplitr; · iexact Hmw
  isplitl [HO]
  · iexists _
    isplitr
    swap; · iexact HO
    ipureintro
    intro p hp
    rcases Finset.mem_insert.mp hp with hp | hp; · exact Or.inr (by rw [hp]; rfl)
    rcases Finset.mem_insert.mp hp with hp | hp; · exact Or.inr (by rw [hp]; rfl)
    exact hW' p hp
  isplitl [HsemG Hs0]
  · isplitl [HsemG]
    · iapply (Transfers.Flight_mono countersEmb thr ?_) $$ HsemG
      iintro ⟨⟨Hd, Hr⟩, Hs⟩
      isplitl [Hd]
      · iexists _
        isplitl [Hd]
        · iapply (Entails.of_eq (slot_respell (F := F) d L (k.val + 1) (k1_off6 k) (k1_off6_inb k h2) e6' _).symm)
          iexact Hd
        · ipureintro
          rw [slot_read_respell (F := F) d L (k.val + 1) (k1_off6 k) (k1_off6_inb k h2) e6', View.read_writes_whole]
          exact gp_respell Tab d L fo hfo (k.val + 1) hk' (k1_off7 k) (k1_off7_inb k h2) (k1_off7_eq k).symm hin7
      isplitl [Hr]
      · rw [er]; iexact Hr
      · iexact Hs
    · rw [er]; iexact Hs0
  · isplitl [HsemO]
    · iapply (Transfers.Flight_mono countersEmb thr ?_) $$ HsemO
      iintro ⟨Hb, Hsl⟩
      isplitl [Hsl]
      · iexists _
        iapply (Entails.of_eq (slot_respell (F := F) d L k.val (k1_off2 k) (k1_off2_inb k) e2 _).symm)
        iexact Hsl
      · iexists _
        isplitl [Hb]; · iexact Hb
        ipureintro
        show View.read (Elt F) (outBlk L k).view _ = _
        rw [View.read_writes_whole]
        exact (slot_read_respell (F := F) d L k.val (k1_off2 k) (k1_off2_inb k) e2 fs).symm.trans hfs
    · have ek : ∀ h, kOf (k.val + 1 - 1) h = k := fun h => Fin.ext (by show k.val + 1 - 1 = k.val; omega)
      have hmemp : kOf (k.val - 1) (by omega) ∈ Finset.univ.erase k :=
        Finset.mem_erase.mpr ⟨fun e => by have := congrArg Fin.val e; simp [kOf] at this; omega, Finset.mem_univ _⟩
      rw [ek, SparseCore.bigSep_erase' hmemp, Finset.erase_right_comm]
      isplitl [Hblkp]
      · unfold BlkAt
        rw [dif_pos (show (kOf (k.val - 1) (by omega)).val + 1 < k.val + 1 by show k.val - 1 + 1 < k.val + 1; omega)]
        iexact Hblkp
      have hcong : (bigSep ((Finset.univ.erase k).erase (kOf (k.val - 1) (by omega))) (BlkAt (F := F) Tab d L fo hfo (k.val + 1)) : sProp 𝕄)
          = bigSep ((Finset.univ.erase k).erase (kOf (k.val - 1) (by omega))) (BlkAt (F := F) Tab d L fo hfo k.val) :=
        bigSep_congr fun j hj => by
          have hjp : j ≠ kOf (k.val - 1) (by omega) := (Finset.mem_erase.mp hj).1
          have hjk : j ≠ k := (Finset.mem_erase.mp (Finset.mem_erase.mp hj).2).1
          have h1 : j.val ≠ k.val := fun e => hjk (Fin.ext e)
          have h2' : j.val ≠ k.val - 1 := fun e => hjp (Fin.ext e)
          unfold BlkAt
          by_cases hc : j.val + 1 < k.val
          · rw [dif_pos hc, dif_pos (by omega)]
          · rw [dif_neg hc, dif_neg (by omega)]
      rw [hcong]; iexact Hblks

set_option maxHeartbeats 4000000 in
/-- The first trip: no copy out is pending yet; the second slot is free from the start. -/
theorem step_zero
    (k : Fin k1_t1_loop.trips) (hk0 : k.val = 0) :
    LoopInvT Tab d L fo hfo O W0 k.val
      ⊢ wp frame (wpE (defs₀ (F := F)) 𝒱₀ thr none) Set.univ
          (k1_t1_body L tV (Memref.isWhole_whole _) iV (Memref.isWhole_whole _) oV (Memref.isWhole_whole _) s0V (Memref.isWhole_whole _) s1V (Memref.isWhole_whole _)
            shV (Memref.isWhole_whole _) cc1_scratch3 cc1_scratch4 cc1_scoped0 cc1_scoped1 k ())
          fun _ => LoopInvT Tab d L fo hfo O W0 (k.val + 1) := by
  have hlt : k.val < 32 := by omega
  have h2 : k1_cond2 k = 1#1 := (cond2_iff k).mpr (by omega)
  have h3 : ¬ k1_cond3 k = 1#1 := fun h => by have := (cond3_iff k).mp h; omega
  unfold k1_t1_body
  rw [show LoopInvT Tab d L fo hfo O W0 k.val = iprop(Transfers.MayWaits thr (default : HIx 1) O
      ∗ (∃ W', ⌜∀ p ∈ W', p ∈ W0 ∨ p.2 = none⌝ ∗ owes thr O W')
      ∗ (Transfers.Flight countersEmb thr (SemLoc.dma cc1_scratch3.sem) (default : HIx 1) 524288 (DG Tab d L fo hfo k.val hlt)
        ∗ ((s0V).view.loc thr ↦[Finset.univ \ (rowN k.val hlt).view.set]{fullShare} fo))
      ∗ (semVal (oCell d (cV L) (jV L)) 0 ∗ SlotPts d L 1 ∗ bigSep Finset.univ (BlkAt Tab d L fo hfo k.val))) from by
    unfold LoopInvT GSide OSide
    rw [dif_pos hlt, dif_pos hk0]]
  iintro ⟨#Hmw, ⟨%W', %hW', HO⟩, ⟨HFg, Hs0r⟩, ⟨HsemO, ⟨%fp, Hprev⟩, Hblks⟩⟩
  sl_exec
  -- the k-th gather has landed: its slot, its row of the index scratch, the shared table's share
  ihave Hmwg := (Transfers.MayWaits.elim (SemLoc.dma cc1_scratch3.sem)) $$ Hmw
  iapply (Transfers.wp_waitLocalO countersEmb 𝒱₀ thr none (default : HIx 1) rfl) $$ [HFg HO Hmwg]
  · isplitl [HFg]; · iexact HFg
    isplitl [HO]; · iexact HO
    iexact Hmwg
  iintro ⟨⟨⟨%fs, Hslot, %hfs⟩, Hrow, Hsh⟩, HsemG, HO⟩
  ihave Hs0 := ((pointsTo_split_subset (ℓ := (s0V).view.loc thr) (q := fullShare) (f := fo) (Finset.subset_univ (rowN k.val hlt).view.set)).2) $$ [Hrow Hs0r]
  · isplitl [Hrow]; · iexact Hrow
    iexact Hs0r
  -- the resources in the trip's own spellings
  have e6 : (![1 % 2, 0, 0] : Fin 3 → Nat) = k1_off6 k := by
    rw [k1_off6_eq k, show 1 % 2 = 1 - k.val % 2 by omega]
  have e2 : (![k.val % 2, 0, 0] : Fin 3 → Nat) = k1_off2 k := (k1_off2_eq k).symm
  have hk' : k.val + 1 < 32 := by omega
  have hin7 : ∀ x, (View.read (Elt F) (idxRowAt (k1_off7 k) (k1_off7_inb k h2)).view fo x).toNat < 8192 :=
    hin_of d L fo hfo (k1_off7 k) (k1_off7_inb k h2) (k.val + 1) hk' (k1_off7_eq k)
  ihave Hprev' := (Entails.of_eq (slot_respell (F := F) d L 1 (k1_off6 k) (k1_off6_inb k h2) e6 fp)) $$ Hprev
  ihave Hslot' := (Entails.of_eq (slot_respell (F := F) d L k.val (k1_off2 k) (k1_off2_inb k) e2 fs)) $$ Hslot
  -- block k, out of the blocks still held
  ihave Hblks' := (Entails.of_eq (SparseCore.bigSep_erase' (Φ := BlkAt (F := F) Tab d L fo hfo k.val) (Finset.mem_univ k))) $$ Hblks
  icases Hblks' with ⟨Hblk0, Hblks⟩
  ihave Hblk1 := (Entails.of_eq (show BlkAt (F := F) Tab d L fo hfo k.val k = BlkPts d L k from by unfold BlkAt; rw [dif_neg (by omega)])) $$ Hblk0
  icases Hblk1 with ⟨%fb, Hblk⟩
  sl_exec
  sl_step
  -- the invariant before trip k + 1
  have e6' : (![(k.val + 1) % 2, 0, 0] : Fin 3 → Nat) = k1_off6 k := by
    rw [k1_off6_eq k, show (k.val + 1) % 2 = 1 - k.val % 2 by omega]
  have er : (rowN (k.val + 1) hk').view.set = (idxRowAt (k1_off7 k) (k1_off7_inb k h2)).view.set :=
    row_respell (k.val + 1) hk' (k1_off7 k) (k1_off7_inb k h2) (k1_off7_eq k).symm
  unfold LoopInvT GSide OSide
  rw [dif_pos hk', dif_neg (by omega : ¬ k.val + 1 = 0), dif_pos (by omega : k.val + 1 ≤ 30)]
  isplitr; · iexact Hmw
  isplitl [HO]
  · iexists _
    isplitr
    swap; · iexact HO
    ipureintro
    intro p hp
    rcases Finset.mem_insert.mp hp with hp | hp; · exact Or.inr (by rw [hp]; rfl)
    exact hW' p hp
  isplitl [HsemG Hs0]
  · isplitl [HsemG]
    · iapply (Transfers.Flight_mono countersEmb thr ?_) $$ HsemG
      iintro ⟨⟨Hd, Hr⟩, Hs⟩
      isplitl [Hd]
      · iexists _
        isplitl [Hd]
        · iapply (Entails.of_eq (slot_respell (F := F) d L (k.val + 1) (k1_off6 k) (k1_off6_inb k h2) e6' _).symm)
          iexact Hd
        · ipureintro
          rw [slot_read_respell (F := F) d L (k.val + 1) (k1_off6 k) (k1_off6_inb k h2) e6', View.read_writes_whole]
          exact gp_respell Tab d L fo hfo (k.val + 1) hk' (k1_off7 k) (k1_off7_inb k h2) (k1_off7_eq k).symm hin7
      isplitl [Hr]
      · rw [er]; iexact Hr
      · iexact Hs
    · rw [er]; iexact Hs0
  · isplitl [HsemO]
    · iapply (Transfers.Flight_mono countersEmb thr ?_) $$ HsemO
      iintro ⟨Hb, Hsl⟩
      isplitl [Hsl]
      · iexists _
        iapply (Entails.of_eq (slot_respell (F := F) d L k.val (k1_off2 k) (k1_off2_inb k) e2 _).symm)
        iexact Hsl
      · iexists _
        isplitl [Hb]; · iexact Hb
        ipureintro
        show View.read (Elt F) (outBlk L k).view _ = _
        rw [View.read_writes_whole]
        exact (slot_read_respell (F := F) d L k.val (k1_off2 k) (k1_off2_inb k) e2 fs).symm.trans hfs
    · have ek : ∀ h, kOf (k.val + 1 - 1) h = k := fun h => Fin.ext (by show k.val + 1 - 1 = k.val; omega)
      rw [ek]
      have hcong : (bigSep (Finset.univ.erase k) (BlkAt (F := F) Tab d L fo hfo (k.val + 1)) : sProp 𝕄)
          = bigSep (Finset.univ.erase k) (BlkAt (F := F) Tab d L fo hfo k.val) :=
        bigSep_congr fun j hj => by
          have hjk : j ≠ k := (Finset.mem_erase.mp hj).1
          have : j.val ≠ k.val := fun e => hjk (Fin.ext e)
          unfold BlkAt
          rw [dif_neg (by omega), dif_neg (by omega)]
      rw [hcong]; iexact Hblks

end Tile

end Cert.KernelIdeal.Sc

end
-- ==== Proof.ScLoopEnd.lean ====
/-
  The last two trips of the gather loop — where the last two copies out become one counted batch on their semaphore —
  and the loop whole.
-/
import proofs.«208327_g62569083568895_cont_9to1c4b_407_46_alg».proof.Proof.ScLoop

set_option pp.maxSteps 6000
set_option pp.deepTerms false

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_0_scv : Memref Cert.KernelIdeal.sig Kind.scVector Space.hbm Cert.KernelIdeal.S8192x128 EltTy.f32)
local notation "iV" => (Memref.whole Cert.KernelIdeal.main_v2_scv : Memref Cert.KernelIdeal.sig Kind.scVector Space.hbm Cert.KernelIdeal.S1024x128 EltTy.i32)
local notation "oV" => (Memref.whole Cert.KernelIdeal.main_v3_scv : Memref Cert.KernelIdeal.sig Kind.scVector Space.hbm Cert.KernelIdeal.S131072x128 EltTy.f32)
local notation "s0V" => (Memref.whole Cert.KernelIdeal.cc1_scratch0 : Memref Cert.KernelIdeal.sig Kind.scVector Space.vmem Cert.KernelIdeal.S32x128 EltTy.i32)
local notation "s1V" => (Memref.whole Cert.KernelIdeal.cc1_scratch1 : Memref Cert.KernelIdeal.sig Kind.scVector Space.vmem Cert.KernelIdeal.S2x128x128 EltTy.f32)
local notation "shV" => (Memref.whole Cert.KernelIdeal.cc1_scratch2 : Memref Cert.KernelIdeal.sig Kind.scVector Space.shared Cert.KernelIdeal.S8192x128 EltTy.f32)

variable (Tab : (d : Dev nD) → Buf (Elt F) (tabLoc d)) (Idx : (d : Dev nD) → Buf (Elt F) (idxLoc d))

section Tile

variable (d : Dev nD) (L : grid1.Coords)

variable [FloatOps F]

local notation "thr" => (V d (cV L) (jV L))

variable (fo : Buf (Elt F) ((s0V).view.loc (V d (cV L) (jV L))))
variable (hfo : ∀ n h x, (View.read (Elt F) (rowN n h).view fo x).toNat < 8192)
variable (O : CellTallies nD τ sig (HIx 1)) (W0 : Waits sig (HIx 1))

omit [FloatOps F] in
/-- The gathered rows depend on the gather's number only. -/
theorem GPn_congr {n n' : ℕ} (e : n = n') (h : n < 32) (h' : n' < 32) : GPn Tab d L fo hfo n h = GPn Tab d L fo hfo n' h' := by
  subst e; rfl

omit [FloatOps F] in
/-- A block held at the gathered rows is the block written, whatever the spelling of its number. -/
theorem blkG_intro (m : ℕ) (hm : m < 32) (k : Fin k1_t1_loop.trips) (hk : k.val = m) (f : Buf (Elt F) ((outBlk L k).view.loc (V d (cV L) (jV L))))
    (hf : View.read (Elt F) (outBlk L k).view f = GPn Tab d L fo hfo m hm) :
    ((outBlk L k).view.loc thr ↦[(outBlk L k).view.set]{fullShare} f : sProp 𝕄) ⊢ BlkG Tab d L fo hfo m hm := by
  obtain rfl : k = kOf m hm := Fin.ext hk
  iintro H
  iexists _
  isplitl [H]; · iexact H
  ipureintro; exact hf

set_option synthInstance.maxHeartbeats 400000 in
instance DB_storable (t : Fin 2) : BI.Storable (upEmb : UEmb _ 𝕄) (DB (F := F) Tab d L fo hfo t) := by
  unfold DB DO SlotPts BlkG; infer_instance

set_option synthInstance.maxHeartbeats 400000 in
set_option maxHeartbeats 4000000 in
/-- Trip 30: the copy of block 29 out is waited for, the last gather issued, and the copy of block 30 out opens the
    batch of the last two. -/
theorem step_30
    (k : Fin k1_t1_loop.trips) (hk30 : k.val = 30) :
    LoopInvT Tab d L fo hfo O W0 k.val
      ⊢ wp frame (wpE (defs₀ (F := F)) 𝒱₀ thr none) Set.univ
          (k1_t1_body L tV (Memref.isWhole_whole _) iV (Memref.isWhole_whole _) oV (Memref.isWhole_whole _) s0V (Memref.isWhole_whole _) s1V (Memref.isWhole_whole _)
            shV (Memref.isWhole_whole _) cc1_scratch3 cc1_scratch4 cc1_scoped0 cc1_scoped1 k ())
          fun _ => LoopInvT Tab d L fo hfo O W0 (k.val + 1) := by
  have hlt : k.val < 32 := by omega
  have h2 : k1_cond2 k = 1#1 := (cond2_iff k).mpr (by omega)
  have h3 : k1_cond3 k = 1#1 := (cond3_iff k).mpr (by omega)
  unfold k1_t1_body
  rw [show LoopInvT Tab d L fo hfo O W0 k.val = iprop(Transfers.MayWaits thr (default : HIx 1) O
      ∗ (∃ W', ⌜∀ p ∈ W', p ∈ W0 ∨ p.2 = none⌝ ∗ owes thr O W')
      ∗ (Transfers.Flight countersEmb thr (SemLoc.dma cc1_scratch3.sem) (default : HIx 1) 524288 (DG Tab d L fo hfo k.val hlt)
        ∗ ((s0V).view.loc thr ↦[Finset.univ \ (rowN k.val hlt).view.set]{fullShare} fo))
      ∗ (Transfers.Flight countersEmb thr (SemLoc.dma cc1_scratch4.sem) (default : HIx 1) 524288 (DO Tab d L fo hfo (k.val - 1) (by omega))
        ∗ bigSep (Finset.univ.erase (kOf (k.val - 1) (by omega))) (BlkAt Tab d L fo hfo k.val))) from by
    unfold LoopInvT GSide OSide
    rw [dif_pos hlt, dif_neg (by omega : ¬ k.val = 0), dif_pos (by omega : k.val ≤ 30)]]
  iintro ⟨#Hmw, ⟨%W', %hW', HO⟩, ⟨HFg, Hs0r⟩, ⟨HFo, Hblks⟩⟩
  sl_exec
  ihave Hmwg := (Transfers.MayWaits.elim (SemLoc.dma cc1_scratch3.sem)) $$ Hmw
  iapply (Transfers.wp_waitLocalO countersEmb 𝒱₀ thr none (default : HIx 1) rfl) $$ [HFg HO Hmwg]
  · isplitl [HFg]; · iexact HFg
    isplitl [HO]; · iexact HO
    iexact Hmwg
  iintro ⟨⟨⟨%fs, Hslot, %hfs⟩, Hrow, Hsh⟩, HsemG, HO⟩
  ihave Hs0 := ((pointsTo_split_subset (ℓ := (s0V).view.loc thr) (q := fullShare) (f := fo) (Finset.subset_univ (rowN k.val hlt).view.set)).2) $$ [Hrow Hs0r]
  · isplitl [Hrow]; · iexact Hrow
    iexact Hs0r
  sl_exec
  ihave Hmwo := (Transfers.MayWaits.elim (SemLoc.dma cc1_scratch4.sem)) $$ Hmw
  iapply (Transfers.wp_waitLocalO countersEmb 𝒱₀ thr none (default : HIx 1) rfl) $$ [HFo HO Hmwo]
  · isplitl [HFo]; · iexact HFo
    isplitl [HO]; · iexact HO
    iexact Hmwo
  iintro ⟨⟨⟨%fp, Hprev⟩, Hblkp⟩, HsemO, HO⟩
  -- the batch of the last two copies out, allocated from their semaphore at zero
  imod (Transfers.batch_alloc' countersEmb (c := thr) (sm := SemLoc.dma cc1_scratch4.sem) (default : HIx 1) 524288 (DB (F := F) Tab d L fo hfo) (E := Set.univ)) $$ HsemO with HB
  have e6 : (![(k.val - 1) % 2, 0, 0] : Fin 3 → Nat) = k1_off6 k := by
    rw [k1_off6_eq k, show (k.val - 1) % 2 = 1 - k.val % 2 by omega]
  have e2 : (![k.val % 2, 0, 0] : Fin 3 → Nat) = k1_off2 k := (k1_off2_eq k).symm
  have hk' : k.val + 1 < 32 := by omega
  have hin7 : ∀ x, (View.read (Elt F) (idxRowAt (k1_off7 k) (k1_off7_inb k h2)).view fo x).toNat < 8192 :=
    hin_of d L fo hfo (k1_off7 k) (k1_off7_inb k h2) (k.val + 1) hk' (k1_off7_eq k)
  ihave Hprev' := (Entails.of_eq (slot_respell (F := F) d L (k.val - 1) (k1_off6 k) (k1_off6_inb k h2) e6 fp)) $$ Hprev
  ihave Hslot' := (Entails.of_eq (slot_respell (F := F) d L k.val (k1_off2 k) (k1_off2_inb k) e2 fs)) $$ Hslot
  sl_exec
  have hmem : k ∈ Finset.univ.erase (kOf (k.val - 1) (by omega)) :=
    Finset.mem_erase.mpr ⟨fun e => by have := congrArg Fin.val e; simp [kOf] at this; omega, Finset.mem_univ _⟩
  -- block k, out of the blocks still held; its copy out is transfer 0 of the batch
  ihave Hblks' := (Entails.of_eq (SparseCore.bigSep_erase' (Φ := BlkAt (F := F) Tab d L fo hfo k.val) hmem)) $$ Hblks
  icases Hblks' with ⟨Hblk0, Hblks⟩
  ihave Hblk1 := (Entails.of_eq (show BlkAt (F := F) Tab d L fo hfo k.val k = BlkPts d L k from by unfold BlkAt; rw [dif_neg (by omega)])) $$ Hblk0
  icases Hblk1 with ⟨%fb, Hblk⟩
  have hkk : kOf (30 + 0) (by omega) = k := Fin.ext (by show 30 + 0 = k.val; omega)
  have eS : (![(30 + 0) % 2, 0, 0] : Fin 3 → Nat) = k1_off2 k := by
    rw [k1_off2_eq k, show (30 + 0) % 2 = k.val % 2 by omega]
  have hval : ∀ (m : ℕ) (hm : m < 32), m = k.val → View.read (Elt F) (outBlk L k).view (View.write (Elt F) (outBlk L k).view fb
      (ReadAs.same.apply (View.read (Elt F) (slotAt (k1_off2 k) (k1_off2_inb k)).view fs)) Finset.univ) = GPn Tab d L fo hfo m hm := by
    intro m hm e; subst e
    rw [View.read_write_univ]
    exact (slot_read_respell (F := F) d L k.val (k1_off2 k) (k1_off2_inb k) e2 fs).symm.trans hfs
  iapply (Transfers.wp_dmaBatch countersEmb 𝒱₀ thr none (fs := fs) (fd := fb) (D := DB (F := F) Tab d L fo hfo) (default : HIx 1) 524288 rfl (Finset.Subset.refl _) (show 0 < 2 by decide) (Nat.zero_le _) ?hD) $$ [Hslot' Hblk HB]
  case hD =>
    iintro ⟨Hb, Hsl⟩
    isplitl [Hsl]
    · iexists _
      iapply (Entails.of_eq (slot_respell (F := F) d L (30 + 0) (k1_off2 k) (k1_off2_inb k) eS _).symm)
      iexact Hsl
    · iapply (blkG_intro Tab d L fo hfo _ _ k (by show k.val = 30 + 0; omega) _ (hval _ _ (by show 30 + 0 = k.val; omega)))
      iexact Hb
  · isplitl [Hslot']; · iexact Hslot'
    isplitl [Hblk]; · iexact Hblk
    iexact HB
  iintro HB
  sl_step
  -- the invariant before trip 31
  have e6' : (![(k.val + 1) % 2, 0, 0] : Fin 3 → Nat) = k1_off6 k := by
    rw [k1_off6_eq k, show (k.val + 1) % 2 = 1 - k.val % 2 by omega]
  have er : (rowN (k.val + 1) hk').view.set = (idxRowAt (k1_off7 k) (k1_off7_inb k h2)).view.set :=
    row_respell (k.val + 1) hk' (k1_off7 k) (k1_off7_inb k h2) (k1_off7_eq k).symm
  unfold LoopInvT GSide OSide
  rw [dif_pos hk', dif_neg (by omega : ¬ k.val + 1 = 0), dif_neg (by omega : ¬ k.val + 1 ≤ 30), dif_pos (by omega : k.val + 1 = 31)]
  isplitr; · iexact Hmw
  isplitl [HO]
  · iexists _
    isplitr
    swap; · iexact HO
    ipureintro
    intro p hp
    rcases Finset.mem_insert.mp hp with hp | hp; · exact Or.inr (by rw [hp]; rfl)
    rcases Finset.mem_insert.mp hp with hp | hp; · exact Or.inr (by rw [hp]; rfl)
    exact hW' p hp
  isplitl [HsemG Hs0]
  · isplitl [HsemG]
    · iapply (Transfers.Flight_mono countersEmb thr ?_) $$ HsemG
      iintro ⟨⟨Hd, Hr⟩, Hs⟩
      isplitl [Hd]
      · iexists _
        isplitl [Hd]
        · iapply (Entails.of_eq (slot_respell (F := F) d L (k.val + 1) (k1_off6 k) (k1_off6_inb k h2) e6' _).symm)
          iexact Hd
        · ipureintro
          rw [slot_read_respell (F := F) d L (k.val + 1) (k1_off6 k) (k1_off6_inb k h2) e6', View.read_writes_whole]
          exact gp_respell Tab d L fo hfo (k.val + 1) hk' (k1_off7 k) (k1_off7_inb k h2) (k1_off7_eq k).symm hin7
      isplitl [Hr]
      · rw [er]; iexact Hr
      · iexact Hs
    · rw [er]; iexact Hs0
  · isplitl [HB]; · iexact HB
    have ek : ∀ h, kOf 30 h = k := fun h => Fin.ext (by show 30 = k.val; omega)
    have hmemp : kOf (k.val - 1) (by omega) ∈ Finset.univ.erase k :=
      Finset.mem_erase.mpr ⟨fun e => by have := congrArg Fin.val e; simp [kOf] at this; omega, Finset.mem_univ _⟩
    rw [ek, SparseCore.bigSep_erase' hmemp, Finset.erase_right_comm]
    isplitl [Hblkp]
    · unfold BlkAt
      rw [dif_pos (show (kOf (k.val - 1) (by omega)).val + 1 < k.val + 1 by show k.val - 1 + 1 < k.val + 1; omega)]
      iexact Hblkp
    have hcong : (bigSep ((Finset.univ.erase k).erase (kOf (k.val - 1) (by omega))) (BlkAt (F := F) Tab d L fo hfo (k.val + 1)) : sProp 𝕄)
        = bigSep ((Finset.univ.erase k).erase (kOf (k.val - 1) (by omega))) (BlkAt (F := F) Tab d L fo hfo k.val) :=
      bigSep_congr fun j hj => by
        have hjp : j ≠ kOf (k.val - 1) (by omega) := (Finset.mem_erase.mp hj).1
        have hjk : j ≠ k := (Finset.mem_erase.mp (Finset.mem_erase.mp hj).2).1
        have h1 : j.val ≠ k.val := fun e => hjk (Fin.ext e)
        have h2' : j.val ≠ k.val - 1 := fun e => hjp (Fin.ext e)
        unfold BlkAt
        by_cases hc : j.val + 1 < k.val
        · rw [dif_pos hc, dif_pos (by omega)]
        · rw [dif_neg hc, dif_neg (by omega)]
    rw [hcong]; iexact Hblks

set_option synthInstance.maxHeartbeats 400000 in
set_option maxHeartbeats 4000000 in
/-- The last trip: the last gather is waited for, no further gather issued, and the copy of block 31 out closes the
    batch of the last two. -/
theorem step_31
    (k : Fin k1_t1_loop.trips) (hk31 : k.val = 31) :
    LoopInvT Tab d L fo hfo O W0 k.val
      ⊢ wp frame (wpE (defs₀ (F := F)) 𝒱₀ thr none) Set.univ
          (k1_t1_body L tV (Memref.isWhole_whole _) iV (Memref.isWhole_whole _) oV (Memref.isWhole_whole _) s0V (Memref.isWhole_whole _) s1V (Memref.isWhole_whole _)
            shV (Memref.isWhole_whole _) cc1_scratch3 cc1_scratch4 cc1_scoped0 cc1_scoped1 k ())
          fun _ => LoopInvT Tab d L fo hfo O W0 (k.val + 1) := by
  have hlt : k.val < 32 := by omega
  have h2 : ¬ k1_cond2 k = 1#1 := fun h => by have := (cond2_iff k).mp h; omega
  unfold k1_t1_body
  rw [show LoopInvT Tab d L fo hfo O W0 k.val = iprop(Transfers.MayWaits thr (default : HIx 1) O
      ∗ (∃ W', ⌜∀ p ∈ W', p ∈ W0 ∨ p.2 = none⌝ ∗ owes thr O W')
      ∗ (Transfers.Flight countersEmb thr (SemLoc.dma cc1_scratch3.sem) (default : HIx 1) 524288 (DG Tab d L fo hfo k.val hlt)
        ∗ ((s0V).view.loc thr ↦[Finset.univ \ (rowN k.val hlt).view.set]{fullShare} fo))
      ∗ (Transfers.Batch countersEmb thr (SemLoc.dma cc1_scratch4.sem) (default : HIx 1) 524288 (DB Tab d L fo hfo) 1 0
        ∗ bigSep (Finset.univ.erase (kOf 30 (by omega))) (BlkAt Tab d L fo hfo k.val))) from by
    unfold LoopInvT GSide OSide
    rw [dif_pos hlt, dif_neg (by omega : ¬ k.val = 0), dif_neg (by omega : ¬ k.val ≤ 30), dif_pos hk31]]
  iintro ⟨#Hmw, ⟨%W', %hW', HO⟩, ⟨HFg, Hs0r⟩, ⟨HB, Hblks⟩⟩
  sl_exec
  ihave Hmwg := (Transfers.MayWaits.elim (SemLoc.dma cc1_scratch3.sem)) $$ Hmw
  iapply (Transfers.wp_waitLocalO countersEmb 𝒱₀ thr none (default : HIx 1) rfl) $$ [HFg HO Hmwg]
  · isplitl [HFg]; · iexact HFg
    isplitl [HO]; · iexact HO
    iexact Hmwg
  iintro ⟨⟨⟨%fs, Hslot, %hfs⟩, Hrow, Hsh⟩, HsemG, HO⟩
  ihave Hs0 := ((pointsTo_split_subset (ℓ := (s0V).view.loc thr) (q := fullShare) (f := fo) (Finset.subset_univ (rowN k.val hlt).view.set)).2) $$ [Hrow Hs0r]
  · isplitl [Hrow]; · iexact Hrow
    iexact Hs0r
  have e2 : (![k.val % 2, 0, 0] : Fin 3 → Nat) = k1_off2 k := (k1_off2_eq k).symm
  ihave Hslot' := (Entails.of_eq (slot_respell (F := F) d L k.val (k1_off2 k) (k1_off2_inb k) e2 fs)) $$ Hslot
  sl_exec
  have hmem : k ∈ Finset.univ.erase (kOf 30 (by omega)) :=
    Finset.mem_erase.mpr ⟨fun e => by have := congrArg Fin.val e; simp [kOf] at this; omega, Finset.mem_univ _⟩
  -- block k, out of the blocks still held; its copy out is transfer 1 of the batch
  ihave Hblks' := (Entails.of_eq (SparseCore.bigSep_erase' (Φ := BlkAt (F := F) Tab d L fo hfo k.val) hmem)) $$ Hblks
  icases Hblks' with ⟨Hblk0, Hblks⟩
  ihave Hblk1 := (Entails.of_eq (show BlkAt (F := F) Tab d L fo hfo k.val k = BlkPts d L k from by unfold BlkAt; rw [dif_neg (by omega)])) $$ Hblk0
  icases Hblk1 with ⟨%fb, Hblk⟩
  have hkk : kOf (30 + 1) (by omega) = k := Fin.ext (by show 30 + 1 = k.val; omega)
  have eS : (![(30 + 1) % 2, 0, 0] : Fin 3 → Nat) = k1_off2 k := by
    rw [k1_off2_eq k, show (30 + 1) % 2 = k.val % 2 by omega]
  have hval : ∀ (m : ℕ) (hm : m < 32), m = k.val → View.read (Elt F) (outBlk L k).view (View.write (Elt F) (outBlk L k).view fb
      (ReadAs.same.apply (View.read (Elt F) (slotAt (k1_off2 k) (k1_off2_inb k)).view fs)) Finset.univ) = GPn Tab d L fo hfo m hm := by
    intro m hm e; subst e
    rw [View.read_write_univ]
    exact (slot_read_respell (F := F) d L k.val (k1_off2 k) (k1_off2_inb k) e2 fs).symm.trans hfs
  iapply (Transfers.wp_dmaBatch countersEmb 𝒱₀ thr none (fs := fs) (fd := fb) (D := DB (F := F) Tab d L fo hfo) (default : HIx 1) 524288 rfl (Finset.Subset.refl _) (show 1 < 2 by decide) (Nat.zero_le _) ?hD) $$ [Hslot' Hblk HB]
  case hD =>
    iintro ⟨Hb, Hsl⟩
    isplitl [Hsl]
    · iexists _
      iapply (Entails.of_eq (slot_respell (F := F) d L (30 + 1) (k1_off2 k) (k1_off2_inb k) eS _).symm)
      iexact Hsl
    · iapply (blkG_intro Tab d L fo hfo _ _ k (by show k.val = 30 + 1; omega) _ (hval _ _ (by show 30 + 1 = k.val; omega)))
      iexact Hb
  · isplitl [Hslot']; · iexact Hslot'
    isplitl [Hblk]; · iexact Hblk
    iexact HB
  iintro HB
  sl_step
  -- the invariant at the loop's exit
  unfold LoopInvT GSide OSide
  rw [dif_neg (by omega : ¬ k.val + 1 < 32), dif_neg (by omega : ¬ k.val + 1 = 0), dif_neg (by omega : ¬ k.val + 1 ≤ 30), dif_neg (by omega : ¬ k.val + 1 = 31)]
  isplitr; · iexact Hmw
  isplitl [HO]
  · iexists _
    isplitr
    swap; · iexact HO
    ipureintro
    intro p hp
    rcases Finset.mem_insert.mp hp with hp | hp; · exact Or.inr (by rw [hp]; rfl)
    exact hW' p hp
  isplitl [HsemG Hs0 Hsh]
  · isplitl [HsemG]; · iexact HsemG
    isplitl [Hs0]; · iexact Hs0
    iexact Hsh
  · isplitl [HB]; · iexact HB
    have ek : ∀ h, kOf 31 h = k := fun h => Fin.ext (by show 31 = k.val; omega)
    rw [ek]
    have hcong : (bigSep ((Finset.univ.erase (kOf 30 (by omega))).erase k) (BlkAt (F := F) Tab d L fo hfo (k.val + 1)) : sProp 𝕄)
        = bigSep ((Finset.univ.erase (kOf 30 (by omega))).erase k) (BlkAt (F := F) Tab d L fo hfo k.val) :=
      bigSep_congr fun j hj => by
        have hjk : j ≠ k := (Finset.mem_erase.mp hj).1
        have hj30 : j ≠ kOf 30 (by omega) := (Finset.mem_erase.mp (Finset.mem_erase.mp hj).2).1
        have h1 : j.val ≠ k.val := fun e => hjk (Fin.ext e)
        have h3' : j.val ≠ 30 := fun e => hj30 (Fin.ext e)
        unfold BlkAt
        by_cases hc : j.val + 1 < k.val
        · rw [dif_pos hc, dif_pos (by omega)]
        · rw [dif_neg hc, dif_neg (by omega)]
    rw [hcong]; iexact Hblks

end Tile

end Cert.KernelIdeal.Sc

end
-- ==== Proof.ScTailProg.lean ====
/-
  The part of a vector subcore's task that follows the subcore barrier, as one program: the copy of the subcore's rows
  of the index list into its index scratch, the first gather, the gather loop, the two closing waits.
-/
import proofs.«208327_g62569083568895_cont_9to1c4b_407_46_alg».proof.Proof.ScTileGeom

noncomputable section

namespace Cert.KernelIdeal.Sc

open Cert.KernelIdeal Cert.KernelIdeal.Gen
open Idealize.ShloMosaic Idealize.SL.Sem

variable {F : FTy → Type} [FloatOps F]

set_option maxHeartbeats 4000000 in
/-- The task after the subcore barrier: the subcore's rows of the index list into its index scratch, the first gather
    issued, the gather loop, and the two closing waits for the copies out. -/
noncomputable def k1_tail (i : grid1.Coords) (arg2 : Memref sig .scVector .hbm S8192x128 .f32) (harg2 : arg2.IsWhole) (arg3 : Memref sig .scVector .hbm S1024x128 .i32) (harg3 : arg3.IsWhole) (arg4 : Memref sig .scVector .hbm S131072x128 .f32) (harg4 : arg4.IsWhole) (arg5 : Memref sig .scVector .vmem S32x128 .i32) (harg5 : arg5.IsWhole) (arg6 : Memref sig .scVector .vmem S2x128x128 .f32) (harg6 : arg6.IsWhole) (arg7 : Memref sig .scVector .shared S8192x128 .f32) (harg7 : arg7.IsWhole) (arg8 : DmaSems sig S_) (arg9 : DmaSems sig S_) (v25_r0 : DmaSems sig S_) (v25_r1 : DmaSems sig S_) :
    Prog (TpuEff nD τ sig (Elt F) Λ₀ (.scVector ((i 0).castLE hcore1) ((i 1).castLE hsub1))) (PUnit) := do
  (do
    let v27_r1 : Memref sig .scVector .hbm S32x128 .i32 := arg3.slice (Rect.unit (s := S1024x128) (k1_off1 i) S32x128.size (k1_off1_inb i)) (fun _ => rfl)
    Prog.lift (.enqueueDma v27_r1 (.here arg5) (.dma v25_r1.sem) (View.wordExact_bits rfl) harg5.wordExact ⟨Or.inl rfl, trivial⟩)
    let v29_r1 : Memref sig .scVector .hbm S32x128 .i32 := arg3.slice (Rect.unit (s := S1024x128) (k1_off1 i) S32x128.size (k1_off1_inb i)) (fun _ => rfl)
    Prog.lift (.waitDma2 v25_r1.sem v29_r1 arg5 (View.wordExact_bits rfl) harg5.wordExact)
    let v7 : Memref sig .scVector .vmem S1x128x128 .f32 := arg6.slice (Rect.unit (s := S2x128x128) ![0, 0, 0] S1x128x128.size inb_S2x128x128_S1x128x128_0_0_0) (fun _ => rfl)
    let v8 : Memref sig .scVector .vmem S128x128 .f32 := v7.squeeze S128x128 squeezes_S1x128x128_S128x128
    let v9 : Memref sig .scVector .vmem S1x128 .i32 := arg5.slice (Rect.unit (s := S32x128) ![0, 0] S1x128.size inb_S32x128_S1x128_0_0) (fun _ => rfl)
    let v10 : Memref sig .scVector .vmem S128 .i32 := v9.squeeze S128 squeezes_S1x128_S128
    let v11 : Memref sig .scVector .shared S8192x128 .f32 := arg7.slice (Rect.unit (s := S8192x128) ![0, 0] S8192x128.size inb_S8192x128_S8192x128_0_0) (fun _ => rfl)
    SparseCore.enqueueIndirectGather rfl v11 v8 gathers_S8192x128_S128x128 v10 rfl arg8.sem (View.wordExact_bits rfl) rfl (Or.inr rfl)
    Scf.Loop.for k1_t1_loop k1_t1_ok ⟨⟩ (k1_t1_body i arg2 harg2 arg3 harg3 arg4 harg4 arg5 harg5 arg6 harg6 arg7 harg7 arg8 arg9 v25_r0 v25_r1)
    pure ⟨⟩)
  let v16 : Memref sig .scVector .hbm S128x128 .f32 := arg4.slice (Rect.unit (s := S131072x128) (k1_off9 i) S128x128.size (k1_off9_inb i)) (fun _ => rfl)
  let v17 : Memref sig .scVector .vmem S1x128x128 .f32 := arg6.slice (Rect.unit (s := S2x128x128) ![0, 0, 0] S1x128x128.size inb_S2x128x128_S1x128x128_0_0_0) (fun _ => rfl)
  let v18 : Memref sig .scVector .vmem S128x128 .f32 := v17.squeeze S128x128 squeezes_S1x128x128_S128x128
  Prog.lift (.waitDma2 arg9.sem v18 v16 ((View.wordExact_bits rfl).reshape _ _) (View.wordExact_bits rfl))
  let v22 : Memref sig .scVector .hbm S128x128 .f32 := arg4.slice (Rect.unit (s := S131072x128) (k1_off9 i) S128x128.size (k1_off9_inb i)) (fun _ => rfl)
  let v23 : Memref sig .scVector .vmem S1x128x128 .f32 := arg6.slice (Rect.unit (s := S2x128x128) ![0, 0, 0] S1x128x128.size inb_S2x128x128_S1x128x128_0_0_0) (fun _ => rfl)
  let v24 : Memref sig .scVector .vmem S128x128 .f32 := v23.squeeze S128x128 squeezes_S1x128x128_S128x128
  Prog.lift (.waitDma2 arg9.sem v24 v22 ((View.wordExact_bits rfl).reshape _ _) (View.wordExact_bits rfl))
  pure ⟨⟩

end Cert.KernelIdeal.Sc

end
-- ==== Proof.ScTail.lean ====
/-
  One vector subcore's task after the subcore barrier: its rows of the index list fetched, the gather loop by its
  invariant, the batch of the last two copies out drained, and the subcore's blocks of the result at the gathered rows.
-/
import proofs.«208327_g62569083568895_cont_9to1c4b_407_46_alg».proof.Proof.ScLoopEnd
import proofs.«208327_g62569083568895_cont_9to1c4b_407_46_alg».proof.Proof.ScTailProg

set_option pp.maxSteps 6000
set_option pp.deepTerms false

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_0_scv : Memref Cert.KernelIdeal.sig Kind.scVector Space.hbm Cert.KernelIdeal.S8192x128 EltTy.f32)
local notation "iV" => (Memref.whole Cert.KernelIdeal.main_v2_scv : Memref Cert.KernelIdeal.sig Kind.scVector Space.hbm Cert.KernelIdeal.S1024x128 EltTy.i32)
local notation "oV" => (Memref.whole Cert.KernelIdeal.main_v3_scv : Memref Cert.KernelIdeal.sig Kind.scVector Space.hbm Cert.KernelIdeal.S131072x128 EltTy.f32)
local notation "s0V" => (Memref.whole Cert.KernelIdeal.cc1_scratch0 : Memref Cert.KernelIdeal.sig Kind.scVector Space.vmem Cert.KernelIdeal.S32x128 EltTy.i32)
local notation "s1V" => (Memref.whole Cert.KernelIdeal.cc1_scratch1 : Memref Cert.KernelIdeal.sig Kind.scVector Space.vmem Cert.KernelIdeal.S2x128x128 EltTy.f32)
local notation "shV" => (Memref.whole Cert.KernelIdeal.cc1_scratch2 : Memref Cert.KernelIdeal.sig Kind.scVector Space.shared Cert.KernelIdeal.S8192x128 EltTy.f32)

variable (Tab : (d : Dev nD) → Buf (Elt F) (tabLoc d)) (Idx : (d : Dev nD) → Buf (Elt F) (idxLoc d))

section Tile

variable (d : Dev nD) (L : grid1.Coords)

variable [FloatOps F]

local notation "thr" => (V d (cV L) (jV L))

variable (fo : Buf (Elt F) ((s0V).view.loc (V d (cV L) (jV L))))
variable (hfo : ∀ n h x, (View.read (Elt F) (rowN n h).view fo x).toNat < 8192)
variable (O : CellTallies nD τ sig (HIx 1)) (W0 : Waits sig (HIx 1))

omit [FloatOps F] in
/-- The rows an offset list names depend on the list's words only. -/
theorem rows_congr {si : Shape} {o z : ℕ} {idx idx' : si.Idx → Elt F .i32} (e : idx = idx') (hn : si.numel = o)
    (h : ∀ x, (idx x).toNat < z) (h' : ∀ x, (idx' x).toNat < z) : SparseCore.rows idx hn h = SparseCore.rows idx' hn h' := by
  subst e; rfl

omit [FloatOps F] in
/-- With the index scratch holding the subcore's rows of the index list and the shared memory the table, the rows the
    m-th gather fetches are the table's rows named by the m-th row of the subcore's rows of the index list. -/
theorem gpn_eq_exp (f0 : Buf (Elt F) ((s0V).view.loc (V d (cV L) (jV L)))) (pay : S32x128.Idx → Elt F .i32)
    (hpay : pay = View.read (Elt F) (idxChunk L).view (Idx d))
    (hfo0 : ∀ n h x, (View.read (Elt F) (rowN n h).view (View.write (Elt F) (s0V).view f0 pay Finset.univ) x).toNat < 8192)
    (m : ℕ) (hm : m < 32) (hb : ∀ x, (View.read (Elt F) (chunkRow L (kOf m hm)).view (Idx d) x).toNat < S8192x128.size gathers_S8192x128_S128x128.axis) :
    GPn Tab d L (View.write (Elt F) (s0V).view f0 pay Finset.univ) hfo0 m hm = ExpBlk Tab Idx d L (kOf m hm) hb := by
  subst hpay
  have hA : View.read (Elt F) (shFull).view (TabSh Tab d (cV L)) = View.read (Elt F) (tV).view (Tab d) := by
    funext x
    have hemb : (shFull).view.emb x = (tV).view.emb x := by
      funext a
      apply Fin.ext
      show ((Rect.unit (s := S8192x128) ![0, 0] S8192x128.size inb_S8192x128_S8192x128_0_0).emb x a : ℕ) = (x a : ℕ)
      have h : ((Rect.unit (s := S8192x128) ![0, 0] S8192x128.size inb_S8192x128_S8192x128_0_0).emb x a : ℕ) = (![0, 0] : Fin 2 → ℕ) a + 1 * (x a : ℕ) := rfl
      rw [h]
      match a with
      | ⟨0, _⟩ => simp
      | ⟨1, _⟩ => simp
    rw [View.read_apply, View.read_apply, hemb]; rfl
  have hB : View.read (Elt F) (rowN m hm).view (View.write (Elt F) (s0V).view f0 (View.read (Elt F) (idxChunk L).view (Idx d)) Finset.univ)
      = View.read (Elt F) (chunkRow L (kOf m hm)).view (Idx d) := by
    funext x
    have e : View.read (Elt F) (rowN m hm).view (View.write (Elt F) (s0V).view f0 (View.read (Elt F) (idxChunk L).view (Idx d)) Finset.univ) x
        = View.read (Elt F) (s0V).view (View.write (Elt F) (s0V).view f0 (View.read (Elt F) (idxChunk L).view (Idx d)) Finset.univ)
            ((Rect.unit (s := S32x128) ![m, 0] S1x128.size (inb_rowN m hm)).emb ((Shape.reshapeEquiv squeezes_S1x128_S128.numel_eq) x)) := by
      rw [View.read_apply, View.read_apply]; rfl
    rw [e, View.read_write_univ]
    rw [View.read_apply, View.read_apply]; rfl
  unfold GPn ExpBlk
  rw [hA]
  exact congrArg _ (rows_congr hB _ _ _)

omit [FloatOps F] in
/-- The two slots together are the row scratch. -/
theorem pts_cover (f : Buf (Elt F) ((V d (cV L) (jV L)).loc cc1_scratch1)) :
    ((V d (cV L) (jV L)).loc cc1_scratch1 ↦[(slot 0).view.set ∪ (slot 1).view.set]{fullShare} f : sProp 𝕄)
      = ((V d (cV L) (jV L)).loc cc1_scratch1 ↦{fullShare} f) := by
  rw [slots_cover]

/-- One trip of the gather loop, whichever. -/
theorem step_all (k : Fin k1_t1_loop.trips) (acc : PUnit) :
    LoopInvT Tab d L fo hfo O W0 k.val
      ⊢ wp frame (wpE (defs₀ (F := F)) 𝒱₀ thr none) Set.univ
          (k1_t1_body L tV (Memref.isWhole_whole _) iV (Memref.isWhole_whole _) oV (Memref.isWhole_whole _) s0V (Memref.isWhole_whole _) s1V (Memref.isWhole_whole _)
            shV (Memref.isWhole_whole _) cc1_scratch3 cc1_scratch4 cc1_scoped0 cc1_scoped1 k acc)
          fun _ => LoopInvT Tab d L fo hfo O W0 (k.val + 1) := by
  have hlt : k.val < 32 := Nat.lt_of_lt_of_eq k.isLt trips_eq
  by_cases h0 : k.val = 0
  · exact step_zero Tab d L fo hfo O W0 k h0
  by_cases h29 : k.val ≤ 29
  · exact step_mid Tab d L fo hfo O W0 k (by omega) h29
  by_cases h30 : k.val = 30
  · exact step_30 Tab d L fo hfo O W0 k h30
  · exact step_31 Tab d L fo hfo O W0 k (by omega)

set_option maxRecDepth 65536 in
set_option synthInstance.maxHeartbeats 400000 in
set_option maxHeartbeats 4000000 in
/-- The task after the barrier. -/
theorem tile_tail (hIdx : ∀ x, ((iV).view.read (Elt F) (Idx d) x).toNat < 8192) (W1 : Waits sig (HIx 1)) :
    iprop(Transfers.MayWaits thr (default : HIx 1) O ∗ owes thr O W1
        ∗ shShare Tab d (cV L) (jL L)
        ∗ (idxLoc d ↦[(idxChunk L).view.set]{fullShare} Idx d)
        ∗ (bigSep Finset.univ fun k : Fin k1_t1_loop.trips => iprop(∃ f, outLoc d ↦[(outBlk L k).view.set]{fullShare} f))
        ∗ (∃ f, (V d (cV L) (jV L)).loc cc1_scratch0 ↦{fullShare} f) ∗ (∃ f, (V d (cV L) (jV L)).loc cc1_scratch1 ↦{fullShare} f)
        ∗ semVal (gCell d (cV L) (jV L)) 0 ∗ semVal (oCell d (cV L) (jV L)) 0 ∗ semVal (bCell d (cV L) (jV L)) 0)
      ⊢ wp frame (wpE (defs₀ (F := F)) 𝒱₀ thr none) Set.univ
          (k1_tail L tV (Memref.isWhole_whole _) iV (Memref.isWhole_whole _) oV (Memref.isWhole_whole _) s0V (Memref.isWhole_whole _) s1V (Memref.isWhole_whole _)
            shV (Memref.isWhole_whole _) cc1_scratch3 cc1_scratch4 cc1_scoped0 cc1_scoped1)
          fun _ => iprop(shShare Tab d (cV L) (jL L)
            ∗ (idxLoc d ↦[(idxChunk L).view.set]{fullShare} Idx d)
            ∗ (bigSep Finset.univ fun k : Fin k1_t1_loop.trips => BlkDone Tab Idx d L k)
            ∗ (∃ f, (V d (cV L) (jV L)).loc cc1_scratch0 ↦{fullShare} f) ∗ (∃ f, (V d (cV L) (jV L)).loc cc1_scratch1 ↦{fullShare} f)
            ∗ semVal (gCell d (cV L) (jV L)) 0 ∗ semVal (oCell d (cV L) (jV L)) 0 ∗ semVal (bCell d (cV L) (jV L)) 0
            ∗ ∃ W', ⌜∀ p ∈ W', p ∈ W1 ∨ p.2 = none⌝ ∗ owes thr O W') := by
  unfold k1_tail
  iintro ⟨#Hmw, HO, Hsh, Hidx, Hout, ⟨%f0, Hs0⟩, ⟨%f1, Hs1⟩, HsemG, HsemO, HsemB⟩
  ihave Hsh' := (Entails.of_eq (pts_shFull (F := F) d L _ _).symm) $$ Hsh
  ihave Hsl := ((pts_slots (F := F) d L f1).1) $$ Hs1
  icases Hsl with ⟨Hsl0, Hsl1⟩
  ihave Hidx' := (Entails.of_eq (pts_idx (F := F) d L _ _).symm) $$ Hidx
  ihave Hs0' := (Entails.of_eq (pts_s0 (F := F) d L _).symm) $$ Hs0
  sl_exec
  have hidx0 := fun g => inb_of_idx (F := F) Idx d L hIdx g (tile_tail.sl.dma0 Idx d L) rfl ![0, 0] inb_S32x128_S1x128_0_0
  sl_exec
  -- the loop, by its invariant
  have hfo0 : ∀ n h x, (View.read (Elt F) (rowN n h).view (View.write (Elt F) (s0V).view f0 (tile_tail.sl.dma0 Idx d L) Finset.univ) x).toNat < 8192 :=
    fun n h => inb_of_idx (F := F) Idx d L hIdx f0 (tile_tail.sl.dma0 Idx d L) rfl ![n, 0] (inb_rowN n h)
  rw [bind_assoc]
  iapply (Scf.wp_for_bind frame (wpE (defs₀ (F := F)) 𝒱₀ thr none) Set.univ k1_t1_loop.lb k1_t1_loop.ub k1_t1_loop.st k1_t1_ok PUnit.unit
      (k1_t1_body L tV (Memref.isWhole_whole _) iV (Memref.isWhole_whole _) oV (Memref.isWhole_whole _) s0V (Memref.isWhole_whole _) s1V (Memref.isWhole_whole _)
        shV (Memref.isWhole_whole _) cc1_scratch3 cc1_scratch4 cc1_scoped0 cc1_scoped1)
      (fun n _ => LoopInvT Tab d L (View.write (Elt F) (s0V).view f0 (tile_tail.sl.dma0 Idx d L) Finset.univ) hfo0 O
        (insert (SemLoc.dma cc1_scoped1.sem, (default : HIx 1)) W1) n)
      (fun k acc => step_all Tab d L _ hfo0 O _ k acc)) $$ [HO HsemG Hs0' HsemO Hsl1 Hout]
  · unfold LoopInvT GSide OSide
    rw [dif_pos (by decide : 0 < 32), dif_pos rfl]
    isplitr; · iexact Hmw
    isplitl [HO]
    · iexists _
      isplitr
      swap; · iexact HO
      ipureintro; intro p hp; exact Or.inl hp
    isplitl [HsemG Hs0']
    · isplitl [HsemG]
      · iapply (Transfers.Flight_mono countersEmb thr ?_) $$ HsemG
        iintro ⟨⟨Hd, Hr⟩, Hs⟩
        isplitl [Hd]
        · iexists _
          isplitl [Hd]; · iexact Hd
          ipureintro
          exact View.read_writes_whole _ _ _
        isplitl [Hr]; · iexact Hr
        iexact Hs
      · iexact Hs0'
    · isplitl [HsemO]; · iexact HsemO
      isplitl [Hsl1]; · iexists _; iexact Hsl1
      rw [show (bigSep Finset.univ (BlkAt (F := F) Tab d L (View.write (Elt F) (s0V).view f0 (tile_tail.sl.dma0 Idx d L) Finset.univ) hfo0 0) : sProp 𝕄)
          = bigSep Finset.univ (BlkPts (F := F) d L) from bigSep_congr fun j _ => by unfold BlkAt; rw [dif_neg (by omega)]]
      iexact Hout
  iintro %acc Hinv
  ihave Hinv' := (Entails.of_eq (show LoopInvT Tab d L (View.write (Elt F) (s0V).view f0 (tile_tail.sl.dma0 Idx d L) Finset.univ) hfo0 O (insert (SemLoc.dma cc1_scoped1.sem, (default : HIx 1)) W1) (Scf.trips k1_t1_loop.lb k1_t1_loop.ub k1_t1_loop.st)
      = iprop(Transfers.MayWaits thr (default : HIx 1) O
        ∗ (∃ W', ⌜∀ p ∈ W', p ∈ (insert (SemLoc.dma cc1_scoped1.sem, (default : HIx 1)) W1) ∨ p.2 = none⌝ ∗ owes thr O W')
        ∗ (semVal (gCell d (cV L) (jV L)) 0 ∗ ((s0V).view.loc thr ↦{fullShare} (View.write (Elt F) (s0V).view f0 (tile_tail.sl.dma0 Idx d L) Finset.univ)) ∗ ShPts Tab d L)
        ∗ (Transfers.Batch countersEmb thr (SemLoc.dma cc1_scratch4.sem) (default : HIx 1) 524288 (DB Tab d L (View.write (Elt F) (s0V).view f0 (tile_tail.sl.dma0 Idx d L) Finset.univ) hfo0) 2 0
          ∗ bigSep ((Finset.univ.erase (kOf 30 (by omega))).erase (kOf 31 (by omega))) (BlkAt Tab d L (View.write (Elt F) (s0V).view f0 (tile_tail.sl.dma0 Idx d L) Finset.univ) hfo0 32))) from by
    rw [show Scf.trips k1_t1_loop.lb k1_t1_loop.ub k1_t1_loop.st = 32 from trips_eq]
    unfold LoopInvT GSide OSide
    rw [dif_neg (by decide), dif_neg (by decide), dif_neg (by decide), dif_neg (by decide)])) $$ Hinv
  icases Hinv' with ⟨-, ⟨%W', %hW', HO⟩, ⟨HsemG, Hs0, Hsh⟩, ⟨HB, Hblks⟩⟩
  sl_exec
  sl_step
  -- what the subcore hands back
  have hdone : ∀ (m : ℕ) (hm : m < 32), (BlkG Tab d L (View.write (Elt F) (s0V).view f0 (tile_tail.sl.dma0 Idx d L) Finset.univ) hfo0 m hm : sProp 𝕄) ⊢ BlkDone Tab Idx d L (kOf m hm) := fun m hm => by
    iintro ⟨%f, H, %hf⟩
    iexists f
    isplitl [H]; · iexact H
    ipureintro
    intro hb
    exact hf.trans (gpn_eq_exp Tab Idx d L f0 _ rfl hfo0 m hm hb)
  isplitl [Hsh]
  · iapply (Entails.of_eq (pts_shFull (F := F) d L _ _)); iexact Hsh
  isplitl [Hidx']
  · iapply (Entails.of_eq (pts_idx (F := F) d L _ _)); iexact Hidx'
  isplitl [Hblks HB_src0 HB_src1]
  · have h31 : kOf 31 (by omega) ∈ Finset.univ.erase (kOf 30 (by omega)) :=
      Finset.mem_erase.mpr ⟨by intro e; have := congrArg Fin.val e; simp [kOf] at this, Finset.mem_univ _⟩
    rw [SparseCore.bigSep_erase' (Finset.mem_univ (kOf 30 (by omega))), SparseCore.bigSep_erase' h31]
    isplitl [HB_src0]; · iapply (hdone _ _) $$ HB_src0
    isplitl [HB_src1]; · iapply (hdone _ _) $$ HB_src1
    have hm : (bigSep ((Finset.univ.erase (kOf 30 (by omega))).erase (kOf 31 (by omega))) (BlkAt (F := F) Tab d L (View.write (Elt F) (s0V).view f0 (tile_tail.sl.dma0 Idx d L) Finset.univ) hfo0 32) : sProp 𝕄)
        ⊢ bigSep ((Finset.univ.erase (kOf 30 (by omega))).erase (kOf 31 (by omega))) (fun k => BlkDone Tab Idx d L k) :=
      bigSep_mono fun j hj => by
        have hj31 : j ≠ kOf 31 (by omega) := (Finset.mem_erase.mp hj).1
        have hlt : j.val < 32 := Nat.lt_of_lt_of_eq j.isLt trips_eq
        have h1 : j.val ≠ 31 := fun e => hj31 (Fin.ext e)
        unfold BlkAt
        rw [dif_pos (by omega)]
        exact hdone j.val hlt
    iapply hm $$ Hblks
  isplitl [Hs0]
  · iexists _; iapply (Entails.of_eq (pts_s0 (F := F) d L _)); iexact Hs0
  isplitl [HB_dst0 HB_dst1]
  · icases HB_dst0 with ⟨%g0, Hg0⟩
    icases HB_dst1 with ⟨%g1, Hg1⟩
    ihave Hj := (pointsTo_join (ℓ := (V d (cV L) (jV L)).loc cc1_scratch1) (q := fullShare) (f := g0) (g := g1) slots_disjoint) $$ [Hg0 Hg1]
    · isplitl [Hg0]; · iexact Hg0
      iexact Hg1
    iexists _
    iapply (Entails.of_eq (pts_cover (F := F) d L _)) $$ Hj
  isplitl [HsemG]; · iexact HsemG
  isplitl [HB]; · iexact HB
  isplitl [HsemB]; · iexact HsemB
  iexists _
  isplitr
  swap; · iexact HO
  ipureintro
  intro p hp
  rcases Finset.mem_insert.mp hp with hp | hp; · exact Or.inr (by rw [hp]; rfl)
  rcases Finset.mem_insert.mp hp with hp | hp; · exact Or.inr (by rw [hp]; rfl)
  rcases hW' p hp with h | h
  · rcases Finset.mem_insert.mp h with h | h
    · exact Or.inr (by rw [h]; rfl)
    · exact Or.inl h
  · exact Or.inr h

end Tile

end Cert.KernelIdeal.Sc

end
-- ==== Proof.ScShDeal.lean ====
/-
  The first subcore of a SparseCore, once it has copied the table into the SparseCore's shared memory, deals the shared
  memory out as read shares: sixteen shares, one per subcore, and the remainder, all at the table's contents. And what
  a whole-buffer copy of the whole table leaves in the shared memory is the table's contents.
-/
import proofs.«208327_g62569083568895_cont_9to1c4b_407_46_alg».proof.Proof.ScPay

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

local notation "tV" => (Memref.whole Cert.KernelIdeal.main_v1_0_scv : Memref Cert.KernelIdeal.sig Kind.scVector Space.hbm Cert.KernelIdeal.S8192x128 EltTy.f32)
local notation "shV" => (Memref.whole Cert.KernelIdeal.cc1_scratch2 : Memref Cert.KernelIdeal.sig Kind.scVector Space.shared Cert.KernelIdeal.S8192x128 EltTy.f32)

/-- The shared memory whole, at the table's contents, is the remainder and the sixteen read shares. -/
theorem sh_deal (d : Dev nD) (c : Fin τ.nSC) (f : Buf (Elt F) (shLoc d c)) (hf : ∀ i, f i = TabSh Tab d c i) :
    (shLoc d c ↦{fullShare} f : sProp 𝕄)
      ⊢ iprop((shLoc d c ↦{Transfers.shareDrop fullShare 16} TabSh Tab d c) ∗ bigSep Finset.univ fun j : Fin 16 => shShare Tab d c j) := by
  rw [show f = TabSh Tab d c from funext hf]
  exact Transfers.pointsTo_toks_split fullShare 16

/-- The table read whole and written whole over the shared memory leaves the table's contents there. -/
theorem sh_copied (d : Dev nD) (c : Fin τ.nSC) (f0 : Buf (Elt F) (shLoc d c)) :
    ∀ i, (shV).view.write (Elt F) f0 ((tV).view.read (Elt F) (Tab d)) Finset.univ i = TabSh Tab d c i :=
  fun i => congrFun (View.write_whole_univ (Val := Elt F) cc1_scratch2 f0 ((tV).view.read (Elt F) (Tab d))) i

end Cert.KernelIdeal.Sc

end
-- ==== Proof.ScTileBody.lean ====
/-
  The run of one vector subcore's task: on the first subcore of a SparseCore the copy of the table into the shared
  memory and the dealing of its sixteen read shares; the subcore barrier; then the task after the barrier.
-/
import proofs.«208327_g62569083568895_cont_9to1c4b_407_46_alg».proof.Proof.ScTail
import proofs.«208327_g62569083568895_cont_9to1c4b_407_46_alg».proof.Proof.ScShDeal

set_option pp.maxSteps 6000
set_option pp.deepTerms false

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_0_scv : Memref Cert.KernelIdeal.sig Kind.scVector Space.hbm Cert.KernelIdeal.S8192x128 EltTy.f32)
local notation "iV" => (Memref.whole Cert.KernelIdeal.main_v2_scv : Memref Cert.KernelIdeal.sig Kind.scVector Space.hbm Cert.KernelIdeal.S1024x128 EltTy.i32)
local notation "oV" => (Memref.whole Cert.KernelIdeal.main_v3_scv : Memref Cert.KernelIdeal.sig Kind.scVector Space.hbm Cert.KernelIdeal.S131072x128 EltTy.f32)
local notation "s0V" => (Memref.whole Cert.KernelIdeal.cc1_scratch0 : Memref Cert.KernelIdeal.sig Kind.scVector Space.vmem Cert.KernelIdeal.S32x128 EltTy.i32)
local notation "s1V" => (Memref.whole Cert.KernelIdeal.cc1_scratch1 : Memref Cert.KernelIdeal.sig Kind.scVector Space.vmem Cert.KernelIdeal.S2x128x128 EltTy.f32)
local notation "shV" => (Memref.whole Cert.KernelIdeal.cc1_scratch2 : Memref Cert.KernelIdeal.sig Kind.scVector Space.shared Cert.KernelIdeal.S8192x128 EltTy.f32)

variable (Tab : (d : Dev nD) → Buf (Elt F) (tabLoc d)) (Idx : (d : Dev nD) → Buf (Elt F) (idxLoc d))

section Tile

variable (d : Dev nD) (L : grid1.Coords)

variable [FloatOps F]

/-- Whether a subcore is the first of its SparseCore, as the kernel computes it. -/
theorem first_iff : ∀ x : Fin 16,
    ((Scalar.cmpi .ne (Scalar.extui (Scalar.cmpi .eq (BitVec.ofNat 32 x.val) 0#32) : BitVec 32) 0#32 : BitVec 1) = 1#1) ↔ x.val = 0 := by decide

omit [FloatOps F] in
theorem pts_tab (q : PosShare TreeShare) (f : Buf (Elt F) (tabLoc d)) :
    ((tV).view.loc (V d (cV L) (jV L)) ↦{q} f : sProp 𝕄) = tabLoc d ↦{q} f := rfl
omit [FloatOps F] in
theorem pts_shV (q : PosShare TreeShare) (f : Buf (Elt F) (shLoc d (cV L))) :
    ((shV).view.loc (V d (cV L) (jV L)) ↦{q} f : sProp 𝕄) = shLoc d (cV L) ↦{q} f := rfl

set_option maxRecDepth 65536 in
set_option maxHeartbeats 4000000 in
/-- The task on vector subcore `(L 0, L 1)` of device `d`. -/
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hIdx : ∀ x, ((iV).view.read (Elt F) (Idx d) x).toNat < 8192) :
    iprop(levAts (K (F := F)).L (K (F := F)).lev ∗ bkit Tab d (cV L) (jV L)
        ∗ goTile Tab Idx d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1_k L tV (Memref.isWhole_whole _) iV (Memref.isWhole_whole _) oV (Memref.isWhole_whole _) s0V (Memref.isWhole_whole _) s1V (Memref.isWhole_whole _)
            shV (Memref.isWhole_whole _) cc1_scratch3 cc1_scratch4 cc1_scoped0 cc1_scoped1)
          fun _ => iprop(tdTile Tab Idx d L
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1_k_eq_skeleton]; unfold cc1_k_skel
  simp only [k1_part1_eq_skeleton]; unfold k1_part1_skel
  rw [(K (F := F)).scopedBufs_V hF d (cV L) (jV L), SparseCore.Cfg.scopedSems0_V (Val := Elt F) d (cV L) (jV L), ownSems0_V, ownBufs_V]
  unfold bkit goTile tdTile
  have hO' : ∀ g, (O + oxV d (cV L)) g none = 0 := fun g => by rw [Pi.add_apply, Finsupp.add_apply, hO g, oxV_none]
  by_cases h0 : (L 1).val = 0
  · rw [if_pos h0, if_pos h0]
    have hc : ((Scalar.cmpi .ne (Scalar.extui (Scalar.cmpi .eq (BitVec.ofNat 32 (L 1).val) 0#32) : BitVec 32) 0#32 : BitVec 1) = 1#1) :=
      (first_iff (jL L)).mpr h0
    iintro ⟨#Hlv, ⟨⟨%κ, #Hinv⟩, Htoks, #Hrch, Hat, Hcred⟩, ⟨⟨Htab, ⟨%fsh, Hshw⟩⟩, Hidx, Hout⟩, ⟨⟨%f0, Hs0⟩, ⟨%f1, Hs1⟩, Hbufs⟩, ⟨HsemG, HsemO, HsemA, HsemB, Hsems⟩, HO⟩
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    ihave Hmw2 := (show levAts (K (F := F)).L (K (F := F)).lev ⊢ Transfers.MayWaits (V d (cV L) (jV L)) (default : HIx 1) O from
      (K (F := F)).mayWaits_none (thr := V d (cV L) (jV L)) hO) $$ Hlv
    ihave Htab' := (Entails.of_eq (pts_tab (F := F) d L _ _).symm) $$ Htab
    ihave Hshw' := (Entails.of_eq (pts_shV (F := F) d L _ _).symm) $$ Hshw
    -- the table into the shared memory, and the wait
    sl_exec
    rw [bind_assoc]
    -- the shared table's sixteen read shares, one for each subcore's round
    ihave Hshw2 := (Entails.of_eq (pts_shV (F := F) d L _ _)) $$ Hshw'
    ihave Hdeal := (sh_deal (F := F) Tab d (cV L) (View.write (Elt F) (shV).view fsh (tile_body.sl.dma0 Tab d) Finset.univ) (fun i => sh_copied (F := F) Tab d (cV L) fsh i)) $$ Hshw2
    icases Hdeal with ⟨Hrest, Htoks16⟩
    ihave Hpays := (pays_intro (F := F) Tab d L h0) $$ Htoks16
    iapply (SparseCore.wp_subcoreBarrier 𝒱₀ none EB (bRd (F := F) Tab) d (sc := cV L) (i := jV L) sc_bar0 (grid1.bound 1) hsub1 (L 1) rfl κ (fun _ => 0) (jV L).val
        (fun j => bRd_mem₀ Tab d _ _ _) (fun _ => rfl) (bRd_expect Tab d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsh := (pays_elim (F := F) Tab d L) $$ Hgot
    -- the task after the barrier
    iapply (wp_wand frame (wpE (defs₀ (F := F)) 𝒱₀ (V d (cV L) (jV L)) none) Set.univ) $$ [HO Hsh Hidx Hout Hs0 Hs1 HsemG HsemO HsemB] [Htab' Hrest Hbufs HsemA Hsems]
    · iapply (tile_tail Tab Idx d L O hIdx _)
      isplitr; · iexact Hmw2
      isplitl [HO]; · iexact HO
      isplitl [Hsh]; · iexact Hsh
      isplitl [Hidx]; · iexact Hidx
      isplitl [Hout]; · iexact Hout
      isplitl [Hs0]; · iexists _; iexact Hs0
      isplitl [Hs1]; · iexists _; iexact Hs1
      isplitl [HsemG]; · iexact HsemG
      isplitl [HsemO]; · iexact HsemO
      iexact HsemB
    · iintro %a ⟨Hsh, Hidx, Hblks, Hs0, Hs1, HsemG, HsemO, HsemB, ⟨%W'', %hW'', HO⟩⟩
      isplitl [Htab' Hrest Hsh Hidx Hblks]
      · isplitl [Htab' Hrest]
        · isplitl [Htab']; · iapply (Entails.of_eq (pts_tab (F := F) d L _ _)); iexact Htab'
          iexact Hrest
        isplitl [Hsh]; · iexact Hsh
        isplitl [Hidx]; · iexact Hidx
        iexact Hblks
      isplitl [Hs0 Hs1 Hbufs]
      · isplitl [Hs0]; · iexact Hs0
        isplitl [Hs1]; · iexact Hs1
        iexact Hbufs
      isplitl [HsemG HsemO HsemA HsemB Hsems]
      · isplitl [HsemG]; · iexact HsemG
        isplitl [HsemO]; · iexact HsemO
        isplitl [HsemA]; · iexact HsemA
        isplitl [HsemB]; · iexact HsemB
        iexact Hsems
      iexists _
      isplitr
      swap; · iexact HO
      ipureintro
      intro p hp
      rcases hW'' p hp with h | h
      · rcases Finset.mem_insert.mp h with h | h
        · exact Or.inr (Or.inr (by rw [h]))
        rcases Finset.mem_insert.mp h with h | h
        · exact Or.inr (Or.inl (by rw [h]; rfl))
        · exact Or.inl h
      · exact Or.inr (Or.inl h)
  · rw [if_neg h0, if_neg h0]
    have hc : ¬ ((Scalar.cmpi .ne (Scalar.extui (Scalar.cmpi .eq (BitVec.ofNat 32 (L 1).val) 0#32) : BitVec 32) 0#32 : BitVec 1) = 1#1) :=
      fun h => h0 ((first_iff (jL L)).mp h)
    iintro ⟨#Hlv, ⟨⟨%κ, #Hinv⟩, Htoks, #Hrch, Hat, Hcred⟩, ⟨-, Hidx, Hout⟩, ⟨⟨%f0, Hs0⟩, ⟨%f1, Hs1⟩, Hbufs⟩, ⟨HsemG, HsemO, HsemA, HsemB, Hsems⟩, HO⟩
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    ihave Hmw2 := (show levAts (K (F := F)).L (K (F := F)).lev ⊢ Transfers.MayWaits (V d (cV L) (jV L)) (default : HIx 1) O from
      (K (F := F)).mayWaits_none (thr := V d (cV L) (jV L)) hO) $$ Hlv
    sl_exec
    rw [bind_assoc]
    -- the barrier: nothing handed over, the subcore's read share of the shared table received
    ihave Hpays := (pays_intro' (F := F) Tab d L h0) $$ []
    · iempintro
    iapply (SparseCore.wp_subcoreBarrier 𝒱₀ none EB (bRd (F := F) Tab) d (sc := cV L) (i := jV L) sc_bar0 (grid1.bound 1) hsub1 (L 1) rfl κ (fun _ => 0) (jV L).val
        (fun j => bRd_mem₀ Tab d _ _ _) (fun _ => rfl) (bRd_expect Tab d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsh := (pays_elim (F := F) Tab d L) $$ Hgot
    -- the task after the barrier
    iapply (wp_wand frame (wpE (defs₀ (F := F)) 𝒱₀ (V d (cV L) (jV L)) none) Set.univ) $$ [HO Hsh Hidx Hout Hs0 Hs1 HsemG HsemO HsemB] [Hbufs HsemA Hsems]
    · iapply (tile_tail Tab Idx d L O hIdx _)
      isplitr; · iexact Hmw2
      isplitl [HO]; · iexact HO
      isplitl [Hsh]; · iexact Hsh
      isplitl [Hidx]; · iexact Hidx
      isplitl [Hout]; · iexact Hout
      isplitl [Hs0]; · iexists _; iexact Hs0
      isplitl [Hs1]; · iexists _; iexact Hs1
      isplitl [HsemG]; · iexact HsemG
      isplitl [HsemO]; · iexact HsemO
      iexact HsemB
    · iintro %a ⟨Hsh, Hidx, Hblks, Hs0, Hs1, HsemG, HsemO, HsemB, ⟨%W'', %hW'', HO⟩⟩
      isplitl [Hsh Hidx Hblks]
      · isplitr; · iempintro
        isplitl [Hsh]; · iexact Hsh
        isplitl [Hidx]; · iexact Hidx
        iexact Hblks
      isplitl [Hs0 Hs1 Hbufs]
      · isplitl [Hs0]; · iexact Hs0
        isplitl [Hs1]; · iexact Hs1
        iexact Hbufs
      isplitl [HsemG HsemO HsemA HsemB Hsems]
      · isplitl [HsemG]; · iexact HsemG
        isplitl [HsemO]; · iexact HsemO
        isplitl [HsemA]; · iexact HsemA
        isplitl [HsemB]; · iexact HsemB
        iexact Hsems
      iexists _
      isplitr
      swap; · iexact HO
      ipureintro
      intro p hp
      rcases hW'' p hp with h | h
      · rcases Finset.mem_insert.mp h with h | h
        · exact Or.inr (Or.inr (by rw [h]))
        · exact Or.inl h
      · exact Or.inr (Or.inl h)

end Tile

end Cert.KernelIdeal.Sc

end
-- ==== Proof.ScObl.lean ====
/-
  The vector-subcore kernel's obligation to the launch theorem: the body table's entry for a subcore of the call's grid
  is the kernel function at that subcore's grid point, on the whole HBM arrays and its scratch, and the task's run at a
  symbolic grid point is the obligation at every subcore.
-/
import proofs.«208327_g62569083568895_cont_9to1c4b_407_46_alg».proof.Proof.ScTileBody

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

local notation "tV" => (Memref.whole Cert.KernelIdeal.main_v1_0_scv : Memref Cert.KernelIdeal.sig Kind.scVector Space.hbm Cert.KernelIdeal.S8192x128 EltTy.f32)
local notation "iV" => (Memref.whole Cert.KernelIdeal.main_v2_scv : Memref Cert.KernelIdeal.sig Kind.scVector Space.hbm Cert.KernelIdeal.S1024x128 EltTy.i32)
local notation "oV" => (Memref.whole Cert.KernelIdeal.main_v3_scv : Memref Cert.KernelIdeal.sig Kind.scVector Space.hbm Cert.KernelIdeal.S131072x128 EltTy.f32)
local notation "s0V" => (Memref.whole Cert.KernelIdeal.cc1_scratch0 : Memref Cert.KernelIdeal.sig Kind.scVector Space.vmem Cert.KernelIdeal.S32x128 EltTy.i32)
local notation "s1V" => (Memref.whole Cert.KernelIdeal.cc1_scratch1 : Memref Cert.KernelIdeal.sig Kind.scVector Space.vmem Cert.KernelIdeal.S2x128x128 EltTy.f32)
local notation "shV" => (Memref.whole Cert.KernelIdeal.cc1_scratch2 : Memref Cert.KernelIdeal.sig Kind.scVector Space.shared Cert.KernelIdeal.S8192x128 EltTy.f32)

variable [FloatOps F]

theorem defs₀_vector (c : Fin τ.nSC) (s : Fin τ.nSub) :
    defs₀ (F := F) (.scVector c s) 1 ()
      = SparseCore.onTile hcore1 hsub1 (fun c s => cc1_k (coordsV c s)
          tV (Memref.isWhole_whole _) iV (Memref.isWhole_whole _) oV (Memref.isWhole_whole _) s0V (Memref.isWhole_whole _) s1V (Memref.isWhole_whole _)
          shV (Memref.isWhole_whole _) cc1_scratch3 cc1_scratch4 cc1_scoped0 cc1_scoped1) ⟨⟩ c s := rfl

set_option maxRecDepth 16384 in
theorem tileObl (hF : (K (F := F)).Facts)
    (hIdx : ∀ d x, ((iV).view.read (Elt F) (Idx d) x).toNat < 8192) :
    (K (F := F)).TileObl (D (F := F)) 𝒱 (P Tab Idx) v₀ 0 := by
  intro d c i O W hO hOlev _
  have hc : ((K (F := F)).core 0 c).val < 2 := c.isLt
  have hci : ((K (F := F)).core 0 c).val < grid1.bound 0 ∧ ((K (F := F)).sub 0 i).val < grid1.bound 1 := ⟨c.isLt, i.isLt⟩
  rw [show (P Tab Idx).ox 0 (V d ((K (F := F)).core 0 c) ((K (F := F)).sub 0 i)) = oxV d ((K (F := F)).core 0 c) from if_pos hc,
    show (P Tab Idx).x 0 (V d ((K (F := F)).core 0 c) ((K (F := F)).sub 0 i)) = bkit Tab d ((K (F := F)).core 0 c) ((K (F := F)).sub 0 i) from if_pos hc]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body Tab Idx d (coordsV ⟨_, hci.1⟩ ⟨_, hci.2⟩) hF O W hO hOlev (hIdx d)

end Cert.KernelIdeal.Sc

end
-- ==== Proof.ScSplit.lean ====
/-
  How a SparseCore's operands split among its sixteen vector subcores and rejoin. The TensorCore hands SparseCore `c`
  a read share of the table, every subcore's rows of the index list and every subcore's blocks of the result; the
  sequencer holds the SparseCore's shared memory among its own buffers. The first subcore is handed the table's share
  and the shared memory whole, every subcore its own rows and blocks. Back come the first subcore's table share and
  what is left of the shared memory after sixteen read shares were taken off it, from every subcore its read share,
  all at the table's contents — the sixteen shares and the remainder are the shared memory whole again — and every
  subcore's blocks, written with the gathered rows.
-/
import proofs.«208327_g62569083568895_cont_9to1c4b_407_46_alg».proof.Proof.ScPay

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

/-! ## The payload's fields, as equations -/

variable [FloatOps F]

theorem P_st (d : Dev nD) (c : Fin ((K (F := F)).nCore 0)) : (P (F := F) Tab Idx).st 0 d c = stCore Tab Idx d c := rfl
theorem P_dn (d : Dev nD) (c : Fin ((K (F := F)).nCore 0)) : (P (F := F) Tab Idx).dn 0 d c = dnCore Tab Idx d c := rfl
theorem P_go (d : Dev nD) (c : Fin ((K (F := F)).nCore 0)) (i : Fin ((K (F := F)).nSub 0)) :
    (P (F := F) Tab Idx).go 0 d c i = goTile Tab Idx d (coordsV c i) := rfl
theorem P_td (d : Dev nD) (c : Fin ((K (F := F)).nCore 0)) (i : Fin ((K (F := F)).nSub 0)) :
    (P (F := F) Tab Idx).td 0 d c i = tdTile Tab Idx d (coordsV c i) := rfl

/-! ## Regrouping over the subcores -/

omit [FloatOps F] in
theorem sep_emp_eq (X : sProp 𝕄) : iprop(X ∗ emp) = X := equiv_iff.mp Idealize.SL.BI.sep_emp

theorem bound_one_pos : 0 < grid1.bound 1 := Nat.succ_pos 15
/-- The first subcore. -/
abbrev sub0 : Fin (grid1.bound 1) := ⟨0, bound_one_pos⟩

omit [FloatOps F] in
/-- A family that is `emp` off the first subcore is its value there. -/
theorem bigSep_first (c : Fin (grid1.bound 0)) (Φ : Fin (grid1.bound 1) → sProp 𝕄) :
    (bigSep Finset.univ fun i : Fin (grid1.bound 1) => if (coordsV c i 1).val = 0 then Φ i else iprop(emp)) = Φ sub0 := by
  rw [SparseCore.bigSep_erase' (Finset.mem_univ sub0), if_pos (show (coordsV c sub0 1).val = 0 from rfl),
    bigSep_congr (Ψ := fun _ => iprop(emp)) (fun i hi => if_neg (fun h : (coordsV c i 1).val = 0 => (Finset.mem_erase.mp hi).1 (Fin.ext (show i.val = (sub0).val from h)))),
    bigSep_emp', sep_emp_eq]

/-- What the sixteen subcores are handed: the table's share and the shared memory (the first subcore's), every
    subcore's rows of the index list, every subcore's blocks of the result. -/
theorem go_all (d : Dev nD) (c : Fin (grid1.bound 0)) :
    (bigSep Finset.univ fun i : Fin (grid1.bound 1) => goTile Tab Idx d (coordsV c i))
      = iprop(((tabLoc d ↦{Transfers.shareTok fullShare 2 (Fin.cast bound_zero c)} Tab d) ∗ ∃ f, shLoc d (coreOf (F := F) c) ↦{fullShare} f)
          ∗ (bigSep Finset.univ fun s : Fin (grid1.bound 1) => idxLoc d ↦[(idxChunk (coordsV c s)).view.set]{fullShare} Idx d)
          ∗ bigSep Finset.univ fun s : Fin (grid1.bound 1) => bigSep Finset.univ fun k : Fin k1_t1_loop.trips =>
              iprop(∃ f, outLoc d ↦[(outBlk (coordsV c s) k).view.set]{fullShare} f)) := by
  unfold goTile
  rw [bigSep_sep', bigSep_sep', bigSep_first]
  rfl

/-- What they hand back: the first subcore's table share and the remainder of the shared memory, every subcore's read
    share of it, the rows, and the blocks written. -/
theorem td_all (d : Dev nD) (c : Fin (grid1.bound 0)) :
    (bigSep Finset.univ fun i : Fin (grid1.bound 1) => tdTile Tab Idx d (coordsV c i))
      = iprop(((tabLoc d ↦{Transfers.shareTok fullShare 2 (Fin.cast bound_zero c)} Tab d)
            ∗ shLoc d (coreOf (F := F) c) ↦{Transfers.shareDrop fullShare 16} TabSh Tab d (coreOf (F := F) c))
          ∗ (bigSep Finset.univ fun i : Fin (grid1.bound 1) => shShare Tab d (coreOf (F := F) c) (jL (coordsV c i)))
          ∗ (bigSep Finset.univ fun s : Fin (grid1.bound 1) => idxLoc d ↦[(idxChunk (coordsV c s)).view.set]{fullShare} Idx d)
          ∗ bigSep Finset.univ fun s : Fin (grid1.bound 1) => bigSep Finset.univ fun k : Fin k1_t1_loop.trips =>
              BlkDone Tab Idx d (coordsV c s) k) := by
  unfold tdTile
  rw [bigSep_sep', bigSep_sep', bigSep_sep', bigSep_first]
  rfl

omit [FloatOps F] in
/-- The remainder and the sixteen read shares, all at the table's contents, are the shared memory whole. -/
theorem sh_join (d : Dev nD) (cc : Fin τ.nSC) (c : Fin (grid1.bound 0)) :
    iprop((shLoc d cc ↦{Transfers.shareDrop fullShare 16} TabSh Tab d cc)
        ∗ bigSep Finset.univ fun i : Fin (grid1.bound 1) => shShare Tab d cc (jL (coordsV c i)))
      ⊢ (shLoc d cc ↦{fullShare} TabSh Tab d cc : sProp 𝕄) :=
  Transfers.pointsTo_toks_join (ℓ := shLoc d cc) (S := Finset.univ) (f := TabSh Tab d cc) fullShare 16

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## The split -/

theorem vecSplit_core (d : Dev nD) (c : Fin (grid1.bound 0)) :
    iprop(stCore Tab Idx d c ∗ ownBufs (S d (coreOf (F := F) c))) ⊢ |={Set.univ}=> iprop(
      (bigSep Finset.univ fun i : Fin (grid1.bound 1) => goTile Tab Idx d (coordsV c i))
      ∗ ((bigSep Finset.univ fun i : Fin (grid1.bound 1) => tdTile Tab Idx d (coordsV c i))
          -∗ iprop(dnCore Tab Idx d c ∗ ownBufs (S d (coreOf (F := F) c))))) := by
  rw [go_all, td_all, ownBufs_S]
  unfold stCore dnCore
  iintro ⟨⟨Htab, Hidx, Hout⟩, ⟨%fsh, Hsh⟩, Hrest⟩; imodintro
  isplitl [Htab Hidx Hout Hsh]
  · isplitl [Htab Hsh]
    · isplitl [Htab]; · iexact Htab
      iexists fsh; iexact Hsh
    isplitl [Hidx]; · iexact Hidx
    iexact Hout
  iintro ⟨⟨Htab, Hdrop⟩, Htoks, Hidx, Hout⟩
  isplitl [Htab Hidx Hout]
  · isplitl [Htab]; · iexact Htab
    isplitl [Hidx]; · iexact Hidx
    iexact Hout
  isplitl [Hdrop Htoks]
  · iexists (TabSh Tab d (coreOf (F := F) c))
    iapply (sh_join Tab d (coreOf (F := F) c) c)
    isplitl [Hdrop]; · iexact Hdrop
    iexact Htoks
  iexact Hrest

theorem vecSplit : (K (F := F)).VecSplit (P Tab Idx) 0 := fun d c => vecSplit_core Tab Idx d c

end Cert.KernelIdeal.Sc

end
-- ==== Proof.ScElem.lean ====
/-
  The launch element of the ghost state. The element is the handshake cells' rounds, the subcore barrier cells' rounds,
  the TensorCore pipelines' staging cells' rounds, and no transfer counted. From it, the credit for the subcores' own
  debts and the free semaphores at zero, the launch funds the barrier cells' rounds, allocates their invariants at once
  and deals every subcore its barrier kit; it funds the staging cells' rounds and hands each device's TensorCore the
  ghost state its two pipelines start from; the handshake cells' rounds go to the launch theorem.
-/
import proofs.«208327_g62569083568895_cont_9to1c4b_407_46_alg».proof.Proof.ScPay
import proofs.«208327_g62569083568895_cont_9to1c4b_407_46_alg».proof.Proof.Gen.KernelIdeal.Launch

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

variable [FloatOps F]

/-! ## The element -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a SparseCore. -/
def bToks : Finset (GSem nD τ sig × ℕ × ℕ) :=
  Finset.univ.image fun x : DCI × Fin (grid1.bound 1) => (bcell x.1.1 x.1.2.1 (x.2.castLE hsub1), 0, x.1.2.2.val)

def u₀ : UU := (initOf (K (F := F)).hsCells (K (F := F)).hsToks, (initOf bCells bToks,
  (initOf (Pipeline.cells (nD := nD) (τ := τ) cfgs cellOf_inj) (Pipeline.launchToks (nD := nD) (τ := τ) cfgs cellOf_inj), 1)))

/-- What @main's proof starts from on device `d`: its two pipelines' staging cells' ghost state and their transfers'
    duty tokens. -/
def G (d : Dev nD) : sProp 𝕄 :=
  bigSep Finset.univ fun p : Fin 2 => iprop(Pipeline.cellsGhost cfgs EP p d ∗ Pipeline.toksInit cfgs EP p d)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The element is its three rounds libraries' parts. -/
theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ ownU ((1, (b, (p, 1))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (ownU ((1, (b, (p, 1))) : UU) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op (p, (1 : Counters))))))
  iintro Hu
  ihave H := h1 $$ Hu
  icases H with ⟨HH, Hr⟩
  ihave H2 := h2 $$ Hr
  icases H2 with ⟨HB, HP⟩
  isplitl [HH]; · iexact HH
  isplitl [HB]; · iexact HB
  iexact HP

/-! ## The barrier cells -/

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) Tab) g 0)
    ⊢ |={Set.univ}=> iprop(∃ κ : GSem nD τ sig → ℕ, bigSep bCells fun g => cellInv EB (bRd (F := F) Tab) (κ g) g) := by
  refine (Rounds.bodies_intro EB (bRd (F := F) Tab) bCells).trans ((inv_alloc_family bCells (Rounds.body EB (bRd (F := F) Tab)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each subcore the sixteen units of its own cell. -/
theorem creds_b : ((P (F := F) Tab Idx).oxCred : sProp 𝕄)
    ⊢ bigSep Finset.univ fun dci : DCI => if dci.2.1.val < 2 then cred (tallyAt (bcell₃ dci) (some 0) (grid1.bound 1)) else (BI.emp : sProp 𝕄) := by
  unfold SparseCore.Cfg.Pay.oxCred
  rw [SparseCore.Cfg.bigSep_threads (fun thr : Thread nD τ => (cred ((P (F := F) Tab Idx).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid1.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid1.bound 1)) : sProp 𝕄) else BI.emp)]
  refine bigSep_mono fun c _ => ?_
  dsimp only
  by_cases hc : c.val < 2
  · simp only [hc, ↓reduceIte]
    have hox : ∀ i, (P (F := F) Tab Idx).oxFrom 0 (V d c i) = oxV d c := fun i => by
      rw [show (0 : ℕ) = (0 : Fin 1).val from rfl, (P Tab Idx).oxFrom_step, (P Tab Idx).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) Tab Idx).x q (SparseCore.T d)) = iprop(emp) :=
  bigSep_univ_of_subsingleton (0 : Fin 1)
theorem Px_S (d : Dev nD) (c : Fin τ.nSC) : (bigSep Finset.univ fun q : Fin 1 => (P (F := F) Tab Idx).x q (S d c)) = iprop(emp) :=
  bigSep_univ_of_subsingleton (0 : Fin 1)
theorem Px_V (d : Dev nD) (c : Fin τ.nSC) (i : Fin τ.nSub) :
    (bigSep Finset.univ fun q : Fin 1 => (P (F := F) Tab Idx).x q (V d c i)) = if c.val < 2 then bkit Tab d c i else iprop(emp) :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev shared : sProp 𝕄 :=
  iprop((∃ κ : GSem nD τ sig → ℕ, bigSep Finset.univ fun x : DCI => cellInv EB (bRd (F := F) Tab) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ (if dci.2.1.val < 2 then cred (tallyAt (bcell₃ dci) (some 0) (grid1.bound 1)) else BI.emp))

/-- One subcore's kit out of those. -/
theorem kit_intro (dci : DCI) : iprop(shared (F := F) Tab ∗ mine (F := F) dci) ⊢ (if dci.2.1.val < 2 then bkit (F := F) Tab dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid1.bound 1)))) (Φ := fun _ => iprop(emp))
        (R := bigSep Finset.univ fun x : DCI => cellInv EB (bRd (F := F) Tab) (κ (bcell₃ x)) (bcell₃ x)) fun j _ =>
          sep_elim_left.trans (bigSep_elim (Φ := fun x : DCI => (cellInv EB (bRd (F := F) Tab) (κ (bcell₃ x)) (bcell₃ x) : sProp 𝕄))
            (i := (d, c, Fin.castLE hsub1 j)) (Finset.mem_univ _))))
      isplitl; · iexact Hinv
      rw [bigSep_emp']; iempintro
    isplitl [Htok]; · iexact Htok
    isplitr
    · iapply (SparseCore.ent (bigSep_mono_frame (s := (Finset.univ : Finset (Fin (grid1.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub1 j)) (Finset.mem_univ _))))
      isplitl; · iexact Hr
      rw [bigSep_emp']; iempintro
    isplitl [Hat]; · iexact Hat
    iexact Hcred
  · iempintro

/-- Each subcore its kit. -/
theorem kits_deal :
    iprop(shared (F := F) Tab ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => if dci.2.1.val < 2 then cred (tallyAt (bcell₃ dci) (some 0) (grid1.bound 1)) else BI.emp))
      ⊢ (bigSep Finset.univ fun thr : Thread nD τ => bigSep Finset.univ fun q : Fin 1 => (P (F := F) Tab Idx).x q thr : sProp 𝕄) := by
  rw [SparseCore.Cfg.bigSep_threads (fun thr : Thread nD τ => bigSep Finset.univ fun q : Fin 1 => (P Tab Idx).x q thr)]
  simp only [Px_T, Px_S, Px_V, bigSep_emp']
  iintro ⟨#Hsh, Hat, Htok, Hcred⟩
  isplitr; · iempintro
  isplitr; · iempintro
  iapply (bigSep_mono_frame (R := shared (F := F) Tab) (Φ := mine (F := F)) fun dci _ => kit_intro (F := F) Tab dci)
  isplitr; · iexact Hsh
  unfold mine
  rw [bigSep_sep', bigSep_sep']
  isplitl [Hat]; · iexact Hat
  isplitl [Htok]; · iexact Htok
  iexact Hcred

/-! ## The TensorCore pipelines' staging cells -/

omit [FloatOps F] in
/-- Every device's start, regrouped: the staging cells' ghost state of every device and pipeline, and the tokens. -/
theorem G_all : (bigSep Finset.univ fun d : Dev nD => G (F := F) d)
    = iprop((bigSep Finset.univ fun c : Dev nD => bigSep Finset.univ fun p : Fin 2 => Pipeline.cellsGhost cfgs (EP (F := F)) p c)
        ∗ (bigSep Finset.univ fun c : Dev nD => bigSep Finset.univ fun p : Fin 2 => (Pipeline.toksInit cfgs (EP (F := F)) p c : sProp 𝕄))) := by
  unfold G
  simp only [bigSep_sep']

/-! ## The launch element -/

theorem hu₀ : iprop(ownU (u₀ (F := F)) ∗ (P (F := F) Tab Idx).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (P Tab Idx).x q thr) : sProp 𝕄) := by
  unfold u₀
  rw [G_all]
  iintro ⟨Hu, Hcred, Hfree⟩
  ihave H := (ownU_split _ _ _) $$ Hu
  icases H with ⟨HH, HB, HP⟩
  imod (Rounds.fund EB (bRd (F := F) Tab) bCells bToks) $$ HB with ⟨Hst, #Hr, Hat, Htok⟩
  imod (Pipeline.fund_ghost (nD := nD) (τ := τ) cfgs (EP (F := F)) cellOf_inj) $$ HP with ⟨Hg, Ht⟩
  ihave Hsems := (sems_b (F := F)) $$ Hfree
  imod (invs_b (F := F) Tab) $$ [Hsems Hst] with ⟨%κ, #Hinv⟩
  · isplitl [Hsems] <;> iassumption
  ihave Hcred' := (creds_b Tab Idx) $$ Hcred
  ihave Hinv' := (Entails.of_eq (bCells_eq (F := F) fun g => cellInv EB (bRd (F := F) Tab) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hg Ht]
  · isplitl [Hg]; · iexact Hg
    iexact Ht
  iapply (kits_deal Tab Idx)
  isplitr
  · isplitl; · iexists κ; iexact Hinv'
    iexact Hr'
  isplitl [Hat']; · iexact Hat'
  isplitl [Htok']; · iexact Htok'
  iexact Hcred'

end Cert.KernelIdeal.Sc

end
-- ==== Proof.ScRun.lean ====
/-
  The program's run from the launch theorem: the vector-subcore kernel's obligation, the split of a SparseCore's
  operands among its subcores, the launch element of the ghost state, and — as hypotheses — @main on the TensorCore
  and how its final assertion reads the claim off the final memory.
-/
import proofs.«208327_g62569083568895_cont_9to1c4b_407_46_alg».proof.Proof.ScObl
import proofs.«208327_g62569083568895_cont_9to1c4b_407_46_alg».proof.Proof.ScSplit
import proofs.«208327_g62569083568895_cont_9to1c4b_407_46_alg».proof.Proof.ScElem

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

local notation "iV" => (Memref.whole Cert.KernelIdeal.main_v2_scv : Memref Cert.KernelIdeal.sig Kind.scVector Space.hbm Cert.KernelIdeal.S1024x128 EltTy.i32)

variable [FloatOps F]

variable (m : (ℓ : Loc nD τ sig) → Buf (Elt F) ℓ) (ρ : Dev nD → PrngReg)
variable (FIN : Dev nD → sProp (MT nD τ sig (HIx 1) (Elt F) ℕ UU ℕ)) (fq : Dev nD → Phys nD τ sig (Elt F) → Prop) (Q : PUnit × MemSt nD τ sig (Elt F) → Prop)

theorem run_main [∀ e, Nonempty (Elt F e)]
    (hIdx : ∀ d x, ((iV).view.read (Elt F) (Idx d) x).toNat < 8192)
    (hmain : ∀ (κ : GSem nD τ sig → ℕ) (d : Dev nD),
      iprop((K (F := F)).ctx EH (P Tab Idx) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN d))
    (hfin : ∀ d s', iprop(FIN d ∗ SI s') ⊢ (⌜fq d s'⌝ : sProp 𝕄))
    (hQ : ∀ s' : Phys nD τ sig (Elt F), (∀ d, fq d s') → Q (⟨⟩, s'.mem)) :
    θ_run (Cert.KernelIdeal.defs (F := F)) (Cert.KernelIdeal.threads (F := F)) ⟨m, fun _ => 0, ρ⟩ Q :=
  SparseCore.Cfg.θ_run_sc (K := K (F := F)) (D := D (F := F)) (𝒱 := 𝒱) (EH := EH) (P := P Tab Idx) facts v₀
    (fun q hq => match q with | 0 => nomatch hq)
    (fun q _ => match q with | 0 => tileObl Tab Idx facts hIdx)
    (fun q _ => match q with | 0 => vecSplit Tab Idx)
    m ρ main (fun d => G (F := F) d) FIN (u₀ (F := F)) (hu₀ Tab Idx) hmain fq hfin Q hQ

end Cert.KernelIdeal.Sc

end
-- ==== Proof.BodyIdeal.Common.lean ====
/-
  The TensorCore regions' kernel half, the part shared by both regions: the region invariant of a body that keeps
  nothing between points, at any index type, name type, user algebra and level type.
-/
import proofs.«208327_g62569083568895_cont_9to1c4b_407_46_alg».proof.Proof.Gen.KernelIdeal.Launch
import proofs.«208327_g62569083568895_cont_9to1c4b_407_46_alg».proof.Proof.Gen.KernelIdeal.Skeleton
import proofs.«208327_g62569083568895_cont_9to1c4b_407_46_alg».proof.Proof.Gen.KernelIdeal.Points
import Idealize.ShloMosaic.Lib.Pipeline.FrameBody
import Idealize.ShloMosaic.Lib.Ring
import Idealize.ShloMosaic.Lib.Tactic

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
variable {Ix : Type} [DecidableEq Ix] {Name : Type} [DecidableEq Name] {U : Type} [URA U] {Lvl : Type}

/-- The invariant of a region whose body keeps nothing from point to point, on core `c`: the core's scoped buffers
    that are no staging buffer of the region, each whole at some contents, and its generator register at some
    state. The body neither reads nor describes either. -/
def ΦG {gr : Nat} {W : Nat} (win : Fin W → Pipeline.WinSpec sig gr) (c : Dev nD) : sProp (MT nD τ sig Ix (Elt F) Name U Lvl) :=
  iprop(Pipeline.scopedRest (Ix := Ix) (Name := Name) (U := U) (Lvl := Lvl) (Val := Elt F) win c ∗ ∃ r, prngReg c r)

end Cert.KernelIdeal.Body

end
-- ==== Proof.BodyIdeal.R0Out.lean ====
/-
  Region 0 (the tables kernel, no grid: one point): the windows' blocks read off the region-entry contents, the
  rectangles the body loads and stores through, and what the body leaves in each of its three output windows'
  staging buffers as the canonical contents of its stores over the input blocks.
-/
import proofs.«208327_g62569083568895_cont_9to1c4b_407_46_alg».proof.Proof.BodyIdeal.Common

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

/-! ## The windows' blocks -/

section Blocks
-- the TensorCore's buffer contents when the region is entered
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Blocks

/-! ## The body's accesses -/

-- the weight window (512 rows): the row blocks at 0, 128 and 384
abbrev rW_0 : Rect S512x128 := Rect.unit (s := S512x128) ![0, 0] S128x128.size inb_S512x128_S128x128_0_0
abbrev rW_128 : Rect S512x128 := Rect.unit (s := S512x128) ![128, 0] S128x128.size inb_S512x128_S128x128_128_0
abbrev rW_384 : Rect S512x128 := Rect.unit (s := S512x128) ![384, 0] S128x128.size inb_S512x128_S128x128_384_0
-- a [2, 2048, 128] window: its two leading slabs
abbrev rN_0 : Rect S2x2048x128 := Rect.unit (s := S2x2048x128) ![0, 0, 0] S1x2048x128.size inb_S2x2048x128_S1x2048x128_0_0_0
abbrev rN_1 : Rect S2x2048x128 := Rect.unit (s := S2x2048x128) ![1, 0, 0] S1x2048x128.size inb_S2x2048x128_S1x2048x128_1_0_0
-- a [2, 2048, 32] window: its two leading slabs
abbrev rK_0 : Rect S2x2048x32 := Rect.unit (s := S2x2048x32) ![0, 0, 0] S1x2048x32.size inb_S2x2048x32_S1x2048x32_0_0_0
abbrev rK_1 : Rect S2x2048x32 := Rect.unit (s := S2x2048x32) ![1, 0, 0] S1x2048x32.size inb_S2x2048x32_S1x2048x32_1_0_0
-- the table window (8192 rows): its four row blocks of 2048
abbrev rT_0 : Rect S8192x128 := Rect.unit (s := S8192x128) ![0, 0] S2048x128.size inb_S8192x128_S2048x128_0_0
abbrev rT_2048 : Rect S8192x128 := Rect.unit (s := S8192x128) ![2048, 0] S2048x128.size inb_S8192x128_S2048x128_2048_0
abbrev rT_4096 : Rect S8192x128 := Rect.unit (s := S8192x128) ![4096, 0] S2048x128.size inb_S8192x128_S2048x128_4096_0
abbrev rT_6144 : Rect S8192x128 := Rect.unit (s := S8192x128) ![6144, 0] S2048x128.size inb_S8192x128_S2048x128_6144_0
-- the [4096, 128] window: its two row blocks of 2048
abbrev rA_0 : Rect S4096x128 := Rect.unit (s := S4096x128) ![0, 0] S2048x128.size inb_S4096x128_S2048x128_0_0
abbrev rA_2048 : Rect S4096x128 := Rect.unit (s := S4096x128) ![2048, 0] S2048x128.size inb_S4096x128_S2048x128_2048_0

/-! ## What the body leaves in each output window's buffer -/

/-- Window 6's staging buffer (the table, 8192 rows) after the body, from the blocks of windows 0, 1, 2 and 5: its
    four stores as pieces, LAST FIRST. -/
def out0_6 (x0 : Vec F S2x2048x128 .f32) (x1 : Vec F S2x2048x128 .f32) (x2 : Vec F S2x2048x128 .f32) (x5 : Vec F S512x128 .f32) :
    Vec F S8192x128 .f32 :=
  View.canon [⟨rT_6144, k0_pay12 (View.ld x5 rW_128) (View.ld x5 rW_384) (View.ld x0 rN_1) (View.ld x2 rN_1)⟩,
    ⟨rT_2048, k0_pay11 (View.ld x5 rW_128) (View.ld x1 rN_1)⟩,
    ⟨rT_4096, k0_pay4 (View.ld x5 rW_128) (View.ld x5 rW_384) (View.ld x0 rN_0) (View.ld x2 rN_0)⟩,
    ⟨rT_0, k0_pay3 (View.ld x5 rW_128) (View.ld x1 rN_0)⟩]

/-- Its stores tile the buffer (checked by evaluation), so they cover it. -/
theorem cover0_6 (p0 p1 p2 p3 : Vec F S2048x128 .f32) (y : S8192x128.Idx) :
    ∃ pc ∈ ([⟨rT_6144, p0⟩, ⟨rT_2048, p1⟩, ⟨rT_4096, p2⟩, ⟨rT_0, p3⟩] : List (View.Piece (Elt F) S8192x128 .f32)), y ∈ pc.1.set :=
  View.cover_of_tiled [⟨rT_6144, p0⟩, ⟨rT_2048, p1⟩, ⟨rT_4096, p2⟩, ⟨rT_0, p3⟩] S2048x128.size (by rfl) y

/-- Window 7's staging buffer (4096 rows) after the body, from the blocks of windows 0 and 5: its two stores as
    pieces, LAST FIRST. -/
def out0_7 (x0 : Vec F S2x2048x128 .f32) (x5 : Vec F S512x128 .f32) : Vec F S4096x128 .f32 :=
  View.canon [⟨rA_2048, k0_pay13 (View.ld x5 rW_0) (View.ld x0 rN_1)⟩,
    ⟨rA_0, k0_pay5 (View.ld x5 rW_0) (View.ld x0 rN_0)⟩]

/-- Its stores tile the buffer (checked by evaluation), so they cover it. -/
theorem cover0_7 (p0 p1 : Vec F S2048x128 .f32) (y : S4096x128.Idx) :
    ∃ pc ∈ ([⟨rA_2048, p0⟩, ⟨rA_0, p1⟩] : List (View.Piece (Elt F) S4096x128 .f32)), y ∈ pc.1.set :=
  View.cover_of_tiled [⟨rA_2048, p0⟩, ⟨rA_0, p1⟩] S2048x128.size (by rfl) y

/-- Window 8's staging buffer (the gather indices, [2, 2048, 32] words) after the body, from the blocks of windows 3
    and 4: its two stores as pieces, LAST FIRST. -/
def out0_8 (x3 : Vec F S2x2048x32 .i32) (x4 : Vec F S2x2048x32 .i32) : Vec F S2x2048x32 .i32 :=
  View.canon [⟨rK_1, k0_pay1 (k0_pay14 (View.ld x3 rK_1)) (k0_pay15 (View.ld x4 rK_1)) k0_pay16⟩,
    ⟨rK_0, k0_pay9 (k0_pay6 (View.ld x3 rK_0)) (k0_pay7 (View.ld x4 rK_0)) k0_pay8⟩]

/-- Its stores tile the buffer (checked by evaluation), so they cover it. -/
theorem cover0_8 (p0 p1 : Vec F S1x2048x32 .i32) (y : S2x2048x32.Idx) :
    ∃ pc ∈ ([⟨rK_1, p0⟩, ⟨rK_0, p1⟩] : List (View.Piece (Elt F) S2x2048x32 .i32)), y ∈ pc.1.set :=
  View.cover_of_tiled [⟨rK_1, p0⟩, ⟨rK_0, p1⟩] S1x2048x32.size (by rfl) y

end Cert.KernelIdeal.Body

end
-- ==== Proof.BodyIdeal.R0Run.lean ====
/-
  Region 0: the body's triple. The kernel body on whole staging memrefs, the six inputs' at read contents and the
  three outputs' at anything, runs to the continuation holding the inputs' as they were and each output's at the
  canonical contents of its stores.
-/
import proofs.«208327_g62569083568895_cont_9to1c4b_407_46_alg».proof.Proof.BodyIdeal.R0Out

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

variable [Preorder Lvl]

local notation "𝕄" => MT nD τ sig Ix (Elt F) Name U Lvl

set_option maxHeartbeats 4000000 in
/-- The body's triple: the printed function and its two parts are their skeletons, run operation by operation; each
    output's buffer ends at its listed stores over what it held, which reads as their canonical contents because the
    stores cover the buffer. -/
theorem sound_kernel0 (c : Dev nD) (E : Set Name) (arg0 : Memref sig .tc .vmem S2x2048x128 .f32) (harg0 : arg0.IsWhole) (arg1 : Memref sig .tc .vmem S2x2048x128 .f32) (harg1 : arg1.IsWhole) (arg2 : Memref sig .tc .vmem S2x2048x128 .f32) (harg2 : arg2.IsWhole) (arg3 : Memref sig .tc .vmem S2x2048x32 .i32) (harg3 : arg3.IsWhole) (arg4 : Memref sig .tc .vmem S2x2048x32 .i32) (harg4 : arg4.IsWhole) (arg5 : Memref sig .tc .vmem S512x128 .f32) (harg5 : arg5.IsWhole) (arg6 : Memref sig .tc .vmem S8192x128 .f32) (harg6 : arg6.IsWhole) (arg7 : Memref sig .tc .vmem S4096x128 .f32) (harg7 : arg7.IsWhole) (arg8 : Memref sig .tc .vmem S2x2048x32 .i32) (harg8 : arg8.IsWhole)
    (x0 : Vec F S2x2048x128 .f32) (x1 : Vec F S2x2048x128 .f32) (x2 : Vec F S2x2048x128 .f32) (x3 : Vec F S2x2048x32 .i32) (x4 : Vec F S2x2048x32 .i32) (x5 : Vec F S512x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x5) ∗ owns (c : Thread nD τ) arg7 fullShare (out0_7 x0 x5) ∗ owns (c : Thread nD τ) arg8 fullShare (out0_8 x3 x4)) -∗ K ⟨⟩))
      ⊢ wp frame (wpE (defs₀ (F := F)) Variants.none c none) E (cc0__tables_body arg0 harg0 arg1 harg1 arg2 harg2 arg3 harg3 arg4 harg4 arg5 harg5 arg6 harg6 arg7 harg7 arg8 harg8) K := by
  simp only [cc0__tables_body_eq_skeleton]; unfold cc0__tables_body_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _ _ _ _)
  isplitl [H7]
  · iexists _; isplitr
    swap; · iexact H7
    ipureintro
    exact View.read_writes_eq_canon _ _ _ (cover0_7 _ _)
  iexists _; isplitr
  swap; · iexact H8
  ipureintro
  exact View.read_writes_eq_canon _ _ _ (cover0_8 _ _)

end Cert.KernelIdeal.Body

end
-- ==== Proof.BodyIdeal.R0.lean ====
/-
  Region 0: the pipeline's proof data at the region-entry contents, what each window's staging buffer holds before
  and after the body, and the body obligation at every point, for any index the core's debts are recorded at.
-/
import proofs.«208327_g62569083568895_cont_9to1c4b_407_46_alg».proof.Proof.BodyIdeal.R0Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

variable [Preorder Lvl]

local notation "𝕄" => MT nD τ sig Ix (Elt F) Name U Lvl

-- the TensorCore's buffer contents when the region is entered
variable (V : (c : Dev nD) → (b : Ref sig .tc) → Buf (Elt F) ((c : Thread nD τ).loc b))

/-! ## Each input window's buffer holds its block, fetched there or not -/

/-- Input window 0's current staging buffer holds its block at every point, for ANY proof data whose array is the
    region-entry contents' (`hA`) and whose body leaves the block in place (`hafter`): the window is uncut and never idle. -/
theorem before0_0_of {c : Dev nD} (dat : Dat τ (Elt F) Ix Name U Lvl cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for ANY proof data whose array is the
    region-entry contents' (`hA`) and whose body leaves the block in place (`hafter`): the window is uncut and never idle. -/
theorem before0_1_of {c : Dev nD} (dat : Dat τ (Elt F) Ix Name U Lvl cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for ANY proof data whose array is the
    region-entry contents' (`hA`) and whose body leaves the block in place (`hafter`): the window is uncut and never idle. -/
theorem before0_2_of {c : Dev nD} (dat : Dat τ (Elt F) Ix Name U Lvl cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, for ANY proof data whose array is the
    region-entry contents' (`hA`) and whose body leaves the block in place (`hafter`): the window is uncut and never idle. -/
theorem before0_3_of {c : Dev nD} (dat : Dat τ (Elt F) Ix Name U Lvl cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, for ANY proof data whose array is the
    region-entry contents' (`hA`) and whose body leaves the block in place (`hafter`): the window is uncut and never idle. -/
theorem before0_4_of {c : Dev nD} (dat : Dat τ (Elt F) Ix Name U Lvl cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, for ANY proof data whose array is the
    region-entry contents' (`hA`) and whose body leaves the block in place (`hafter`): the window is uncut and never idle. -/
theorem before0_5_of {c : Dev nD} (dat : Dat τ (Elt F) Ix Name U Lvl cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

-- what the core owes across the region (units it will pay after it)
variable (O : CellTallies nD τ sig Ix)
-- a bound on the pairs the core's waits have recorded when the region is entered
variable (B : Set (SemLoc sig × Ix))

/-- The proof data of pipeline 0 on core `c`: the arrays as the region finds them (`V`); after the body at point `t`
    each input's buffer at its block and each output's at the canonical contents of its stores over the input blocks;
    the invariant the scoped rest and the generator register, untouched; the core owing the tallies `O` at every point (the body neither pays nor takes on any), its recorded pairs within `B`; full shares. -/
def dat0 (c : Dev nD) : Dat τ (Elt F) Ix Name U Lvl cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 5 t)
    | ⟨7, _⟩ => out0_7 (iblk0 V c 0 t) (iblk0 V c 5 t)
    | ⟨8, _⟩ => out0_8 (iblk0 V c 3 t) (iblk0 V c 4 t)
  Φ _ := ΦG spec0 c
  q _ := fullShare
  owed _ := O
  recorded _ := B

/-- The proof data's arrays are the region-entry contents. -/
theorem A_eq0 (c : Dev nD) (w : Fin cfg0.W) : (dat0 (Ix := Ix) (Name := Name) (U := U) (Lvl := Lvl) V O B c).A w = V c (Pipeline.arrRef spec0 w) := by
  dsimp only [dat0]

/-- The proof data owes the tallies `O` at every point. -/
theorem owed_eq0 (c : Dev nD) (t : Fin (cfg0.N + 1)) : (dat0 (Ix := Ix) (Name := Name) (U := U) (Lvl := Lvl) V O B c).owed t = O := by
  dsimp only [dat0]

/-- Its bound on the recorded pairs at every point. -/
theorem recorded_eq0 (c : Dev nD) (t : Fin (cfg0.N + 1)) : (dat0 (Ix := Ix) (Name := Name) (U := U) (Lvl := Lvl) V O B c).recorded t = B := by
  dsimp only [dat0]

/-- Its invariant at every point. -/
theorem Φ_eq0 (c : Dev nD) (t : Fin (cfg0.N + 1)) : (dat0 (Ix := Ix) (Name := Name) (U := U) (Lvl := Lvl) V O B c).Φ t = ΦG spec0 c := by
  dsimp only [dat0]

/-- What the body leaves, window by window. -/
theorem after0_0 (c : Dev nD) (t : Fin cfg0.N) : (dat0 (Ix := Ix) (Name := Name) (U := U) (Lvl := Lvl) V O B c).after 0 t = iblk0 V c 0 t := by dsimp only [dat0]
theorem after0_1 (c : Dev nD) (t : Fin cfg0.N) : (dat0 (Ix := Ix) (Name := Name) (U := U) (Lvl := Lvl) V O B c).after 1 t = iblk0 V c 1 t := by dsimp only [dat0]
theorem after0_2 (c : Dev nD) (t : Fin cfg0.N) : (dat0 (Ix := Ix) (Name := Name) (U := U) (Lvl := Lvl) V O B c).after 2 t = iblk0 V c 2 t := by dsimp only [dat0]
theorem after0_3 (c : Dev nD) (t : Fin cfg0.N) : (dat0 (Ix := Ix) (Name := Name) (U := U) (Lvl := Lvl) V O B c).after 3 t = iblk0 V c 3 t := by dsimp only [dat0]
theorem after0_4 (c : Dev nD) (t : Fin cfg0.N) : (dat0 (Ix := Ix) (Name := Name) (U := U) (Lvl := Lvl) V O B c).after 4 t = iblk0 V c 4 t := by dsimp only [dat0]
theorem after0_5 (c : Dev nD) (t : Fin cfg0.N) : (dat0 (Ix := Ix) (Name := Name) (U := U) (Lvl := Lvl) V O B c).after 5 t = iblk0 V c 5 t := by dsimp only [dat0]
theorem after0_6 (c : Dev nD) (t : Fin cfg0.N) : (dat0 (Ix := Ix) (Name := Name) (U := U) (Lvl := Lvl) V O B c).after 6 t = out0_6 (iblk0 V c 0 t) (iblk0 V c 1 t) (iblk0 V c 2 t) (iblk0 V c 5 t) := by dsimp only [dat0]
theorem after0_7 (c : Dev nD) (t : Fin cfg0.N) : (dat0 (Ix := Ix) (Name := Name) (U := U) (Lvl := Lvl) V O B c).after 7 t = out0_7 (iblk0 V c 0 t) (iblk0 V c 5 t) := by dsimp only [dat0]
theorem after0_8 (c : Dev nD) (t : Fin cfg0.N) : (dat0 (Ix := Ix) (Name := Name) (U := U) (Lvl := Lvl) V O B c).after 8 t = out0_8 (iblk0 V c 3 t) (iblk0 V c 4 t) := by dsimp only [dat0]

/-- Each input's current staging buffer holds its block at every point, fetched there or not. -/
theorem before0_0 (c : Dev nD) (t : Fin cfg0.N) (d) : (dat0 (Ix := Ix) (Name := Name) (U := U) (Lvl := Lvl) V O B c).before 0 t d = iblk0 V c 0 t :=
  before0_0_of V (dat0 V O B c) (A_eq0 V O B c 0) (after0_0 V O B c) t d
theorem before0_1 (c : Dev nD) (t : Fin cfg0.N) (d) : (dat0 (Ix := Ix) (Name := Name) (U := U) (Lvl := Lvl) V O B c).before 1 t d = iblk0 V c 1 t :=
  before0_1_of V (dat0 V O B c) (A_eq0 V O B c 1) (after0_1 V O B c) t d
theorem before0_2 (c : Dev nD) (t : Fin cfg0.N) (d) : (dat0 (Ix := Ix) (Name := Name) (U := U) (Lvl := Lvl) V O B c).before 2 t d = iblk0 V c 2 t :=
  before0_2_of V (dat0 V O B c) (A_eq0 V O B c 2) (after0_2 V O B c) t d
theorem before0_3 (c : Dev nD) (t : Fin cfg0.N) (d) : (dat0 (Ix := Ix) (Name := Name) (U := U) (Lvl := Lvl) V O B c).before 3 t d = iblk0 V c 3 t :=
  before0_3_of V (dat0 V O B c) (A_eq0 V O B c 3) (after0_3 V O B c) t d
theorem before0_4 (c : Dev nD) (t : Fin cfg0.N) (d) : (dat0 (Ix := Ix) (Name := Name) (U := U) (Lvl := Lvl) V O B c).before 4 t d = iblk0 V c 4 t :=
  before0_4_of V (dat0 V O B c) (A_eq0 V O B c 4) (after0_4 V O B c) t d
theorem before0_5 (c : Dev nD) (t : Fin cfg0.N) (d) : (dat0 (Ix := Ix) (Name := Name) (U := U) (Lvl := Lvl) V O B c).before 5 t d = iblk0 V c 5 t :=
  before0_5_of V (dat0 V O B c) (A_eq0 V O B c 5) (after0_5 V O B c) t d

/-! ## The body obligation, at a generic point -/

/-- What the body is called with at point `t` (the obligation's precondition, the windows one by one), -/
def bodyPre0 (ι : Ix) (c : Dev nD) (t : Fin cfg0.N) : sProp 𝕄 :=
  iprop((dat0 (Ix := Ix) (Name := Name) (U := U) (Lvl := Lvl) V O B c).Φ t.castSucc ∗ (dat0 (Ix := Ix) (Name := Name) (U := U) (Lvl := Lvl) V O B c).owesAt ι t.castSucc
    ∗ (∃ d, owns (c : Thread nD τ) (st0_0 t) fullShare ((dat0 (Ix := Ix) (Name := Name) (U := U) (Lvl := Lvl) V O B c).before 0 t d))
    ∗ (∃ d, owns (c : Thread nD τ) (st0_1 t) fullShare ((dat0 (Ix := Ix) (Name := Name) (U := U) (Lvl := Lvl) V O B c).before 1 t d))
    ∗ (∃ d, owns (c : Thread nD τ) (st0_2 t) fullShare ((dat0 (Ix := Ix) (Name := Name) (U := U) (Lvl := Lvl) V O B c).before 2 t d))
    ∗ (∃ d, owns (c : Thread nD τ) (st0_3 t) fullShare ((dat0 (Ix := Ix) (Name := Name) (U := U) (Lvl := Lvl) V O B c).before 3 t d))
    ∗ (∃ d, owns (c : Thread nD τ) (st0_4 t) fullShare ((dat0 (Ix := Ix) (Name := Name) (U := U) (Lvl := Lvl) V O B c).before 4 t d))
    ∗ (∃ d, owns (c : Thread nD τ) (st0_5 t) fullShare ((dat0 (Ix := Ix) (Name := Name) (U := U) (Lvl := Lvl) V O B c).before 5 t d))
    ∗ (∃ d, owns (c : Thread nD τ) (st0_6 t) fullShare ((dat0 (Ix := Ix) (Name := Name) (U := U) (Lvl := Lvl) V O B c).before 6 t d))
    ∗ (∃ d, owns (c : Thread nD τ) (st0_7 t) fullShare ((dat0 (Ix := Ix) (Name := Name) (U := U) (Lvl := Lvl) V O B c).before 7 t d))
    ∗ (∃ d, owns (c : Thread nD τ) (st0_8 t) fullShare ((dat0 (Ix := Ix) (Name := Name) (U := U) (Lvl := Lvl) V O B c).before 8 t d)))

/-- and what it returns. -/
def bodyPost0 (ι : Ix) (c : Dev nD) (t : Fin cfg0.N) : sProp 𝕄 :=
  iprop((dat0 (Ix := Ix) (Name := Name) (U := U) (Lvl := Lvl) V O B c).Φ t.succ ∗ (dat0 (Ix := Ix) (Name := Name) (U := U) (Lvl := Lvl) V O B c).owesAt ι t.succ
    ∗ owns (c : Thread nD τ) (st0_0 t) fullShare ((dat0 (Ix := Ix) (Name := Name) (U := U) (Lvl := Lvl) V O B c).after 0 t)
    ∗ owns (c : Thread nD τ) (st0_1 t) fullShare ((dat0 (Ix := Ix) (Name := Name) (U := U) (Lvl := Lvl) V O B c).after 1 t)
    ∗ owns (c : Thread nD τ) (st0_2 t) fullShare ((dat0 (Ix := Ix) (Name := Name) (U := U) (Lvl := Lvl) V O B c).after 2 t)
    ∗ owns (c : Thread nD τ) (st0_3 t) fullShare ((dat0 (Ix := Ix) (Name := Name) (U := U) (Lvl := Lvl) V O B c).after 3 t)
    ∗ owns (c : Thread nD τ) (st0_4 t) fullShare ((dat0 (Ix := Ix) (Name := Name) (U := U) (Lvl := Lvl) V O B c).after 4 t)
    ∗ owns (c : Thread nD τ) (st0_5 t) fullShare ((dat0 (Ix := Ix) (Name := Name) (U := U) (Lvl := Lvl) V O B c).after 5 t)
    ∗ owns (c : Thread nD τ) (st0_6 t) fullShare ((dat0 (Ix := Ix) (Name := Name) (U := U) (Lvl := Lvl) V O B c).after 6 t)
    ∗ owns (c : Thread nD τ) (st0_7 t) fullShare ((dat0 (Ix := Ix) (Name := Name) (U := U) (Lvl := Lvl) V O B c).after 7 t)
    ∗ owns (c : Thread nD τ) (st0_8 t) fullShare ((dat0 (Ix := Ix) (Name := Name) (U := U) (Lvl := Lvl) V O B c).after 8 t))

set_option maxHeartbeats 1000000 in
/-- The body at any point: the inputs' memrefs hold their blocks, so the body's triple applies; the invariant and the
    core's debts pass through unread. -/
theorem sound_body0 (ι : Ix) (c : Dev nD) (t : Fin cfg0.N) :
    bodyPre0 (Name := Name) (U := U) (Lvl := Lvl) V O B ι c t ⊢ wp frame (wpE (defs₀ (F := F)) Variants.none c none) Set.univ (bodyAt0 t) (fun _ => bodyPost0 (Name := Name) (U := U) (Lvl := Lvl) V O B ι c t) := by
  unfold bodyPre0 bodyPost0 bodyAt0
  simp only [before0_0, before0_1, before0_2, before0_3, before0_4, before0_5]
  rw [show (dat0 (Ix := Ix) (Name := Name) (U := U) (Lvl := Lvl) V O B c).Φ t.succ = (dat0 (Ix := Ix) (Name := Name) (U := U) (Lvl := Lvl) V O B c).Φ t.castSucc from rfl,
    show (dat0 (Ix := Ix) (Name := Name) (U := U) (Lvl := Lvl) V O B c).owesAt ι t.succ = (dat0 (Ix := Ix) (Name := Name) (U := U) (Lvl := Lvl) V O B c).owesAt ι t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation0 (ι : Ix) (c : Dev nD) :
    BodyObligation (dat0 (F := F) (Ix := Ix) (Name := Name) (U := U) (Lvl := Lvl) V O B c) (defs₀ (F := F)) Variants.none ι Set.univ := fun t => by
  rw [bigSep_W0, bigSep_W0]
  exact sound_body0 V O B ι c t

/-- The same in the form a region segment takes: no window of the region is cut, so the two forms agree. -/
theorem body_obligation0_loose (ι : Ix) (c : Dev nD) :
    BodyObligationLoose (dat0 (F := F) (Ix := Ix) (Name := Name) (U := U) (Lvl := Lvl) V O B c) (defs₀ (F := F)) Variants.none ι Set.univ :=
  (body_obligation0 V O B ι c).loose

end Cert.KernelIdeal.Body

end
-- ==== Proof.BodyIdeal.R2Out.lean ====
/-
  Region 2 (the main kernel, a grid of 16 points): the windows' blocks read off the region-entry contents, the
  rectangles the body loads and stores through (each the whole of its window's buffer), and what the body leaves in
  its output window's staging buffer as the canonical contents of its one store over the input blocks.
-/
import proofs.«208327_g62569083568895_cont_9to1c4b_407_46_alg».proof.Proof.BodyIdeal.Common

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

/-! ## The windows' blocks -/

section Blocks
-- the TensorCore's buffer contents when the region is entered
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Blocks

/-! ## The body's accesses: every load and the store take the whole of a staging buffer -/

abbrev rF_8192x128 : Rect S8192x128 := Rect.unit (s := S8192x128) ![0, 0] S8192x128.size inb_S8192x128_S8192x128_0_0
abbrev rF_256x128 : Rect S256x128 := Rect.unit (s := S256x128) ![0, 0] S256x128.size inb_S256x128_S256x128_0_0
abbrev rF_256x32 : Rect S256x32 := Rect.unit (s := S256x32) ![0, 0] S256x32.size inb_S256x32_S256x32_0_0
abbrev rF_128x128 : Rect S128x128 := Rect.unit (s := S128x128) ![0, 0] S128x128.size inb_S128x128_S128x128_0_0
abbrev rF_1x128 : Rect S1x128 := Rect.unit (s := S1x128) ![0, 0] S1x128.size inb_S1x128_S1x128_0_0
abbrev rF_128x512 : Rect S128x512 := Rect.unit (s := S128x512) ![0, 0] S128x512.size inb_S128x512_S128x512_0_0
abbrev rF_1x512 : Rect S1x512 := Rect.unit (s := S1x512) ![0, 0] S1x512.size inb_S1x512_S1x512_0_0
abbrev rF_512x128 : Rect S512x128 := Rect.unit (s := S512x128) ![0, 0] S512x128.size inb_S512x128_S512x128_0_0

/-! ## What the body leaves in the output window's buffer -/

/-- Window 19's staging buffer after the body, from the blocks of the nineteen input windows: its one store as a
    piece, the payload written out over the loads (each load the whole of its window's block). -/
def out2_19 (x0 : Vec F S8192x128 .f32) (x1 : Vec F S8192x128 .f32) (x2 : Vec F S256x128 .f32) (x3 : Vec F S256x128 .f32) (x4 : Vec F S256x32 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x512 .f32) (x12 : Vec F S1x512 .f32) (x13 : Vec F S512x128 .f32) (x14 : Vec F S1x128 .f32) (x15 : Vec F S1x128 .f32) (x16 : Vec F S1x128 .f32) (x17 : Vec F S1x128 .f32) (x18 : Vec F S1x128 .f32) : Vec F S256x128 .f32 :=
  View.canon [⟨rF_256x128, k2_pay1 (k2_pay9 (k2_pay5 (View.ld x15 rF_1x128)) (k2_pay6 (View.ld x16 rF_1x128)) (k2_pay7 (k2_pay2 (View.ld x0 rF_8192x128) (View.ld x5 rF_128x128) (View.ld x1 rF_8192x128) (View.ld x2 rF_256x128) (View.ld x6 rF_1x128) (View.ld x7 rF_128x128) (View.ld x8 rF_1x128)) (k2_pay3 (View.ld x0 rF_8192x128) (View.ld x5 rF_128x128) (View.ld x1 rF_8192x128) (View.ld x2 rF_256x128) (View.ld x6 rF_1x128) (View.ld x7 rF_128x128) (View.ld x8 rF_1x128)) (k2_pay4 (F := F)) (View.ld x9 rF_128x128) (View.ld x10 rF_1x128) (View.ld x4 rF_256x32) (View.ld x3 rF_256x128)) (k2_pay8 (k2_pay2 (View.ld x0 rF_8192x128) (View.ld x5 rF_128x128) (View.ld x1 rF_8192x128) (View.ld x2 rF_256x128) (View.ld x6 rF_1x128) (View.ld x7 rF_128x128) (View.ld x8 rF_1x128)) (k2_pay3 (View.ld x0 rF_8192x128) (View.ld x5 rF_128x128) (View.ld x1 rF_8192x128) (View.ld x2 rF_256x128) (View.ld x6 rF_1x128) (View.ld x7 rF_128x128) (View.ld x8 rF_1x128)) (k2_pay4 (F := F)) (View.ld x9 rF_128x128) (View.ld x10 rF_1x128) (View.ld x4 rF_256x32) (View.ld x3 rF_256x128)) (View.ld x11 rF_128x512) (View.ld x12 rF_1x512) (View.ld x13 rF_512x128) (View.ld x14 rF_1x128)) (k2_pay10 (View.ld x17 rF_1x128)) (k2_pay11 (View.ld x18 rF_1x128)) (k2_pay12 (k2_pay5 (View.ld x15 rF_1x128)) (k2_pay6 (View.ld x16 rF_1x128)) (k2_pay7 (k2_pay2 (View.ld x0 rF_8192x128) (View.ld x5 rF_128x128) (View.ld x1 rF_8192x128) (View.ld x2 rF_256x128) (View.ld x6 rF_1x128) (View.ld x7 rF_128x128) (View.ld x8 rF_1x128)) (k2_pay3 (View.ld x0 rF_8192x128) (View.ld x5 rF_128x128) (View.ld x1 rF_8192x128) (View.ld x2 rF_256x128) (View.ld x6 rF_1x128) (View.ld x7 rF_128x128) (View.ld x8 rF_1x128)) (k2_pay4 (F := F)) (View.ld x9 rF_128x128) (View.ld x10 rF_1x128) (View.ld x4 rF_256x32) (View.ld x3 rF_256x128)) (k2_pay8 (k2_pay2 (View.ld x0 rF_8192x128) (View.ld x5 rF_128x128) (View.ld x1 rF_8192x128) (View.ld x2 rF_256x128) (View.ld x6 rF_1x128) (View.ld x7 rF_128x128) (View.ld x8 rF_1x128)) (k2_pay3 (View.ld x0 rF_8192x128) (View.ld x5 rF_128x128) (View.ld x1 rF_8192x128) (View.ld x2 rF_256x128) (View.ld x6 rF_1x128) (View.ld x7 rF_128x128) (View.ld x8 rF_1x128)) (k2_pay4 (F := F)) (View.ld x9 rF_128x128) (View.ld x10 rF_1x128) (View.ld x4 rF_256x32) (View.ld x3 rF_256x128)) (View.ld x11 rF_128x512) (View.ld x12 rF_1x512) (View.ld x13 rF_512x128) (View.ld x14 rF_1x128))⟩]

/-- Its store is the whole buffer (checked by evaluation), so it covers it. -/
theorem cover2_19 (p0 : Vec F S256x128 .f32) (y : S256x128.Idx) :
    ∃ pc ∈ ([⟨rF_256x128, p0⟩] : List (View.Piece (Elt F) S256x128 .f32)), y ∈ pc.1.set :=
  View.cover_of_tiled [⟨rF_256x128, p0⟩] S256x128.size (by rfl) y

end Cert.KernelIdeal.Body

end
-- ==== Proof.BodyIdeal.R2Run.lean ====
/-
  Region 2: the body's triple. The kernel body on whole staging memrefs, the nineteen inputs' at read contents and
  the output's at anything, runs to the continuation holding the inputs' as they were and the output's at the
  canonical contents of its store.
-/
import proofs.«208327_g62569083568895_cont_9to1c4b_407_46_alg».proof.Proof.BodyIdeal.R2Out

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

variable [Preorder Lvl]

local notation "𝕄" => MT nD τ sig Ix (Elt F) Name U Lvl

set_option maxHeartbeats 4000000 in
/-- The body's triple, at any grid coordinates: the printed function and its three parts are their skeletons, run
    operation by operation; the output's buffer ends at its one store over what it held, which reads as the store's
    canonical contents because the store covers the buffer. -/
theorem sound_kernel2 (c : Dev nD) (E : Set Name) (i : grid2.Coords) (arg1 : Memref sig .tc .vmem S8192x128 .f32) (harg1 : arg1.IsWhole) (arg2 : Memref sig .tc .vmem S8192x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x32 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x512 .f32) (harg12 : arg12.IsWhole) (arg13 : Memref sig .tc .vmem S1x512 .f32) (harg13 : arg13.IsWhole) (arg14 : Memref sig .tc .vmem S512x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S256x128 .f32) (harg20 : arg20.IsWhole)
    (x0 : Vec F S8192x128 .f32) (x1 : Vec F S8192x128 .f32) (x2 : Vec F S256x128 .f32) (x3 : Vec F S256x128 .f32) (x4 : Vec F S256x32 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x512 .f32) (x12 : Vec F S1x512 .f32) (x13 : Vec F S512x128 .f32) (x14 : Vec F S1x128 .f32) (x15 : Vec F S1x128 .f32) (x16 : Vec F S1x128 .f32) (x17 : Vec F S1x128 .f32) (x18 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out2_19 x0 x1 x2 x3 x4 x5 x6 x7 x8 x9 x10 x11 x12 x13 x14 x15 x16 x17 x18)) -∗ K ⟨⟩))
      ⊢ wp frame (wpE (defs₀ (F := F)) Variants.none c none) E (cc2__main_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc2__main_body_eq_skeleton]; unfold cc2__main_body_skel
  simp only [k2_part1_eq_skeleton]; unfold k2_part1_skel
  simp only [k2_part2_eq_skeleton]; unfold k2_part2_skel
  simp only [k2_part3_eq_skeleton]; unfold k2_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  iexists _; isplitr
  swap; · iexact H19
  ipureintro
  exact View.read_writes_eq_canon _ _ _ (cover2_19 _)

end Cert.KernelIdeal.Body

end
-- ==== Proof.BodyIdeal.R2.lean ====
/-
  Region 2: the pipeline's proof data at the region-entry contents, what each window's staging buffer holds before
  and after the body, and the body obligation at every point of the grid, for any index the core's debts are
  recorded at.
-/
import proofs.«208327_g62569083568895_cont_9to1c4b_407_46_alg».proof.Proof.BodyIdeal.R2Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

variable [Preorder Lvl]

local notation "𝕄" => MT nD τ sig Ix (Elt F) Name U Lvl

-- the TensorCore's buffer contents when the region is entered
variable (V : (c : Dev nD) → (b : Ref sig .tc) → Buf (Elt F) ((c : Thread nD τ).loc b))

/-! ## Each input window's buffer holds its block, fetched there or not -/

/-- Input window 0's current staging buffer holds its block at every point, for ANY proof data whose array is the
    region-entry contents' (`hA`) and whose body leaves the block in place (`hafter`): where the window is not fetched
    its block index has not moved; the window is uncut and never idle. -/
theorem before2_0_of {c : Dev nD} (dat : Dat τ (Elt F) Ix Name U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, for ANY proof data whose array is the
    region-entry contents' (`hA`) and whose body leaves the block in place (`hafter`): where the window is not fetched
    its block index has not moved; the window is uncut and never idle. -/
theorem before2_1_of {c : Dev nD} (dat : Dat τ (Elt F) Ix Name U Lvl cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, for ANY proof data whose array is the
    region-entry contents' (`hA`) and whose body leaves the block in place (`hafter`): where the window is not fetched
    its block index has not moved; the window is uncut and never idle. -/
theorem before2_2_of {c : Dev nD} (dat : Dat τ (Elt F) Ix Name U Lvl cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, for ANY proof data whose array is the
    region-entry contents' (`hA`) and whose body leaves the block in place (`hafter`): where the window is not fetched
    its block index has not moved; the window is uncut and never idle. -/
theorem before2_3_of {c : Dev nD} (dat : Dat τ (Elt F) Ix Name U Lvl cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, for ANY proof data whose array is the
    region-entry contents' (`hA`) and whose body leaves the block in place (`hafter`): where the window is not fetched
    its block index has not moved; the window is uncut and never idle. -/
theorem before2_4_of {c : Dev nD} (dat : Dat τ (Elt F) Ix Name U Lvl cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, for ANY proof data whose array is the
    region-entry contents' (`hA`) and whose body leaves the block in place (`hafter`): where the window is not fetched
    its block index has not moved; the window is uncut and never idle. -/
theorem before2_5_of {c : Dev nD} (dat : Dat τ (Elt F) Ix Name U Lvl cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, for ANY proof data whose array is the
    region-entry contents' (`hA`) and whose body leaves the block in place (`hafter`): where the window is not fetched
    its block index has not moved; the window is uncut and never idle. -/
theorem before2_6_of {c : Dev nD} (dat : Dat τ (Elt F) Ix Name U Lvl cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, for ANY proof data whose array is the
    region-entry contents' (`hA`) and whose body leaves the block in place (`hafter`): where the window is not fetched
    its block index has not moved; the window is uncut and never idle. -/
theorem before2_7_of {c : Dev nD} (dat : Dat τ (Elt F) Ix Name U Lvl cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, for ANY proof data whose array is the
    region-entry contents' (`hA`) and whose body leaves the block in place (`hafter`): where the window is not fetched
    its block index has not moved; the window is uncut and never idle. -/
theorem before2_8_of {c : Dev nD} (dat : Dat τ (Elt F) Ix Name U Lvl cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, for ANY proof data whose array is the
    region-entry contents' (`hA`) and whose body leaves the block in place (`hafter`): where the window is not fetched
    its block index has not moved; the window is uncut and never idle. -/
theorem before2_9_of {c : Dev nD} (dat : Dat τ (Elt F) Ix Name U Lvl cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's current staging buffer holds its block at every point, for ANY proof data whose array is the
    region-entry contents' (`hA`) and whose body leaves the block in place (`hafter`): where the window is not fetched
    its block index has not moved; the window is uncut and never idle. -/
theorem before2_10_of {c : Dev nD} (dat : Dat τ (Elt F) Ix Name U Lvl cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's current staging buffer holds its block at every point, for ANY proof data whose array is the
    region-entry contents' (`hA`) and whose body leaves the block in place (`hafter`): where the window is not fetched
    its block index has not moved; the window is uncut and never idle. -/
theorem before2_11_of {c : Dev nD} (dat : Dat τ (Elt F) Ix Name U Lvl cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- Input window 12's current staging buffer holds its block at every point, for ANY proof data whose array is the
    region-entry contents' (`hA`) and whose body leaves the block in place (`hafter`): where the window is not fetched
    its block index has not moved; the window is uncut and never idle. -/
theorem before2_12_of {c : Dev nD} (dat : Dat τ (Elt F) Ix Name U Lvl cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-- Input window 13's current staging buffer holds its block at every point, for ANY proof data whose array is the
    region-entry contents' (`hA`) and whose body leaves the block in place (`hafter`): where the window is not fetched
    its block index has not moved; the window is uncut and never idle. -/
theorem before2_13_of {c : Dev nD} (dat : Dat τ (Elt F) Ix Name U Lvl cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

/-- Input window 14's current staging buffer holds its block at every point, for ANY proof data whose array is the
    region-entry contents' (`hA`) and whose body leaves the block in place (`hafter`): where the window is not fetched
    its block index has not moved; the window is uncut and never idle. -/
theorem before2_14_of {c : Dev nD} (dat : Dat τ (Elt F) Ix Name U Lvl cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)

/-- Input window 15's current staging buffer holds its block at every point, for ANY proof data whose array is the
    region-entry contents' (`hA`) and whose body leaves the block in place (`hafter`): where the window is not fetched
    its block index has not moved; the window is uncut and never idle. -/
theorem before2_15_of {c : Dev nD} (dat : Dat τ (Elt F) Ix Name U Lvl cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)

/-- Input window 16's current staging buffer holds its block at every point, for ANY proof data whose array is the
    region-entry contents' (`hA`) and whose body leaves the block in place (`hafter`): where the window is not fetched
    its block index has not moved; the window is uncut and never idle. -/
theorem before2_16_of {c : Dev nD} (dat : Dat τ (Elt F) Ix Name U Lvl cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)

/-- Input window 17's current staging buffer holds its block at every point, for ANY proof data whose array is the
    region-entry contents' (`hA`) and whose body leaves the block in place (`hafter`): where the window is not fetched
    its block index has not moved; the window is uncut and never idle. -/
theorem before2_17_of {c : Dev nD} (dat : Dat τ (Elt F) Ix Name U Lvl cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)

/-- Input window 18's current staging buffer holds its block at every point, for ANY proof data whose array is the
    region-entry contents' (`hA`) and whose body leaves the block in place (`hafter`): where the window is not fetched
    its block index has not moved; the window is uncut and never idle. -/
theorem before2_18_of {c : Dev nD} (dat : Dat τ (Elt F) Ix Name U Lvl cfg2 c) (hA : dat.A 18 = V c (Pipeline.arrRef spec2 18))
    (hafter : ∀ t, dat.after 18 t = iblk2 V c 18 t) (t : Fin cfg2.N) (d) : dat.before 18 t d = iblk2 V c 18 t :=
  (dat.before_in_eq_fetched 18 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

-- what the core owes across the region (units it will pay after it)
variable (O : CellTallies nD τ sig Ix)
-- a bound on the pairs the core's waits have recorded when the region is entered
variable (B : Set (SemLoc sig × Ix))

/-- The proof data of pipeline 1 (the third custom call) on core `c`: the arrays as the region finds them (`V`); after
    the body at point `t` each input's buffer at its block and the output's at the canonical contents of its store over
    the input blocks; the invariant the scoped rest and the generator register, untouched; the core owing the tallies `O` at every point (the body neither pays nor takes on any), its recorded pairs within `B`; full shares. -/
def dat2 (c : Dev nD) : Dat τ (Elt F) Ix Name U Lvl cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => out2_19 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t)
    | ⟨_ + 20, h⟩ => absurd h (Nat.not_lt.2 (Nat.le_add_left _ _))
  Φ _ := ΦG spec2 c
  q _ := fullShare
  owed _ := O
  recorded _ := B

/-- The proof data's arrays are the region-entry contents. -/
theorem A_eq2 (c : Dev nD) (w : Fin cfg2.W) : (dat2 (Ix := Ix) (Name := Name) (U := U) (Lvl := Lvl) V O B c).A w = V c (Pipeline.arrRef spec2 w) := by
  dsimp only [dat2]

/-- The proof data owes the tallies `O` at every point. -/
theorem owed_eq2 (c : Dev nD) (t : Fin (cfg2.N + 1)) : (dat2 (Ix := Ix) (Name := Name) (U := U) (Lvl := Lvl) V O B c).owed t = O := by
  dsimp only [dat2]

/-- Its bound on the recorded pairs at every point. -/
theorem recorded_eq2 (c : Dev nD) (t : Fin (cfg2.N + 1)) : (dat2 (Ix := Ix) (Name := Name) (U := U) (Lvl := Lvl) V O B c).recorded t = B := by
  dsimp only [dat2]

/-- Its invariant at every point. -/
theorem Φ_eq2 (c : Dev nD) (t : Fin (cfg2.N + 1)) : (dat2 (Ix := Ix) (Name := Name) (U := U) (Lvl := Lvl) V O B c).Φ t = ΦG spec2 c := by
  dsimp only [dat2]

/-- What the body leaves, window by window. -/
theorem after2_0 (c : Dev nD) (t : Fin cfg2.N) : (dat2 (Ix := Ix) (Name := Name) (U := U) (Lvl := Lvl) V O B c).after 0 t = iblk2 V c 0 t := by dsimp only [dat2]
theorem after2_1 (c : Dev nD) (t : Fin cfg2.N) : (dat2 (Ix := Ix) (Name := Name) (U := U) (Lvl := Lvl) V O B c).after 1 t = iblk2 V c 1 t := by dsimp only [dat2]
theorem after2_2 (c : Dev nD) (t : Fin cfg2.N) : (dat2 (Ix := Ix) (Name := Name) (U := U) (Lvl := Lvl) V O B c).after 2 t = iblk2 V c 2 t := by dsimp only [dat2]
theorem after2_3 (c : Dev nD) (t : Fin cfg2.N) : (dat2 (Ix := Ix) (Name := Name) (U := U) (Lvl := Lvl) V O B c).after 3 t = iblk2 V c 3 t := by dsimp only [dat2]
theorem after2_4 (c : Dev nD) (t : Fin cfg2.N) : (dat2 (Ix := Ix) (Name := Name) (U := U) (Lvl := Lvl) V O B c).after 4 t = iblk2 V c 4 t := by dsimp only [dat2]
theorem after2_5 (c : Dev nD) (t : Fin cfg2.N) : (dat2 (Ix := Ix) (Name := Name) (U := U) (Lvl := Lvl) V O B c).after 5 t = iblk2 V c 5 t := by dsimp only [dat2]
theorem after2_6 (c : Dev nD) (t : Fin cfg2.N) : (dat2 (Ix := Ix) (Name := Name) (U := U) (Lvl := Lvl) V O B c).after 6 t = iblk2 V c 6 t := by dsimp only [dat2]
theorem after2_7 (c : Dev nD) (t : Fin cfg2.N) : (dat2 (Ix := Ix) (Name := Name) (U := U) (Lvl := Lvl) V O B c).after 7 t = iblk2 V c 7 t := by dsimp only [dat2]
theorem after2_8 (c : Dev nD) (t : Fin cfg2.N) : (dat2 (Ix := Ix) (Name := Name) (U := U) (Lvl := Lvl) V O B c).after 8 t = iblk2 V c 8 t := by dsimp only [dat2]
theorem after2_9 (c : Dev nD) (t : Fin cfg2.N) : (dat2 (Ix := Ix) (Name := Name) (U := U) (Lvl := Lvl) V O B c).after 9 t = iblk2 V c 9 t := by dsimp only [dat2]
theorem after2_10 (c : Dev nD) (t : Fin cfg2.N) : (dat2 (Ix := Ix) (Name := Name) (U := U) (Lvl := Lvl) V O B c).after 10 t = iblk2 V c 10 t := by dsimp only [dat2]
theorem after2_11 (c : Dev nD) (t : Fin cfg2.N) : (dat2 (Ix := Ix) (Name := Name) (U := U) (Lvl := Lvl) V O B c).after 11 t = iblk2 V c 11 t := by dsimp only [dat2]
theorem after2_12 (c : Dev nD) (t : Fin cfg2.N) : (dat2 (Ix := Ix) (Name := Name) (U := U) (Lvl := Lvl) V O B c).after 12 t = iblk2 V c 12 t := by dsimp only [dat2]
theorem after2_13 (c : Dev nD) (t : Fin cfg2.N) : (dat2 (Ix := Ix) (Name := Name) (U := U) (Lvl := Lvl) V O B c).after 13 t = iblk2 V c 13 t := by dsimp only [dat2]
theorem after2_14 (c : Dev nD) (t : Fin cfg2.N) : (dat2 (Ix := Ix) (Name := Name) (U := U) (Lvl := Lvl) V O B c).after 14 t = iblk2 V c 14 t := by dsimp only [dat2]
theorem after2_15 (c : Dev nD) (t : Fin cfg2.N) : (dat2 (Ix := Ix) (Name := Name) (U := U) (Lvl := Lvl) V O B c).after 15 t = iblk2 V c 15 t := by dsimp only [dat2]
theorem after2_16 (c : Dev nD) (t : Fin cfg2.N) : (dat2 (Ix := Ix) (Name := Name) (U := U) (Lvl := Lvl) V O B c).after 16 t = iblk2 V c 16 t := by dsimp only [dat2]
theorem after2_17 (c : Dev nD) (t : Fin cfg2.N) : (dat2 (Ix := Ix) (Name := Name) (U := U) (Lvl := Lvl) V O B c).after 17 t = iblk2 V c 17 t := by dsimp only [dat2]
theorem after2_18 (c : Dev nD) (t : Fin cfg2.N) : (dat2 (Ix := Ix) (Name := Name) (U := U) (Lvl := Lvl) V O B c).after 18 t = iblk2 V c 18 t := by dsimp only [dat2]
theorem after2_19 (c : Dev nD) (t : Fin cfg2.N) : (dat2 (Ix := Ix) (Name := Name) (U := U) (Lvl := Lvl) V O B c).after 19 t = out2_19 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) := by dsimp only [dat2]

/-- Each input's current staging buffer holds its block at every point, fetched there or not. -/
theorem before2_0 (c : Dev nD) (t : Fin cfg2.N) (d) : (dat2 (Ix := Ix) (Name := Name) (U := U) (Lvl := Lvl) V O B c).before 0 t d = iblk2 V c 0 t :=
  before2_0_of V (dat2 V O B c) (A_eq2 V O B c 0) (after2_0 V O B c) t d
theorem before2_1 (c : Dev nD) (t : Fin cfg2.N) (d) : (dat2 (Ix := Ix) (Name := Name) (U := U) (Lvl := Lvl) V O B c).before 1 t d = iblk2 V c 1 t :=
  before2_1_of V (dat2 V O B c) (A_eq2 V O B c 1) (after2_1 V O B c) t d
theorem before2_2 (c : Dev nD) (t : Fin cfg2.N) (d) : (dat2 (Ix := Ix) (Name := Name) (U := U) (Lvl := Lvl) V O B c).before 2 t d = iblk2 V c 2 t :=
  before2_2_of V (dat2 V O B c) (A_eq2 V O B c 2) (after2_2 V O B c) t d
theorem before2_3 (c : Dev nD) (t : Fin cfg2.N) (d) : (dat2 (Ix := Ix) (Name := Name) (U := U) (Lvl := Lvl) V O B c).before 3 t d = iblk2 V c 3 t :=
  before2_3_of V (dat2 V O B c) (A_eq2 V O B c 3) (after2_3 V O B c) t d
theorem before2_4 (c : Dev nD) (t : Fin cfg2.N) (d) : (dat2 (Ix := Ix) (Name := Name) (U := U) (Lvl := Lvl) V O B c).before 4 t d = iblk2 V c 4 t :=
  before2_4_of V (dat2 V O B c) (A_eq2 V O B c 4) (after2_4 V O B c) t d
theorem before2_5 (c : Dev nD) (t : Fin cfg2.N) (d) : (dat2 (Ix := Ix) (Name := Name) (U := U) (Lvl := Lvl) V O B c).before 5 t d = iblk2 V c 5 t :=
  before2_5_of V (dat2 V O B c) (A_eq2 V O B c 5) (after2_5 V O B c) t d
theorem before2_6 (c : Dev nD) (t : Fin cfg2.N) (d) : (dat2 (Ix := Ix) (Name := Name) (U := U) (Lvl := Lvl) V O B c).before 6 t d = iblk2 V c 6 t :=
  before2_6_of V (dat2 V O B c) (A_eq2 V O B c 6) (after2_6 V O B c) t d
theorem before2_7 (c : Dev nD) (t : Fin cfg2.N) (d) : (dat2 (Ix := Ix) (Name := Name) (U := U) (Lvl := Lvl) V O B c).before 7 t d = iblk2 V c 7 t :=
  before2_7_of V (dat2 V O B c) (A_eq2 V O B c 7) (after2_7 V O B c) t d
theorem before2_8 (c : Dev nD) (t : Fin cfg2.N) (d) : (dat2 (Ix := Ix) (Name := Name) (U := U) (Lvl := Lvl) V O B c).before 8 t d = iblk2 V c 8 t :=
  before2_8_of V (dat2 V O B c) (A_eq2 V O B c 8) (after2_8 V O B c) t d
theorem before2_9 (c : Dev nD) (t : Fin cfg2.N) (d) : (dat2 (Ix := Ix) (Name := Name) (U := U) (Lvl := Lvl) V O B c).before 9 t d = iblk2 V c 9 t :=
  before2_9_of V (dat2 V O B c) (A_eq2 V O B c 9) (after2_9 V O B c) t d
theorem before2_10 (c : Dev nD) (t : Fin cfg2.N) (d) : (dat2 (Ix := Ix) (Name := Name) (U := U) (Lvl := Lvl) V O B c).before 10 t d = iblk2 V c 10 t :=
  before2_10_of V (dat2 V O B c) (A_eq2 V O B c 10) (after2_10 V O B c) t d
theorem before2_11 (c : Dev nD) (t : Fin cfg2.N) (d) : (dat2 (Ix := Ix) (Name := Name) (U := U) (Lvl := Lvl) V O B c).before 11 t d = iblk2 V c 11 t :=
  before2_11_of V (dat2 V O B c) (A_eq2 V O B c 11) (after2_11 V O B c) t d
theorem before2_12 (c : Dev nD) (t : Fin cfg2.N) (d) : (dat2 (Ix := Ix) (Name := Name) (U := U) (Lvl := Lvl) V O B c).before 12 t d = iblk2 V c 12 t :=
  before2_12_of V (dat2 V O B c) (A_eq2 V O B c 12) (after2_12 V O B c) t d
theorem before2_13 (c : Dev nD) (t : Fin cfg2.N) (d) : (dat2 (Ix := Ix) (Name := Name) (U := U) (Lvl := Lvl) V O B c).before 13 t d = iblk2 V c 13 t :=
  before2_13_of V (dat2 V O B c) (A_eq2 V O B c 13) (after2_13 V O B c) t d
theorem before2_14 (c : Dev nD) (t : Fin cfg2.N) (d) : (dat2 (Ix := Ix) (Name := Name) (U := U) (Lvl := Lvl) V O B c).before 14 t d = iblk2 V c 14 t :=
  before2_14_of V (dat2 V O B c) (A_eq2 V O B c 14) (after2_14 V O B c) t d
theorem before2_15 (c : Dev nD) (t : Fin cfg2.N) (d) : (dat2 (Ix := Ix) (Name := Name) (U := U) (Lvl := Lvl) V O B c).before 15 t d = iblk2 V c 15 t :=
  before2_15_of V (dat2 V O B c) (A_eq2 V O B c 15) (after2_15 V O B c) t d
theorem before2_16 (c : Dev nD) (t : Fin cfg2.N) (d) : (dat2 (Ix := Ix) (Name := Name) (U := U) (Lvl := Lvl) V O B c).before 16 t d = iblk2 V c 16 t :=
  before2_16_of V (dat2 V O B c) (A_eq2 V O B c 16) (after2_16 V O B c) t d
theorem before2_17 (c : Dev nD) (t : Fin cfg2.N) (d) : (dat2 (Ix := Ix) (Name := Name) (U := U) (Lvl := Lvl) V O B c).before 17 t d = iblk2 V c 17 t :=
  before2_17_of V (dat2 V O B c) (A_eq2 V O B c 17) (after2_17 V O B c) t d
theorem before2_18 (c : Dev nD) (t : Fin cfg2.N) (d) : (dat2 (Ix := Ix) (Name := Name) (U := U) (Lvl := Lvl) V O B c).before 18 t d = iblk2 V c 18 t :=
  before2_18_of V (dat2 V O B c) (A_eq2 V O B c 18) (after2_18 V O B c) t d

/-! ## The body obligation, at a generic point -/

/-- What the body is called with at point `t` (the obligation's precondition, the windows one by one), -/
def bodyPre2 (ι : Ix) (c : Dev nD) (t : Fin cfg2.N) : sProp 𝕄 :=
  iprop((dat2 (Ix := Ix) (Name := Name) (U := U) (Lvl := Lvl) V O B c).Φ t.castSucc ∗ (dat2 (Ix := Ix) (Name := Name) (U := U) (Lvl := Lvl) V O B c).owesAt ι t.castSucc
    ∗ (∃ d, owns (c : Thread nD τ) (st2_0 t) fullShare ((dat2 (Ix := Ix) (Name := Name) (U := U) (Lvl := Lvl) V O B c).before 0 t d))
    ∗ (∃ d, owns (c : Thread nD τ) (st2_1 t) fullShare ((dat2 (Ix := Ix) (Name := Name) (U := U) (Lvl := Lvl) V O B c).before 1 t d))
    ∗ (∃ d, owns (c : Thread nD τ) (st2_2 t) fullShare ((dat2 (Ix := Ix) (Name := Name) (U := U) (Lvl := Lvl) V O B c).before 2 t d))
    ∗ (∃ d, owns (c : Thread nD τ) (st2_3 t) fullShare ((dat2 (Ix := Ix) (Name := Name) (U := U) (Lvl := Lvl) V O B c).before 3 t d))
    ∗ (∃ d, owns (c : Thread nD τ) (st2_4 t) fullShare ((dat2 (Ix := Ix) (Name := Name) (U := U) (Lvl := Lvl) V O B c).before 4 t d))
    ∗ (∃ d, owns (c : Thread nD τ) (st2_5 t) fullShare ((dat2 (Ix := Ix) (Name := Name) (U := U) (Lvl := Lvl) V O B c).before 5 t d))
    ∗ (∃ d, owns (c : Thread nD τ) (st2_6 t) fullShare ((dat2 (Ix := Ix) (Name := Name) (U := U) (Lvl := Lvl) V O B c).before 6 t d))
    ∗ (∃ d, owns (c : Thread nD τ) (st2_7 t) fullShare ((dat2 (Ix := Ix) (Name := Name) (U := U) (Lvl := Lvl) V O B c).before 7 t d))
    ∗ (∃ d, owns (c : Thread nD τ) (st2_8 t) fullShare ((dat2 (Ix := Ix) (Name := Name) (U := U) (Lvl := Lvl) V O B c).before 8 t d))
    ∗ (∃ d, owns (c : Thread nD τ) (st2_9 t) fullShare ((dat2 (Ix := Ix) (Name := Name) (U := U) (Lvl := Lvl) V O B c).before 9 t d))
    ∗ (∃ d, owns (c : Thread nD τ) (st2_10 t) fullShare ((dat2 (Ix := Ix) (Name := Name) (U := U) (Lvl := Lvl) V O B c).before 10 t d))
    ∗ (∃ d, owns (c : Thread nD τ) (st2_11 t) fullShare ((dat2 (Ix := Ix) (Name := Name) (U := U) (Lvl := Lvl) V O B c).before 11 t d))
    ∗ (∃ d, owns (c : Thread nD τ) (st2_12 t) fullShare ((dat2 (Ix := Ix) (Name := Name) (U := U) (Lvl := Lvl) V O B c).before 12 t d))
    ∗ (∃ d, owns (c : Thread nD τ) (st2_13 t) fullShare ((dat2 (Ix := Ix) (Name := Name) (U := U) (Lvl := Lvl) V O B c).before 13 t d))
    ∗ (∃ d, owns (c : Thread nD τ) (st2_14 t) fullShare ((dat2 (Ix := Ix) (Name := Name) (U := U) (Lvl := Lvl) V O B c).before 14 t d))
    ∗ (∃ d, owns (c : Thread nD τ) (st2_15 t) fullShare ((dat2 (Ix := Ix) (Name := Name) (U := U) (Lvl := Lvl) V O B c).before 15 t d))
    ∗ (∃ d, owns (c : Thread nD τ) (st2_16 t) fullShare ((dat2 (Ix := Ix) (Name := Name) (U := U) (Lvl := Lvl) V O B c).before 16 t d))
    ∗ (∃ d, owns (c : Thread nD τ) (st2_17 t) fullShare ((dat2 (Ix := Ix) (Name := Name) (U := U) (Lvl := Lvl) V O B c).before 17 t d))
    ∗ (∃ d, owns (c : Thread nD τ) (st2_18 t) fullShare ((dat2 (Ix := Ix) (Name := Name) (U := U) (Lvl := Lvl) V O B c).before 18 t d))
    ∗ (∃ d, owns (c : Thread nD τ) (st2_19 t) fullShare ((dat2 (Ix := Ix) (Name := Name) (U := U) (Lvl := Lvl) V O B c).before 19 t d)))

/-- and what it returns. -/
def bodyPost2 (ι : Ix) (c : Dev nD) (t : Fin cfg2.N) : sProp 𝕄 :=
  iprop((dat2 (Ix := Ix) (Name := Name) (U := U) (Lvl := Lvl) V O B c).Φ t.succ ∗ (dat2 (Ix := Ix) (Name := Name) (U := U) (Lvl := Lvl) V O B c).owesAt ι t.succ
    ∗ owns (c : Thread nD τ) (st2_0 t) fullShare ((dat2 (Ix := Ix) (Name := Name) (U := U) (Lvl := Lvl) V O B c).after 0 t)
    ∗ owns (c : Thread nD τ) (st2_1 t) fullShare ((dat2 (Ix := Ix) (Name := Name) (U := U) (Lvl := Lvl) V O B c).after 1 t)
    ∗ owns (c : Thread nD τ) (st2_2 t) fullShare ((dat2 (Ix := Ix) (Name := Name) (U := U) (Lvl := Lvl) V O B c).after 2 t)
    ∗ owns (c : Thread nD τ) (st2_3 t) fullShare ((dat2 (Ix := Ix) (Name := Name) (U := U) (Lvl := Lvl) V O B c).after 3 t)
    ∗ owns (c : Thread nD τ) (st2_4 t) fullShare ((dat2 (Ix := Ix) (Name := Name) (U := U) (Lvl := Lvl) V O B c).after 4 t)
    ∗ owns (c : Thread nD τ) (st2_5 t) fullShare ((dat2 (Ix := Ix) (Name := Name) (U := U) (Lvl := Lvl) V O B c).after 5 t)
    ∗ owns (c : Thread nD τ) (st2_6 t) fullShare ((dat2 (Ix := Ix) (Name := Name) (U := U) (Lvl := Lvl) V O B c).after 6 t)
    ∗ owns (c : Thread nD τ) (st2_7 t) fullShare ((dat2 (Ix := Ix) (Name := Name) (U := U) (Lvl := Lvl) V O B c).after 7 t)
    ∗ owns (c : Thread nD τ) (st2_8 t) fullShare ((dat2 (Ix := Ix) (Name := Name) (U := U) (Lvl := Lvl) V O B c).after 8 t)
    ∗ owns (c : Thread nD τ) (st2_9 t) fullShare ((dat2 (Ix := Ix) (Name := Name) (U := U) (Lvl := Lvl) V O B c).after 9 t)
    ∗ owns (c : Thread nD τ) (st2_10 t) fullShare ((dat2 (Ix := Ix) (Name := Name) (U := U) (Lvl := Lvl) V O B c).after 10 t)
    ∗ owns (c : Thread nD τ) (st2_11 t) fullShare ((dat2 (Ix := Ix) (Name := Name) (U := U) (Lvl := Lvl) V O B c).after 11 t)
    ∗ owns (c : Thread nD τ) (st2_12 t) fullShare ((dat2 (Ix := Ix) (Name := Name) (U := U) (Lvl := Lvl) V O B c).after 12 t)
    ∗ owns (c : Thread nD τ) (st2_13 t) fullShare ((dat2 (Ix := Ix) (Name := Name) (U := U) (Lvl := Lvl) V O B c).after 13 t)
    ∗ owns (c : Thread nD τ) (st2_14 t) fullShare ((dat2 (Ix := Ix) (Name := Name) (U := U) (Lvl := Lvl) V O B c).after 14 t)
    ∗ owns (c : Thread nD τ) (st2_15 t) fullShare ((dat2 (Ix := Ix) (Name := Name) (U := U) (Lvl := Lvl) V O B c).after 15 t)
    ∗ owns (c : Thread nD τ) (st2_16 t) fullShare ((dat2 (Ix := Ix) (Name := Name) (U := U) (Lvl := Lvl) V O B c).after 16 t)
    ∗ owns (c : Thread nD τ) (st2_17 t) fullShare ((dat2 (Ix := Ix) (Name := Name) (U := U) (Lvl := Lvl) V O B c).after 17 t)
    ∗ owns (c : Thread nD τ) (st2_18 t) fullShare ((dat2 (Ix := Ix) (Name := Name) (U := U) (Lvl := Lvl) V O B c).after 18 t)
    ∗ owns (c : Thread nD τ) (st2_19 t) fullShare ((dat2 (Ix := Ix) (Name := Name) (U := U) (Lvl := Lvl) V O B c).after 19 t))

set_option maxHeartbeats 2000000 in
/-- The body at any point: the inputs' memrefs hold their blocks, so the body's triple applies; the invariant and the
    core's debts pass through unread. -/
theorem sound_body2 (ι : Ix) (c : Dev nD) (t : Fin cfg2.N) :
    bodyPre2 (Name := Name) (U := U) (Lvl := Lvl) V O B ι c t ⊢ wp frame (wpE (defs₀ (F := F)) Variants.none c none) Set.univ (bodyAt2 t) (fun _ => bodyPost2 (Name := Name) (U := U) (Lvl := Lvl) V O B ι c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17, before2_18]
  rw [show (dat2 (Ix := Ix) (Name := Name) (U := U) (Lvl := Lvl) V O B c).Φ t.succ = (dat2 (Ix := Ix) (Name := Name) (U := U) (Lvl := Lvl) V O B c).Φ t.castSucc from rfl,
    show (dat2 (Ix := Ix) (Name := Name) (U := U) (Lvl := Lvl) V O B c).owesAt ι t.succ = (dat2 (Ix := Ix) (Name := Name) (U := U) (Lvl := Lvl) V O B c).owesAt ι t.castSucc from rfl,
    after2_0, after2_1, after2_2, after2_3, after2_4, after2_5, after2_6, after2_7, after2_8, after2_9, after2_10, after2_11, after2_12, after2_13, after2_14, after2_15, after2_16, after2_17, after2_18, after2_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel2 c Set.univ _ _ _ _ _ _ _ _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body obligation, at every point. -/
theorem body_obligation2 (ι : Ix) (c : Dev nD) :
    BodyObligation (dat2 (F := F) (Ix := Ix) (Name := Name) (U := U) (Lvl := Lvl) V O B c) (defs₀ (F := F)) Variants.none ι Set.univ := fun t => by
  rw [bigSep_W2, bigSep_W2]
  exact sound_body2 V O B ι c t

/-- The same in the form a region segment takes: no window of the region is cut, so the two forms agree. -/
theorem body_obligation2_loose (ι : Ix) (c : Dev nD) :
    BodyObligationLoose (dat2 (F := F) (Ix := Ix) (Name := Name) (U := U) (Lvl := Lvl) V O B c) (defs₀ (F := F)) Variants.none ι Set.univ :=
  (body_obligation2 V O B ι c).loose

end Cert.KernelIdeal.Body

end
-- ==== Proof.ScMain1.lean ====
/-
  @main on the TensorCore, the data: the host operations of @main as named terms, the contents of the TensorCore's
  unscoped buffers at each boundary of @main as a fold from the launch memory (through the first pipeline's
  write-backs, the SparseCore call's result array, the second pipeline's write-backs), the table and the index list
  the SparseCore call is handed, and the two pipelines' proof data at their regions' entry contents.
-/
import proofs.«208327_g62569083568895_cont_9to1c4b_407_46_alg».proof.Proof.ScPay
import proofs.«208327_g62569083568895_cont_9to1c4b_407_46_alg».proof.Proof.BodyIdeal.R0
import proofs.«208327_g62569083568895_cont_9to1c4b_407_46_alg».proof.Proof.BodyIdeal.R2
import proofs.«208327_g62569083568895_cont_9to1c4b_407_46_alg».proof.Proof.Gen.KernelIdeal.Launch
import Idealize.ShloMosaic.Lib.Pipeline.FrameSuffix
import Idealize.ShloMosaic.Lib.Pipeline.RegionsLoop
import Idealize.ShloMosaic.Lib.Pipeline.Regions

set_option maxRecDepth 16384

noncomputable section

namespace Cert.KernelIdeal.Sc

open Cert.KernelIdeal Cert.KernelIdeal.Gen Cert.KernelIdeal.Body

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.Pipeline (Dat Cfg Window BodyObligation BodyObligationLoose)

variable {F : FTy → Type} [FloatOps F]

local notation "𝕄" => MT nD τ sig (HIx 1) (Elt F) ℕ UU ℕ

/-! ## The host operations of @main, in order -/

abbrev op0 : HloOp τ sig (Elt F) := StableHlo.unary main_arg6 main_v0 ((extui 32 · natLt_1_32) : (⟨S2x2048x32, .i1⟩ : BufTy).Contents (Elt F) → (⟨S2x2048x32, .i32⟩ : BufTy).Contents (Elt F))
abbrev op2 : HloOp τ sig (Elt F) := StableHlo.reshape main_v1_2 main_v2 rfl shapeCasts_S2x2048x32_S1024x128
abbrev op4 : HloOp τ sig (Elt F) := StableHlo.reshape main_arg2 main_v4 rfl shapeCasts_S2x2048x32x128_S131072x128
abbrev op5 : HloOp τ sig (Elt F) := StableHlo.reshape main_arg0 main_v5 rfl shapeCasts_S2x2048x128_S4096x128
abbrev op6 : HloOp τ sig (Elt F) := StableHlo.reshape main_arg5 main_v6 rfl shapeCasts_S2x2048x32_S4096x32
abbrev op7 : HloOp τ sig (Elt F) := StableHlo.unary main_arg7 main_v7 ((extractStridedSlice S128x128 ![256, 0] · slices_S512x128_S128x128_256_0) : (⟨S512x128, .f32⟩ : BufTy).Contents (Elt F) → (⟨S128x128, .f32⟩ : BufTy).Contents (Elt F))
abbrev op8 : HloOp τ sig (Elt F) := StableHlo.reshape main_arg8 main_v8 rfl shapeCasts_S128_S1x128
abbrev op9 : HloOp τ sig (Elt F) := StableHlo.reshape main_arg10 main_v9 rfl shapeCasts_S128_S1x128
abbrev op10 : HloOp τ sig (Elt F) := StableHlo.reshape main_arg12 main_v10 rfl shapeCasts_S128_S1x128
abbrev op11 : HloOp τ sig (Elt F) := StableHlo.reshape main_arg14 main_v11 rfl shapeCasts_S512_S1x512
abbrev op12 : HloOp τ sig (Elt F) := StableHlo.reshape main_arg16 main_v12 rfl shapeCasts_S128_S1x128
abbrev op13 : HloOp τ sig (Elt F) := StableHlo.reshape main_arg17 main_v13 rfl shapeCasts_S128_S1x128
abbrev op14 : HloOp τ sig (Elt F) := StableHlo.reshape main_arg18 main_v14 rfl shapeCasts_S128_S1x128
abbrev op15 : HloOp τ sig (Elt F) := StableHlo.reshape main_arg19 main_v15 rfl shapeCasts_S128_S1x128
abbrev op16 : HloOp τ sig (Elt F) := StableHlo.reshape main_arg20 main_v16 rfl shapeCasts_S128_S1x128
abbrev op18 : HloOp τ sig (Elt F) := StableHlo.reshape main_v17 main_v18 rfl shapeCasts_S4096x128_S2x2048x128

/-- The thirteen operations between the SparseCore call and the second pipeline. -/
abbrev ops5 : List (HloOp τ sig (Elt F)) := [op4, op5, op6, op7, op8, op9, op10, op11, op12, op13, op14, op15, op16]

/-! ## What the TensorCore owes across each region, and the bound on its recorded pairs -/

/-- What the TensorCore of `d` owes before SparseCore call `n` (its start signals for the calls from `n` on). -/
abbrev Oq (d : Dev nD) (n : ℕ) : CellTallies nD τ sig (HIx 1) := (K (F := F)).Otc d n
/-- The pairs at or below the level every pair recorded before call `n` sits at. -/
def Bq (d : Dev nD) (n : ℕ) : Set (SemLoc sig × HIx 1) := {p | (K (F := F)).lev (T d, p.1) p.2 ≤ 8 * n}

/-! ## The buffer contents at each boundary of @main -/

variable (m : (ℓ : Loc nD τ sig) → Buf (Elt F) ℓ)

/-- Device `d`'s buffers at launch. -/
abbrev W0 (d : Dev nD) : Valuation τ sig (Elt F) := fun b => m (d, b)
/-- After the conversion of the mask (the first pipeline's entry). -/
abbrev W1 (d : Dev nD) : Valuation τ sig (Elt F) := (op0 (F := F)).result (W0 m d)
abbrev V1 : (c : Dev nD) → (b : Ref sig .tc) → Buf (Elt F) ((c : Thread nD τ).loc b) := fun c b => W1 m c b
/-- The first pipeline's proof data, at its entry contents. -/
abbrev D0 (d : Dev nD) : Dat τ (Elt F) (HIx 1) ℕ UU ℕ cfg0 d := dat0 (V1 m) (Oq (F := F) d 0) (Bq (F := F) d 0) d
/-- At the first pipeline's exit: its arrays at what the pipeline leaves, every other buffer as entered. -/
def W2 (d : Dev nD) : Valuation τ sig (Elt F) := Pipeline.withArrays spec0 d (W1 m d) fun w => (D0 m d).arrAt w cfg0.N
abbrev V2 : (c : Dev nD) → (b : Ref sig .tc) → Buf (Elt F) ((c : Thread nD τ).loc b) := fun c b => W2 m c b
/-- After the reshape of the gather indices (the SparseCore call's entry). -/
abbrev W3 (d : Dev nD) : Valuation τ sig (Elt F) := (op2 (F := F)).result (W2 m d)

/-- The table the SparseCore call gathers from: the first pipeline's first result. -/
def TabOf (d : Dev nD) : Buf (Elt F) (tabLoc d) := W3 m d (Proc.devRef .tc main_v1_0)
/-- The index list it gathers by: the first pipeline's third result, reshaped. -/
def IdxOf (d : Dev nD) : Buf (Elt F) (idxLoc d) := W3 m d (Proc.devRef .tc main_v2)

-- the gathered rows: what the SparseCore call leaves in its result array
variable (G3 : (d : Dev nD) → Buf (Elt F) (outLoc d))

/-- After the SparseCore call: its result array at the gathered rows. -/
def W4 (d : Dev nD) : Valuation τ sig (Elt F) := Function.update (W3 m d) (Proc.devRef .tc main_v3) (G3 d)
/-- After the thirteen reshapes and the slice (the second pipeline's entry). -/
abbrev W5 (d : Dev nD) : Valuation τ sig (Elt F) := StableHlo.after (ops5 (F := F)) (W4 m G3 d)
abbrev V5 : (c : Dev nD) → (b : Ref sig .tc) → Buf (Elt F) ((c : Thread nD τ).loc b) := fun c b => W5 m G3 c b
/-- The second pipeline's proof data, at its entry contents. -/
abbrev D2 (d : Dev nD) : Dat τ (Elt F) (HIx 1) ℕ UU ℕ cfg2 d := dat2 (V5 m G3) (Oq (F := F) d 1) (Bq (F := F) d 1) d
/-- At the second pipeline's exit. -/
def W6 (d : Dev nD) : Valuation τ sig (Elt F) := Pipeline.withArrays spec2 d (W5 m G3 d) fun w => (D2 m G3 d).arrAt w cfg2.N
abbrev V6 : (c : Dev nD) → (b : Ref sig .tc) → Buf (Elt F) ((c : Thread nD τ).loc b) := fun c b => W6 m G3 c b
/-- After the last reshape: the contents at @main's return. -/
abbrev W7 (d : Dev nD) : Valuation τ sig (Elt F) := (op18 (F := F)).result (W6 m G3 d)

/-! ## The pipelines' proof data as one family -/

/-- The prefetched tables' admissible contents: no pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) (HIx 1) ℕ UU ℕ (Pipeline.pin (pcfgs (F := F)) adm p) c
  | ⟨0, _⟩ => fun c => D0 m c
  | ⟨1, _⟩ => fun c => D2 m G3 c

theorem W2_arr (c : Dev nD) (w : Fin cfg0.W) :
    W2 m c (Proc.devRef .tc (Pipeline.arrRef spec0 w)) = (D0 m c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (D0 m c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W6_arr (c : Dev nD) (w : Fin cfg2.W) :
    W6 m G3 c (Proc.devRef .tc (Pipeline.arrRef spec2 w)) = (D2 m G3 c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m G3 c (Proc.devRef .tc b) = W5 m G3 c (Proc.devRef .tc b) := by
  unfold W6; exact Pipeline.withArrays_of_ne spec2 c _ _ b hb
theorem hF2 (c : Dev nD) (w : Fin cfg2.W) : (D2 m G3 c).arrAt w cfg2.N = V6 m G3 c (Pipeline.arrRef spec2 w) :=
  (W6_arr m G3 c w).symm
theorem hrest2 (c : Dev nD) : ∀ b, b ∉ Finset.univ.image (Pipeline.arrRef spec2) → V6 m G3 c b = V5 m G3 c b :=
  fun b hb => W6_of_ne m G3 c b fun w e => hb (Finset.mem_image.mpr ⟨w, Finset.mem_univ _, e⟩)

end Cert.KernelIdeal.Sc

end
-- ==== Proof.ScMain2.lean ====
/-
  @main on the TensorCore, the two pipelines' regions: each as a region record over the thread state "every unscoped
  buffer at the boundary's contents, the generator register at some state, the TensorCore owing the SparseCores its
  later start signals", and each region's step inside the SparseCore program's body table.
-/
import proofs.«208327_g62569083568895_cont_9to1c4b_407_46_alg».proof.Proof.ScMain1
import Idealize.ShloMosaic.Lib.SparseCore.Threads

set_option maxRecDepth 16384

noncomputable section

namespace Cert.KernelIdeal.Sc

open Cert.KernelIdeal Cert.KernelIdeal.Gen Cert.KernelIdeal.Body

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.Pipeline (Dat Cfg Window BodyObligation BodyObligationLoose)

variable {F : FTy → Type} [FloatOps F]

local notation "𝕄" => MT nD τ sig (HIx 1) (Elt F) ℕ UU ℕ

variable (m : (ℓ : Loc nD τ sig) → Buf (Elt F) ℓ) (G3 : (d : Dev nD) → Buf (Elt F) (outLoc d))

/-- The levels every proof of the program is stated at: the launch protocol's own. -/
abbrev LL : GSem nD τ sig → Finset (HIx 1) := (K (F := F)).L
abbrev lvl : GSem nD τ sig → HIx 1 → ℕ := (K (F := F)).lev

/-- What rides beside the buffers through a region entered before call `n`: the generator register at some state, and
    what the TensorCore owes, every pair its waits have recorded at or below the level of call `n`. -/
abbrev Rr (c : Dev nD) (n : ℕ) : sProp 𝕄 :=
  iprop((∃ r, prngReg c r) ∗ ∃ W, ⌜(K (F := F)).WBelow (T c) W (8 * n)⌝ ∗ owes (T c) ((K (F := F)).Otc c n) W)

/-- The TensorCore owes nothing at the index of a kernel's own waits: every unit it owes is a start signal, at a call's index. -/
theorem Otc_none (c : Dev nD) (n : ℕ) (g : GSem nD τ sig) : (K (F := F)).Otc c n g none = 0 := by
  by_contra h
  have := (K (F := F)).lev_of_Otc_pos (Nat.pos_of_ne_zero h)
  rw [SparseCore.Cfg.lev_none] at this; omega

set_option backward.isDefEq.respectTransparency.types false in
/-- The first pipeline's region over the thread state: entered from every unscoped buffer at its entry contents,
    left at its exit contents. Its arrays are split out of the unscoped buffers and put back at the exit contents; the
    generator register goes into the invariant and comes out; what the TensorCore owes the SparseCores rides through
    unchanged, every pair the pipeline's waits record at level zero; no semaphore of the kernel's own. -/
def reg0 : Pipeline.RegionSeg (pcfgs (F := F)) adm (pdats m G3) none defs₀ 𝒱₀ (LL (F := F)) (lvl (F := F)) 0 where
  win := launch0.win.to₀
  block_pos := launch0.block_pos
  stage_whole := launch0.stage_whole
  K := PEmpty
  osem k := k.elim
  ho := Pipeline.OwnSemFacts.none _
  hbody c := body_obligation0_loose (V1 m) (Oq (F := F) c 0) (Bq (F := F) c 0) none c
  hwaits c := Pipeline.cellsWaits_intro _ _ _ 0 c fun w s t =>
    (K (F := F)).mayWait_none _ (O := Oq (F := F) c 0) (fun g => Otc_none c 0 g)
  pre c := iprop(held (c : Thread nD τ) (Pipeline.ucRefs τ sig) (W1 m c) ∗ Rr (F := F) c 0)
  post c := iprop(held (c : Thread nD τ) (Pipeline.ucRefs τ sig) (W2 m c) ∗ Rr (F := F) c 0)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m G3) launch0.win launch0.arr_whole c
      ((pdats m G3 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m G3 0 c).Φ 0 = ΦG spec0 c from rfl]; unfold ΦG
    iintro ⟨Hp, -, Hr⟩
    isplitl [Hr]; · iexact Hr
    iexact Hp
  hout c := by
    rw [Pipeline.ownSems0_none, show (pdats m G3 0 c).Φ (Fin.last _) = ΦG spec0 c from rfl]; unfold ΦG
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m G3) ((pdats m G3 0 c).share_full fun _ => rfl)
      (V1 m c) (V2 m c) ((pdats m G3 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

set_option backward.isDefEq.respectTransparency.types false in
/-- The second pipeline's region over the thread state: entered from every unscoped buffer at its entry contents,
    left at its exit contents. Its arrays are split out of the unscoped buffers and put back at the exit contents; the
    generator register goes into the invariant and comes out; what the TensorCore owes the SparseCores rides through
    unchanged, every pair the pipeline's waits record at level zero; no semaphore of the kernel's own. -/
def reg2 : Pipeline.RegionSeg (pcfgs (F := F)) adm (pdats m G3) none defs₀ 𝒱₀ (LL (F := F)) (lvl (F := F)) 1 where
  win := launch2.win.to₀
  block_pos := launch2.block_pos
  stage_whole := launch2.stage_whole
  K := PEmpty
  osem k := k.elim
  ho := Pipeline.OwnSemFacts.none _
  hbody c := body_obligation2_loose (V5 m G3) (Oq (F := F) c 1) (Bq (F := F) c 1) none c
  hwaits c := Pipeline.cellsWaits_intro _ _ _ 1 c fun w s t =>
    (K (F := F)).mayWait_none _ (O := Oq (F := F) c 1) (fun g => Otc_none c 1 g)
  pre c := iprop(held (c : Thread nD τ) (Pipeline.ucRefs τ sig) (W5 m G3 c) ∗ Rr (F := F) c 1)
  post c := iprop(held (c : Thread nD τ) (Pipeline.ucRefs τ sig) (W6 m G3 c) ∗ Rr (F := F) c 1)
  X c := iprop(∃ r, prngReg c r)
  Y c := iprop(∃ r, prngReg c r)
  Z c := Pipeline.unscopedRest (Ix := HIx 1) (Name := ℕ) (U := UU) (Lvl := ℕ) spec2 c (V5 m G3 c)
  hentry c := by
    rw [Pipeline.ownSems0_none]
    have hsplit := Pipeline.arrays_of_unscopedBufs (p := 1) (pcfgs (F := F)) adm (pdats m G3) launch2.win launch2.arr_whole c
      ((pdats m G3 1 c).share_full fun _ => rfl) (V5 m G3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m G3 1 c).Φ 0 = ΦG spec2 c from rfl]; unfold ΦG
    iintro ⟨Hp, -, Hr⟩
    isplitl [Hr]; · iexact Hr
    iexact Hp
  hout c := by
    rw [Pipeline.ownSems0_none, show (pdats m G3 1 c).Φ (Fin.last _) = ΦG spec2 c from rfl]; unfold ΦG
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m G3) ((pdats m G3 1 c).share_full fun _ => rfl)
      (V5 m G3 c) (V6 m G3 c) ((pdats m G3 1 c).arrAt · cfg2.N) (hF2 m G3 c) (hrest2 m G3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

end Cert.KernelIdeal.Sc

end
-- ==== Proof.ScMain3.lean ====
/-
  @main on the TensorCore, the steps: the pipelines' ghost state the launch hands @main, each region's step inside the
  SparseCore program's body table, the host operations' buffers among the unscoped ones, and the handshake state with
  what the TensorCore owes taken apart.
-/
import proofs.«208327_g62569083568895_cont_9to1c4b_407_46_alg».proof.Proof.ScMain2

set_option maxRecDepth 16384

noncomputable section

namespace Cert.KernelIdeal.Sc

open Cert.KernelIdeal Cert.KernelIdeal.Gen Cert.KernelIdeal.Body

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.Pipeline (Dat Cfg Window BodyObligation BodyObligationLoose)

variable {F : FTy → Type} [FloatOps F]

local notation "𝕄" => MT nD τ sig (HIx 1) (Elt F) ℕ UU ℕ

variable [∀ e, Nonempty (Elt F e)]
variable (m : (ℓ : Loc nD τ sig) → Buf (Elt F) ℓ) (G3 : (d : Dev nD) → Buf (Elt F) (outLoc d))

/-! ## The pipelines' ghost state -/

/-- What the launch element leaves @main on device `d`: both pipelines' staging cells' rounds state and duty tokens. -/
def Gtc (d : Dev nD) : sProp 𝕄 :=
  bigSep Finset.univ fun p : Fin 2 => iprop(Pipeline.cellsGhost (Pipeline.pin (pcfgs (F := F)) adm) EP p d ∗ Pipeline.toksInit (Pipeline.pin (pcfgs (F := F)) adm) EP p d)

omit [FloatOps F] [∀ e, Nonempty (Elt F e)] in
theorem Gtc_split (d : Dev nD) :
    (Gtc (F := F) d : sProp 𝕄) = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)) := by
  unfold Gtc
  rw [show (Finset.univ : Finset (Fin 2)) = {0, 1} by decide, SparseCore.bigSep_insert' (by decide), bigSep_singleton]

/-! ## A region's step inside the SparseCore program -/

omit [∀ e, Nonempty (Elt F e)] in
/-- A pipeline's call as @main spells it is the call under the pipelines' labels, carried into the SparseCore
    program's labels. -/
theorem lift_entry (p : Fin 2) :
    (Prog.lift (.customCall (SparseCore.inner (Pipeline.entry p)) ()) : Prog (TpuEff nD τ sig (Elt F) (SparseCore.Sig (ΛP (F := F)) 1) .tc) PUnit)
      = SparseCore.liftProg (Prog.lift (.customCall (Pipeline.entry p) ())) := rfl

omit [∀ e, Nonempty (Elt F e)] in
theorem wp_lift (d : Dev nD) (p : Fin 2) (Φ : PUnit → sProp 𝕄) :
    wp frame (wpE (D (F := F)) 𝒱 (T d) none) Set.univ (Prog.lift (.customCall (Pipeline.entry p) ())) Φ
      ⊢ wp frame (wpE ((K (F := F)).defs (D (F := F))) 𝒱 (T d) none) Set.univ
          (Prog.lift (.customCall (SparseCore.inner (Pipeline.entry p)) ())) Φ := by
  rw [lift_entry]
  exact (K (F := F)).wp_liftProg (D (F := F)) 𝒱 (T d) Set.univ none _ Φ

set_option backward.isDefEq.respectTransparency.types false in
/-- The first pipeline's call under the pipelines' body table: from the boundary, the region's entry state, the level
    facts and the pipeline's ghost state, to the boundary and the region's exit state. -/
theorem wp_reg0_in (d : Dev nD) (Φ : PUnit → sProp 𝕄) :
    iprop((iprop(boundary (T d) ∗ (reg0 m G3).post d) -∗ wp frame (wpE (D (F := F)) 𝒱 (T d) none) Set.univ (.ret ⟨⟩) Φ)
        ∗ boundary (T d) ∗ (reg0 m G3).pre d ∗ levAts (LL (F := F)) (lvl (F := F))
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ (Prog.lift (.customCall (Pipeline.entry 0) ())) Φ :=
  Pipeline.RegionSeg.wp (pcfgs (F := F)) adm (pdats m G3) none cellOf_inj EP defs₀ 𝒱₀ LL lvl (reg0 m G3) d none
    (by intro u hu; cases hu) (fun a => .ret a) Φ

/-- The same call as @main spells it, inside the SparseCore program's body table. -/
theorem wp_reg0 (d : Dev nD) (Φ : PUnit → sProp 𝕄) :
    iprop((iprop(boundary (T d) ∗ held (T d) (Pipeline.ucRefs τ sig) (W2 m d) ∗ Rr (F := F) d 0) -∗ Φ ⟨⟩)
        ∗ boundary (T d) ∗ (held (T d) (Pipeline.ucRefs τ sig) (W1 m d) ∗ Rr (F := F) d 0) ∗ levAts (LL (F := F)) (lvl (F := F))
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Φ := by
  refine .trans ?_ (wp_lift d 0 Φ)
  refine .trans ?_ (wp_reg0_in m (fun c => W3 m c (Proc.devRef .tc main_v3)) d Φ)
  rw [show (reg0 m (fun c => W3 m c (Proc.devRef .tc main_v3))).pre d = iprop(held (T d) (Pipeline.ucRefs τ sig) (W1 m d) ∗ Rr (F := F) d 0) from rfl,
    show (reg0 m (fun c => W3 m c (Proc.devRef .tc main_v3))).post d = iprop(held (T d) (Pipeline.ucRefs τ sig) (W2 m d) ∗ Rr (F := F) d 0) from rfl]
  iintro ⟨Hk, Hb, Hpre, Hlev, Hg, Ht⟩
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht

set_option backward.isDefEq.respectTransparency.types false in
/-- The second pipeline's call under the pipelines' body table: from the boundary, the region's entry state, the level
    facts and the pipeline's ghost state, to the boundary and the region's exit state. -/
theorem wp_reg2_in (d : Dev nD) (Φ : PUnit → sProp 𝕄) :
    iprop((iprop(boundary (T d) ∗ (reg2 m G3).post d) -∗ wp frame (wpE (D (F := F)) 𝒱 (T d) none) Set.univ (.ret ⟨⟩) Φ)
        ∗ boundary (T d) ∗ (reg2 m G3).pre d ∗ levAts (LL (F := F)) (lvl (F := F))
        ∗ Pipeline.cellsGhost (Pipeline.pin (pcfgs (F := F)) adm) EP 1 d ∗ Pipeline.toksInit (Pipeline.pin (pcfgs (F := F)) adm) EP 1 d)
      ⊢ wp frame (wpE (D (F := F)) 𝒱 (T d) none) Set.univ (Prog.lift (.customCall (Pipeline.entry 1) ())) Φ :=
  Pipeline.RegionSeg.wp (pcfgs (F := F)) adm (pdats m G3) none cellOf_inj EP defs₀ 𝒱₀ LL lvl (reg2 m G3) d none
    (by intro u hu; cases hu) (fun a => .ret a) Φ

/-- The same call as @main spells it, inside the SparseCore program's body table. -/
theorem wp_reg2 (d : Dev nD) (Φ : PUnit → sProp 𝕄) :
    iprop((iprop(boundary (T d) ∗ held (T d) (Pipeline.ucRefs τ sig) (W6 m G3 d) ∗ Rr (F := F) d 1) -∗ Φ ⟨⟩)
        ∗ boundary (T d) ∗ (held (T d) (Pipeline.ucRefs τ sig) (W5 m G3 d) ∗ Rr (F := F) d 1) ∗ levAts (LL (F := F)) (lvl (F := F))
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Φ := by
  refine .trans ?_ (wp_lift d 1 Φ)
  refine .trans ?_ (wp_reg2_in m G3 d Φ)
  rw [show (reg2 m G3).pre d = iprop(held (T d) (Pipeline.ucRefs τ sig) (W5 m G3 d) ∗ Rr (F := F) d 1) from rfl,
    show (reg2 m G3).post d = iprop(held (T d) (Pipeline.ucRefs τ sig) (W6 m G3 d) ∗ Rr (F := F) d 1) from rfl]
  iintro ⟨Hk, Hb, Hpre, Hlev, Hg, Ht⟩
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht

/-! ## The host operations' buffers are unscoped buffers of the TensorCore -/

theorem hsub0 : (op0 (F := F)).bufs ⊆ Pipeline.ucRefs τ sig := Pipeline.sub_ucRefs _ (StableHlo.unary_bufs_sub ..)
theorem hsub2 : (op2 (F := F)).bufs ⊆ Pipeline.ucRefs τ sig := Pipeline.sub_ucRefs _ (StableHlo.reshape_bufs_sub ..)
theorem hsub4 : (op4 (F := F)).bufs ⊆ Pipeline.ucRefs τ sig := Pipeline.sub_ucRefs _ (StableHlo.reshape_bufs_sub ..)
theorem hsub5 : (op5 (F := F)).bufs ⊆ Pipeline.ucRefs τ sig := Pipeline.sub_ucRefs _ (StableHlo.reshape_bufs_sub ..)
theorem hsub6 : (op6 (F := F)).bufs ⊆ Pipeline.ucRefs τ sig := Pipeline.sub_ucRefs _ (StableHlo.reshape_bufs_sub ..)
theorem hsub7 : (op7 (F := F)).bufs ⊆ Pipeline.ucRefs τ sig := Pipeline.sub_ucRefs _ (StableHlo.unary_bufs_sub ..)
theorem hsub8 : (op8 (F := F)).bufs ⊆ Pipeline.ucRefs τ sig := Pipeline.sub_ucRefs _ (StableHlo.reshape_bufs_sub ..)
theorem hsub9 : (op9 (F := F)).bufs ⊆ Pipeline.ucRefs τ sig := Pipeline.sub_ucRefs _ (StableHlo.reshape_bufs_sub ..)
theorem hsub10 : (op10 (F := F)).bufs ⊆ Pipeline.ucRefs τ sig := Pipeline.sub_ucRefs _ (StableHlo.reshape_bufs_sub ..)
theorem hsub11 : (op11 (F := F)).bufs ⊆ Pipeline.ucRefs τ sig := Pipeline.sub_ucRefs _ (StableHlo.reshape_bufs_sub ..)
theorem hsub12 : (op12 (F := F)).bufs ⊆ Pipeline.ucRefs τ sig := Pipeline.sub_ucRefs _ (StableHlo.reshape_bufs_sub ..)
theorem hsub13 : (op13 (F := F)).bufs ⊆ Pipeline.ucRefs τ sig := Pipeline.sub_ucRefs _ (StableHlo.reshape_bufs_sub ..)
theorem hsub14 : (op14 (F := F)).bufs ⊆ Pipeline.ucRefs τ sig := Pipeline.sub_ucRefs _ (StableHlo.reshape_bufs_sub ..)
theorem hsub15 : (op15 (F := F)).bufs ⊆ Pipeline.ucRefs τ sig := Pipeline.sub_ucRefs _ (StableHlo.reshape_bufs_sub ..)
theorem hsub16 : (op16 (F := F)).bufs ⊆ Pipeline.ucRefs τ sig := Pipeline.sub_ucRefs _ (StableHlo.reshape_bufs_sub ..)
theorem hsub18 : (op18 (F := F)).bufs ⊆ Pipeline.ucRefs τ sig := Pipeline.sub_ucRefs _ (StableHlo.reshape_bufs_sub ..)

/-! ## The handshake state, what the TensorCore owes apart -/

/-- What the TensorCore owes before call `n`, its recorded pairs bounded. -/
abbrev Ow (d : Dev nD) (n : ℕ) : sProp 𝕄 :=
  iprop(∃ W, ⌜(K (F := F)).WBelow (T d) W (8 * n)⌝ ∗ owes (T d) ((K (F := F)).Otc d n) W)

end Cert.KernelIdeal.Sc

end
-- ==== Proof.ScGout.lean ====
/-
  What the result array must hold once the SparseCore call has ended: row `R` of its 131072 is the table's row that
  word `R` of the index list, read as 1024 × 128, names.
-/
import proofs.«208327_g62569083568895_cont_9to1c4b_407_46_alg».proof.Proof.ScPay
import Idealize.ShloMosaic.Lib.ValueIdx

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Row `R` of the result is the table's row named by word `R` of the reshaped index list (the remainder modulo the
    table's 8192 rows only makes the statement total). -/
def GoutOK (Tab : (d : Dev nD) → Buf (Elt F) (tabLoc d)) (Idx : (d : Dev nD) → Buf (Elt F) (idxLoc d)) (d : Dev nD) (g : Buf (Elt F) (outLoc d)) : Prop :=
  ∀ (R : Fin 131072) (j : Fin 128), g (ValueIdx.ix2 R j) = Tab d (ValueIdx.ix2 (⟨(Idx d (ValueIdx.ix2 (⟨R.val / 128, by omega⟩ : Fin 1024) (⟨R.val % 128, Nat.mod_lt _ (by decide)⟩ : Fin 128)) : BitVec 32).toNat % 8192, Nat.mod_lt _ (by decide)⟩ : Fin 8192) j)

end Cert.KernelIdeal.Sc

end
-- ==== Proof.ScDeal.lean ====
/-
  The SparseCore call's operands between the TensorCore and the SparseCores: what it means that the three arrays the
  TensorCore holds whole split into what each SparseCore of the grid is handed and join back.
-/
import proofs.«208327_g62569083568895_cont_9to1c4b_407_46_alg».proof.Proof.ScPay
import proofs.«208327_g62569083568895_cont_9to1c4b_407_46_alg».proof.Proof.ScGout

set_option maxRecDepth 16384

noncomputable section

namespace Cert.KernelIdeal.Sc

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.Pipeline (Dat Cfg Window BodyObligation BodyObligationLoose)

variable {F : FTy → Type} [FloatOps F]

local notation "𝕄" => MT nD τ sig (HIx 1) (Elt F) ℕ UU ℕ

/-- The SparseCore call's operands, held whole by the TensorCore, dealt to the SparseCores of the call's grid and
    gathered back: the table's full share is a remainder and one read share per SparseCore; the index list is the
    subcores' chunks; the result array, at any contents, is the subcores' blocks, which come back at the gathered rows
    and join to the array at contents that are the table's rows the index list names. -/
structure ScDeal (Tab : (d : Dev nD) → Buf (Elt F) (tabLoc d)) (Idx : (d : Dev nD) → Buf (Elt F) (idxLoc d)) (d : Dev nD) : Prop where
  split : ∀ f : Buf (Elt F) (outLoc d),
    iprop((tabLoc d ↦{fullShare} Tab d) ∗ (idxLoc d ↦{fullShare} Idx d) ∗ (outLoc d ↦{fullShare} f))
      ⊢ (iprop((tabLoc d ↦{Transfers.shareDrop fullShare 2} Tab d)
          ∗ bigSep Finset.univ fun c : Fin ((K (F := F)).nCore 0) => (P Tab Idx).st 0 d c) : sProp 𝕄)
  join :
    iprop((tabLoc d ↦{Transfers.shareDrop fullShare 2} Tab d)
        ∗ bigSep Finset.univ fun c : Fin ((K (F := F)).nCore 0) => (P Tab Idx).dn 0 d c)
      ⊢ (iprop((tabLoc d ↦{fullShare} Tab d) ∗ (idxLoc d ↦{fullShare} Idx d)
          ∗ ∃ g : Buf (Elt F) (outLoc d), (outLoc d ↦{fullShare} g) ∗ ⌜GoutOK Tab Idx d g⌝) : sProp 𝕄)

end Cert.KernelIdeal.Sc

end
-- ==== Proof.ScMain4.lean ====
/-
  @main on the TensorCore inside the SparseCore launch: from what the launch deals the TensorCore, its handshake state
  before the SparseCore call and the two pipelines' ghost state, @main runs — the mask's conversion, the first
  pipeline's region, the reshape of the gather indices, the SparseCore call (the table, the index list and the result
  array dealt to the SparseCores and gathered back), thirteen host operations, the second pipeline's region, the last
  reshape — to the handshake state after the call and every unscoped buffer at the final contents.
-/
import proofs.«208327_g62569083568895_cont_9to1c4b_407_46_alg».proof.Proof.ScMain3
import proofs.«208327_g62569083568895_cont_9to1c4b_407_46_alg».proof.Proof.ScDeal

set_option maxRecDepth 16384

noncomputable section

namespace Cert.KernelIdeal.Sc

open Cert.KernelIdeal Cert.KernelIdeal.Gen Cert.KernelIdeal.Body

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.Pipeline (Dat Cfg Window BodyObligation BodyObligationLoose)

variable {F : FTy → Type} [FloatOps F]

local notation "𝕄" => MT nD τ sig (HIx 1) (Elt F) ℕ UU ℕ

variable [∀ e, Nonempty (Elt F e)]
variable (m : (ℓ : Loc nD τ sig) → Buf (Elt F) ℓ) (ρ : Dev nD → PrngReg)

/-! ## The handshake state, what the TensorCore owes apart -/

/-- The TensorCore's handshake state before call `n` but for what it owes: its position on its `done` cell, the rounds
    reached, the later calls' start tokens and credit. -/
abbrev tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] [∀ e, Nonempty (Elt F e)] in
theorem tcSt_eq (d : Dev nD) (n : ℕ) : ((K (F := F)).tcSt EH d n : sProp 𝕄) = iprop(Ow (F := F) d n ∗ tcRest (F := F) d n) := rfl

/-! ## The SparseCore call's three arrays among the unscoped buffers -/

abbrev tab' : DevRef τ sig := Proc.devRef .tc (main_v1_0 : Ref sig .tc)
abbrev idx' : DevRef τ sig := Proc.devRef .tc (main_v2 : Ref sig .tc)
abbrev out' : DevRef τ sig := Proc.devRef .tc (main_v3 : Ref sig .tc)
/-- The table, the index list, the result array. -/
abbrev T3 : Finset (DevRef τ sig) := {tab', idx', out'}
theorem T3_sub : T3 ⊆ Pipeline.ucRefs τ sig := by decide

omit [FloatOps F] [∀ e, Nonempty (Elt F e)] in
theorem held_T3 (d : Dev nD) (W : Valuation τ sig (Elt F)) :
    (held (SparseCore.T d) T3 W : sProp 𝕄) = iprop((tabLoc d ↦{fullShare} W tab') ∗ (idxLoc d ↦{fullShare} W idx') ∗ (outLoc d ↦{fullShare} W out')) := by
  unfold held T3
  rw [SparseCore.bigSep_insert' (by decide), SparseCore.bigSep_insert' (by decide), bigSep_singleton]

/-- A device's result array as a family over the devices: the given contents on the device, what the array held elsewhere. -/
def G3of (d : Dev nD) (g : Buf (Elt F) (outLoc d)) : (c : Dev nD) → Buf (Elt F) (outLoc c) :=
  fun c => if h : c = d then h ▸ g else W3 m c out'
theorem G3of_self (d : Dev nD) (g : Buf (Elt F) (outLoc d)) : G3of m d g d = g := by
  unfold G3of; rw [dif_pos rfl]

/-- Every unscoped buffer before the call: the three arrays and the rest. -/
theorem held_W3 (d : Dev nD) :
    (held (SparseCore.T d) (Pipeline.ucRefs τ sig) (W3 m d) : sProp 𝕄)
      = iprop(((tabLoc d ↦{fullShare} TabOf m d) ∗ (idxLoc d ↦{fullShare} IdxOf m d) ∗ (outLoc d ↦{fullShare} W3 m d out'))
          ∗ held (SparseCore.T d) (Pipeline.ucRefs τ sig \ T3) (W3 m d)) := by
  rw [StableHlo.held_sub_split (SparseCore.T d) T3_sub (W3 m d), held_T3]; rfl

/-- and after it: the result array at the gathered rows, everything else as it was. -/
theorem held_W4 (G3 : (d : Dev nD) → Buf (Elt F) (outLoc d)) (d : Dev nD) :
    (held (SparseCore.T d) (Pipeline.ucRefs τ sig) (W4 m G3 d) : sProp 𝕄)
      = iprop(((tabLoc d ↦{fullShare} TabOf m d) ∗ (idxLoc d ↦{fullShare} IdxOf m d) ∗ (outLoc d ↦{fullShare} G3 d))
          ∗ held (SparseCore.T d) (Pipeline.ucRefs τ sig \ T3) (W3 m d)) := by
  rw [StableHlo.held_sub_split (SparseCore.T d) T3_sub (W4 m G3 d), held_T3]
  have h1 : W4 m G3 d tab' = TabOf m d := Function.update_of_ne (show tab' ≠ out' by decide) _ _
  have h2 : W4 m G3 d idx' = IdxOf m d := Function.update_of_ne (show idx' ≠ out' by decide) _ _
  have h3 : W4 m G3 d out' = G3 d := Function.update_self _ _ _
  rw [h1, h2, h3, StableHlo.held_congr (SparseCore.T d) (S := Pipeline.ucRefs τ sig \ T3) (V := W4 m G3 d) (V' := W3 m d) fun b hb =>
    Function.update_of_ne (fun e => (Finset.mem_sdiff.mp hb).2 (by rw [e]; decide)) _ _]

/-- What the launch deals the TensorCore of its arrays: every unscoped buffer at the launch contents. -/
theorem unscoped_held0 (d : Dev nD) :
    (unscopedBufs d (fun b => m ((SparseCore.T d).loc b)) : sProp 𝕄) = held (SparseCore.T d) (Pipeline.ucRefs τ sig) (W0 m d) :=
  Pipeline.unscopedBufs_held (Ix := HIx 1) (Name := ℕ) (U := UU) (Lvl := ℕ) d (W0 m d)

/-! ## What @main leaves -/

/-- Every unscoped buffer of the TensorCore at the final contents, over a result of the SparseCore call that holds the
    table's rows the index list names. -/
def FIN (d : Dev nD) : sProp 𝕄 :=
  iprop(∃ g : Buf (Elt F) (outLoc d), ⌜GoutOK (TabOf m) (IdxOf m) d g⌝
    ∗ held (SparseCore.T d) (Pipeline.ucRefs τ sig) (W7 m (G3of m d g) d))

/-! ## @main -/

set_option maxHeartbeats 8000000 in
/-- @main on device `d`'s TensorCore. -/
theorem hmain (κ : GSem nD τ sig → ℕ) (d : Dev nD) (hdeal : ScDeal (TabOf m) (IdxOf m) d) :
    iprop((K (F := F)).ctx EH (P (TabOf m) (IdxOf m)) κ ∗ (K (F := F)).tcSt EH d 0 ∗ (K (F := F)).tcRes m ρ d ∗ Gtc (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [Gtc_split, unscoped_held0]
  simp only [main, wp_bind, wp_pure]
  iintro ⟨#Hctx, Hst, ⟨Hb, Hheld, -, Hprng⟩, ⟨Hg0, Ht0⟩, ⟨Hg1, Ht1⟩⟩
  ihave #Hlev := (SparseCore.Cfg.ctx_levAts κ) $$ Hctx
  ihave Hst' := (Entails.of_eq (tcSt_eq d 0)) $$ Hst
  icases Hst' with ⟨HOw, Hrest⟩
  -- the mask's conversion
  iapply (wp_hlo_within 𝒱 (SparseCore.T d) none Set.univ (op := op0) (S := Pipeline.ucRefs τ sig) hsub0 (V := W0 m d)) $$ [Hb Hheld]
  · isplitl [Hb] <;> iassumption
  iintro ⟨Hb, Hheld⟩
  rw [wp_ret]; imodintro
  -- the first pipeline
  iapply (wp_reg0 m d _)
  isplitr [Hb Hheld Hprng HOw Hg0 Ht0]
  swap
  · isplitl [Hb]; · iexact Hb
    isplitl [Hheld Hprng HOw]
    · isplitl [Hheld]; · iexact Hheld
      isplitl [Hprng]; · iexists _; iexact Hprng
      iexact HOw
    isplitr; · iexact Hlev
    isplitl [Hg0]; · iexact Hg0
    iexact Ht0
  iintro ⟨Hb, Hheld, ⟨%r0, Hprng⟩, HOw⟩
  -- the reshape of the gather indices
  iapply (wp_hlo_within 𝒱 (SparseCore.T d) none Set.univ (op := op2) (S := Pipeline.ucRefs τ sig) hsub2 (V := W2 m d)) $$ [Hb Hheld]
  · isplitl [Hb] <;> iassumption
  iintro ⟨Hb, Hheld⟩
  rw [wp_ret]; imodintro
  -- the SparseCore call: the three arrays to the SparseCores and back
  ihave Hh := (Entails.of_eq (held_W3 m d)) $$ Hheld
  icases Hh with ⟨H3, Hhrest⟩
  ihave Hsp := (hdeal.split _) $$ H3
  icases Hsp with ⟨Hdrop, Hstc⟩
  ihave Hst := (Entails.of_eq (tcSt_eq (F := F) d 0).symm) $$ [HOw Hrest]
  · isplitl [HOw] <;> iassumption
  iapply ((K (F := F)).wp_run (D (F := F)) 𝒱 (EH := EH) (P := P (TabOf m) (IdxOf m)) κ d 0)
  rw [show ((0 : Fin 1).val + 1) = 1 from rfl]
  isplitr; · iexact Hctx
  isplitl [Hst]; · iexact Hst
  isplitl [Hstc]; · iexact Hstc
  iintro ⟨Hst, Hdn⟩
  ihave Hj := hdeal.join $$ [Hdrop Hdn]
  · isplitl [Hdrop] <;> iassumption
  icases Hj with ⟨Htab, Hidx, ⟨%g, Hout, %hg⟩⟩
  ihave Hheld := (Entails.of_eq (held_W4 m (G3of m d g) d).symm) $$ [Htab Hidx Hout Hhrest]
  · isplitr [Hhrest]; swap; · iexact Hhrest
    isplitl [Htab]; · iexact Htab
    isplitl [Hidx]; · iexact Hidx
    rw [G3of_self]; iexact Hout
  ihave Hst' := (Entails.of_eq (tcSt_eq d 1)) $$ Hst
  icases Hst' with ⟨HOw, Hrest⟩
  -- the thirteen host operations
  iapply (wp_hlo_within 𝒱 (SparseCore.T d) none Set.univ (op := op4) (S := Pipeline.ucRefs τ sig) hsub4 (V := W4 m (G3of m d g) d)) $$ [Hb Hheld]
  · isplitl [Hb] <;> iassumption
  iintro ⟨Hb, Hheld⟩
  rw [wp_ret]; imodintro
  iapply (wp_hlo_within 𝒱 (SparseCore.T d) none Set.univ (op := op5) (S := Pipeline.ucRefs τ sig) hsub5 (V := (op4 (F := F)).result (W4 m (G3of m d g) d))) $$ [Hb Hheld]
  · isplitl [Hb] <;> iassumption
  iintro ⟨Hb, Hheld⟩
  rw [wp_ret]; imodintro
  iapply (wp_hlo_within 𝒱 (SparseCore.T d) none Set.univ (op := op6) (S := Pipeline.ucRefs τ sig) hsub6 (V := (op5 (F := F)).result ((op4 (F := F)).result (W4 m (G3of m d g) d)))) $$ [Hb Hheld]
  · isplitl [Hb] <;> iassumption
  iintro ⟨Hb, Hheld⟩
  rw [wp_ret]; imodintro
  iapply (wp_hlo_within 𝒱 (SparseCore.T d) none Set.univ (op := op7) (S := Pipeline.ucRefs τ sig) hsub7 (V := (op6 (F := F)).result ((op5 (F := F)).result ((op4 (F := F)).result (W4 m (G3of m d g) d))))) $$ [Hb Hheld]
  · isplitl [Hb] <;> iassumption
  iintro ⟨Hb, Hheld⟩
  rw [wp_ret]; imodintro
  iapply (wp_hlo_within 𝒱 (SparseCore.T d) none Set.univ (op := op8) (S := Pipeline.ucRefs τ sig) hsub8 (V := (op7 (F := F)).result ((op6 (F := F)).result ((op5 (F := F)).result ((op4 (F := F)).result (W4 m (G3of m d g) d)))))) $$ [Hb Hheld]
  · isplitl [Hb] <;> iassumption
  iintro ⟨Hb, Hheld⟩
  rw [wp_ret]; imodintro
  iapply (wp_hlo_within 𝒱 (SparseCore.T d) none Set.univ (op := op9) (S := Pipeline.ucRefs τ sig) hsub9 (V := (op8 (F := F)).result ((op7 (F := F)).result ((op6 (F := F)).result ((op5 (F := F)).result ((op4 (F := F)).result (W4 m (G3of m d g) d))))))) $$ [Hb Hheld]
  · isplitl [Hb] <;> iassumption
  iintro ⟨Hb, Hheld⟩
  rw [wp_ret]; imodintro
  iapply (wp_hlo_within 𝒱 (SparseCore.T d) none Set.univ (op := op10) (S := Pipeline.ucRefs τ sig) hsub10 (V := (op9 (F := F)).result ((op8 (F := F)).result ((op7 (F := F)).result ((op6 (F := F)).result ((op5 (F := F)).result ((op4 (F := F)).result (W4 m (G3of m d g) d)))))))) $$ [Hb Hheld]
  · isplitl [Hb] <;> iassumption
  iintro ⟨Hb, Hheld⟩
  rw [wp_ret]; imodintro
  iapply (wp_hlo_within 𝒱 (SparseCore.T d) none Set.univ (op := op11) (S := Pipeline.ucRefs τ sig) hsub11 (V := (op10 (F := F)).result ((op9 (F := F)).result ((op8 (F := F)).result ((op7 (F := F)).result ((op6 (F := F)).result ((op5 (F := F)).result ((op4 (F := F)).result (W4 m (G3of m d g) d))))))))) $$ [Hb Hheld]
  · isplitl [Hb] <;> iassumption
  iintro ⟨Hb, Hheld⟩
  rw [wp_ret]; imodintro
  iapply (wp_hlo_within 𝒱 (SparseCore.T d) none Set.univ (op := op12) (S := Pipeline.ucRefs τ sig) hsub12 (V := (op11 (F := F)).result ((op10 (F := F)).result ((op9 (F := F)).result ((op8 (F := F)).result ((op7 (F := F)).result ((op6 (F := F)).result ((op5 (F := F)).result ((op4 (F := F)).result (W4 m (G3of m d g) d)))))))))) $$ [Hb Hheld]
  · isplitl [Hb] <;> iassumption
  iintro ⟨Hb, Hheld⟩
  rw [wp_ret]; imodintro
  iapply (wp_hlo_within 𝒱 (SparseCore.T d) none Set.univ (op := op13) (S := Pipeline.ucRefs τ sig) hsub13 (V := (op12 (F := F)).result ((op11 (F := F)).result ((op10 (F := F)).result ((op9 (F := F)).result ((op8 (F := F)).result ((op7 (F := F)).result ((op6 (F := F)).result ((op5 (F := F)).result ((op4 (F := F)).result (W4 m (G3of m d g) d))))))))))) $$ [Hb Hheld]
  · isplitl [Hb] <;> iassumption
  iintro ⟨Hb, Hheld⟩
  rw [wp_ret]; imodintro
  iapply (wp_hlo_within 𝒱 (SparseCore.T d) none Set.univ (op := op14) (S := Pipeline.ucRefs τ sig) hsub14 (V := (op13 (F := F)).result ((op12 (F := F)).result ((op11 (F := F)).result ((op10 (F := F)).result ((op9 (F := F)).result ((op8 (F := F)).result ((op7 (F := F)).result ((op6 (F := F)).result ((op5 (F := F)).result ((op4 (F := F)).result (W4 m (G3of m d g) d)))))))))))) $$ [Hb Hheld]
  · isplitl [Hb] <;> iassumption
  iintro ⟨Hb, Hheld⟩
  rw [wp_ret]; imodintro
  iapply (wp_hlo_within 𝒱 (SparseCore.T d) none Set.univ (op := op15) (S := Pipeline.ucRefs τ sig) hsub15 (V := (op14 (F := F)).result ((op13 (F := F)).result ((op12 (F := F)).result ((op11 (F := F)).result ((op10 (F := F)).result ((op9 (F := F)).result ((op8 (F := F)).result ((op7 (F := F)).result ((op6 (F := F)).result ((op5 (F := F)).result ((op4 (F := F)).result (W4 m (G3of m d g) d))))))))))))) $$ [Hb Hheld]
  · isplitl [Hb] <;> iassumption
  iintro ⟨Hb, Hheld⟩
  rw [wp_ret]; imodintro
  iapply (wp_hlo_within 𝒱 (SparseCore.T d) none Set.univ (op := op16) (S := Pipeline.ucRefs τ sig) hsub16 (V := (op15 (F := F)).result ((op14 (F := F)).result ((op13 (F := F)).result ((op12 (F := F)).result ((op11 (F := F)).result ((op10 (F := F)).result ((op9 (F := F)).result ((op8 (F := F)).result ((op7 (F := F)).result ((op6 (F := F)).result ((op5 (F := F)).result ((op4 (F := F)).result (W4 m (G3of m d g) d)))))))))))))) $$ [Hb Hheld]
  · isplitl [Hb] <;> iassumption
  iintro ⟨Hb, Hheld⟩
  rw [wp_ret]; imodintro
  -- the second pipeline
  iapply (wp_reg2 m (G3of m d g) d _)
  isplitr [Hb Hheld Hprng HOw Hg1 Ht1]
  swap
  · isplitl [Hb]; · iexact Hb
    isplitl [Hheld Hprng HOw]
    · isplitl [Hheld]; · iexact Hheld
      isplitl [Hprng]; · iexists _; iexact Hprng
      iexact HOw
    isplitr; · iexact Hlev
    isplitl [Hg1]; · iexact Hg1
    iexact Ht1
  iintro ⟨Hb, Hheld, ⟨%r1, Hprng⟩, HOw⟩
  -- the last reshape
  iapply (wp_hlo_within 𝒱 (SparseCore.T d) none Set.univ (op := op18) (S := Pipeline.ucRefs τ sig) hsub18 (V := W6 m (G3of m d g) d)) $$ [Hb Hheld]
  · isplitl [Hb] <;> iassumption
  iintro ⟨Hb, Hheld⟩
  rw [wp_ret]; imodintro
  imodintro
  isplitl [HOw Hrest]
  · iapply (Entails.of_eq (tcSt_eq (F := F) d 1).symm)
    isplitl [HOw] <;> iassumption
  unfold FIN
  iexists g
  isplitr; · ipureintro; exact hg
  iexact Hheld

end Cert.KernelIdeal.Sc

end
-- ==== Proof.ScGeom.lean ====
/-
  The index list and the result array as the subcores' pieces. Subcore `s` of SparseCore `c` holds rows
  `64 s + 32 c … + 32` of the index list's 1024 and, for each of its 32 rounds `k`, rows
  `8192 s + 4096 c + 128 k … + 128` of the result's 131072: the pieces are pairwise disjoint and cover the arrays.
-/
import proofs.«208327_g62569083568895_cont_9to1c4b_407_46_alg».proof.Proof.ScPay

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

namespace Geom

/-! ## The index list's chunks -/

theorem mem_idxChunk (L : grid1.Coords) (i : S1024x128.Idx) :
    i ∈ (idxChunk L).view.set ↔ 64 * (L 1).val + 32 * (L 0).val ≤ (i 0).val ∧ (i 0).val < 64 * (L 1).val + 32 * (L 0).val + 32 := by
  rw [show (idxChunk L).view.set = (Rect.unit (s := S1024x128) (k1_off1 L) S32x128.size (k1_off1_inb L)).set from View.set_slice_whole _ _,
    Rect.mem_set_unit, k1_off1_eq, Fin.forall_fin_two]
  have h1 : (i 1).val < 128 := (i 1).isLt
  show (64 * (L 1).val + 32 * (L 0).val ≤ (i 0).val ∧ (i 0).val < 64 * (L 1).val + 32 * (L 0).val + 32) ∧ (0 ≤ (i 1).val ∧ (i 1).val < 0 + 128) ↔ _
  exact ⟨fun h => h.1, fun h => ⟨h, Nat.zero_le _, by omega⟩⟩

theorem idxChunk_disjoint {c c' : Fin (grid1.bound 0)} {s s' : Fin (grid1.bound 1)} (h : (c, s) ≠ (c', s')) :
    Disjoint (idxChunk (coordsV c s)).view.set (idxChunk (coordsV c' s')).view.set := by
  rw [Finset.disjoint_left]
  intro i hi hi'
  rw [mem_idxChunk] at hi hi'
  have hc : c.val < 2 := c.isLt
  have hc' : c'.val < 2 := c'.isLt
  change 64 * s.val + 32 * c.val ≤ (i 0).val ∧ (i 0).val < 64 * s.val + 32 * c.val + 32 at hi
  change 64 * s'.val + 32 * c'.val ≤ (i 0).val ∧ (i 0).val < 64 * s'.val + 32 * c'.val + 32 at hi'
  exact h (Prod.ext (Fin.ext (show c.val = c'.val by omega)) (Fin.ext (show s.val = s'.val by omega)))

theorem idxChunk_cover (i : S1024x128.Idx) : ∃ (c : Fin (grid1.bound 0)) (s : Fin (grid1.bound 1)), i ∈ (idxChunk (coordsV c s)).view.set := by
  have h0 : (i 0).val < 1024 := (i 0).isLt
  refine ⟨⟨(i 0).val % 64 / 32, by show _ < 2; omega⟩, ⟨(i 0).val / 64, by show _ < 16; omega⟩, ?_⟩
  rw [mem_idxChunk]
  show 64 * ((i 0).val / 64) + 32 * ((i 0).val % 64 / 32) ≤ (i 0).val ∧ (i 0).val < 64 * ((i 0).val / 64) + 32 * ((i 0).val % 64 / 32) + 32
  omega

/-! ## The result's blocks -/

theorem mem_outBlk (L : grid1.Coords) (k : Fin k1_t1_loop.trips) (i : S131072x128.Idx) :
    i ∈ (outBlk L k).view.set ↔ 8192 * (L 1).val + 4096 * (L 0).val + 128 * k.val ≤ (i 0).val ∧ (i 0).val < 8192 * (L 1).val + 4096 * (L 0).val + 128 * k.val + 128 := by
  rw [show (outBlk L k).view.set = (Rect.unit (s := S131072x128) (k1_off8 L k) S128x128.size (k1_off8_inb L k)).set from View.set_slice_whole _ _,
    Rect.mem_set_unit, k1_off8_eq, Fin.forall_fin_two]
  have h1 : (i 1).val < 128 := (i 1).isLt
  show (8192 * (L 1).val + 4096 * (L 0).val + 128 * k.val ≤ (i 0).val ∧ (i 0).val < 8192 * (L 1).val + 4096 * (L 0).val + 128 * k.val + 128) ∧ (0 ≤ (i 1).val ∧ (i 1).val < 0 + 128) ↔ _
  exact ⟨fun h => h.1, fun h => ⟨h, Nat.zero_le _, by omega⟩⟩

theorem outBlk_disjoint {c c' : Fin (grid1.bound 0)} {s s' : Fin (grid1.bound 1)} {k k' : Fin k1_t1_loop.trips} (h : (c, s, k) ≠ (c', s', k')) :
    Disjoint (outBlk (coordsV c s) k).view.set (outBlk (coordsV c' s') k').view.set := by
  rw [Finset.disjoint_left]
  intro i hi hi'
  rw [mem_outBlk] at hi hi'
  have hc : c.val < 2 := c.isLt
  have hc' : c'.val < 2 := c'.isLt
  have hk : k.val < 32 := k.isLt
  have hk' : k'.val < 32 := k'.isLt
  change 8192 * s.val + 4096 * c.val + 128 * k.val ≤ (i 0).val ∧ (i 0).val < 8192 * s.val + 4096 * c.val + 128 * k.val + 128 at hi
  change 8192 * s'.val + 4096 * c'.val + 128 * k'.val ≤ (i 0).val ∧ (i 0).val < 8192 * s'.val + 4096 * c'.val + 128 * k'.val + 128 at hi'
  exact h (Prod.ext (Fin.ext (show c.val = c'.val by omega)) (Prod.ext (Fin.ext (show s.val = s'.val by omega)) (Fin.ext (show k.val = k'.val by omega))))

theorem outBlk_cover (i : S131072x128.Idx) :
    ∃ (c : Fin (grid1.bound 0)) (s : Fin (grid1.bound 1)) (k : Fin k1_t1_loop.trips), i ∈ (outBlk (coordsV c s) k).view.set := by
  have h0 : (i 0).val < 131072 := (i 0).isLt
  refine ⟨⟨(i 0).val % 8192 / 4096, by show _ < 2; omega⟩, ⟨(i 0).val / 8192, by show _ < 16; omega⟩, ⟨(i 0).val % 4096 / 128, by show _ < 32; omega⟩, ?_⟩
  rw [mem_outBlk]
  show 8192 * ((i 0).val / 8192) + 4096 * ((i 0).val % 8192 / 4096) + 128 * ((i 0).val % 4096 / 128) ≤ (i 0).val
    ∧ (i 0).val < 8192 * ((i 0).val / 8192) + 4096 * ((i 0).val % 8192 / 4096) + 128 * ((i 0).val % 4096 / 128) + 128
  omega

end Geom

end Cert.KernelIdeal.Sc

end
-- ==== Proof.ScGoutPf.lean ====
import proofs.«208327_g62569083568895_cont_9to1c4b_407_46_alg».proof.Proof.ScGout
import Idealize.ShloMosaic.Lib.ValueIdx

noncomputable section

namespace Cert.KernelIdeal.Sc

open Cert.KernelIdeal Cert.KernelIdeal.Gen

open Idealize.ShloMosaic Idealize.ShloMosaic.ValueIdx
open Idealize.ShloMosaic.SparseCore (S V T)
open Idealize.SL.Sem

variable {F : FTy → Type}

/-! The gather kernel's result as one array: every row of the result lies in exactly one block of one subcore, and
what that block holds at the row is the table's row that the matching word of the index list names. -/

namespace GoutPf

/-- Block `k` of subcore `(c, s)` read at `(ρ, j)` is the result array at row `8192 s + 4096 c + 128 k + ρ`. -/
theorem read_outBlk (d : Dev nD) (c : Fin (grid1.bound 0)) (s : Fin (grid1.bound 1)) (k : Fin k1_t1_loop.trips)
    (g : Buf (Elt F) (outLoc d)) (ρ j : Fin 128) (R : Fin 131072)
    (hR : R.val = 8192 * s.val + 4096 * c.val + 128 * k.val + ρ.val) :
    View.read (Elt F) (outBlk (coordsV c s) k).view g (ix2 ρ j) = g (ix2 R j) := by
  refine congrArg g (funext fun a => Fin.ext ?_)
  match a with
  | ⟨0, _⟩ =>
    show k1_off8 (coordsV c s) k 0 + 1 * ρ.val = R.val
    rw [k1_off8_eq]
    show (8192 * s.val + 4096 * c.val + 128 * k.val) + 1 * ρ.val = R.val
    omega
  | ⟨1, _⟩ =>
    show k1_off8 (coordsV c s) k 1 + 1 * j.val = j.val
    rw [k1_off8_eq]
    show 0 + 1 * j.val = j.val
    omega

/-- Word `ρ` of row `k` of subcore `(c, s)`'s rows of the index list is word `(64 s + 32 c + k, ρ)` of the list. -/
theorem read_chunkRow (d : Dev nD) (c : Fin (grid1.bound 0)) (s : Fin (grid1.bound 1)) (k : Fin k1_t1_loop.trips)
    (f : Buf (Elt F) (idxLoc d)) (ρ : Fin 128) (Q : Fin 1024) (hQ : Q.val = 64 * s.val + 32 * c.val + k.val) :
    View.read (Elt F) (chunkRow (coordsV c s) k).view f (ix1 ρ) = f (ix2 Q ρ) := by
  have e : Shape.reshapeEquiv (s := S1x128) (s' := S128) squeezes_S1x128_S128.numel_eq (ix1 ρ) = ix2 (0 : Fin 1) ρ :=
    Shape.reshapeEquiv_eq_of_rowMajor _ (by
      rw [Shape.rowMajor_val_two, Shape.rowMajor_val_one]
      show 0 * 128 + ρ.val = ρ.val
      omega)
  show f ((Memref.whole main_v2_scv : Memref sig .scVector .hbm S1024x128 .i32).view.emb
    ((Rect.unit (s := S1024x128) (k1_off1 (coordsV c s)) S32x128.size (k1_off1_inb _)).emb
      ((Rect.unit (s := S32x128) ![k.val, 0] S1x128.size (inb_chunkRow k)).emb
        (Shape.reshapeEquiv squeezes_S1x128_S128.numel_eq (ix1 ρ))))) = _
  rw [e]
  refine congrArg f (funext fun a => Fin.ext ?_)
  match a with
  | ⟨0, _⟩ =>
    show k1_off1 (coordsV c s) 0 + 1 * (k.val + 1 * 0) = Q.val
    rw [k1_off1_eq]
    show (64 * s.val + 32 * c.val) + 1 * (k.val + 1 * 0) = Q.val
    omega
  | ⟨1, _⟩ =>
    show k1_off1 (coordsV c s) 1 + 1 * (0 + 1 * ρ.val) = ρ.val
    rw [k1_off1_eq]
    show 0 + 1 * (0 + 1 * ρ.val) = ρ.val
    omega

/-- The row-major position `ρ` of a rank-1 shape is the index `ρ`. -/
theorem rowMajor_symm_ix1 (ρ : Fin 128) (h : S128.numel = 128) : S128.rowMajor.symm (ρ.cast h.symm) = ix1 ρ := by
  rw [Equiv.symm_apply_eq]
  apply Fin.ext
  rw [Shape.rowMajor_val_one]
  rfl

variable (Tab : (d : Dev nD) → Buf (Elt F) (tabLoc d)) (Idx : (d : Dev nD) → Buf (Elt F) (idxLoc d))

/-- What block `k` of subcore `(c, s)` must hold, at `(ρ, j)`: the table at the row that word `(64 s + 32 c + k, ρ)` of
    the index list names, column `j`. -/
theorem expBlk_apply (d : Dev nD) (c : Fin (grid1.bound 0)) (s : Fin (grid1.bound 1)) (k : Fin k1_t1_loop.trips)
    (hb : ∀ x, (View.read (Elt F) (chunkRow (coordsV c s) k).view (Idx d) x).toNat < S8192x128.size gathers_S8192x128_S128x128.axis)
    (ρ j : Fin 128) (Q : Fin 1024) (hQ : Q.val = 64 * s.val + 32 * c.val + k.val) (T : Fin 8192)
    (hT : T.val = (Idx d (ix2 Q ρ) : BitVec 32).toNat) :
    ExpBlk Tab Idx d (coordsV c s) k hb (ix2 ρ j) = Tab d (ix2 T j) := by
  unfold ExpBlk SparseCore.gatherPayload
  refine congrArg (Tab d) (funext fun a => Fin.ext ?_)
  match a with
  | ⟨0, _⟩ =>
    have e := Shape.Gathers.idx_axis gathers_S8192x128_S128x128
      (SparseCore.rows (View.read (Elt F) (chunkRow (coordsV c s) k).view (Idx d)) rfl hb) (ix2 ρ j)
    refine (congrArg Fin.val e).trans ?_
    show (View.read (Elt F) (chunkRow (coordsV c s) k).view (Idx d) (S128.rowMajor.symm (ρ.cast _))).toNat = T.val
    rw [rowMajor_symm_ix1 ρ rfl, read_chunkRow d c s k (Idx d) ρ Q hQ, hT]
  | ⟨1, _⟩ =>
    exact Shape.Gathers.idx_of_ne gathers_S8192x128_S128x128
      (SparseCore.rows (View.read (Elt F) (chunkRow (coordsV c s) k).view (Idx d)) rfl hb) (ix2 ρ j) ⟨1, by decide⟩ (by decide)

end GoutPf

open GoutPf

/-- The blocks' contents, subcore by subcore and block by block, give the whole result array row by row. -/
theorem gout_of_blocks (Tab : (d : Dev nD) → Buf (Elt F) (tabLoc d)) (Idx : (d : Dev nD) → Buf (Elt F) (idxLoc d)) (d : Dev nD)
    (g : Buf (Elt F) (outLoc d))
    (h : ∀ (c : Fin (grid1.bound 0)) (s : Fin (grid1.bound 1)) (k : Fin k1_t1_loop.trips) hb,
      View.read (Elt F) (outBlk (coordsV c s) k).view g = ExpBlk Tab Idx d (coordsV c s) k hb)
    (hIdx : ∀ x, ((Memref.whole main_v2_scv : Memref sig .scVector .hbm S1024x128 .i32).view.read (Elt F) (Idx d) x).toNat < 8192) :
    GoutOK Tab Idx d g := by
  intro R j
  have hRlt : R.val < 131072 := R.isLt
  have hb : ∀ (c : Fin (grid1.bound 0)) (s : Fin (grid1.bound 1)) (k : Fin k1_t1_loop.trips) x,
      (View.read (Elt F) (chunkRow (coordsV c s) k).view (Idx d) x).toNat < S8192x128.size gathers_S8192x128_S128x128.axis :=
    fun c s k x => hIdx _
  have hblk := congrFun (h ⟨(R.val / 4096) % 2, Nat.mod_lt _ (by decide)⟩ ⟨R.val / 8192, by show R.val / 8192 < 16; omega⟩
    ⟨(R.val / 128) % 32, Nat.mod_lt _ (by decide)⟩ (hb _ _ _)) (ix2 (⟨R.val % 128, Nat.mod_lt _ (by decide)⟩ : Fin 128) j)
  rw [read_outBlk d _ _ _ g _ j R (by show R.val = 8192 * (R.val / 8192) + 4096 * ((R.val / 4096) % 2) + 128 * ((R.val / 128) % 32) + R.val % 128; omega)] at hblk
  rw [hblk]
  have hw : (Idx d (ix2 (⟨R.val / 128, by omega⟩ : Fin 1024) (⟨R.val % 128, Nat.mod_lt _ (by decide)⟩ : Fin 128)) : BitVec 32).toNat < 8192 := hIdx _
  exact expBlk_apply Tab Idx d _ _ _ _ _ j ⟨R.val / 128, by omega⟩
    (by show R.val / 128 = 64 * (R.val / 8192) + 32 * ((R.val / 4096) % 2) + (R.val / 128) % 32; omega) _
    (by show _ % 8192 = _; exact Nat.mod_eq_of_lt hw)

end Cert.KernelIdeal.Sc

end
-- ==== Proof.ScDealCore.lean ====
/-
  The SparseCore call's operands between the TensorCore and the SparseCores. The table's full share is a remainder and
  one read share per SparseCore. The index list is the subcores' chunks, which are pairwise disjoint and cover it. The
  result array is the subcores' blocks, likewise; the blocks come back each at contents of its own that read, through
  the block, as the gathered rows; joined, the array is at contents that agree with each block's on the block, so each
  block of it reads as the gathered rows, which is what the whole array must hold.
-/
import proofs.«208327_g62569083568895_cont_9to1c4b_407_46_alg».proof.Proof.ScGeom
import proofs.«208327_g62569083568895_cont_9to1c4b_407_46_alg».proof.Proof.ScGoutPf

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

variable [FloatOps F]

namespace Geom

abbrev T2 : Type := Fin (grid1.bound 0) × Fin (grid1.bound 1)
abbrev T3 : Type := Fin (grid1.bound 0) × Fin (grid1.bound 1) × Fin k1_t1_loop.trips

omit [FloatOps F] in
theorem flat2 (Ψ : T2 → sProp 𝕄) :
    bigSep Finset.univ Ψ = bigSep Finset.univ fun c : Fin (grid1.bound 0) => bigSep Finset.univ fun s : Fin (grid1.bound 1) => Ψ (c, s) :=
  bigSep_univ_prod Ψ

omit [FloatOps F] in
theorem flat3 (Ψ : T3 → sProp 𝕄) :
    bigSep Finset.univ Ψ = bigSep Finset.univ fun c : Fin (grid1.bound 0) => bigSep Finset.univ fun s : Fin (grid1.bound 1) =>
      bigSep Finset.univ fun k : Fin k1_t1_loop.trips => Ψ (c, s, k) := by
  rw [bigSep_univ_prod]
  exact bigSep_congr fun c _ => bigSep_univ_prod (fun sk : Fin (grid1.bound 1) × Fin k1_t1_loop.trips => Ψ (c, sk))

/-- A subcore's chunk of the index list and its blocks of the result, as sets of the arrays' indices. -/
abbrev idxSet (d : Dev nD) (t : T2) : Finset (Idealize.ShloMosaic.Idx (idxLoc d)) := (idxChunk (coordsV t.1 t.2)).view.set
abbrev outSet (d : Dev nD) (t : T3) : Finset (Idealize.ShloMosaic.Idx (outLoc d)) := (outBlk (coordsV t.1 t.2.1) t.2.2).view.set

theorem idx_disj (d : Dev nD) : ∀ t ∈ (Finset.univ : Finset T2), ∀ t' ∈ (Finset.univ : Finset T2), t ≠ t' → Disjoint (idxSet d t) (idxSet d t') :=
  fun ⟨_, _⟩ _ ⟨_, _⟩ _ h => idxChunk_disjoint h
theorem out_disj (d : Dev nD) : ∀ t ∈ (Finset.univ : Finset T3), ∀ t' ∈ (Finset.univ : Finset T3), t ≠ t' → Disjoint (outSet d t) (outSet d t') :=
  fun ⟨_, _, _⟩ _ ⟨_, _, _⟩ _ h => outBlk_disjoint h

theorem idx_cover (d : Dev nD) : (Finset.univ : Finset T2).biUnion (idxSet d) = Finset.univ := by
  ext i
  simp only [Finset.mem_biUnion, Finset.mem_univ, true_and, iff_true]
  obtain ⟨c, s, h⟩ := idxChunk_cover i
  exact ⟨(c, s), h⟩
theorem out_cover (d : Dev nD) : (Finset.univ : Finset T3).biUnion (outSet d) = Finset.univ := by
  ext i
  simp only [Finset.mem_biUnion, Finset.mem_univ, true_and, iff_true]
  obtain ⟨c, s, k, h⟩ := outBlk_cover i
  exact ⟨(c, s, k), h⟩

omit [FloatOps F] in
/-- The index list whole is the subcores' chunks. -/
theorem idx_split (d : Dev nD) (f : Buf (Elt F) (idxLoc d)) :
    (idxLoc d ↦{fullShare} f : sProp 𝕄)
      = bigSep Finset.univ fun c : Fin (grid1.bound 0) => bigSep Finset.univ fun s : Fin (grid1.bound 1) =>
          idxLoc d ↦[(idxChunk (coordsV c s)).view.set]{fullShare} f := by
  have e : (idxLoc d ↦[(Finset.univ : Finset T2).biUnion (idxSet d)]{fullShare} f : sProp 𝕄)
      = bigSep Finset.univ fun t : T2 => idxLoc d ↦[idxSet d t]{fullShare} f := pointsTo_biUnion Finset.univ (idxSet d) (idx_disj d)
  rw [idx_cover] at e
  exact e.trans (flat2 (fun t : T2 => idxLoc d ↦[idxSet d t]{fullShare} f))

omit [FloatOps F] in
/-- The result array whole is the subcores' blocks. -/
theorem out_split (d : Dev nD) (f : Buf (Elt F) (outLoc d)) :
    (outLoc d ↦{fullShare} f : sProp 𝕄)
      = bigSep Finset.univ fun c : Fin (grid1.bound 0) => bigSep Finset.univ fun s : Fin (grid1.bound 1) =>
          bigSep Finset.univ fun k : Fin k1_t1_loop.trips => outLoc d ↦[(outBlk (coordsV c s) k).view.set]{fullShare} f := by
  have e : (outLoc d ↦[(Finset.univ : Finset T3).biUnion (outSet d)]{fullShare} f : sProp 𝕄)
      = bigSep Finset.univ fun t : T3 => outLoc d ↦[outSet d t]{fullShare} f := pointsTo_biUnion Finset.univ (outSet d) (out_disj d)
  rw [out_cover] at e
  exact e.trans (flat3 (fun t : T3 => outLoc d ↦[outSet d t]{fullShare} f))

/-- The blocks, each written with its gathered rows, are the result array at contents that hold what they must. -/
theorem out_join (d : Dev nD)
    (hIdx : ∀ x, ((Memref.whole main_v2_scv : Memref sig .scVector .hbm S1024x128 .i32).view.read (Elt F) (Idx d) x).toNat < 8192) :
    (bigSep Finset.univ fun c : Fin (grid1.bound 0) => bigSep Finset.univ fun s : Fin (grid1.bound 1) =>
        bigSep Finset.univ fun k : Fin k1_t1_loop.trips => BlkDone Tab Idx d (coordsV c s) k)
      ⊢ (iprop(∃ g : Buf (Elt F) (outLoc d), (outLoc d ↦{fullShare} g) ∗ ⌜GoutOK Tab Idx d g⌝) : sProp 𝕄) := by
  have e : (bigSep Finset.univ fun c : Fin (grid1.bound 0) => bigSep Finset.univ fun s : Fin (grid1.bound 1) =>
        bigSep Finset.univ fun k : Fin k1_t1_loop.trips => BlkDone Tab Idx d (coordsV c s) k)
      = bigSep Finset.univ fun t : T3 => BlkDone Tab Idx d (coordsV t.1 t.2.1) t.2.2 :=
    (flat3 (fun t : T3 => BlkDone Tab Idx d (coordsV t.1 t.2.1) t.2.2)).symm
  rw [e]
  refine (bigSep_exists_pi Finset.univ (fun (t : T3) (f : Buf (Elt F) (outLoc d)) =>
    iprop((outLoc d ↦[outSet d t]{fullShare} f)
      ∗ ⌜∀ hb, View.read (Elt F) (outBlk (coordsV t.1 t.2.1) t.2.2).view f = ExpBlk Tab Idx d (coordsV t.1 t.2.1) t.2.2 hb⌝))).trans ?_
  iintro ⟨%fs, H⟩
  have hswap : (bigSep Finset.univ fun t : T3 => iprop((outLoc d ↦[outSet d t]{fullShare} fs t)
        ∗ ⌜∀ hb, View.read (Elt F) (outBlk (coordsV t.1 t.2.1) t.2.2).view (fs t) = ExpBlk Tab Idx d (coordsV t.1 t.2.1) t.2.2 hb⌝))
      ⊢ (iprop(⌜∀ t ∈ (Finset.univ : Finset T3), ∀ hb, View.read (Elt F) (outBlk (coordsV t.1 t.2.1) t.2.2).view (fs t) = ExpBlk Tab Idx d (coordsV t.1 t.2.1) t.2.2 hb⌝
          ∗ bigSep Finset.univ fun t : T3 => outLoc d ↦[outSet d t]{fullShare} fs t) : sProp 𝕄) :=
    (bigSep_mono fun t _ => Idealize.SL.BI.sep_comm).trans
      (bigSep_pure_sep Finset.univ
        (fun t : T3 => ∀ hb, View.read (Elt F) (outBlk (coordsV t.1 t.2.1) t.2.2).view (fs t) = ExpBlk Tab Idx d (coordsV t.1 t.2.1) t.2.2 hb)
        (fun t : T3 => (outLoc d ↦[outSet d t]{fullShare} fs t : sProp 𝕄)))
  ihave H2 := hswap $$ H
  icases H2 with ⟨%hφ, Hpts⟩
  ihave H3 := (pointsTo_biUnion_join (Finset.univ : Finset T3) (outSet d) fs (fs (⟨0, Nat.succ_pos 1⟩, ⟨0, Nat.succ_pos 15⟩, ⟨0, Nat.succ_pos 31⟩)) (out_disj d)) $$ Hpts
  icases H3 with ⟨%g, %hg, Hg⟩
  rw [out_cover]
  iexists g
  isplitl [Hg]; · iexact Hg
  ipureintro
  refine gout_of_blocks Tab Idx d g (fun c s k hb => ?_) hIdx
  rw [← hφ (c, s, k) (Finset.mem_univ _) hb]
  exact View.read_congr fun i hi => hg (c, s, k) (Finset.mem_univ _) i hi

end Geom

/-! ## The deal and the gathering -/

theorem deal_split (d : Dev nD) (f : Buf (Elt F) (outLoc d)) :
    iprop((tabLoc d ↦{fullShare} Tab d) ∗ (idxLoc d ↦{fullShare} Idx d) ∗ (outLoc d ↦{fullShare} f))
      ⊢ (iprop((tabLoc d ↦{Transfers.shareDrop fullShare 2} Tab d)
          ∗ bigSep Finset.univ fun c : Fin (grid1.bound 0) => stCore Tab Idx d c) : sProp 𝕄) := by
  unfold stCore
  rw [bigSep_sep', bigSep_sep', Geom.idx_split, Geom.out_split]
  iintro ⟨Htab, Hidx, Hout⟩
  ihave Ht := (Transfers.pointsTo_toks_split (ℓ := tabLoc d) (S := Finset.univ) (f := Tab d) fullShare 2) $$ Htab
  icases Ht with ⟨Hdrop, Htoks⟩
  isplitl [Hdrop]; · iexact Hdrop
  isplitl [Htoks]; · iexact Htoks
  isplitl [Hidx]; · iexact Hidx
  iapply (SparseCore.ent (bigSep_mono fun c _ => bigSep_mono fun s _ => bigSep_mono fun k _ =>
    BI.BIClass.exists_intro (Φ := fun g : Buf (Elt F) (outLoc d) => (outLoc d ↦[(outBlk (coordsV c s) k).view.set]{fullShare} g : sProp 𝕄)) f))
  iexact Hout

theorem deal_join (d : Dev nD)
    (hIdx : ∀ x, ((Memref.whole main_v2_scv : Memref sig .scVector .hbm S1024x128 .i32).view.read (Elt F) (Idx d) x).toNat < 8192) :
    iprop((tabLoc d ↦{Transfers.shareDrop fullShare 2} Tab d)
        ∗ bigSep Finset.univ fun c : Fin (grid1.bound 0) => dnCore Tab Idx d c)
      ⊢ (iprop((tabLoc d ↦{fullShare} Tab d) ∗ (idxLoc d ↦{fullShare} Idx d)
          ∗ ∃ g : Buf (Elt F) (outLoc d), (outLoc d ↦{fullShare} g) ∗ ⌜GoutOK Tab Idx d g⌝) : sProp 𝕄) := by
  unfold dnCore
  rw [bigSep_sep', bigSep_sep', Geom.idx_split (F := F) d (Idx d)]
  iintro ⟨Hdrop, Htoks, Hidx, Hout⟩
  isplitl [Hdrop Htoks]
  · iapply (Transfers.pointsTo_toks_join (ℓ := tabLoc d) (S := Finset.univ) (f := Tab d) fullShare 2)
    isplitl [Hdrop]; · iexact Hdrop
    iexact Htoks
  isplitl [Hidx]; · iexact Hidx
  iapply (Geom.out_join Tab Idx d hIdx); iexact Hout

end Cert.KernelIdeal.Sc

end
-- ==== Proof.ScDealPf.lean ====
/-
  The SparseCore call's operands are dealt to the SparseCores and gathered back.
-/
import proofs.«208327_g62569083568895_cont_9to1c4b_407_46_alg».proof.Proof.ScDeal
import proofs.«208327_g62569083568895_cont_9to1c4b_407_46_alg».proof.Proof.ScDealCore

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

variable [FloatOps F]

theorem scDeal (d : Dev nD)
    (hIdx : ∀ x, ((Memref.whole main_v2_scv : Memref sig .scVector .hbm S1024x128 .i32).view.read (Elt F) (Idx d) x).toNat < 8192) :
    ScDeal Tab Idx d where
  split := fun f => deal_split Tab Idx d f
  join := deal_join Tab Idx d hIdx

end Cert.KernelIdeal.Sc

end
-- ==== Proof.ScGtc.lean ====
/-
  What the launch element hands @main on a device is what @main's proof starts from: the pipelines' configurations
  pinned at their admissions are the configurations.
-/
import proofs.«208327_g62569083568895_cont_9to1c4b_407_46_alg».proof.Proof.ScElem
import proofs.«208327_g62569083568895_cont_9to1c4b_407_46_alg».proof.Proof.ScMain3

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

variable [FloatOps F]

theorem G_eq_Gtc (d : Dev nD) : G (F := F) d = Gtc (F := F) d := rfl

end Cert.KernelIdeal.Sc

end
-- ==== Proof.ScMain5.lean ====
/-
  @main on the TensorCore, what the final state says: every unscoped buffer of the TensorCore reads its final contents
  in the fold, and the fold at each argument array walks back to the launch memory (no host operation and no region
  writes an argument: a region reads it through an input window or bypasses it).
-/
import proofs.«208327_g62569083568895_cont_9to1c4b_407_46_alg».proof.Proof.ScMain4

set_option maxRecDepth 16384

noncomputable section

namespace Cert.KernelIdeal.Sc

open Cert.KernelIdeal Cert.KernelIdeal.Gen Cert.KernelIdeal.Body

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.Pipeline (Dat Cfg Window BodyObligation BodyObligationLoose)

variable {F : FTy → Type} [FloatOps F]

local notation "𝕄" => MT nD τ sig (HIx 1) (Elt F) ℕ UU ℕ

variable [∀ e, Nonempty (Elt F e)]
variable (m : (ℓ : Loc nD τ sig) → Buf (Elt F) ℓ)

/-! ## The final assertion read against the final state -/

/-- What the final state of device `d` says: for a result of the SparseCore call holding the table's rows the index
    list names, every unscoped buffer of the TensorCore holds its final contents. -/
def fq (d : Dev nD) (s' : Phys nD τ sig (Elt F)) : Prop :=
  ∃ g : Buf (Elt F) (outLoc d), GoutOK (TabOf m) (IdxOf m) d g
    ∧ ∀ b ∈ Pipeline.ucRefs τ sig, s'.mem.mem ((d, b) : Loc nD τ sig) = W7 m (G3of m d g) d b

theorem hfin (d : Dev nD) (s' : Phys nD τ sig (Elt F)) : iprop(FIN m d ∗ SI s') ⊢ (⌜fq m d s'⌝ : sProp 𝕄) := by
  unfold FIN
  iintro ⟨⟨%g, %hg, Hh⟩, HSI⟩
  unfold StableHlo.held
  ihave H := (pointsTo_read_all (Pipeline.ucRefs τ sig) (fun b => ((d, b) : Loc nD τ sig)) (W7 m (G3of m d g) d) s') $$ [Hh HSI]
  · isplitl [Hh] <;> iassumption
  icases H with ⟨%h, -⟩
  ipureintro; exact ⟨g, hg, h⟩

/-- An unscoped TensorCore reference is among those the final assertion holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched -/

variable (G3 : (d : Dev nD) → Buf (Elt F) (outLoc d))

/-- What the thirteen operations between the SparseCore call and the second pipeline write. -/
abbrev wr5 : Finset (DevRef τ sig) := {Proc.devRef .tc (main_v4 : Ref sig .tc), Proc.devRef .tc (main_v5 : Ref sig .tc), Proc.devRef .tc (main_v6 : Ref sig .tc), Proc.devRef .tc (main_v7 : Ref sig .tc), Proc.devRef .tc (main_v8 : Ref sig .tc), Proc.devRef .tc (main_v9 : Ref sig .tc), Proc.devRef .tc (main_v10 : Ref sig .tc), Proc.devRef .tc (main_v11 : Ref sig .tc), Proc.devRef .tc (main_v12 : Ref sig .tc), Proc.devRef .tc (main_v13 : Ref sig .tc), Proc.devRef .tc (main_v14 : Ref sig .tc), Proc.devRef .tc (main_v15 : Ref sig .tc), Proc.devRef .tc (main_v16 : Ref sig .tc)}

omit [∀ e, Nonempty (Elt F e)] in
theorem ops5_not_writes {b : DevRef τ sig} (hb : b ∉ wr5) : ∀ op ∈ (ops5 (F := F)), b ∉ op.writes := by
  intro op hop hw
  apply hb
  simp only [ops5, List.mem_cons, List.not_mem_nil, or_false] at hop
  rcases hop with rfl | rfl | rfl | rfl | rfl | rfl | rfl | rfl | rfl | rfl | rfl | rfl | rfl
  all_goals (have e := Finset.mem_singleton.mp hw; subst e; decide)

omit [∀ e, Nonempty (Elt F e)] in
/-- The second pipeline's result array at the end: what its write-backs leave. -/
theorem W6_main_v17 (d : Dev nD) : W6 m G3 d (Proc.devRef .tc main_v17) = (D2 m G3 d).arrAt 19 cfg2.N := W6_arr m G3 d 19

omit [∀ e, Nonempty (Elt F e)] in
/-- @main's result: the reshape of the second pipeline's result array. -/
theorem W7_main_v18 (d : Dev nD) :
    W7 m G3 d (Proc.devRef .tc main_v18) = (op18 (F := F)).fn (fun b => W6 m G3 d b.1) ⟨Proc.devRef .tc main_v18, Finset.mem_singleton_self _⟩ :=
  (op18 (F := F)).result_of_mem _ _

omit [∀ e, Nonempty (Elt F e)] in
theorem W7_main_arg0 (d : Dev nD) : W7 m G3 d (Proc.devRef .tc main_arg0) = m ((SparseCore.T d).loc main_arg0) :=
  calc W7 m G3 d (Proc.devRef .tc main_arg0)
    _ = W6 m G3 d (Proc.devRef .tc main_arg0) := (op18 (F := F)).result_of_not_mem _ (show _ ∉ ({Proc.devRef .tc (main_v18 : Ref sig .tc)} : Finset (DevRef τ sig)) by decide)
    _ = W5 m G3 d (Proc.devRef .tc main_arg0) := W6_of_ne m G3 d main_arg0 (by decide)
    _ = W4 m G3 d (Proc.devRef .tc main_arg0) := StableHlo.after_of_forall_not_mem (b := Proc.devRef .tc main_arg0) _ _ (ops5_not_writes (by decide))
    _ = W3 m d (Proc.devRef .tc main_arg0) := Function.update_of_ne (by decide) _ _
    _ = W2 m d (Proc.devRef .tc main_arg0) := (op2 (F := F)).result_of_not_mem _ (show _ ∉ ({Proc.devRef .tc (main_v2 : Ref sig .tc)} : Finset (DevRef τ sig)) by decide)
    _ = W1 m d (Proc.devRef .tc main_arg0) := (W2_arr m d 0).trans (((D0 m d).arrAt_in 0 rfl _).trans (A_eq0 (V1 m) _ _ d 0))
    _ = W0 m d (Proc.devRef .tc main_arg0) := (op0 (F := F)).result_of_not_mem _ (show _ ∉ ({Proc.devRef .tc (main_v0 : Ref sig .tc)} : Finset (DevRef τ sig)) by decide)
    _ = m ((SparseCore.T d).loc main_arg0) := rfl

omit [∀ e, Nonempty (Elt F e)] in
theorem W7_main_arg1 (d : Dev nD) : W7 m G3 d (Proc.devRef .tc main_arg1) = m ((SparseCore.T d).loc main_arg1) :=
  calc W7 m G3 d (Proc.devRef .tc main_arg1)
    _ = W6 m G3 d (Proc.devRef .tc main_arg1) := (op18 (F := F)).result_of_not_mem _ (show _ ∉ ({Proc.devRef .tc (main_v18 : Ref sig .tc)} : Finset (DevRef τ sig)) by decide)
    _ = W5 m G3 d (Proc.devRef .tc main_arg1) := W6_of_ne m G3 d main_arg1 (by decide)
    _ = W4 m G3 d (Proc.devRef .tc main_arg1) := StableHlo.after_of_forall_not_mem (b := Proc.devRef .tc main_arg1) _ _ (ops5_not_writes (by decide))
    _ = W3 m d (Proc.devRef .tc main_arg1) := Function.update_of_ne (by decide) _ _
    _ = W2 m d (Proc.devRef .tc main_arg1) := (op2 (F := F)).result_of_not_mem _ (show _ ∉ ({Proc.devRef .tc (main_v2 : Ref sig .tc)} : Finset (DevRef τ sig)) by decide)
    _ = W1 m d (Proc.devRef .tc main_arg1) := (W2_arr m d 1).trans (((D0 m d).arrAt_in 1 rfl _).trans (A_eq0 (V1 m) _ _ d 1))
    _ = W0 m d (Proc.devRef .tc main_arg1) := (op0 (F := F)).result_of_not_mem _ (show _ ∉ ({Proc.devRef .tc (main_v0 : Ref sig .tc)} : Finset (DevRef τ sig)) by decide)
    _ = m ((SparseCore.T d).loc main_arg1) := rfl

omit [∀ e, Nonempty (Elt F e)] in
theorem W7_main_arg2 (d : Dev nD) : W7 m G3 d (Proc.devRef .tc main_arg2) = m ((SparseCore.T d).loc main_arg2) :=
  calc W7 m G3 d (Proc.devRef .tc main_arg2)
    _ = W6 m G3 d (Proc.devRef .tc main_arg2) := (op18 (F := F)).result_of_not_mem _ (show _ ∉ ({Proc.devRef .tc (main_v18 : Ref sig .tc)} : Finset (DevRef τ sig)) by decide)
    _ = W5 m G3 d (Proc.devRef .tc main_arg2) := W6_of_ne m G3 d main_arg2 (by decide)
    _ = W4 m G3 d (Proc.devRef .tc main_arg2) := StableHlo.after_of_forall_not_mem (b := Proc.devRef .tc main_arg2) _ _ (ops5_not_writes (by decide))
    _ = W3 m d (Proc.devRef .tc main_arg2) := Function.update_of_ne (by decide) _ _
    _ = W2 m d (Proc.devRef .tc main_arg2) := (op2 (F := F)).result_of_not_mem _ (show _ ∉ ({Proc.devRef .tc (main_v2 : Ref sig .tc)} : Finset (DevRef τ sig)) by decide)
    _ = W1 m d (Proc.devRef .tc main_arg2) := W2_of_ne m d main_arg2 (by decide)
    _ = W0 m d (Proc.devRef .tc main_arg2) := (op0 (F := F)).result_of_not_mem _ (show _ ∉ ({Proc.devRef .tc (main_v0 : Ref sig .tc)} : Finset (DevRef τ sig)) by decide)
    _ = m ((SparseCore.T d).loc main_arg2) := rfl

omit [∀ e, Nonempty (Elt F e)] in
theorem W7_main_arg3 (d : Dev nD) : W7 m G3 d (Proc.devRef .tc main_arg3) = m ((SparseCore.T d).loc main_arg3) :=
  calc W7 m G3 d (Proc.devRef .tc main_arg3)
    _ = W6 m G3 d (Proc.devRef .tc main_arg3) := (op18 (F := F)).result_of_not_mem _ (show _ ∉ ({Proc.devRef .tc (main_v18 : Ref sig .tc)} : Finset (DevRef τ sig)) by decide)
    _ = W5 m G3 d (Proc.devRef .tc main_arg3) := W6_of_ne m G3 d main_arg3 (by decide)
    _ = W4 m G3 d (Proc.devRef .tc main_arg3) := StableHlo.after_of_forall_not_mem (b := Proc.devRef .tc main_arg3) _ _ (ops5_not_writes (by decide))
    _ = W3 m d (Proc.devRef .tc main_arg3) := Function.update_of_ne (by decide) _ _
    _ = W2 m d (Proc.devRef .tc main_arg3) := (op2 (F := F)).result_of_not_mem _ (show _ ∉ ({Proc.devRef .tc (main_v2 : Ref sig .tc)} : Finset (DevRef τ sig)) by decide)
    _ = W1 m d (Proc.devRef .tc main_arg3) := (W2_arr m d 3).trans (((D0 m d).arrAt_in 3 rfl _).trans (A_eq0 (V1 m) _ _ d 3))
    _ = W0 m d (Proc.devRef .tc main_arg3) := (op0 (F := F)).result_of_not_mem _ (show _ ∉ ({Proc.devRef .tc (main_v0 : Ref sig .tc)} : Finset (DevRef τ sig)) by decide)
    _ = m ((SparseCore.T d).loc main_arg3) := rfl

omit [∀ e, Nonempty (Elt F e)] in
theorem W7_main_arg4 (d : Dev nD) : W7 m G3 d (Proc.devRef .tc main_arg4) = m ((SparseCore.T d).loc main_arg4) :=
  calc W7 m G3 d (Proc.devRef .tc main_arg4)
    _ = W6 m G3 d (Proc.devRef .tc main_arg4) := (op18 (F := F)).result_of_not_mem _ (show _ ∉ ({Proc.devRef .tc (main_v18 : Ref sig .tc)} : Finset (DevRef τ sig)) by decide)
    _ = W5 m G3 d (Proc.devRef .tc main_arg4) := W6_of_ne m G3 d main_arg4 (by decide)
    _ = W4 m G3 d (Proc.devRef .tc main_arg4) := StableHlo.after_of_forall_not_mem (b := Proc.devRef .tc main_arg4) _ _ (ops5_not_writes (by decide))
    _ = W3 m d (Proc.devRef .tc main_arg4) := Function.update_of_ne (by decide) _ _
    _ = W2 m d (Proc.devRef .tc main_arg4) := (op2 (F := F)).result_of_not_mem _ (show _ ∉ ({Proc.devRef .tc (main_v2 : Ref sig .tc)} : Finset (DevRef τ sig)) by decide)
    _ = W1 m d (Proc.devRef .tc main_arg4) := (W2_arr m d 2).trans (((D0 m d).arrAt_in 2 rfl _).trans (A_eq0 (V1 m) _ _ d 2))
    _ = W0 m d (Proc.devRef .tc main_arg4) := (op0 (F := F)).result_of_not_mem _ (show _ ∉ ({Proc.devRef .tc (main_v0 : Ref sig .tc)} : Finset (DevRef τ sig)) by decide)
    _ = m ((SparseCore.T d).loc main_arg4) := rfl

omit [∀ e, Nonempty (Elt F e)] in
theorem W7_main_arg5 (d : Dev nD) : W7 m G3 d (Proc.devRef .tc main_arg5) = m ((SparseCore.T d).loc main_arg5) :=
  calc W7 m G3 d (Proc.devRef .tc main_arg5)
    _ = W6 m G3 d (Proc.devRef .tc main_arg5) := (op18 (F := F)).result_of_not_mem _ (show _ ∉ ({Proc.devRef .tc (main_v18 : Ref sig .tc)} : Finset (DevRef τ sig)) by decide)
    _ = W5 m G3 d (Proc.devRef .tc main_arg5) := W6_of_ne m G3 d main_arg5 (by decide)
    _ = W4 m G3 d (Proc.devRef .tc main_arg5) := StableHlo.after_of_forall_not_mem (b := Proc.devRef .tc main_arg5) _ _ (ops5_not_writes (by decide))
    _ = W3 m d (Proc.devRef .tc main_arg5) := Function.update_of_ne (by decide) _ _
    _ = W2 m d (Proc.devRef .tc main_arg5) := (op2 (F := F)).result_of_not_mem _ (show _ ∉ ({Proc.devRef .tc (main_v2 : Ref sig .tc)} : Finset (DevRef τ sig)) by decide)
    _ = W1 m d (Proc.devRef .tc main_arg5) := W2_of_ne m d main_arg5 (by decide)
    _ = W0 m d (Proc.devRef .tc main_arg5) := (op0 (F := F)).result_of_not_mem _ (show _ ∉ ({Proc.devRef .tc (main_v0 : Ref sig .tc)} : Finset (DevRef τ sig)) by decide)
    _ = m ((SparseCore.T d).loc main_arg5) := rfl

omit [∀ e, Nonempty (Elt F e)] in
theorem W7_main_arg6 (d : Dev nD) : W7 m G3 d (Proc.devRef .tc main_arg6) = m ((SparseCore.T d).loc main_arg6) :=
  calc W7 m G3 d (Proc.devRef .tc main_arg6)
    _ = W6 m G3 d (Proc.devRef .tc main_arg6) := (op18 (F := F)).result_of_not_mem _ (show _ ∉ ({Proc.devRef .tc (main_v18 : Ref sig .tc)} : Finset (DevRef τ sig)) by decide)
    _ = W5 m G3 d (Proc.devRef .tc main_arg6) := W6_of_ne m G3 d main_arg6 (by decide)
    _ = W4 m G3 d (Proc.devRef .tc main_arg6) := StableHlo.after_of_forall_not_mem (b := Proc.devRef .tc main_arg6) _ _ (ops5_not_writes (by decide))
    _ = W3 m d (Proc.devRef .tc main_arg6) := Function.update_of_ne (by decide) _ _
    _ = W2 m d (Proc.devRef .tc main_arg6) := (op2 (F := F)).result_of_not_mem _ (show _ ∉ ({Proc.devRef .tc (main_v2 : Ref sig .tc)} : Finset (DevRef τ sig)) by decide)
    _ = W1 m d (Proc.devRef .tc main_arg6) := W2_of_ne m d main_arg6 (by decide)
    _ = W0 m d (Proc.devRef .tc main_arg6) := (op0 (F := F)).result_of_not_mem _ (show _ ∉ ({Proc.devRef .tc (main_v0 : Ref sig .tc)} : Finset (DevRef τ sig)) by decide)
    _ = m ((SparseCore.T d).loc main_arg6) := rfl

omit [∀ e, Nonempty (Elt F e)] in
theorem W7_main_arg7 (d : Dev nD) : W7 m G3 d (Proc.devRef .tc main_arg7) = m ((SparseCore.T d).loc main_arg7) :=
  calc W7 m G3 d (Proc.devRef .tc main_arg7)
    _ = W6 m G3 d (Proc.devRef .tc main_arg7) := (op18 (F := F)).result_of_not_mem _ (show _ ∉ ({Proc.devRef .tc (main_v18 : Ref sig .tc)} : Finset (DevRef τ sig)) by decide)
    _ = W5 m G3 d (Proc.devRef .tc main_arg7) := W6_of_ne m G3 d main_arg7 (by decide)
    _ = W4 m G3 d (Proc.devRef .tc main_arg7) := StableHlo.after_of_forall_not_mem (b := Proc.devRef .tc main_arg7) _ _ (ops5_not_writes (by decide))
    _ = W3 m d (Proc.devRef .tc main_arg7) := Function.update_of_ne (by decide) _ _
    _ = W2 m d (Proc.devRef .tc main_arg7) := (op2 (F := F)).result_of_not_mem _ (show _ ∉ ({Proc.devRef .tc (main_v2 : Ref sig .tc)} : Finset (DevRef τ sig)) by decide)
    _ = W1 m d (Proc.devRef .tc main_arg7) := (W2_arr m d 5).trans (((D0 m d).arrAt_in 5 rfl _).trans (A_eq0 (V1 m) _ _ d 5))
    _ = W0 m d (Proc.devRef .tc main_arg7) := (op0 (F := F)).result_of_not_mem _ (show _ ∉ ({Proc.devRef .tc (main_v0 : Ref sig .tc)} : Finset (DevRef τ sig)) by decide)
    _ = m ((SparseCore.T d).loc main_arg7) := rfl

omit [∀ e, Nonempty (Elt F e)] in
theorem W7_main_arg8 (d : Dev nD) : W7 m G3 d (Proc.devRef .tc main_arg8) = m ((SparseCore.T d).loc main_arg8) :=
  calc W7 m G3 d (Proc.devRef .tc main_arg8)
    _ = W6 m G3 d (Proc.devRef .tc main_arg8) := (op18 (F := F)).result_of_not_mem _ (show _ ∉ ({Proc.devRef .tc (main_v18 : Ref sig .tc)} : Finset (DevRef τ sig)) by decide)
    _ = W5 m G3 d (Proc.devRef .tc main_arg8) := W6_of_ne m G3 d main_arg8 (by decide)
    _ = W4 m G3 d (Proc.devRef .tc main_arg8) := StableHlo.after_of_forall_not_mem (b := Proc.devRef .tc main_arg8) _ _ (ops5_not_writes (by decide))
    _ = W3 m d (Proc.devRef .tc main_arg8) := Function.update_of_ne (by decide) _ _
    _ = W2 m d (Proc.devRef .tc main_arg8) := (op2 (F := F)).result_of_not_mem _ (show _ ∉ ({Proc.devRef .tc (main_v2 : Ref sig .tc)} : Finset (DevRef τ sig)) by decide)
    _ = W1 m d (Proc.devRef .tc main_arg8) := W2_of_ne m d main_arg8 (by decide)
    _ = W0 m d (Proc.devRef .tc main_arg8) := (op0 (F := F)).result_of_not_mem _ (show _ ∉ ({Proc.devRef .tc (main_v0 : Ref sig .tc)} : Finset (DevRef τ sig)) by decide)
    _ = m ((SparseCore.T d).loc main_arg8) := rfl

omit [∀ e, Nonempty (Elt F e)] in
theorem W7_main_arg9 (d : Dev nD) : W7 m G3 d (Proc.devRef .tc main_arg9) = m ((SparseCore.T d).loc main_arg9) :=
  calc W7 m G3 d (Proc.devRef .tc main_arg9)
    _ = W6 m G3 d (Proc.devRef .tc main_arg9) := (op18 (F := F)).result_of_not_mem _ (show _ ∉ ({Proc.devRef .tc (main_v18 : Ref sig .tc)} : Finset (DevRef τ sig)) by decide)
    _ = W5 m G3 d (Proc.devRef .tc main_arg9) := (W6_arr m G3 d 7).trans (((D2 m G3 d).arrAt_in 7 rfl _).trans (A_eq2 (V5 m G3) _ _ d 7))
    _ = W4 m G3 d (Proc.devRef .tc main_arg9) := StableHlo.after_of_forall_not_mem (b := Proc.devRef .tc main_arg9) _ _ (ops5_not_writes (by decide))
    _ = W3 m d (Proc.devRef .tc main_arg9) := Function.update_of_ne (by decide) _ _
    _ = W2 m d (Proc.devRef .tc main_arg9) := (op2 (F := F)).result_of_not_mem _ (show _ ∉ ({Proc.devRef .tc (main_v2 : Ref sig .tc)} : Finset (DevRef τ sig)) by decide)
    _ = W1 m d (Proc.devRef .tc main_arg9) := W2_of_ne m d main_arg9 (by decide)
    _ = W0 m d (Proc.devRef .tc main_arg9) := (op0 (F := F)).result_of_not_mem _ (show _ ∉ ({Proc.devRef .tc (main_v0 : Ref sig .tc)} : Finset (DevRef τ sig)) by decide)
    _ = m ((SparseCore.T d).loc main_arg9) := rfl

omit [∀ e, Nonempty (Elt F e)] in
theorem W7_main_arg10 (d : Dev nD) : W7 m G3 d (Proc.devRef .tc main_arg10) = m ((SparseCore.T d).loc main_arg10) :=
  calc W7 m G3 d (Proc.devRef .tc main_arg10)
    _ = W6 m G3 d (Proc.devRef .tc main_arg10) := (op18 (F := F)).result_of_not_mem _ (show _ ∉ ({Proc.devRef .tc (main_v18 : Ref sig .tc)} : Finset (DevRef τ sig)) by decide)
    _ = W5 m G3 d (Proc.devRef .tc main_arg10) := W6_of_ne m G3 d main_arg10 (by decide)
    _ = W4 m G3 d (Proc.devRef .tc main_arg10) := StableHlo.after_of_forall_not_mem (b := Proc.devRef .tc main_arg10) _ _ (ops5_not_writes (by decide))
    _ = W3 m d (Proc.devRef .tc main_arg10) := Function.update_of_ne (by decide) _ _
    _ = W2 m d (Proc.devRef .tc main_arg10) := (op2 (F := F)).result_of_not_mem _ (show _ ∉ ({Proc.devRef .tc (main_v2 : Ref sig .tc)} : Finset (DevRef τ sig)) by decide)
    _ = W1 m d (Proc.devRef .tc main_arg10) := W2_of_ne m d main_arg10 (by decide)
    _ = W0 m d (Proc.devRef .tc main_arg10) := (op0 (F := F)).result_of_not_mem _ (show _ ∉ ({Proc.devRef .tc (main_v0 : Ref sig .tc)} : Finset (DevRef τ sig)) by decide)
    _ = m ((SparseCore.T d).loc main_arg10) := rfl

omit [∀ e, Nonempty (Elt F e)] in
theorem W7_main_arg11 (d : Dev nD) : W7 m G3 d (Proc.devRef .tc main_arg11) = m ((SparseCore.T d).loc main_arg11) :=
  calc W7 m G3 d (Proc.devRef .tc main_arg11)
    _ = W6 m G3 d (Proc.devRef .tc main_arg11) := (op18 (F := F)).result_of_not_mem _ (show _ ∉ ({Proc.devRef .tc (main_v18 : Ref sig .tc)} : Finset (DevRef τ sig)) by decide)
    _ = W5 m G3 d (Proc.devRef .tc main_arg11) := (W6_arr m G3 d 9).trans (((D2 m G3 d).arrAt_in 9 rfl _).trans (A_eq2 (V5 m G3) _ _ d 9))
    _ = W4 m G3 d (Proc.devRef .tc main_arg11) := StableHlo.after_of_forall_not_mem (b := Proc.devRef .tc main_arg11) _ _ (ops5_not_writes (by decide))
    _ = W3 m d (Proc.devRef .tc main_arg11) := Function.update_of_ne (by decide) _ _
    _ = W2 m d (Proc.devRef .tc main_arg11) := (op2 (F := F)).result_of_not_mem _ (show _ ∉ ({Proc.devRef .tc (main_v2 : Ref sig .tc)} : Finset (DevRef τ sig)) by decide)
    _ = W1 m d (Proc.devRef .tc main_arg11) := W2_of_ne m d main_arg11 (by decide)
    _ = W0 m d (Proc.devRef .tc main_arg11) := (op0 (F := F)).result_of_not_mem _ (show _ ∉ ({Proc.devRef .tc (main_v0 : Ref sig .tc)} : Finset (DevRef τ sig)) by decide)
    _ = m ((SparseCore.T d).loc main_arg11) := rfl

omit [∀ e, Nonempty (Elt F e)] in
theorem W7_main_arg12 (d : Dev nD) : W7 m G3 d (Proc.devRef .tc main_arg12) = m ((SparseCore.T d).loc main_arg12) :=
  calc W7 m G3 d (Proc.devRef .tc main_arg12)
    _ = W6 m G3 d (Proc.devRef .tc main_arg12) := (op18 (F := F)).result_of_not_mem _ (show _ ∉ ({Proc.devRef .tc (main_v18 : Ref sig .tc)} : Finset (DevRef τ sig)) by decide)
    _ = W5 m G3 d (Proc.devRef .tc main_arg12) := W6_of_ne m G3 d main_arg12 (by decide)
    _ = W4 m G3 d (Proc.devRef .tc main_arg12) := StableHlo.after_of_forall_not_mem (b := Proc.devRef .tc main_arg12) _ _ (ops5_not_writes (by decide))
    _ = W3 m d (Proc.devRef .tc main_arg12) := Function.update_of_ne (by decide) _ _
    _ = W2 m d (Proc.devRef .tc main_arg12) := (op2 (F := F)).result_of_not_mem _ (show _ ∉ ({Proc.devRef .tc (main_v2 : Ref sig .tc)} : Finset (DevRef τ sig)) by decide)
    _ = W1 m d (Proc.devRef .tc main_arg12) := W2_of_ne m d main_arg12 (by decide)
    _ = W0 m d (Proc.devRef .tc main_arg12) := (op0 (F := F)).result_of_not_mem _ (show _ ∉ ({Proc.devRef .tc (main_v0 : Ref sig .tc)} : Finset (DevRef τ sig)) by decide)
    _ = m ((SparseCore.T d).loc main_arg12) := rfl

omit [∀ e, Nonempty (Elt F e)] in
theorem W7_main_arg13 (d : Dev nD) : W7 m G3 d (Proc.devRef .tc main_arg13) = m ((SparseCore.T d).loc main_arg13) :=
  calc W7 m G3 d (Proc.devRef .tc main_arg13)
    _ = W6 m G3 d (Proc.devRef .tc main_arg13) := (op18 (F := F)).result_of_not_mem _ (show _ ∉ ({Proc.devRef .tc (main_v18 : Ref sig .tc)} : Finset (DevRef τ sig)) by decide)
    _ = W5 m G3 d (Proc.devRef .tc main_arg13) := (W6_arr m G3 d 11).trans (((D2 m G3 d).arrAt_in 11 rfl _).trans (A_eq2 (V5 m G3) _ _ d 11))
    _ = W4 m G3 d (Proc.devRef .tc main_arg13) := StableHlo.after_of_forall_not_mem (b := Proc.devRef .tc main_arg13) _ _ (ops5_not_writes (by decide))
    _ = W3 m d (Proc.devRef .tc main_arg13) := Function.update_of_ne (by decide) _ _
    _ = W2 m d (Proc.devRef .tc main_arg13) := (op2 (F := F)).result_of_not_mem _ (show _ ∉ ({Proc.devRef .tc (main_v2 : Ref sig .tc)} : Finset (DevRef τ sig)) by decide)
    _ = W1 m d (Proc.devRef .tc main_arg13) := W2_of_ne m d main_arg13 (by decide)
    _ = W0 m d (Proc.devRef .tc main_arg13) := (op0 (F := F)).result_of_not_mem _ (show _ ∉ ({Proc.devRef .tc (main_v0 : Ref sig .tc)} : Finset (DevRef τ sig)) by decide)
    _ = m ((SparseCore.T d).loc main_arg13) := rfl

omit [∀ e, Nonempty (Elt F e)] in
theorem W7_main_arg14 (d : Dev nD) : W7 m G3 d (Proc.devRef .tc main_arg14) = m ((SparseCore.T d).loc main_arg14) :=
  calc W7 m G3 d (Proc.devRef .tc main_arg14)
    _ = W6 m G3 d (Proc.devRef .tc main_arg14) := (op18 (F := F)).result_of_not_mem _ (show _ ∉ ({Proc.devRef .tc (main_v18 : Ref sig .tc)} : Finset (DevRef τ sig)) by decide)
    _ = W5 m G3 d (Proc.devRef .tc main_arg14) := W6_of_ne m G3 d main_arg14 (by decide)
    _ = W4 m G3 d (Proc.devRef .tc main_arg14) := StableHlo.after_of_forall_not_mem (b := Proc.devRef .tc main_arg14) _ _ (ops5_not_writes (by decide))
    _ = W3 m d (Proc.devRef .tc main_arg14) := Function.update_of_ne (by decide) _ _
    _ = W2 m d (Proc.devRef .tc main_arg14) := (op2 (F := F)).result_of_not_mem _ (show _ ∉ ({Proc.devRef .tc (main_v2 : Ref sig .tc)} : Finset (DevRef τ sig)) by decide)
    _ = W1 m d (Proc.devRef .tc main_arg14) := W2_of_ne m d main_arg14 (by decide)
    _ = W0 m d (Proc.devRef .tc main_arg14) := (op0 (F := F)).result_of_not_mem _ (show _ ∉ ({Proc.devRef .tc (main_v0 : Ref sig .tc)} : Finset (DevRef τ sig)) by decide)
    _ = m ((SparseCore.T d).loc main_arg14) := rfl

omit [∀ e, Nonempty (Elt F e)] in
theorem W7_main_arg15 (d : Dev nD) : W7 m G3 d (Proc.devRef .tc main_arg15) = m ((SparseCore.T d).loc main_arg15) :=
  calc W7 m G3 d (Proc.devRef .tc main_arg15)
    _ = W6 m G3 d (Proc.devRef .tc main_arg15) := (op18 (F := F)).result_of_not_mem _ (show _ ∉ ({Proc.devRef .tc (main_v18 : Ref sig .tc)} : Finset (DevRef τ sig)) by decide)
    _ = W5 m G3 d (Proc.devRef .tc main_arg15) := (W6_arr m G3 d 13).trans (((D2 m G3 d).arrAt_in 13 rfl _).trans (A_eq2 (V5 m G3) _ _ d 13))
    _ = W4 m G3 d (Proc.devRef .tc main_arg15) := StableHlo.after_of_forall_not_mem (b := Proc.devRef .tc main_arg15) _ _ (ops5_not_writes (by decide))
    _ = W3 m d (Proc.devRef .tc main_arg15) := Function.update_of_ne (by decide) _ _
    _ = W2 m d (Proc.devRef .tc main_arg15) := (op2 (F := F)).result_of_not_mem _ (show _ ∉ ({Proc.devRef .tc (main_v2 : Ref sig .tc)} : Finset (DevRef τ sig)) by decide)
    _ = W1 m d (Proc.devRef .tc main_arg15) := W2_of_ne m d main_arg15 (by decide)
    _ = W0 m d (Proc.devRef .tc main_arg15) := (op0 (F := F)).result_of_not_mem _ (show _ ∉ ({Proc.devRef .tc (main_v0 : Ref sig .tc)} : Finset (DevRef τ sig)) by decide)
    _ = m ((SparseCore.T d).loc main_arg15) := rfl

omit [∀ e, Nonempty (Elt F e)] in
theorem W7_main_arg16 (d : Dev nD) : W7 m G3 d (Proc.devRef .tc main_arg16) = m ((SparseCore.T d).loc main_arg16) :=
  calc W7 m G3 d (Proc.devRef .tc main_arg16)
    _ = W6 m G3 d (Proc.devRef .tc main_arg16) := (op18 (F := F)).result_of_not_mem _ (show _ ∉ ({Proc.devRef .tc (main_v18 : Ref sig .tc)} : Finset (DevRef τ sig)) by decide)
    _ = W5 m G3 d (Proc.devRef .tc main_arg16) := W6_of_ne m G3 d main_arg16 (by decide)
    _ = W4 m G3 d (Proc.devRef .tc main_arg16) := StableHlo.after_of_forall_not_mem (b := Proc.devRef .tc main_arg16) _ _ (ops5_not_writes (by decide))
    _ = W3 m d (Proc.devRef .tc main_arg16) := Function.update_of_ne (by decide) _ _
    _ = W2 m d (Proc.devRef .tc main_arg16) := (op2 (F := F)).result_of_not_mem _ (show _ ∉ ({Proc.devRef .tc (main_v2 : Ref sig .tc)} : Finset (DevRef τ sig)) by decide)
    _ = W1 m d (Proc.devRef .tc main_arg16) := W2_of_ne m d main_arg16 (by decide)
    _ = W0 m d (Proc.devRef .tc main_arg16) := (op0 (F := F)).result_of_not_mem _ (show _ ∉ ({Proc.devRef .tc (main_v0 : Ref sig .tc)} : Finset (DevRef τ sig)) by decide)
    _ = m ((SparseCore.T d).loc main_arg16) := rfl

omit [∀ e, Nonempty (Elt F e)] in
theorem W7_main_arg17 (d : Dev nD) : W7 m G3 d (Proc.devRef .tc main_arg17) = m ((SparseCore.T d).loc main_arg17) :=
  calc W7 m G3 d (Proc.devRef .tc main_arg17)
    _ = W6 m G3 d (Proc.devRef .tc main_arg17) := (op18 (F := F)).result_of_not_mem _ (show _ ∉ ({Proc.devRef .tc (main_v18 : Ref sig .tc)} : Finset (DevRef τ sig)) by decide)
    _ = W5 m G3 d (Proc.devRef .tc main_arg17) := W6_of_ne m G3 d main_arg17 (by decide)
    _ = W4 m G3 d (Proc.devRef .tc main_arg17) := StableHlo.after_of_forall_not_mem (b := Proc.devRef .tc main_arg17) _ _ (ops5_not_writes (by decide))
    _ = W3 m d (Proc.devRef .tc main_arg17) := Function.update_of_ne (by decide) _ _
    _ = W2 m d (Proc.devRef .tc main_arg17) := (op2 (F := F)).result_of_not_mem _ (show _ ∉ ({Proc.devRef .tc (main_v2 : Ref sig .tc)} : Finset (DevRef τ sig)) by decide)
    _ = W1 m d (Proc.devRef .tc main_arg17) := W2_of_ne m d main_arg17 (by decide)
    _ = W0 m d (Proc.devRef .tc main_arg17) := (op0 (F := F)).result_of_not_mem _ (show _ ∉ ({Proc.devRef .tc (main_v0 : Ref sig .tc)} : Finset (DevRef τ sig)) by decide)
    _ = m ((SparseCore.T d).loc main_arg17) := rfl

omit [∀ e, Nonempty (Elt F e)] in
theorem W7_main_arg18 (d : Dev nD) : W7 m G3 d (Proc.devRef .tc main_arg18) = m ((SparseCore.T d).loc main_arg18) :=
  calc W7 m G3 d (Proc.devRef .tc main_arg18)
    _ = W6 m G3 d (Proc.devRef .tc main_arg18) := (op18 (F := F)).result_of_not_mem _ (show _ ∉ ({Proc.devRef .tc (main_v18 : Ref sig .tc)} : Finset (DevRef τ sig)) by decide)
    _ = W5 m G3 d (Proc.devRef .tc main_arg18) := W6_of_ne m G3 d main_arg18 (by decide)
    _ = W4 m G3 d (Proc.devRef .tc main_arg18) := StableHlo.after_of_forall_not_mem (b := Proc.devRef .tc main_arg18) _ _ (ops5_not_writes (by decide))
    _ = W3 m d (Proc.devRef .tc main_arg18) := Function.update_of_ne (by decide) _ _
    _ = W2 m d (Proc.devRef .tc main_arg18) := (op2 (F := F)).result_of_not_mem _ (show _ ∉ ({Proc.devRef .tc (main_v2 : Ref sig .tc)} : Finset (DevRef τ sig)) by decide)
    _ = W1 m d (Proc.devRef .tc main_arg18) := W2_of_ne m d main_arg18 (by decide)
    _ = W0 m d (Proc.devRef .tc main_arg18) := (op0 (F := F)).result_of_not_mem _ (show _ ∉ ({Proc.devRef .tc (main_v0 : Ref sig .tc)} : Finset (DevRef τ sig)) by decide)
    _ = m ((SparseCore.T d).loc main_arg18) := rfl

omit [∀ e, Nonempty (Elt F e)] in
theorem W7_main_arg19 (d : Dev nD) : W7 m G3 d (Proc.devRef .tc main_arg19) = m ((SparseCore.T d).loc main_arg19) :=
  calc W7 m G3 d (Proc.devRef .tc main_arg19)
    _ = W6 m G3 d (Proc.devRef .tc main_arg19) := (op18 (F := F)).result_of_not_mem _ (show _ ∉ ({Proc.devRef .tc (main_v18 : Ref sig .tc)} : Finset (DevRef τ sig)) by decide)
    _ = W5 m G3 d (Proc.devRef .tc main_arg19) := W6_of_ne m G3 d main_arg19 (by decide)
    _ = W4 m G3 d (Proc.devRef .tc main_arg19) := StableHlo.after_of_forall_not_mem (b := Proc.devRef .tc main_arg19) _ _ (ops5_not_writes (by decide))
    _ = W3 m d (Proc.devRef .tc main_arg19) := Function.update_of_ne (by decide) _ _
    _ = W2 m d (Proc.devRef .tc main_arg19) := (op2 (F := F)).result_of_not_mem _ (show _ ∉ ({Proc.devRef .tc (main_v2 : Ref sig .tc)} : Finset (DevRef τ sig)) by decide)
    _ = W1 m d (Proc.devRef .tc main_arg19) := W2_of_ne m d main_arg19 (by decide)
    _ = W0 m d (Proc.devRef .tc main_arg19) := (op0 (F := F)).result_of_not_mem _ (show _ ∉ ({Proc.devRef .tc (main_v0 : Ref sig .tc)} : Finset (DevRef τ sig)) by decide)
    _ = m ((SparseCore.T d).loc main_arg19) := rfl

omit [∀ e, Nonempty (Elt F e)] in
theorem W7_main_arg20 (d : Dev nD) : W7 m G3 d (Proc.devRef .tc main_arg20) = m ((SparseCore.T d).loc main_arg20) :=
  calc W7 m G3 d (Proc.devRef .tc main_arg20)
    _ = W6 m G3 d (Proc.devRef .tc main_arg20) := (op18 (F := F)).result_of_not_mem _ (show _ ∉ ({Proc.devRef .tc (main_v18 : Ref sig .tc)} : Finset (DevRef τ sig)) by decide)
    _ = W5 m G3 d (Proc.devRef .tc main_arg20) := W6_of_ne m G3 d main_arg20 (by decide)
    _ = W4 m G3 d (Proc.devRef .tc main_arg20) := StableHlo.after_of_forall_not_mem (b := Proc.devRef .tc main_arg20) _ _ (ops5_not_writes (by decide))
    _ = W3 m d (Proc.devRef .tc main_arg20) := Function.update_of_ne (by decide) _ _
    _ = W2 m d (Proc.devRef .tc main_arg20) := (op2 (F := F)).result_of_not_mem _ (show _ ∉ ({Proc.devRef .tc (main_v2 : Ref sig .tc)} : Finset (DevRef τ sig)) by decide)
    _ = W1 m d (Proc.devRef .tc main_arg20) := W2_of_ne m d main_arg20 (by decide)
    _ = W0 m d (Proc.devRef .tc main_arg20) := (op0 (F := F)).result_of_not_mem _ (show _ ∉ ({Proc.devRef .tc (main_v0 : Ref sig .tc)} : Finset (DevRef τ sig)) by decide)
    _ = m ((SparseCore.T d).loc main_arg20) := rfl

end Cert.KernelIdeal.Sc

end
-- ==== Proof.KerGlueB0.lean ====
import proofs.«208327_g62569083568895_cont_9to1c4b_407_46_alg».proof.Proof.ScMain1
import Idealize.ShloMosaic.Lib.ValueIdx
import Idealize.ShloMosaic.Lib.Pipeline.Value

set_option maxRecDepth 16384

noncomputable section

namespace Cert.KerSide

open Cert.KernelIdeal Cert.KernelIdeal.Gen Cert.KernelIdeal.Body Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open scoped BigOperators

/-! The tables kernel's three result arrays: the region has one point and its blocks are the whole arrays, so each result
array ends at the body's output over the entry arrays. -/

theorem idx_facts0 : ∀ t : Fin cfg0.N,
    win0_0.index t (0 : Fin 3) = 0
    ∧ win0_0.index t (1 : Fin 3) = 0
    ∧ win0_0.index t (2 : Fin 3) = 0
    ∧ win0_1.index t (0 : Fin 3) = 0
    ∧ win0_1.index t (1 : Fin 3) = 0
    ∧ win0_1.index t (2 : Fin 3) = 0
    ∧ win0_2.index t (0 : Fin 3) = 0
    ∧ win0_2.index t (1 : Fin 3) = 0
    ∧ win0_2.index t (2 : Fin 3) = 0
    ∧ win0_3.index t (0 : Fin 3) = 0
    ∧ win0_3.index t (1 : Fin 3) = 0
    ∧ win0_3.index t (2 : Fin 3) = 0
    ∧ win0_4.index t (0 : Fin 3) = 0
    ∧ win0_4.index t (1 : Fin 3) = 0
    ∧ win0_4.index t (2 : Fin 3) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 3) = 0
    ∧ win0_8.index t (1 : Fin 3) = 0
    ∧ win0_8.index t (2 : Fin 3) = 0 :=
  (by decide +kernel : ∀ t : Fin grid0.N, _)

section R0
variable {F : FTy → Type} [FloatOps F]
variable (V : (c : Dev nD) → (b : Ref sig .tc) → Buf (Elt F) ((c : Thread nD τ).loc b))

theorem iblk0_0_eq (c : Dev nD) (t : Fin cfg0.N) : iblk0 V c 0 t = V c main_arg0 := by
  funext j
  show V c main_arg0 (((cfg0.win 0).blk t).view.emb j) = _
  refine congrArg (V c main_arg0) ?_
  obtain ⟨e0, e1, e2, -, -, -, -, -, -, -, -, -, -, -, -, -, -, -, -, -, -, -, -, -⟩ := idx_facts0 t
  funext ax; apply Fin.ext
  match ax with
  | ⟨0, _⟩ => show win0_0.index t (0 : Fin 3) * 2 + 1 * (j 0).val = (j 0).val; omega
  | ⟨1, _⟩ => show win0_0.index t (1 : Fin 3) * 2048 + 1 * (j 1).val = (j 1).val; omega
  | ⟨2, _⟩ => show win0_0.index t (2 : Fin 3) * 128 + 1 * (j 2).val = (j 2).val; omega

theorem iblk0_1_eq (c : Dev nD) (t : Fin cfg0.N) : iblk0 V c 1 t = V c main_arg1 := by
  funext j
  show V c main_arg1 (((cfg0.win 1).blk t).view.emb j) = _
  refine congrArg (V c main_arg1) ?_
  obtain ⟨-, -, -, e0, e1, e2, -, -, -, -, -, -, -, -, -, -, -, -, -, -, -, -, -, -⟩ := idx_facts0 t
  funext ax; apply Fin.ext
  match ax with
  | ⟨0, _⟩ => show win0_1.index t (0 : Fin 3) * 2 + 1 * (j 0).val = (j 0).val; omega
  | ⟨1, _⟩ => show win0_1.index t (1 : Fin 3) * 2048 + 1 * (j 1).val = (j 1).val; omega
  | ⟨2, _⟩ => show win0_1.index t (2 : Fin 3) * 128 + 1 * (j 2).val = (j 2).val; omega

theorem iblk0_2_eq (c : Dev nD) (t : Fin cfg0.N) : iblk0 V c 2 t = V c main_arg4 := by
  funext j
  show V c main_arg4 (((cfg0.win 2).blk t).view.emb j) = _
  refine congrArg (V c main_arg4) ?_
  obtain ⟨-, -, -, -, -, -, e0, e1, e2, -, -, -, -, -, -, -, -, -, -, -, -, -, -, -⟩ := idx_facts0 t
  funext ax; apply Fin.ext
  match ax with
  | ⟨0, _⟩ => show win0_2.index t (0 : Fin 3) * 2 + 1 * (j 0).val = (j 0).val; omega
  | ⟨1, _⟩ => show win0_2.index t (1 : Fin 3) * 2048 + 1 * (j 1).val = (j 1).val; omega
  | ⟨2, _⟩ => show win0_2.index t (2 : Fin 3) * 128 + 1 * (j 2).val = (j 2).val; omega

theorem iblk0_3_eq (c : Dev nD) (t : Fin cfg0.N) : iblk0 V c 3 t = V c main_arg3 := by
  funext j
  show V c main_arg3 (((cfg0.win 3).blk t).view.emb j) = _
  refine congrArg (V c main_arg3) ?_
  obtain ⟨-, -, -, -, -, -, -, -, -, e0, e1, e2, -, -, -, -, -, -, -, -, -, -, -, -⟩ := idx_facts0 t
  funext ax; apply Fin.ext
  match ax with
  | ⟨0, _⟩ => show win0_3.index t (0 : Fin 3) * 2 + 1 * (j 0).val = (j 0).val; omega
  | ⟨1, _⟩ => show win0_3.index t (1 : Fin 3) * 2048 + 1 * (j 1).val = (j 1).val; omega
  | ⟨2, _⟩ => show win0_3.index t (2 : Fin 3) * 32 + 1 * (j 2).val = (j 2).val; omega

theorem iblk0_4_eq (c : Dev nD) (t : Fin cfg0.N) : iblk0 V c 4 t = V c main_v0 := by
  funext j
  show V c main_v0 (((cfg0.win 4).blk t).view.emb j) = _
  refine congrArg (V c main_v0) ?_
  obtain ⟨-, -, -, -, -, -, -, -, -, -, -, -, e0, e1, e2, -, -, -, -, -, -, -, -, -⟩ := idx_facts0 t
  funext ax; apply Fin.ext
  match ax with
  | ⟨0, _⟩ => show win0_4.index t (0 : Fin 3) * 2 + 1 * (j 0).val = (j 0).val; omega
  | ⟨1, _⟩ => show win0_4.index t (1 : Fin 3) * 2048 + 1 * (j 1).val = (j 1).val; omega
  | ⟨2, _⟩ => show win0_4.index t (2 : Fin 3) * 32 + 1 * (j 2).val = (j 2).val; omega

theorem iblk0_5_eq (c : Dev nD) (t : Fin cfg0.N) : iblk0 V c 5 t = V c main_arg7 := by
  funext j
  show V c main_arg7 (((cfg0.win 5).blk t).view.emb j) = _
  refine congrArg (V c main_arg7) ?_
  obtain ⟨-, -, -, -, -, -, -, -, -, -, -, -, -, -, -, e0, e1, -, -, -, -, -, -, -⟩ := idx_facts0 t
  funext ax; apply Fin.ext
  match ax with
  | ⟨0, _⟩ => show win0_5.index t (0 : Fin 2) * 512 + 1 * (j 0).val = (j 0).val; omega
  | ⟨1, _⟩ => show win0_5.index t (1 : Fin 2) * 128 + 1 * (j 1).val = (j 1).val; omega

theorem mem_blk0_6 (t : Fin cfg0.N) (i : S8192x128.Idx) : i ∈ ((cfg0.win 6).blk t).view.set := by
  show i ∈ ((View.whole main_v1_0).slice (win0_6.rect t)).set
  rw [View.set_slice_whole, Rect.mem_set_unit]
  obtain ⟨-, -, -, -, -, -, -, -, -, -, -, -, -, -, -, -, -, e0, e1, -, -, -, -, -⟩ := idx_facts0 t
  intro a
  match a with
  | ⟨0, _⟩ => show win0_6.index t (0 : Fin 2) * 8192 ≤ (i 0).val ∧ (i 0).val < win0_6.index t (0 : Fin 2) * 8192 + 8192; have hh : (i 0).val < 8192 := (i 0).isLt; omega
  | ⟨1, _⟩ => show win0_6.index t (1 : Fin 2) * 128 ≤ (i 1).val ∧ (i 1).val < win0_6.index t (1 : Fin 2) * 128 + 128; have hh : (i 1).val < 128 := (i 1).isLt; omega

theorem mem_blk0_7 (t : Fin cfg0.N) (i : S4096x128.Idx) : i ∈ ((cfg0.win 7).blk t).view.set := by
  show i ∈ ((View.whole main_v1_1).slice (win0_7.rect t)).set
  rw [View.set_slice_whole, Rect.mem_set_unit]
  obtain ⟨-, -, -, -, -, -, -, -, -, -, -, -, -, -, -, -, -, -, -, e0, e1, -, -, -⟩ := idx_facts0 t
  intro a
  match a with
  | ⟨0, _⟩ => show win0_7.index t (0 : Fin 2) * 4096 ≤ (i 0).val ∧ (i 0).val < win0_7.index t (0 : Fin 2) * 4096 + 4096; have hh : (i 0).val < 4096 := (i 0).isLt; omega
  | ⟨1, _⟩ => show win0_7.index t (1 : Fin 2) * 128 ≤ (i 1).val ∧ (i 1).val < win0_7.index t (1 : Fin 2) * 128 + 128; have hh : (i 1).val < 128 := (i 1).isLt; omega

theorem mem_blk0_8 (t : Fin cfg0.N) (i : S2x2048x32.Idx) : i ∈ ((cfg0.win 8).blk t).view.set := by
  show i ∈ ((View.whole main_v1_2).slice (win0_8.rect t)).set
  rw [View.set_slice_whole, Rect.mem_set_unit]
  obtain ⟨-, -, -, -, -, -, -, -, -, -, -, -, -, -, -, -, -, -, -, -, -, e0, e1, e2⟩ := idx_facts0 t
  intro a
  match a with
  | ⟨0, _⟩ => show win0_8.index t (0 : Fin 3) * 2 ≤ (i 0).val ∧ (i 0).val < win0_8.index t (0 : Fin 3) * 2 + 2; have hh : (i 0).val < 2 := (i 0).isLt; omega
  | ⟨1, _⟩ => show win0_8.index t (1 : Fin 3) * 2048 ≤ (i 1).val ∧ (i 1).val < win0_8.index t (1 : Fin 3) * 2048 + 2048; have hh : (i 1).val < 2048 := (i 1).isLt; omega
  | ⟨2, _⟩ => show win0_8.index t (2 : Fin 3) * 32 ≤ (i 2).val ∧ (i 2).val < win0_8.index t (2 : Fin 3) * 32 + 32; have hh : (i 2).val < 32 := (i 2).isLt; omega

variable {Ix : Type} [DecidableEq Ix] {Name : Type} [DecidableEq Name] {U : Type} [URA U] {Lvl : Type} [Preorder Lvl]
variable (O : CellTallies nD τ sig Ix) (B : Set (SemLoc sig × Ix))

theorem arr0_6 (c : Dev nD) :
    (dat0 (Ix := Ix) (Name := Name) (U := U) (Lvl := Lvl) V O B c).arrAt 6 cfg0.N = out0_6 (V c main_arg0) (V c main_arg1) (V c main_arg4) (V c main_arg7) := by
  refine (dat0 (Ix := Ix) (Name := Name) (U := U) (Lvl := Lvl) V O B c).arrAt_eq_of_cover 6 (out0_6 (V c main_arg0) (V c main_arg1) (V c main_arg4) (V c main_arg7)) (fun t _ => ?_)
    (fun i => ⟨⟨0, by decide⟩, flush0_6 _, ?_⟩)
  · show (cfg0.win 6).cut (grid0.coords t) ((dat0 (Ix := Ix) (Name := Name) (U := U) (Lvl := Lvl) V O B c).after 6 t) = _
    rw [after0_6, iblk0_0_eq, iblk0_1_eq, iblk0_2_eq, iblk0_5_eq]
    generalize out0_6 (V c main_arg0) (V c main_arg1) (V c main_arg4) (V c main_arg7) = P
    funext j
    show P ((cfg0.win 6).xinj (grid0.coords t) j) = P (((cfg0.win 6).blk t).view.emb j)
    refine congrArg P ?_
    obtain ⟨-, -, -, -, -, -, -, -, -, -, -, -, -, -, -, -, -, e0, e1, -, -, -, -, -⟩ := idx_facts0 t
    funext ax; apply Fin.ext
    match ax with
    | ⟨0, _⟩ => show (j 0).val = win0_6.index t (0 : Fin 2) * 8192 + 1 * (j 0).val; omega
    | ⟨1, _⟩ => show (j 1).val = win0_6.index t (1 : Fin 2) * 128 + 1 * (j 1).val; omega
  · exact mem_blk0_6 _ i

theorem arr0_7 (c : Dev nD) :
    (dat0 (Ix := Ix) (Name := Name) (U := U) (Lvl := Lvl) V O B c).arrAt 7 cfg0.N = out0_7 (V c main_arg0) (V c main_arg7) := by
  refine (dat0 (Ix := Ix) (Name := Name) (U := U) (Lvl := Lvl) V O B c).arrAt_eq_of_cover 7 (out0_7 (V c main_arg0) (V c main_arg7)) (fun t _ => ?_)
    (fun i => ⟨⟨0, by decide⟩, flush0_7 _, ?_⟩)
  · show (cfg0.win 7).cut (grid0.coords t) ((dat0 (Ix := Ix) (Name := Name) (U := U) (Lvl := Lvl) V O B c).after 7 t) = _
    rw [after0_7, iblk0_0_eq, iblk0_5_eq]
    generalize out0_7 (V c main_arg0) (V c main_arg7) = P
    funext j
    show P ((cfg0.win 7).xinj (grid0.coords t) j) = P (((cfg0.win 7).blk t).view.emb j)
    refine congrArg P ?_
    obtain ⟨-, -, -, -, -, -, -, -, -, -, -, -, -, -, -, -, -, -, -, e0, e1, -, -, -⟩ := idx_facts0 t
    funext ax; apply Fin.ext
    match ax with
    | ⟨0, _⟩ => show (j 0).val = win0_7.index t (0 : Fin 2) * 4096 + 1 * (j 0).val; omega
    | ⟨1, _⟩ => show (j 1).val = win0_7.index t (1 : Fin 2) * 128 + 1 * (j 1).val; omega
  · exact mem_blk0_7 _ i

theorem arr0_8 (c : Dev nD) :
    (dat0 (Ix := Ix) (Name := Name) (U := U) (Lvl := Lvl) V O B c).arrAt 8 cfg0.N = out0_8 (V c main_arg3) (V c main_v0) := by
  refine (dat0 (Ix := Ix) (Name := Name) (U := U) (Lvl := Lvl) V O B c).arrAt_eq_of_cover 8 (out0_8 (V c main_arg3) (V c main_v0)) (fun t _ => ?_)
    (fun i => ⟨⟨0, by decide⟩, flush0_8 _, ?_⟩)
  · show (cfg0.win 8).cut (grid0.coords t) ((dat0 (Ix := Ix) (Name := Name) (U := U) (Lvl := Lvl) V O B c).after 8 t) = _
    rw [after0_8, iblk0_3_eq, iblk0_4_eq]
    generalize out0_8 (V c main_arg3) (V c main_v0) = P
    funext j
    show P ((cfg0.win 8).xinj (grid0.coords t) j) = P (((cfg0.win 8).blk t).view.emb j)
    refine congrArg P ?_
    obtain ⟨-, -, -, -, -, -, -, -, -, -, -, -, -, -, -, -, -, -, -, -, -, e0, e1, e2⟩ := idx_facts0 t
    funext ax; apply Fin.ext
    match ax with
    | ⟨0, _⟩ => show (j 0).val = win0_8.index t (0 : Fin 3) * 2 + 1 * (j 0).val; omega
    | ⟨1, _⟩ => show (j 1).val = win0_8.index t (1 : Fin 3) * 2048 + 1 * (j 1).val; omega
    | ⟨2, _⟩ => show (j 2).val = win0_8.index t (2 : Fin 3) * 32 + 1 * (j 2).val; omega
  · exact mem_blk0_8 _ i

end R0

end Cert.KerSide

end
-- ==== Proof.KerGlueB1.lean ====
import proofs.«208327_g62569083568895_cont_9to1c4b_407_46_alg».proof.Proof.KerGlueB0
import proofs.«208327_g62569083568895_cont_9to1c4b_407_46_alg».proof.Proof.ScGout

set_option maxRecDepth 16384

noncomputable section

namespace Cert.KerSide

open Cert.KernelIdeal Cert.KernelIdeal.Gen Cert.KernelIdeal.Body Cert.KernelIdeal.Sc
open Idealize.ShloMosaic Idealize.ShloMosaic.ValueIdx Idealize.ShloMosaic.TcCoe Idealize.ShloMosaic.StableHlo
open Idealize.SL Idealize.SL.Sem
open Idealize.ShloMosaic.Pipeline (Dat Cfg Window)

/-! The buffers at each boundary of the program, followed from the launch memory: which buffers pass through the mask
conversion, the first pipeline, the reshape of the indices, the gather and the thirteen host operations unchanged, and
what the others hold. -/

variable {F : FTy → Type} [FloatOps F]
variable (m : (ℓ : Loc nD τ sig) → Buf (Elt F) ℓ) (G3 : (d : Dev nD) → Buf (Elt F) (outLoc d)) (d : Dev nD)

theorem W1_of_ne (b : Ref sig .tc) (h : b ≠ main_v0) : W1 m d (Proc.devRef .tc b) = m (d, Proc.devRef .tc b) :=
  unary_result_ne _ _ _ _ _ _ h

theorem W1_v0 : W1 m d (Proc.devRef .tc main_v0) = extui 32 (m (d, Proc.devRef .tc main_arg6)) natLt_1_32 :=
  unary_result _ _ _ _ _ _

theorem W2_pass (b : Ref sig .tc) (hs : ∀ w, Pipeline.arrRef spec0 w ≠ b) (h0 : b ≠ main_v0) :
    W2 m d (Proc.devRef .tc b) = m (d, Proc.devRef .tc b) :=
  (W2_of_ne m d b hs).trans (W1_of_ne m d b h0)

/-- An input array of the first pipeline is unchanged by it. -/
theorem W2_in (w : Fin cfg0.W) (hnf : ∀ t, (cfg0.win w).flush t = false) (h0 : Pipeline.arrRef spec0 w ≠ main_v0) :
    W2 m d (Proc.devRef .tc (Pipeline.arrRef spec0 w)) = m (d, Proc.devRef .tc (Pipeline.arrRef spec0 w)) := by
  rw [W2_arr]
  funext i
  rw [(D0 m d).arrAt_apply_of_forall_not_mem w cfg0.N i (fun t _ hf => absurd hf (by rw [hnf t]; decide))]
  show (dat0 (V1 m) _ _ d).A w i = _
  rw [A_eq0]
  exact congrFun (W1_of_ne m d _ h0) i

theorem W3_of_ne (b : Ref sig .tc) (h : b ≠ main_v2) : W3 m d (Proc.devRef .tc b) = W2 m d (Proc.devRef .tc b) :=
  reshape_result_ne _ _ _ _ _ _ _ h

theorem W4_of_ne (b : Ref sig .tc) (h : b ≠ main_v3) : W4 m G3 d (Proc.devRef .tc b) = W3 m d (Proc.devRef .tc b) := by
  unfold W4
  exact Function.update_of_ne (devRef_ne_of_ne h) _ _

theorem W4_v3 : W4 m G3 d (Proc.devRef .tc main_v3) = G3 d := by
  unfold W4
  exact Function.update_self _ _ _

/-- A buffer that no step before the second pipeline's host operations touches still holds its launch contents. -/
theorem W4_pass (b : Ref sig .tc) (h3 : b ≠ main_v3) (h2 : b ≠ main_v2) (hs : ∀ w, Pipeline.arrRef spec0 w ≠ b) (h0 : b ≠ main_v0) :
    W4 m G3 d (Proc.devRef .tc b) = m (d, Proc.devRef .tc b) :=
  (W4_of_ne m G3 d b h3).trans ((W3_of_ne m d b h2).trans (W2_pass m d b hs h0))

/-- An input array of the first pipeline still holds its launch contents there. -/
theorem W4_in (w : Fin cfg0.W) (hnf : ∀ t, (cfg0.win w).flush t = false) (h0 : Pipeline.arrRef spec0 w ≠ main_v0)
    (h3 : Pipeline.arrRef spec0 w ≠ main_v3) (h2 : Pipeline.arrRef spec0 w ≠ main_v2) :
    W4 m G3 d (Proc.devRef .tc (Pipeline.arrRef spec0 w)) = m (d, Proc.devRef .tc (Pipeline.arrRef spec0 w)) :=
  (W4_of_ne m G3 d _ h3).trans ((W3_of_ne m d _ h2).trans (W2_in m d w hnf h0))

end Cert.KerSide

end
-- ==== Proof.KerGlueArgs.lean ====
import proofs.«208327_g62569083568895_cont_9to1c4b_407_46_alg».proof.Proof.KerGlueB1

set_option maxRecDepth 16384

noncomputable section

namespace Cert.KerSide

open Cert.KernelIdeal Cert.KernelIdeal.Gen Cert.KernelIdeal.Body Cert.KernelIdeal.Sc
open Idealize.ShloMosaic Idealize.ShloMosaic.ValueIdx Idealize.ShloMosaic.TcCoe Idealize.ShloMosaic.StableHlo
open Idealize.SL Idealize.SL.Sem
open Idealize.ShloMosaic.Pipeline (Dat Cfg Window)

/-! The argument arrays at the program's return are the launch arrays: no host operation writes one, the first pipeline
reads five of them and the second four, and a pipeline never writes an array it only reads. Any float values. -/

variable {F : FTy → Type} [FloatOps F]
variable (m : (ℓ : Loc nD τ sig) → Buf (Elt F) ℓ) (G3 : (d : Dev nD) → Buf (Elt F) (outLoc d)) (d : Dev nD)

theorem W7_of_ne (b : Ref sig .tc) (h : b ≠ main_v18) : W7 m G3 d (Proc.devRef .tc b) = W6 m G3 d (Proc.devRef .tc b) :=
  reshape_result_ne _ _ _ _ _ _ _ h

/-- An input array of the second pipeline is unchanged by it. -/
theorem W6_in (w : Fin cfg2.W) (hnf : ∀ t, (cfg2.win w).flush t = false) :
    W6 m G3 d (Proc.devRef .tc (Pipeline.arrRef spec2 w)) = W5 m G3 d (Proc.devRef .tc (Pipeline.arrRef spec2 w)) := by
  rw [W6_arr]
  funext i
  rw [(D2 m G3 d).arrAt_apply_of_forall_not_mem w cfg2.N i (fun t _ hf => absurd hf (by rw [hnf t]; decide))]
  show (dat2 (V5 m G3) _ _ d).A w i = _
  rw [A_eq2]

theorem W7_arg0 : W7 m G3 d (Proc.devRef .tc main_arg0) = m (d, Proc.devRef .tc main_arg0) := by
  rw [W7_of_ne m G3 d main_arg0 (by decide)]
  refine (W6_of_ne m G3 d main_arg0 (by decide)).trans ?_
  have e : W5 m G3 d (Proc.devRef .tc main_arg0) = W4 m G3 d (Proc.devRef .tc main_arg0) := by
    show StableHlo.after ops5 (W4 m G3 d) (Proc.devRef .tc main_arg0) = _
    after_results
  rw [e]
  exact W4_in m G3 d 0 (fun _ => rfl) (by decide) (by decide) (by decide)

theorem W7_arg1 : W7 m G3 d (Proc.devRef .tc main_arg1) = m (d, Proc.devRef .tc main_arg1) := by
  rw [W7_of_ne m G3 d main_arg1 (by decide)]
  refine (W6_of_ne m G3 d main_arg1 (by decide)).trans ?_
  have e : W5 m G3 d (Proc.devRef .tc main_arg1) = W4 m G3 d (Proc.devRef .tc main_arg1) := by
    show StableHlo.after ops5 (W4 m G3 d) (Proc.devRef .tc main_arg1) = _
    after_results
  rw [e]
  exact W4_in m G3 d 1 (fun _ => rfl) (by decide) (by decide) (by decide)

theorem W7_arg2 : W7 m G3 d (Proc.devRef .tc main_arg2) = m (d, Proc.devRef .tc main_arg2) := by
  rw [W7_of_ne m G3 d main_arg2 (by decide)]
  refine (W6_of_ne m G3 d main_arg2 (by decide)).trans ?_
  have e : W5 m G3 d (Proc.devRef .tc main_arg2) = W4 m G3 d (Proc.devRef .tc main_arg2) := by
    show StableHlo.after ops5 (W4 m G3 d) (Proc.devRef .tc main_arg2) = _
    after_results
  rw [e]
  exact W4_pass m G3 d main_arg2 (by decide) (by decide) (by decide) (by decide)

theorem W7_arg3 : W7 m G3 d (Proc.devRef .tc main_arg3) = m (d, Proc.devRef .tc main_arg3) := by
  rw [W7_of_ne m G3 d main_arg3 (by decide)]
  refine (W6_of_ne m G3 d main_arg3 (by decide)).trans ?_
  have e : W5 m G3 d (Proc.devRef .tc main_arg3) = W4 m G3 d (Proc.devRef .tc main_arg3) := by
    show StableHlo.after ops5 (W4 m G3 d) (Proc.devRef .tc main_arg3) = _
    after_results
  rw [e]
  exact W4_in m G3 d 3 (fun _ => rfl) (by decide) (by decide) (by decide)

theorem W7_arg4 : W7 m G3 d (Proc.devRef .tc main_arg4) = m (d, Proc.devRef .tc main_arg4) := by
  rw [W7_of_ne m G3 d main_arg4 (by decide)]
  refine (W6_of_ne m G3 d main_arg4 (by decide)).trans ?_
  have e : W5 m G3 d (Proc.devRef .tc main_arg4) = W4 m G3 d (Proc.devRef .tc main_arg4) := by
    show StableHlo.after ops5 (W4 m G3 d) (Proc.devRef .tc main_arg4) = _
    after_results
  rw [e]
  exact W4_in m G3 d 2 (fun _ => rfl) (by decide) (by decide) (by decide)

theorem W7_arg5 : W7 m G3 d (Proc.devRef .tc main_arg5) = m (d, Proc.devRef .tc main_arg5) := by
  rw [W7_of_ne m G3 d main_arg5 (by decide)]
  refine (W6_of_ne m G3 d main_arg5 (by decide)).trans ?_
  have e : W5 m G3 d (Proc.devRef .tc main_arg5) = W4 m G3 d (Proc.devRef .tc main_arg5) := by
    show StableHlo.after ops5 (W4 m G3 d) (Proc.devRef .tc main_arg5) = _
    after_results
  rw [e]
  exact W4_pass m G3 d main_arg5 (by decide) (by decide) (by decide) (by decide)

theorem W7_arg6 : W7 m G3 d (Proc.devRef .tc main_arg6) = m (d, Proc.devRef .tc main_arg6) := by
  rw [W7_of_ne m G3 d main_arg6 (by decide)]
  refine (W6_of_ne m G3 d main_arg6 (by decide)).trans ?_
  have e : W5 m G3 d (Proc.devRef .tc main_arg6) = W4 m G3 d (Proc.devRef .tc main_arg6) := by
    show StableHlo.after ops5 (W4 m G3 d) (Proc.devRef .tc main_arg6) = _
    after_results
  rw [e]
  exact W4_pass m G3 d main_arg6 (by decide) (by decide) (by decide) (by decide)

theorem W7_arg7 : W7 m G3 d (Proc.devRef .tc main_arg7) = m (d, Proc.devRef .tc main_arg7) := by
  rw [W7_of_ne m G3 d main_arg7 (by decide)]
  refine (W6_of_ne m G3 d main_arg7 (by decide)).trans ?_
  have e : W5 m G3 d (Proc.devRef .tc main_arg7) = W4 m G3 d (Proc.devRef .tc main_arg7) := by
    show StableHlo.after ops5 (W4 m G3 d) (Proc.devRef .tc main_arg7) = _
    after_results
  rw [e]
  exact W4_in m G3 d 5 (fun _ => rfl) (by decide) (by decide) (by decide)

theorem W7_arg8 : W7 m G3 d (Proc.devRef .tc main_arg8) = m (d, Proc.devRef .tc main_arg8) := by
  rw [W7_of_ne m G3 d main_arg8 (by decide)]
  refine (W6_of_ne m G3 d main_arg8 (by decide)).trans ?_
  have e : W5 m G3 d (Proc.devRef .tc main_arg8) = W4 m G3 d (Proc.devRef .tc main_arg8) := by
    show StableHlo.after ops5 (W4 m G3 d) (Proc.devRef .tc main_arg8) = _
    after_results
  rw [e]
  exact W4_pass m G3 d main_arg8 (by decide) (by decide) (by decide) (by decide)

theorem W7_arg9 : W7 m G3 d (Proc.devRef .tc main_arg9) = m (d, Proc.devRef .tc main_arg9) := by
  rw [W7_of_ne m G3 d main_arg9 (by decide)]
  refine (W6_in m G3 d 7 (by decide)).trans ?_
  have e : W5 m G3 d (Proc.devRef .tc main_arg9) = W4 m G3 d (Proc.devRef .tc main_arg9) := by
    show StableHlo.after ops5 (W4 m G3 d) (Proc.devRef .tc main_arg9) = _
    after_results
  rw [e]
  exact W4_pass m G3 d main_arg9 (by decide) (by decide) (by decide) (by decide)

theorem W7_arg10 : W7 m G3 d (Proc.devRef .tc main_arg10) = m (d, Proc.devRef .tc main_arg10) := by
  rw [W7_of_ne m G3 d main_arg10 (by decide)]
  refine (W6_of_ne m G3 d main_arg10 (by decide)).trans ?_
  have e : W5 m G3 d (Proc.devRef .tc main_arg10) = W4 m G3 d (Proc.devRef .tc main_arg10) := by
    show StableHlo.after ops5 (W4 m G3 d) (Proc.devRef .tc main_arg10) = _
    after_results
  rw [e]
  exact W4_pass m G3 d main_arg10 (by decide) (by decide) (by decide) (by decide)

theorem W7_arg11 : W7 m G3 d (Proc.devRef .tc main_arg11) = m (d, Proc.devRef .tc main_arg11) := by
  rw [W7_of_ne m G3 d main_arg11 (by decide)]
  refine (W6_in m G3 d 9 (by decide)).trans ?_
  have e : W5 m G3 d (Proc.devRef .tc main_arg11) = W4 m G3 d (Proc.devRef .tc main_arg11) := by
    show StableHlo.after ops5 (W4 m G3 d) (Proc.devRef .tc main_arg11) = _
    after_results
  rw [e]
  exact W4_pass m G3 d main_arg11 (by decide) (by decide) (by decide) (by decide)

theorem W7_arg12 : W7 m G3 d (Proc.devRef .tc main_arg12) = m (d, Proc.devRef .tc main_arg12) := by
  rw [W7_of_ne m G3 d main_arg12 (by decide)]
  refine (W6_of_ne m G3 d main_arg12 (by decide)).trans ?_
  have e : W5 m G3 d (Proc.devRef .tc main_arg12) = W4 m G3 d (Proc.devRef .tc main_arg12) := by
    show StableHlo.after ops5 (W4 m G3 d) (Proc.devRef .tc main_arg12) = _
    after_results
  rw [e]
  exact W4_pass m G3 d main_arg12 (by decide) (by decide) (by decide) (by decide)

theorem W7_arg13 : W7 m G3 d (Proc.devRef .tc main_arg13) = m (d, Proc.devRef .tc main_arg13) := by
  rw [W7_of_ne m G3 d main_arg13 (by decide)]
  refine (W6_in m G3 d 11 (by decide)).trans ?_
  have e : W5 m G3 d (Proc.devRef .tc main_arg13) = W4 m G3 d (Proc.devRef .tc main_arg13) := by
    show StableHlo.after ops5 (W4 m G3 d) (Proc.devRef .tc main_arg13) = _
    after_results
  rw [e]
  exact W4_pass m G3 d main_arg13 (by decide) (by decide) (by decide) (by decide)

theorem W7_arg14 : W7 m G3 d (Proc.devRef .tc main_arg14) = m (d, Proc.devRef .tc main_arg14) := by
  rw [W7_of_ne m G3 d main_arg14 (by decide)]
  refine (W6_of_ne m G3 d main_arg14 (by decide)).trans ?_
  have e : W5 m G3 d (Proc.devRef .tc main_arg14) = W4 m G3 d (Proc.devRef .tc main_arg14) := by
    show StableHlo.after ops5 (W4 m G3 d) (Proc.devRef .tc main_arg14) = _
    after_results
  rw [e]
  exact W4_pass m G3 d main_arg14 (by decide) (by decide) (by decide) (by decide)

theorem W7_arg15 : W7 m G3 d (Proc.devRef .tc main_arg15) = m (d, Proc.devRef .tc main_arg15) := by
  rw [W7_of_ne m G3 d main_arg15 (by decide)]
  refine (W6_in m G3 d 13 (by decide)).trans ?_
  have e : W5 m G3 d (Proc.devRef .tc main_arg15) = W4 m G3 d (Proc.devRef .tc main_arg15) := by
    show StableHlo.after ops5 (W4 m G3 d) (Proc.devRef .tc main_arg15) = _
    after_results
  rw [e]
  exact W4_pass m G3 d main_arg15 (by decide) (by decide) (by decide) (by decide)

theorem W7_arg16 : W7 m G3 d (Proc.devRef .tc main_arg16) = m (d, Proc.devRef .tc main_arg16) := by
  rw [W7_of_ne m G3 d main_arg16 (by decide)]
  refine (W6_of_ne m G3 d main_arg16 (by decide)).trans ?_
  have e : W5 m G3 d (Proc.devRef .tc main_arg16) = W4 m G3 d (Proc.devRef .tc main_arg16) := by
    show StableHlo.after ops5 (W4 m G3 d) (Proc.devRef .tc main_arg16) = _
    after_results
  rw [e]
  exact W4_pass m G3 d main_arg16 (by decide) (by decide) (by decide) (by decide)

theorem W7_arg17 : W7 m G3 d (Proc.devRef .tc main_arg17) = m (d, Proc.devRef .tc main_arg17) := by
  rw [W7_of_ne m G3 d main_arg17 (by decide)]
  refine (W6_of_ne m G3 d main_arg17 (by decide)).trans ?_
  have e : W5 m G3 d (Proc.devRef .tc main_arg17) = W4 m G3 d (Proc.devRef .tc main_arg17) := by
    show StableHlo.after ops5 (W4 m G3 d) (Proc.devRef .tc main_arg17) = _
    after_results
  rw [e]
  exact W4_pass m G3 d main_arg17 (by decide) (by decide) (by decide) (by decide)

theorem W7_arg18 : W7 m G3 d (Proc.devRef .tc main_arg18) = m (d, Proc.devRef .tc main_arg18) := by
  rw [W7_of_ne m G3 d main_arg18 (by decide)]
  refine (W6_of_ne m G3 d main_arg18 (by decide)).trans ?_
  have e : W5 m G3 d (Proc.devRef .tc main_arg18) = W4 m G3 d (Proc.devRef .tc main_arg18) := by
    show StableHlo.after ops5 (W4 m G3 d) (Proc.devRef .tc main_arg18) = _
    after_results
  rw [e]
  exact W4_pass m G3 d main_arg18 (by decide) (by decide) (by decide) (by decide)

theorem W7_arg19 : W7 m G3 d (Proc.devRef .tc main_arg19) = m (d, Proc.devRef .tc main_arg19) := by
  rw [W7_of_ne m G3 d main_arg19 (by decide)]
  refine (W6_of_ne m G3 d main_arg19 (by decide)).trans ?_
  have e : W5 m G3 d (Proc.devRef .tc main_arg19) = W4 m G3 d (Proc.devRef .tc main_arg19) := by
    show StableHlo.after ops5 (W4 m G3 d) (Proc.devRef .tc main_arg19) = _
    after_results
  rw [e]
  exact W4_pass m G3 d main_arg19 (by decide) (by decide) (by decide) (by decide)

theorem W7_arg20 : W7 m G3 d (Proc.devRef .tc main_arg20) = m (d, Proc.devRef .tc main_arg20) := by
  rw [W7_of_ne m G3 d main_arg20 (by decide)]
  refine (W6_of_ne m G3 d main_arg20 (by decide)).trans ?_
  have e : W5 m G3 d (Proc.devRef .tc main_arg20) = W4 m G3 d (Proc.devRef .tc main_arg20) := by
    show StableHlo.after ops5 (W4 m G3 d) (Proc.devRef .tc main_arg20) = _
    after_results
  rw [e]
  exact W4_pass m G3 d main_arg20 (by decide) (by decide) (by decide) (by decide)

end Cert.KerSide

end
-- ==== Proof.KerGlueQ.lean ====
import proofs.«208327_g62569083568895_cont_9to1c4b_407_46_alg».proof.Proof.KerGlueArgs
import proofs.«208327_g62569083568895_cont_9to1c4b_407_46_alg».proof.Proof.ScGout

set_option maxRecDepth 16384

noncomputable section

namespace Cert.KerSide

open Cert.KernelIdeal Cert.KernelIdeal.Gen Cert.KernelIdeal.Body Cert.KernelIdeal.Sc
open Idealize.ShloMosaic Idealize.ShloMosaic.ValueIdx Idealize.ShloMosaic.TcCoe Idealize.ShloMosaic.StableHlo
open Idealize.SL Idealize.SL.Sem

/-! From the final memory to the run's postcondition: a memory that on the TensorCore's unscoped buffers of a device is
the last boundary's contents, over gathered rows that are the table rows their index words name, has the result buffer at
that boundary's contents and the argument arrays at their launch contents. Any float values. -/

variable {F : FTy → Type} [FloatOps F]
variable (m : (ℓ : Loc nD τ sig) → Buf (Elt F) ℓ)

/-- The argument arrays of a device, unchanged. -/
def ArgsKept (mem : (ℓ : Loc nD τ sig) → Buf (Elt F) ℓ) (d : Dev nD) : Prop :=
  mem ((d.tc : Thread nD τ).loc main_arg0) = m ((d.tc : Thread nD τ).loc main_arg0)
      ∧ mem ((d.tc : Thread nD τ).loc main_arg1) = m ((d.tc : Thread nD τ).loc main_arg1)
      ∧ mem ((d.tc : Thread nD τ).loc main_arg2) = m ((d.tc : Thread nD τ).loc main_arg2)
      ∧ mem ((d.tc : Thread nD τ).loc main_arg3) = m ((d.tc : Thread nD τ).loc main_arg3)
      ∧ mem ((d.tc : Thread nD τ).loc main_arg4) = m ((d.tc : Thread nD τ).loc main_arg4)
      ∧ mem ((d.tc : Thread nD τ).loc main_arg5) = m ((d.tc : Thread nD τ).loc main_arg5)
      ∧ mem ((d.tc : Thread nD τ).loc main_arg6) = m ((d.tc : Thread nD τ).loc main_arg6)
      ∧ mem ((d.tc : Thread nD τ).loc main_arg7) = m ((d.tc : Thread nD τ).loc main_arg7)
      ∧ mem ((d.tc : Thread nD τ).loc main_arg8) = m ((d.tc : Thread nD τ).loc main_arg8)
      ∧ mem ((d.tc : Thread nD τ).loc main_arg9) = m ((d.tc : Thread nD τ).loc main_arg9)
      ∧ mem ((d.tc : Thread nD τ).loc main_arg10) = m ((d.tc : Thread nD τ).loc main_arg10)
      ∧ mem ((d.tc : Thread nD τ).loc main_arg11) = m ((d.tc : Thread nD τ).loc main_arg11)
      ∧ mem ((d.tc : Thread nD τ).loc main_arg12) = m ((d.tc : Thread nD τ).loc main_arg12)
      ∧ mem ((d.tc : Thread nD τ).loc main_arg13) = m ((d.tc : Thread nD τ).loc main_arg13)
      ∧ mem ((d.tc : Thread nD τ).loc main_arg14) = m ((d.tc : Thread nD τ).loc main_arg14)
      ∧ mem ((d.tc : Thread nD τ).loc main_arg15) = m ((d.tc : Thread nD τ).loc main_arg15)
      ∧ mem ((d.tc : Thread nD τ).loc main_arg16) = m ((d.tc : Thread nD τ).loc main_arg16)
      ∧ mem ((d.tc : Thread nD τ).loc main_arg17) = m ((d.tc : Thread nD τ).loc main_arg17)
      ∧ mem ((d.tc : Thread nD τ).loc main_arg18) = m ((d.tc : Thread nD τ).loc main_arg18)
      ∧ mem ((d.tc : Thread nD τ).loc main_arg19) = m ((d.tc : Thread nD τ).loc main_arg19)
      ∧ mem ((d.tc : Thread nD τ).loc main_arg20) = m ((d.tc : Thread nD τ).loc main_arg20)

theorem argsKept_of_final (mem : (ℓ : Loc nD τ sig) → Buf (Elt F) ℓ) (d : Dev nD) (G3 : (c : Dev nD) → Buf (Elt F) (outLoc c))
    (hm : ∀ b ∈ Pipeline.ucRefs τ sig, mem (d, b) = W7 m G3 d b) : ArgsKept m mem d :=
  ⟨(hm (Proc.devRef .tc main_arg0) (by decide)).trans (W7_arg0 m G3 d),
    (hm (Proc.devRef .tc main_arg1) (by decide)).trans (W7_arg1 m G3 d),
    (hm (Proc.devRef .tc main_arg2) (by decide)).trans (W7_arg2 m G3 d),
    (hm (Proc.devRef .tc main_arg3) (by decide)).trans (W7_arg3 m G3 d),
    (hm (Proc.devRef .tc main_arg4) (by decide)).trans (W7_arg4 m G3 d),
    (hm (Proc.devRef .tc main_arg5) (by decide)).trans (W7_arg5 m G3 d),
    (hm (Proc.devRef .tc main_arg6) (by decide)).trans (W7_arg6 m G3 d),
    (hm (Proc.devRef .tc main_arg7) (by decide)).trans (W7_arg7 m G3 d),
    (hm (Proc.devRef .tc main_arg8) (by decide)).trans (W7_arg8 m G3 d),
    (hm (Proc.devRef .tc main_arg9) (by decide)).trans (W7_arg9 m G3 d),
    (hm (Proc.devRef .tc main_arg10) (by decide)).trans (W7_arg10 m G3 d),
    (hm (Proc.devRef .tc main_arg11) (by decide)).trans (W7_arg11 m G3 d),
    (hm (Proc.devRef .tc main_arg12) (by decide)).trans (W7_arg12 m G3 d),
    (hm (Proc.devRef .tc main_arg13) (by decide)).trans (W7_arg13 m G3 d),
    (hm (Proc.devRef .tc main_arg14) (by decide)).trans (W7_arg14 m G3 d),
    (hm (Proc.devRef .tc main_arg15) (by decide)).trans (W7_arg15 m G3 d),
    (hm (Proc.devRef .tc main_arg16) (by decide)).trans (W7_arg16 m G3 d),
    (hm (Proc.devRef .tc main_arg17) (by decide)).trans (W7_arg17 m G3 d),
    (hm (Proc.devRef .tc main_arg18) (by decide)).trans (W7_arg18 m G3 d),
    (hm (Proc.devRef .tc main_arg19) (by decide)).trans (W7_arg19 m G3 d),
    (hm (Proc.devRef .tc main_arg20) (by decide)).trans (W7_arg20 m G3 d)⟩

/-- The result buffer and the arguments of a device at the program's return. -/
theorem post_of_final (mem : (ℓ : Loc nD τ sig) → Buf (Elt F) ℓ) (d : Dev nD) (G3 : (c : Dev nD) → Buf (Elt F) (outLoc c))
    (hG : GoutOK (TabOf m) (IdxOf m) d (G3 d)) (hm : ∀ b ∈ Pipeline.ucRefs τ sig, mem (d, b) = W7 m G3 d b) :
    (∃ G3 : (c : Dev nD) → Buf (Elt F) (outLoc c), GoutOK (TabOf m) (IdxOf m) d (G3 d)
        ∧ mem ((d.tc : Thread nD τ).loc main_v18) = W7 m G3 d (Proc.devRef .tc main_v18))
      ∧ ArgsKept m mem d :=
  ⟨⟨G3, hG, hm (Proc.devRef .tc main_v18) (by decide)⟩, argsKept_of_final m mem d G3 hm⟩

end Cert.KerSide

end
-- ==== Proof.KerIdxBound.lean ====
import proofs.«208327_g62569083568895_cont_9to1c4b_407_46_alg».proof.Proof.KerGlueB1
import proofs.«208327_g62569083568895_cont_9to1c4b_407_46_alg».proof.Proof.Gen.Pre_input_domain
import Idealize.ShloMosaic.Lib.ReduceAll
import Idealize.ShloMosaic.Lib.IdealHost
import Idealize.ShloMosaic.Lib.ValueLayout

set_option maxRecDepth 16384

noncomputable section

namespace Cert.KerSide

open Cert.KernelIdeal Cert.KernelIdeal.Gen Cert.KernelIdeal.Body Cert.KernelIdeal.Sc
open Idealize.ShloMosaic Idealize.ShloMosaic.ValueIdx Idealize.ShloMosaic.TcCoe Idealize.ShloMosaic.StableHlo
open Idealize.SL Idealize.SL.Sem
open Idealize.ShloMosaic.Pipeline (Dat Cfg Window)

/-! The gather's index words are below the table's 8192 rows, for any float values: the neighbour table lies in
`[0, 2047]` by the precondition, and the tables kernel adds 2048 per batch element and 4096 times the mask bit, with
no wrap-around at 32 bits. Integer arithmetic only. -/

instance subsingletonIdx0 : Subsingleton (⟨0, ![]⟩ : Shape).Idx := ⟨fun a b => funext fun d => d.elim0⟩

theorem ofBool_one_iff {b : Bool} (h : BitVec.ofBool b = 1#1) : b = true := by
  revert h; cases b <;> decide

/-- An all-ones test of `0 ≤ K ≤ 2047` bounds every entry. -/
theorem kRangeF_of_test {s : Shape} {axes : List (Fin s.rank)} (K : IVec s 32) (hb : (⟨0, ![]⟩ : Shape).BroadcastsInDim s ![])
    (hr : s.ReducesTo axes ⟨0, ![]⟩) (hu : 0 < (⟨0, ![]⟩ : Shape).numel)
    (e : Host.reduce IntOp.andi (andi (cmpi .sge K (broadcastInDim s ![] hb (constantI ⟨0, ![]⟩ 32 0#32)))
      (cmpi .sle K (broadcastInDim s ![] hb (constantI ⟨0, ![]⟩ 32 2047#32)))) (constantI ⟨0, ![]⟩ 1 1#1) hr hu ix0 = 1#1) :
    ∀ x, 0 ≤ (K x).toInt ∧ (K x).toInt ≤ 2047 := by
  intro x
  have hx := Host.reduce_andi_all _ _ hr hu ix0 e x
  have hx' : IntOp.andi (IntOp.cmpi .sge (K x) 0#32) (IntOp.cmpi .sle (K x) 2047#32) = 1#1 := by
    rw [← hx]
    show _ = IntOp.andi (IntOp.cmpi .sge (K x) (broadcastInDim s ![] hb (constantI ⟨0, ![]⟩ 32 0#32) x))
      (IntOp.cmpi .sle (K x) (broadcastInDim s ![] hb (constantI ⟨0, ![]⟩ 32 2047#32) x))
    rw [broadcastInDim_scalar_apply, broadcastInDim_scalar_apply]
    rfl
  obtain ⟨hg, hl⟩ := IntOp.andi_eq_one.mp hx'
  unfold IntOp.cmpi at hg hl
  have hg' := ofBool_one_iff hg
  have hl' := ofBool_one_iff hl
  dsimp only at hg' hl'
  rw [BitVec.sle_eq_decide] at hg' hl'
  have h0 : (0#32 : BitVec 32).toInt = 0 := by decide
  have h2047 : (2047#32 : BitVec 32).toInt = 2047 := by decide
  rw [h0] at hg'; rw [h2047] at hl'
  exact ⟨of_decide_eq_true hg', of_decide_eq_true hl'⟩

section Words
variable {F : FTy → Type} [FloatOps F]

/-- Where the input-domain function is all ones the neighbour table's every entry lies in `[0, 2047]`. -/
theorem kRangeF (a0 : FVec F S2x2048x128 .f32) (a1 : FVec F S2x2048x128 .f32) (a2 : FVec F S2x2048x32x128 .f32) (a3 : IVec S2x2048x32 32) (a4 : FVec F S2x2048x128 .f32) (a5 : FVec F S2x2048x32 .f32) (a6 : IVec S2x2048x32 1) (a7 : FVec F S512x128 .f32) (a8 : FVec F S128 .f32) (a9 : FVec F S128x128 .f32) (a10 : FVec F S128 .f32) (a11 : FVec F S128x128 .f32) (a12 : FVec F S128 .f32) (a13 : FVec F S128x512 .f32) (a14 : FVec F S512 .f32) (a15 : FVec F S512x128 .f32) (a16 : FVec F S128 .f32) (a17 : FVec F S128 .f32) (a18 : FVec F S128 .f32) (a19 : FVec F S128 .f32) (a20 : FVec F S128 .f32)
    (h : Cert.Pre_input_domain.fn (F := F) a0 a1 a2 a3 a4 a5 a6 a7 a8 a9 a10 a11 a12 a13 a14 a15 a16 a17 a18 a19 a20 = fun _ => 1#1) :
    ∀ x, 0 ≤ (a3 x).toInt ∧ (a3 x).toInt ≤ 2047 := by
  have h0 := congrFun h ix0
  unfold Cert.Pre_input_domain.fn Cert.Pre_input_domain.fn_part1 Cert.Pre_input_domain.fn_part2 Cert.Pre_input_domain.fn_part3 Cert.Pre_input_domain.fn_part4 Cert.Pre_input_domain.fn_part5 at h0
  dsimp only at h0
  obtain ⟨-, hk⟩ := IntOp.andi_eq_one.mp h0
  exact kRangeF_of_test a3 _ _ _ hk

theorem slabK_0 {Val : EltTy → Type} {e : EltTy} (x : S2x2048x32.Idx → Val e) (n : Fin 2048) (k : Fin 32) :
    View.ld x rK_0 (ix3 (0 : Fin 1) n k) = x (ix3 (0 : Fin 2) n k) := by
  refine congrArg x (funext fun a => Fin.ext ?_)
  match a with
  | ⟨0, _⟩ => rfl
  | ⟨1, _⟩ => show 0 + 1 * n.val = n.val; omega
  | ⟨2, _⟩ => show 0 + 1 * k.val = k.val; omega

theorem slabK_1 {Val : EltTy → Type} {e : EltTy} (x : S2x2048x32.Idx → Val e) (n : Fin 2048) (k : Fin 32) :
    View.ld x rK_1 (ix3 (0 : Fin 1) n k) = x (ix3 (1 : Fin 2) n k) := by
  refine congrArg x (funext fun a => Fin.ext ?_)
  match a with
  | ⟨0, _⟩ => rfl
  | ⟨1, _⟩ => show 0 + 1 * n.val = n.val; omega
  | ⟨2, _⟩ => show 0 + 1 * k.val = k.val; omega

/-- The integer payload at an index: the slab's word plus the splat offset plus the mask's word times 4096. -/
theorem wordPay_apply (a b : IVec S1x2048x32 32) (c : BitVec 32) (h1 : S1x2048x32.ShapeCasts S2048x32)
    (h2 : S2048x32.ShapeCasts S1x2048x32) (n : Fin 2048) (k : Fin 32) :
    shapeCast S1x2048x32 (addi (addi (shapeCast S2048x32 a h1) (broadcast S2048x32 c))
        (muli (shapeCast S2048x32 b h1) (broadcast S2048x32 4096#32))) h2 (ix3 (0 : Fin 1) n k)
      = a (ix3 (0 : Fin 1) n k) + c + b (ix3 (0 : Fin 1) n k) * 4096#32 := by
  rw [shapeCast_ab_1ab_apply]
  show IntOp.addi (IntOp.addi (shapeCast S2048x32 a h1 (ix2 n k)) c) (IntOp.muli (shapeCast S2048x32 b h1 (ix2 n k)) 4096#32) = _
  rw [shapeCast_1ab_ab_apply, shapeCast_1ab_ab_apply]
  rfl

theorem wordPay9 (a b : Vec F S1x2048x32 .i32) (n : Fin 2048) (k : Fin 32) :
    k0_pay9 (k0_pay6 (F := F) a) (k0_pay7 (F := F) b) k0_pay8 (ix3 (0 : Fin 1) n k)
      = a (ix3 (0 : Fin 1) n k) + 0#32 + b (ix3 (0 : Fin 1) n k) * 4096#32 :=
  wordPay_apply a b 0#32 _ _ n k

theorem wordPay1 (a b : Vec F S1x2048x32 .i32) (n : Fin 2048) (k : Fin 32) :
    k0_pay1 (k0_pay14 (F := F) a) (k0_pay15 (F := F) b) k0_pay16 (ix3 (0 : Fin 1) n k)
      = a (ix3 (0 : Fin 1) n k) + 2048#32 + b (ix3 (0 : Fin 1) n k) * 4096#32 :=
  wordPay_apply a b 2048#32 _ _ n k

/-- An index at most 2047 plus an offset of at most 2048 plus 4096 times a 0/1 word stays below 8192 (no wrap-around). -/
theorem word_lt (a b c : BitVec 32) (ha : a.toNat ≤ 2047) (hc : c.toNat ≤ 2048) (hb : b.toNat ≤ 1) :
    (a + c + b * 4096#32).toNat < 8192 := by
  have h4 : (4096#32 : BitVec 32).toNat = 4096 := by decide
  simp only [BitVec.toNat_add, BitVec.toNat_mul, h4]
  omega

section Canon
variable {Val : EltTy → Type} [∀ e, Nonempty (Val e)] {S : Shape} {e : EltTy}
theorem canonHit (r : Rect S) (w : r.shape.Idx → Val e) (L : List (View.Piece Val S e)) (y : S.Idx) (x : r.shape.Idx)
    (h : r.emb x = y) : View.canon (⟨r, w⟩ :: L) y = w x := by
  subst h; exact View.canon_cons_emb r w L x
theorem canonSkip (r : Rect S) (w : r.shape.Idx → Val e) (L : List (View.Piece Val S e)) (y : S.Idx) (h : y ∉ r.set) (v : Val e)
    (hv : View.canon L y = v) : View.canon ((⟨r, w⟩ : View.Piece Val S e) :: L) y = v :=
  (View.canon_cons_of_not_mem ⟨r, w⟩ L h).trans hv
end Canon

theorem notMemSlab {n0 n1 n2 : Nat} {off size : Fin 3 → Nat} {inb} (z : Fin n0) (n : Fin n1) (k : Fin n2)
    (h : z.val < off 0 ∨ off 0 + size 0 ≤ z.val) :
    ix3 z n k ∉ (Rect.unit (s := ⟨3, ![n0, n1, n2]⟩) off size inb).set := fun hm => by
  have h0 := (Rect.mem_set_unit.mp hm) 0
  have h1 : off 0 ≤ z.val := h0.1
  have h2 : z.val < off 0 + size 0 := h0.2
  omega

/-- The tables kernel's index words are below 8192 where the table's entries are at most 2047 and the mask's words are bits. -/
theorem out0_8_lt (x3 x4 : Vec F S2x2048x32 .i32) (hK : ∀ i, (x3 i : BitVec 32).toNat ≤ 2047) (hb : ∀ i, (x4 i : BitVec 32).toNat ≤ 1)
    (z : Fin 2) (n : Fin 2048) (k : Fin 32) : (out0_8 (F := F) x3 x4 (ix3 z n k) : BitVec 32).toNat < 8192 := by
  unfold out0_8
  match z with
  | ⟨0, hz⟩ =>
    rw [canonSkip rK_1 _ _ _ (notMemSlab _ _ _ (Or.inl (by show 0 < 1; omega))) _
      ((canonHit rK_0 _ _ _ (ix3 (0 : Fin 1) n k) (by
      funext a; apply Fin.ext
      match a with
      | ⟨0, _⟩ => rfl
      | ⟨1, _⟩ => show 0 + 1 * n.val = n.val; omega
      | ⟨2, _⟩ => show 0 + 1 * k.val = k.val; omega)).trans (wordPay9 _ _ n k))]
    rw [slabK_0, slabK_0]
    exact word_lt _ _ _ (hK _) (by decide) (hb _)
  | ⟨1, hz⟩ =>
    rw [(canonHit rK_1 _ _ _ (ix3 (0 : Fin 1) n k) (by
      funext a; apply Fin.ext
      match a with
      | ⟨0, _⟩ => rfl
      | ⟨1, _⟩ => show 0 + 1 * n.val = n.val; omega
      | ⟨2, _⟩ => show 0 + 1 * k.val = k.val; omega)).trans (wordPay1 _ _ n k)]
    rw [slabK_1, slabK_1]
    exact word_lt _ _ _ (hK _) (by decide) (hb _)

variable (m : (ℓ : Loc nD τ sig) → Buf (Elt F) ℓ) (d : Dev nD)

/-- The index list at word `(a, b)`: the tables kernel's third result at the edge the word's position names. -/
theorem IdxOfF_apply (a : Fin 1024) (b : Fin 128) :
    IdxOf m d (ix2 a b)
      = out0_8 (F := F) (m (d, Proc.devRef .tc main_arg3)) (extui 32 (m (d, Proc.devRef .tc main_arg6)) natLt_1_32)
          (ix3 (⟨(a.val * 128 + b.val) / 65536, by omega⟩ : Fin 2) (⟨(a.val * 128 + b.val) / 32 % 2048, Nat.mod_lt _ (by decide)⟩ : Fin 2048)
            (⟨(a.val * 128 + b.val) % 32, Nat.mod_lt _ (by decide)⟩ : Fin 32)) := by
  unfold IdxOf
  have e : W3 m d (Proc.devRef .tc main_v2) = fun i => shapeCast ⟨2, ![1024, 128]⟩ (W2 m d (Proc.devRef .tc main_v1_2)) shapeCasts_S2x2048x32_S1024x128 i :=
    (reshape_result _ _ _ _ _ _ _).trans rfl
  rw [e]
  have e2 : W2 m d (Proc.devRef .tc main_v1_2) = out0_8 (F := F) (m (d, Proc.devRef .tc main_arg3)) (extui 32 (m (d, Proc.devRef .tc main_arg6)) natLt_1_32) := by
    show W2 m d (Proc.devRef .tc (Pipeline.arrRef spec0 8)) = _
    rw [W2_arr, arr0_8]
    show out0_8 (W1 m d (Proc.devRef .tc main_arg3)) (W1 m d (Proc.devRef .tc main_v0)) = _
    rw [W1_of_ne m d main_arg3 (by decide), W1_v0]
  rw [e2]
  exact Idealize.ShloMosaic.shapeCast_apply _ _ _ _ (by
    show ((⟨3, ![2, 2048, 32]⟩ : Shape).rowMajor (ix3 _ _ _)).val = ((⟨2, ![1024, 128]⟩ : Shape).rowMajor (ix2 a b)).val
    rw [Shape.rowMajor_val_three, Shape.rowMajor_val_two]
    show ((a.val * 128 + b.val) / 65536 * 2048 + (a.val * 128 + b.val) / 32 % 2048) * 32 + (a.val * 128 + b.val) % 32 = a.val * 128 + b.val
    omega)

/-- THE INDEX BOUND: under the precondition every word of the index list the gather is handed is below 8192. -/
theorem idx_bound
    (hpre : Cert.Pre_input_domain.fn (F := F) (m (d, Proc.devRef .tc main_arg0)) (m (d, Proc.devRef .tc main_arg1)) (m (d, Proc.devRef .tc main_arg2)) (m (d, Proc.devRef .tc main_arg3)) (m (d, Proc.devRef .tc main_arg4)) (m (d, Proc.devRef .tc main_arg5)) (m (d, Proc.devRef .tc main_arg6)) (m (d, Proc.devRef .tc main_arg7)) (m (d, Proc.devRef .tc main_arg8)) (m (d, Proc.devRef .tc main_arg9)) (m (d, Proc.devRef .tc main_arg10)) (m (d, Proc.devRef .tc main_arg11)) (m (d, Proc.devRef .tc main_arg12)) (m (d, Proc.devRef .tc main_arg13)) (m (d, Proc.devRef .tc main_arg14)) (m (d, Proc.devRef .tc main_arg15)) (m (d, Proc.devRef .tc main_arg16)) (m (d, Proc.devRef .tc main_arg17)) (m (d, Proc.devRef .tc main_arg18)) (m (d, Proc.devRef .tc main_arg19)) (m (d, Proc.devRef .tc main_arg20)) = fun _ => 1#1) :
    ∀ x, ((Memref.whole main_v2_scv : Memref sig .scVector .hbm S1024x128 .i32).view.read (Elt F) (IdxOf m d) x : BitVec 32).toNat < 8192 := by
  intro x
  have hk := kRangeF _ _ _ _ _ _ _ _ _ _ _ _ _ _ _ _ _ _ _ _ _ hpre
  obtain ⟨a, b, rfl⟩ : ∃ (a : Fin 1024) (b : Fin 128), x = ix2 a b := ⟨x 0, x 1, eq_ix2 x⟩
  have hx : (Memref.whole main_v2_scv : Memref sig .scVector .hbm S1024x128 .i32).view.read (Elt F) (IdxOf m d) (ix2 a b)
      = IdxOf m d (ix2 a b) := by
    show IdxOf m d ((Memref.whole main_v2_scv : Memref sig .scVector .hbm S1024x128 .i32).view.emb (ix2 a b)) = _
    refine congrArg (IdxOf m d) (funext fun ax => Fin.ext ?_)
    match ax with
    | ⟨0, _⟩ => rfl
    | ⟨1, _⟩ => rfl
  rw [hx, IdxOfF_apply]
  refine out0_8_lt _ _ (fun i => ?_) (fun i => ?_) _ _ _
  · have h1 := BitVec.toInt_eq_toNat_cond ((m (d, Proc.devRef .tc main_arg3)) i : BitVec 32)
    have h2 := ((m (d, Proc.devRef .tc main_arg3)) i : BitVec 32).isLt
    obtain ⟨h3, h4⟩ := hk i
    split_ifs at h1 <;> omega
  · show (((m (d, Proc.devRef .tc main_arg6)) i : BitVec 1).setWidth 32).toNat ≤ 1
    have h1 := ((m (d, Proc.devRef .tc main_arg6)) i : BitVec 1).isLt
    rw [BitVec.toNat_setWidth]
    have : ((m (d, Proc.devRef .tc main_arg6)) i : BitVec 1).toNat % 2 ^ 32 ≤ ((m (d, Proc.devRef .tc main_arg6)) i : BitVec 1).toNat := Nat.mod_le _ _
    omega

end Words

end Cert.KerSide

end
-- ==== Proof.RefOps.lean ====
import proofs.«208327_g62569083568895_cont_9to1c4b_407_46_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! The reference program's operations, the bodies of its calls written in place over the
call's buffers, as consecutive lists: each list is one stage of the computation. -/

/-- Operations 1 … 4 of 229. -/
abbrev opsW1 : List (HloOp τ sig (Elt F)) :=
  [ StableHlo.unary main_arg4 main_v0 (broadcastInDim S2x2048x1x128 ![0, 1, 3] bcast_S2x2048x128_S2x2048x1x128_0_1_3 : (⟨S2x2048x128, .f32⟩ : BufTy).Contents (Elt F) → (⟨S2x2048x1x128, .f32⟩ : BufTy).Contents (Elt F)),
    StableHlo.unary main_v0 main_v1 (broadcastInDim S2x2048x32x128 ![0, 1, 2, 3] bcast_S2x2048x1x128_S2x2048x32x128_0_1_2_3 : (⟨S2x2048x1x128, .f32⟩ : BufTy).Contents (Elt F) → (⟨S2x2048x32x128, .f32⟩ : BufTy).Contents (Elt F)),
    StableHlo.unary main_arg3 main_v2 (broadcastInDim S2x2048x32x1 ![0, 1, 2] bcast_S2x2048x32_S2x2048x32x1_0_1_2 : (⟨S2x2048x32, .i32⟩ : BufTy).Contents (Elt F) → (⟨S2x2048x32x1, .i32⟩ : BufTy).Contents (Elt F)),
    StableHlo.unary main_v2 main_v3 (broadcastInDim S2x2048x32x128 ![0, 1, 2, 3] bcast_S2x2048x32x1_S2x2048x32x128_0_1_2_3 : (⟨S2x2048x32x1, .i32⟩ : BufTy).Contents (Elt F) → (⟨S2x2048x32x128, .i32⟩ : BufTy).Contents (Elt F)) ]

/-- Operations 5 … 26 of 229. -/
abbrev opsW2 : List (HloOp τ sig (Elt F)) :=
  [ StableHlo.nullary main_call0_c (constantI S_ 32 0#32 : (⟨S_, .i32⟩ : BufTy).Contents (Elt F)),
    StableHlo.unary main_call0_c main_call0_v0 (broadcastInDim S2x2048x32x128 ![] bcast_S_S2x2048x32x128 : (⟨S_, .i32⟩ : BufTy).Contents (Elt F) → (⟨S2x2048x32x128, .i32⟩ : BufTy).Contents (Elt F)),
    StableHlo.binary main_v3 main_call0_v0 main_call0_v1 (cmpi .slt : (⟨S2x2048x32x128, .i32⟩ : BufTy).Contents (Elt F) → (⟨S2x2048x32x128, .i32⟩ : BufTy).Contents (Elt F) → (⟨S2x2048x32x128, .i1⟩ : BufTy).Contents (Elt F)),
    StableHlo.nullary main_call0_c_0 (constantI S_ 32 2048#32 : (⟨S_, .i32⟩ : BufTy).Contents (Elt F)),
    StableHlo.unary main_call0_c_0 main_call0_v2 (broadcastInDim S2x2048x32x128 ![] bcast_S_S2x2048x32x128 : (⟨S_, .i32⟩ : BufTy).Contents (Elt F) → (⟨S2x2048x32x128, .i32⟩ : BufTy).Contents (Elt F)),
    StableHlo.binary main_v3 main_call0_v2 main_call0_v3 (addi : (⟨S2x2048x32x128, .i32⟩ : BufTy).Contents (Elt F) → (⟨S2x2048x32x128, .i32⟩ : BufTy).Contents (Elt F) → (⟨S2x2048x32x128, .i32⟩ : BufTy).Contents (Elt F)),
    StableHlo.ternary main_call0_v1 main_call0_v3 main_v3 main_call0_v4 (select : (⟨S2x2048x32x128, .i1⟩ : BufTy).Contents (Elt F) → (⟨S2x2048x32x128, .i32⟩ : BufTy).Contents (Elt F) → (⟨S2x2048x32x128, .i32⟩ : BufTy).Contents (Elt F) → (⟨S2x2048x32x128, .i32⟩ : BufTy).Contents (Elt F)),
    StableHlo.reshape main_call0_v4 main_call0_v5 rfl shapeCasts_S2x2048x32x128_S2x2048x32x128x1,
    StableHlo.nullary main_call0_c_1 (constantI S1 32 2047#32 : (⟨S1, .i32⟩ : BufTy).Contents (Elt F)),
    StableHlo.nullary main_call0_c_2 (constantI S_ 32 0#32 : (⟨S_, .i32⟩ : BufTy).Contents (Elt F)),
    StableHlo.unary main_call0_c_2 main_call0_v6 (broadcastInDim S2x2048x32x128x1 ![] bcast_S_S2x2048x32x128x1 : (⟨S_, .i32⟩ : BufTy).Contents (Elt F) → (⟨S2x2048x32x128x1, .i32⟩ : BufTy).Contents (Elt F)),
    StableHlo.binary main_call0_v5 main_call0_v6 main_call0_v7 (cmpi .sge : (⟨S2x2048x32x128x1, .i32⟩ : BufTy).Contents (Elt F) → (⟨S2x2048x32x128x1, .i32⟩ : BufTy).Contents (Elt F) → (⟨S2x2048x32x128x1, .i1⟩ : BufTy).Contents (Elt F)),
    StableHlo.unary main_call0_c_1 main_call0_v8 (broadcastInDim S1x1x1x1x1 ![4] bcast_S1_S1x1x1x1x1_4 : (⟨S1, .i32⟩ : BufTy).Contents (Elt F) → (⟨S1x1x1x1x1, .i32⟩ : BufTy).Contents (Elt F)),
    StableHlo.unary main_call0_v8 main_call0_v9 (broadcastInDim S2x2048x32x128x1 ![0, 1, 2, 3, 4] bcast_S1x1x1x1x1_S2x2048x32x128x1_0_1_2_3_4 : (⟨S1x1x1x1x1, .i32⟩ : BufTy).Contents (Elt F) → (⟨S2x2048x32x128x1, .i32⟩ : BufTy).Contents (Elt F)),
    StableHlo.binary main_call0_v5 main_call0_v9 main_call0_v10 (cmpi .sle : (⟨S2x2048x32x128x1, .i32⟩ : BufTy).Contents (Elt F) → (⟨S2x2048x32x128x1, .i32⟩ : BufTy).Contents (Elt F) → (⟨S2x2048x32x128x1, .i1⟩ : BufTy).Contents (Elt F)),
    StableHlo.binary main_call0_v7 main_call0_v10 main_call0_v11 (andi : (⟨S2x2048x32x128x1, .i1⟩ : BufTy).Contents (Elt F) → (⟨S2x2048x32x128x1, .i1⟩ : BufTy).Contents (Elt F) → (⟨S2x2048x32x128x1, .i1⟩ : BufTy).Contents (Elt F)),
    StableHlo.nullary main_call0_c_3 (constantI S_ 1 1#1 : (⟨S_, .i1⟩ : BufTy).Contents (Elt F)),
    StableHlo.binary main_call0_v11 main_call0_c_3 main_call0_v12 ((fun x v => Host.reduce IntOp.andi x v reducesTo_S2x2048x32x128x1_S2x2048x32x128_d4 h_S_) : (⟨S2x2048x32x128x1, .i1⟩ : BufTy).Contents (Elt F) → (⟨S_, .i1⟩ : BufTy).Contents (Elt F) → (⟨S2x2048x32x128, .i1⟩ : BufTy).Contents (Elt F)),
    StableHlo.binary main_v1 main_call0_v5 main_call0_v13 ((fun x i => Host.gather gather_S2x2048x32x128_S2x2048x32x128x1_S2x2048x32x128_n_1_023_023_1_4_1111 x i) : (⟨S2x2048x32x128, .f32⟩ : BufTy).Contents (Elt F) → (⟨S2x2048x32x128x1, .i32⟩ : BufTy).Contents (Elt F) → (⟨S2x2048x32x128, .f32⟩ : BufTy).Contents (Elt F)),
    StableHlo.nullary main_call0_cst (constant (F := F) S_ .f32 0x7FC00000#32 : (⟨S_, .f32⟩ : BufTy).Contents (Elt F)),
    StableHlo.unary main_call0_cst main_call0_v14 (broadcastInDim S2x2048x32x128 ![] bcast_S_S2x2048x32x128 : (⟨S_, .f32⟩ : BufTy).Contents (Elt F) → (⟨S2x2048x32x128, .f32⟩ : BufTy).Contents (Elt F)),
    StableHlo.ternary main_call0_v12 main_call0_v13 main_call0_v14 main_v4 (select : (⟨S2x2048x32x128, .i1⟩ : BufTy).Contents (Elt F) → (⟨S2x2048x32x128, .f32⟩ : BufTy).Contents (Elt F) → (⟨S2x2048x32x128, .f32⟩ : BufTy).Contents (Elt F) → (⟨S2x2048x32x128, .f32⟩ : BufTy).Contents (Elt F)) ]

/-- Operations 27 … 35 of 229. -/
abbrev opsW3 : List (HloOp τ sig (Elt F)) :=
  [ StableHlo.unary main_arg6 main_v5 (broadcastInDim S2x2048x32x1 ![0, 1, 2] bcast_S2x2048x32_S2x2048x32x1_0_1_2 : (⟨S2x2048x32, .i1⟩ : BufTy).Contents (Elt F) → (⟨S2x2048x32x1, .i1⟩ : BufTy).Contents (Elt F)),
    StableHlo.unary main_v5 main_v6 (uitofp .f32 : (⟨S2x2048x32x1, .i1⟩ : BufTy).Contents (Elt F) → (⟨S2x2048x32x1, .f32⟩ : BufTy).Contents (Elt F)),
    StableHlo.unary main_v6 main_v7 (broadcastInDim S2x2048x32x128 ![0, 1, 2, 3] bcast_S2x2048x32x1_S2x2048x32x128_0_1_2_3 : (⟨S2x2048x32x1, .f32⟩ : BufTy).Contents (Elt F) → (⟨S2x2048x32x128, .f32⟩ : BufTy).Contents (Elt F)),
    StableHlo.binary main_v4 main_v7 main_v8 (mulf : (⟨S2x2048x32x128, .f32⟩ : BufTy).Contents (Elt F) → (⟨S2x2048x32x128, .f32⟩ : BufTy).Contents (Elt F) → (⟨S2x2048x32x128, .f32⟩ : BufTy).Contents (Elt F)),
    StableHlo.binary main_arg2 main_v8 main_v9 ((fun a b => concatenate S2x2048x32x256 3 [⟨S2x2048x32x128, a⟩, ⟨S2x2048x32x128, b⟩] concatenates_S2x2048x32x128_S2x2048x32x128_S2x2048x32x256_d3) : (⟨S2x2048x32x128, .f32⟩ : BufTy).Contents (Elt F) → (⟨S2x2048x32x128, .f32⟩ : BufTy).Contents (Elt F) → (⟨S2x2048x32x256, .f32⟩ : BufTy).Contents (Elt F)),
    StableHlo.unary main_arg0 main_v10 (broadcastInDim S2x2048x1x128 ![0, 1, 3] bcast_S2x2048x128_S2x2048x1x128_0_1_3 : (⟨S2x2048x128, .f32⟩ : BufTy).Contents (Elt F) → (⟨S2x2048x1x128, .f32⟩ : BufTy).Contents (Elt F)),
    StableHlo.unary main_v10 main_v11 (broadcastInDim S2x2048x32x128 ![0, 1, 2, 3] bcast_S2x2048x1x128_S2x2048x32x128_0_1_2_3 : (⟨S2x2048x1x128, .f32⟩ : BufTy).Contents (Elt F) → (⟨S2x2048x32x128, .f32⟩ : BufTy).Contents (Elt F)),
    StableHlo.unary main_arg3 main_v12 (broadcastInDim S2x2048x32x1 ![0, 1, 2] bcast_S2x2048x32_S2x2048x32x1_0_1_2 : (⟨S2x2048x32, .i32⟩ : BufTy).Contents (Elt F) → (⟨S2x2048x32x1, .i32⟩ : BufTy).Contents (Elt F)),
    StableHlo.unary main_v12 main_v13 (broadcastInDim S2x2048x32x128 ![0, 1, 2, 3] bcast_S2x2048x32x1_S2x2048x32x128_0_1_2_3 : (⟨S2x2048x32x1, .i32⟩ : BufTy).Contents (Elt F) → (⟨S2x2048x32x128, .i32⟩ : BufTy).Contents (Elt F)) ]

/-- Operations 36 … 57 of 229. -/
abbrev opsW4 : List (HloOp τ sig (Elt F)) :=
  [ StableHlo.nullary main_call1_c (constantI S_ 32 0#32 : (⟨S_, .i32⟩ : BufTy).Contents (Elt F)),
    StableHlo.unary main_call1_c main_call1_v0 (broadcastInDim S2x2048x32x128 ![] bcast_S_S2x2048x32x128 : (⟨S_, .i32⟩ : BufTy).Contents (Elt F) → (⟨S2x2048x32x128, .i32⟩ : BufTy).Contents (Elt F)),
    StableHlo.binary main_v13 main_call1_v0 main_call1_v1 (cmpi .slt : (⟨S2x2048x32x128, .i32⟩ : BufTy).Contents (Elt F) → (⟨S2x2048x32x128, .i32⟩ : BufTy).Contents (Elt F) → (⟨S2x2048x32x128, .i1⟩ : BufTy).Contents (Elt F)),
    StableHlo.nullary main_call1_c_0 (constantI S_ 32 2048#32 : (⟨S_, .i32⟩ : BufTy).Contents (Elt F)),
    StableHlo.unary main_call1_c_0 main_call1_v2 (broadcastInDim S2x2048x32x128 ![] bcast_S_S2x2048x32x128 : (⟨S_, .i32⟩ : BufTy).Contents (Elt F) → (⟨S2x2048x32x128, .i32⟩ : BufTy).Contents (Elt F)),
    StableHlo.binary main_v13 main_call1_v2 main_call1_v3 (addi : (⟨S2x2048x32x128, .i32⟩ : BufTy).Contents (Elt F) → (⟨S2x2048x32x128, .i32⟩ : BufTy).Contents (Elt F) → (⟨S2x2048x32x128, .i32⟩ : BufTy).Contents (Elt F)),
    StableHlo.ternary main_call1_v1 main_call1_v3 main_v13 main_call1_v4 (select : (⟨S2x2048x32x128, .i1⟩ : BufTy).Contents (Elt F) → (⟨S2x2048x32x128, .i32⟩ : BufTy).Contents (Elt F) → (⟨S2x2048x32x128, .i32⟩ : BufTy).Contents (Elt F) → (⟨S2x2048x32x128, .i32⟩ : BufTy).Contents (Elt F)),
    StableHlo.reshape main_call1_v4 main_call1_v5 rfl shapeCasts_S2x2048x32x128_S2x2048x32x128x1,
    StableHlo.nullary main_call1_c_1 (constantI S1 32 2047#32 : (⟨S1, .i32⟩ : BufTy).Contents (Elt F)),
    StableHlo.nullary main_call1_c_2 (constantI S_ 32 0#32 : (⟨S_, .i32⟩ : BufTy).Contents (Elt F)),
    StableHlo.unary main_call1_c_2 main_call1_v6 (broadcastInDim S2x2048x32x128x1 ![] bcast_S_S2x2048x32x128x1 : (⟨S_, .i32⟩ : BufTy).Contents (Elt F) → (⟨S2x2048x32x128x1, .i32⟩ : BufTy).Contents (Elt F)),
    StableHlo.binary main_call1_v5 main_call1_v6 main_call1_v7 (cmpi .sge : (⟨S2x2048x32x128x1, .i32⟩ : BufTy).Contents (Elt F) → (⟨S2x2048x32x128x1, .i32⟩ : BufTy).Contents (Elt F) → (⟨S2x2048x32x128x1, .i1⟩ : BufTy).Contents (Elt F)),
    StableHlo.unary main_call1_c_1 main_call1_v8 (broadcastInDim S1x1x1x1x1 ![4] bcast_S1_S1x1x1x1x1_4 : (⟨S1, .i32⟩ : BufTy).Contents (Elt F) → (⟨S1x1x1x1x1, .i32⟩ : BufTy).Contents (Elt F)),
    StableHlo.unary main_call1_v8 main_call1_v9 (broadcastInDim S2x2048x32x128x1 ![0, 1, 2, 3, 4] bcast_S1x1x1x1x1_S2x2048x32x128x1_0_1_2_3_4 : (⟨S1x1x1x1x1, .i32⟩ : BufTy).Contents (Elt F) → (⟨S2x2048x32x128x1, .i32⟩ : BufTy).Contents (Elt F)),
    StableHlo.binary main_call1_v5 main_call1_v9 main_call1_v10 (cmpi .sle : (⟨S2x2048x32x128x1, .i32⟩ : BufTy).Contents (Elt F) → (⟨S2x2048x32x128x1, .i32⟩ : BufTy).Contents (Elt F) → (⟨S2x2048x32x128x1, .i1⟩ : BufTy).Contents (Elt F)),
    StableHlo.binary main_call1_v7 main_call1_v10 main_call1_v11 (andi : (⟨S2x2048x32x128x1, .i1⟩ : BufTy).Contents (Elt F) → (⟨S2x2048x32x128x1, .i1⟩ : BufTy).Contents (Elt F) → (⟨S2x2048x32x128x1, .i1⟩ : BufTy).Contents (Elt F)),
    StableHlo.nullary main_call1_c_3 (constantI S_ 1 1#1 : (⟨S_, .i1⟩ : BufTy).Contents (Elt F)),
    StableHlo.binary main_call1_v11 main_call1_c_3 main_call1_v12 ((fun x v => Host.reduce IntOp.andi x v reducesTo_S2x2048x32x128x1_S2x2048x32x128_d4 h_S_) : (⟨S2x2048x32x128x1, .i1⟩ : BufTy).Contents (Elt F) → (⟨S_, .i1⟩ : BufTy).Contents (Elt F) → (⟨S2x2048x32x128, .i1⟩ : BufTy).Contents (Elt F)),
    StableHlo.binary main_v11 main_call1_v5 main_call1_v13 ((fun x i => Host.gather gather_S2x2048x32x128_S2x2048x32x128x1_S2x2048x32x128_n_1_023_023_1_4_1111 x i) : (⟨S2x2048x32x128, .f32⟩ : BufTy).Contents (Elt F) → (⟨S2x2048x32x128x1, .i32⟩ : BufTy).Contents (Elt F) → (⟨S2x2048x32x128, .f32⟩ : BufTy).Contents (Elt F)),
    StableHlo.nullary main_call1_cst (constant (F := F) S_ .f32 0x7FC00000#32 : (⟨S_, .f32⟩ : BufTy).Contents (Elt F)),
    StableHlo.unary main_call1_cst main_call1_v14 (broadcastInDim S2x2048x32x128 ![] bcast_S_S2x2048x32x128 : (⟨S_, .f32⟩ : BufTy).Contents (Elt F) → (⟨S2x2048x32x128, .f32⟩ : BufTy).Contents (Elt F)),
    StableHlo.ternary main_call1_v12 main_call1_v13 main_call1_v14 main_v14 (select : (⟨S2x2048x32x128, .i1⟩ : BufTy).Contents (Elt F) → (⟨S2x2048x32x128, .f32⟩ : BufTy).Contents (Elt F) → (⟨S2x2048x32x128, .f32⟩ : BufTy).Contents (Elt F) → (⟨S2x2048x32x128, .f32⟩ : BufTy).Contents (Elt F)) ]

/-- Operations 58 … 61 of 229. -/
abbrev opsW5 : List (HloOp τ sig (Elt F)) :=
  [ StableHlo.unary main_arg1 main_v15 (broadcastInDim S2x2048x1x128 ![0, 1, 3] bcast_S2x2048x128_S2x2048x1x128_0_1_3 : (⟨S2x2048x128, .f32⟩ : BufTy).Contents (Elt F) → (⟨S2x2048x1x128, .f32⟩ : BufTy).Contents (Elt F)),
    StableHlo.unary main_v15 main_v16 (broadcastInDim S2x2048x32x128 ![0, 1, 2, 3] bcast_S2x2048x1x128_S2x2048x32x128_0_1_2_3 : (⟨S2x2048x1x128, .f32⟩ : BufTy).Contents (Elt F) → (⟨S2x2048x32x128, .f32⟩ : BufTy).Contents (Elt F)),
    StableHlo.unary main_arg3 main_v17 (broadcastInDim S2x2048x32x1 ![0, 1, 2] bcast_S2x2048x32_S2x2048x32x1_0_1_2 : (⟨S2x2048x32, .i32⟩ : BufTy).Contents (Elt F) → (⟨S2x2048x32x1, .i32⟩ : BufTy).Contents (Elt F)),
    StableHlo.unary main_v17 main_v18 (broadcastInDim S2x2048x32x128 ![0, 1, 2, 3] bcast_S2x2048x32x1_S2x2048x32x128_0_1_2_3 : (⟨S2x2048x32x1, .i32⟩ : BufTy).Contents (Elt F) → (⟨S2x2048x32x128, .i32⟩ : BufTy).Contents (Elt F)) ]

/-- Operations 62 … 83 of 229. -/
abbrev opsW6 : List (HloOp τ sig (Elt F)) :=
  [ StableHlo.nullary main_call2_c (constantI S_ 32 0#32 : (⟨S_, .i32⟩ : BufTy).Contents (Elt F)),
    StableHlo.unary main_call2_c main_call2_v0 (broadcastInDim S2x2048x32x128 ![] bcast_S_S2x2048x32x128 : (⟨S_, .i32⟩ : BufTy).Contents (Elt F) → (⟨S2x2048x32x128, .i32⟩ : BufTy).Contents (Elt F)),
    StableHlo.binary main_v18 main_call2_v0 main_call2_v1 (cmpi .slt : (⟨S2x2048x32x128, .i32⟩ : BufTy).Contents (Elt F) → (⟨S2x2048x32x128, .i32⟩ : BufTy).Contents (Elt F) → (⟨S2x2048x32x128, .i1⟩ : BufTy).Contents (Elt F)),
    StableHlo.nullary main_call2_c_0 (constantI S_ 32 2048#32 : (⟨S_, .i32⟩ : BufTy).Contents (Elt F)),
    StableHlo.unary main_call2_c_0 main_call2_v2 (broadcastInDim S2x2048x32x128 ![] bcast_S_S2x2048x32x128 : (⟨S_, .i32⟩ : BufTy).Contents (Elt F) → (⟨S2x2048x32x128, .i32⟩ : BufTy).Contents (Elt F)),
    StableHlo.binary main_v18 main_call2_v2 main_call2_v3 (addi : (⟨S2x2048x32x128, .i32⟩ : BufTy).Contents (Elt F) → (⟨S2x2048x32x128, .i32⟩ : BufTy).Contents (Elt F) → (⟨S2x2048x32x128, .i32⟩ : BufTy).Contents (Elt F)),
    StableHlo.ternary main_call2_v1 main_call2_v3 main_v18 main_call2_v4 (select : (⟨S2x2048x32x128, .i1⟩ : BufTy).Contents (Elt F) → (⟨S2x2048x32x128, .i32⟩ : BufTy).Contents (Elt F) → (⟨S2x2048x32x128, .i32⟩ : BufTy).Contents (Elt F) → (⟨S2x2048x32x128, .i32⟩ : BufTy).Contents (Elt F)),
    StableHlo.reshape main_call2_v4 main_call2_v5 rfl shapeCasts_S2x2048x32x128_S2x2048x32x128x1,
    StableHlo.nullary main_call2_c_1 (constantI S1 32 2047#32 : (⟨S1, .i32⟩ : BufTy).Contents (Elt F)),
    StableHlo.nullary main_call2_c_2 (constantI S_ 32 0#32 : (⟨S_, .i32⟩ : BufTy).Contents (Elt F)),
    StableHlo.unary main_call2_c_2 main_call2_v6 (broadcastInDim S2x2048x32x128x1 ![] bcast_S_S2x2048x32x128x1 : (⟨S_, .i32⟩ : BufTy).Contents (Elt F) → (⟨S2x2048x32x128x1, .i32⟩ : BufTy).Contents (Elt F)),
    StableHlo.binary main_call2_v5 main_call2_v6 main_call2_v7 (cmpi .sge : (⟨S2x2048x32x128x1, .i32⟩ : BufTy).Contents (Elt F) → (⟨S2x2048x32x128x1, .i32⟩ : BufTy).Contents (Elt F) → (⟨S2x2048x32x128x1, .i1⟩ : BufTy).Contents (Elt F)),
    StableHlo.unary main_call2_c_1 main_call2_v8 (broadcastInDim S1x1x1x1x1 ![4] bcast_S1_S1x1x1x1x1_4 : (⟨S1, .i32⟩ : BufTy).Contents (Elt F) → (⟨S1x1x1x1x1, .i32⟩ : BufTy).Contents (Elt F)),
    StableHlo.unary main_call2_v8 main_call2_v9 (broadcastInDim S2x2048x32x128x1 ![0, 1, 2, 3, 4] bcast_S1x1x1x1x1_S2x2048x32x128x1_0_1_2_3_4 : (⟨S1x1x1x1x1, .i32⟩ : BufTy).Contents (Elt F) → (⟨S2x2048x32x128x1, .i32⟩ : BufTy).Contents (Elt F)),
    StableHlo.binary main_call2_v5 main_call2_v9 main_call2_v10 (cmpi .sle : (⟨S2x2048x32x128x1, .i32⟩ : BufTy).Contents (Elt F) → (⟨S2x2048x32x128x1, .i32⟩ : BufTy).Contents (Elt F) → (⟨S2x2048x32x128x1, .i1⟩ : BufTy).Contents (Elt F)),
    StableHlo.binary main_call2_v7 main_call2_v10 main_call2_v11 (andi : (⟨S2x2048x32x128x1, .i1⟩ : BufTy).Contents (Elt F) → (⟨S2x2048x32x128x1, .i1⟩ : BufTy).Contents (Elt F) → (⟨S2x2048x32x128x1, .i1⟩ : BufTy).Contents (Elt F)),
    StableHlo.nullary main_call2_c_3 (constantI S_ 1 1#1 : (⟨S_, .i1⟩ : BufTy).Contents (Elt F)),
    StableHlo.binary main_call2_v11 main_call2_c_3 main_call2_v12 ((fun x v => Host.reduce IntOp.andi x v reducesTo_S2x2048x32x128x1_S2x2048x32x128_d4 h_S_) : (⟨S2x2048x32x128x1, .i1⟩ : BufTy).Contents (Elt F) → (⟨S_, .i1⟩ : BufTy).Contents (Elt F) → (⟨S2x2048x32x128, .i1⟩ : BufTy).Contents (Elt F)),
    StableHlo.binary main_v16 main_call2_v5 main_call2_v13 ((fun x i => Host.gather gather_S2x2048x32x128_S2x2048x32x128x1_S2x2048x32x128_n_1_023_023_1_4_1111 x i) : (⟨S2x2048x32x128, .f32⟩ : BufTy).Contents (Elt F) → (⟨S2x2048x32x128x1, .i32⟩ : BufTy).Contents (Elt F) → (⟨S2x2048x32x128, .f32⟩ : BufTy).Contents (Elt F)),
    StableHlo.nullary main_call2_cst (constant (F := F) S_ .f32 0x7FC00000#32 : (⟨S_, .f32⟩ : BufTy).Contents (Elt F)),
    StableHlo.unary main_call2_cst main_call2_v14 (broadcastInDim S2x2048x32x128 ![] bcast_S_S2x2048x32x128 : (⟨S_, .f32⟩ : BufTy).Contents (Elt F) → (⟨S2x2048x32x128, .f32⟩ : BufTy).Contents (Elt F)),
    StableHlo.ternary main_call2_v12 main_call2_v13 main_call2_v14 main_v19 (select : (⟨S2x2048x32x128, .i1⟩ : BufTy).Contents (Elt F) → (⟨S2x2048x32x128, .f32⟩ : BufTy).Contents (Elt F) → (⟨S2x2048x32x128, .f32⟩ : BufTy).Contents (Elt F) → (⟨S2x2048x32x128, .f32⟩ : BufTy).Contents (Elt F)) ]

/-- Operations 84 … 91 of 229. -/
abbrev opsW7 : List (HloOp τ sig (Elt F)) :=
  [ StableHlo.unary main_arg6 main_v20 (broadcastInDim S2x2048x32x1 ![0, 1, 2] bcast_S2x2048x32_S2x2048x32x1_0_1_2 : (⟨S2x2048x32, .i1⟩ : BufTy).Contents (Elt F) → (⟨S2x2048x32x1, .i1⟩ : BufTy).Contents (Elt F)),
    StableHlo.unary main_v20 main_call3_v0 (broadcastInDim S2x2048x32x128 ![0, 1, 2, 3] bcast_S2x2048x32x1_S2x2048x32x128_0_1_2_3 : (⟨S2x2048x32x1, .i1⟩ : BufTy).Contents (Elt F) → (⟨S2x2048x32x128, .i1⟩ : BufTy).Contents (Elt F)),
    StableHlo.ternary main_call3_v0 main_v14 main_v19 main_v21 (select : (⟨S2x2048x32x128, .i1⟩ : BufTy).Contents (Elt F) → (⟨S2x2048x32x128, .f32⟩ : BufTy).Contents (Elt F) → (⟨S2x2048x32x128, .f32⟩ : BufTy).Contents (Elt F) → (⟨S2x2048x32x128, .f32⟩ : BufTy).Contents (Elt F)),
    StableHlo.nary ![main_v11, main_v21, main_v9] main_v22 (fun u => concatenate S2x2048x32x512 3 [⟨S2x2048x32x128, u 0⟩, ⟨S2x2048x32x128, u 1⟩, ⟨S2x2048x32x256, u 2⟩] concatenates_S2x2048x32x128_S2x2048x32x128_S2x2048x32x256_S2x2048x32x512_d3),
    StableHlo.binary main_v22 main_arg7 main_v23 ((fun l r => Host.dotGeneral dot_S2x2048x32x512_S512x128_S2x2048x32x128_3_0_012_1_n_n none l r) : (⟨S2x2048x32x512, .f32⟩ : BufTy).Contents (Elt F) → (⟨S512x128, .f32⟩ : BufTy).Contents (Elt F) → (⟨S2x2048x32x128, .f32⟩ : BufTy).Contents (Elt F)),
    StableHlo.unary main_arg8 main_v24 (broadcastInDim S1x1x1x128 ![3] bcast_S128_S1x1x1x128_3 : (⟨S128, .f32⟩ : BufTy).Contents (Elt F) → (⟨S1x1x1x128, .f32⟩ : BufTy).Contents (Elt F)),
    StableHlo.unary main_v24 main_v25 (broadcastInDim S2x2048x32x128 ![0, 1, 2, 3] bcast_S1x1x1x128_S2x2048x32x128_0_1_2_3 : (⟨S1x1x1x128, .f32⟩ : BufTy).Contents (Elt F) → (⟨S2x2048x32x128, .f32⟩ : BufTy).Contents (Elt F)),
    StableHlo.binary main_v23 main_v25 main_v26 (addf : (⟨S2x2048x32x128, .f32⟩ : BufTy).Contents (Elt F) → (⟨S2x2048x32x128, .f32⟩ : BufTy).Contents (Elt F) → (⟨S2x2048x32x128, .f32⟩ : BufTy).Contents (Elt F)) ]

/-- Operations 92 … 100 of 229. -/
abbrev opsW8 : List (HloOp τ sig (Elt F)) :=
  [ StableHlo.nullary main_cst (constant S_ .f32 0x3F000000#32),
    StableHlo.unary main_cst main_v27 (broadcastInDim S2x2048x32x128 ![] bcast_S_S2x2048x32x128 : (⟨S_, .f32⟩ : BufTy).Contents (Elt F) → (⟨S2x2048x32x128, .f32⟩ : BufTy).Contents (Elt F)),
    StableHlo.binary main_v27 main_v26 main_v28 (mulf : (⟨S2x2048x32x128, .f32⟩ : BufTy).Contents (Elt F) → (⟨S2x2048x32x128, .f32⟩ : BufTy).Contents (Elt F) → (⟨S2x2048x32x128, .f32⟩ : BufTy).Contents (Elt F)),
    StableHlo.unary main_v26 main_v29 (Host.negf : (⟨S2x2048x32x128, .f32⟩ : BufTy).Contents (Elt F) → (⟨S2x2048x32x128, .f32⟩ : BufTy).Contents (Elt F)),
    StableHlo.nullary main_cst_0 (constant S_ .f32 0x3F3504F3#32),
    StableHlo.unary main_cst_0 main_v30 (broadcastInDim S2x2048x32x128 ![] bcast_S_S2x2048x32x128 : (⟨S_, .f32⟩ : BufTy).Contents (Elt F) → (⟨S2x2048x32x128, .f32⟩ : BufTy).Contents (Elt F)),
    StableHlo.binary main_v29 main_v30 main_v31 (mulf : (⟨S2x2048x32x128, .f32⟩ : BufTy).Contents (Elt F) → (⟨S2x2048x32x128, .f32⟩ : BufTy).Contents (Elt F) → (⟨S2x2048x32x128, .f32⟩ : BufTy).Contents (Elt F)),
    StableHlo.unary main_v31 main_v32 (Host.erfc : (⟨S2x2048x32x128, .f32⟩ : BufTy).Contents (Elt F) → (⟨S2x2048x32x128, .f32⟩ : BufTy).Contents (Elt F)),
    StableHlo.binary main_v28 main_v32 main_v33 (mulf : (⟨S2x2048x32x128, .f32⟩ : BufTy).Contents (Elt F) → (⟨S2x2048x32x128, .f32⟩ : BufTy).Contents (Elt F) → (⟨S2x2048x32x128, .f32⟩ : BufTy).Contents (Elt F)) ]

/-- Operations 101 … 104 of 229. -/
abbrev opsW9 : List (HloOp τ sig (Elt F)) :=
  [ StableHlo.binary main_v33 main_arg9 main_v34 ((fun l r => Host.dotGeneral dot_S2x2048x32x128_S128x128_S2x2048x32x128_3_0_012_1_n_n none l r) : (⟨S2x2048x32x128, .f32⟩ : BufTy).Contents (Elt F) → (⟨S128x128, .f32⟩ : BufTy).Contents (Elt F) → (⟨S2x2048x32x128, .f32⟩ : BufTy).Contents (Elt F)),
    StableHlo.unary main_arg10 main_v35 (broadcastInDim S1x1x1x128 ![3] bcast_S128_S1x1x1x128_3 : (⟨S128, .f32⟩ : BufTy).Contents (Elt F) → (⟨S1x1x1x128, .f32⟩ : BufTy).Contents (Elt F)),
    StableHlo.unary main_v35 main_v36 (broadcastInDim S2x2048x32x128 ![0, 1, 2, 3] bcast_S1x1x1x128_S2x2048x32x128_0_1_2_3 : (⟨S1x1x1x128, .f32⟩ : BufTy).Contents (Elt F) → (⟨S2x2048x32x128, .f32⟩ : BufTy).Contents (Elt F)),
    StableHlo.binary main_v34 main_v36 main_v37 (addf : (⟨S2x2048x32x128, .f32⟩ : BufTy).Contents (Elt F) → (⟨S2x2048x32x128, .f32⟩ : BufTy).Contents (Elt F) → (⟨S2x2048x32x128, .f32⟩ : BufTy).Contents (Elt F)) ]

/-- Operations 105 … 113 of 229. -/
abbrev opsW10 : List (HloOp τ sig (Elt F)) :=
  [ StableHlo.nullary main_cst_1 (constant S_ .f32 0x3F000000#32),
    StableHlo.unary main_cst_1 main_v38 (broadcastInDim S2x2048x32x128 ![] bcast_S_S2x2048x32x128 : (⟨S_, .f32⟩ : BufTy).Contents (Elt F) → (⟨S2x2048x32x128, .f32⟩ : BufTy).Contents (Elt F)),
    StableHlo.binary main_v38 main_v37 main_v39 (mulf : (⟨S2x2048x32x128, .f32⟩ : BufTy).Contents (Elt F) → (⟨S2x2048x32x128, .f32⟩ : BufTy).Contents (Elt F) → (⟨S2x2048x32x128, .f32⟩ : BufTy).Contents (Elt F)),
    StableHlo.unary main_v37 main_v40 (Host.negf : (⟨S2x2048x32x128, .f32⟩ : BufTy).Contents (Elt F) → (⟨S2x2048x32x128, .f32⟩ : BufTy).Contents (Elt F)),
    StableHlo.nullary main_cst_2 (constant S_ .f32 0x3F3504F3#32),
    StableHlo.unary main_cst_2 main_v41 (broadcastInDim S2x2048x32x128 ![] bcast_S_S2x2048x32x128 : (⟨S_, .f32⟩ : BufTy).Contents (Elt F) → (⟨S2x2048x32x128, .f32⟩ : BufTy).Contents (Elt F)),
    StableHlo.binary main_v40 main_v41 main_v42 (mulf : (⟨S2x2048x32x128, .f32⟩ : BufTy).Contents (Elt F) → (⟨S2x2048x32x128, .f32⟩ : BufTy).Contents (Elt F) → (⟨S2x2048x32x128, .f32⟩ : BufTy).Contents (Elt F)),
    StableHlo.unary main_v42 main_v43 (Host.erfc : (⟨S2x2048x32x128, .f32⟩ : BufTy).Contents (Elt F) → (⟨S2x2048x32x128, .f32⟩ : BufTy).Contents (Elt F)),
    StableHlo.binary main_v39 main_v43 main_v44 (mulf : (⟨S2x2048x32x128, .f32⟩ : BufTy).Contents (Elt F) → (⟨S2x2048x32x128, .f32⟩ : BufTy).Contents (Elt F) → (⟨S2x2048x32x128, .f32⟩ : BufTy).Contents (Elt F)) ]

/-- Operations 114 … 123 of 229. -/
abbrev opsW11 : List (HloOp τ sig (Elt F)) :=
  [ StableHlo.binary main_v44 main_arg11 main_v45 ((fun l r => Host.dotGeneral dot_S2x2048x32x128_S128x128_S2x2048x32x128_3_0_012_1_n_n none l r) : (⟨S2x2048x32x128, .f32⟩ : BufTy).Contents (Elt F) → (⟨S128x128, .f32⟩ : BufTy).Contents (Elt F) → (⟨S2x2048x32x128, .f32⟩ : BufTy).Contents (Elt F)),
    StableHlo.unary main_arg12 main_v46 (broadcastInDim S1x1x1x128 ![3] bcast_S128_S1x1x1x128_3 : (⟨S128, .f32⟩ : BufTy).Contents (Elt F) → (⟨S1x1x1x128, .f32⟩ : BufTy).Contents (Elt F)),
    StableHlo.unary main_v46 main_v47 (broadcastInDim S2x2048x32x128 ![0, 1, 2, 3] bcast_S1x1x1x128_S2x2048x32x128_0_1_2_3 : (⟨S1x1x1x128, .f32⟩ : BufTy).Contents (Elt F) → (⟨S2x2048x32x128, .f32⟩ : BufTy).Contents (Elt F)),
    StableHlo.binary main_v45 main_v47 main_v48 (addf : (⟨S2x2048x32x128, .f32⟩ : BufTy).Contents (Elt F) → (⟨S2x2048x32x128, .f32⟩ : BufTy).Contents (Elt F) → (⟨S2x2048x32x128, .f32⟩ : BufTy).Contents (Elt F)),
    StableHlo.unary main_arg5 main_v49 (broadcastInDim S2x2048x32x1 ![0, 1, 2] bcast_S2x2048x32_S2x2048x32x1_0_1_2 : (⟨S2x2048x32, .f32⟩ : BufTy).Contents (Elt F) → (⟨S2x2048x32x1, .f32⟩ : BufTy).Contents (Elt F)),
    StableHlo.unary main_v49 main_v50 (broadcastInDim S2x2048x32x128 ![0, 1, 2, 3] bcast_S2x2048x32x1_S2x2048x32x128_0_1_2_3 : (⟨S2x2048x32x1, .f32⟩ : BufTy).Contents (Elt F) → (⟨S2x2048x32x128, .f32⟩ : BufTy).Contents (Elt F)),
    StableHlo.binary main_v48 main_v50 main_v51 (mulf : (⟨S2x2048x32x128, .f32⟩ : BufTy).Contents (Elt F) → (⟨S2x2048x32x128, .f32⟩ : BufTy).Contents (Elt F) → (⟨S2x2048x32x128, .f32⟩ : BufTy).Contents (Elt F)),
    StableHlo.nullary main_cst_3 (constant S_ .f32 0x00000000#32),
    StableHlo.binary main_v51 main_cst_3 main_v52 ((fun x v => Host.reduceAdd x v reducesTo_S2x2048x32x128_S2x2048x128_d2 h_S_) : (⟨S2x2048x32x128, .f32⟩ : BufTy).Contents (Elt F) → (⟨S_, .f32⟩ : BufTy).Contents (Elt F) → (⟨S2x2048x128, .f32⟩ : BufTy).Contents (Elt F)),
    StableHlo.binary main_arg0 main_v52 main_v53 (addf : (⟨S2x2048x128, .f32⟩ : BufTy).Contents (Elt F) → (⟨S2x2048x128, .f32⟩ : BufTy).Contents (Elt F) → (⟨S2x2048x128, .f32⟩ : BufTy).Contents (Elt F)) ]

/-- Operations 124 … 124 of 229. -/
abbrev opsW12 : List (HloOp τ sig (Elt F)) :=
  [ StableHlo.nullary main_cst_4 (constant S_ .f32 0x00000000#32) ]

/-- Operations 125 … 130 of 229. -/
abbrev opsW13 : List (HloOp τ sig (Elt F)) :=
  [ StableHlo.binary main_v53 main_cst_4 main_v54 ((fun x v => Host.reduceAdd x v reducesTo_S2x2048x128_S2x2048_d2 h_S_) : (⟨S2x2048x128, .f32⟩ : BufTy).Contents (Elt F) → (⟨S_, .f32⟩ : BufTy).Contents (Elt F) → (⟨S2x2048, .f32⟩ : BufTy).Contents (Elt F)),
    StableHlo.unary main_v54 main_v55 (broadcastInDim S2x2048x1 ![0, 1] bcast_S2x2048_S2x2048x1_0_1 : (⟨S2x2048, .f32⟩ : BufTy).Contents (Elt F) → (⟨S2x2048x1, .f32⟩ : BufTy).Contents (Elt F)),
    StableHlo.nullary main_cst_5 (constant S_ .f32 0x43000000#32),
    StableHlo.unary main_cst_5 main_v56 (broadcastInDim S2x2048x1 ![] bcast_S_S2x2048x1 : (⟨S_, .f32⟩ : BufTy).Contents (Elt F) → (⟨S2x2048x1, .f32⟩ : BufTy).Contents (Elt F)),
    StableHlo.binary main_v55 main_v56 main_v57 (Host.divf : (⟨S2x2048x1, .f32⟩ : BufTy).Contents (Elt F) → (⟨S2x2048x1, .f32⟩ : BufTy).Contents (Elt F) → (⟨S2x2048x1, .f32⟩ : BufTy).Contents (Elt F)),
    StableHlo.nullary main_c (constantI S_ 32 0#32) ]

/-- Operations 131 … 153 of 229. -/
abbrev opsW14 : List (HloOp τ sig (Elt F)) :=
  [ StableHlo.nullary main_call4_cst (constant (F := F) S_ .f32 0x00000000#32 : (⟨S_, .f32⟩ : BufTy).Contents (Elt F)),
    StableHlo.binary main_v53 main_call4_cst main_call4_v0 ((fun x v => Host.reduceAdd x v reducesTo_S2x2048x128_S2x2048_d2 h_S_) : (⟨S2x2048x128, .f32⟩ : BufTy).Contents (Elt F) → (⟨S_, .f32⟩ : BufTy).Contents (Elt F) → (⟨S2x2048, .f32⟩ : BufTy).Contents (Elt F)),
    StableHlo.unary main_call4_v0 main_call4_v1 (broadcastInDim S2x2048x1 ![0, 1] bcast_S2x2048_S2x2048x1_0_1 : (⟨S2x2048, .f32⟩ : BufTy).Contents (Elt F) → (⟨S2x2048x1, .f32⟩ : BufTy).Contents (Elt F)),
    StableHlo.nullary main_call4_cst_0 (constant (F := F) S_ .f32 0x43000000#32 : (⟨S_, .f32⟩ : BufTy).Contents (Elt F)),
    StableHlo.unary main_call4_cst_0 main_call4_v2 (broadcastInDim S2x2048x1 ![] bcast_S_S2x2048x1 : (⟨S_, .f32⟩ : BufTy).Contents (Elt F) → (⟨S2x2048x1, .f32⟩ : BufTy).Contents (Elt F)),
    StableHlo.binary main_call4_v1 main_call4_v2 main_call4_v3 (Host.divf : (⟨S2x2048x1, .f32⟩ : BufTy).Contents (Elt F) → (⟨S2x2048x1, .f32⟩ : BufTy).Contents (Elt F) → (⟨S2x2048x1, .f32⟩ : BufTy).Contents (Elt F)),
    StableHlo.unary main_call4_v3 main_call4_v4 (broadcastInDim S2x2048x128 ![0, 1, 2] bcast_S2x2048x1_S2x2048x128_0_1_2 : (⟨S2x2048x1, .f32⟩ : BufTy).Contents (Elt F) → (⟨S2x2048x128, .f32⟩ : BufTy).Contents (Elt F)),
    StableHlo.binary main_v53 main_call4_v4 main_call4_v5 (subf : (⟨S2x2048x128, .f32⟩ : BufTy).Contents (Elt F) → (⟨S2x2048x128, .f32⟩ : BufTy).Contents (Elt F) → (⟨S2x2048x128, .f32⟩ : BufTy).Contents (Elt F)),
    StableHlo.binary main_call4_v5 main_call4_v5 main_call4_v6 (mulf : (⟨S2x2048x128, .f32⟩ : BufTy).Contents (Elt F) → (⟨S2x2048x128, .f32⟩ : BufTy).Contents (Elt F) → (⟨S2x2048x128, .f32⟩ : BufTy).Contents (Elt F)),
    StableHlo.unary main_c main_call4_v7 (sitofp .f32 : (⟨S_, .i32⟩ : BufTy).Contents (Elt F) → (⟨S_, .f32⟩ : BufTy).Contents (Elt F)),
    StableHlo.nullary main_call4_cst_1 (constant (F := F) S_ .f32 0x43000000#32 : (⟨S_, .f32⟩ : BufTy).Contents (Elt F)),
    StableHlo.binary main_call4_cst_1 main_call4_v7 main_call4_v8 (subf : (⟨S_, .f32⟩ : BufTy).Contents (Elt F) → (⟨S_, .f32⟩ : BufTy).Contents (Elt F) → (⟨S_, .f32⟩ : BufTy).Contents (Elt F)),
    StableHlo.nullary main_call4_cst_2 (constant (F := F) S_ .f32 0x00000000#32 : (⟨S_, .f32⟩ : BufTy).Contents (Elt F)),
    StableHlo.binary main_call4_v6 main_call4_cst_2 main_call4_v9 ((fun x v => Host.reduceAdd x v reducesTo_S2x2048x128_S2x2048_d2 h_S_) : (⟨S2x2048x128, .f32⟩ : BufTy).Contents (Elt F) → (⟨S_, .f32⟩ : BufTy).Contents (Elt F) → (⟨S2x2048, .f32⟩ : BufTy).Contents (Elt F)),
    StableHlo.unary main_call4_v9 main_call4_v10 (broadcastInDim S2x2048x1 ![0, 1] bcast_S2x2048_S2x2048x1_0_1 : (⟨S2x2048, .f32⟩ : BufTy).Contents (Elt F) → (⟨S2x2048x1, .f32⟩ : BufTy).Contents (Elt F)),
    StableHlo.unary main_call4_v8 main_call4_v11 (broadcastInDim S2x2048x1 ![] bcast_S_S2x2048x1 : (⟨S_, .f32⟩ : BufTy).Contents (Elt F) → (⟨S2x2048x1, .f32⟩ : BufTy).Contents (Elt F)),
    StableHlo.binary main_call4_v10 main_call4_v11 main_call4_v12 (Host.divf : (⟨S2x2048x1, .f32⟩ : BufTy).Contents (Elt F) → (⟨S2x2048x1, .f32⟩ : BufTy).Contents (Elt F) → (⟨S2x2048x1, .f32⟩ : BufTy).Contents (Elt F)),
    StableHlo.nullary main_call4_cst_3 (constant (F := F) S_ .f32 0x00000000#32 : (⟨S_, .f32⟩ : BufTy).Contents (Elt F)),
    StableHlo.binary main_call4_v8 main_call4_cst_3 main_call4_v13 (cmpf .ogt : (⟨S_, .f32⟩ : BufTy).Contents (Elt F) → (⟨S_, .f32⟩ : BufTy).Contents (Elt F) → (⟨S_, .i1⟩ : BufTy).Contents (Elt F)),
    StableHlo.nullary main_call4_cst_4 (constant (F := F) S_ .f32 0x7FC00000#32 : (⟨S_, .f32⟩ : BufTy).Contents (Elt F)),
    StableHlo.unary main_call4_cst_4 main_call4_call0_v0 (id : (⟨S_, .f32⟩ : BufTy).Contents (Elt F) → (⟨S_, .f32⟩ : BufTy).Contents (Elt F)),
    StableHlo.unary main_call4_call0_v0 main_call4_call0_v1 (broadcastInDim S2x2048x1 ![] bcast_S_S2x2048x1 : (⟨S_, .f32⟩ : BufTy).Contents (Elt F) → (⟨S2x2048x1, .f32⟩ : BufTy).Contents (Elt F)),
    StableHlo.ternary main_call4_v13 main_call4_v12 main_call4_call0_v1 main_v58 ((fun p a b => select (broadcastInDim S2x2048x1 ![] bcast_S_S2x2048x1 p) a b) : (⟨S_, .i1⟩ : BufTy).Contents (Elt F) → (⟨S2x2048x1, .f32⟩ : BufTy).Contents (Elt F) → (⟨S2x2048x1, .f32⟩ : BufTy).Contents (Elt F) → (⟨S2x2048x1, .f32⟩ : BufTy).Contents (Elt F)) ]

/-- Operations 154 … 166 of 229. -/
abbrev opsW15 : List (HloOp τ sig (Elt F)) :=
  [ StableHlo.unary main_v57 main_v59 (broadcastInDim S2x2048x128 ![0, 1, 2] bcast_S2x2048x1_S2x2048x128_0_1_2 : (⟨S2x2048x1, .f32⟩ : BufTy).Contents (Elt F) → (⟨S2x2048x128, .f32⟩ : BufTy).Contents (Elt F)),
    StableHlo.binary main_v53 main_v59 main_v60 (subf : (⟨S2x2048x128, .f32⟩ : BufTy).Contents (Elt F) → (⟨S2x2048x128, .f32⟩ : BufTy).Contents (Elt F) → (⟨S2x2048x128, .f32⟩ : BufTy).Contents (Elt F)),
    StableHlo.nullary main_cst_6 (constant S_ .f32 0x3727C5AC#32),
    StableHlo.unary main_cst_6 main_v61 (broadcastInDim S2x2048x1 ![] bcast_S_S2x2048x1 : (⟨S_, .f32⟩ : BufTy).Contents (Elt F) → (⟨S2x2048x1, .f32⟩ : BufTy).Contents (Elt F)),
    StableHlo.binary main_v58 main_v61 main_v62 (addf : (⟨S2x2048x1, .f32⟩ : BufTy).Contents (Elt F) → (⟨S2x2048x1, .f32⟩ : BufTy).Contents (Elt F) → (⟨S2x2048x1, .f32⟩ : BufTy).Contents (Elt F)),
    StableHlo.unary main_v62 main_v63 (Host.sqrt : (⟨S2x2048x1, .f32⟩ : BufTy).Contents (Elt F) → (⟨S2x2048x1, .f32⟩ : BufTy).Contents (Elt F)),
    StableHlo.unary main_v63 main_v64 (broadcastInDim S2x2048x128 ![0, 1, 2] bcast_S2x2048x1_S2x2048x128_0_1_2 : (⟨S2x2048x1, .f32⟩ : BufTy).Contents (Elt F) → (⟨S2x2048x128, .f32⟩ : BufTy).Contents (Elt F)),
    StableHlo.binary main_v60 main_v64 main_v65 (Host.divf : (⟨S2x2048x128, .f32⟩ : BufTy).Contents (Elt F) → (⟨S2x2048x128, .f32⟩ : BufTy).Contents (Elt F) → (⟨S2x2048x128, .f32⟩ : BufTy).Contents (Elt F)),
    StableHlo.unary main_arg17 main_v66 (broadcastInDim S1x1x128 ![2] bcast_S128_S1x1x128_2 : (⟨S128, .f32⟩ : BufTy).Contents (Elt F) → (⟨S1x1x128, .f32⟩ : BufTy).Contents (Elt F)),
    StableHlo.unary main_v66 main_v67 (broadcastInDim S2x2048x128 ![0, 1, 2] bcast_S1x1x128_S2x2048x128_0_1_2 : (⟨S1x1x128, .f32⟩ : BufTy).Contents (Elt F) → (⟨S2x2048x128, .f32⟩ : BufTy).Contents (Elt F)),
    StableHlo.binary main_v65 main_v67 main_v68 (mulf : (⟨S2x2048x128, .f32⟩ : BufTy).Contents (Elt F) → (⟨S2x2048x128, .f32⟩ : BufTy).Contents (Elt F) → (⟨S2x2048x128, .f32⟩ : BufTy).Contents (Elt F)),
    StableHlo.unary main_arg18 main_v69 (broadcastInDim S1x1x128 ![2] bcast_S128_S1x1x128_2 : (⟨S128, .f32⟩ : BufTy).Contents (Elt F) → (⟨S1x1x128, .f32⟩ : BufTy).Contents (Elt F)),
    StableHlo.unary main_v69 main_v70 (broadcastInDim S2x2048x128 ![0, 1, 2] bcast_S1x1x128_S2x2048x128_0_1_2 : (⟨S1x1x128, .f32⟩ : BufTy).Contents (Elt F) → (⟨S2x2048x128, .f32⟩ : BufTy).Contents (Elt F)) ]

/-- Operations 167 … 167 of 229. -/
abbrev opsW16 : List (HloOp τ sig (Elt F)) :=
  [ StableHlo.binary main_v68 main_v70 main_v71 (addf : (⟨S2x2048x128, .f32⟩ : BufTy).Contents (Elt F) → (⟨S2x2048x128, .f32⟩ : BufTy).Contents (Elt F) → (⟨S2x2048x128, .f32⟩ : BufTy).Contents (Elt F)) ]

/-- Operations 168 … 171 of 229. -/
abbrev opsW17 : List (HloOp τ sig (Elt F)) :=
  [ StableHlo.binary main_v71 main_arg13 main_v72 ((fun l r => Host.dotGeneral dot_S2x2048x128_S128x512_S2x2048x512_2_0_01_1_n_n none l r) : (⟨S2x2048x128, .f32⟩ : BufTy).Contents (Elt F) → (⟨S128x512, .f32⟩ : BufTy).Contents (Elt F) → (⟨S2x2048x512, .f32⟩ : BufTy).Contents (Elt F)),
    StableHlo.unary main_arg14 main_v73 (broadcastInDim S1x1x512 ![2] bcast_S512_S1x1x512_2 : (⟨S512, .f32⟩ : BufTy).Contents (Elt F) → (⟨S1x1x512, .f32⟩ : BufTy).Contents (Elt F)),
    StableHlo.unary main_v73 main_v74 (broadcastInDim S2x2048x512 ![0, 1, 2] bcast_S1x1x512_S2x2048x512_0_1_2 : (⟨S1x1x512, .f32⟩ : BufTy).Contents (Elt F) → (⟨S2x2048x512, .f32⟩ : BufTy).Contents (Elt F)),
    StableHlo.binary main_v72 main_v74 main_v75 (addf : (⟨S2x2048x512, .f32⟩ : BufTy).Contents (Elt F) → (⟨S2x2048x512, .f32⟩ : BufTy).Contents (Elt F) → (⟨S2x2048x512, .f32⟩ : BufTy).Contents (Elt F)) ]

/-- Operations 172 … 180 of 229. -/
abbrev opsW18 : List (HloOp τ sig (Elt F)) :=
  [ StableHlo.nullary main_cst_7 (constant S_ .f32 0x3F000000#32),
    StableHlo.unary main_cst_7 main_v76 (broadcastInDim S2x2048x512 ![] bcast_S_S2x2048x512 : (⟨S_, .f32⟩ : BufTy).Contents (Elt F) → (⟨S2x2048x512, .f32⟩ : BufTy).Contents (Elt F)),
    StableHlo.binary main_v76 main_v75 main_v77 (mulf : (⟨S2x2048x512, .f32⟩ : BufTy).Contents (Elt F) → (⟨S2x2048x512, .f32⟩ : BufTy).Contents (Elt F) → (⟨S2x2048x512, .f32⟩ : BufTy).Contents (Elt F)),
    StableHlo.unary main_v75 main_v78 (Host.negf : (⟨S2x2048x512, .f32⟩ : BufTy).Contents (Elt F) → (⟨S2x2048x512, .f32⟩ : BufTy).Contents (Elt F)),
    StableHlo.nullary main_cst_8 (constant S_ .f32 0x3F3504F3#32),
    StableHlo.unary main_cst_8 main_v79 (broadcastInDim S2x2048x512 ![] bcast_S_S2x2048x512 : (⟨S_, .f32⟩ : BufTy).Contents (Elt F) → (⟨S2x2048x512, .f32⟩ : BufTy).Contents (Elt F)),
    StableHlo.binary main_v78 main_v79 main_v80 (mulf : (⟨S2x2048x512, .f32⟩ : BufTy).Contents (Elt F) → (⟨S2x2048x512, .f32⟩ : BufTy).Contents (Elt F) → (⟨S2x2048x512, .f32⟩ : BufTy).Contents (Elt F)),
    StableHlo.unary main_v80 main_v81 (Host.erfc : (⟨S2x2048x512, .f32⟩ : BufTy).Contents (Elt F) → (⟨S2x2048x512, .f32⟩ : BufTy).Contents (Elt F)),
    StableHlo.binary main_v77 main_v81 main_v82 (mulf : (⟨S2x2048x512, .f32⟩ : BufTy).Contents (Elt F) → (⟨S2x2048x512, .f32⟩ : BufTy).Contents (Elt F) → (⟨S2x2048x512, .f32⟩ : BufTy).Contents (Elt F)) ]

/-- Operations 181 … 185 of 229. -/
abbrev opsW19 : List (HloOp τ sig (Elt F)) :=
  [ StableHlo.binary main_v82 main_arg15 main_v83 ((fun l r => Host.dotGeneral dot_S2x2048x512_S512x128_S2x2048x128_2_0_01_1_n_n none l r) : (⟨S2x2048x512, .f32⟩ : BufTy).Contents (Elt F) → (⟨S512x128, .f32⟩ : BufTy).Contents (Elt F) → (⟨S2x2048x128, .f32⟩ : BufTy).Contents (Elt F)),
    StableHlo.unary main_arg16 main_v84 (broadcastInDim S1x1x128 ![2] bcast_S128_S1x1x128_2 : (⟨S128, .f32⟩ : BufTy).Contents (Elt F) → (⟨S1x1x128, .f32⟩ : BufTy).Contents (Elt F)),
    StableHlo.unary main_v84 main_v85 (broadcastInDim S2x2048x128 ![0, 1, 2] bcast_S1x1x128_S2x2048x128_0_1_2 : (⟨S1x1x128, .f32⟩ : BufTy).Contents (Elt F) → (⟨S2x2048x128, .f32⟩ : BufTy).Contents (Elt F)),
    StableHlo.binary main_v83 main_v85 main_v86 (addf : (⟨S2x2048x128, .f32⟩ : BufTy).Contents (Elt F) → (⟨S2x2048x128, .f32⟩ : BufTy).Contents (Elt F) → (⟨S2x2048x128, .f32⟩ : BufTy).Contents (Elt F)),
    StableHlo.binary main_v71 main_v86 main_v87 (addf : (⟨S2x2048x128, .f32⟩ : BufTy).Contents (Elt F) → (⟨S2x2048x128, .f32⟩ : BufTy).Contents (Elt F) → (⟨S2x2048x128, .f32⟩ : BufTy).Contents (Elt F)) ]

/-- Operations 186 … 186 of 229. -/
abbrev opsW20 : List (HloOp τ sig (Elt F)) :=
  [ StableHlo.nullary main_cst_9 (constant S_ .f32 0x00000000#32) ]

/-- Operations 187 … 192 of 229. -/
abbrev opsW21 : List (HloOp τ sig (Elt F)) :=
  [ StableHlo.binary main_v87 main_cst_9 main_v88 ((fun x v => Host.reduceAdd x v reducesTo_S2x2048x128_S2x2048_d2 h_S_) : (⟨S2x2048x128, .f32⟩ : BufTy).Contents (Elt F) → (⟨S_, .f32⟩ : BufTy).Contents (Elt F) → (⟨S2x2048, .f32⟩ : BufTy).Contents (Elt F)),
    StableHlo.unary main_v88 main_v89 (broadcastInDim S2x2048x1 ![0, 1] bcast_S2x2048_S2x2048x1_0_1 : (⟨S2x2048, .f32⟩ : BufTy).Contents (Elt F) → (⟨S2x2048x1, .f32⟩ : BufTy).Contents (Elt F)),
    StableHlo.nullary main_cst_10 (constant S_ .f32 0x43000000#32),
    StableHlo.unary main_cst_10 main_v90 (broadcastInDim S2x2048x1 ![] bcast_S_S2x2048x1 : (⟨S_, .f32⟩ : BufTy).Contents (Elt F) → (⟨S2x2048x1, .f32⟩ : BufTy).Contents (Elt F)),
    StableHlo.binary main_v89 main_v90 main_v91 (Host.divf : (⟨S2x2048x1, .f32⟩ : BufTy).Contents (Elt F) → (⟨S2x2048x1, .f32⟩ : BufTy).Contents (Elt F) → (⟨S2x2048x1, .f32⟩ : BufTy).Contents (Elt F)),
    StableHlo.nullary main_c_11 (constantI S_ 32 0#32) ]

/-- Operations 193 … 215 of 229. -/
abbrev opsW22 : List (HloOp τ sig (Elt F)) :=
  [ StableHlo.nullary main_call5_cst (constant (F := F) S_ .f32 0x00000000#32 : (⟨S_, .f32⟩ : BufTy).Contents (Elt F)),
    StableHlo.binary main_v87 main_call5_cst main_call5_v0 ((fun x v => Host.reduceAdd x v reducesTo_S2x2048x128_S2x2048_d2 h_S_) : (⟨S2x2048x128, .f32⟩ : BufTy).Contents (Elt F) → (⟨S_, .f32⟩ : BufTy).Contents (Elt F) → (⟨S2x2048, .f32⟩ : BufTy).Contents (Elt F)),
    StableHlo.unary main_call5_v0 main_call5_v1 (broadcastInDim S2x2048x1 ![0, 1] bcast_S2x2048_S2x2048x1_0_1 : (⟨S2x2048, .f32⟩ : BufTy).Contents (Elt F) → (⟨S2x2048x1, .f32⟩ : BufTy).Contents (Elt F)),
    StableHlo.nullary main_call5_cst_0 (constant (F := F) S_ .f32 0x43000000#32 : (⟨S_, .f32⟩ : BufTy).Contents (Elt F)),
    StableHlo.unary main_call5_cst_0 main_call5_v2 (broadcastInDim S2x2048x1 ![] bcast_S_S2x2048x1 : (⟨S_, .f32⟩ : BufTy).Contents (Elt F) → (⟨S2x2048x1, .f32⟩ : BufTy).Contents (Elt F)),
    StableHlo.binary main_call5_v1 main_call5_v2 main_call5_v3 (Host.divf : (⟨S2x2048x1, .f32⟩ : BufTy).Contents (Elt F) → (⟨S2x2048x1, .f32⟩ : BufTy).Contents (Elt F) → (⟨S2x2048x1, .f32⟩ : BufTy).Contents (Elt F)),
    StableHlo.unary main_call5_v3 main_call5_v4 (broadcastInDim S2x2048x128 ![0, 1, 2] bcast_S2x2048x1_S2x2048x128_0_1_2 : (⟨S2x2048x1, .f32⟩ : BufTy).Contents (Elt F) → (⟨S2x2048x128, .f32⟩ : BufTy).Contents (Elt F)),
    StableHlo.binary main_v87 main_call5_v4 main_call5_v5 (subf : (⟨S2x2048x128, .f32⟩ : BufTy).Contents (Elt F) → (⟨S2x2048x128, .f32⟩ : BufTy).Contents (Elt F) → (⟨S2x2048x128, .f32⟩ : BufTy).Contents (Elt F)),
    StableHlo.binary main_call5_v5 main_call5_v5 main_call5_v6 (mulf : (⟨S2x2048x128, .f32⟩ : BufTy).Contents (Elt F) → (⟨S2x2048x128, .f32⟩ : BufTy).Contents (Elt F) → (⟨S2x2048x128, .f32⟩ : BufTy).Contents (Elt F)),
    StableHlo.unary main_c_11 main_call5_v7 (sitofp .f32 : (⟨S_, .i32⟩ : BufTy).Contents (Elt F) → (⟨S_, .f32⟩ : BufTy).Contents (Elt F)),
    StableHlo.nullary main_call5_cst_1 (constant (F := F) S_ .f32 0x43000000#32 : (⟨S_, .f32⟩ : BufTy).Contents (Elt F)),
    StableHlo.binary main_call5_cst_1 main_call5_v7 main_call5_v8 (subf : (⟨S_, .f32⟩ : BufTy).Contents (Elt F) → (⟨S_, .f32⟩ : BufTy).Contents (Elt F) → (⟨S_, .f32⟩ : BufTy).Contents (Elt F)),
    StableHlo.nullary main_call5_cst_2 (constant (F := F) S_ .f32 0x00000000#32 : (⟨S_, .f32⟩ : BufTy).Contents (Elt F)),
    StableHlo.binary main_call5_v6 main_call5_cst_2 main_call5_v9 ((fun x v => Host.reduceAdd x v reducesTo_S2x2048x128_S2x2048_d2 h_S_) : (⟨S2x2048x128, .f32⟩ : BufTy).Contents (Elt F) → (⟨S_, .f32⟩ : BufTy).Contents (Elt F) → (⟨S2x2048, .f32⟩ : BufTy).Contents (Elt F)),
    StableHlo.unary main_call5_v9 main_call5_v10 (broadcastInDim S2x2048x1 ![0, 1] bcast_S2x2048_S2x2048x1_0_1 : (⟨S2x2048, .f32⟩ : BufTy).Contents (Elt F) → (⟨S2x2048x1, .f32⟩ : BufTy).Contents (Elt F)),
    StableHlo.unary main_call5_v8 main_call5_v11 (broadcastInDim S2x2048x1 ![] bcast_S_S2x2048x1 : (⟨S_, .f32⟩ : BufTy).Contents (Elt F) → (⟨S2x2048x1, .f32⟩ : BufTy).Contents (Elt F)),
    StableHlo.binary main_call5_v10 main_call5_v11 main_call5_v12 (Host.divf : (⟨S2x2048x1, .f32⟩ : BufTy).Contents (Elt F) → (⟨S2x2048x1, .f32⟩ : BufTy).Contents (Elt F) → (⟨S2x2048x1, .f32⟩ : BufTy).Contents (Elt F)),
    StableHlo.nullary main_call5_cst_3 (constant (F := F) S_ .f32 0x00000000#32 : (⟨S_, .f32⟩ : BufTy).Contents (Elt F)),
    StableHlo.binary main_call5_v8 main_call5_cst_3 main_call5_v13 (cmpf .ogt : (⟨S_, .f32⟩ : BufTy).Contents (Elt F) → (⟨S_, .f32⟩ : BufTy).Contents (Elt F) → (⟨S_, .i1⟩ : BufTy).Contents (Elt F)),
    StableHlo.nullary main_call5_cst_4 (constant (F := F) S_ .f32 0x7FC00000#32 : (⟨S_, .f32⟩ : BufTy).Contents (Elt F)),
    StableHlo.unary main_call5_cst_4 main_call5_call0_v0 (id : (⟨S_, .f32⟩ : BufTy).Contents (Elt F) → (⟨S_, .f32⟩ : BufTy).Contents (Elt F)),
    StableHlo.unary main_call5_call0_v0 main_call5_call0_v1 (broadcastInDim S2x2048x1 ![] bcast_S_S2x2048x1 : (⟨S_, .f32⟩ : BufTy).Contents (Elt F) → (⟨S2x2048x1, .f32⟩ : BufTy).Contents (Elt F)),
    StableHlo.ternary main_call5_v13 main_call5_v12 main_call5_call0_v1 main_v92 ((fun p a b => select (broadcastInDim S2x2048x1 ![] bcast_S_S2x2048x1 p) a b) : (⟨S_, .i1⟩ : BufTy).Contents (Elt F) → (⟨S2x2048x1, .f32⟩ : BufTy).Contents (Elt F) → (⟨S2x2048x1, .f32⟩ : BufTy).Contents (Elt F) → (⟨S2x2048x1, .f32⟩ : BufTy).Contents (Elt F)) ]

/-- Operations 216 … 228 of 229. -/
abbrev opsW23 : List (HloOp τ sig (Elt F)) :=
  [ StableHlo.unary main_v91 main_v93 (broadcastInDim S2x2048x128 ![0, 1, 2] bcast_S2x2048x1_S2x2048x128_0_1_2 : (⟨S2x2048x1, .f32⟩ : BufTy).Contents (Elt F) → (⟨S2x2048x128, .f32⟩ : BufTy).Contents (Elt F)),
    StableHlo.binary main_v87 main_v93 main_v94 (subf : (⟨S2x2048x128, .f32⟩ : BufTy).Contents (Elt F) → (⟨S2x2048x128, .f32⟩ : BufTy).Contents (Elt F) → (⟨S2x2048x128, .f32⟩ : BufTy).Contents (Elt F)),
    StableHlo.nullary main_cst_12 (constant S_ .f32 0x3727C5AC#32),
    StableHlo.unary main_cst_12 main_v95 (broadcastInDim S2x2048x1 ![] bcast_S_S2x2048x1 : (⟨S_, .f32⟩ : BufTy).Contents (Elt F) → (⟨S2x2048x1, .f32⟩ : BufTy).Contents (Elt F)),
    StableHlo.binary main_v92 main_v95 main_v96 (addf : (⟨S2x2048x1, .f32⟩ : BufTy).Contents (Elt F) → (⟨S2x2048x1, .f32⟩ : BufTy).Contents (Elt F) → (⟨S2x2048x1, .f32⟩ : BufTy).Contents (Elt F)),
    StableHlo.unary main_v96 main_v97 (Host.sqrt : (⟨S2x2048x1, .f32⟩ : BufTy).Contents (Elt F) → (⟨S2x2048x1, .f32⟩ : BufTy).Contents (Elt F)),
    StableHlo.unary main_v97 main_v98 (broadcastInDim S2x2048x128 ![0, 1, 2] bcast_S2x2048x1_S2x2048x128_0_1_2 : (⟨S2x2048x1, .f32⟩ : BufTy).Contents (Elt F) → (⟨S2x2048x128, .f32⟩ : BufTy).Contents (Elt F)),
    StableHlo.binary main_v94 main_v98 main_v99 (Host.divf : (⟨S2x2048x128, .f32⟩ : BufTy).Contents (Elt F) → (⟨S2x2048x128, .f32⟩ : BufTy).Contents (Elt F) → (⟨S2x2048x128, .f32⟩ : BufTy).Contents (Elt F)),
    StableHlo.unary main_arg19 main_v100 (broadcastInDim S1x1x128 ![2] bcast_S128_S1x1x128_2 : (⟨S128, .f32⟩ : BufTy).Contents (Elt F) → (⟨S1x1x128, .f32⟩ : BufTy).Contents (Elt F)),
    StableHlo.unary main_v100 main_v101 (broadcastInDim S2x2048x128 ![0, 1, 2] bcast_S1x1x128_S2x2048x128_0_1_2 : (⟨S1x1x128, .f32⟩ : BufTy).Contents (Elt F) → (⟨S2x2048x128, .f32⟩ : BufTy).Contents (Elt F)),
    StableHlo.binary main_v99 main_v101 main_v102 (mulf : (⟨S2x2048x128, .f32⟩ : BufTy).Contents (Elt F) → (⟨S2x2048x128, .f32⟩ : BufTy).Contents (Elt F) → (⟨S2x2048x128, .f32⟩ : BufTy).Contents (Elt F)),
    StableHlo.unary main_arg20 main_v103 (broadcastInDim S1x1x128 ![2] bcast_S128_S1x1x128_2 : (⟨S128, .f32⟩ : BufTy).Contents (Elt F) → (⟨S1x1x128, .f32⟩ : BufTy).Contents (Elt F)),
    StableHlo.unary main_v103 main_v104 (broadcastInDim S2x2048x128 ![0, 1, 2] bcast_S1x1x128_S2x2048x128_0_1_2 : (⟨S1x1x128, .f32⟩ : BufTy).Contents (Elt F) → (⟨S2x2048x128, .f32⟩ : BufTy).Contents (Elt F)) ]

/-- Operations 229 … 229 of 229. -/
abbrev opsW24 : List (HloOp τ sig (Elt F)) :=
  [ StableHlo.binary main_v102 main_v104 main_v105 (addf : (⟨S2x2048x128, .f32⟩ : BufTy).Contents (Elt F) → (⟨S2x2048x128, .f32⟩ : BufTy).Contents (Elt F) → (⟨S2x2048x128, .f32⟩ : BufTy).Contents (Elt F)) ]

end Cert.RefSide

end
-- ==== Proof.RefMainEq.lean ====
import proofs.«208327_g62569083568895_cont_9to1c4b_407_46_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! The program is the straight line of its operations: the bodies of the calls opened at
their call sites, the sequencing reassociated. -/

/-- The operations of the program's part 0. -/
abbrev opsP0 : List (HloOp τ sig (Elt F)) :=
  opsW1 ++ (opsW2 ++ (opsW3 ++ (opsW4 ++ (opsW5 ++ (opsW6 ++ (opsW7 ++ (opsW8 ++ (opsW9 ++ (opsW10 ++ (opsW11 ++ (opsW12)))))))))))

/-- The operations of the program's part 1. -/
abbrev opsP1 : List (HloOp τ sig (Elt F)) :=
  opsW13 ++ (opsW14 ++ (opsW15 ++ (opsW16 ++ (opsW17 ++ (opsW18 ++ (opsW19 ++ (opsW20 ++ (opsW21 ++ (opsW22 ++ (opsW23))))))))))

/-- The operations of the program's part 2. -/
abbrev opsP2 : List (HloOp τ sig (Elt F)) :=
  opsW24

/-- All 229 operations, in order. -/
abbrev ops : List (HloOp τ sig (Elt F)) :=
  opsW1 ++ (opsW2 ++ (opsW3 ++ (opsW4 ++ (opsW5 ++ (opsW6 ++ (opsW7 ++ (opsW8 ++ (opsW9 ++ (opsW10 ++ (opsW11 ++ (opsW12 ++ (opsW13 ++ (opsW14 ++ (opsW15 ++ (opsW16 ++ (opsW17 ++ (opsW18 ++ (opsW19 ++ (opsW20 ++ (opsW21 ++ (opsW22 ++ (opsW23 ++ (opsW24)))))))))))))))))))))))

set_option maxRecDepth 16384 in
set_option maxHeartbeats 8000000 in
attribute [local irreducible] Host.reduce Host.reduceAdd Host.gather in
theorem main_part0_eq (c : Dev nD) : main_part0 (F := F) c = seq opsP0 := by
  simp only [main_part0, fn_take_along_axis.body, fn_where.body, fn_where_0.body, fn_var.body, opsP0,
    opsW1, opsW2, opsW3, opsW4, opsW5, opsW6, opsW7, opsW8, opsW9, opsW10, opsW11, opsW12, List.cons_append, List.nil_append, seq, bind_assoc, pure_bind]
  all_goals rfl

set_option maxRecDepth 16384 in
set_option maxHeartbeats 8000000 in
attribute [local irreducible] Host.reduce Host.reduceAdd Host.gather in
theorem main_part1_eq (c : Dev nD) : main_part1 (F := F) c = seq opsP1 := by
  simp only [main_part1, fn_take_along_axis.body, fn_where.body, fn_where_0.body, fn_var.body, opsP1,
    opsW13, opsW14, opsW15, opsW16, opsW17, opsW18, opsW19, opsW20, opsW21, opsW22, opsW23, List.cons_append, List.nil_append, seq, bind_assoc, pure_bind]
  all_goals rfl

set_option maxRecDepth 16384 in
set_option maxHeartbeats 8000000 in
attribute [local irreducible] Host.reduce Host.reduceAdd Host.gather in
theorem main_part2_eq (c : Dev nD) : main_part2 (F := F) c = seq opsP2 := by
  simp only [main_part2, fn_take_along_axis.body, fn_where.body, fn_where_0.body, fn_var.body, opsP2,
    opsW24, List.cons_append, List.nil_append, seq, bind_assoc, pure_bind]
  all_goals rfl

theorem ops_eq : (ops : List (HloOp τ sig (Elt F))) = opsP0 ++ (opsP1 ++ opsP2) := by
  simp only [ops, opsP0, opsP1, opsP2, List.append_assoc]

theorem main_eq (c : Dev nD) : main (F := F) c = seq ops := by
  rw [ops_eq, seq_append opsP0, seq_append opsP1, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.RefSide

end
-- ==== Proof.RefTerm.lean ====
import proofs.«208327_g62569083568895_cont_9to1c4b_407_46_alg».proof.Proof.Gen.ReferenceIdeal

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! The reference's result as a composition of pure array functions, one per stage of the
program: each is the composition of that stage's operations, in the program's order. -/

/-- A node array `[z, n, d]` repeated along the neighbour axis: `[z, n, k, d]`. -/
def rowB (x0 : FVec F S2x2048x128 .f32) : FVec F S2x2048x32x128 .f32 :=
  (broadcastInDim S2x2048x32x128 ![0, 1, 2, 3] bcast_S2x2048x1x128_S2x2048x32x128_0_1_2_3 (broadcastInDim S2x2048x1x128 ![0, 1, 3] bcast_S2x2048x128_S2x2048x1x128_0_1_3 x0 : FVec F S2x2048x1x128 .f32) : FVec F S2x2048x32x128 .f32)

/-- The neighbour table `[z, n, k]` repeated along the feature axis: `[z, n, k, d]`. -/
def idxB (x0 : IVec S2x2048x32 32) : IVec S2x2048x32x128 32 :=
  (broadcastInDim S2x2048x32x128 ![0, 1, 2, 3] bcast_S2x2048x32x1_S2x2048x32x128_0_1_2_3 (broadcastInDim S2x2048x32x1 ![0, 1, 2] bcast_S2x2048x32_S2x2048x32x1_0_1_2 x0 : IVec S2x2048x32x1 32) : IVec S2x2048x32x128 32)

/-- `take_along_axis` on axis 1: a negative index wrapped by 2048, then the element of the source at that node where the index lies in `[0, 2047]`, the fill value elsewhere. -/
def takeAlong (x0 : IVec S2x2048x32x128 32) (x1 : FVec F S2x2048x32x128 .f32) : FVec F S2x2048x32x128 .f32 :=
  (select (Host.reduce IntOp.andi (andi (cmpi .sge (shapeCast S2x2048x32x128x1 (select (cmpi .slt x0 (broadcastInDim S2x2048x32x128 ![] bcast_S_S2x2048x32x128 (constantI S_ 32 0#32 : IVec S_ 32) : IVec S2x2048x32x128 32) : IVec S2x2048x32x128 1) (addi x0 (broadcastInDim S2x2048x32x128 ![] bcast_S_S2x2048x32x128 (constantI S_ 32 2048#32 : IVec S_ 32) : IVec S2x2048x32x128 32) : IVec S2x2048x32x128 32) x0 : IVec S2x2048x32x128 32) shapeCasts_S2x2048x32x128_S2x2048x32x128x1 : IVec S2x2048x32x128x1 32) (broadcastInDim S2x2048x32x128x1 ![] bcast_S_S2x2048x32x128x1 (constantI S_ 32 0#32 : IVec S_ 32) : IVec S2x2048x32x128x1 32) : IVec S2x2048x32x128x1 1) (cmpi .sle (shapeCast S2x2048x32x128x1 (select (cmpi .slt x0 (broadcastInDim S2x2048x32x128 ![] bcast_S_S2x2048x32x128 (constantI S_ 32 0#32 : IVec S_ 32) : IVec S2x2048x32x128 32) : IVec S2x2048x32x128 1) (addi x0 (broadcastInDim S2x2048x32x128 ![] bcast_S_S2x2048x32x128 (constantI S_ 32 2048#32 : IVec S_ 32) : IVec S2x2048x32x128 32) : IVec S2x2048x32x128 32) x0 : IVec S2x2048x32x128 32) shapeCasts_S2x2048x32x128_S2x2048x32x128x1 : IVec S2x2048x32x128x1 32) (broadcastInDim S2x2048x32x128x1 ![0, 1, 2, 3, 4] bcast_S1x1x1x1x1_S2x2048x32x128x1_0_1_2_3_4 (broadcastInDim S1x1x1x1x1 ![4] bcast_S1_S1x1x1x1x1_4 (constantI S1 32 2047#32 : IVec S1 32) : IVec S1x1x1x1x1 32) : IVec S2x2048x32x128x1 32) : IVec S2x2048x32x128x1 1) : IVec S2x2048x32x128x1 1) (constantI S_ 1 1#1 : IVec S_ 1) reducesTo_S2x2048x32x128x1_S2x2048x32x128_d4 h_S_ : IVec S2x2048x32x128 1) (Host.gather gather_S2x2048x32x128_S2x2048x32x128x1_S2x2048x32x128_n_1_023_023_1_4_1111 x1 (shapeCast S2x2048x32x128x1 (select (cmpi .slt x0 (broadcastInDim S2x2048x32x128 ![] bcast_S_S2x2048x32x128 (constantI S_ 32 0#32 : IVec S_ 32) : IVec S2x2048x32x128 32) : IVec S2x2048x32x128 1) (addi x0 (broadcastInDim S2x2048x32x128 ![] bcast_S_S2x2048x32x128 (constantI S_ 32 2048#32 : IVec S_ 32) : IVec S2x2048x32x128 32) : IVec S2x2048x32x128 32) x0 : IVec S2x2048x32x128 32) shapeCasts_S2x2048x32x128_S2x2048x32x128x1 : IVec S2x2048x32x128x1 32) : FVec F S2x2048x32x128 .f32) (broadcastInDim S2x2048x32x128 ![] bcast_S_S2x2048x32x128 (constant (F := F) S_ .f32 0x7FC00000#32 : FVec F S_ .f32) : FVec F S2x2048x32x128 .f32) : FVec F S2x2048x32x128 .f32)

/-- The edge features and the gathered sequence features times the mask as a number, concatenated: 256 wide. -/
def ecat (x0 : FVec F S2x2048x32x128 .f32) (x1 : FVec F S2x2048x32x128 .f32) (x2 : IVec S2x2048x32 1) : FVec F S2x2048x32x256 .f32 :=
  (concatenate S2x2048x32x256 3 [⟨S2x2048x32x128, x0⟩, ⟨S2x2048x32x128, (mulf x1 (broadcastInDim S2x2048x32x128 ![0, 1, 2, 3] bcast_S2x2048x32x1_S2x2048x32x128_0_1_2_3 (uitofp .f32 (broadcastInDim S2x2048x32x1 ![0, 1, 2] bcast_S2x2048x32_S2x2048x32x1_0_1_2 x2 : IVec S2x2048x32x1 1) : FVec F S2x2048x32x1 .f32) : FVec F S2x2048x32x128 .f32) : FVec F S2x2048x32x128 .f32)⟩] concatenates_S2x2048x32x128_S2x2048x32x128_S2x2048x32x256_d3 : FVec F S2x2048x32x256 .f32)

/-- The 512 concatenated features times the first weight matrix, plus the bias. -/
def pre1 (x0 : FVec F S2x2048x32x128 .f32) (x1 : IVec S2x2048x32 1) (x2 : FVec F S2x2048x32x128 .f32) (x3 : FVec F S2x2048x32x128 .f32) (x4 : FVec F S2x2048x32x256 .f32) (x5 : FVec F S512x128 .f32) (x6 : FVec F S128 .f32) : FVec F S2x2048x32x128 .f32 :=
  (addf (Host.dotGeneral dot_S2x2048x32x512_S512x128_S2x2048x32x128_3_0_012_1_n_n none (concatenate S2x2048x32x512 3 [⟨S2x2048x32x128, x0⟩, ⟨S2x2048x32x128, (select (broadcastInDim S2x2048x32x128 ![0, 1, 2, 3] bcast_S2x2048x32x1_S2x2048x32x128_0_1_2_3 (broadcastInDim S2x2048x32x1 ![0, 1, 2] bcast_S2x2048x32_S2x2048x32x1_0_1_2 x1 : IVec S2x2048x32x1 1) : IVec S2x2048x32x128 1) x2 x3 : FVec F S2x2048x32x128 .f32)⟩, ⟨S2x2048x32x256, x4⟩] concatenates_S2x2048x32x128_S2x2048x32x128_S2x2048x32x256_S2x2048x32x512_d3 : FVec F S2x2048x32x512 .f32) x5 : FVec F S2x2048x32x128 .f32) (broadcastInDim S2x2048x32x128 ![0, 1, 2, 3] bcast_S1x1x1x128_S2x2048x32x128_0_1_2_3 (broadcastInDim S1x1x1x128 ![3] bcast_S128_S1x1x1x128_3 x6 : FVec F S1x1x1x128 .f32) : FVec F S2x2048x32x128 .f32) : FVec F S2x2048x32x128 .f32)

/-- The exact GELU, `(half * x) * erfc ((-x) * c)`, on an edge array. -/
def gelu4 (x0 : FVec F S2x2048x32x128 .f32) : FVec F S2x2048x32x128 .f32 :=
  (mulf (mulf (broadcastInDim S2x2048x32x128 ![] bcast_S_S2x2048x32x128 (constant (F := F) S_ .f32 0x3F000000#32 : FVec F S_ .f32) : FVec F S2x2048x32x128 .f32) x0 : FVec F S2x2048x32x128 .f32) (Host.erfc (mulf (Host.negf x0 : FVec F S2x2048x32x128 .f32) (broadcastInDim S2x2048x32x128 ![] bcast_S_S2x2048x32x128 (constant (F := F) S_ .f32 0x3F3504F3#32 : FVec F S_ .f32) : FVec F S2x2048x32x128 .f32) : FVec F S2x2048x32x128 .f32) : FVec F S2x2048x32x128 .f32) : FVec F S2x2048x32x128 .f32)

/-- A linear map on the last axis of an edge array, plus the bias. -/
def lin4 (x0 : FVec F S2x2048x32x128 .f32) (x1 : FVec F S128x128 .f32) (x2 : FVec F S128 .f32) : FVec F S2x2048x32x128 .f32 :=
  (addf (Host.dotGeneral dot_S2x2048x32x128_S128x128_S2x2048x32x128_3_0_012_1_n_n none x0 x1 : FVec F S2x2048x32x128 .f32) (broadcastInDim S2x2048x32x128 ![0, 1, 2, 3] bcast_S1x1x1x128_S2x2048x32x128_0_1_2_3 (broadcastInDim S1x1x1x128 ![3] bcast_S128_S1x1x1x128_3 x2 : FVec F S1x1x1x128 .f32) : FVec F S2x2048x32x128 .f32) : FVec F S2x2048x32x128 .f32)

/-- The node value plus the sum over its neighbours of the masked last linear map. -/
def x1sum (x0 : FVec F S2x2048x128 .f32) (x1 : FVec F S2x2048x32x128 .f32) (x2 : FVec F S128x128 .f32) (x3 : FVec F S128 .f32) (x4 : FVec F S2x2048x32 .f32) : FVec F S2x2048x128 .f32 :=
  (addf x0 (Host.reduceAdd (mulf (addf (Host.dotGeneral dot_S2x2048x32x128_S128x128_S2x2048x32x128_3_0_012_1_n_n none x1 x2 : FVec F S2x2048x32x128 .f32) (broadcastInDim S2x2048x32x128 ![0, 1, 2, 3] bcast_S1x1x1x128_S2x2048x32x128_0_1_2_3 (broadcastInDim S1x1x1x128 ![3] bcast_S128_S1x1x1x128_3 x3 : FVec F S1x1x1x128 .f32) : FVec F S2x2048x32x128 .f32) : FVec F S2x2048x32x128 .f32) (broadcastInDim S2x2048x32x128 ![0, 1, 2, 3] bcast_S2x2048x32x1_S2x2048x32x128_0_1_2_3 (broadcastInDim S2x2048x32x1 ![0, 1, 2] bcast_S2x2048x32_S2x2048x32x1_0_1_2 x4 : FVec F S2x2048x32x1 .f32) : FVec F S2x2048x32x128 .f32) : FVec F S2x2048x32x128 .f32) (constant (F := F) S_ .f32 0x00000000#32 : FVec F S_ .f32) reducesTo_S2x2048x32x128_S2x2048x128_d2 h_S_ : FVec F S2x2048x128 .f32) : FVec F S2x2048x128 .f32)

/-- The float zero. -/
def zeroF  : FVec F S_ .f32 :=
  (constant (F := F) S_ .f32 0x00000000#32 : FVec F S_ .f32)

/-- The sum over the feature axis (from the given start value) over 128, keeping the axis. -/
def mean3 (x0 : FVec F S2x2048x128 .f32) (x1 : FVec F S_ .f32) : FVec F S2x2048x1 .f32 :=
  (Host.divf (broadcastInDim S2x2048x1 ![0, 1] bcast_S2x2048_S2x2048x1_0_1 (Host.reduceAdd x0 x1 reducesTo_S2x2048x128_S2x2048_d2 h_S_ : FVec F S2x2048 .f32) : FVec F S2x2048x1 .f32) (broadcastInDim S2x2048x1 ![] bcast_S_S2x2048x1 (constant (F := F) S_ .f32 0x43000000#32 : FVec F S_ .f32) : FVec F S2x2048x1 .f32) : FVec F S2x2048x1 .f32)

/-- The integer zero. -/
def zeroI  : IVec S_ 32 :=
  (constantI S_ 32 0#32 : IVec S_ 32)

/-- The variance over the feature axis with the given degrees-of-freedom correction `c`: the sum of squared deviations over `128 - c` where that is positive, the fill value otherwise. -/
def var3 (x0 : IVec S_ 32) (x1 : FVec F S2x2048x128 .f32) : FVec F S2x2048x1 .f32 :=
  (select (broadcastInDim S2x2048x1 ![] bcast_S_S2x2048x1 (cmpf .ogt (subf (constant (F := F) S_ .f32 0x43000000#32 : FVec F S_ .f32) (sitofp .f32 x0 : FVec F S_ .f32) : FVec F S_ .f32) (constant (F := F) S_ .f32 0x00000000#32 : FVec F S_ .f32) : IVec S_ 1)) (Host.divf (broadcastInDim S2x2048x1 ![0, 1] bcast_S2x2048_S2x2048x1_0_1 (Host.reduceAdd (mulf (subf x1 (broadcastInDim S2x2048x128 ![0, 1, 2] bcast_S2x2048x1_S2x2048x128_0_1_2 (Host.divf (broadcastInDim S2x2048x1 ![0, 1] bcast_S2x2048_S2x2048x1_0_1 (Host.reduceAdd x1 (constant (F := F) S_ .f32 0x00000000#32 : FVec F S_ .f32) reducesTo_S2x2048x128_S2x2048_d2 h_S_ : FVec F S2x2048 .f32) : FVec F S2x2048x1 .f32) (broadcastInDim S2x2048x1 ![] bcast_S_S2x2048x1 (constant (F := F) S_ .f32 0x43000000#32 : FVec F S_ .f32) : FVec F S2x2048x1 .f32) : FVec F S2x2048x1 .f32) : FVec F S2x2048x128 .f32) : FVec F S2x2048x128 .f32) (subf x1 (broadcastInDim S2x2048x128 ![0, 1, 2] bcast_S2x2048x1_S2x2048x128_0_1_2 (Host.divf (broadcastInDim S2x2048x1 ![0, 1] bcast_S2x2048_S2x2048x1_0_1 (Host.reduceAdd x1 (constant (F := F) S_ .f32 0x00000000#32 : FVec F S_ .f32) reducesTo_S2x2048x128_S2x2048_d2 h_S_ : FVec F S2x2048 .f32) : FVec F S2x2048x1 .f32) (broadcastInDim S2x2048x1 ![] bcast_S_S2x2048x1 (constant (F := F) S_ .f32 0x43000000#32 : FVec F S_ .f32) : FVec F S2x2048x1 .f32) : FVec F S2x2048x1 .f32) : FVec F S2x2048x128 .f32) : FVec F S2x2048x128 .f32) : FVec F S2x2048x128 .f32) (constant (F := F) S_ .f32 0x00000000#32 : FVec F S_ .f32) reducesTo_S2x2048x128_S2x2048_d2 h_S_ : FVec F S2x2048 .f32) : FVec F S2x2048x1 .f32) (broadcastInDim S2x2048x1 ![] bcast_S_S2x2048x1 (subf (constant (F := F) S_ .f32 0x43000000#32 : FVec F S_ .f32) (sitofp .f32 x0 : FVec F S_ .f32) : FVec F S_ .f32) : FVec F S2x2048x1 .f32) : FVec F S2x2048x1 .f32) (broadcastInDim S2x2048x1 ![] bcast_S_S2x2048x1 (id (constant (F := F) S_ .f32 0x7FC00000#32 : FVec F S_ .f32) : FVec F S_ .f32) : FVec F S2x2048x1 .f32) : FVec F S2x2048x1 .f32)

/-- The centred value over the square root of the variance plus epsilon, times the scale. -/
def lnScaled (x0 : FVec F S2x2048x128 .f32) (x1 : FVec F S2x2048x1 .f32) (x2 : FVec F S2x2048x1 .f32) (x3 : FVec F S128 .f32) : FVec F S2x2048x128 .f32 :=
  (mulf (Host.divf (subf x0 (broadcastInDim S2x2048x128 ![0, 1, 2] bcast_S2x2048x1_S2x2048x128_0_1_2 x1 : FVec F S2x2048x128 .f32) : FVec F S2x2048x128 .f32) (broadcastInDim S2x2048x128 ![0, 1, 2] bcast_S2x2048x1_S2x2048x128_0_1_2 (Host.sqrt (addf x2 (broadcastInDim S2x2048x1 ![] bcast_S_S2x2048x1 (constant (F := F) S_ .f32 0x3727C5AC#32 : FVec F S_ .f32) : FVec F S2x2048x1 .f32) : FVec F S2x2048x1 .f32) : FVec F S2x2048x1 .f32) : FVec F S2x2048x128 .f32) : FVec F S2x2048x128 .f32) (broadcastInDim S2x2048x128 ![0, 1, 2] bcast_S1x1x128_S2x2048x128_0_1_2 (broadcastInDim S1x1x128 ![2] bcast_S128_S1x1x128_2 x3 : FVec F S1x1x128 .f32) : FVec F S2x2048x128 .f32) : FVec F S2x2048x128 .f32)

/-- A feature row repeated over the nodes. -/
def rowB3 (x0 : FVec F S128 .f32) : FVec F S2x2048x128 .f32 :=
  (broadcastInDim S2x2048x128 ![0, 1, 2] bcast_S1x1x128_S2x2048x128_0_1_2 (broadcastInDim S1x1x128 ![2] bcast_S128_S1x1x128_2 x0 : FVec F S1x1x128 .f32) : FVec F S2x2048x128 .f32)

/-- The elementwise sum of two node arrays. -/
def addB3 (x0 : FVec F S2x2048x128 .f32) (x1 : FVec F S2x2048x128 .f32) : FVec F S2x2048x128 .f32 :=
  (addf x0 x1 : FVec F S2x2048x128 .f32)

/-- The first linear map of the feed-forward network, plus the bias. -/
def lin3a (x0 : FVec F S2x2048x128 .f32) (x1 : FVec F S128x512 .f32) (x2 : FVec F S512 .f32) : FVec F S2x2048x512 .f32 :=
  (addf (Host.dotGeneral dot_S2x2048x128_S128x512_S2x2048x512_2_0_01_1_n_n none x0 x1 : FVec F S2x2048x512 .f32) (broadcastInDim S2x2048x512 ![0, 1, 2] bcast_S1x1x512_S2x2048x512_0_1_2 (broadcastInDim S1x1x512 ![2] bcast_S512_S1x1x512_2 x2 : FVec F S1x1x512 .f32) : FVec F S2x2048x512 .f32) : FVec F S2x2048x512 .f32)

/-- The exact GELU on a `[z, n, 512]` array. -/
def gelu3 (x0 : FVec F S2x2048x512 .f32) : FVec F S2x2048x512 .f32 :=
  (mulf (mulf (broadcastInDim S2x2048x512 ![] bcast_S_S2x2048x512 (constant (F := F) S_ .f32 0x3F000000#32 : FVec F S_ .f32) : FVec F S2x2048x512 .f32) x0 : FVec F S2x2048x512 .f32) (Host.erfc (mulf (Host.negf x0 : FVec F S2x2048x512 .f32) (broadcastInDim S2x2048x512 ![] bcast_S_S2x2048x512 (constant (F := F) S_ .f32 0x3F3504F3#32 : FVec F S_ .f32) : FVec F S2x2048x512 .f32) : FVec F S2x2048x512 .f32) : FVec F S2x2048x512 .f32) : FVec F S2x2048x512 .f32)

/-- The node array plus the second linear map of the feed-forward network and its bias. -/
def resid (x0 : FVec F S2x2048x128 .f32) (x1 : FVec F S2x2048x512 .f32) (x2 : FVec F S512x128 .f32) (x3 : FVec F S128 .f32) : FVec F S2x2048x128 .f32 :=
  (addf x0 (addf (Host.dotGeneral dot_S2x2048x512_S512x128_S2x2048x128_2_0_01_1_n_n none x1 x2 : FVec F S2x2048x128 .f32) (broadcastInDim S2x2048x128 ![0, 1, 2] bcast_S1x1x128_S2x2048x128_0_1_2 (broadcastInDim S1x1x128 ![2] bcast_S128_S1x1x128_2 x3 : FVec F S1x1x128 .f32) : FVec F S2x2048x128 .f32) : FVec F S2x2048x128 .f32) : FVec F S2x2048x128 .f32)

/-- The 21 argument arrays, in the program's order. -/
structure Args (F : FTy → Type) where
  Vn : FVec F S2x2048x128 .f32
  Vo : FVec F S2x2048x128 .f32
  E : FVec F S2x2048x32x128 .f32
  K : IVec S2x2048x32 32
  S : FVec F S2x2048x128 .f32
  em : FVec F S2x2048x32 .f32
  ar : IVec S2x2048x32 1
  W0 : FVec F S512x128 .f32
  b0 : FVec F S128 .f32
  W1 : FVec F S128x128 .f32
  b1 : FVec F S128 .f32
  W2 : FVec F S128x128 .f32
  b2 : FVec F S128 .f32
  F0 : FVec F S128x512 .f32
  fb0 : FVec F S512 .f32
  F1 : FVec F S512x128 .f32
  fb1 : FVec F S128 .f32
  g1 : FVec F S128 .f32
  be1 : FVec F S128 .f32
  g2 : FVec F S128 .f32
  be2 : FVec F S128 .f32

/-- The contents of `main_v1` as a function of the arguments. -/
def res_main_v1 (A : Args F) : FVec F S2x2048x32x128 .f32 :=
  rowB A.S

/-- The contents of `main_v3` as a function of the arguments. -/
def res_main_v3 (A : Args F) : IVec S2x2048x32x128 32 :=
  idxB A.K

/-- The contents of `main_v4` as a function of the arguments. -/
def res_main_v4 (A : Args F) : FVec F S2x2048x32x128 .f32 :=
  takeAlong (res_main_v3 A) (res_main_v1 A)

/-- The contents of `main_v9` as a function of the arguments. -/
def res_main_v9 (A : Args F) : FVec F S2x2048x32x256 .f32 :=
  ecat A.E (res_main_v4 A) A.ar

/-- The contents of `main_v11` as a function of the arguments. -/
def res_main_v11 (A : Args F) : FVec F S2x2048x32x128 .f32 :=
  rowB A.Vn

/-- The contents of `main_v13` as a function of the arguments. -/
def res_main_v13 (A : Args F) : IVec S2x2048x32x128 32 :=
  idxB A.K

/-- The contents of `main_v14` as a function of the arguments. -/
def res_main_v14 (A : Args F) : FVec F S2x2048x32x128 .f32 :=
  takeAlong (res_main_v13 A) (res_main_v11 A)

/-- The contents of `main_v16` as a function of the arguments. -/
def res_main_v16 (A : Args F) : FVec F S2x2048x32x128 .f32 :=
  rowB A.Vo

/-- The contents of `main_v18` as a function of the arguments. -/
def res_main_v18 (A : Args F) : IVec S2x2048x32x128 32 :=
  idxB A.K

/-- The contents of `main_v19` as a function of the arguments. -/
def res_main_v19 (A : Args F) : FVec F S2x2048x32x128 .f32 :=
  takeAlong (res_main_v18 A) (res_main_v16 A)

/-- The contents of `main_v26` as a function of the arguments. -/
def res_main_v26 (A : Args F) : FVec F S2x2048x32x128 .f32 :=
  pre1 (res_main_v11 A) A.ar (res_main_v14 A) (res_main_v19 A) (res_main_v9 A) A.W0 A.b0

/-- The contents of `main_v33` as a function of the arguments. -/
def res_main_v33 (A : Args F) : FVec F S2x2048x32x128 .f32 :=
  gelu4 (res_main_v26 A)

/-- The contents of `main_v37` as a function of the arguments. -/
def res_main_v37 (A : Args F) : FVec F S2x2048x32x128 .f32 :=
  lin4 (res_main_v33 A) A.W1 A.b1

/-- The contents of `main_v44` as a function of the arguments. -/
def res_main_v44 (A : Args F) : FVec F S2x2048x32x128 .f32 :=
  gelu4 (res_main_v37 A)

/-- The contents of `main_v53` as a function of the arguments. -/
def res_main_v53 (A : Args F) : FVec F S2x2048x128 .f32 :=
  x1sum A.Vn (res_main_v44 A) A.W2 A.b2 A.em

/-- The contents of `main_cst_4` as a function of the arguments. -/
def res_main_cst_4 (A : Args F) : FVec F S_ .f32 :=
  zeroF

/-- The contents of `main_v57` as a function of the arguments. -/
def res_main_v57 (A : Args F) : FVec F S2x2048x1 .f32 :=
  mean3 (res_main_v53 A) (res_main_cst_4 A)

/-- The contents of `main_c` as a function of the arguments. -/
def res_main_c (A : Args F) : IVec S_ 32 :=
  zeroI

/-- The contents of `main_v58` as a function of the arguments. -/
def res_main_v58 (A : Args F) : FVec F S2x2048x1 .f32 :=
  var3 (res_main_c A) (res_main_v53 A)

/-- The contents of `main_v68` as a function of the arguments. -/
def res_main_v68 (A : Args F) : FVec F S2x2048x128 .f32 :=
  lnScaled (res_main_v53 A) (res_main_v57 A) (res_main_v58 A) A.g1

/-- The contents of `main_v70` as a function of the arguments. -/
def res_main_v70 (A : Args F) : FVec F S2x2048x128 .f32 :=
  rowB3 A.be1

/-- The contents of `main_v71` as a function of the arguments. -/
def res_main_v71 (A : Args F) : FVec F S2x2048x128 .f32 :=
  addB3 (res_main_v68 A) (res_main_v70 A)

/-- The contents of `main_v75` as a function of the arguments. -/
def res_main_v75 (A : Args F) : FVec F S2x2048x512 .f32 :=
  lin3a (res_main_v71 A) A.F0 A.fb0

/-- The contents of `main_v82` as a function of the arguments. -/
def res_main_v82 (A : Args F) : FVec F S2x2048x512 .f32 :=
  gelu3 (res_main_v75 A)

/-- The contents of `main_v87` as a function of the arguments. -/
def res_main_v87 (A : Args F) : FVec F S2x2048x128 .f32 :=
  resid (res_main_v71 A) (res_main_v82 A) A.F1 A.fb1

/-- The contents of `main_cst_9` as a function of the arguments. -/
def res_main_cst_9 (A : Args F) : FVec F S_ .f32 :=
  zeroF

/-- The contents of `main_v91` as a function of the arguments. -/
def res_main_v91 (A : Args F) : FVec F S2x2048x1 .f32 :=
  mean3 (res_main_v87 A) (res_main_cst_9 A)

/-- The contents of `main_c_11` as a function of the arguments. -/
def res_main_c_11 (A : Args F) : IVec S_ 32 :=
  zeroI

/-- The contents of `main_v92` as a function of the arguments. -/
def res_main_v92 (A : Args F) : FVec F S2x2048x1 .f32 :=
  var3 (res_main_c_11 A) (res_main_v87 A)

/-- The contents of `main_v102` as a function of the arguments. -/
def res_main_v102 (A : Args F) : FVec F S2x2048x128 .f32 :=
  lnScaled (res_main_v87 A) (res_main_v91 A) (res_main_v92 A) A.g2

/-- The contents of `main_v104` as a function of the arguments. -/
def res_main_v104 (A : Args F) : FVec F S2x2048x128 .f32 :=
  rowB3 A.be2

/-- The contents of `main_v105` as a function of the arguments. -/
def res_main_v105 (A : Args F) : FVec F S2x2048x128 .f32 :=
  addB3 (res_main_v102 A) (res_main_v104 A)

/-- The reference's result as a function of its 21 arguments. -/
def refTerm (a0 : FVec F S2x2048x128 .f32) (a1 : FVec F S2x2048x128 .f32) (a2 : FVec F S2x2048x32x128 .f32) (a3 : IVec S2x2048x32 32) (a4 : FVec F S2x2048x128 .f32) (a5 : FVec F S2x2048x32 .f32) (a6 : IVec S2x2048x32 1) (a7 : FVec F S512x128 .f32) (a8 : FVec F S128 .f32) (a9 : FVec F S128x128 .f32) (a10 : FVec F S128 .f32) (a11 : FVec F S128x128 .f32) (a12 : FVec F S128 .f32) (a13 : FVec F S128x512 .f32) (a14 : FVec F S512 .f32) (a15 : FVec F S512x128 .f32) (a16 : FVec F S128 .f32) (a17 : FVec F S128 .f32) (a18 : FVec F S128 .f32) (a19 : FVec F S128 .f32) (a20 : FVec F S128 .f32) : FVec F S2x2048x128 .f32 :=
  res_main_v105 ⟨a0, a1, a2, a3, a4, a5, a6, a7, a8, a9, a10, a11, a12, a13, a14, a15, a16, a17, a18, a19, a20⟩

end Cert.RefSide

end
-- ==== Proof.RefWin1.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 1 … 4: what they leave in the buffers read later, from any contents. -/

theorem opsW1_sub : (opsW1 : List (HloOp τ sig (Elt F))).Forall fun op => op.bufs ⊆ tcRefs τ sig :=
  ⟨unary_bufs_sub .., unary_bufs_sub .., unary_bufs_sub .., unary_bufs_sub ..⟩

theorem opsW1_fresh : ∀ op ∈ (opsW1 : List (HloOp τ sig (Elt F))), op.fresh = ∅ := by
  intro _ h; (repeat (cases h with | head => rfl | tail _ h => ?_)); exact nomatch h

/-- The buffers these operations write. -/
abbrev opsW1_W : List (Ref sig .tc) := [main_v0, main_v1, main_v2, main_v3]

theorem opsW1_writes : (opsW1 : List (HloOp τ sig (Elt F))).Forall fun op => op.writes ⊆ (opsW1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW1_keep (V : Valuation τ sig (Elt F)) (r : Ref sig .tc) (h : r ∉ opsW1_W) :
    after opsW1 V (Proc.devRef .tc r) = V (Proc.devRef .tc r) :=
  after_of_writes_sub opsW1 V opsW1_writes h

set_option maxRecDepth 65536 in
set_option maxHeartbeats 4000000 in
theorem opsW1_main_v1 (V : Valuation τ sig (Elt F)) :
    after opsW1 V (Proc.devRef .tc main_v1) = rowB (V (Proc.devRef .tc main_arg4)) := by
  simp only [opsW1]
  after_results_simp
  rfl

set_option maxRecDepth 65536 in
set_option maxHeartbeats 4000000 in
theorem opsW1_main_v3 (V : Valuation τ sig (Elt F)) :
    after opsW1 V (Proc.devRef .tc main_v3) = idxB (V (Proc.devRef .tc main_arg3)) := by
  simp only [opsW1]
  after_results_simp
  rfl

end Cert.RefSide

end
-- ==== Proof.RefWin2.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 5 … 26: what they leave in the buffers read later, from any contents. -/

theorem opsW2_sub : (opsW2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem opsW2_fresh : ∀ op ∈ (opsW2 : List (HloOp τ sig (Elt F))), op.fresh = ∅ := by
  intro _ h; (repeat (cases h with | head => rfl | tail _ h => ?_)); exact nomatch h

/-- The buffers these operations write. -/
abbrev opsW2_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_cst, main_call0_v14, main_v4]

theorem opsW2_writes : (opsW2 : List (HloOp τ sig (Elt F))).Forall fun op => op.writes ⊆ (opsW2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW2_keep (V : Valuation τ sig (Elt F)) (r : Ref sig .tc) (h : r ∉ opsW2_W) :
    after opsW2 V (Proc.devRef .tc r) = V (Proc.devRef .tc r) :=
  after_of_writes_sub opsW2 V opsW2_writes h

set_option maxRecDepth 65536 in
set_option maxHeartbeats 4000000 in
theorem opsW2_main_v4 (V : Valuation τ sig (Elt F)) :
    after opsW2 V (Proc.devRef .tc main_v4) = takeAlong (V (Proc.devRef .tc main_v3)) (V (Proc.devRef .tc main_v1)) := by
  simp only [opsW2]
  after_results_simp
  rfl

end Cert.RefSide

end
-- ==== Proof.RefWin3.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 27 … 35: what they leave in the buffers read later, from any contents. -/

theorem opsW3_sub : (opsW3 : List (HloOp τ sig (Elt F))).Forall fun op => op.bufs ⊆ tcRefs τ sig :=
  ⟨unary_bufs_sub .., unary_bufs_sub .., unary_bufs_sub .., binary_bufs_sub .., binary_bufs_sub .., unary_bufs_sub .., unary_bufs_sub .., unary_bufs_sub .., unary_bufs_sub ..⟩

theorem opsW3_fresh : ∀ op ∈ (opsW3 : List (HloOp τ sig (Elt F))), op.fresh = ∅ := by
  intro _ h; (repeat (cases h with | head => rfl | tail _ h => ?_)); exact nomatch h

/-- The buffers these operations write. -/
abbrev opsW3_W : List (Ref sig .tc) := [main_v5, main_v6, main_v7, main_v8, main_v9, main_v10, main_v11, main_v12, main_v13]

theorem opsW3_writes : (opsW3 : List (HloOp τ sig (Elt F))).Forall fun op => op.writes ⊆ (opsW3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW3_keep (V : Valuation τ sig (Elt F)) (r : Ref sig .tc) (h : r ∉ opsW3_W) :
    after opsW3 V (Proc.devRef .tc r) = V (Proc.devRef .tc r) :=
  after_of_writes_sub opsW3 V opsW3_writes h

set_option maxRecDepth 65536 in
set_option maxHeartbeats 4000000 in
theorem opsW3_main_v9 (V : Valuation τ sig (Elt F)) :
    after opsW3 V (Proc.devRef .tc main_v9) = ecat (V (Proc.devRef .tc main_arg2)) (V (Proc.devRef .tc main_v4)) (V (Proc.devRef .tc main_arg6)) := by
  simp only [opsW3]
  after_results_simp
  rfl

set_option maxRecDepth 65536 in
set_option maxHeartbeats 4000000 in
theorem opsW3_main_v11 (V : Valuation τ sig (Elt F)) :
    after opsW3 V (Proc.devRef .tc main_v11) = rowB (V (Proc.devRef .tc main_arg0)) := by
  simp only [opsW3]
  after_results_simp
  rfl

set_option maxRecDepth 65536 in
set_option maxHeartbeats 4000000 in
theorem opsW3_main_v13 (V : Valuation τ sig (Elt F)) :
    after opsW3 V (Proc.devRef .tc main_v13) = idxB (V (Proc.devRef .tc main_arg3)) := by
  simp only [opsW3]
  after_results_simp
  rfl

end Cert.RefSide

end
-- ==== Proof.RefWin4.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 36 … 57: what they leave in the buffers read later, from any contents. -/

theorem opsW4_sub : (opsW4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem opsW4_fresh : ∀ op ∈ (opsW4 : List (HloOp τ sig (Elt F))), op.fresh = ∅ := by
  intro _ h; (repeat (cases h with | head => rfl | tail _ h => ?_)); exact nomatch h

/-- The buffers these operations write. -/
abbrev opsW4_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v14]

theorem opsW4_writes : (opsW4 : List (HloOp τ sig (Elt F))).Forall fun op => op.writes ⊆ (opsW4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW4_keep (V : Valuation τ sig (Elt F)) (r : Ref sig .tc) (h : r ∉ opsW4_W) :
    after opsW4 V (Proc.devRef .tc r) = V (Proc.devRef .tc r) :=
  after_of_writes_sub opsW4 V opsW4_writes h

set_option maxRecDepth 65536 in
set_option maxHeartbeats 4000000 in
theorem opsW4_main_v14 (V : Valuation τ sig (Elt F)) :
    after opsW4 V (Proc.devRef .tc main_v14) = takeAlong (V (Proc.devRef .tc main_v13)) (V (Proc.devRef .tc main_v11)) := by
  simp only [opsW4]
  after_results_simp
  rfl

end Cert.RefSide

end
-- ==== Proof.RefWin5.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 58 … 61: what they leave in the buffers read later, from any contents. -/

theorem opsW5_sub : (opsW5 : List (HloOp τ sig (Elt F))).Forall fun op => op.bufs ⊆ tcRefs τ sig :=
  ⟨unary_bufs_sub .., unary_bufs_sub .., unary_bufs_sub .., unary_bufs_sub ..⟩

theorem opsW5_fresh : ∀ op ∈ (opsW5 : List (HloOp τ sig (Elt F))), op.fresh = ∅ := by
  intro _ h; (repeat (cases h with | head => rfl | tail _ h => ?_)); exact nomatch h

/-- The buffers these operations write. -/
abbrev opsW5_W : List (Ref sig .tc) := [main_v15, main_v16, main_v17, main_v18]

theorem opsW5_writes : (opsW5 : List (HloOp τ sig (Elt F))).Forall fun op => op.writes ⊆ (opsW5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW5_keep (V : Valuation τ sig (Elt F)) (r : Ref sig .tc) (h : r ∉ opsW5_W) :
    after opsW5 V (Proc.devRef .tc r) = V (Proc.devRef .tc r) :=
  after_of_writes_sub opsW5 V opsW5_writes h

set_option maxRecDepth 65536 in
set_option maxHeartbeats 4000000 in
theorem opsW5_main_v16 (V : Valuation τ sig (Elt F)) :
    after opsW5 V (Proc.devRef .tc main_v16) = rowB (V (Proc.devRef .tc main_arg1)) := by
  simp only [opsW5]
  after_results_simp
  rfl

set_option maxRecDepth 65536 in
set_option maxHeartbeats 4000000 in
theorem opsW5_main_v18 (V : Valuation τ sig (Elt F)) :
    after opsW5 V (Proc.devRef .tc main_v18) = idxB (V (Proc.devRef .tc main_arg3)) := by
  simp only [opsW5]
  after_results_simp
  rfl

end Cert.RefSide

end
-- ==== Proof.RefWin6.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 62 … 83: what they leave in the buffers read later, from any contents. -/

theorem opsW6_sub : (opsW6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem opsW6_fresh : ∀ op ∈ (opsW6 : List (HloOp τ sig (Elt F))), op.fresh = ∅ := by
  intro _ h; (repeat (cases h with | head => rfl | tail _ h => ?_)); exact nomatch h

/-- The buffers these operations write. -/
abbrev opsW6_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v19]

theorem opsW6_writes : (opsW6 : List (HloOp τ sig (Elt F))).Forall fun op => op.writes ⊆ (opsW6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW6_keep (V : Valuation τ sig (Elt F)) (r : Ref sig .tc) (h : r ∉ opsW6_W) :
    after opsW6 V (Proc.devRef .tc r) = V (Proc.devRef .tc r) :=
  after_of_writes_sub opsW6 V opsW6_writes h

set_option maxRecDepth 65536 in
set_option maxHeartbeats 4000000 in
theorem opsW6_main_v19 (V : Valuation τ sig (Elt F)) :
    after opsW6 V (Proc.devRef .tc main_v19) = takeAlong (V (Proc.devRef .tc main_v18)) (V (Proc.devRef .tc main_v16)) := by
  simp only [opsW6]
  after_results_simp
  rfl

end Cert.RefSide

end
-- ==== Proof.RefWin7.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 84 … 91: what they leave in the buffers read later, from any contents. -/

theorem opsW7_sub : (opsW7 : List (HloOp τ sig (Elt F))).Forall fun op => op.bufs ⊆ tcRefs τ sig :=
  ⟨unary_bufs_sub .., unary_bufs_sub .., ternary_bufs_sub .., nary_bufs_sub .., binary_bufs_sub .., unary_bufs_sub .., unary_bufs_sub .., binary_bufs_sub ..⟩

theorem opsW7_fresh : ∀ op ∈ (opsW7 : List (HloOp τ sig (Elt F))), op.fresh = ∅ := by
  intro _ h; (repeat (cases h with | head => rfl | tail _ h => ?_)); exact nomatch h

/-- The buffers these operations write. -/
abbrev opsW7_W : List (Ref sig .tc) := [main_v20, main_call3_v0, main_v21, main_v22, main_v23, main_v24, main_v25, main_v26]

theorem opsW7_writes : (opsW7 : List (HloOp τ sig (Elt F))).Forall fun op => op.writes ⊆ (opsW7_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW7_keep (V : Valuation τ sig (Elt F)) (r : Ref sig .tc) (h : r ∉ opsW7_W) :
    after opsW7 V (Proc.devRef .tc r) = V (Proc.devRef .tc r) :=
  after_of_writes_sub opsW7 V opsW7_writes h

set_option maxRecDepth 65536 in
set_option maxHeartbeats 4000000 in
theorem opsW7_main_v26 (V : Valuation τ sig (Elt F)) :
    after opsW7 V (Proc.devRef .tc main_v26) = pre1 (V (Proc.devRef .tc main_v11)) (V (Proc.devRef .tc main_arg6)) (V (Proc.devRef .tc main_v14)) (V (Proc.devRef .tc main_v19)) (V (Proc.devRef .tc main_v9)) (V (Proc.devRef .tc main_arg7)) (V (Proc.devRef .tc main_arg8)) := by
  simp only [opsW7]
  after_results_simp
  rfl

end Cert.RefSide

end
-- ==== Proof.RefWin8.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 92 … 100: what they leave in the buffers read later, from any contents. -/

theorem opsW8_sub : (opsW8 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., binary_bufs_sub ..⟩

theorem opsW8_fresh : ∀ op ∈ (opsW8 : List (HloOp τ sig (Elt F))), op.fresh = ∅ := by
  intro _ h; (repeat (cases h with | head => rfl | tail _ h => ?_)); exact nomatch h

/-- The buffers these operations write. -/
abbrev opsW8_W : List (Ref sig .tc) := [main_cst, main_v27, main_v28, main_v29, main_cst_0, main_v30, main_v31, main_v32, main_v33]

theorem opsW8_writes : (opsW8 : List (HloOp τ sig (Elt F))).Forall fun op => op.writes ⊆ (opsW8_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW8_keep (V : Valuation τ sig (Elt F)) (r : Ref sig .tc) (h : r ∉ opsW8_W) :
    after opsW8 V (Proc.devRef .tc r) = V (Proc.devRef .tc r) :=
  after_of_writes_sub opsW8 V opsW8_writes h

set_option maxRecDepth 65536 in
set_option maxHeartbeats 4000000 in
theorem opsW8_main_v33 (V : Valuation τ sig (Elt F)) :
    after opsW8 V (Proc.devRef .tc main_v33) = gelu4 (V (Proc.devRef .tc main_v26)) := by
  simp only [opsW8]
  after_results_simp
  rfl

end Cert.RefSide

end
-- ==== Proof.RefWin9.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 101 … 104: what they leave in the buffers read later, from any contents. -/

theorem opsW9_sub : (opsW9 : List (HloOp τ sig (Elt F))).Forall fun op => op.bufs ⊆ tcRefs τ sig :=
  ⟨binary_bufs_sub .., unary_bufs_sub .., unary_bufs_sub .., binary_bufs_sub ..⟩

theorem opsW9_fresh : ∀ op ∈ (opsW9 : List (HloOp τ sig (Elt F))), op.fresh = ∅ := by
  intro _ h; (repeat (cases h with | head => rfl | tail _ h => ?_)); exact nomatch h

/-- The buffers these operations write. -/
abbrev opsW9_W : List (Ref sig .tc) := [main_v34, main_v35, main_v36, main_v37]

theorem opsW9_writes : (opsW9 : List (HloOp τ sig (Elt F))).Forall fun op => op.writes ⊆ (opsW9_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW9_keep (V : Valuation τ sig (Elt F)) (r : Ref sig .tc) (h : r ∉ opsW9_W) :
    after opsW9 V (Proc.devRef .tc r) = V (Proc.devRef .tc r) :=
  after_of_writes_sub opsW9 V opsW9_writes h

set_option maxRecDepth 65536 in
set_option maxHeartbeats 4000000 in
theorem opsW9_main_v37 (V : Valuation τ sig (Elt F)) :
    after opsW9 V (Proc.devRef .tc main_v37) = lin4 (V (Proc.devRef .tc main_v33)) (V (Proc.devRef .tc main_arg9)) (V (Proc.devRef .tc main_arg10)) := by
  simp only [opsW9]
  after_results_simp
  rfl

end Cert.RefSide

end
-- ==== Proof.RefWin10.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 105 … 113: what they leave in the buffers read later, from any contents. -/

theorem opsW10_sub : (opsW10 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., binary_bufs_sub ..⟩

theorem opsW10_fresh : ∀ op ∈ (opsW10 : List (HloOp τ sig (Elt F))), op.fresh = ∅ := by
  intro _ h; (repeat (cases h with | head => rfl | tail _ h => ?_)); exact nomatch h

/-- The buffers these operations write. -/
abbrev opsW10_W : List (Ref sig .tc) := [main_cst_1, main_v38, main_v39, main_v40, main_cst_2, main_v41, main_v42, main_v43, main_v44]

theorem opsW10_writes : (opsW10 : List (HloOp τ sig (Elt F))).Forall fun op => op.writes ⊆ (opsW10_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW10_keep (V : Valuation τ sig (Elt F)) (r : Ref sig .tc) (h : r ∉ opsW10_W) :
    after opsW10 V (Proc.devRef .tc r) = V (Proc.devRef .tc r) :=
  after_of_writes_sub opsW10 V opsW10_writes h

set_option maxRecDepth 65536 in
set_option maxHeartbeats 4000000 in
theorem opsW10_main_v44 (V : Valuation τ sig (Elt F)) :
    after opsW10 V (Proc.devRef .tc main_v44) = gelu4 (V (Proc.devRef .tc main_v37)) := by
  simp only [opsW10]
  after_results_simp
  rfl

end Cert.RefSide

end
-- ==== Proof.RefWin11.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 114 … 123: what they leave in the buffers read later, from any contents. -/

theorem opsW11_sub : (opsW11 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., binary_bufs_sub .., binary_bufs_sub ..⟩

theorem opsW11_fresh : ∀ op ∈ (opsW11 : List (HloOp τ sig (Elt F))), op.fresh = ∅ := by
  intro _ h; (repeat (cases h with | head => rfl | tail _ h => ?_)); exact nomatch h

/-- The buffers these operations write. -/
abbrev opsW11_W : List (Ref sig .tc) := [main_v45, main_v46, main_v47, main_v48, main_v49, main_v50, main_v51, main_cst_3, main_v52, main_v53]

theorem opsW11_writes : (opsW11 : List (HloOp τ sig (Elt F))).Forall fun op => op.writes ⊆ (opsW11_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW11_keep (V : Valuation τ sig (Elt F)) (r : Ref sig .tc) (h : r ∉ opsW11_W) :
    after opsW11 V (Proc.devRef .tc r) = V (Proc.devRef .tc r) :=
  after_of_writes_sub opsW11 V opsW11_writes h

set_option maxRecDepth 65536 in
set_option maxHeartbeats 4000000 in
theorem opsW11_main_v53 (V : Valuation τ sig (Elt F)) :
    after opsW11 V (Proc.devRef .tc main_v53) = x1sum (V (Proc.devRef .tc main_arg0)) (V (Proc.devRef .tc main_v44)) (V (Proc.devRef .tc main_arg11)) (V (Proc.devRef .tc main_arg12)) (V (Proc.devRef .tc main_arg5)) := by
  simp only [opsW11]
  after_results_simp
  rfl

end Cert.RefSide

end
-- ==== Proof.RefWin12.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 124 … 124: what they leave in the buffers read later, from any contents. -/

theorem opsW12_sub : (opsW12 : List (HloOp τ sig (Elt F))).Forall fun op => op.bufs ⊆ tcRefs τ sig :=
  nullary_bufs_sub ..

theorem opsW12_fresh : ∀ op ∈ (opsW12 : List (HloOp τ sig (Elt F))), op.fresh = ∅ := by
  intro _ h; (repeat (cases h with | head => rfl | tail _ h => ?_)); exact nomatch h

/-- The buffers these operations write. -/
abbrev opsW12_W : List (Ref sig .tc) := [main_cst_4]

theorem opsW12_writes : (opsW12 : List (HloOp τ sig (Elt F))).Forall fun op => op.writes ⊆ (opsW12_W.map (Proc.devRef (τ := τ) .tc)).toFinset := by
  simp only [List.Forall]
  exact (by simp only [nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents. -/
theorem opsW12_keep (V : Valuation τ sig (Elt F)) (r : Ref sig .tc) (h : r ∉ opsW12_W) :
    after opsW12 V (Proc.devRef .tc r) = V (Proc.devRef .tc r) :=
  after_of_writes_sub opsW12 V opsW12_writes h

set_option maxRecDepth 65536 in
set_option maxHeartbeats 4000000 in
theorem opsW12_main_cst_4 (V : Valuation τ sig (Elt F)) :
    after opsW12 V (Proc.devRef .tc main_cst_4) = zeroF := by
  simp only [opsW12]
  after_results_simp
  rfl

end Cert.RefSide

end
-- ==== Proof.RefWin13.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 125 … 130: what they leave in the buffers read later, from any contents. -/

theorem opsW13_sub : (opsW13 : List (HloOp τ sig (Elt F))).Forall fun op => op.bufs ⊆ tcRefs τ sig :=
  ⟨binary_bufs_sub .., unary_bufs_sub .., nullary_bufs_sub .., unary_bufs_sub .., binary_bufs_sub .., nullary_bufs_sub ..⟩

theorem opsW13_fresh : ∀ op ∈ (opsW13 : List (HloOp τ sig (Elt F))), op.fresh = ∅ := by
  intro _ h; (repeat (cases h with | head => rfl | tail _ h => ?_)); exact nomatch h

/-- The buffers these operations write. -/
abbrev opsW13_W : List (Ref sig .tc) := [main_v54, main_v55, main_cst_5, main_v56, main_v57, main_c]

theorem opsW13_writes : (opsW13 : List (HloOp τ sig (Elt F))).Forall fun op => op.writes ⊆ (opsW13_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW13_keep (V : Valuation τ sig (Elt F)) (r : Ref sig .tc) (h : r ∉ opsW13_W) :
    after opsW13 V (Proc.devRef .tc r) = V (Proc.devRef .tc r) :=
  after_of_writes_sub opsW13 V opsW13_writes h

set_option maxRecDepth 65536 in
set_option maxHeartbeats 4000000 in
theorem opsW13_main_v57 (V : Valuation τ sig (Elt F)) :
    after opsW13 V (Proc.devRef .tc main_v57) = mean3 (V (Proc.devRef .tc main_v53)) (V (Proc.devRef .tc main_cst_4)) := by
  simp only [opsW13]
  after_results_simp
  rfl

set_option maxRecDepth 65536 in
set_option maxHeartbeats 4000000 in
theorem opsW13_main_c (V : Valuation τ sig (Elt F)) :
    after opsW13 V (Proc.devRef .tc main_c) = zeroI := by
  simp only [opsW13]
  after_results_simp
  rfl

end Cert.RefSide

end
-- ==== Proof.RefWin14.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 131 … 153: what they leave in the buffers read later, from any contents. -/

theorem opsW14_sub : (opsW14 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem opsW14_fresh : ∀ op ∈ (opsW14 : List (HloOp τ sig (Elt F))), op.fresh = ∅ := by
  intro _ h; (repeat (cases h with | head => rfl | tail _ h => ?_)); exact nomatch h

/-- The buffers these operations write. -/
abbrev opsW14_W : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v58]

theorem opsW14_writes : (opsW14 : List (HloOp τ sig (Elt F))).Forall fun op => op.writes ⊆ (opsW14_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW14_keep (V : Valuation τ sig (Elt F)) (r : Ref sig .tc) (h : r ∉ opsW14_W) :
    after opsW14 V (Proc.devRef .tc r) = V (Proc.devRef .tc r) :=
  after_of_writes_sub opsW14 V opsW14_writes h

set_option maxRecDepth 65536 in
set_option maxHeartbeats 4000000 in
theorem opsW14_main_v58 (V : Valuation τ sig (Elt F)) :
    after opsW14 V (Proc.devRef .tc main_v58) = var3 (V (Proc.devRef .tc main_c)) (V (Proc.devRef .tc main_v53)) := by
  simp only [opsW14]
  after_results_simp
  rfl

end Cert.RefSide

end
-- ==== Proof.RefWin15.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 154 … 166: what they leave in the buffers read later, from any contents. -/

theorem opsW15_sub : (opsW15 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub ..⟩

theorem opsW15_fresh : ∀ op ∈ (opsW15 : List (HloOp τ sig (Elt F))), op.fresh = ∅ := by
  intro _ h; (repeat (cases h with | head => rfl | tail _ h => ?_)); exact nomatch h

/-- The buffers these operations write. -/
abbrev opsW15_W : List (Ref sig .tc) := [main_v59, main_v60, main_cst_6, main_v61, main_v62, main_v63, main_v64, main_v65, main_v66, main_v67, main_v68, main_v69, main_v70]

theorem opsW15_writes : (opsW15 : List (HloOp τ sig (Elt F))).Forall fun op => op.writes ⊆ (opsW15_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW15_keep (V : Valuation τ sig (Elt F)) (r : Ref sig .tc) (h : r ∉ opsW15_W) :
    after opsW15 V (Proc.devRef .tc r) = V (Proc.devRef .tc r) :=
  after_of_writes_sub opsW15 V opsW15_writes h

set_option maxRecDepth 65536 in
set_option maxHeartbeats 4000000 in
theorem opsW15_main_v68 (V : Valuation τ sig (Elt F)) :
    after opsW15 V (Proc.devRef .tc main_v68) = lnScaled (V (Proc.devRef .tc main_v53)) (V (Proc.devRef .tc main_v57)) (V (Proc.devRef .tc main_v58)) (V (Proc.devRef .tc main_arg17)) := by
  simp only [opsW15]
  after_results_simp
  rfl

set_option maxRecDepth 65536 in
set_option maxHeartbeats 4000000 in
theorem opsW15_main_v70 (V : Valuation τ sig (Elt F)) :
    after opsW15 V (Proc.devRef .tc main_v70) = rowB3 (V (Proc.devRef .tc main_arg18)) := by
  simp only [opsW15]
  after_results_simp
  rfl

end Cert.RefSide

end
-- ==== Proof.RefWin16.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 167 … 167: what they leave in the buffers read later, from any contents. -/

theorem opsW16_sub : (opsW16 : List (HloOp τ sig (Elt F))).Forall fun op => op.bufs ⊆ tcRefs τ sig :=
  binary_bufs_sub ..

theorem opsW16_fresh : ∀ op ∈ (opsW16 : List (HloOp τ sig (Elt F))), op.fresh = ∅ := by
  intro _ h; (repeat (cases h with | head => rfl | tail _ h => ?_)); exact nomatch h

/-- The buffers these operations write. -/
abbrev opsW16_W : List (Ref sig .tc) := [main_v71]

theorem opsW16_writes : (opsW16 : List (HloOp τ sig (Elt F))).Forall fun op => op.writes ⊆ (opsW16_W.map (Proc.devRef (τ := τ) .tc)).toFinset := by
  simp only [List.Forall]
  exact (by simp only [nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents. -/
theorem opsW16_keep (V : Valuation τ sig (Elt F)) (r : Ref sig .tc) (h : r ∉ opsW16_W) :
    after opsW16 V (Proc.devRef .tc r) = V (Proc.devRef .tc r) :=
  after_of_writes_sub opsW16 V opsW16_writes h

set_option maxRecDepth 65536 in
set_option maxHeartbeats 4000000 in
theorem opsW16_main_v71 (V : Valuation τ sig (Elt F)) :
    after opsW16 V (Proc.devRef .tc main_v71) = addB3 (V (Proc.devRef .tc main_v68)) (V (Proc.devRef .tc main_v70)) := by
  simp only [opsW16]
  after_results_simp
  rfl

end Cert.RefSide

end
-- ==== Proof.RefWin17.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 168 … 171: what they leave in the buffers read later, from any contents. -/

theorem opsW17_sub : (opsW17 : List (HloOp τ sig (Elt F))).Forall fun op => op.bufs ⊆ tcRefs τ sig :=
  ⟨binary_bufs_sub .., unary_bufs_sub .., unary_bufs_sub .., binary_bufs_sub ..⟩

theorem opsW17_fresh : ∀ op ∈ (opsW17 : List (HloOp τ sig (Elt F))), op.fresh = ∅ := by
  intro _ h; (repeat (cases h with | head => rfl | tail _ h => ?_)); exact nomatch h

/-- The buffers these operations write. -/
abbrev opsW17_W : List (Ref sig .tc) := [main_v72, main_v73, main_v74, main_v75]

theorem opsW17_writes : (opsW17 : List (HloOp τ sig (Elt F))).Forall fun op => op.writes ⊆ (opsW17_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW17_keep (V : Valuation τ sig (Elt F)) (r : Ref sig .tc) (h : r ∉ opsW17_W) :
    after opsW17 V (Proc.devRef .tc r) = V (Proc.devRef .tc r) :=
  after_of_writes_sub opsW17 V opsW17_writes h

set_option maxRecDepth 65536 in
set_option maxHeartbeats 4000000 in
theorem opsW17_main_v75 (V : Valuation τ sig (Elt F)) :
    after opsW17 V (Proc.devRef .tc main_v75) = lin3a (V (Proc.devRef .tc main_v71)) (V (Proc.devRef .tc main_arg13)) (V (Proc.devRef .tc main_arg14)) := by
  simp only [opsW17]
  after_results_simp
  rfl

end Cert.RefSide

end
-- ==== Proof.RefWin18.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 172 … 180: what they leave in the buffers read later, from any contents. -/

theorem opsW18_sub : (opsW18 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., binary_bufs_sub ..⟩

theorem opsW18_fresh : ∀ op ∈ (opsW18 : List (HloOp τ sig (Elt F))), op.fresh = ∅ := by
  intro _ h; (repeat (cases h with | head => rfl | tail _ h => ?_)); exact nomatch h

/-- The buffers these operations write. -/
abbrev opsW18_W : List (Ref sig .tc) := [main_cst_7, main_v76, main_v77, main_v78, main_cst_8, main_v79, main_v80, main_v81, main_v82]

theorem opsW18_writes : (opsW18 : List (HloOp τ sig (Elt F))).Forall fun op => op.writes ⊆ (opsW18_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW18_keep (V : Valuation τ sig (Elt F)) (r : Ref sig .tc) (h : r ∉ opsW18_W) :
    after opsW18 V (Proc.devRef .tc r) = V (Proc.devRef .tc r) :=
  after_of_writes_sub opsW18 V opsW18_writes h

set_option maxRecDepth 65536 in
set_option maxHeartbeats 4000000 in
theorem opsW18_main_v82 (V : Valuation τ sig (Elt F)) :
    after opsW18 V (Proc.devRef .tc main_v82) = gelu3 (V (Proc.devRef .tc main_v75)) := by
  simp only [opsW18]
  after_results_simp
  rfl

end Cert.RefSide

end
-- ==== Proof.RefWin19.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 181 … 185: what they leave in the buffers read later, from any contents. -/

theorem opsW19_sub : (opsW19 : List (HloOp τ sig (Elt F))).Forall fun op => op.bufs ⊆ tcRefs τ sig :=
  ⟨binary_bufs_sub .., unary_bufs_sub .., unary_bufs_sub .., binary_bufs_sub .., binary_bufs_sub ..⟩

theorem opsW19_fresh : ∀ op ∈ (opsW19 : List (HloOp τ sig (Elt F))), op.fresh = ∅ := by
  intro _ h; (repeat (cases h with | head => rfl | tail _ h => ?_)); exact nomatch h

/-- The buffers these operations write. -/
abbrev opsW19_W : List (Ref sig .tc) := [main_v83, main_v84, main_v85, main_v86, main_v87]

theorem opsW19_writes : (opsW19 : List (HloOp τ sig (Elt F))).Forall fun op => op.writes ⊆ (opsW19_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW19_keep (V : Valuation τ sig (Elt F)) (r : Ref sig .tc) (h : r ∉ opsW19_W) :
    after opsW19 V (Proc.devRef .tc r) = V (Proc.devRef .tc r) :=
  after_of_writes_sub opsW19 V opsW19_writes h

set_option maxRecDepth 65536 in
set_option maxHeartbeats 4000000 in
theorem opsW19_main_v87 (V : Valuation τ sig (Elt F)) :
    after opsW19 V (Proc.devRef .tc main_v87) = resid (V (Proc.devRef .tc main_v71)) (V (Proc.devRef .tc main_v82)) (V (Proc.devRef .tc main_arg15)) (V (Proc.devRef .tc main_arg16)) := by
  simp only [opsW19]
  after_results_simp
  rfl

end Cert.RefSide

end
-- ==== Proof.RefWin20.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 186 … 186: what they leave in the buffers read later, from any contents. -/

theorem opsW20_sub : (opsW20 : List (HloOp τ sig (Elt F))).Forall fun op => op.bufs ⊆ tcRefs τ sig :=
  nullary_bufs_sub ..

theorem opsW20_fresh : ∀ op ∈ (opsW20 : List (HloOp τ sig (Elt F))), op.fresh = ∅ := by
  intro _ h; (repeat (cases h with | head => rfl | tail _ h => ?_)); exact nomatch h

/-- The buffers these operations write. -/
abbrev opsW20_W : List (Ref sig .tc) := [main_cst_9]

theorem opsW20_writes : (opsW20 : List (HloOp τ sig (Elt F))).Forall fun op => op.writes ⊆ (opsW20_W.map (Proc.devRef (τ := τ) .tc)).toFinset := by
  simp only [List.Forall]
  exact (by simp only [nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents. -/
theorem opsW20_keep (V : Valuation τ sig (Elt F)) (r : Ref sig .tc) (h : r ∉ opsW20_W) :
    after opsW20 V (Proc.devRef .tc r) = V (Proc.devRef .tc r) :=
  after_of_writes_sub opsW20 V opsW20_writes h

set_option maxRecDepth 65536 in
set_option maxHeartbeats 4000000 in
theorem opsW20_main_cst_9 (V : Valuation τ sig (Elt F)) :
    after opsW20 V (Proc.devRef .tc main_cst_9) = zeroF := by
  simp only [opsW20]
  after_results_simp
  rfl

end Cert.RefSide

end
-- ==== Proof.RefWin21.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 187 … 192: what they leave in the buffers read later, from any contents. -/

theorem opsW21_sub : (opsW21 : List (HloOp τ sig (Elt F))).Forall fun op => op.bufs ⊆ tcRefs τ sig :=
  ⟨binary_bufs_sub .., unary_bufs_sub .., nullary_bufs_sub .., unary_bufs_sub .., binary_bufs_sub .., nullary_bufs_sub ..⟩

theorem opsW21_fresh : ∀ op ∈ (opsW21 : List (HloOp τ sig (Elt F))), op.fresh = ∅ := by
  intro _ h; (repeat (cases h with | head => rfl | tail _ h => ?_)); exact nomatch h

/-- The buffers these operations write. -/
abbrev opsW21_W : List (Ref sig .tc) := [main_v88, main_v89, main_cst_10, main_v90, main_v91, main_c_11]

theorem opsW21_writes : (opsW21 : List (HloOp τ sig (Elt F))).Forall fun op => op.writes ⊆ (opsW21_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW21_keep (V : Valuation τ sig (Elt F)) (r : Ref sig .tc) (h : r ∉ opsW21_W) :
    after opsW21 V (Proc.devRef .tc r) = V (Proc.devRef .tc r) :=
  after_of_writes_sub opsW21 V opsW21_writes h

set_option maxRecDepth 65536 in
set_option maxHeartbeats 4000000 in
theorem opsW21_main_v91 (V : Valuation τ sig (Elt F)) :
    after opsW21 V (Proc.devRef .tc main_v91) = mean3 (V (Proc.devRef .tc main_v87)) (V (Proc.devRef .tc main_cst_9)) := by
  simp only [opsW21]
  after_results_simp
  rfl

set_option maxRecDepth 65536 in
set_option maxHeartbeats 4000000 in
theorem opsW21_main_c_11 (V : Valuation τ sig (Elt F)) :
    after opsW21 V (Proc.devRef .tc main_c_11) = zeroI := by
  simp only [opsW21]
  after_results_simp
  rfl

end Cert.RefSide

end
-- ==== Proof.RefWin22.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 193 … 215: what they leave in the buffers read later, from any contents. -/

theorem opsW22_sub : (opsW22 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem opsW22_fresh : ∀ op ∈ (opsW22 : List (HloOp τ sig (Elt F))), op.fresh = ∅ := by
  intro _ h; (repeat (cases h with | head => rfl | tail _ h => ?_)); exact nomatch h

/-- The buffers these operations write. -/
abbrev opsW22_W : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v92]

theorem opsW22_writes : (opsW22 : List (HloOp τ sig (Elt F))).Forall fun op => op.writes ⊆ (opsW22_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW22_keep (V : Valuation τ sig (Elt F)) (r : Ref sig .tc) (h : r ∉ opsW22_W) :
    after opsW22 V (Proc.devRef .tc r) = V (Proc.devRef .tc r) :=
  after_of_writes_sub opsW22 V opsW22_writes h

set_option maxRecDepth 65536 in
set_option maxHeartbeats 4000000 in
theorem opsW22_main_v92 (V : Valuation τ sig (Elt F)) :
    after opsW22 V (Proc.devRef .tc main_v92) = var3 (V (Proc.devRef .tc main_c_11)) (V (Proc.devRef .tc main_v87)) := by
  simp only [opsW22]
  after_results_simp
  rfl

end Cert.RefSide

end
-- ==== Proof.RefWin23.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 216 … 228: what they leave in the buffers read later, from any contents. -/

theorem opsW23_sub : (opsW23 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub ..⟩

theorem opsW23_fresh : ∀ op ∈ (opsW23 : List (HloOp τ sig (Elt F))), op.fresh = ∅ := by
  intro _ h; (repeat (cases h with | head => rfl | tail _ h => ?_)); exact nomatch h

/-- The buffers these operations write. -/
abbrev opsW23_W : List (Ref sig .tc) := [main_v93, main_v94, main_cst_12, main_v95, main_v96, main_v97, main_v98, main_v99, main_v100, main_v101, main_v102, main_v103, main_v104]

theorem opsW23_writes : (opsW23 : List (HloOp τ sig (Elt F))).Forall fun op => op.writes ⊆ (opsW23_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents. -/
theorem opsW23_keep (V : Valuation τ sig (Elt F)) (r : Ref sig .tc) (h : r ∉ opsW23_W) :
    after opsW23 V (Proc.devRef .tc r) = V (Proc.devRef .tc r) :=
  after_of_writes_sub opsW23 V opsW23_writes h

set_option maxRecDepth 65536 in
set_option maxHeartbeats 4000000 in
theorem opsW23_main_v102 (V : Valuation τ sig (Elt F)) :
    after opsW23 V (Proc.devRef .tc main_v102) = lnScaled (V (Proc.devRef .tc main_v87)) (V (Proc.devRef .tc main_v91)) (V (Proc.devRef .tc main_v92)) (V (Proc.devRef .tc main_arg19)) := by
  simp only [opsW23]
  after_results_simp
  rfl

set_option maxRecDepth 65536 in
set_option maxHeartbeats 4000000 in
theorem opsW23_main_v104 (V : Valuation τ sig (Elt F)) :
    after opsW23 V (Proc.devRef .tc main_v104) = rowB3 (V (Proc.devRef .tc main_arg20)) := by
  simp only [opsW23]
  after_results_simp
  rfl

end Cert.RefSide

end
-- ==== Proof.RefWin24.lean ====
import proofs.«208327_g62569083568895_cont_9to1c4b_407_46_alg».proof.Proof.RefOps
import proofs.«208327_g62569083568895_cont_9to1c4b_407_46_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Operations 229 … 229: what they leave in the buffers read later, from any contents. -/

theorem opsW24_sub : (opsW24 : List (HloOp τ sig (Elt F))).Forall fun op => op.bufs ⊆ tcRefs τ sig :=
  binary_bufs_sub ..

theorem opsW24_fresh : ∀ op ∈ (opsW24 : List (HloOp τ sig (Elt F))), op.fresh = ∅ := by
  intro _ h; (repeat (cases h with | head => rfl | tail _ h => ?_)); exact nomatch h

/-- The buffers these operations write. -/
abbrev opsW24_W : List (Ref sig .tc) := [main_v105]

theorem opsW24_writes : (opsW24 : List (HloOp τ sig (Elt F))).Forall fun op => op.writes ⊆ (opsW24_W.map (Proc.devRef (τ := τ) .tc)).toFinset := by
  simp only [List.Forall]
  exact (by simp only [nullary_writes, unary_writes, binary_writes, ternary_writes, quaternary_writes, reshape_writes, binaryIndexed_writes, nary_writes, unaryIndexed_writes, Finset.singleton_subset_iff, List.mem_toFinset]; exact List.mem_map_of_mem (by decide))

/-- A buffer these operations do not write keeps its contents. -/
theorem opsW24_keep (V : Valuation τ sig (Elt F)) (r : Ref sig .tc) (h : r ∉ opsW24_W) :
    after opsW24 V (Proc.devRef .tc r) = V (Proc.devRef .tc r) :=
  after_of_writes_sub opsW24 V opsW24_writes h

set_option maxRecDepth 65536 in
set_option maxHeartbeats 4000000 in
theorem opsW24_main_v105 (V : Valuation τ sig (Elt F)) :
    after opsW24 V (Proc.devRef .tc main_v105) = addB3 (V (Proc.devRef .tc main_v102)) (V (Proc.devRef .tc main_v104)) := by
  simp only [opsW24]
  after_results_simp
  rfl

end Cert.RefSide

end
-- ==== Proof.RefRun.lean ====
import proofs.«208327_g62569083568895_cont_9to1c4b_407_46_alg».proof.Proof.RefMainEq
import proofs.«208327_g62569083568895_cont_9to1c4b_407_46_alg».proof.Proof.RefTerm
import proofs.«208327_g62569083568895_cont_9to1c4b_407_46_alg».proof.Proof.RefWin1
import proofs.«208327_g62569083568895_cont_9to1c4b_407_46_alg».proof.Proof.RefWin2
import proofs.«208327_g62569083568895_cont_9to1c4b_407_46_alg».proof.Proof.RefWin3
import proofs.«208327_g62569083568895_cont_9to1c4b_407_46_alg».proof.Proof.RefWin4
import proofs.«208327_g62569083568895_cont_9to1c4b_407_46_alg».proof.Proof.RefWin5
import proofs.«208327_g62569083568895_cont_9to1c4b_407_46_alg».proof.Proof.RefWin6
import proofs.«208327_g62569083568895_cont_9to1c4b_407_46_alg».proof.Proof.RefWin7
import proofs.«208327_g62569083568895_cont_9to1c4b_407_46_alg».proof.Proof.RefWin8
import proofs.«208327_g62569083568895_cont_9to1c4b_407_46_alg».proof.Proof.RefWin9
import proofs.«208327_g62569083568895_cont_9to1c4b_407_46_alg».proof.Proof.RefWin10
import proofs.«208327_g62569083568895_cont_9to1c4b_407_46_alg».proof.Proof.RefWin11
import proofs.«208327_g62569083568895_cont_9to1c4b_407_46_alg».proof.Proof.RefWin12
import proofs.«208327_g62569083568895_cont_9to1c4b_407_46_alg».proof.Proof.RefWin13
import proofs.«208327_g62569083568895_cont_9to1c4b_407_46_alg».proof.Proof.RefWin14
import proofs.«208327_g62569083568895_cont_9to1c4b_407_46_alg».proof.Proof.RefWin15
import proofs.«208327_g62569083568895_cont_9to1c4b_407_46_alg».proof.Proof.RefWin16
import proofs.«208327_g62569083568895_cont_9to1c4b_407_46_alg».proof.Proof.RefWin17
import proofs.«208327_g62569083568895_cont_9to1c4b_407_46_alg».proof.Proof.RefWin18
import proofs.«208327_g62569083568895_cont_9to1c4b_407_46_alg».proof.Proof.RefWin19
import proofs.«208327_g62569083568895_cont_9to1c4b_407_46_alg».proof.Proof.RefWin20
import proofs.«208327_g62569083568895_cont_9to1c4b_407_46_alg».proof.Proof.RefWin21
import proofs.«208327_g62569083568895_cont_9to1c4b_407_46_alg».proof.Proof.RefWin22
import proofs.«208327_g62569083568895_cont_9to1c4b_407_46_alg».proof.Proof.RefWin23
import proofs.«208327_g62569083568895_cont_9to1c4b_407_46_alg».proof.Proof.RefWin24

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! The run of the reference: every weakly fair execution terminates with the result buffer at
`refTerm` of the arguments' launch contents and the arguments unchanged. The contents are
followed stage by stage: after each list of operations, every buffer read later holds its
stage function of the arguments. -/

theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The argument arrays of a device's contents. -/
def argsOf (V0 : Valuation τ sig (Elt F)) : Args F :=
  ⟨V0 (Proc.devRef .tc main_arg0), V0 (Proc.devRef .tc main_arg1), V0 (Proc.devRef .tc main_arg2), V0 (Proc.devRef .tc main_arg3), V0 (Proc.devRef .tc main_arg4), V0 (Proc.devRef .tc main_arg5), V0 (Proc.devRef .tc main_arg6), V0 (Proc.devRef .tc main_arg7), V0 (Proc.devRef .tc main_arg8), V0 (Proc.devRef .tc main_arg9), V0 (Proc.devRef .tc main_arg10), V0 (Proc.devRef .tc main_arg11), V0 (Proc.devRef .tc main_arg12), V0 (Proc.devRef .tc main_arg13), V0 (Proc.devRef .tc main_arg14), V0 (Proc.devRef .tc main_arg15), V0 (Proc.devRef .tc main_arg16), V0 (Proc.devRef .tc main_arg17), V0 (Proc.devRef .tc main_arg18), V0 (Proc.devRef .tc main_arg19), V0 (Proc.devRef .tc main_arg20)⟩

/-- The contents before the first operation. -/
def val0 (V0 : Valuation τ sig (Elt F)) : Valuation τ sig (Elt F) := V0
theorem val0_main_arg0 (V0 : Valuation τ sig (Elt F)) : val0 V0 (Proc.devRef .tc main_arg0) = (argsOf V0).Vn := rfl
theorem val0_main_arg1 (V0 : Valuation τ sig (Elt F)) : val0 V0 (Proc.devRef .tc main_arg1) = (argsOf V0).Vo := rfl
theorem val0_main_arg2 (V0 : Valuation τ sig (Elt F)) : val0 V0 (Proc.devRef .tc main_arg2) = (argsOf V0).E := rfl
theorem val0_main_arg3 (V0 : Valuation τ sig (Elt F)) : val0 V0 (Proc.devRef .tc main_arg3) = (argsOf V0).K := rfl
theorem val0_main_arg4 (V0 : Valuation τ sig (Elt F)) : val0 V0 (Proc.devRef .tc main_arg4) = (argsOf V0).S := rfl
theorem val0_main_arg5 (V0 : Valuation τ sig (Elt F)) : val0 V0 (Proc.devRef .tc main_arg5) = (argsOf V0).em := rfl
theorem val0_main_arg6 (V0 : Valuation τ sig (Elt F)) : val0 V0 (Proc.devRef .tc main_arg6) = (argsOf V0).ar := rfl
theorem val0_main_arg7 (V0 : Valuation τ sig (Elt F)) : val0 V0 (Proc.devRef .tc main_arg7) = (argsOf V0).W0 := rfl
theorem val0_main_arg8 (V0 : Valuation τ sig (Elt F)) : val0 V0 (Proc.devRef .tc main_arg8) = (argsOf V0).b0 := rfl
theorem val0_main_arg9 (V0 : Valuation τ sig (Elt F)) : val0 V0 (Proc.devRef .tc main_arg9) = (argsOf V0).W1 := rfl
theorem val0_main_arg10 (V0 : Valuation τ sig (Elt F)) : val0 V0 (Proc.devRef .tc main_arg10) = (argsOf V0).b1 := rfl
theorem val0_main_arg11 (V0 : Valuation τ sig (Elt F)) : val0 V0 (Proc.devRef .tc main_arg11) = (argsOf V0).W2 := rfl
theorem val0_main_arg12 (V0 : Valuation τ sig (Elt F)) : val0 V0 (Proc.devRef .tc main_arg12) = (argsOf V0).b2 := rfl
theorem val0_main_arg13 (V0 : Valuation τ sig (Elt F)) : val0 V0 (Proc.devRef .tc main_arg13) = (argsOf V0).F0 := rfl
theorem val0_main_arg14 (V0 : Valuation τ sig (Elt F)) : val0 V0 (Proc.devRef .tc main_arg14) = (argsOf V0).fb0 := rfl
theorem val0_main_arg15 (V0 : Valuation τ sig (Elt F)) : val0 V0 (Proc.devRef .tc main_arg15) = (argsOf V0).F1 := rfl
theorem val0_main_arg16 (V0 : Valuation τ sig (Elt F)) : val0 V0 (Proc.devRef .tc main_arg16) = (argsOf V0).fb1 := rfl
theorem val0_main_arg17 (V0 : Valuation τ sig (Elt F)) : val0 V0 (Proc.devRef .tc main_arg17) = (argsOf V0).g1 := rfl
theorem val0_main_arg18 (V0 : Valuation τ sig (Elt F)) : val0 V0 (Proc.devRef .tc main_arg18) = (argsOf V0).be1 := rfl
theorem val0_main_arg19 (V0 : Valuation τ sig (Elt F)) : val0 V0 (Proc.devRef .tc main_arg19) = (argsOf V0).g2 := rfl
theorem val0_main_arg20 (V0 : Valuation τ sig (Elt F)) : val0 V0 (Proc.devRef .tc main_arg20) = (argsOf V0).be2 := rfl

/-- The contents after the first 1 stage. -/
def val1 (V0 : Valuation τ sig (Elt F)) : Valuation τ sig (Elt F) := after opsW1 (val0 V0)
theorem val1_keep (V0 : Valuation τ sig (Elt F)) (r : Ref sig .tc) (h : r ∉ opsW1_W) :
    val1 V0 (Proc.devRef .tc r) = val0 V0 (Proc.devRef .tc r) := opsW1_keep _ r h
theorem val1_main_arg0 (V0 : Valuation τ sig (Elt F)) : val1 V0 (Proc.devRef .tc main_arg0) = (argsOf V0).Vn :=
  (val1_keep V0 main_arg0 (by decide)).trans (val0_main_arg0 V0)
theorem val1_main_arg1 (V0 : Valuation τ sig (Elt F)) : val1 V0 (Proc.devRef .tc main_arg1) = (argsOf V0).Vo :=
  (val1_keep V0 main_arg1 (by decide)).trans (val0_main_arg1 V0)
theorem val1_main_arg2 (V0 : Valuation τ sig (Elt F)) : val1 V0 (Proc.devRef .tc main_arg2) = (argsOf V0).E :=
  (val1_keep V0 main_arg2 (by decide)).trans (val0_main_arg2 V0)
theorem val1_main_arg3 (V0 : Valuation τ sig (Elt F)) : val1 V0 (Proc.devRef .tc main_arg3) = (argsOf V0).K :=
  (val1_keep V0 main_arg3 (by decide)).trans (val0_main_arg3 V0)
theorem val1_main_arg4 (V0 : Valuation τ sig (Elt F)) : val1 V0 (Proc.devRef .tc main_arg4) = (argsOf V0).S :=
  (val1_keep V0 main_arg4 (by decide)).trans (val0_main_arg4 V0)
theorem val1_main_arg5 (V0 : Valuation τ sig (Elt F)) : val1 V0 (Proc.devRef .tc main_arg5) = (argsOf V0).em :=
  (val1_keep V0 main_arg5 (by decide)).trans (val0_main_arg5 V0)
theorem val1_main_arg6 (V0 : Valuation τ sig (Elt F)) : val1 V0 (Proc.devRef .tc main_arg6) = (argsOf V0).ar :=
  (val1_keep V0 main_arg6 (by decide)).trans (val0_main_arg6 V0)
theorem val1_main_arg7 (V0 : Valuation τ sig (Elt F)) : val1 V0 (Proc.devRef .tc main_arg7) = (argsOf V0).W0 :=
  (val1_keep V0 main_arg7 (by decide)).trans (val0_main_arg7 V0)
theorem val1_main_arg8 (V0 : Valuation τ sig (Elt F)) : val1 V0 (Proc.devRef .tc main_arg8) = (argsOf V0).b0 :=
  (val1_keep V0 main_arg8 (by decide)).trans (val0_main_arg8 V0)
theorem val1_main_arg9 (V0 : Valuation τ sig (Elt F)) : val1 V0 (Proc.devRef .tc main_arg9) = (argsOf V0).W1 :=
  (val1_keep V0 main_arg9 (by decide)).trans (val0_main_arg9 V0)
theorem val1_main_arg10 (V0 : Valuation τ sig (Elt F)) : val1 V0 (Proc.devRef .tc main_arg10) = (argsOf V0).b1 :=
  (val1_keep V0 main_arg10 (by decide)).trans (val0_main_arg10 V0)
theorem val1_main_arg11 (V0 : Valuation τ sig (Elt F)) : val1 V0 (Proc.devRef .tc main_arg11) = (argsOf V0).W2 :=
  (val1_keep V0 main_arg11 (by decide)).trans (val0_main_arg11 V0)
theorem val1_main_arg12 (V0 : Valuation τ sig (Elt F)) : val1 V0 (Proc.devRef .tc main_arg12) = (argsOf V0).b2 :=
  (val1_keep V0 main_arg12 (by decide)).trans (val0_main_arg12 V0)
theorem val1_main_arg13 (V0 : Valuation τ sig (Elt F)) : val1 V0 (Proc.devRef .tc main_arg13) = (argsOf V0).F0 :=
  (val1_keep V0 main_arg13 (by decide)).trans (val0_main_arg13 V0)
theorem val1_main_arg14 (V0 : Valuation τ sig (Elt F)) : val1 V0 (Proc.devRef .tc main_arg14) = (argsOf V0).fb0 :=
  (val1_keep V0 main_arg14 (by decide)).trans (val0_main_arg14 V0)
theorem val1_main_arg15 (V0 : Valuation τ sig (Elt F)) : val1 V0 (Proc.devRef .tc main_arg15) = (argsOf V0).F1 :=
  (val1_keep V0 main_arg15 (by decide)).trans (val0_main_arg15 V0)
theorem val1_main_arg16 (V0 : Valuation τ sig (Elt F)) : val1 V0 (Proc.devRef .tc main_arg16) = (argsOf V0).fb1 :=
  (val1_keep V0 main_arg16 (by decide)).trans (val0_main_arg16 V0)
theorem val1_main_arg17 (V0 : Valuation τ sig (Elt F)) : val1 V0 (Proc.devRef .tc main_arg17) = (argsOf V0).g1 :=
  (val1_keep V0 main_arg17 (by decide)).trans (val0_main_arg17 V0)
theorem val1_main_arg18 (V0 : Valuation τ sig (Elt F)) : val1 V0 (Proc.devRef .tc main_arg18) = (argsOf V0).be1 :=
  (val1_keep V0 main_arg18 (by decide)).trans (val0_main_arg18 V0)
theorem val1_main_arg19 (V0 : Valuation τ sig (Elt F)) : val1 V0 (Proc.devRef .tc main_arg19) = (argsOf V0).g2 :=
  (val1_keep V0 main_arg19 (by decide)).trans (val0_main_arg19 V0)
theorem val1_main_arg20 (V0 : Valuation τ sig (Elt F)) : val1 V0 (Proc.devRef .tc main_arg20) = (argsOf V0).be2 :=
  (val1_keep V0 main_arg20 (by decide)).trans (val0_main_arg20 V0)
theorem val1_main_v1 (V0 : Valuation τ sig (Elt F)) : val1 V0 (Proc.devRef .tc main_v1) = res_main_v1 (argsOf V0) :=
  (opsW1_main_v1 (val0 V0)).trans (by rw [val0_main_arg4 V0]; rfl)
theorem val1_main_v3 (V0 : Valuation τ sig (Elt F)) : val1 V0 (Proc.devRef .tc main_v3) = res_main_v3 (argsOf V0) :=
  (opsW1_main_v3 (val0 V0)).trans (by rw [val0_main_arg3 V0]; rfl)

/-- The contents after the first 2 stages. -/
def val2 (V0 : Valuation τ sig (Elt F)) : Valuation τ sig (Elt F) := after opsW2 (val1 V0)
theorem val2_keep (V0 : Valuation τ sig (Elt F)) (r : Ref sig .tc) (h : r ∉ opsW2_W) :
    val2 V0 (Proc.devRef .tc r) = val1 V0 (Proc.devRef .tc r) := opsW2_keep _ r h
theorem val2_main_arg0 (V0 : Valuation τ sig (Elt F)) : val2 V0 (Proc.devRef .tc main_arg0) = (argsOf V0).Vn :=
  (val2_keep V0 main_arg0 (by decide)).trans (val1_main_arg0 V0)
theorem val2_main_arg1 (V0 : Valuation τ sig (Elt F)) : val2 V0 (Proc.devRef .tc main_arg1) = (argsOf V0).Vo :=
  (val2_keep V0 main_arg1 (by decide)).trans (val1_main_arg1 V0)
theorem val2_main_arg2 (V0 : Valuation τ sig (Elt F)) : val2 V0 (Proc.devRef .tc main_arg2) = (argsOf V0).E :=
  (val2_keep V0 main_arg2 (by decide)).trans (val1_main_arg2 V0)
theorem val2_main_arg3 (V0 : Valuation τ sig (Elt F)) : val2 V0 (Proc.devRef .tc main_arg3) = (argsOf V0).K :=
  (val2_keep V0 main_arg3 (by decide)).trans (val1_main_arg3 V0)
theorem val2_main_arg4 (V0 : Valuation τ sig (Elt F)) : val2 V0 (Proc.devRef .tc main_arg4) = (argsOf V0).S :=
  (val2_keep V0 main_arg4 (by decide)).trans (val1_main_arg4 V0)
theorem val2_main_arg5 (V0 : Valuation τ sig (Elt F)) : val2 V0 (Proc.devRef .tc main_arg5) = (argsOf V0).em :=
  (val2_keep V0 main_arg5 (by decide)).trans (val1_main_arg5 V0)
theorem val2_main_arg6 (V0 : Valuation τ sig (Elt F)) : val2 V0 (Proc.devRef .tc main_arg6) = (argsOf V0).ar :=
  (val2_keep V0 main_arg6 (by decide)).trans (val1_main_arg6 V0)
theorem val2_main_arg7 (V0 : Valuation τ sig (Elt F)) : val2 V0 (Proc.devRef .tc main_arg7) = (argsOf V0).W0 :=
  (val2_keep V0 main_arg7 (by decide)).trans (val1_main_arg7 V0)
theorem val2_main_arg8 (V0 : Valuation τ sig (Elt F)) : val2 V0 (Proc.devRef .tc main_arg8) = (argsOf V0).b0 :=
  (val2_keep V0 main_arg8 (by decide)).trans (val1_main_arg8 V0)
theorem val2_main_arg9 (V0 : Valuation τ sig (Elt F)) : val2 V0 (Proc.devRef .tc main_arg9) = (argsOf V0).W1 :=
  (val2_keep V0 main_arg9 (by decide)).trans (val1_main_arg9 V0)
theorem val2_main_arg10 (V0 : Valuation τ sig (Elt F)) : val2 V0 (Proc.devRef .tc main_arg10) = (argsOf V0).b1 :=
  (val2_keep V0 main_arg10 (by decide)).trans (val1_main_arg10 V0)
theorem val2_main_arg11 (V0 : Valuation τ sig (Elt F)) : val2 V0 (Proc.devRef .tc main_arg11) = (argsOf V0).W2 :=
  (val2_keep V0 main_arg11 (by decide)).trans (val1_main_arg11 V0)
theorem val2_main_arg12 (V0 : Valuation τ sig (Elt F)) : val2 V0 (Proc.devRef .tc main_arg12) = (argsOf V0).b2 :=
  (val2_keep V0 main_arg12 (by decide)).trans (val1_main_arg12 V0)
theorem val2_main_arg13 (V0 : Valuation τ sig (Elt F)) : val2 V0 (Proc.devRef .tc main_arg13) = (argsOf V0).F0 :=
  (val2_keep V0 main_arg13 (by decide)).trans (val1_main_arg13 V0)
theorem val2_main_arg14 (V0 : Valuation τ sig (Elt F)) : val2 V0 (Proc.devRef .tc main_arg14) = (argsOf V0).fb0 :=
  (val2_keep V0 main_arg14 (by decide)).trans (val1_main_arg14 V0)
theorem val2_main_arg15 (V0 : Valuation τ sig (Elt F)) : val2 V0 (Proc.devRef .tc main_arg15) = (argsOf V0).F1 :=
  (val2_keep V0 main_arg15 (by decide)).trans (val1_main_arg15 V0)
theorem val2_main_arg16 (V0 : Valuation τ sig (Elt F)) : val2 V0 (Proc.devRef .tc main_arg16) = (argsOf V0).fb1 :=
  (val2_keep V0 main_arg16 (by decide)).trans (val1_main_arg16 V0)
theorem val2_main_arg17 (V0 : Valuation τ sig (Elt F)) : val2 V0 (Proc.devRef .tc main_arg17) = (argsOf V0).g1 :=
  (val2_keep V0 main_arg17 (by decide)).trans (val1_main_arg17 V0)
theorem val2_main_arg18 (V0 : Valuation τ sig (Elt F)) : val2 V0 (Proc.devRef .tc main_arg18) = (argsOf V0).be1 :=
  (val2_keep V0 main_arg18 (by decide)).trans (val1_main_arg18 V0)
theorem val2_main_arg19 (V0 : Valuation τ sig (Elt F)) : val2 V0 (Proc.devRef .tc main_arg19) = (argsOf V0).g2 :=
  (val2_keep V0 main_arg19 (by decide)).trans (val1_main_arg19 V0)
theorem val2_main_arg20 (V0 : Valuation τ sig (Elt F)) : val2 V0 (Proc.devRef .tc main_arg20) = (argsOf V0).be2 :=
  (val2_keep V0 main_arg20 (by decide)).trans (val1_main_arg20 V0)
theorem val2_main_v4 (V0 : Valuation τ sig (Elt F)) : val2 V0 (Proc.devRef .tc main_v4) = res_main_v4 (argsOf V0) :=
  (opsW2_main_v4 (val1 V0)).trans (by rw [val1_main_v3 V0, val1_main_v1 V0]; rfl)

/-- The contents after the first 3 stages. -/
def val3 (V0 : Valuation τ sig (Elt F)) : Valuation τ sig (Elt F) := after opsW3 (val2 V0)
theorem val3_keep (V0 : Valuation τ sig (Elt F)) (r : Ref sig .tc) (h : r ∉ opsW3_W) :
    val3 V0 (Proc.devRef .tc r) = val2 V0 (Proc.devRef .tc r) := opsW3_keep _ r h
theorem val3_main_arg0 (V0 : Valuation τ sig (Elt F)) : val3 V0 (Proc.devRef .tc main_arg0) = (argsOf V0).Vn :=
  (val3_keep V0 main_arg0 (by decide)).trans (val2_main_arg0 V0)
theorem val3_main_arg1 (V0 : Valuation τ sig (Elt F)) : val3 V0 (Proc.devRef .tc main_arg1) = (argsOf V0).Vo :=
  (val3_keep V0 main_arg1 (by decide)).trans (val2_main_arg1 V0)
theorem val3_main_arg2 (V0 : Valuation τ sig (Elt F)) : val3 V0 (Proc.devRef .tc main_arg2) = (argsOf V0).E :=
  (val3_keep V0 main_arg2 (by decide)).trans (val2_main_arg2 V0)
theorem val3_main_arg3 (V0 : Valuation τ sig (Elt F)) : val3 V0 (Proc.devRef .tc main_arg3) = (argsOf V0).K :=
  (val3_keep V0 main_arg3 (by decide)).trans (val2_main_arg3 V0)
theorem val3_main_arg4 (V0 : Valuation τ sig (Elt F)) : val3 V0 (Proc.devRef .tc main_arg4) = (argsOf V0).S :=
  (val3_keep V0 main_arg4 (by decide)).trans (val2_main_arg4 V0)
theorem val3_main_arg5 (V0 : Valuation τ sig (Elt F)) : val3 V0 (Proc.devRef .tc main_arg5) = (argsOf V0).em :=
  (val3_keep V0 main_arg5 (by decide)).trans (val2_main_arg5 V0)
theorem val3_main_arg6 (V0 : Valuation τ sig (Elt F)) : val3 V0 (Proc.devRef .tc main_arg6) = (argsOf V0).ar :=
  (val3_keep V0 main_arg6 (by decide)).trans (val2_main_arg6 V0)
theorem val3_main_arg7 (V0 : Valuation τ sig (Elt F)) : val3 V0 (Proc.devRef .tc main_arg7) = (argsOf V0).W0 :=
  (val3_keep V0 main_arg7 (by decide)).trans (val2_main_arg7 V0)
theorem val3_main_arg8 (V0 : Valuation τ sig (Elt F)) : val3 V0 (Proc.devRef .tc main_arg8) = (argsOf V0).b0 :=
  (val3_keep V0 main_arg8 (by decide)).trans (val2_main_arg8 V0)
theorem val3_main_arg9 (V0 : Valuation τ sig (Elt F)) : val3 V0 (Proc.devRef .tc main_arg9) = (argsOf V0).W1 :=
  (val3_keep V0 main_arg9 (by decide)).trans (val2_main_arg9 V0)
theorem val3_main_arg10 (V0 : Valuation τ sig (Elt F)) : val3 V0 (Proc.devRef .tc main_arg10) = (argsOf V0).b1 :=
  (val3_keep V0 main_arg10 (by decide)).trans (val2_main_arg10 V0)
theorem val3_main_arg11 (V0 : Valuation τ sig (Elt F)) : val3 V0 (Proc.devRef .tc main_arg11) = (argsOf V0).W2 :=
  (val3_keep V0 main_arg11 (by decide)).trans (val2_main_arg11 V0)
theorem val3_main_arg12 (V0 : Valuation τ sig (Elt F)) : val3 V0 (Proc.devRef .tc main_arg12) = (argsOf V0).b2 :=
  (val3_keep V0 main_arg12 (by decide)).trans (val2_main_arg12 V0)
theorem val3_main_arg13 (V0 : Valuation τ sig (Elt F)) : val3 V0 (Proc.devRef .tc main_arg13) = (argsOf V0).F0 :=
  (val3_keep V0 main_arg13 (by decide)).trans (val2_main_arg13 V0)
theorem val3_main_arg14 (V0 : Valuation τ sig (Elt F)) : val3 V0 (Proc.devRef .tc main_arg14) = (argsOf V0).fb0 :=
  (val3_keep V0 main_arg14 (by decide)).trans (val2_main_arg14 V0)
theorem val3_main_arg15 (V0 : Valuation τ sig (Elt F)) : val3 V0 (Proc.devRef .tc main_arg15) = (argsOf V0).F1 :=
  (val3_keep V0 main_arg15 (by decide)).trans (val2_main_arg15 V0)
theorem val3_main_arg16 (V0 : Valuation τ sig (Elt F)) : val3 V0 (Proc.devRef .tc main_arg16) = (argsOf V0).fb1 :=
  (val3_keep V0 main_arg16 (by decide)).trans (val2_main_arg16 V0)
theorem val3_main_arg17 (V0 : Valuation τ sig (Elt F)) : val3 V0 (Proc.devRef .tc main_arg17) = (argsOf V0).g1 :=
  (val3_keep V0 main_arg17 (by decide)).trans (val2_main_arg17 V0)
theorem val3_main_arg18 (V0 : Valuation τ sig (Elt F)) : val3 V0 (Proc.devRef .tc main_arg18) = (argsOf V0).be1 :=
  (val3_keep V0 main_arg18 (by decide)).trans (val2_main_arg18 V0)
theorem val3_main_arg19 (V0 : Valuation τ sig (Elt F)) : val3 V0 (Proc.devRef .tc main_arg19) = (argsOf V0).g2 :=
  (val3_keep V0 main_arg19 (by decide)).trans (val2_main_arg19 V0)
theorem val3_main_arg20 (V0 : Valuation τ sig (Elt F)) : val3 V0 (Proc.devRef .tc main_arg20) = (argsOf V0).be2 :=
  (val3_keep V0 main_arg20 (by decide)).trans (val2_main_arg20 V0)
theorem val3_main_v9 (V0 : Valuation τ sig (Elt F)) : val3 V0 (Proc.devRef .tc main_v9) = res_main_v9 (argsOf V0) :=
  (opsW3_main_v9 (val2 V0)).trans (by rw [val2_main_arg2 V0, val2_main_v4 V0, val2_main_arg6 V0]; rfl)
theorem val3_main_v11 (V0 : Valuation τ sig (Elt F)) : val3 V0 (Proc.devRef .tc main_v11) = res_main_v11 (argsOf V0) :=
  (opsW3_main_v11 (val2 V0)).trans (by rw [val2_main_arg0 V0]; rfl)
theorem val3_main_v13 (V0 : Valuation τ sig (Elt F)) : val3 V0 (Proc.devRef .tc main_v13) = res_main_v13 (argsOf V0) :=
  (opsW3_main_v13 (val2 V0)).trans (by rw [val2_main_arg3 V0]; rfl)

/-- The contents after the first 4 stages. -/
def val4 (V0 : Valuation τ sig (Elt F)) : Valuation τ sig (Elt F) := after opsW4 (val3 V0)
theorem val4_keep (V0 : Valuation τ sig (Elt F)) (r : Ref sig .tc) (h : r ∉ opsW4_W) :
    val4 V0 (Proc.devRef .tc r) = val3 V0 (Proc.devRef .tc r) := opsW4_keep _ r h
theorem val4_main_arg0 (V0 : Valuation τ sig (Elt F)) : val4 V0 (Proc.devRef .tc main_arg0) = (argsOf V0).Vn :=
  (val4_keep V0 main_arg0 (by decide)).trans (val3_main_arg0 V0)
theorem val4_main_arg1 (V0 : Valuation τ sig (Elt F)) : val4 V0 (Proc.devRef .tc main_arg1) = (argsOf V0).Vo :=
  (val4_keep V0 main_arg1 (by decide)).trans (val3_main_arg1 V0)
theorem val4_main_arg2 (V0 : Valuation τ sig (Elt F)) : val4 V0 (Proc.devRef .tc main_arg2) = (argsOf V0).E :=
  (val4_keep V0 main_arg2 (by decide)).trans (val3_main_arg2 V0)
theorem val4_main_arg3 (V0 : Valuation τ sig (Elt F)) : val4 V0 (Proc.devRef .tc main_arg3) = (argsOf V0).K :=
  (val4_keep V0 main_arg3 (by decide)).trans (val3_main_arg3 V0)
theorem val4_main_arg4 (V0 : Valuation τ sig (Elt F)) : val4 V0 (Proc.devRef .tc main_arg4) = (argsOf V0).S :=
  (val4_keep V0 main_arg4 (by decide)).trans (val3_main_arg4 V0)
theorem val4_main_arg5 (V0 : Valuation τ sig (Elt F)) : val4 V0 (Proc.devRef .tc main_arg5) = (argsOf V0).em :=
  (val4_keep V0 main_arg5 (by decide)).trans (val3_main_arg5 V0)
theorem val4_main_arg6 (V0 : Valuation τ sig (Elt F)) : val4 V0 (Proc.devRef .tc main_arg6) = (argsOf V0).ar :=
  (val4_keep V0 main_arg6 (by decide)).trans (val3_main_arg6 V0)
theorem val4_main_arg7 (V0 : Valuation τ sig (Elt F)) : val4 V0 (Proc.devRef .tc main_arg7) = (argsOf V0).W0 :=
  (val4_keep V0 main_arg7 (by decide)).trans (val3_main_arg7 V0)
theorem val4_main_arg8 (V0 : Valuation τ sig (Elt F)) : val4 V0 (Proc.devRef .tc main_arg8) = (argsOf V0).b0 :=
  (val4_keep V0 main_arg8 (by decide)).trans (val3_main_arg8 V0)
theorem val4_main_arg9 (V0 : Valuation τ sig (Elt F)) : val4 V0 (Proc.devRef .tc main_arg9) = (argsOf V0).W1 :=
  (val4_keep V0 main_arg9 (by decide)).trans (val3_main_arg9 V0)
theorem val4_main_arg10 (V0 : Valuation τ sig (Elt F)) : val4 V0 (Proc.devRef .tc main_arg10) = (argsOf V0).b1 :=
  (val4_keep V0 main_arg10 (by decide)).trans (val3_main_arg10 V0)
theorem val4_main_arg11 (V0 : Valuation τ sig (Elt F)) : val4 V0 (Proc.devRef .tc main_arg11) = (argsOf V0).W2 :=
  (val4_keep V0 main_arg11 (by decide)).trans (val3_main_arg11 V0)
theorem val4_main_arg12 (V0 : Valuation τ sig (Elt F)) : val4 V0 (Proc.devRef .tc main_arg12) = (argsOf V0).b2 :=
  (val4_keep V0 main_arg12 (by decide)).trans (val3_main_arg12 V0)
theorem val4_main_arg13 (V0 : Valuation τ sig (Elt F)) : val4 V0 (Proc.devRef .tc main_arg13) = (argsOf V0).F0 :=
  (val4_keep V0 main_arg13 (by decide)).trans (val3_main_arg13 V0)
theorem val4_main_arg14 (V0 : Valuation τ sig (Elt F)) : val4 V0 (Proc.devRef .tc main_arg14) = (argsOf V0).fb0 :=
  (val4_keep V0 main_arg14 (by decide)).trans (val3_main_arg14 V0)
theorem val4_main_arg15 (V0 : Valuation τ sig (Elt F)) : val4 V0 (Proc.devRef .tc main_arg15) = (argsOf V0).F1 :=
  (val4_keep V0 main_arg15 (by decide)).trans (val3_main_arg15 V0)
theorem val4_main_arg16 (V0 : Valuation τ sig (Elt F)) : val4 V0 (Proc.devRef .tc main_arg16) = (argsOf V0).fb1 :=
  (val4_keep V0 main_arg16 (by decide)).trans (val3_main_arg16 V0)
theorem val4_main_arg17 (V0 : Valuation τ sig (Elt F)) : val4 V0 (Proc.devRef .tc main_arg17) = (argsOf V0).g1 :=
  (val4_keep V0 main_arg17 (by decide)).trans (val3_main_arg17 V0)
theorem val4_main_arg18 (V0 : Valuation τ sig (Elt F)) : val4 V0 (Proc.devRef .tc main_arg18) = (argsOf V0).be1 :=
  (val4_keep V0 main_arg18 (by decide)).trans (val3_main_arg18 V0)
theorem val4_main_arg19 (V0 : Valuation τ sig (Elt F)) : val4 V0 (Proc.devRef .tc main_arg19) = (argsOf V0).g2 :=
  (val4_keep V0 main_arg19 (by decide)).trans (val3_main_arg19 V0)
theorem val4_main_arg20 (V0 : Valuation τ sig (Elt F)) : val4 V0 (Proc.devRef .tc main_arg20) = (argsOf V0).be2 :=
  (val4_keep V0 main_arg20 (by decide)).trans (val3_main_arg20 V0)
theorem val4_main_v9 (V0 : Valuation τ sig (Elt F)) : val4 V0 (Proc.devRef .tc main_v9) = res_main_v9 (argsOf V0) :=
  (val4_keep V0 main_v9 (by decide)).trans (val3_main_v9 V0)
theorem val4_main_v11 (V0 : Valuation τ sig (Elt F)) : val4 V0 (Proc.devRef .tc main_v11) = res_main_v11 (argsOf V0) :=
  (val4_keep V0 main_v11 (by decide)).trans (val3_main_v11 V0)
theorem val4_main_v14 (V0 : Valuation τ sig (Elt F)) : val4 V0 (Proc.devRef .tc main_v14) = res_main_v14 (argsOf V0) :=
  (opsW4_main_v14 (val3 V0)).trans (by rw [val3_main_v13 V0, val3_main_v11 V0]; rfl)

/-- The contents after the first 5 stages. -/
def val5 (V0 : Valuation τ sig (Elt F)) : Valuation τ sig (Elt F) := after opsW5 (val4 V0)
theorem val5_keep (V0 : Valuation τ sig (Elt F)) (r : Ref sig .tc) (h : r ∉ opsW5_W) :
    val5 V0 (Proc.devRef .tc r) = val4 V0 (Proc.devRef .tc r) := opsW5_keep _ r h
theorem val5_main_arg0 (V0 : Valuation τ sig (Elt F)) : val5 V0 (Proc.devRef .tc main_arg0) = (argsOf V0).Vn :=
  (val5_keep V0 main_arg0 (by decide)).trans (val4_main_arg0 V0)
theorem val5_main_arg1 (V0 : Valuation τ sig (Elt F)) : val5 V0 (Proc.devRef .tc main_arg1) = (argsOf V0).Vo :=
  (val5_keep V0 main_arg1 (by decide)).trans (val4_main_arg1 V0)
theorem val5_main_arg2 (V0 : Valuation τ sig (Elt F)) : val5 V0 (Proc.devRef .tc main_arg2) = (argsOf V0).E :=
  (val5_keep V0 main_arg2 (by decide)).trans (val4_main_arg2 V0)
theorem val5_main_arg3 (V0 : Valuation τ sig (Elt F)) : val5 V0 (Proc.devRef .tc main_arg3) = (argsOf V0).K :=
  (val5_keep V0 main_arg3 (by decide)).trans (val4_main_arg3 V0)
theorem val5_main_arg4 (V0 : Valuation τ sig (Elt F)) : val5 V0 (Proc.devRef .tc main_arg4) = (argsOf V0).S :=
  (val5_keep V0 main_arg4 (by decide)).trans (val4_main_arg4 V0)
theorem val5_main_arg5 (V0 : Valuation τ sig (Elt F)) : val5 V0 (Proc.devRef .tc main_arg5) = (argsOf V0).em :=
  (val5_keep V0 main_arg5 (by decide)).trans (val4_main_arg5 V0)
theorem val5_main_arg6 (V0 : Valuation τ sig (Elt F)) : val5 V0 (Proc.devRef .tc main_arg6) = (argsOf V0).ar :=
  (val5_keep V0 main_arg6 (by decide)).trans (val4_main_arg6 V0)
theorem val5_main_arg7 (V0 : Valuation τ sig (Elt F)) : val5 V0 (Proc.devRef .tc main_arg7) = (argsOf V0).W0 :=
  (val5_keep V0 main_arg7 (by decide)).trans (val4_main_arg7 V0)
theorem val5_main_arg8 (V0 : Valuation τ sig (Elt F)) : val5 V0 (Proc.devRef .tc main_arg8) = (argsOf V0).b0 :=
  (val5_keep V0 main_arg8 (by decide)).trans (val4_main_arg8 V0)
theorem val5_main_arg9 (V0 : Valuation τ sig (Elt F)) : val5 V0 (Proc.devRef .tc main_arg9) = (argsOf V0).W1 :=
  (val5_keep V0 main_arg9 (by decide)).trans (val4_main_arg9 V0)
theorem val5_main_arg10 (V0 : Valuation τ sig (Elt F)) : val5 V0 (Proc.devRef .tc main_arg10) = (argsOf V0).b1 :=
  (val5_keep V0 main_arg10 (by decide)).trans (val4_main_arg10 V0)
theorem val5_main_arg11 (V0 : Valuation τ sig (Elt F)) : val5 V0 (Proc.devRef .tc main_arg11) = (argsOf V0).W2 :=
  (val5_keep V0 main_arg11 (by decide)).trans (val4_main_arg11 V0)
theorem val5_main_arg12 (V0 : Valuation τ sig (Elt F)) : val5 V0 (Proc.devRef .tc main_arg12) = (argsOf V0).b2 :=
  (val5_keep V0 main_arg12 (by decide)).trans (val4_main_arg12 V0)
theorem val5_main_arg13 (V0 : Valuation τ sig (Elt F)) : val5 V0 (Proc.devRef .tc main_arg13) = (argsOf V0).F0 :=
  (val5_keep V0 main_arg13 (by decide)).trans (val4_main_arg13 V0)
theorem val5_main_arg14 (V0 : Valuation τ sig (Elt F)) : val5 V0 (Proc.devRef .tc main_arg14) = (argsOf V0).fb0 :=
  (val5_keep V0 main_arg14 (by decide)).trans (val4_main_arg14 V0)
theorem val5_main_arg15 (V0 : Valuation τ sig (Elt F)) : val5 V0 (Proc.devRef .tc main_arg15) = (argsOf V0).F1 :=
  (val5_keep V0 main_arg15 (by decide)).trans (val4_main_arg15 V0)
theorem val5_main_arg16 (V0 : Valuation τ sig (Elt F)) : val5 V0 (Proc.devRef .tc main_arg16) = (argsOf V0).fb1 :=
  (val5_keep V0 main_arg16 (by decide)).trans (val4_main_arg16 V0)
theorem val5_main_arg17 (V0 : Valuation τ sig (Elt F)) : val5 V0 (Proc.devRef .tc main_arg17) = (argsOf V0).g1 :=
  (val5_keep V0 main_arg17 (by decide)).trans (val4_main_arg17 V0)
theorem val5_main_arg18 (V0 : Valuation τ sig (Elt F)) : val5 V0 (Proc.devRef .tc main_arg18) = (argsOf V0).be1 :=
  (val5_keep V0 main_arg18 (by decide)).trans (val4_main_arg18 V0)
theorem val5_main_arg19 (V0 : Valuation τ sig (Elt F)) : val5 V0 (Proc.devRef .tc main_arg19) = (argsOf V0).g2 :=
  (val5_keep V0 main_arg19 (by decide)).trans (val4_main_arg19 V0)
theorem val5_main_arg20 (V0 : Valuation τ sig (Elt F)) : val5 V0 (Proc.devRef .tc main_arg20) = (argsOf V0).be2 :=
  (val5_keep V0 main_arg20 (by decide)).trans (val4_main_arg20 V0)
theorem val5_main_v9 (V0 : Valuation τ sig (Elt F)) : val5 V0 (Proc.devRef .tc main_v9) = res_main_v9 (argsOf V0) :=
  (val5_keep V0 main_v9 (by decide)).trans (val4_main_v9 V0)
theorem val5_main_v11 (V0 : Valuation τ sig (Elt F)) : val5 V0 (Proc.devRef .tc main_v11) = res_main_v11 (argsOf V0) :=
  (val5_keep V0 main_v11 (by decide)).trans (val4_main_v11 V0)
theorem val5_main_v14 (V0 : Valuation τ sig (Elt F)) : val5 V0 (Proc.devRef .tc main_v14) = res_main_v14 (argsOf V0) :=
  (val5_keep V0 main_v14 (by decide)).trans (val4_main_v14 V0)
theorem val5_main_v16 (V0 : Valuation τ sig (Elt F)) : val5 V0 (Proc.devRef .tc main_v16) = res_main_v16 (argsOf V0) :=
  (opsW5_main_v16 (val4 V0)).trans (by rw [val4_main_arg1 V0]; rfl)
theorem val5_main_v18 (V0 : Valuation τ sig (Elt F)) : val5 V0 (Proc.devRef .tc main_v18) = res_main_v18 (argsOf V0) :=
  (opsW5_main_v18 (val4 V0)).trans (by rw [val4_main_arg3 V0]; rfl)

/-- The contents after the first 6 stages. -/
def val6 (V0 : Valuation τ sig (Elt F)) : Valuation τ sig (Elt F) := after opsW6 (val5 V0)
theorem val6_keep (V0 : Valuation τ sig (Elt F)) (r : Ref sig .tc) (h : r ∉ opsW6_W) :
    val6 V0 (Proc.devRef .tc r) = val5 V0 (Proc.devRef .tc r) := opsW6_keep _ r h
theorem val6_main_arg0 (V0 : Valuation τ sig (Elt F)) : val6 V0 (Proc.devRef .tc main_arg0) = (argsOf V0).Vn :=
  (val6_keep V0 main_arg0 (by decide)).trans (val5_main_arg0 V0)
theorem val6_main_arg1 (V0 : Valuation τ sig (Elt F)) : val6 V0 (Proc.devRef .tc main_arg1) = (argsOf V0).Vo :=
  (val6_keep V0 main_arg1 (by decide)).trans (val5_main_arg1 V0)
theorem val6_main_arg2 (V0 : Valuation τ sig (Elt F)) : val6 V0 (Proc.devRef .tc main_arg2) = (argsOf V0).E :=
  (val6_keep V0 main_arg2 (by decide)).trans (val5_main_arg2 V0)
theorem val6_main_arg3 (V0 : Valuation τ sig (Elt F)) : val6 V0 (Proc.devRef .tc main_arg3) = (argsOf V0).K :=
  (val6_keep V0 main_arg3 (by decide)).trans (val5_main_arg3 V0)
theorem val6_main_arg4 (V0 : Valuation τ sig (Elt F)) : val6 V0 (Proc.devRef .tc main_arg4) = (argsOf V0).S :=
  (val6_keep V0 main_arg4 (by decide)).trans (val5_main_arg4 V0)
theorem val6_main_arg5 (V0 : Valuation τ sig (Elt F)) : val6 V0 (Proc.devRef .tc main_arg5) = (argsOf V0).em :=
  (val6_keep V0 main_arg5 (by decide)).trans (val5_main_arg5 V0)
theorem val6_main_arg6 (V0 : Valuation τ sig (Elt F)) : val6 V0 (Proc.devRef .tc main_arg6) = (argsOf V0).ar :=
  (val6_keep V0 main_arg6 (by decide)).trans (val5_main_arg6 V0)
theorem val6_main_arg7 (V0 : Valuation τ sig (Elt F)) : val6 V0 (Proc.devRef .tc main_arg7) = (argsOf V0).W0 :=
  (val6_keep V0 main_arg7 (by decide)).trans (val5_main_arg7 V0)
theorem val6_main_arg8 (V0 : Valuation τ sig (Elt F)) : val6 V0 (Proc.devRef .tc main_arg8) = (argsOf V0).b0 :=
  (val6_keep V0 main_arg8 (by decide)).trans (val5_main_arg8 V0)
theorem val6_main_arg9 (V0 : Valuation τ sig (Elt F)) : val6 V0 (Proc.devRef .tc main_arg9) = (argsOf V0).W1 :=
  (val6_keep V0 main_arg9 (by decide)).trans (val5_main_arg9 V0)
theorem val6_main_arg10 (V0 : Valuation τ sig (Elt F)) : val6 V0 (Proc.devRef .tc main_arg10) = (argsOf V0).b1 :=
  (val6_keep V0 main_arg10 (by decide)).trans (val5_main_arg10 V0)
theorem val6_main_arg11 (V0 : Valuation τ sig (Elt F)) : val6 V0 (Proc.devRef .tc main_arg11) = (argsOf V0).W2 :=
  (val6_keep V0 main_arg11 (by decide)).trans (val5_main_arg11 V0)
theorem val6_main_arg12 (V0 : Valuation τ sig (Elt F)) : val6 V0 (Proc.devRef .tc main_arg12) = (argsOf V0).b2 :=
  (val6_keep V0 main_arg12 (by decide)).trans (val5_main_arg12 V0)
theorem val6_main_arg13 (V0 : Valuation τ sig (Elt F)) : val6 V0 (Proc.devRef .tc main_arg13) = (argsOf V0).F0 :=
  (val6_keep V0 main_arg13 (by decide)).trans (val5_main_arg13 V0)
theorem val6_main_arg14 (V0 : Valuation τ sig (Elt F)) : val6 V0 (Proc.devRef .tc main_arg14) = (argsOf V0).fb0 :=
  (val6_keep V0 main_arg14 (by decide)).trans (val5_main_arg14 V0)
theorem val6_main_arg15 (V0 : Valuation τ sig (Elt F)) : val6 V0 (Proc.devRef .tc main_arg15) = (argsOf V0).F1 :=
  (val6_keep V0 main_arg15 (by decide)).trans (val5_main_arg15 V0)
theorem val6_main_arg16 (V0 : Valuation τ sig (Elt F)) : val6 V0 (Proc.devRef .tc main_arg16) = (argsOf V0).fb1 :=
  (val6_keep V0 main_arg16 (by decide)).trans (val5_main_arg16 V0)
theorem val6_main_arg17 (V0 : Valuation τ sig (Elt F)) : val6 V0 (Proc.devRef .tc main_arg17) = (argsOf V0).g1 :=
  (val6_keep V0 main_arg17 (by decide)).trans (val5_main_arg17 V0)
theorem val6_main_arg18 (V0 : Valuation τ sig (Elt F)) : val6 V0 (Proc.devRef .tc main_arg18) = (argsOf V0).be1 :=
  (val6_keep V0 main_arg18 (by decide)).trans (val5_main_arg18 V0)
theorem val6_main_arg19 (V0 : Valuation τ sig (Elt F)) : val6 V0 (Proc.devRef .tc main_arg19) = (argsOf V0).g2 :=
  (val6_keep V0 main_arg19 (by decide)).trans (val5_main_arg19 V0)
theorem val6_main_arg20 (V0 : Valuation τ sig (Elt F)) : val6 V0 (Proc.devRef .tc main_arg20) = (argsOf V0).be2 :=
  (val6_keep V0 main_arg20 (by decide)).trans (val5_main_arg20 V0)
theorem val6_main_v9 (V0 : Valuation τ sig (Elt F)) : val6 V0 (Proc.devRef .tc main_v9) = res_main_v9 (argsOf V0) :=
  (val6_keep V0 main_v9 (by decide)).trans (val5_main_v9 V0)
theorem val6_main_v11 (V0 : Valuation τ sig (Elt F)) : val6 V0 (Proc.devRef .tc main_v11) = res_main_v11 (argsOf V0) :=
  (val6_keep V0 main_v11 (by decide)).trans (val5_main_v11 V0)
theorem val6_main_v14 (V0 : Valuation τ sig (Elt F)) : val6 V0 (Proc.devRef .tc main_v14) = res_main_v14 (argsOf V0) :=
  (val6_keep V0 main_v14 (by decide)).trans (val5_main_v14 V0)
theorem val6_main_v19 (V0 : Valuation τ sig (Elt F)) : val6 V0 (Proc.devRef .tc main_v19) = res_main_v19 (argsOf V0) :=
  (opsW6_main_v19 (val5 V0)).trans (by rw [val5_main_v18 V0, val5_main_v16 V0]; rfl)

/-- The contents after the first 7 stages. -/
def val7 (V0 : Valuation τ sig (Elt F)) : Valuation τ sig (Elt F) := after opsW7 (val6 V0)
theorem val7_keep (V0 : Valuation τ sig (Elt F)) (r : Ref sig .tc) (h : r ∉ opsW7_W) :
    val7 V0 (Proc.devRef .tc r) = val6 V0 (Proc.devRef .tc r) := opsW7_keep _ r h
theorem val7_main_arg0 (V0 : Valuation τ sig (Elt F)) : val7 V0 (Proc.devRef .tc main_arg0) = (argsOf V0).Vn :=
  (val7_keep V0 main_arg0 (by decide)).trans (val6_main_arg0 V0)
theorem val7_main_arg1 (V0 : Valuation τ sig (Elt F)) : val7 V0 (Proc.devRef .tc main_arg1) = (argsOf V0).Vo :=
  (val7_keep V0 main_arg1 (by decide)).trans (val6_main_arg1 V0)
theorem val7_main_arg2 (V0 : Valuation τ sig (Elt F)) : val7 V0 (Proc.devRef .tc main_arg2) = (argsOf V0).E :=
  (val7_keep V0 main_arg2 (by decide)).trans (val6_main_arg2 V0)
theorem val7_main_arg3 (V0 : Valuation τ sig (Elt F)) : val7 V0 (Proc.devRef .tc main_arg3) = (argsOf V0).K :=
  (val7_keep V0 main_arg3 (by decide)).trans (val6_main_arg3 V0)
theorem val7_main_arg4 (V0 : Valuation τ sig (Elt F)) : val7 V0 (Proc.devRef .tc main_arg4) = (argsOf V0).S :=
  (val7_keep V0 main_arg4 (by decide)).trans (val6_main_arg4 V0)
theorem val7_main_arg5 (V0 : Valuation τ sig (Elt F)) : val7 V0 (Proc.devRef .tc main_arg5) = (argsOf V0).em :=
  (val7_keep V0 main_arg5 (by decide)).trans (val6_main_arg5 V0)
theorem val7_main_arg6 (V0 : Valuation τ sig (Elt F)) : val7 V0 (Proc.devRef .tc main_arg6) = (argsOf V0).ar :=
  (val7_keep V0 main_arg6 (by decide)).trans (val6_main_arg6 V0)
theorem val7_main_arg7 (V0 : Valuation τ sig (Elt F)) : val7 V0 (Proc.devRef .tc main_arg7) = (argsOf V0).W0 :=
  (val7_keep V0 main_arg7 (by decide)).trans (val6_main_arg7 V0)
theorem val7_main_arg8 (V0 : Valuation τ sig (Elt F)) : val7 V0 (Proc.devRef .tc main_arg8) = (argsOf V0).b0 :=
  (val7_keep V0 main_arg8 (by decide)).trans (val6_main_arg8 V0)
theorem val7_main_arg9 (V0 : Valuation τ sig (Elt F)) : val7 V0 (Proc.devRef .tc main_arg9) = (argsOf V0).W1 :=
  (val7_keep V0 main_arg9 (by decide)).trans (val6_main_arg9 V0)
theorem val7_main_arg10 (V0 : Valuation τ sig (Elt F)) : val7 V0 (Proc.devRef .tc main_arg10) = (argsOf V0).b1 :=
  (val7_keep V0 main_arg10 (by decide)).trans (val6_main_arg10 V0)
theorem val7_main_arg11 (V0 : Valuation τ sig (Elt F)) : val7 V0 (Proc.devRef .tc main_arg11) = (argsOf V0).W2 :=
  (val7_keep V0 main_arg11 (by decide)).trans (val6_main_arg11 V0)
theorem val7_main_arg12 (V0 : Valuation τ sig (Elt F)) : val7 V0 (Proc.devRef .tc main_arg12) = (argsOf V0).b2 :=
  (val7_keep V0 main_arg12 (by decide)).trans (val6_main_arg12 V0)
theorem val7_main_arg13 (V0 : Valuation τ sig (Elt F)) : val7 V0 (Proc.devRef .tc main_arg13) = (argsOf V0).F0 :=
  (val7_keep V0 main_arg13 (by decide)).trans (val6_main_arg13 V0)
theorem val7_main_arg14 (V0 : Valuation τ sig (Elt F)) : val7 V0 (Proc.devRef .tc main_arg14) = (argsOf V0).fb0 :=
  (val7_keep V0 main_arg14 (by decide)).trans (val6_main_arg14 V0)
theorem val7_main_arg15 (V0 : Valuation τ sig (Elt F)) : val7 V0 (Proc.devRef .tc main_arg15) = (argsOf V0).F1 :=
  (val7_keep V0 main_arg15 (by decide)).trans (val6_main_arg15 V0)
theorem val7_main_arg16 (V0 : Valuation τ sig (Elt F)) : val7 V0 (Proc.devRef .tc main_arg16) = (argsOf V0).fb1 :=
  (val7_keep V0 main_arg16 (by decide)).trans (val6_main_arg16 V0)
theorem val7_main_arg17 (V0 : Valuation τ sig (Elt F)) : val7 V0 (Proc.devRef .tc main_arg17) = (argsOf V0).g1 :=
  (val7_keep V0 main_arg17 (by decide)).trans (val6_main_arg17 V0)
theorem val7_main_arg18 (V0 : Valuation τ sig (Elt F)) : val7 V0 (Proc.devRef .tc main_arg18) = (argsOf V0).be1 :=
  (val7_keep V0 main_arg18 (by decide)).trans (val6_main_arg18 V0)
theorem val7_main_arg19 (V0 : Valuation τ sig (Elt F)) : val7 V0 (Proc.devRef .tc main_arg19) = (argsOf V0).g2 :=
  (val7_keep V0 main_arg19 (by decide)).trans (val6_main_arg19 V0)
theorem val7_main_arg20 (V0 : Valuation τ sig (Elt F)) : val7 V0 (Proc.devRef .tc main_arg20) = (argsOf V0).be2 :=
  (val7_keep V0 main_arg20 (by decide)).trans (val6_main_arg20 V0)
theorem val7_main_v26 (V0 : Valuation τ sig (Elt F)) : val7 V0 (Proc.devRef .tc main_v26) = res_main_v26 (argsOf V0) :=
  (opsW7_main_v26 (val6 V0)).trans (by rw [val6_main_v11 V0, val6_main_arg6 V0, val6_main_v14 V0, val6_main_v19 V0, val6_main_v9 V0, val6_main_arg7 V0, val6_main_arg8 V0]; rfl)

/-- The contents after the first 8 stages. -/
def val8 (V0 : Valuation τ sig (Elt F)) : Valuation τ sig (Elt F) := after opsW8 (val7 V0)
theorem val8_keep (V0 : Valuation τ sig (Elt F)) (r : Ref sig .tc) (h : r ∉ opsW8_W) :
    val8 V0 (Proc.devRef .tc r) = val7 V0 (Proc.devRef .tc r) := opsW8_keep _ r h
theorem val8_main_arg0 (V0 : Valuation τ sig (Elt F)) : val8 V0 (Proc.devRef .tc main_arg0) = (argsOf V0).Vn :=
  (val8_keep V0 main_arg0 (by decide)).trans (val7_main_arg0 V0)
theorem val8_main_arg1 (V0 : Valuation τ sig (Elt F)) : val8 V0 (Proc.devRef .tc main_arg1) = (argsOf V0).Vo :=
  (val8_keep V0 main_arg1 (by decide)).trans (val7_main_arg1 V0)
theorem val8_main_arg2 (V0 : Valuation τ sig (Elt F)) : val8 V0 (Proc.devRef .tc main_arg2) = (argsOf V0).E :=
  (val8_keep V0 main_arg2 (by decide)).trans (val7_main_arg2 V0)
theorem val8_main_arg3 (V0 : Valuation τ sig (Elt F)) : val8 V0 (Proc.devRef .tc main_arg3) = (argsOf V0).K :=
  (val8_keep V0 main_arg3 (by decide)).trans (val7_main_arg3 V0)
theorem val8_main_arg4 (V0 : Valuation τ sig (Elt F)) : val8 V0 (Proc.devRef .tc main_arg4) = (argsOf V0).S :=
  (val8_keep V0 main_arg4 (by decide)).trans (val7_main_arg4 V0)
theorem val8_main_arg5 (V0 : Valuation τ sig (Elt F)) : val8 V0 (Proc.devRef .tc main_arg5) = (argsOf V0).em :=
  (val8_keep V0 main_arg5 (by decide)).trans (val7_main_arg5 V0)
theorem val8_main_arg6 (V0 : Valuation τ sig (Elt F)) : val8 V0 (Proc.devRef .tc main_arg6) = (argsOf V0).ar :=
  (val8_keep V0 main_arg6 (by decide)).trans (val7_main_arg6 V0)
theorem val8_main_arg7 (V0 : Valuation τ sig (Elt F)) : val8 V0 (Proc.devRef .tc main_arg7) = (argsOf V0).W0 :=
  (val8_keep V0 main_arg7 (by decide)).trans (val7_main_arg7 V0)
theorem val8_main_arg8 (V0 : Valuation τ sig (Elt F)) : val8 V0 (Proc.devRef .tc main_arg8) = (argsOf V0).b0 :=
  (val8_keep V0 main_arg8 (by decide)).trans (val7_main_arg8 V0)
theorem val8_main_arg9 (V0 : Valuation τ sig (Elt F)) : val8 V0 (Proc.devRef .tc main_arg9) = (argsOf V0).W1 :=
  (val8_keep V0 main_arg9 (by decide)).trans (val7_main_arg9 V0)
theorem val8_main_arg10 (V0 : Valuation τ sig (Elt F)) : val8 V0 (Proc.devRef .tc main_arg10) = (argsOf V0).b1 :=
  (val8_keep V0 main_arg10 (by decide)).trans (val7_main_arg10 V0)
theorem val8_main_arg11 (V0 : Valuation τ sig (Elt F)) : val8 V0 (Proc.devRef .tc main_arg11) = (argsOf V0).W2 :=
  (val8_keep V0 main_arg11 (by decide)).trans (val7_main_arg11 V0)
theorem val8_main_arg12 (V0 : Valuation τ sig (Elt F)) : val8 V0 (Proc.devRef .tc main_arg12) = (argsOf V0).b2 :=
  (val8_keep V0 main_arg12 (by decide)).trans (val7_main_arg12 V0)
theorem val8_main_arg13 (V0 : Valuation τ sig (Elt F)) : val8 V0 (Proc.devRef .tc main_arg13) = (argsOf V0).F0 :=
  (val8_keep V0 main_arg13 (by decide)).trans (val7_main_arg13 V0)
theorem val8_main_arg14 (V0 : Valuation τ sig (Elt F)) : val8 V0 (Proc.devRef .tc main_arg14) = (argsOf V0).fb0 :=
  (val8_keep V0 main_arg14 (by decide)).trans (val7_main_arg14 V0)
theorem val8_main_arg15 (V0 : Valuation τ sig (Elt F)) : val8 V0 (Proc.devRef .tc main_arg15) = (argsOf V0).F1 :=
  (val8_keep V0 main_arg15 (by decide)).trans (val7_main_arg15 V0)
theorem val8_main_arg16 (V0 : Valuation τ sig (Elt F)) : val8 V0 (Proc.devRef .tc main_arg16) = (argsOf V0).fb1 :=
  (val8_keep V0 main_arg16 (by decide)).trans (val7_main_arg16 V0)
theorem val8_main_arg17 (V0 : Valuation τ sig (Elt F)) : val8 V0 (Proc.devRef .tc main_arg17) = (argsOf V0).g1 :=
  (val8_keep V0 main_arg17 (by decide)).trans (val7_main_arg17 V0)
theorem val8_main_arg18 (V0 : Valuation τ sig (Elt F)) : val8 V0 (Proc.devRef .tc main_arg18) = (argsOf V0).be1 :=
  (val8_keep V0 main_arg18 (by decide)).trans (val7_main_arg18 V0)
theorem val8_main_arg19 (V0 : Valuation τ sig (Elt F)) : val8 V0 (Proc.devRef .tc main_arg19) = (argsOf V0).g2 :=
  (val8_keep V0 main_arg19 (by decide)).trans (val7_main_arg19 V0)
theorem val8_main_arg20 (V0 : Valuation τ sig (Elt F)) : val8 V0 (Proc.devRef .tc main_arg20) = (argsOf V0).be2 :=
  (val8_keep V0 main_arg20 (by decide)).trans (val7_main_arg20 V0)
theorem val8_main_v33 (V0 : Valuation τ sig (Elt F)) : val8 V0 (Proc.devRef .tc main_v33) = res_main_v33 (argsOf V0) :=
  (opsW8_main_v33 (val7 V0)).trans (by rw [val7_main_v26 V0]; rfl)

/-- The contents after the first 9 stages. -/
def val9 (V0 : Valuation τ sig (Elt F)) : Valuation τ sig (Elt F) := after opsW9 (val8 V0)
theorem val9_keep (V0 : Valuation τ sig (Elt F)) (r : Ref sig .tc) (h : r ∉ opsW9_W) :
    val9 V0 (Proc.devRef .tc r) = val8 V0 (Proc.devRef .tc r) := opsW9_keep _ r h
theorem val9_main_arg0 (V0 : Valuation τ sig (Elt F)) : val9 V0 (Proc.devRef .tc main_arg0) = (argsOf V0).Vn :=
  (val9_keep V0 main_arg0 (by decide)).trans (val8_main_arg0 V0)
theorem val9_main_arg1 (V0 : Valuation τ sig (Elt F)) : val9 V0 (Proc.devRef .tc main_arg1) = (argsOf V0).Vo :=
  (val9_keep V0 main_arg1 (by decide)).trans (val8_main_arg1 V0)
theorem val9_main_arg2 (V0 : Valuation τ sig (Elt F)) : val9 V0 (Proc.devRef .tc main_arg2) = (argsOf V0).E :=
  (val9_keep V0 main_arg2 (by decide)).trans (val8_main_arg2 V0)
theorem val9_main_arg3 (V0 : Valuation τ sig (Elt F)) : val9 V0 (Proc.devRef .tc main_arg3) = (argsOf V0).K :=
  (val9_keep V0 main_arg3 (by decide)).trans (val8_main_arg3 V0)
theorem val9_main_arg4 (V0 : Valuation τ sig (Elt F)) : val9 V0 (Proc.devRef .tc main_arg4) = (argsOf V0).S :=
  (val9_keep V0 main_arg4 (by decide)).trans (val8_main_arg4 V0)
theorem val9_main_arg5 (V0 : Valuation τ sig (Elt F)) : val9 V0 (Proc.devRef .tc main_arg5) = (argsOf V0).em :=
  (val9_keep V0 main_arg5 (by decide)).trans (val8_main_arg5 V0)
theorem val9_main_arg6 (V0 : Valuation τ sig (Elt F)) : val9 V0 (Proc.devRef .tc main_arg6) = (argsOf V0).ar :=
  (val9_keep V0 main_arg6 (by decide)).trans (val8_main_arg6 V0)
theorem val9_main_arg7 (V0 : Valuation τ sig (Elt F)) : val9 V0 (Proc.devRef .tc main_arg7) = (argsOf V0).W0 :=
  (val9_keep V0 main_arg7 (by decide)).trans (val8_main_arg7 V0)
theorem val9_main_arg8 (V0 : Valuation τ sig (Elt F)) : val9 V0 (Proc.devRef .tc main_arg8) = (argsOf V0).b0 :=
  (val9_keep V0 main_arg8 (by decide)).trans (val8_main_arg8 V0)
theorem val9_main_arg9 (V0 : Valuation τ sig (Elt F)) : val9 V0 (Proc.devRef .tc main_arg9) = (argsOf V0).W1 :=
  (val9_keep V0 main_arg9 (by decide)).trans (val8_main_arg9 V0)
theorem val9_main_arg10 (V0 : Valuation τ sig (Elt F)) : val9 V0 (Proc.devRef .tc main_arg10) = (argsOf V0).b1 :=
  (val9_keep V0 main_arg10 (by decide)).trans (val8_main_arg10 V0)
theorem val9_main_arg11 (V0 : Valuation τ sig (Elt F)) : val9 V0 (Proc.devRef .tc main_arg11) = (argsOf V0).W2 :=
  (val9_keep V0 main_arg11 (by decide)).trans (val8_main_arg11 V0)
theorem val9_main_arg12 (V0 : Valuation τ sig (Elt F)) : val9 V0 (Proc.devRef .tc main_arg12) = (argsOf V0).b2 :=
  (val9_keep V0 main_arg12 (by decide)).trans (val8_main_arg12 V0)
theorem val9_main_arg13 (V0 : Valuation τ sig (Elt F)) : val9 V0 (Proc.devRef .tc main_arg13) = (argsOf V0).F0 :=
  (val9_keep V0 main_arg13 (by decide)).trans (val8_main_arg13 V0)
theorem val9_main_arg14 (V0 : Valuation τ sig (Elt F)) : val9 V0 (Proc.devRef .tc main_arg14) = (argsOf V0).fb0 :=
  (val9_keep V0 main_arg14 (by decide)).trans (val8_main_arg14 V0)
theorem val9_main_arg15 (V0 : Valuation τ sig (Elt F)) : val9 V0 (Proc.devRef .tc main_arg15) = (argsOf V0).F1 :=
  (val9_keep V0 main_arg15 (by decide)).trans (val8_main_arg15 V0)
theorem val9_main_arg16 (V0 : Valuation τ sig (Elt F)) : val9 V0 (Proc.devRef .tc main_arg16) = (argsOf V0).fb1 :=
  (val9_keep V0 main_arg16 (by decide)).trans (val8_main_arg16 V0)
theorem val9_main_arg17 (V0 : Valuation τ sig (Elt F)) : val9 V0 (Proc.devRef .tc main_arg17) = (argsOf V0).g1 :=
  (val9_keep V0 main_arg17 (by decide)).trans (val8_main_arg17 V0)
theorem val9_main_arg18 (V0 : Valuation τ sig (Elt F)) : val9 V0 (Proc.devRef .tc main_arg18) = (argsOf V0).be1 :=
  (val9_keep V0 main_arg18 (by decide)).trans (val8_main_arg18 V0)
theorem val9_main_arg19 (V0 : Valuation τ sig (Elt F)) : val9 V0 (Proc.devRef .tc main_arg19) = (argsOf V0).g2 :=
  (val9_keep V0 main_arg19 (by decide)).trans (val8_main_arg19 V0)
theorem val9_main_arg20 (V0 : Valuation τ sig (Elt F)) : val9 V0 (Proc.devRef .tc main_arg20) = (argsOf V0).be2 :=
  (val9_keep V0 main_arg20 (by decide)).trans (val8_main_arg20 V0)
theorem val9_main_v37 (V0 : Valuation τ sig (Elt F)) : val9 V0 (Proc.devRef .tc main_v37) = res_main_v37 (argsOf V0) :=
  (opsW9_main_v37 (val8 V0)).trans (by rw [val8_main_v33 V0, val8_main_arg9 V0, val8_main_arg10 V0]; rfl)

/-- The contents after the first 10 stages. -/
def val10 (V0 : Valuation τ sig (Elt F)) : Valuation τ sig (Elt F) := after opsW10 (val9 V0)
theorem val10_keep (V0 : Valuation τ sig (Elt F)) (r : Ref sig .tc) (h : r ∉ opsW10_W) :
    val10 V0 (Proc.devRef .tc r) = val9 V0 (Proc.devRef .tc r) := opsW10_keep _ r h
theorem val10_main_arg0 (V0 : Valuation τ sig (Elt F)) : val10 V0 (Proc.devRef .tc main_arg0) = (argsOf V0).Vn :=
  (val10_keep V0 main_arg0 (by decide)).trans (val9_main_arg0 V0)
theorem val10_main_arg1 (V0 : Valuation τ sig (Elt F)) : val10 V0 (Proc.devRef .tc main_arg1) = (argsOf V0).Vo :=
  (val10_keep V0 main_arg1 (by decide)).trans (val9_main_arg1 V0)
theorem val10_main_arg2 (V0 : Valuation τ sig (Elt F)) : val10 V0 (Proc.devRef .tc main_arg2) = (argsOf V0).E :=
  (val10_keep V0 main_arg2 (by decide)).trans (val9_main_arg2 V0)
theorem val10_main_arg3 (V0 : Valuation τ sig (Elt F)) : val10 V0 (Proc.devRef .tc main_arg3) = (argsOf V0).K :=
  (val10_keep V0 main_arg3 (by decide)).trans (val9_main_arg3 V0)
theorem val10_main_arg4 (V0 : Valuation τ sig (Elt F)) : val10 V0 (Proc.devRef .tc main_arg4) = (argsOf V0).S :=
  (val10_keep V0 main_arg4 (by decide)).trans (val9_main_arg4 V0)
theorem val10_main_arg5 (V0 : Valuation τ sig (Elt F)) : val10 V0 (Proc.devRef .tc main_arg5) = (argsOf V0).em :=
  (val10_keep V0 main_arg5 (by decide)).trans (val9_main_arg5 V0)
theorem val10_main_arg6 (V0 : Valuation τ sig (Elt F)) : val10 V0 (Proc.devRef .tc main_arg6) = (argsOf V0).ar :=
  (val10_keep V0 main_arg6 (by decide)).trans (val9_main_arg6 V0)
theorem val10_main_arg7 (V0 : Valuation τ sig (Elt F)) : val10 V0 (Proc.devRef .tc main_arg7) = (argsOf V0).W0 :=
  (val10_keep V0 main_arg7 (by decide)).trans (val9_main_arg7 V0)
theorem val10_main_arg8 (V0 : Valuation τ sig (Elt F)) : val10 V0 (Proc.devRef .tc main_arg8) = (argsOf V0).b0 :=
  (val10_keep V0 main_arg8 (by decide)).trans (val9_main_arg8 V0)
theorem val10_main_arg9 (V0 : Valuation τ sig (Elt F)) : val10 V0 (Proc.devRef .tc main_arg9) = (argsOf V0).W1 :=
  (val10_keep V0 main_arg9 (by decide)).trans (val9_main_arg9 V0)
theorem val10_main_arg10 (V0 : Valuation τ sig (Elt F)) : val10 V0 (Proc.devRef .tc main_arg10) = (argsOf V0).b1 :=
  (val10_keep V0 main_arg10 (by decide)).trans (val9_main_arg10 V0)
theorem val10_main_arg11 (V0 : Valuation τ sig (Elt F)) : val10 V0 (Proc.devRef .tc main_arg11) = (argsOf V0).W2 :=
  (val10_keep V0 main_arg11 (by decide)).trans (val9_main_arg11 V0)
theorem val10_main_arg12 (V0 : Valuation τ sig (Elt F)) : val10 V0 (Proc.devRef .tc main_arg12) = (argsOf V0).b2 :=
  (val10_keep V0 main_arg12 (by decide)).trans (val9_main_arg12 V0)
theorem val10_main_arg13 (V0 : Valuation τ sig (Elt F)) : val10 V0 (Proc.devRef .tc main_arg13) = (argsOf V0).F0 :=
  (val10_keep V0 main_arg13 (by decide)).trans (val9_main_arg13 V0)
theorem val10_main_arg14 (V0 : Valuation τ sig (Elt F)) : val10 V0 (Proc.devRef .tc main_arg14) = (argsOf V0).fb0 :=
  (val10_keep V0 main_arg14 (by decide)).trans (val9_main_arg14 V0)
theorem val10_main_arg15 (V0 : Valuation τ sig (Elt F)) : val10 V0 (Proc.devRef .tc main_arg15) = (argsOf V0).F1 :=
  (val10_keep V0 main_arg15 (by decide)).trans (val9_main_arg15 V0)
theorem val10_main_arg16 (V0 : Valuation τ sig (Elt F)) : val10 V0 (Proc.devRef .tc main_arg16) = (argsOf V0).fb1 :=
  (val10_keep V0 main_arg16 (by decide)).trans (val9_main_arg16 V0)
theorem val10_main_arg17 (V0 : Valuation τ sig (Elt F)) : val10 V0 (Proc.devRef .tc main_arg17) = (argsOf V0).g1 :=
  (val10_keep V0 main_arg17 (by decide)).trans (val9_main_arg17 V0)
theorem val10_main_arg18 (V0 : Valuation τ sig (Elt F)) : val10 V0 (Proc.devRef .tc main_arg18) = (argsOf V0).be1 :=
  (val10_keep V0 main_arg18 (by decide)).trans (val9_main_arg18 V0)
theorem val10_main_arg19 (V0 : Valuation τ sig (Elt F)) : val10 V0 (Proc.devRef .tc main_arg19) = (argsOf V0).g2 :=
  (val10_keep V0 main_arg19 (by decide)).trans (val9_main_arg19 V0)
theorem val10_main_arg20 (V0 : Valuation τ sig (Elt F)) : val10 V0 (Proc.devRef .tc main_arg20) = (argsOf V0).be2 :=
  (val10_keep V0 main_arg20 (by decide)).trans (val9_main_arg20 V0)
theorem val10_main_v44 (V0 : Valuation τ sig (Elt F)) : val10 V0 (Proc.devRef .tc main_v44) = res_main_v44 (argsOf V0) :=
  (opsW10_main_v44 (val9 V0)).trans (by rw [val9_main_v37 V0]; rfl)

/-- The contents after the first 11 stages. -/
def val11 (V0 : Valuation τ sig (Elt F)) : Valuation τ sig (Elt F) := after opsW11 (val10 V0)
theorem val11_keep (V0 : Valuation τ sig (Elt F)) (r : Ref sig .tc) (h : r ∉ opsW11_W) :
    val11 V0 (Proc.devRef .tc r) = val10 V0 (Proc.devRef .tc r) := opsW11_keep _ r h
theorem val11_main_arg0 (V0 : Valuation τ sig (Elt F)) : val11 V0 (Proc.devRef .tc main_arg0) = (argsOf V0).Vn :=
  (val11_keep V0 main_arg0 (by decide)).trans (val10_main_arg0 V0)
theorem val11_main_arg1 (V0 : Valuation τ sig (Elt F)) : val11 V0 (Proc.devRef .tc main_arg1) = (argsOf V0).Vo :=
  (val11_keep V0 main_arg1 (by decide)).trans (val10_main_arg1 V0)
theorem val11_main_arg2 (V0 : Valuation τ sig (Elt F)) : val11 V0 (Proc.devRef .tc main_arg2) = (argsOf V0).E :=
  (val11_keep V0 main_arg2 (by decide)).trans (val10_main_arg2 V0)
theorem val11_main_arg3 (V0 : Valuation τ sig (Elt F)) : val11 V0 (Proc.devRef .tc main_arg3) = (argsOf V0).K :=
  (val11_keep V0 main_arg3 (by decide)).trans (val10_main_arg3 V0)
theorem val11_main_arg4 (V0 : Valuation τ sig (Elt F)) : val11 V0 (Proc.devRef .tc main_arg4) = (argsOf V0).S :=
  (val11_keep V0 main_arg4 (by decide)).trans (val10_main_arg4 V0)
theorem val11_main_arg5 (V0 : Valuation τ sig (Elt F)) : val11 V0 (Proc.devRef .tc main_arg5) = (argsOf V0).em :=
  (val11_keep V0 main_arg5 (by decide)).trans (val10_main_arg5 V0)
theorem val11_main_arg6 (V0 : Valuation τ sig (Elt F)) : val11 V0 (Proc.devRef .tc main_arg6) = (argsOf V0).ar :=
  (val11_keep V0 main_arg6 (by decide)).trans (val10_main_arg6 V0)
theorem val11_main_arg7 (V0 : Valuation τ sig (Elt F)) : val11 V0 (Proc.devRef .tc main_arg7) = (argsOf V0).W0 :=
  (val11_keep V0 main_arg7 (by decide)).trans (val10_main_arg7 V0)
theorem val11_main_arg8 (V0 : Valuation τ sig (Elt F)) : val11 V0 (Proc.devRef .tc main_arg8) = (argsOf V0).b0 :=
  (val11_keep V0 main_arg8 (by decide)).trans (val10_main_arg8 V0)
theorem val11_main_arg9 (V0 : Valuation τ sig (Elt F)) : val11 V0 (Proc.devRef .tc main_arg9) = (argsOf V0).W1 :=
  (val11_keep V0 main_arg9 (by decide)).trans (val10_main_arg9 V0)
theorem val11_main_arg10 (V0 : Valuation τ sig (Elt F)) : val11 V0 (Proc.devRef .tc main_arg10) = (argsOf V0).b1 :=
  (val11_keep V0 main_arg10 (by decide)).trans (val10_main_arg10 V0)
theorem val11_main_arg11 (V0 : Valuation τ sig (Elt F)) : val11 V0 (Proc.devRef .tc main_arg11) = (argsOf V0).W2 :=
  (val11_keep V0 main_arg11 (by decide)).trans (val10_main_arg11 V0)
theorem val11_main_arg12 (V0 : Valuation τ sig (Elt F)) : val11 V0 (Proc.devRef .tc main_arg12) = (argsOf V0).b2 :=
  (val11_keep V0 main_arg12 (by decide)).trans (val10_main_arg12 V0)
theorem val11_main_arg13 (V0 : Valuation τ sig (Elt F)) : val11 V0 (Proc.devRef .tc main_arg13) = (argsOf V0).F0 :=
  (val11_keep V0 main_arg13 (by decide)).trans (val10_main_arg13 V0)
theorem val11_main_arg14 (V0 : Valuation τ sig (Elt F)) : val11 V0 (Proc.devRef .tc main_arg14) = (argsOf V0).fb0 :=
  (val11_keep V0 main_arg14 (by decide)).trans (val10_main_arg14 V0)
theorem val11_main_arg15 (V0 : Valuation τ sig (Elt F)) : val11 V0 (Proc.devRef .tc main_arg15) = (argsOf V0).F1 :=
  (val11_keep V0 main_arg15 (by decide)).trans (val10_main_arg15 V0)
theorem val11_main_arg16 (V0 : Valuation τ sig (Elt F)) : val11 V0 (Proc.devRef .tc main_arg16) = (argsOf V0).fb1 :=
  (val11_keep V0 main_arg16 (by decide)).trans (val10_main_arg16 V0)
theorem val11_main_arg17 (V0 : Valuation τ sig (Elt F)) : val11 V0 (Proc.devRef .tc main_arg17) = (argsOf V0).g1 :=
  (val11_keep V0 main_arg17 (by decide)).trans (val10_main_arg17 V0)
theorem val11_main_arg18 (V0 : Valuation τ sig (Elt F)) : val11 V0 (Proc.devRef .tc main_arg18) = (argsOf V0).be1 :=
  (val11_keep V0 main_arg18 (by decide)).trans (val10_main_arg18 V0)
theorem val11_main_arg19 (V0 : Valuation τ sig (Elt F)) : val11 V0 (Proc.devRef .tc main_arg19) = (argsOf V0).g2 :=
  (val11_keep V0 main_arg19 (by decide)).trans (val10_main_arg19 V0)
theorem val11_main_arg20 (V0 : Valuation τ sig (Elt F)) : val11 V0 (Proc.devRef .tc main_arg20) = (argsOf V0).be2 :=
  (val11_keep V0 main_arg20 (by decide)).trans (val10_main_arg20 V0)
theorem val11_main_v53 (V0 : Valuation τ sig (Elt F)) : val11 V0 (Proc.devRef .tc main_v53) = res_main_v53 (argsOf V0) :=
  (opsW11_main_v53 (val10 V0)).trans (by rw [val10_main_arg0 V0, val10_main_v44 V0, val10_main_arg11 V0, val10_main_arg12 V0, val10_main_arg5 V0]; rfl)

/-- The contents after the first 12 stages. -/
def val12 (V0 : Valuation τ sig (Elt F)) : Valuation τ sig (Elt F) := after opsW12 (val11 V0)
theorem val12_keep (V0 : Valuation τ sig (Elt F)) (r : Ref sig .tc) (h : r ∉ opsW12_W) :
    val12 V0 (Proc.devRef .tc r) = val11 V0 (Proc.devRef .tc r) := opsW12_keep _ r h
theorem val12_main_arg0 (V0 : Valuation τ sig (Elt F)) : val12 V0 (Proc.devRef .tc main_arg0) = (argsOf V0).Vn :=
  (val12_keep V0 main_arg0 (by decide)).trans (val11_main_arg0 V0)
theorem val12_main_arg1 (V0 : Valuation τ sig (Elt F)) : val12 V0 (Proc.devRef .tc main_arg1) = (argsOf V0).Vo :=
  (val12_keep V0 main_arg1 (by decide)).trans (val11_main_arg1 V0)
theorem val12_main_arg2 (V0 : Valuation τ sig (Elt F)) : val12 V0 (Proc.devRef .tc main_arg2) = (argsOf V0).E :=
  (val12_keep V0 main_arg2 (by decide)).trans (val11_main_arg2 V0)
theorem val12_main_arg3 (V0 : Valuation τ sig (Elt F)) : val12 V0 (Proc.devRef .tc main_arg3) = (argsOf V0).K :=
  (val12_keep V0 main_arg3 (by decide)).trans (val11_main_arg3 V0)
theorem val12_main_arg4 (V0 : Valuation τ sig (Elt F)) : val12 V0 (Proc.devRef .tc main_arg4) = (argsOf V0).S :=
  (val12_keep V0 main_arg4 (by decide)).trans (val11_main_arg4 V0)
theorem val12_main_arg5 (V0 : Valuation τ sig (Elt F)) : val12 V0 (Proc.devRef .tc main_arg5) = (argsOf V0).em :=
  (val12_keep V0 main_arg5 (by decide)).trans (val11_main_arg5 V0)
theorem val12_main_arg6 (V0 : Valuation τ sig (Elt F)) : val12 V0 (Proc.devRef .tc main_arg6) = (argsOf V0).ar :=
  (val12_keep V0 main_arg6 (by decide)).trans (val11_main_arg6 V0)
theorem val12_main_arg7 (V0 : Valuation τ sig (Elt F)) : val12 V0 (Proc.devRef .tc main_arg7) = (argsOf V0).W0 :=
  (val12_keep V0 main_arg7 (by decide)).trans (val11_main_arg7 V0)
theorem val12_main_arg8 (V0 : Valuation τ sig (Elt F)) : val12 V0 (Proc.devRef .tc main_arg8) = (argsOf V0).b0 :=
  (val12_keep V0 main_arg8 (by decide)).trans (val11_main_arg8 V0)
theorem val12_main_arg9 (V0 : Valuation τ sig (Elt F)) : val12 V0 (Proc.devRef .tc main_arg9) = (argsOf V0).W1 :=
  (val12_keep V0 main_arg9 (by decide)).trans (val11_main_arg9 V0)
theorem val12_main_arg10 (V0 : Valuation τ sig (Elt F)) : val12 V0 (Proc.devRef .tc main_arg10) = (argsOf V0).b1 :=
  (val12_keep V0 main_arg10 (by decide)).trans (val11_main_arg10 V0)
theorem val12_main_arg11 (V0 : Valuation τ sig (Elt F)) : val12 V0 (Proc.devRef .tc main_arg11) = (argsOf V0).W2 :=
  (val12_keep V0 main_arg11 (by decide)).trans (val11_main_arg11 V0)
theorem val12_main_arg12 (V0 : Valuation τ sig (Elt F)) : val12 V0 (Proc.devRef .tc main_arg12) = (argsOf V0).b2 :=
  (val12_keep V0 main_arg12 (by decide)).trans (val11_main_arg12 V0)
theorem val12_main_arg13 (V0 : Valuation τ sig (Elt F)) : val12 V0 (Proc.devRef .tc main_arg13) = (argsOf V0).F0 :=
  (val12_keep V0 main_arg13 (by decide)).trans (val11_main_arg13 V0)
theorem val12_main_arg14 (V0 : Valuation τ sig (Elt F)) : val12 V0 (Proc.devRef .tc main_arg14) = (argsOf V0).fb0 :=
  (val12_keep V0 main_arg14 (by decide)).trans (val11_main_arg14 V0)
theorem val12_main_arg15 (V0 : Valuation τ sig (Elt F)) : val12 V0 (Proc.devRef .tc main_arg15) = (argsOf V0).F1 :=
  (val12_keep V0 main_arg15 (by decide)).trans (val11_main_arg15 V0)
theorem val12_main_arg16 (V0 : Valuation τ sig (Elt F)) : val12 V0 (Proc.devRef .tc main_arg16) = (argsOf V0).fb1 :=
  (val12_keep V0 main_arg16 (by decide)).trans (val11_main_arg16 V0)
theorem val12_main_arg17 (V0 : Valuation τ sig (Elt F)) : val12 V0 (Proc.devRef .tc main_arg17) = (argsOf V0).g1 :=
  (val12_keep V0 main_arg17 (by decide)).trans (val11_main_arg17 V0)
theorem val12_main_arg18 (V0 : Valuation τ sig (Elt F)) : val12 V0 (Proc.devRef .tc main_arg18) = (argsOf V0).be1 :=
  (val12_keep V0 main_arg18 (by decide)).trans (val11_main_arg18 V0)
theorem val12_main_arg19 (V0 : Valuation τ sig (Elt F)) : val12 V0 (Proc.devRef .tc main_arg19) = (argsOf V0).g2 :=
  (val12_keep V0 main_arg19 (by decide)).trans (val11_main_arg19 V0)
theorem val12_main_arg20 (V0 : Valuation τ sig (Elt F)) : val12 V0 (Proc.devRef .tc main_arg20) = (argsOf V0).be2 :=
  (val12_keep V0 main_arg20 (by decide)).trans (val11_main_arg20 V0)
theorem val12_main_v53 (V0 : Valuation τ sig (Elt F)) : val12 V0 (Proc.devRef .tc main_v53) = res_main_v53 (argsOf V0) :=
  (val12_keep V0 main_v53 (by decide)).trans (val11_main_v53 V0)
theorem val12_main_cst_4 (V0 : Valuation τ sig (Elt F)) : val12 V0 (Proc.devRef .tc main_cst_4) = res_main_cst_4 (argsOf V0) :=
  (opsW12_main_cst_4 (val11 V0)).trans (by rfl)

/-- The contents after the first 13 stages. -/
def val13 (V0 : Valuation τ sig (Elt F)) : Valuation τ sig (Elt F) := after opsW13 (val12 V0)
theorem val13_keep (V0 : Valuation τ sig (Elt F)) (r : Ref sig .tc) (h : r ∉ opsW13_W) :
    val13 V0 (Proc.devRef .tc r) = val12 V0 (Proc.devRef .tc r) := opsW13_keep _ r h
theorem val13_main_arg0 (V0 : Valuation τ sig (Elt F)) : val13 V0 (Proc.devRef .tc main_arg0) = (argsOf V0).Vn :=
  (val13_keep V0 main_arg0 (by decide)).trans (val12_main_arg0 V0)
theorem val13_main_arg1 (V0 : Valuation τ sig (Elt F)) : val13 V0 (Proc.devRef .tc main_arg1) = (argsOf V0).Vo :=
  (val13_keep V0 main_arg1 (by decide)).trans (val12_main_arg1 V0)
theorem val13_main_arg2 (V0 : Valuation τ sig (Elt F)) : val13 V0 (Proc.devRef .tc main_arg2) = (argsOf V0).E :=
  (val13_keep V0 main_arg2 (by decide)).trans (val12_main_arg2 V0)
theorem val13_main_arg3 (V0 : Valuation τ sig (Elt F)) : val13 V0 (Proc.devRef .tc main_arg3) = (argsOf V0).K :=
  (val13_keep V0 main_arg3 (by decide)).trans (val12_main_arg3 V0)
theorem val13_main_arg4 (V0 : Valuation τ sig (Elt F)) : val13 V0 (Proc.devRef .tc main_arg4) = (argsOf V0).S :=
  (val13_keep V0 main_arg4 (by decide)).trans (val12_main_arg4 V0)
theorem val13_main_arg5 (V0 : Valuation τ sig (Elt F)) : val13 V0 (Proc.devRef .tc main_arg5) = (argsOf V0).em :=
  (val13_keep V0 main_arg5 (by decide)).trans (val12_main_arg5 V0)
theorem val13_main_arg6 (V0 : Valuation τ sig (Elt F)) : val13 V0 (Proc.devRef .tc main_arg6) = (argsOf V0).ar :=
  (val13_keep V0 main_arg6 (by decide)).trans (val12_main_arg6 V0)
theorem val13_main_arg7 (V0 : Valuation τ sig (Elt F)) : val13 V0 (Proc.devRef .tc main_arg7) = (argsOf V0).W0 :=
  (val13_keep V0 main_arg7 (by decide)).trans (val12_main_arg7 V0)
theorem val13_main_arg8 (V0 : Valuation τ sig (Elt F)) : val13 V0 (Proc.devRef .tc main_arg8) = (argsOf V0).b0 :=
  (val13_keep V0 main_arg8 (by decide)).trans (val12_main_arg8 V0)
theorem val13_main_arg9 (V0 : Valuation τ sig (Elt F)) : val13 V0 (Proc.devRef .tc main_arg9) = (argsOf V0).W1 :=
  (val13_keep V0 main_arg9 (by decide)).trans (val12_main_arg9 V0)
theorem val13_main_arg10 (V0 : Valuation τ sig (Elt F)) : val13 V0 (Proc.devRef .tc main_arg10) = (argsOf V0).b1 :=
  (val13_keep V0 main_arg10 (by decide)).trans (val12_main_arg10 V0)
theorem val13_main_arg11 (V0 : Valuation τ sig (Elt F)) : val13 V0 (Proc.devRef .tc main_arg11) = (argsOf V0).W2 :=
  (val13_keep V0 main_arg11 (by decide)).trans (val12_main_arg11 V0)
theorem val13_main_arg12 (V0 : Valuation τ sig (Elt F)) : val13 V0 (Proc.devRef .tc main_arg12) = (argsOf V0).b2 :=
  (val13_keep V0 main_arg12 (by decide)).trans (val12_main_arg12 V0)
theorem val13_main_arg13 (V0 : Valuation τ sig (Elt F)) : val13 V0 (Proc.devRef .tc main_arg13) = (argsOf V0).F0 :=
  (val13_keep V0 main_arg13 (by decide)).trans (val12_main_arg13 V0)
theorem val13_main_arg14 (V0 : Valuation τ sig (Elt F)) : val13 V0 (Proc.devRef .tc main_arg14) = (argsOf V0).fb0 :=
  (val13_keep V0 main_arg14 (by decide)).trans (val12_main_arg14 V0)
theorem val13_main_arg15 (V0 : Valuation τ sig (Elt F)) : val13 V0 (Proc.devRef .tc main_arg15) = (argsOf V0).F1 :=
  (val13_keep V0 main_arg15 (by decide)).trans (val12_main_arg15 V0)
theorem val13_main_arg16 (V0 : Valuation τ sig (Elt F)) : val13 V0 (Proc.devRef .tc main_arg16) = (argsOf V0).fb1 :=
  (val13_keep V0 main_arg16 (by decide)).trans (val12_main_arg16 V0)
theorem val13_main_arg17 (V0 : Valuation τ sig (Elt F)) : val13 V0 (Proc.devRef .tc main_arg17) = (argsOf V0).g1 :=
  (val13_keep V0 main_arg17 (by decide)).trans (val12_main_arg17 V0)
theorem val13_main_arg18 (V0 : Valuation τ sig (Elt F)) : val13 V0 (Proc.devRef .tc main_arg18) = (argsOf V0).be1 :=
  (val13_keep V0 main_arg18 (by decide)).trans (val12_main_arg18 V0)
theorem val13_main_arg19 (V0 : Valuation τ sig (Elt F)) : val13 V0 (Proc.devRef .tc main_arg19) = (argsOf V0).g2 :=
  (val13_keep V0 main_arg19 (by decide)).trans (val12_main_arg19 V0)
theorem val13_main_arg20 (V0 : Valuation τ sig (Elt F)) : val13 V0 (Proc.devRef .tc main_arg20) = (argsOf V0).be2 :=
  (val13_keep V0 main_arg20 (by decide)).trans (val12_main_arg20 V0)
theorem val13_main_v53 (V0 : Valuation τ sig (Elt F)) : val13 V0 (Proc.devRef .tc main_v53) = res_main_v53 (argsOf V0) :=
  (val13_keep V0 main_v53 (by decide)).trans (val12_main_v53 V0)
theorem val13_main_v57 (V0 : Valuation τ sig (Elt F)) : val13 V0 (Proc.devRef .tc main_v57) = res_main_v57 (argsOf V0) :=
  (opsW13_main_v57 (val12 V0)).trans (by rw [val12_main_v53 V0, val12_main_cst_4 V0]; rfl)
theorem val13_main_c (V0 : Valuation τ sig (Elt F)) : val13 V0 (Proc.devRef .tc main_c) = res_main_c (argsOf V0) :=
  (opsW13_main_c (val12 V0)).trans (by rfl)

/-- The contents after the first 14 stages. -/
def val14 (V0 : Valuation τ sig (Elt F)) : Valuation τ sig (Elt F) := after opsW14 (val13 V0)
theorem val14_keep (V0 : Valuation τ sig (Elt F)) (r : Ref sig .tc) (h : r ∉ opsW14_W) :
    val14 V0 (Proc.devRef .tc r) = val13 V0 (Proc.devRef .tc r) := opsW14_keep _ r h
theorem val14_main_arg0 (V0 : Valuation τ sig (Elt F)) : val14 V0 (Proc.devRef .tc main_arg0) = (argsOf V0).Vn :=
  (val14_keep V0 main_arg0 (by decide)).trans (val13_main_arg0 V0)
theorem val14_main_arg1 (V0 : Valuation τ sig (Elt F)) : val14 V0 (Proc.devRef .tc main_arg1) = (argsOf V0).Vo :=
  (val14_keep V0 main_arg1 (by decide)).trans (val13_main_arg1 V0)
theorem val14_main_arg2 (V0 : Valuation τ sig (Elt F)) : val14 V0 (Proc.devRef .tc main_arg2) = (argsOf V0).E :=
  (val14_keep V0 main_arg2 (by decide)).trans (val13_main_arg2 V0)
theorem val14_main_arg3 (V0 : Valuation τ sig (Elt F)) : val14 V0 (Proc.devRef .tc main_arg3) = (argsOf V0).K :=
  (val14_keep V0 main_arg3 (by decide)).trans (val13_main_arg3 V0)
theorem val14_main_arg4 (V0 : Valuation τ sig (Elt F)) : val14 V0 (Proc.devRef .tc main_arg4) = (argsOf V0).S :=
  (val14_keep V0 main_arg4 (by decide)).trans (val13_main_arg4 V0)
theorem val14_main_arg5 (V0 : Valuation τ sig (Elt F)) : val14 V0 (Proc.devRef .tc main_arg5) = (argsOf V0).em :=
  (val14_keep V0 main_arg5 (by decide)).trans (val13_main_arg5 V0)
theorem val14_main_arg6 (V0 : Valuation τ sig (Elt F)) : val14 V0 (Proc.devRef .tc main_arg6) = (argsOf V0).ar :=
  (val14_keep V0 main_arg6 (by decide)).trans (val13_main_arg6 V0)
theorem val14_main_arg7 (V0 : Valuation τ sig (Elt F)) : val14 V0 (Proc.devRef .tc main_arg7) = (argsOf V0).W0 :=
  (val14_keep V0 main_arg7 (by decide)).trans (val13_main_arg7 V0)
theorem val14_main_arg8 (V0 : Valuation τ sig (Elt F)) : val14 V0 (Proc.devRef .tc main_arg8) = (argsOf V0).b0 :=
  (val14_keep V0 main_arg8 (by decide)).trans (val13_main_arg8 V0)
theorem val14_main_arg9 (V0 : Valuation τ sig (Elt F)) : val14 V0 (Proc.devRef .tc main_arg9) = (argsOf V0).W1 :=
  (val14_keep V0 main_arg9 (by decide)).trans (val13_main_arg9 V0)
theorem val14_main_arg10 (V0 : Valuation τ sig (Elt F)) : val14 V0 (Proc.devRef .tc main_arg10) = (argsOf V0).b1 :=
  (val14_keep V0 main_arg10 (by decide)).trans (val13_main_arg10 V0)
theorem val14_main_arg11 (V0 : Valuation τ sig (Elt F)) : val14 V0 (Proc.devRef .tc main_arg11) = (argsOf V0).W2 :=
  (val14_keep V0 main_arg11 (by decide)).trans (val13_main_arg11 V0)
theorem val14_main_arg12 (V0 : Valuation τ sig (Elt F)) : val14 V0 (Proc.devRef .tc main_arg12) = (argsOf V0).b2 :=
  (val14_keep V0 main_arg12 (by decide)).trans (val13_main_arg12 V0)
theorem val14_main_arg13 (V0 : Valuation τ sig (Elt F)) : val14 V0 (Proc.devRef .tc main_arg13) = (argsOf V0).F0 :=
  (val14_keep V0 main_arg13 (by decide)).trans (val13_main_arg13 V0)
theorem val14_main_arg14 (V0 : Valuation τ sig (Elt F)) : val14 V0 (Proc.devRef .tc main_arg14) = (argsOf V0).fb0 :=
  (val14_keep V0 main_arg14 (by decide)).trans (val13_main_arg14 V0)
theorem val14_main_arg15 (V0 : Valuation τ sig (Elt F)) : val14 V0 (Proc.devRef .tc main_arg15) = (argsOf V0).F1 :=
  (val14_keep V0 main_arg15 (by decide)).trans (val13_main_arg15 V0)
theorem val14_main_arg16 (V0 : Valuation τ sig (Elt F)) : val14 V0 (Proc.devRef .tc main_arg16) = (argsOf V0).fb1 :=
  (val14_keep V0 main_arg16 (by decide)).trans (val13_main_arg16 V0)
theorem val14_main_arg17 (V0 : Valuation τ sig (Elt F)) : val14 V0 (Proc.devRef .tc main_arg17) = (argsOf V0).g1 :=
  (val14_keep V0 main_arg17 (by decide)).trans (val13_main_arg17 V0)
theorem val14_main_arg18 (V0 : Valuation τ sig (Elt F)) : val14 V0 (Proc.devRef .tc main_arg18) = (argsOf V0).be1 :=
  (val14_keep V0 main_arg18 (by decide)).trans (val13_main_arg18 V0)
theorem val14_main_arg19 (V0 : Valuation τ sig (Elt F)) : val14 V0 (Proc.devRef .tc main_arg19) = (argsOf V0).g2 :=
  (val14_keep V0 main_arg19 (by decide)).trans (val13_main_arg19 V0)
theorem val14_main_arg20 (V0 : Valuation τ sig (Elt F)) : val14 V0 (Proc.devRef .tc main_arg20) = (argsOf V0).be2 :=
  (val14_keep V0 main_arg20 (by decide)).trans (val13_main_arg20 V0)
theorem val14_main_v53 (V0 : Valuation τ sig (Elt F)) : val14 V0 (Proc.devRef .tc main_v53) = res_main_v53 (argsOf V0) :=
  (val14_keep V0 main_v53 (by decide)).trans (val13_main_v53 V0)
theorem val14_main_v57 (V0 : Valuation τ sig (Elt F)) : val14 V0 (Proc.devRef .tc main_v57) = res_main_v57 (argsOf V0) :=
  (val14_keep V0 main_v57 (by decide)).trans (val13_main_v57 V0)
theorem val14_main_v58 (V0 : Valuation τ sig (Elt F)) : val14 V0 (Proc.devRef .tc main_v58) = res_main_v58 (argsOf V0) :=
  (opsW14_main_v58 (val13 V0)).trans (by rw [val13_main_c V0, val13_main_v53 V0]; rfl)

/-- The contents after the first 15 stages. -/
def val15 (V0 : Valuation τ sig (Elt F)) : Valuation τ sig (Elt F) := after opsW15 (val14 V0)
theorem val15_keep (V0 : Valuation τ sig (Elt F)) (r : Ref sig .tc) (h : r ∉ opsW15_W) :
    val15 V0 (Proc.devRef .tc r) = val14 V0 (Proc.devRef .tc r) := opsW15_keep _ r h
theorem val15_main_arg0 (V0 : Valuation τ sig (Elt F)) : val15 V0 (Proc.devRef .tc main_arg0) = (argsOf V0).Vn :=
  (val15_keep V0 main_arg0 (by decide)).trans (val14_main_arg0 V0)
theorem val15_main_arg1 (V0 : Valuation τ sig (Elt F)) : val15 V0 (Proc.devRef .tc main_arg1) = (argsOf V0).Vo :=
  (val15_keep V0 main_arg1 (by decide)).trans (val14_main_arg1 V0)
theorem val15_main_arg2 (V0 : Valuation τ sig (Elt F)) : val15 V0 (Proc.devRef .tc main_arg2) = (argsOf V0).E :=
  (val15_keep V0 main_arg2 (by decide)).trans (val14_main_arg2 V0)
theorem val15_main_arg3 (V0 : Valuation τ sig (Elt F)) : val15 V0 (Proc.devRef .tc main_arg3) = (argsOf V0).K :=
  (val15_keep V0 main_arg3 (by decide)).trans (val14_main_arg3 V0)
theorem val15_main_arg4 (V0 : Valuation τ sig (Elt F)) : val15 V0 (Proc.devRef .tc main_arg4) = (argsOf V0).S :=
  (val15_keep V0 main_arg4 (by decide)).trans (val14_main_arg4 V0)
theorem val15_main_arg5 (V0 : Valuation τ sig (Elt F)) : val15 V0 (Proc.devRef .tc main_arg5) = (argsOf V0).em :=
  (val15_keep V0 main_arg5 (by decide)).trans (val14_main_arg5 V0)
theorem val15_main_arg6 (V0 : Valuation τ sig (Elt F)) : val15 V0 (Proc.devRef .tc main_arg6) = (argsOf V0).ar :=
  (val15_keep V0 main_arg6 (by decide)).trans (val14_main_arg6 V0)
theorem val15_main_arg7 (V0 : Valuation τ sig (Elt F)) : val15 V0 (Proc.devRef .tc main_arg7) = (argsOf V0).W0 :=
  (val15_keep V0 main_arg7 (by decide)).trans (val14_main_arg7 V0)
theorem val15_main_arg8 (V0 : Valuation τ sig (Elt F)) : val15 V0 (Proc.devRef .tc main_arg8) = (argsOf V0).b0 :=
  (val15_keep V0 main_arg8 (by decide)).trans (val14_main_arg8 V0)
theorem val15_main_arg9 (V0 : Valuation τ sig (Elt F)) : val15 V0 (Proc.devRef .tc main_arg9) = (argsOf V0).W1 :=
  (val15_keep V0 main_arg9 (by decide)).trans (val14_main_arg9 V0)
theorem val15_main_arg10 (V0 : Valuation τ sig (Elt F)) : val15 V0 (Proc.devRef .tc main_arg10) = (argsOf V0).b1 :=
  (val15_keep V0 main_arg10 (by decide)).trans (val14_main_arg10 V0)
theorem val15_main_arg11 (V0 : Valuation τ sig (Elt F)) : val15 V0 (Proc.devRef .tc main_arg11) = (argsOf V0).W2 :=
  (val15_keep V0 main_arg11 (by decide)).trans (val14_main_arg11 V0)
theorem val15_main_arg12 (V0 : Valuation τ sig (Elt F)) : val15 V0 (Proc.devRef .tc main_arg12) = (argsOf V0).b2 :=
  (val15_keep V0 main_arg12 (by decide)).trans (val14_main_arg12 V0)
theorem val15_main_arg13 (V0 : Valuation τ sig (Elt F)) : val15 V0 (Proc.devRef .tc main_arg13) = (argsOf V0).F0 :=
  (val15_keep V0 main_arg13 (by decide)).trans (val14_main_arg13 V0)
theorem val15_main_arg14 (V0 : Valuation τ sig (Elt F)) : val15 V0 (Proc.devRef .tc main_arg14) = (argsOf V0).fb0 :=
  (val15_keep V0 main_arg14 (by decide)).trans (val14_main_arg14 V0)
theorem val15_main_arg15 (V0 : Valuation τ sig (Elt F)) : val15 V0 (Proc.devRef .tc main_arg15) = (argsOf V0).F1 :=
  (val15_keep V0 main_arg15 (by decide)).trans (val14_main_arg15 V0)
theorem val15_main_arg16 (V0 : Valuation τ sig (Elt F)) : val15 V0 (Proc.devRef .tc main_arg16) = (argsOf V0).fb1 :=
  (val15_keep V0 main_arg16 (by decide)).trans (val14_main_arg16 V0)
theorem val15_main_arg17 (V0 : Valuation τ sig (Elt F)) : val15 V0 (Proc.devRef .tc main_arg17) = (argsOf V0).g1 :=
  (val15_keep V0 main_arg17 (by decide)).trans (val14_main_arg17 V0)
theorem val15_main_arg18 (V0 : Valuation τ sig (Elt F)) : val15 V0 (Proc.devRef .tc main_arg18) = (argsOf V0).be1 :=
  (val15_keep V0 main_arg18 (by decide)).trans (val14_main_arg18 V0)
theorem val15_main_arg19 (V0 : Valuation τ sig (Elt F)) : val15 V0 (Proc.devRef .tc main_arg19) = (argsOf V0).g2 :=
  (val15_keep V0 main_arg19 (by decide)).trans (val14_main_arg19 V0)
theorem val15_main_arg20 (V0 : Valuation τ sig (Elt F)) : val15 V0 (Proc.devRef .tc main_arg20) = (argsOf V0).be2 :=
  (val15_keep V0 main_arg20 (by decide)).trans (val14_main_arg20 V0)
theorem val15_main_v68 (V0 : Valuation τ sig (Elt F)) : val15 V0 (Proc.devRef .tc main_v68) = res_main_v68 (argsOf V0) :=
  (opsW15_main_v68 (val14 V0)).trans (by rw [val14_main_v53 V0, val14_main_v57 V0, val14_main_v58 V0, val14_main_arg17 V0]; rfl)
theorem val15_main_v70 (V0 : Valuation τ sig (Elt F)) : val15 V0 (Proc.devRef .tc main_v70) = res_main_v70 (argsOf V0) :=
  (opsW15_main_v70 (val14 V0)).trans (by rw [val14_main_arg18 V0]; rfl)

/-- The contents after the first 16 stages. -/
def val16 (V0 : Valuation τ sig (Elt F)) : Valuation τ sig (Elt F) := after opsW16 (val15 V0)
theorem val16_keep (V0 : Valuation τ sig (Elt F)) (r : Ref sig .tc) (h : r ∉ opsW16_W) :
    val16 V0 (Proc.devRef .tc r) = val15 V0 (Proc.devRef .tc r) := opsW16_keep _ r h
theorem val16_main_arg0 (V0 : Valuation τ sig (Elt F)) : val16 V0 (Proc.devRef .tc main_arg0) = (argsOf V0).Vn :=
  (val16_keep V0 main_arg0 (by decide)).trans (val15_main_arg0 V0)
theorem val16_main_arg1 (V0 : Valuation τ sig (Elt F)) : val16 V0 (Proc.devRef .tc main_arg1) = (argsOf V0).Vo :=
  (val16_keep V0 main_arg1 (by decide)).trans (val15_main_arg1 V0)
theorem val16_main_arg2 (V0 : Valuation τ sig (Elt F)) : val16 V0 (Proc.devRef .tc main_arg2) = (argsOf V0).E :=
  (val16_keep V0 main_arg2 (by decide)).trans (val15_main_arg2 V0)
theorem val16_main_arg3 (V0 : Valuation τ sig (Elt F)) : val16 V0 (Proc.devRef .tc main_arg3) = (argsOf V0).K :=
  (val16_keep V0 main_arg3 (by decide)).trans (val15_main_arg3 V0)
theorem val16_main_arg4 (V0 : Valuation τ sig (Elt F)) : val16 V0 (Proc.devRef .tc main_arg4) = (argsOf V0).S :=
  (val16_keep V0 main_arg4 (by decide)).trans (val15_main_arg4 V0)
theorem val16_main_arg5 (V0 : Valuation τ sig (Elt F)) : val16 V0 (Proc.devRef .tc main_arg5) = (argsOf V0).em :=
  (val16_keep V0 main_arg5 (by decide)).trans (val15_main_arg5 V0)
theorem val16_main_arg6 (V0 : Valuation τ sig (Elt F)) : val16 V0 (Proc.devRef .tc main_arg6) = (argsOf V0).ar :=
  (val16_keep V0 main_arg6 (by decide)).trans (val15_main_arg6 V0)
theorem val16_main_arg7 (V0 : Valuation τ sig (Elt F)) : val16 V0 (Proc.devRef .tc main_arg7) = (argsOf V0).W0 :=
  (val16_keep V0 main_arg7 (by decide)).trans (val15_main_arg7 V0)
theorem val16_main_arg8 (V0 : Valuation τ sig (Elt F)) : val16 V0 (Proc.devRef .tc main_arg8) = (argsOf V0).b0 :=
  (val16_keep V0 main_arg8 (by decide)).trans (val15_main_arg8 V0)
theorem val16_main_arg9 (V0 : Valuation τ sig (Elt F)) : val16 V0 (Proc.devRef .tc main_arg9) = (argsOf V0).W1 :=
  (val16_keep V0 main_arg9 (by decide)).trans (val15_main_arg9 V0)
theorem val16_main_arg10 (V0 : Valuation τ sig (Elt F)) : val16 V0 (Proc.devRef .tc main_arg10) = (argsOf V0).b1 :=
  (val16_keep V0 main_arg10 (by decide)).trans (val15_main_arg10 V0)
theorem val16_main_arg11 (V0 : Valuation τ sig (Elt F)) : val16 V0 (Proc.devRef .tc main_arg11) = (argsOf V0).W2 :=
  (val16_keep V0 main_arg11 (by decide)).trans (val15_main_arg11 V0)
theorem val16_main_arg12 (V0 : Valuation τ sig (Elt F)) : val16 V0 (Proc.devRef .tc main_arg12) = (argsOf V0).b2 :=
  (val16_keep V0 main_arg12 (by decide)).trans (val15_main_arg12 V0)
theorem val16_main_arg13 (V0 : Valuation τ sig (Elt F)) : val16 V0 (Proc.devRef .tc main_arg13) = (argsOf V0).F0 :=
  (val16_keep V0 main_arg13 (by decide)).trans (val15_main_arg13 V0)
theorem val16_main_arg14 (V0 : Valuation τ sig (Elt F)) : val16 V0 (Proc.devRef .tc main_arg14) = (argsOf V0).fb0 :=
  (val16_keep V0 main_arg14 (by decide)).trans (val15_main_arg14 V0)
theorem val16_main_arg15 (V0 : Valuation τ sig (Elt F)) : val16 V0 (Proc.devRef .tc main_arg15) = (argsOf V0).F1 :=
  (val16_keep V0 main_arg15 (by decide)).trans (val15_main_arg15 V0)
theorem val16_main_arg16 (V0 : Valuation τ sig (Elt F)) : val16 V0 (Proc.devRef .tc main_arg16) = (argsOf V0).fb1 :=
  (val16_keep V0 main_arg16 (by decide)).trans (val15_main_arg16 V0)
theorem val16_main_arg17 (V0 : Valuation τ sig (Elt F)) : val16 V0 (Proc.devRef .tc main_arg17) = (argsOf V0).g1 :=
  (val16_keep V0 main_arg17 (by decide)).trans (val15_main_arg17 V0)
theorem val16_main_arg18 (V0 : Valuation τ sig (Elt F)) : val16 V0 (Proc.devRef .tc main_arg18) = (argsOf V0).be1 :=
  (val16_keep V0 main_arg18 (by decide)).trans (val15_main_arg18 V0)
theorem val16_main_arg19 (V0 : Valuation τ sig (Elt F)) : val16 V0 (Proc.devRef .tc main_arg19) = (argsOf V0).g2 :=
  (val16_keep V0 main_arg19 (by decide)).trans (val15_main_arg19 V0)
theorem val16_main_arg20 (V0 : Valuation τ sig (Elt F)) : val16 V0 (Proc.devRef .tc main_arg20) = (argsOf V0).be2 :=
  (val16_keep V0 main_arg20 (by decide)).trans (val15_main_arg20 V0)
theorem val16_main_v71 (V0 : Valuation τ sig (Elt F)) : val16 V0 (Proc.devRef .tc main_v71) = res_main_v71 (argsOf V0) :=
  (opsW16_main_v71 (val15 V0)).trans (by rw [val15_main_v68 V0, val15_main_v70 V0]; rfl)

/-- The contents after the first 17 stages. -/
def val17 (V0 : Valuation τ sig (Elt F)) : Valuation τ sig (Elt F) := after opsW17 (val16 V0)
theorem val17_keep (V0 : Valuation τ sig (Elt F)) (r : Ref sig .tc) (h : r ∉ opsW17_W) :
    val17 V0 (Proc.devRef .tc r) = val16 V0 (Proc.devRef .tc r) := opsW17_keep _ r h
theorem val17_main_arg0 (V0 : Valuation τ sig (Elt F)) : val17 V0 (Proc.devRef .tc main_arg0) = (argsOf V0).Vn :=
  (val17_keep V0 main_arg0 (by decide)).trans (val16_main_arg0 V0)
theorem val17_main_arg1 (V0 : Valuation τ sig (Elt F)) : val17 V0 (Proc.devRef .tc main_arg1) = (argsOf V0).Vo :=
  (val17_keep V0 main_arg1 (by decide)).trans (val16_main_arg1 V0)
theorem val17_main_arg2 (V0 : Valuation τ sig (Elt F)) : val17 V0 (Proc.devRef .tc main_arg2) = (argsOf V0).E :=
  (val17_keep V0 main_arg2 (by decide)).trans (val16_main_arg2 V0)
theorem val17_main_arg3 (V0 : Valuation τ sig (Elt F)) : val17 V0 (Proc.devRef .tc main_arg3) = (argsOf V0).K :=
  (val17_keep V0 main_arg3 (by decide)).trans (val16_main_arg3 V0)
theorem val17_main_arg4 (V0 : Valuation τ sig (Elt F)) : val17 V0 (Proc.devRef .tc main_arg4) = (argsOf V0).S :=
  (val17_keep V0 main_arg4 (by decide)).trans (val16_main_arg4 V0)
theorem val17_main_arg5 (V0 : Valuation τ sig (Elt F)) : val17 V0 (Proc.devRef .tc main_arg5) = (argsOf V0).em :=
  (val17_keep V0 main_arg5 (by decide)).trans (val16_main_arg5 V0)
theorem val17_main_arg6 (V0 : Valuation τ sig (Elt F)) : val17 V0 (Proc.devRef .tc main_arg6) = (argsOf V0).ar :=
  (val17_keep V0 main_arg6 (by decide)).trans (val16_main_arg6 V0)
theorem val17_main_arg7 (V0 : Valuation τ sig (Elt F)) : val17 V0 (Proc.devRef .tc main_arg7) = (argsOf V0).W0 :=
  (val17_keep V0 main_arg7 (by decide)).trans (val16_main_arg7 V0)
theorem val17_main_arg8 (V0 : Valuation τ sig (Elt F)) : val17 V0 (Proc.devRef .tc main_arg8) = (argsOf V0).b0 :=
  (val17_keep V0 main_arg8 (by decide)).trans (val16_main_arg8 V0)
theorem val17_main_arg9 (V0 : Valuation τ sig (Elt F)) : val17 V0 (Proc.devRef .tc main_arg9) = (argsOf V0).W1 :=
  (val17_keep V0 main_arg9 (by decide)).trans (val16_main_arg9 V0)
theorem val17_main_arg10 (V0 : Valuation τ sig (Elt F)) : val17 V0 (Proc.devRef .tc main_arg10) = (argsOf V0).b1 :=
  (val17_keep V0 main_arg10 (by decide)).trans (val16_main_arg10 V0)
theorem val17_main_arg11 (V0 : Valuation τ sig (Elt F)) : val17 V0 (Proc.devRef .tc main_arg11) = (argsOf V0).W2 :=
  (val17_keep V0 main_arg11 (by decide)).trans (val16_main_arg11 V0)
theorem val17_main_arg12 (V0 : Valuation τ sig (Elt F)) : val17 V0 (Proc.devRef .tc main_arg12) = (argsOf V0).b2 :=
  (val17_keep V0 main_arg12 (by decide)).trans (val16_main_arg12 V0)
theorem val17_main_arg13 (V0 : Valuation τ sig (Elt F)) : val17 V0 (Proc.devRef .tc main_arg13) = (argsOf V0).F0 :=
  (val17_keep V0 main_arg13 (by decide)).trans (val16_main_arg13 V0)
theorem val17_main_arg14 (V0 : Valuation τ sig (Elt F)) : val17 V0 (Proc.devRef .tc main_arg14) = (argsOf V0).fb0 :=
  (val17_keep V0 main_arg14 (by decide)).trans (val16_main_arg14 V0)
theorem val17_main_arg15 (V0 : Valuation τ sig (Elt F)) : val17 V0 (Proc.devRef .tc main_arg15) = (argsOf V0).F1 :=
  (val17_keep V0 main_arg15 (by decide)).trans (val16_main_arg15 V0)
theorem val17_main_arg16 (V0 : Valuation τ sig (Elt F)) : val17 V0 (Proc.devRef .tc main_arg16) = (argsOf V0).fb1 :=
  (val17_keep V0 main_arg16 (by decide)).trans (val16_main_arg16 V0)
theorem val17_main_arg17 (V0 : Valuation τ sig (Elt F)) : val17 V0 (Proc.devRef .tc main_arg17) = (argsOf V0).g1 :=
  (val17_keep V0 main_arg17 (by decide)).trans (val16_main_arg17 V0)
theorem val17_main_arg18 (V0 : Valuation τ sig (Elt F)) : val17 V0 (Proc.devRef .tc main_arg18) = (argsOf V0).be1 :=
  (val17_keep V0 main_arg18 (by decide)).trans (val16_main_arg18 V0)
theorem val17_main_arg19 (V0 : Valuation τ sig (Elt F)) : val17 V0 (Proc.devRef .tc main_arg19) = (argsOf V0).g2 :=
  (val17_keep V0 main_arg19 (by decide)).trans (val16_main_arg19 V0)
theorem val17_main_arg20 (V0 : Valuation τ sig (Elt F)) : val17 V0 (Proc.devRef .tc main_arg20) = (argsOf V0).be2 :=
  (val17_keep V0 main_arg20 (by decide)).trans (val16_main_arg20 V0)
theorem val17_main_v71 (V0 : Valuation τ sig (Elt F)) : val17 V0 (Proc.devRef .tc main_v71) = res_main_v71 (argsOf V0) :=
  (val17_keep V0 main_v71 (by decide)).trans (val16_main_v71 V0)
theorem val17_main_v75 (V0 : Valuation τ sig (Elt F)) : val17 V0 (Proc.devRef .tc main_v75) = res_main_v75 (argsOf V0) :=
  (opsW17_main_v75 (val16 V0)).trans (by rw [val16_main_v71 V0, val16_main_arg13 V0, val16_main_arg14 V0]; rfl)

/-- The contents after the first 18 stages. -/
def val18 (V0 : Valuation τ sig (Elt F)) : Valuation τ sig (Elt F) := after opsW18 (val17 V0)
theorem val18_keep (V0 : Valuation τ sig (Elt F)) (r : Ref sig .tc) (h : r ∉ opsW18_W) :
    val18 V0 (Proc.devRef .tc r) = val17 V0 (Proc.devRef .tc r) := opsW18_keep _ r h
theorem val18_main_arg0 (V0 : Valuation τ sig (Elt F)) : val18 V0 (Proc.devRef .tc main_arg0) = (argsOf V0).Vn :=
  (val18_keep V0 main_arg0 (by decide)).trans (val17_main_arg0 V0)
theorem val18_main_arg1 (V0 : Valuation τ sig (Elt F)) : val18 V0 (Proc.devRef .tc main_arg1) = (argsOf V0).Vo :=
  (val18_keep V0 main_arg1 (by decide)).trans (val17_main_arg1 V0)
theorem val18_main_arg2 (V0 : Valuation τ sig (Elt F)) : val18 V0 (Proc.devRef .tc main_arg2) = (argsOf V0).E :=
  (val18_keep V0 main_arg2 (by decide)).trans (val17_main_arg2 V0)
theorem val18_main_arg3 (V0 : Valuation τ sig (Elt F)) : val18 V0 (Proc.devRef .tc main_arg3) = (argsOf V0).K :=
  (val18_keep V0 main_arg3 (by decide)).trans (val17_main_arg3 V0)
theorem val18_main_arg4 (V0 : Valuation τ sig (Elt F)) : val18 V0 (Proc.devRef .tc main_arg4) = (argsOf V0).S :=
  (val18_keep V0 main_arg4 (by decide)).trans (val17_main_arg4 V0)
theorem val18_main_arg5 (V0 : Valuation τ sig (Elt F)) : val18 V0 (Proc.devRef .tc main_arg5) = (argsOf V0).em :=
  (val18_keep V0 main_arg5 (by decide)).trans (val17_main_arg5 V0)
theorem val18_main_arg6 (V0 : Valuation τ sig (Elt F)) : val18 V0 (Proc.devRef .tc main_arg6) = (argsOf V0).ar :=
  (val18_keep V0 main_arg6 (by decide)).trans (val17_main_arg6 V0)
theorem val18_main_arg7 (V0 : Valuation τ sig (Elt F)) : val18 V0 (Proc.devRef .tc main_arg7) = (argsOf V0).W0 :=
  (val18_keep V0 main_arg7 (by decide)).trans (val17_main_arg7 V0)
theorem val18_main_arg8 (V0 : Valuation τ sig (Elt F)) : val18 V0 (Proc.devRef .tc main_arg8) = (argsOf V0).b0 :=
  (val18_keep V0 main_arg8 (by decide)).trans (val17_main_arg8 V0)
theorem val18_main_arg9 (V0 : Valuation τ sig (Elt F)) : val18 V0 (Proc.devRef .tc main_arg9) = (argsOf V0).W1 :=
  (val18_keep V0 main_arg9 (by decide)).trans (val17_main_arg9 V0)
theorem val18_main_arg10 (V0 : Valuation τ sig (Elt F)) : val18 V0 (Proc.devRef .tc main_arg10) = (argsOf V0).b1 :=
  (val18_keep V0 main_arg10 (by decide)).trans (val17_main_arg10 V0)
theorem val18_main_arg11 (V0 : Valuation τ sig (Elt F)) : val18 V0 (Proc.devRef .tc main_arg11) = (argsOf V0).W2 :=
  (val18_keep V0 main_arg11 (by decide)).trans (val17_main_arg11 V0)
theorem val18_main_arg12 (V0 : Valuation τ sig (Elt F)) : val18 V0 (Proc.devRef .tc main_arg12) = (argsOf V0).b2 :=
  (val18_keep V0 main_arg12 (by decide)).trans (val17_main_arg12 V0)
theorem val18_main_arg13 (V0 : Valuation τ sig (Elt F)) : val18 V0 (Proc.devRef .tc main_arg13) = (argsOf V0).F0 :=
  (val18_keep V0 main_arg13 (by decide)).trans (val17_main_arg13 V0)
theorem val18_main_arg14 (V0 : Valuation τ sig (Elt F)) : val18 V0 (Proc.devRef .tc main_arg14) = (argsOf V0).fb0 :=
  (val18_keep V0 main_arg14 (by decide)).trans (val17_main_arg14 V0)
theorem val18_main_arg15 (V0 : Valuation τ sig (Elt F)) : val18 V0 (Proc.devRef .tc main_arg15) = (argsOf V0).F1 :=
  (val18_keep V0 main_arg15 (by decide)).trans (val17_main_arg15 V0)
theorem val18_main_arg16 (V0 : Valuation τ sig (Elt F)) : val18 V0 (Proc.devRef .tc main_arg16) = (argsOf V0).fb1 :=
  (val18_keep V0 main_arg16 (by decide)).trans (val17_main_arg16 V0)
theorem val18_main_arg17 (V0 : Valuation τ sig (Elt F)) : val18 V0 (Proc.devRef .tc main_arg17) = (argsOf V0).g1 :=
  (val18_keep V0 main_arg17 (by decide)).trans (val17_main_arg17 V0)
theorem val18_main_arg18 (V0 : Valuation τ sig (Elt F)) : val18 V0 (Proc.devRef .tc main_arg18) = (argsOf V0).be1 :=
  (val18_keep V0 main_arg18 (by decide)).trans (val17_main_arg18 V0)
theorem val18_main_arg19 (V0 : Valuation τ sig (Elt F)) : val18 V0 (Proc.devRef .tc main_arg19) = (argsOf V0).g2 :=
  (val18_keep V0 main_arg19 (by decide)).trans (val17_main_arg19 V0)
theorem val18_main_arg20 (V0 : Valuation τ sig (Elt F)) : val18 V0 (Proc.devRef .tc main_arg20) = (argsOf V0).be2 :=
  (val18_keep V0 main_arg20 (by decide)).trans (val17_main_arg20 V0)
theorem val18_main_v71 (V0 : Valuation τ sig (Elt F)) : val18 V0 (Proc.devRef .tc main_v71) = res_main_v71 (argsOf V0) :=
  (val18_keep V0 main_v71 (by decide)).trans (val17_main_v71 V0)
theorem val18_main_v82 (V0 : Valuation τ sig (Elt F)) : val18 V0 (Proc.devRef .tc main_v82) = res_main_v82 (argsOf V0) :=
  (opsW18_main_v82 (val17 V0)).trans (by rw [val17_main_v75 V0]; rfl)

/-- The contents after the first 19 stages. -/
def val19 (V0 : Valuation τ sig (Elt F)) : Valuation τ sig (Elt F) := after opsW19 (val18 V0)
theorem val19_keep (V0 : Valuation τ sig (Elt F)) (r : Ref sig .tc) (h : r ∉ opsW19_W) :
    val19 V0 (Proc.devRef .tc r) = val18 V0 (Proc.devRef .tc r) := opsW19_keep _ r h
theorem val19_main_arg0 (V0 : Valuation τ sig (Elt F)) : val19 V0 (Proc.devRef .tc main_arg0) = (argsOf V0).Vn :=
  (val19_keep V0 main_arg0 (by decide)).trans (val18_main_arg0 V0)
theorem val19_main_arg1 (V0 : Valuation τ sig (Elt F)) : val19 V0 (Proc.devRef .tc main_arg1) = (argsOf V0).Vo :=
  (val19_keep V0 main_arg1 (by decide)).trans (val18_main_arg1 V0)
theorem val19_main_arg2 (V0 : Valuation τ sig (Elt F)) : val19 V0 (Proc.devRef .tc main_arg2) = (argsOf V0).E :=
  (val19_keep V0 main_arg2 (by decide)).trans (val18_main_arg2 V0)
theorem val19_main_arg3 (V0 : Valuation τ sig (Elt F)) : val19 V0 (Proc.devRef .tc main_arg3) = (argsOf V0).K :=
  (val19_keep V0 main_arg3 (by decide)).trans (val18_main_arg3 V0)
theorem val19_main_arg4 (V0 : Valuation τ sig (Elt F)) : val19 V0 (Proc.devRef .tc main_arg4) = (argsOf V0).S :=
  (val19_keep V0 main_arg4 (by decide)).trans (val18_main_arg4 V0)
theorem val19_main_arg5 (V0 : Valuation τ sig (Elt F)) : val19 V0 (Proc.devRef .tc main_arg5) = (argsOf V0).em :=
  (val19_keep V0 main_arg5 (by decide)).trans (val18_main_arg5 V0)
theorem val19_main_arg6 (V0 : Valuation τ sig (Elt F)) : val19 V0 (Proc.devRef .tc main_arg6) = (argsOf V0).ar :=
  (val19_keep V0 main_arg6 (by decide)).trans (val18_main_arg6 V0)
theorem val19_main_arg7 (V0 : Valuation τ sig (Elt F)) : val19 V0 (Proc.devRef .tc main_arg7) = (argsOf V0).W0 :=
  (val19_keep V0 main_arg7 (by decide)).trans (val18_main_arg7 V0)
theorem val19_main_arg8 (V0 : Valuation τ sig (Elt F)) : val19 V0 (Proc.devRef .tc main_arg8) = (argsOf V0).b0 :=
  (val19_keep V0 main_arg8 (by decide)).trans (val18_main_arg8 V0)
theorem val19_main_arg9 (V0 : Valuation τ sig (Elt F)) : val19 V0 (Proc.devRef .tc main_arg9) = (argsOf V0).W1 :=
  (val19_keep V0 main_arg9 (by decide)).trans (val18_main_arg9 V0)
theorem val19_main_arg10 (V0 : Valuation τ sig (Elt F)) : val19 V0 (Proc.devRef .tc main_arg10) = (argsOf V0).b1 :=
  (val19_keep V0 main_arg10 (by decide)).trans (val18_main_arg10 V0)
theorem val19_main_arg11 (V0 : Valuation τ sig (Elt F)) : val19 V0 (Proc.devRef .tc main_arg11) = (argsOf V0).W2 :=
  (val19_keep V0 main_arg11 (by decide)).trans (val18_main_arg11 V0)
theorem val19_main_arg12 (V0 : Valuation τ sig (Elt F)) : val19 V0 (Proc.devRef .tc main_arg12) = (argsOf V0).b2 :=
  (val19_keep V0 main_arg12 (by decide)).trans (val18_main_arg12 V0)
theorem val19_main_arg13 (V0 : Valuation τ sig (Elt F)) : val19 V0 (Proc.devRef .tc main_arg13) = (argsOf V0).F0 :=
  (val19_keep V0 main_arg13 (by decide)).trans (val18_main_arg13 V0)
theorem val19_main_arg14 (V0 : Valuation τ sig (Elt F)) : val19 V0 (Proc.devRef .tc main_arg14) = (argsOf V0).fb0 :=
  (val19_keep V0 main_arg14 (by decide)).trans (val18_main_arg14 V0)
theorem val19_main_arg15 (V0 : Valuation τ sig (Elt F)) : val19 V0 (Proc.devRef .tc main_arg15) = (argsOf V0).F1 :=
  (val19_keep V0 main_arg15 (by decide)).trans (val18_main_arg15 V0)
theorem val19_main_arg16 (V0 : Valuation τ sig (Elt F)) : val19 V0 (Proc.devRef .tc main_arg16) = (argsOf V0).fb1 :=
  (val19_keep V0 main_arg16 (by decide)).trans (val18_main_arg16 V0)
theorem val19_main_arg17 (V0 : Valuation τ sig (Elt F)) : val19 V0 (Proc.devRef .tc main_arg17) = (argsOf V0).g1 :=
  (val19_keep V0 main_arg17 (by decide)).trans (val18_main_arg17 V0)
theorem val19_main_arg18 (V0 : Valuation τ sig (Elt F)) : val19 V0 (Proc.devRef .tc main_arg18) = (argsOf V0).be1 :=
  (val19_keep V0 main_arg18 (by decide)).trans (val18_main_arg18 V0)
theorem val19_main_arg19 (V0 : Valuation τ sig (Elt F)) : val19 V0 (Proc.devRef .tc main_arg19) = (argsOf V0).g2 :=
  (val19_keep V0 main_arg19 (by decide)).trans (val18_main_arg19 V0)
theorem val19_main_arg20 (V0 : Valuation τ sig (Elt F)) : val19 V0 (Proc.devRef .tc main_arg20) = (argsOf V0).be2 :=
  (val19_keep V0 main_arg20 (by decide)).trans (val18_main_arg20 V0)
theorem val19_main_v87 (V0 : Valuation τ sig (Elt F)) : val19 V0 (Proc.devRef .tc main_v87) = res_main_v87 (argsOf V0) :=
  (opsW19_main_v87 (val18 V0)).trans (by rw [val18_main_v71 V0, val18_main_v82 V0, val18_main_arg15 V0, val18_main_arg16 V0]; rfl)

/-- The contents after the first 20 stages. -/
def val20 (V0 : Valuation τ sig (Elt F)) : Valuation τ sig (Elt F) := after opsW20 (val19 V0)
theorem val20_keep (V0 : Valuation τ sig (Elt F)) (r : Ref sig .tc) (h : r ∉ opsW20_W) :
    val20 V0 (Proc.devRef .tc r) = val19 V0 (Proc.devRef .tc r) := opsW20_keep _ r h
theorem val20_main_arg0 (V0 : Valuation τ sig (Elt F)) : val20 V0 (Proc.devRef .tc main_arg0) = (argsOf V0).Vn :=
  (val20_keep V0 main_arg0 (by decide)).trans (val19_main_arg0 V0)
theorem val20_main_arg1 (V0 : Valuation τ sig (Elt F)) : val20 V0 (Proc.devRef .tc main_arg1) = (argsOf V0).Vo :=
  (val20_keep V0 main_arg1 (by decide)).trans (val19_main_arg1 V0)
theorem val20_main_arg2 (V0 : Valuation τ sig (Elt F)) : val20 V0 (Proc.devRef .tc main_arg2) = (argsOf V0).E :=
  (val20_keep V0 main_arg2 (by decide)).trans (val19_main_arg2 V0)
theorem val20_main_arg3 (V0 : Valuation τ sig (Elt F)) : val20 V0 (Proc.devRef .tc main_arg3) = (argsOf V0).K :=
  (val20_keep V0 main_arg3 (by decide)).trans (val19_main_arg3 V0)
theorem val20_main_arg4 (V0 : Valuation τ sig (Elt F)) : val20 V0 (Proc.devRef .tc main_arg4) = (argsOf V0).S :=
  (val20_keep V0 main_arg4 (by decide)).trans (val19_main_arg4 V0)
theorem val20_main_arg5 (V0 : Valuation τ sig (Elt F)) : val20 V0 (Proc.devRef .tc main_arg5) = (argsOf V0).em :=
  (val20_keep V0 main_arg5 (by decide)).trans (val19_main_arg5 V0)
theorem val20_main_arg6 (V0 : Valuation τ sig (Elt F)) : val20 V0 (Proc.devRef .tc main_arg6) = (argsOf V0).ar :=
  (val20_keep V0 main_arg6 (by decide)).trans (val19_main_arg6 V0)
theorem val20_main_arg7 (V0 : Valuation τ sig (Elt F)) : val20 V0 (Proc.devRef .tc main_arg7) = (argsOf V0).W0 :=
  (val20_keep V0 main_arg7 (by decide)).trans (val19_main_arg7 V0)
theorem val20_main_arg8 (V0 : Valuation τ sig (Elt F)) : val20 V0 (Proc.devRef .tc main_arg8) = (argsOf V0).b0 :=
  (val20_keep V0 main_arg8 (by decide)).trans (val19_main_arg8 V0)
theorem val20_main_arg9 (V0 : Valuation τ sig (Elt F)) : val20 V0 (Proc.devRef .tc main_arg9) = (argsOf V0).W1 :=
  (val20_keep V0 main_arg9 (by decide)).trans (val19_main_arg9 V0)
theorem val20_main_arg10 (V0 : Valuation τ sig (Elt F)) : val20 V0 (Proc.devRef .tc main_arg10) = (argsOf V0).b1 :=
  (val20_keep V0 main_arg10 (by decide)).trans (val19_main_arg10 V0)
theorem val20_main_arg11 (V0 : Valuation τ sig (Elt F)) : val20 V0 (Proc.devRef .tc main_arg11) = (argsOf V0).W2 :=
  (val20_keep V0 main_arg11 (by decide)).trans (val19_main_arg11 V0)
theorem val20_main_arg12 (V0 : Valuation τ sig (Elt F)) : val20 V0 (Proc.devRef .tc main_arg12) = (argsOf V0).b2 :=
  (val20_keep V0 main_arg12 (by decide)).trans (val19_main_arg12 V0)
theorem val20_main_arg13 (V0 : Valuation τ sig (Elt F)) : val20 V0 (Proc.devRef .tc main_arg13) = (argsOf V0).F0 :=
  (val20_keep V0 main_arg13 (by decide)).trans (val19_main_arg13 V0)
theorem val20_main_arg14 (V0 : Valuation τ sig (Elt F)) : val20 V0 (Proc.devRef .tc main_arg14) = (argsOf V0).fb0 :=
  (val20_keep V0 main_arg14 (by decide)).trans (val19_main_arg14 V0)
theorem val20_main_arg15 (V0 : Valuation τ sig (Elt F)) : val20 V0 (Proc.devRef .tc main_arg15) = (argsOf V0).F1 :=
  (val20_keep V0 main_arg15 (by decide)).trans (val19_main_arg15 V0)
theorem val20_main_arg16 (V0 : Valuation τ sig (Elt F)) : val20 V0 (Proc.devRef .tc main_arg16) = (argsOf V0).fb1 :=
  (val20_keep V0 main_arg16 (by decide)).trans (val19_main_arg16 V0)
theorem val20_main_arg17 (V0 : Valuation τ sig (Elt F)) : val20 V0 (Proc.devRef .tc main_arg17) = (argsOf V0).g1 :=
  (val20_keep V0 main_arg17 (by decide)).trans (val19_main_arg17 V0)
theorem val20_main_arg18 (V0 : Valuation τ sig (Elt F)) : val20 V0 (Proc.devRef .tc main_arg18) = (argsOf V0).be1 :=
  (val20_keep V0 main_arg18 (by decide)).trans (val19_main_arg18 V0)
theorem val20_main_arg19 (V0 : Valuation τ sig (Elt F)) : val20 V0 (Proc.devRef .tc main_arg19) = (argsOf V0).g2 :=
  (val20_keep V0 main_arg19 (by decide)).trans (val19_main_arg19 V0)
theorem val20_main_arg20 (V0 : Valuation τ sig (Elt F)) : val20 V0 (Proc.devRef .tc main_arg20) = (argsOf V0).be2 :=
  (val20_keep V0 main_arg20 (by decide)).trans (val19_main_arg20 V0)
theorem val20_main_v87 (V0 : Valuation τ sig (Elt F)) : val20 V0 (Proc.devRef .tc main_v87) = res_main_v87 (argsOf V0) :=
  (val20_keep V0 main_v87 (by decide)).trans (val19_main_v87 V0)
theorem val20_main_cst_9 (V0 : Valuation τ sig (Elt F)) : val20 V0 (Proc.devRef .tc main_cst_9) = res_main_cst_9 (argsOf V0) :=
  (opsW20_main_cst_9 (val19 V0)).trans (by rfl)

/-- The contents after the first 21 stages. -/
def val21 (V0 : Valuation τ sig (Elt F)) : Valuation τ sig (Elt F) := after opsW21 (val20 V0)
theorem val21_keep (V0 : Valuation τ sig (Elt F)) (r : Ref sig .tc) (h : r ∉ opsW21_W) :
    val21 V0 (Proc.devRef .tc r) = val20 V0 (Proc.devRef .tc r) := opsW21_keep _ r h
theorem val21_main_arg0 (V0 : Valuation τ sig (Elt F)) : val21 V0 (Proc.devRef .tc main_arg0) = (argsOf V0).Vn :=
  (val21_keep V0 main_arg0 (by decide)).trans (val20_main_arg0 V0)
theorem val21_main_arg1 (V0 : Valuation τ sig (Elt F)) : val21 V0 (Proc.devRef .tc main_arg1) = (argsOf V0).Vo :=
  (val21_keep V0 main_arg1 (by decide)).trans (val20_main_arg1 V0)
theorem val21_main_arg2 (V0 : Valuation τ sig (Elt F)) : val21 V0 (Proc.devRef .tc main_arg2) = (argsOf V0).E :=
  (val21_keep V0 main_arg2 (by decide)).trans (val20_main_arg2 V0)
theorem val21_main_arg3 (V0 : Valuation τ sig (Elt F)) : val21 V0 (Proc.devRef .tc main_arg3) = (argsOf V0).K :=
  (val21_keep V0 main_arg3 (by decide)).trans (val20_main_arg3 V0)
theorem val21_main_arg4 (V0 : Valuation τ sig (Elt F)) : val21 V0 (Proc.devRef .tc main_arg4) = (argsOf V0).S :=
  (val21_keep V0 main_arg4 (by decide)).trans (val20_main_arg4 V0)
theorem val21_main_arg5 (V0 : Valuation τ sig (Elt F)) : val21 V0 (Proc.devRef .tc main_arg5) = (argsOf V0).em :=
  (val21_keep V0 main_arg5 (by decide)).trans (val20_main_arg5 V0)
theorem val21_main_arg6 (V0 : Valuation τ sig (Elt F)) : val21 V0 (Proc.devRef .tc main_arg6) = (argsOf V0).ar :=
  (val21_keep V0 main_arg6 (by decide)).trans (val20_main_arg6 V0)
theorem val21_main_arg7 (V0 : Valuation τ sig (Elt F)) : val21 V0 (Proc.devRef .tc main_arg7) = (argsOf V0).W0 :=
  (val21_keep V0 main_arg7 (by decide)).trans (val20_main_arg7 V0)
theorem val21_main_arg8 (V0 : Valuation τ sig (Elt F)) : val21 V0 (Proc.devRef .tc main_arg8) = (argsOf V0).b0 :=
  (val21_keep V0 main_arg8 (by decide)).trans (val20_main_arg8 V0)
theorem val21_main_arg9 (V0 : Valuation τ sig (Elt F)) : val21 V0 (Proc.devRef .tc main_arg9) = (argsOf V0).W1 :=
  (val21_keep V0 main_arg9 (by decide)).trans (val20_main_arg9 V0)
theorem val21_main_arg10 (V0 : Valuation τ sig (Elt F)) : val21 V0 (Proc.devRef .tc main_arg10) = (argsOf V0).b1 :=
  (val21_keep V0 main_arg10 (by decide)).trans (val20_main_arg10 V0)
theorem val21_main_arg11 (V0 : Valuation τ sig (Elt F)) : val21 V0 (Proc.devRef .tc main_arg11) = (argsOf V0).W2 :=
  (val21_keep V0 main_arg11 (by decide)).trans (val20_main_arg11 V0)
theorem val21_main_arg12 (V0 : Valuation τ sig (Elt F)) : val21 V0 (Proc.devRef .tc main_arg12) = (argsOf V0).b2 :=
  (val21_keep V0 main_arg12 (by decide)).trans (val20_main_arg12 V0)
theorem val21_main_arg13 (V0 : Valuation τ sig (Elt F)) : val21 V0 (Proc.devRef .tc main_arg13) = (argsOf V0).F0 :=
  (val21_keep V0 main_arg13 (by decide)).trans (val20_main_arg13 V0)
theorem val21_main_arg14 (V0 : Valuation τ sig (Elt F)) : val21 V0 (Proc.devRef .tc main_arg14) = (argsOf V0).fb0 :=
  (val21_keep V0 main_arg14 (by decide)).trans (val20_main_arg14 V0)
theorem val21_main_arg15 (V0 : Valuation τ sig (Elt F)) : val21 V0 (Proc.devRef .tc main_arg15) = (argsOf V0).F1 :=
  (val21_keep V0 main_arg15 (by decide)).trans (val20_main_arg15 V0)
theorem val21_main_arg16 (V0 : Valuation τ sig (Elt F)) : val21 V0 (Proc.devRef .tc main_arg16) = (argsOf V0).fb1 :=
  (val21_keep V0 main_arg16 (by decide)).trans (val20_main_arg16 V0)
theorem val21_main_arg17 (V0 : Valuation τ sig (Elt F)) : val21 V0 (Proc.devRef .tc main_arg17) = (argsOf V0).g1 :=
  (val21_keep V0 main_arg17 (by decide)).trans (val20_main_arg17 V0)
theorem val21_main_arg18 (V0 : Valuation τ sig (Elt F)) : val21 V0 (Proc.devRef .tc main_arg18) = (argsOf V0).be1 :=
  (val21_keep V0 main_arg18 (by decide)).trans (val20_main_arg18 V0)
theorem val21_main_arg19 (V0 : Valuation τ sig (Elt F)) : val21 V0 (Proc.devRef .tc main_arg19) = (argsOf V0).g2 :=
  (val21_keep V0 main_arg19 (by decide)).trans (val20_main_arg19 V0)
theorem val21_main_arg20 (V0 : Valuation τ sig (Elt F)) : val21 V0 (Proc.devRef .tc main_arg20) = (argsOf V0).be2 :=
  (val21_keep V0 main_arg20 (by decide)).trans (val20_main_arg20 V0)
theorem val21_main_v87 (V0 : Valuation τ sig (Elt F)) : val21 V0 (Proc.devRef .tc main_v87) = res_main_v87 (argsOf V0) :=
  (val21_keep V0 main_v87 (by decide)).trans (val20_main_v87 V0)
theorem val21_main_v91 (V0 : Valuation τ sig (Elt F)) : val21 V0 (Proc.devRef .tc main_v91) = res_main_v91 (argsOf V0) :=
  (opsW21_main_v91 (val20 V0)).trans (by rw [val20_main_v87 V0, val20_main_cst_9 V0]; rfl)
theorem val21_main_c_11 (V0 : Valuation τ sig (Elt F)) : val21 V0 (Proc.devRef .tc main_c_11) = res_main_c_11 (argsOf V0) :=
  (opsW21_main_c_11 (val20 V0)).trans (by rfl)

/-- The contents after the first 22 stages. -/
def val22 (V0 : Valuation τ sig (Elt F)) : Valuation τ sig (Elt F) := after opsW22 (val21 V0)
theorem val22_keep (V0 : Valuation τ sig (Elt F)) (r : Ref sig .tc) (h : r ∉ opsW22_W) :
    val22 V0 (Proc.devRef .tc r) = val21 V0 (Proc.devRef .tc r) := opsW22_keep _ r h
theorem val22_main_arg0 (V0 : Valuation τ sig (Elt F)) : val22 V0 (Proc.devRef .tc main_arg0) = (argsOf V0).Vn :=
  (val22_keep V0 main_arg0 (by decide)).trans (val21_main_arg0 V0)
theorem val22_main_arg1 (V0 : Valuation τ sig (Elt F)) : val22 V0 (Proc.devRef .tc main_arg1) = (argsOf V0).Vo :=
  (val22_keep V0 main_arg1 (by decide)).trans (val21_main_arg1 V0)
theorem val22_main_arg2 (V0 : Valuation τ sig (Elt F)) : val22 V0 (Proc.devRef .tc main_arg2) = (argsOf V0).E :=
  (val22_keep V0 main_arg2 (by decide)).trans (val21_main_arg2 V0)
theorem val22_main_arg3 (V0 : Valuation τ sig (Elt F)) : val22 V0 (Proc.devRef .tc main_arg3) = (argsOf V0).K :=
  (val22_keep V0 main_arg3 (by decide)).trans (val21_main_arg3 V0)
theorem val22_main_arg4 (V0 : Valuation τ sig (Elt F)) : val22 V0 (Proc.devRef .tc main_arg4) = (argsOf V0).S :=
  (val22_keep V0 main_arg4 (by decide)).trans (val21_main_arg4 V0)
theorem val22_main_arg5 (V0 : Valuation τ sig (Elt F)) : val22 V0 (Proc.devRef .tc main_arg5) = (argsOf V0).em :=
  (val22_keep V0 main_arg5 (by decide)).trans (val21_main_arg5 V0)
theorem val22_main_arg6 (V0 : Valuation τ sig (Elt F)) : val22 V0 (Proc.devRef .tc main_arg6) = (argsOf V0).ar :=
  (val22_keep V0 main_arg6 (by decide)).trans (val21_main_arg6 V0)
theorem val22_main_arg7 (V0 : Valuation τ sig (Elt F)) : val22 V0 (Proc.devRef .tc main_arg7) = (argsOf V0).W0 :=
  (val22_keep V0 main_arg7 (by decide)).trans (val21_main_arg7 V0)
theorem val22_main_arg8 (V0 : Valuation τ sig (Elt F)) : val22 V0 (Proc.devRef .tc main_arg8) = (argsOf V0).b0 :=
  (val22_keep V0 main_arg8 (by decide)).trans (val21_main_arg8 V0)
theorem val22_main_arg9 (V0 : Valuation τ sig (Elt F)) : val22 V0 (Proc.devRef .tc main_arg9) = (argsOf V0).W1 :=
  (val22_keep V0 main_arg9 (by decide)).trans (val21_main_arg9 V0)
theorem val22_main_arg10 (V0 : Valuation τ sig (Elt F)) : val22 V0 (Proc.devRef .tc main_arg10) = (argsOf V0).b1 :=
  (val22_keep V0 main_arg10 (by decide)).trans (val21_main_arg10 V0)
theorem val22_main_arg11 (V0 : Valuation τ sig (Elt F)) : val22 V0 (Proc.devRef .tc main_arg11) = (argsOf V0).W2 :=
  (val22_keep V0 main_arg11 (by decide)).trans (val21_main_arg11 V0)
theorem val22_main_arg12 (V0 : Valuation τ sig (Elt F)) : val22 V0 (Proc.devRef .tc main_arg12) = (argsOf V0).b2 :=
  (val22_keep V0 main_arg12 (by decide)).trans (val21_main_arg12 V0)
theorem val22_main_arg13 (V0 : Valuation τ sig (Elt F)) : val22 V0 (Proc.devRef .tc main_arg13) = (argsOf V0).F0 :=
  (val22_keep V0 main_arg13 (by decide)).trans (val21_main_arg13 V0)
theorem val22_main_arg14 (V0 : Valuation τ sig (Elt F)) : val22 V0 (Proc.devRef .tc main_arg14) = (argsOf V0).fb0 :=
  (val22_keep V0 main_arg14 (by decide)).trans (val21_main_arg14 V0)
theorem val22_main_arg15 (V0 : Valuation τ sig (Elt F)) : val22 V0 (Proc.devRef .tc main_arg15) = (argsOf V0).F1 :=
  (val22_keep V0 main_arg15 (by decide)).trans (val21_main_arg15 V0)
theorem val22_main_arg16 (V0 : Valuation τ sig (Elt F)) : val22 V0 (Proc.devRef .tc main_arg16) = (argsOf V0).fb1 :=
  (val22_keep V0 main_arg16 (by decide)).trans (val21_main_arg16 V0)
theorem val22_main_arg17 (V0 : Valuation τ sig (Elt F)) : val22 V0 (Proc.devRef .tc main_arg17) = (argsOf V0).g1 :=
  (val22_keep V0 main_arg17 (by decide)).trans (val21_main_arg17 V0)
theorem val22_main_arg18 (V0 : Valuation τ sig (Elt F)) : val22 V0 (Proc.devRef .tc main_arg18) = (argsOf V0).be1 :=
  (val22_keep V0 main_arg18 (by decide)).trans (val21_main_arg18 V0)
theorem val22_main_arg19 (V0 : Valuation τ sig (Elt F)) : val22 V0 (Proc.devRef .tc main_arg19) = (argsOf V0).g2 :=
  (val22_keep V0 main_arg19 (by decide)).trans (val21_main_arg19 V0)
theorem val22_main_arg20 (V0 : Valuation τ sig (Elt F)) : val22 V0 (Proc.devRef .tc main_arg20) = (argsOf V0).be2 :=
  (val22_keep V0 main_arg20 (by decide)).trans (val21_main_arg20 V0)
theorem val22_main_v87 (V0 : Valuation τ sig (Elt F)) : val22 V0 (Proc.devRef .tc main_v87) = res_main_v87 (argsOf V0) :=
  (val22_keep V0 main_v87 (by decide)).trans (val21_main_v87 V0)
theorem val22_main_v91 (V0 : Valuation τ sig (Elt F)) : val22 V0 (Proc.devRef .tc main_v91) = res_main_v91 (argsOf V0) :=
  (val22_keep V0 main_v91 (by decide)).trans (val21_main_v91 V0)
theorem val22_main_v92 (V0 : Valuation τ sig (Elt F)) : val22 V0 (Proc.devRef .tc main_v92) = res_main_v92 (argsOf V0) :=
  (opsW22_main_v92 (val21 V0)).trans (by rw [val21_main_c_11 V0, val21_main_v87 V0]; rfl)

/-- The contents after the first 23 stages. -/
def val23 (V0 : Valuation τ sig (Elt F)) : Valuation τ sig (Elt F) := after opsW23 (val22 V0)
theorem val23_keep (V0 : Valuation τ sig (Elt F)) (r : Ref sig .tc) (h : r ∉ opsW23_W) :
    val23 V0 (Proc.devRef .tc r) = val22 V0 (Proc.devRef .tc r) := opsW23_keep _ r h
theorem val23_main_arg0 (V0 : Valuation τ sig (Elt F)) : val23 V0 (Proc.devRef .tc main_arg0) = (argsOf V0).Vn :=
  (val23_keep V0 main_arg0 (by decide)).trans (val22_main_arg0 V0)
theorem val23_main_arg1 (V0 : Valuation τ sig (Elt F)) : val23 V0 (Proc.devRef .tc main_arg1) = (argsOf V0).Vo :=
  (val23_keep V0 main_arg1 (by decide)).trans (val22_main_arg1 V0)
theorem val23_main_arg2 (V0 : Valuation τ sig (Elt F)) : val23 V0 (Proc.devRef .tc main_arg2) = (argsOf V0).E :=
  (val23_keep V0 main_arg2 (by decide)).trans (val22_main_arg2 V0)
theorem val23_main_arg3 (V0 : Valuation τ sig (Elt F)) : val23 V0 (Proc.devRef .tc main_arg3) = (argsOf V0).K :=
  (val23_keep V0 main_arg3 (by decide)).trans (val22_main_arg3 V0)
theorem val23_main_arg4 (V0 : Valuation τ sig (Elt F)) : val23 V0 (Proc.devRef .tc main_arg4) = (argsOf V0).S :=
  (val23_keep V0 main_arg4 (by decide)).trans (val22_main_arg4 V0)
theorem val23_main_arg5 (V0 : Valuation τ sig (Elt F)) : val23 V0 (Proc.devRef .tc main_arg5) = (argsOf V0).em :=
  (val23_keep V0 main_arg5 (by decide)).trans (val22_main_arg5 V0)
theorem val23_main_arg6 (V0 : Valuation τ sig (Elt F)) : val23 V0 (Proc.devRef .tc main_arg6) = (argsOf V0).ar :=
  (val23_keep V0 main_arg6 (by decide)).trans (val22_main_arg6 V0)
theorem val23_main_arg7 (V0 : Valuation τ sig (Elt F)) : val23 V0 (Proc.devRef .tc main_arg7) = (argsOf V0).W0 :=
  (val23_keep V0 main_arg7 (by decide)).trans (val22_main_arg7 V0)
theorem val23_main_arg8 (V0 : Valuation τ sig (Elt F)) : val23 V0 (Proc.devRef .tc main_arg8) = (argsOf V0).b0 :=
  (val23_keep V0 main_arg8 (by decide)).trans (val22_main_arg8 V0)
theorem val23_main_arg9 (V0 : Valuation τ sig (Elt F)) : val23 V0 (Proc.devRef .tc main_arg9) = (argsOf V0).W1 :=
  (val23_keep V0 main_arg9 (by decide)).trans (val22_main_arg9 V0)
theorem val23_main_arg10 (V0 : Valuation τ sig (Elt F)) : val23 V0 (Proc.devRef .tc main_arg10) = (argsOf V0).b1 :=
  (val23_keep V0 main_arg10 (by decide)).trans (val22_main_arg10 V0)
theorem val23_main_arg11 (V0 : Valuation τ sig (Elt F)) : val23 V0 (Proc.devRef .tc main_arg11) = (argsOf V0).W2 :=
  (val23_keep V0 main_arg11 (by decide)).trans (val22_main_arg11 V0)
theorem val23_main_arg12 (V0 : Valuation τ sig (Elt F)) : val23 V0 (Proc.devRef .tc main_arg12) = (argsOf V0).b2 :=
  (val23_keep V0 main_arg12 (by decide)).trans (val22_main_arg12 V0)
theorem val23_main_arg13 (V0 : Valuation τ sig (Elt F)) : val23 V0 (Proc.devRef .tc main_arg13) = (argsOf V0).F0 :=
  (val23_keep V0 main_arg13 (by decide)).trans (val22_main_arg13 V0)
theorem val23_main_arg14 (V0 : Valuation τ sig (Elt F)) : val23 V0 (Proc.devRef .tc main_arg14) = (argsOf V0).fb0 :=
  (val23_keep V0 main_arg14 (by decide)).trans (val22_main_arg14 V0)
theorem val23_main_arg15 (V0 : Valuation τ sig (Elt F)) : val23 V0 (Proc.devRef .tc main_arg15) = (argsOf V0).F1 :=
  (val23_keep V0 main_arg15 (by decide)).trans (val22_main_arg15 V0)
theorem val23_main_arg16 (V0 : Valuation τ sig (Elt F)) : val23 V0 (Proc.devRef .tc main_arg16) = (argsOf V0).fb1 :=
  (val23_keep V0 main_arg16 (by decide)).trans (val22_main_arg16 V0)
theorem val23_main_arg17 (V0 : Valuation τ sig (Elt F)) : val23 V0 (Proc.devRef .tc main_arg17) = (argsOf V0).g1 :=
  (val23_keep V0 main_arg17 (by decide)).trans (val22_main_arg17 V0)
theorem val23_main_arg18 (V0 : Valuation τ sig (Elt F)) : val23 V0 (Proc.devRef .tc main_arg18) = (argsOf V0).be1 :=
  (val23_keep V0 main_arg18 (by decide)).trans (val22_main_arg18 V0)
theorem val23_main_arg19 (V0 : Valuation τ sig (Elt F)) : val23 V0 (Proc.devRef .tc main_arg19) = (argsOf V0).g2 :=
  (val23_keep V0 main_arg19 (by decide)).trans (val22_main_arg19 V0)
theorem val23_main_arg20 (V0 : Valuation τ sig (Elt F)) : val23 V0 (Proc.devRef .tc main_arg20) = (argsOf V0).be2 :=
  (val23_keep V0 main_arg20 (by decide)).trans (val22_main_arg20 V0)
theorem val23_main_v102 (V0 : Valuation τ sig (Elt F)) : val23 V0 (Proc.devRef .tc main_v102) = res_main_v102 (argsOf V0) :=
  (opsW23_main_v102 (val22 V0)).trans (by rw [val22_main_v87 V0, val22_main_v91 V0, val22_main_v92 V0, val22_main_arg19 V0]; rfl)
theorem val23_main_v104 (V0 : Valuation τ sig (Elt F)) : val23 V0 (Proc.devRef .tc main_v104) = res_main_v104 (argsOf V0) :=
  (opsW23_main_v104 (val22 V0)).trans (by rw [val22_main_arg20 V0]; rfl)

/-- The contents after the first 24 stages. -/
def val24 (V0 : Valuation τ sig (Elt F)) : Valuation τ sig (Elt F) := after opsW24 (val23 V0)
theorem val24_keep (V0 : Valuation τ sig (Elt F)) (r : Ref sig .tc) (h : r ∉ opsW24_W) :
    val24 V0 (Proc.devRef .tc r) = val23 V0 (Proc.devRef .tc r) := opsW24_keep _ r h
theorem val24_main_arg0 (V0 : Valuation τ sig (Elt F)) : val24 V0 (Proc.devRef .tc main_arg0) = (argsOf V0).Vn :=
  (val24_keep V0 main_arg0 (by decide)).trans (val23_main_arg0 V0)
theorem val24_main_arg1 (V0 : Valuation τ sig (Elt F)) : val24 V0 (Proc.devRef .tc main_arg1) = (argsOf V0).Vo :=
  (val24_keep V0 main_arg1 (by decide)).trans (val23_main_arg1 V0)
theorem val24_main_arg2 (V0 : Valuation τ sig (Elt F)) : val24 V0 (Proc.devRef .tc main_arg2) = (argsOf V0).E :=
  (val24_keep V0 main_arg2 (by decide)).trans (val23_main_arg2 V0)
theorem val24_main_arg3 (V0 : Valuation τ sig (Elt F)) : val24 V0 (Proc.devRef .tc main_arg3) = (argsOf V0).K :=
  (val24_keep V0 main_arg3 (by decide)).trans (val23_main_arg3 V0)
theorem val24_main_arg4 (V0 : Valuation τ sig (Elt F)) : val24 V0 (Proc.devRef .tc main_arg4) = (argsOf V0).S :=
  (val24_keep V0 main_arg4 (by decide)).trans (val23_main_arg4 V0)
theorem val24_main_arg5 (V0 : Valuation τ sig (Elt F)) : val24 V0 (Proc.devRef .tc main_arg5) = (argsOf V0).em :=
  (val24_keep V0 main_arg5 (by decide)).trans (val23_main_arg5 V0)
theorem val24_main_arg6 (V0 : Valuation τ sig (Elt F)) : val24 V0 (Proc.devRef .tc main_arg6) = (argsOf V0).ar :=
  (val24_keep V0 main_arg6 (by decide)).trans (val23_main_arg6 V0)
theorem val24_main_arg7 (V0 : Valuation τ sig (Elt F)) : val24 V0 (Proc.devRef .tc main_arg7) = (argsOf V0).W0 :=
  (val24_keep V0 main_arg7 (by decide)).trans (val23_main_arg7 V0)
theorem val24_main_arg8 (V0 : Valuation τ sig (Elt F)) : val24 V0 (Proc.devRef .tc main_arg8) = (argsOf V0).b0 :=
  (val24_keep V0 main_arg8 (by decide)).trans (val23_main_arg8 V0)
theorem val24_main_arg9 (V0 : Valuation τ sig (Elt F)) : val24 V0 (Proc.devRef .tc main_arg9) = (argsOf V0).W1 :=
  (val24_keep V0 main_arg9 (by decide)).trans (val23_main_arg9 V0)
theorem val24_main_arg10 (V0 : Valuation τ sig (Elt F)) : val24 V0 (Proc.devRef .tc main_arg10) = (argsOf V0).b1 :=
  (val24_keep V0 main_arg10 (by decide)).trans (val23_main_arg10 V0)
theorem val24_main_arg11 (V0 : Valuation τ sig (Elt F)) : val24 V0 (Proc.devRef .tc main_arg11) = (argsOf V0).W2 :=
  (val24_keep V0 main_arg11 (by decide)).trans (val23_main_arg11 V0)
theorem val24_main_arg12 (V0 : Valuation τ sig (Elt F)) : val24 V0 (Proc.devRef .tc main_arg12) = (argsOf V0).b2 :=
  (val24_keep V0 main_arg12 (by decide)).trans (val23_main_arg12 V0)
theorem val24_main_arg13 (V0 : Valuation τ sig (Elt F)) : val24 V0 (Proc.devRef .tc main_arg13) = (argsOf V0).F0 :=
  (val24_keep V0 main_arg13 (by decide)).trans (val23_main_arg13 V0)
theorem val24_main_arg14 (V0 : Valuation τ sig (Elt F)) : val24 V0 (Proc.devRef .tc main_arg14) = (argsOf V0).fb0 :=
  (val24_keep V0 main_arg14 (by decide)).trans (val23_main_arg14 V0)
theorem val24_main_arg15 (V0 : Valuation τ sig (Elt F)) : val24 V0 (Proc.devRef .tc main_arg15) = (argsOf V0).F1 :=
  (val24_keep V0 main_arg15 (by decide)).trans (val23_main_arg15 V0)
theorem val24_main_arg16 (V0 : Valuation τ sig (Elt F)) : val24 V0 (Proc.devRef .tc main_arg16) = (argsOf V0).fb1 :=
  (val24_keep V0 main_arg16 (by decide)).trans (val23_main_arg16 V0)
theorem val24_main_arg17 (V0 : Valuation τ sig (Elt F)) : val24 V0 (Proc.devRef .tc main_arg17) = (argsOf V0).g1 :=
  (val24_keep V0 main_arg17 (by decide)).trans (val23_main_arg17 V0)
theorem val24_main_arg18 (V0 : Valuation τ sig (Elt F)) : val24 V0 (Proc.devRef .tc main_arg18) = (argsOf V0).be1 :=
  (val24_keep V0 main_arg18 (by decide)).trans (val23_main_arg18 V0)
theorem val24_main_arg19 (V0 : Valuation τ sig (Elt F)) : val24 V0 (Proc.devRef .tc main_arg19) = (argsOf V0).g2 :=
  (val24_keep V0 main_arg19 (by decide)).trans (val23_main_arg19 V0)
theorem val24_main_arg20 (V0 : Valuation τ sig (Elt F)) : val24 V0 (Proc.devRef .tc main_arg20) = (argsOf V0).be2 :=
  (val24_keep V0 main_arg20 (by decide)).trans (val23_main_arg20 V0)
theorem val24_main_v105 (V0 : Valuation τ sig (Elt F)) : val24 V0 (Proc.devRef .tc main_v105) = res_main_v105 (argsOf V0) :=
  (opsW24_main_v105 (val23 V0)).trans (by rw [val23_main_v102 V0, val23_main_v104 V0]; rfl)

theorem after_ops (V0 : Valuation τ sig (Elt F)) : after ops V0 = val24 V0 := by
  simp only [ops, after_append']
  rfl

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h | h | h | h | h | h | h
    exacts [List.forall_iff_forall_mem.mp opsW1_sub op h, List.forall_iff_forall_mem.mp opsW2_sub op h, List.forall_iff_forall_mem.mp opsW3_sub op h, List.forall_iff_forall_mem.mp opsW4_sub op h, List.forall_iff_forall_mem.mp opsW5_sub op h, List.forall_iff_forall_mem.mp opsW6_sub op h, List.forall_iff_forall_mem.mp opsW7_sub op h, List.forall_iff_forall_mem.mp opsW8_sub op h, List.forall_iff_forall_mem.mp opsW9_sub op h, List.forall_iff_forall_mem.mp opsW10_sub op h, List.forall_iff_forall_mem.mp opsW11_sub op h, List.forall_iff_forall_mem.mp opsW12_sub op h, List.forall_iff_forall_mem.mp opsW13_sub op h, List.forall_iff_forall_mem.mp opsW14_sub op h, List.forall_iff_forall_mem.mp opsW15_sub op h, List.forall_iff_forall_mem.mp opsW16_sub op h, List.forall_iff_forall_mem.mp opsW17_sub op h, List.forall_iff_forall_mem.mp opsW18_sub op h, List.forall_iff_forall_mem.mp opsW19_sub op h, List.forall_iff_forall_mem.mp opsW20_sub op h, List.forall_iff_forall_mem.mp opsW21_sub op h, List.forall_iff_forall_mem.mp opsW22_sub op h, List.forall_iff_forall_mem.mp opsW23_sub op h, List.forall_iff_forall_mem.mp opsW24_sub op h]

theorem ops_fresh : ∀ op ∈ (ops : List (HloOp τ sig (Elt F))), op.fresh = ∅ := fun op h => by
  simp only [ops, List.mem_append] at h
  rcases h with h | h | h | h | h | h | h | h | h | h | h | h | h | h | h | h | h | h | h | h | h | h | h | h
  exacts [opsW1_fresh op h, opsW2_fresh op h, opsW3_fresh op h, opsW4_fresh op h, opsW5_fresh op h, opsW6_fresh op h, opsW7_fresh op h, opsW8_fresh op h, opsW9_fresh op h, opsW10_fresh op h, opsW11_fresh op h, opsW12_fresh op h, opsW13_fresh op h, opsW14_fresh op h, opsW15_fresh op h, opsW16_fresh op h, opsW17_fresh op h, opsW18_fresh op h, opsW19_fresh op h, opsW20_fresh op h, opsW21_fresh op h, opsW22_fresh op h, opsW23_fresh op h, opsW24_fresh op h]

/-- On every device, for any float values, from any memory with zero counters: every weakly fair
    execution of @main terminates with the result at `refTerm` of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v105).trans (by rw [after_ops]; exact val24_main_v105 (launchContents m c)),
      (h c main_arg0).trans (by rw [after_ops]; exact val24_main_arg0 (launchContents m c)),
      (h c main_arg1).trans (by rw [after_ops]; exact val24_main_arg1 (launchContents m c)),
      (h c main_arg2).trans (by rw [after_ops]; exact val24_main_arg2 (launchContents m c)),
      (h c main_arg3).trans (by rw [after_ops]; exact val24_main_arg3 (launchContents m c)),
      (h c main_arg4).trans (by rw [after_ops]; exact val24_main_arg4 (launchContents m c)),
      (h c main_arg5).trans (by rw [after_ops]; exact val24_main_arg5 (launchContents m c)),
      (h c main_arg6).trans (by rw [after_ops]; exact val24_main_arg6 (launchContents m c)),
      (h c main_arg7).trans (by rw [after_ops]; exact val24_main_arg7 (launchContents m c)),
      (h c main_arg8).trans (by rw [after_ops]; exact val24_main_arg8 (launchContents m c)),
      (h c main_arg9).trans (by rw [after_ops]; exact val24_main_arg9 (launchContents m c)),
      (h c main_arg10).trans (by rw [after_ops]; exact val24_main_arg10 (launchContents m c)),
      (h c main_arg11).trans (by rw [after_ops]; exact val24_main_arg11 (launchContents m c)),
      (h c main_arg12).trans (by rw [after_ops]; exact val24_main_arg12 (launchContents m c)),
      (h c main_arg13).trans (by rw [after_ops]; exact val24_main_arg13 (launchContents m c)),
      (h c main_arg14).trans (by rw [after_ops]; exact val24_main_arg14 (launchContents m c)),
      (h c main_arg15).trans (by rw [after_ops]; exact val24_main_arg15 (launchContents m c)),
      (h c main_arg16).trans (by rw [after_ops]; exact val24_main_arg16 (launchContents m c)),
      (h c main_arg17).trans (by rw [after_ops]; exact val24_main_arg17 (launchContents m c)),
      (h c main_arg18).trans (by rw [after_ops]; exact val24_main_arg18 (launchContents m c)),
      (h c main_arg19).trans (by rw [after_ops]; exact val24_main_arg19 (launchContents m c)),
      (h c main_arg20).trans (by rw [after_ops]; exact val24_main_arg20 (launchContents m c))⟩)
    (run_seq scopedRefs_eq scopedSems_eq defs main (fun _ => ops) main_eq (fun _ => ops_sub) m ρ (fun _ => ops_fresh))

end Cert.RefSide

end
-- ==== Proof.SpecReal.lean ====
import Idealize.ShloMosaic.PureOps.Ideal
import Idealize.ShloMosaic.PureOps.Ideal.Laws

/-!
# The message-passing layer as one real-valued function

The layer, written by stages over literal index types, for real-valued inputs, in the
arrangement of the reference: the first linear map is one sum over the 512 concatenated
features `[V_new | V_j | E | E_s]`, the exact GELU is `half * x * (1 + erf (x * c))`, and the
layer norm divides the centred value by the square root of the variance plus `eps`.
-/

open scoped BigOperators

namespace Cert.Spec

/-- The inputs as real arrays (indices as literal `Fin` types), and the three literal
constants as reals. -/
structure Inp where
  Vn : Fin 2 → Fin 2048 → Fin 128 → ℝ
  Vo : Fin 2 → Fin 2048 → Fin 128 → ℝ
  S : Fin 2 → Fin 2048 → Fin 128 → ℝ
  E : Fin 2 → Fin 2048 → Fin 32 → Fin 128 → ℝ
  K : Fin 2 → Fin 2048 → Fin 32 → Fin 2048
  ar : Fin 2 → Fin 2048 → Fin 32 → Bool
  em : Fin 2 → Fin 2048 → Fin 32 → ℝ
  W0 : Fin 512 → Fin 128 → ℝ
  b0 : Fin 128 → ℝ
  W1 : Fin 128 → Fin 128 → ℝ
  b1 : Fin 128 → ℝ
  W2 : Fin 128 → Fin 128 → ℝ
  b2 : Fin 128 → ℝ
  F0 : Fin 128 → Fin 512 → ℝ
  fb0 : Fin 512 → ℝ
  F1 : Fin 512 → Fin 128 → ℝ
  fb1 : Fin 128 → ℝ
  g1 : Fin 128 → ℝ
  be1 : Fin 128 → ℝ
  g2 : Fin 128 → ℝ
  be2 : Fin 128 → ℝ
  half : ℝ
  c : ℝ
  eps : ℝ

/-- The error function on the reals. -/
noncomputable def erfR (x : ℝ) : ℝ :=
  2 / Real.sqrt Real.pi * ∫ t in (0:ℝ)..x, Real.exp (-(t ^ 2))

/-- The exact GELU with the constants `half` and `c`. -/
noncomputable def gelu (half c x : ℝ) : ℝ := half * x * (1 + erfR (x * c))

/-- The mean of a row of 128. -/
noncomputable def mean (x : Fin 128 → ℝ) : ℝ := (∑ d, x d) / 128

/-- The (biased) variance of a row of 128: the mean of the squared deviations. -/
noncomputable def var (x : Fin 128 → ℝ) : ℝ :=
  (∑ d, (x d - mean x) * (x d - mean x)) / 128

/-- Layer norm of a row of 128 with scale `g` and shift `b`. -/
noncomputable def ln (eps : ℝ) (x g b : Fin 128 → ℝ) (d : Fin 128) : ℝ :=
  (x d - mean x) / Real.sqrt (var x + eps) * g d + b d

/-- The gathered neighbour features: the new ones where the mask is set, else the old. -/
def Vj (I : Inp) (z : Fin 2) (n : Fin 2048) (k : Fin 32) (d : Fin 128) : ℝ :=
  if I.ar z n k then I.Vn z (I.K z n k) d else I.Vo z (I.K z n k) d

/-- The gathered sequence features times the mask as a number. -/
def Es (I : Inp) (z : Fin 2) (n : Fin 2048) (k : Fin 32) (d : Fin 128) : ℝ :=
  I.S z (I.K z n k) d * (if I.ar z n k then 1 else 0)

/-- The 512 concatenated features of an edge: `[V_new | V_j | E | E_s]`. -/
def cat (I : Inp) (z : Fin 2) (n : Fin 2048) (k : Fin 32) (i : Fin 512) : ℝ :=
  if h : i.val < 128 then I.Vn z n ⟨i.val, h⟩
  else if h2 : i.val < 256 then Vj I z n k ⟨i.val - 128, by omega⟩
  else if h3 : i.val < 384 then I.E z n k ⟨i.val - 256, by omega⟩
  else Es I z n k ⟨i.val - 384, by omega⟩

/-- First layer of the message network. -/
noncomputable def h1 (I : Inp) (z : Fin 2) (n : Fin 2048) (k : Fin 32) (j : Fin 128) : ℝ :=
  gelu I.half I.c ((∑ i, cat I z n k i * I.W0 i j) + I.b0 j)

/-- Second layer of the message network. -/
noncomputable def h2 (I : Inp) (z : Fin 2) (n : Fin 2048) (k : Fin 32) (j : Fin 128) : ℝ :=
  gelu I.half I.c ((∑ i, h1 I z n k i * I.W1 i j) + I.b1 j)

/-- The masked message of an edge. -/
noncomputable def mv (I : Inp) (z : Fin 2) (n : Fin 2048) (k : Fin 32) (j : Fin 128) : ℝ :=
  ((∑ i, h2 I z n k i * I.W2 i j) + I.b2 j) * I.em z n k

/-- The node value plus the sum of its 32 messages. -/
noncomputable def x1 (I : Inp) (z : Fin 2) (n : Fin 2048) (d : Fin 128) : ℝ :=
  I.Vn z n d + ∑ k, mv I z n k d

/-- After the first layer norm. -/
noncomputable def V1 (I : Inp) (z : Fin 2) (n : Fin 2048) (d : Fin 128) : ℝ :=
  ln I.eps (x1 I z n) I.g1 I.be1 d

/-- Hidden layer of the feed-forward network. -/
noncomputable def ffh (I : Inp) (z : Fin 2) (n : Fin 2048) (j : Fin 512) : ℝ :=
  gelu I.half I.c ((∑ i, V1 I z n i * I.F0 i j) + I.fb0 j)

/-- Output of the feed-forward network. -/
noncomputable def ff (I : Inp) (z : Fin 2) (n : Fin 2048) (d : Fin 128) : ℝ :=
  (∑ j, ffh I z n j * I.F1 j d) + I.fb1 d

/-- The layer's result. -/
noncomputable def out (I : Inp) : Fin 2 → Fin 2048 → Fin 128 → ℝ := fun z n d =>
  ln I.eps (fun e => V1 I z n e + ff I z n e) I.g2 I.be2 d

end Cert.Spec
-- ==== Proof.RefValBase.lean ====
import proofs.«208327_g62569083568895_cont_9to1c4b_407_46_alg».proof.Proof.RefTerm
import proofs.«208327_g62569083568895_cont_9to1c4b_407_46_alg».proof.Proof.SpecReal
import Idealize.ShloMosaic.Lib.ValueIdx
import Idealize.ShloMosaic.Lib.IdealHost
import Idealize.ShloMosaic.Lib.Pipeline.Value
import Idealize.ShloMosaic.PureOps.Ideal.Laws

noncomputable section

namespace Cert.RefSide

open Cert.ReferenceIdeal Cert.ReferenceIdeal.Gen Idealize.ShloMosaic Idealize.ShloMosaic.ValueIdx
open scoped BigOperators

/-! Tools for reading the stage functions at an index, at the ideal instance. -/

/-- The coercion of a finite sum of reals is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The literal constants as reals -/

theorem ofBits_half : Ideal.ofBits .f32 0x3F000000#32 = (((1 : ℝ) / 2 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem exists_c : ∃ r : ℝ, Ideal.ofBits .f32 0x3F3504F3#32 = (r : EReal) := by
  simp [Ideal.ofBits, Ideal.ieee, -EReal.coe_mul]

theorem exists_eps : ∃ r : ℝ, 0 < r ∧ Ideal.ofBits .f32 0x3727C5AC#32 = (r : EReal) := by
  simp [Ideal.ofBits, Ideal.ieee, -EReal.coe_mul]

/-- The real the word `0x3F000000` denotes: one half. -/
def halfR : ℝ := 1 / 2
/-- The real the word `0x3F3504F3` denotes (the single-precision value nearest `1/√2`). -/
def cR : ℝ := (Ideal.ofBits .f32 0x3F3504F3#32).toReal
/-- The real the word `0x3727C5AC` denotes (the single-precision value nearest `1e-5`). -/
def epsR : ℝ := (Ideal.ofBits .f32 0x3727C5AC#32).toReal

theorem ofBits_c : Ideal.ofBits .f32 0x3F3504F3#32 = (cR : EReal) := by
  obtain ⟨r, hr⟩ := exists_c
  unfold cR; rw [hr, EReal.toReal_coe]

theorem ofBits_eps : Ideal.ofBits .f32 0x3727C5AC#32 = (epsR : EReal) := by
  obtain ⟨r, _, hr⟩ := exists_eps
  unfold epsR; rw [hr, EReal.toReal_coe]

theorem epsR_pos : 0 < epsR := by
  obtain ⟨r, h0, hr⟩ := exists_eps
  unfold epsR; rw [hr, EReal.toReal_coe]; exact h0

/-! ## Broadcasts read at an index -/

theorem rowB_apply (x : FVec Ideal S2x2048x128 .f32) (z : Fin 2) (n : Fin 2048) (k : Fin 32) (d : Fin 128) :
    rowB x (ix4 z n k d) = x (ix3 z n d) := by
  unfold rowB
  rw [broadcastInDim_apply _ _ _ (ix4 z n k d) (ix4 z n (0 : Fin 1) d) (by intro a; fin_cases a <;> rfl)]
  rw [broadcastInDim_apply _ _ _ (ix4 z n (0 : Fin 1) d) (ix3 z n d) (by intro a; fin_cases a <;> rfl)]

theorem idxB_apply (K : IVec S2x2048x32 32) (z : Fin 2) (n : Fin 2048) (k : Fin 32) (d : Fin 128) :
    idxB K (ix4 z n k d) = K (ix3 z n k) := by
  unfold idxB
  rw [broadcastInDim_apply _ _ _ (ix4 z n k d) (ix4 z n k (0 : Fin 1)) (by intro a; fin_cases a <;> rfl)]
  rw [broadcastInDim_apply _ _ _ (ix4 z n k (0 : Fin 1)) (ix3 z n k) (by intro a; fin_cases a <;> rfl)]

theorem rowB3_apply (b : FVec Ideal S128 .f32) (z : Fin 2) (n : Fin 2048) (d : Fin 128) :
    rowB3 b (ix3 z n d) = b (ix1 d) := by
  unfold rowB3
  rw [broadcastInDim_apply _ _ _ (ix3 z n d) (ix3 (0 : Fin 1) (0 : Fin 1) d) (by intro a; fin_cases a <;> rfl)]
  rw [broadcastInDim_apply _ _ _ (ix3 (0 : Fin 1) (0 : Fin 1) d) (ix1 d) (by intro a; fin_cases a <;> rfl)]

/-! ## The contractions read at an index -/

/-- The contraction of the last axis against a weight matrix, read at an index: the sum over the contracted coordinate. -/
theorem dot4_512_apply (l : FVec Ideal S2x2048x32x512 .f32) (r : FVec Ideal S512x128 .f32) (z : Fin 2) (n : Fin 2048) (k : Fin 32) (j : Fin 128) :
    Host.dotGeneral dot_S2x2048x32x512_S512x128_S2x2048x32x128_3_0_012_1_n_n none l r (ix4 z n k j) = ∑ i : Fin 512, l (ix4 z n k i) * r (ix2 i j) := by
  show FloatOps.dotGeneral _ none _ l r (ix4 z n k j) = _
  rw [Ideal.dotGeneral_apply, ← Equiv.sum_comp (contrEquiv1 dot_S2x2048x32x512_S512x128_S2x2048x32x128_3_0_012_1_n_n 512 rfl rfl).symm]
  refine Finset.sum_congr rfl fun i _ => ?_
  have c2 := contrEquiv1_symm_val dot_S2x2048x32x512_S512x128_S2x2048x32x128_3_0_012_1_n_n 512 rfl rfl i
  have l2 : (dot_S2x2048x32x512_S512x128_S2x2048x32x128_3_0_012_1_n_n).lhsIdx (ix4 z n k j) ((contrEquiv1 _ 512 rfl rfl).symm i) = ix4 z n k i := by
    funext ax; apply Fin.ext
    match ax with
    | ⟨0, _⟩ => simp [DotDims.lhsIdx, dot_S2x2048x32x512_S512x128_S2x2048x32x128_3_0_012_1_n_n]; rfl
    | ⟨1, _⟩ => simp [DotDims.lhsIdx, dot_S2x2048x32x512_S512x128_S2x2048x32x128_3_0_012_1_n_n]; rfl
    | ⟨2, _⟩ => simp [DotDims.lhsIdx, dot_S2x2048x32x512_S512x128_S2x2048x32x128_3_0_012_1_n_n]; rfl
    | ⟨3, _⟩ => simp [DotDims.lhsIdx, dot_S2x2048x32x512_S512x128_S2x2048x32x128_3_0_012_1_n_n]; exact c2
  have r2 : (dot_S2x2048x32x512_S512x128_S2x2048x32x128_3_0_012_1_n_n).rhsIdx (ix4 z n k j) ((contrEquiv1 _ 512 rfl rfl).symm i) = ix2 i j := by
    funext ax; apply Fin.ext
    match ax with
    | ⟨0, _⟩ => simp [DotDims.rhsIdx, dot_S2x2048x32x512_S512x128_S2x2048x32x128_3_0_012_1_n_n]; exact c2
    | ⟨1, _⟩ => simp [DotDims.rhsIdx, dot_S2x2048x32x512_S512x128_S2x2048x32x128_3_0_012_1_n_n]; rfl
  rw [l2, r2]

/-- The contraction of the last axis against a weight matrix, read at an index: the sum over the contracted coordinate. -/
theorem dot4_128_apply (l : FVec Ideal S2x2048x32x128 .f32) (r : FVec Ideal S128x128 .f32) (z : Fin 2) (n : Fin 2048) (k : Fin 32) (j : Fin 128) :
    Host.dotGeneral dot_S2x2048x32x128_S128x128_S2x2048x32x128_3_0_012_1_n_n none l r (ix4 z n k j) = ∑ i : Fin 128, l (ix4 z n k i) * r (ix2 i j) := by
  show FloatOps.dotGeneral _ none _ l r (ix4 z n k j) = _
  rw [Ideal.dotGeneral_apply, ← Equiv.sum_comp (contrEquiv1 dot_S2x2048x32x128_S128x128_S2x2048x32x128_3_0_012_1_n_n 128 rfl rfl).symm]
  refine Finset.sum_congr rfl fun i _ => ?_
  have c2 := contrEquiv1_symm_val dot_S2x2048x32x128_S128x128_S2x2048x32x128_3_0_012_1_n_n 128 rfl rfl i
  have l2 : (dot_S2x2048x32x128_S128x128_S2x2048x32x128_3_0_012_1_n_n).lhsIdx (ix4 z n k j) ((contrEquiv1 _ 128 rfl rfl).symm i) = ix4 z n k i := by
    funext ax; apply Fin.ext
    match ax with
    | ⟨0, _⟩ => simp [DotDims.lhsIdx, dot_S2x2048x32x128_S128x128_S2x2048x32x128_3_0_012_1_n_n]; rfl
    | ⟨1, _⟩ => simp [DotDims.lhsIdx, dot_S2x2048x32x128_S128x128_S2x2048x32x128_3_0_012_1_n_n]; rfl
    | ⟨2, _⟩ => simp [DotDims.lhsIdx, dot_S2x2048x32x128_S128x128_S2x2048x32x128_3_0_012_1_n_n]; rfl
    | ⟨3, _⟩ => simp [DotDims.lhsIdx, dot_S2x2048x32x128_S128x128_S2x2048x32x128_3_0_012_1_n_n]; exact c2
  have r2 : (dot_S2x2048x32x128_S128x128_S2x2048x32x128_3_0_012_1_n_n).rhsIdx (ix4 z n k j) ((contrEquiv1 _ 128 rfl rfl).symm i) = ix2 i j := by
    funext ax; apply Fin.ext
    match ax with
    | ⟨0, _⟩ => simp [DotDims.rhsIdx, dot_S2x2048x32x128_S128x128_S2x2048x32x128_3_0_012_1_n_n]; exact c2
    | ⟨1, _⟩ => simp [DotDims.rhsIdx, dot_S2x2048x32x128_S128x128_S2x2048x32x128_3_0_012_1_n_n]; rfl
  rw [l2, r2]

/-- The contraction of the last axis against a weight matrix, read at an index: the sum over the contracted coordinate. -/
theorem dot3_128_512 (l : FVec Ideal S2x2048x128 .f32) (r : FVec Ideal S128x512 .f32) (z : Fin 2) (n : Fin 2048) (j : Fin 512) :
    Host.dotGeneral dot_S2x2048x128_S128x512_S2x2048x512_2_0_01_1_n_n none l r (ix3 z n j) = ∑ i : Fin 128, l (ix3 z n i) * r (ix2 i j) := by
  show FloatOps.dotGeneral _ none _ l r (ix3 z n j) = _
  rw [Ideal.dotGeneral_apply, ← Equiv.sum_comp (contrEquiv1 dot_S2x2048x128_S128x512_S2x2048x512_2_0_01_1_n_n 128 rfl rfl).symm]
  refine Finset.sum_congr rfl fun i _ => ?_
  have c2 := contrEquiv1_symm_val dot_S2x2048x128_S128x512_S2x2048x512_2_0_01_1_n_n 128 rfl rfl i
  have l2 : (dot_S2x2048x128_S128x512_S2x2048x512_2_0_01_1_n_n).lhsIdx (ix3 z n j) ((contrEquiv1 _ 128 rfl rfl).symm i) = ix3 z n i := by
    funext ax; apply Fin.ext
    match ax with
    | ⟨0, _⟩ => simp [DotDims.lhsIdx, dot_S2x2048x128_S128x512_S2x2048x512_2_0_01_1_n_n]; rfl
    | ⟨1, _⟩ => simp [DotDims.lhsIdx, dot_S2x2048x128_S128x512_S2x2048x512_2_0_01_1_n_n]; rfl
    | ⟨2, _⟩ => simp [DotDims.lhsIdx, dot_S2x2048x128_S128x512_S2x2048x512_2_0_01_1_n_n]; exact c2
  have r2 : (dot_S2x2048x128_S128x512_S2x2048x512_2_0_01_1_n_n).rhsIdx (ix3 z n j) ((contrEquiv1 _ 128 rfl rfl).symm i) = ix2 i j := by
    funext ax; apply Fin.ext
    match ax with
    | ⟨0, _⟩ => simp [DotDims.rhsIdx, dot_S2x2048x128_S128x512_S2x2048x512_2_0_01_1_n_n]; exact c2
    | ⟨1, _⟩ => simp [DotDims.rhsIdx, dot_S2x2048x128_S128x512_S2x2048x512_2_0_01_1_n_n]; rfl
  rw [l2, r2]

/-- The contraction of the last axis against a weight matrix, read at an index: the sum over the contracted coordinate. -/
theorem dot3_512_apply (l : FVec Ideal S2x2048x512 .f32) (r : FVec Ideal S512x128 .f32) (z : Fin 2) (n : Fin 2048) (j : Fin 128) :
    Host.dotGeneral dot_S2x2048x512_S512x128_S2x2048x128_2_0_01_1_n_n none l r (ix3 z n j) = ∑ i : Fin 512, l (ix3 z n i) * r (ix2 i j) := by
  show FloatOps.dotGeneral _ none _ l r (ix3 z n j) = _
  rw [Ideal.dotGeneral_apply, ← Equiv.sum_comp (contrEquiv1 dot_S2x2048x512_S512x128_S2x2048x128_2_0_01_1_n_n 512 rfl rfl).symm]
  refine Finset.sum_congr rfl fun i _ => ?_
  have c2 := contrEquiv1_symm_val dot_S2x2048x512_S512x128_S2x2048x128_2_0_01_1_n_n 512 rfl rfl i
  have l2 : (dot_S2x2048x512_S512x128_S2x2048x128_2_0_01_1_n_n).lhsIdx (ix3 z n j) ((contrEquiv1 _ 512 rfl rfl).symm i) = ix3 z n i := by
    funext ax; apply Fin.ext
    match ax with
    | ⟨0, _⟩ => simp [DotDims.lhsIdx, dot_S2x2048x512_S512x128_S2x2048x128_2_0_01_1_n_n]; rfl
    | ⟨1, _⟩ => simp [DotDims.lhsIdx, dot_S2x2048x512_S512x128_S2x2048x128_2_0_01_1_n_n]; rfl
    | ⟨2, _⟩ => simp [DotDims.lhsIdx, dot_S2x2048x512_S512x128_S2x2048x128_2_0_01_1_n_n]; exact c2
  have r2 : (dot_S2x2048x512_S512x128_S2x2048x128_2_0_01_1_n_n).rhsIdx (ix3 z n j) ((contrEquiv1 _ 512 rfl rfl).symm i) = ix2 i j := by
    funext ax; apply Fin.ext
    match ax with
    | ⟨0, _⟩ => simp [DotDims.rhsIdx, dot_S2x2048x512_S512x128_S2x2048x128_2_0_01_1_n_n]; exact c2
    | ⟨1, _⟩ => simp [DotDims.rhsIdx, dot_S2x2048x512_S512x128_S2x2048x128_2_0_01_1_n_n]; rfl
  rw [l2, r2]

end Cert.RefSide

end
-- ==== Proof.RefValPoint.lean ====
import proofs.«208327_g62569083568895_cont_9to1c4b_407_46_alg».proof.Proof.RefValBase

noncomputable section

namespace Cert.RefSide

open Cert.ReferenceIdeal Cert.ReferenceIdeal.Gen Idealize.ShloMosaic Idealize.ShloMosaic.ValueIdx
open scoped BigOperators

/-! The pointwise stages read at an index, and the exact GELU on a real. -/

theorem hostErfc_apply {s : Shape} (a : FVec Ideal s .f32) (i : s.Idx) : Host.erfc a i = Ideal.erfc (a i) := rfl
theorem hostNegf_apply {s : Shape} (a : FVec Ideal s .f32) (i : s.Idx) : Host.negf a i = -(a i) := rfl
theorem hostSqrt_apply {s : Shape} (a : FVec Ideal s .f32) (i : s.Idx) : Host.sqrt a i = Ideal.sqrt (a i) := rfl

/-- The exact GELU of the program on an extended real. -/
def geluE (x : EReal) : EReal :=
  (Ideal.ofBits .f32 0x3F000000#32 * x) * Ideal.erfc ((-x) * Ideal.ofBits .f32 0x3F3504F3#32)

theorem gelu4_apply (x : FVec Ideal S2x2048x32x128 .f32) (i : S2x2048x32x128.Idx) : gelu4 x i = geluE (x i) := by
  unfold gelu4 geluE
  rw [mulf_apply, mulf_apply, hostErfc_apply, mulf_apply, hostNegf_apply, broadcastInDim_scalar_apply, broadcastInDim_scalar_apply]
  rfl

theorem gelu3_apply (x : FVec Ideal S2x2048x512 .f32) (i : S2x2048x512.Idx) : gelu3 x i = geluE (x i) := by
  unfold gelu3 geluE
  rw [mulf_apply, mulf_apply, hostErfc_apply, mulf_apply, hostNegf_apply, broadcastInDim_scalar_apply, broadcastInDim_scalar_apply]
  rfl

/-- On a real the program's GELU is the real GELU with the constants' real values. -/
theorem geluE_coe (r : ℝ) : geluE (r : EReal) = ((Spec.gelu halfR cR r : ℝ) : EReal) := by
  unfold geluE Spec.gelu
  rw [ofBits_half, ofBits_c, EReal.neg_mul, Ideal.erfc_neg, ← EReal.coe_mul, ← EReal.coe_mul, Ideal.erf_coe]
  rw [show (1 : EReal) = ((1 : ℝ) : EReal) from rfl, ← EReal.coe_add, ← EReal.coe_mul]
  rfl

theorem bias4_apply (b : FVec Ideal S128 .f32) (z : Fin 2) (n : Fin 2048) (k : Fin 32) (j : Fin 128) :
    broadcastInDim S2x2048x32x128 ![0, 1, 2, 3] bcast_S1x1x1x128_S2x2048x32x128_0_1_2_3
      (broadcastInDim S1x1x1x128 ![3] bcast_S128_S1x1x1x128_3 b) (ix4 z n k j) = b (ix1 j) := by
  rw [broadcastInDim_apply _ _ _ (ix4 z n k j) (ix4 (0 : Fin 1) (0 : Fin 1) (0 : Fin 1) j) (by intro a; fin_cases a <;> rfl)]
  rw [broadcastInDim_apply _ _ _ (ix4 (0 : Fin 1) (0 : Fin 1) (0 : Fin 1) j) (ix1 j) (by intro a; fin_cases a <;> rfl)]

theorem bias512_apply (b : FVec Ideal S512 .f32) (z : Fin 2) (n : Fin 2048) (j : Fin 512) :
    broadcastInDim S2x2048x512 ![0, 1, 2] bcast_S1x1x512_S2x2048x512_0_1_2
      (broadcastInDim S1x1x512 ![2] bcast_S512_S1x1x512_2 b) (ix3 z n j) = b (ix1 j) := by
  rw [broadcastInDim_apply _ _ _ (ix3 z n j) (ix3 (0 : Fin 1) (0 : Fin 1) j) (by intro a; fin_cases a <;> rfl)]
  rw [broadcastInDim_apply _ _ _ (ix3 (0 : Fin 1) (0 : Fin 1) j) (ix1 j) (by intro a; fin_cases a <;> rfl)]

theorem lin4_apply (h : FVec Ideal S2x2048x32x128 .f32) (W : FVec Ideal S128x128 .f32) (b : FVec Ideal S128 .f32)
    (z : Fin 2) (n : Fin 2048) (k : Fin 32) (j : Fin 128) :
    lin4 h W b (ix4 z n k j) = (∑ i : Fin 128, h (ix4 z n k i) * W (ix2 i j)) + b (ix1 j) := by
  unfold lin4
  rw [addf_apply, dot4_128_apply, bias4_apply]

theorem lin3a_apply (v : FVec Ideal S2x2048x128 .f32) (W : FVec Ideal S128x512 .f32) (b : FVec Ideal S512 .f32)
    (z : Fin 2) (n : Fin 2048) (j : Fin 512) :
    lin3a v W b (ix3 z n j) = (∑ i : Fin 128, v (ix3 z n i) * W (ix2 i j)) + b (ix1 j) := by
  unfold lin3a
  rw [addf_apply, dot3_128_512, bias512_apply]

theorem resid_apply (v : FVec Ideal S2x2048x128 .f32) (g : FVec Ideal S2x2048x512 .f32) (W : FVec Ideal S512x128 .f32)
    (b : FVec Ideal S128 .f32) (z : Fin 2) (n : Fin 2048) (d : Fin 128) :
    resid v g W b (ix3 z n d) = v (ix3 z n d) + ((∑ j : Fin 512, g (ix3 z n j) * W (ix2 j d)) + b (ix1 d)) := by
  unfold resid
  rw [addf_apply, addf_apply, dot3_512_apply]
  congr 2
  exact rowB3_apply b z n d

theorem addB3_apply (a b : FVec Ideal S2x2048x128 .f32) (i : S2x2048x128.Idx) : addB3 a b i = a i + b i := rfl

end Cert.RefSide

end
-- ==== Proof.RefValReduce.lean ====
import proofs.«208327_g62569083568895_cont_9to1c4b_407_46_alg».proof.Proof.RefValPoint

noncomputable section

namespace Cert.RefSide

open Cert.ReferenceIdeal Cert.ReferenceIdeal.Gen Idealize.ShloMosaic Idealize.ShloMosaic.ValueIdx
open scoped BigOperators

/-! The reductions read at an index: the neighbour sum, the mean, the variance, the normalisation. -/

theorem red3 : S2x2048x128.Reduces [2] S2x2048 := by decide
theorem red4 : S2x2048x32x128.Reduces [2] S2x2048x128 := by decide

/-- A sum over the feature axis of a node array, from a start value. -/
theorem reduceAdd3_apply (x : FVec Ideal S2x2048x128 .f32) (init : FVec Ideal S_ .f32) (z : Fin 2) (n : Fin 2048) :
    Host.reduceAdd x init reducesTo_S2x2048x128_S2x2048_d2 h_S_ (ix2 z n) = init ix0 + ∑ d : Fin 128, x (ix3 z n d) := by
  rw [hostReduceAdd_apply, Ideal.hostReduceAdd_single _ red3]
  refine congrArg₂ (· + ·) (congrArg init (eq_ix0 _)) (Finset.sum_congr rfl fun d _ => congrArg x ?_)
  funext a; apply Fin.ext; fin_cases a <;> rfl

/-- A sum over the neighbour axis of an edge array, from a start value. -/
theorem reduceAdd4_apply (y : FVec Ideal S2x2048x32x128 .f32) (init : FVec Ideal S_ .f32) (z : Fin 2) (n : Fin 2048) (d : Fin 128) :
    Host.reduceAdd y init reducesTo_S2x2048x32x128_S2x2048x128_d2 h_S_ (ix3 z n d) = init ix0 + ∑ k : Fin 32, y (ix4 z n k d) := by
  rw [hostReduceAdd_apply, Ideal.hostReduceAdd_single _ red4]
  refine congrArg₂ (· + ·) (congrArg init (eq_ix0 _)) (Finset.sum_congr rfl fun k _ => congrArg y ?_)
  funext a; apply Fin.ext; fin_cases a <;> rfl

/-- An edge table `[z, n, k]` repeated along the feature axis, read at an index (any element type). -/
theorem edgeB_apply {α : Type} (x : S2x2048x32.Idx → α) (z : Fin 2) (n : Fin 2048) (k : Fin 32) (d : Fin 128) :
    broadcastInDim S2x2048x32x128 ![0, 1, 2, 3] bcast_S2x2048x32x1_S2x2048x32x128_0_1_2_3
      (broadcastInDim S2x2048x32x1 ![0, 1, 2] bcast_S2x2048x32_S2x2048x32x1_0_1_2 x) (ix4 z n k d) = x (ix3 z n k) := by
  rw [broadcastInDim_apply _ _ _ (ix4 z n k d) (ix4 z n k (0 : Fin 1)) (by intro a; fin_cases a <;> rfl)]
  rw [broadcastInDim_apply _ _ _ (ix4 z n k (0 : Fin 1)) (ix3 z n k) (by intro a; fin_cases a <;> rfl)]

/-- A per-node value `[z, n, 1]` repeated along the feature axis. -/
theorem nodeB_apply {α : Type} (x : S2x2048x1.Idx → α) (z : Fin 2) (n : Fin 2048) (d : Fin 128) :
    broadcastInDim S2x2048x128 ![0, 1, 2] bcast_S2x2048x1_S2x2048x128_0_1_2 x (ix3 z n d) = x (ix3 z n (0 : Fin 1)) := by
  rw [broadcastInDim_apply _ _ _ (ix3 z n d) (ix3 z n (0 : Fin 1)) (by intro a; fin_cases a <;> rfl)]

/-- A `[z, n]` array given a unit last axis. -/
theorem keepB_apply {α : Type} (x : S2x2048.Idx → α) (z : Fin 2) (n : Fin 2048) :
    broadcastInDim S2x2048x1 ![0, 1] bcast_S2x2048_S2x2048x1_0_1 x (ix3 z n (0 : Fin 1)) = x (ix2 z n) := by
  rw [broadcastInDim_apply _ _ _ (ix3 z n (0 : Fin 1)) (ix2 z n) (by intro a; fin_cases a <;> rfl)]

theorem x1sum_apply (Vn : FVec Ideal S2x2048x128 .f32) (h : FVec Ideal S2x2048x32x128 .f32) (W : FVec Ideal S128x128 .f32)
    (b : FVec Ideal S128 .f32) (em : FVec Ideal S2x2048x32 .f32) (z : Fin 2) (n : Fin 2048) (d : Fin 128) :
    x1sum Vn h W b em (ix3 z n d) = Vn (ix3 z n d) +
      (0 + ∑ k : Fin 32, ((∑ i : Fin 128, h (ix4 z n k i) * W (ix2 i d)) + b (ix1 d)) * em (ix3 z n k)) := by
  unfold x1sum
  rw [addf_apply, reduceAdd4_apply, constant_apply, Ideal.ofBits_zero_f32]
  refine congrArg₂ (· + ·) rfl (congrArg₂ (· + ·) rfl (Finset.sum_congr rfl fun k _ => ?_))
  rw [mulf_apply, addf_apply, dot4_128_apply, bias4_apply, edgeB_apply]

/-- The mean of a row, as the program computes it. -/
def meanE (x : FVec Ideal S2x2048x128 .f32) (z : Fin 2) (n : Fin 2048) : EReal :=
  Ideal.div (0 + ∑ d : Fin 128, x (ix3 z n d)) ((128 : ℝ) : EReal)

theorem mean3_apply (x : FVec Ideal S2x2048x128 .f32) (z : Fin 2) (n : Fin 2048) :
    mean3 x zeroF (ix3 z n (0 : Fin 1)) = meanE x z n := by
  unfold mean3 zeroF meanE
  rw [hostDivf_apply, keepB_apply, reduceAdd3_apply, broadcastInDim_scalar_apply, constant_apply, constant_apply,
    Ideal.ofBits_zero_f32, ofBits_128]

/-- The variance of a row, as the program computes it at correction zero. -/
def varE (x : FVec Ideal S2x2048x128 .f32) (z : Fin 2) (n : Fin 2048) : EReal :=
  Ideal.div (0 + ∑ d : Fin 128, (x (ix3 z n d) - meanE x z n) * (x (ix3 z n d) - meanE x z n)) ((128 : ℝ) : EReal)

theorem sitofp_zero : FloatOps.sitofp (F := Ideal) .f32 (0#32 : BitVec 32) = ((0 : ℝ) : EReal) := by
  show (((0#32 : BitVec 32).toInt : ℝ) : EReal) = _
  simp

theorem var3_apply (x : FVec Ideal S2x2048x128 .f32) (z : Fin 2) (n : Fin 2048) :
    var3 zeroI x (ix3 z n (0 : Fin 1)) = varE x z n := by
  unfold var3 zeroI varE meanE
  rw [select_apply, broadcastInDim_scalar_apply, cmpf_apply, subf_apply, constant_apply, constant_apply, sitofp_apply,
    ofBits_128, Ideal.ofBits_zero_f32]
  have hc : (constantI S_ 32 0#32 : IVec S_ 32) ix0 = 0#32 := rfl
  rw [hc, sitofp_zero]
  have h1 : FloatOps.cmpf (F := Ideal) (φ := .f32) .ogt (((128 : ℝ) : EReal) - ((0 : ℝ) : EReal)) (0 : EReal) = 1#1 := by
    show Ideal.cmp .ogt _ _ = _
    unfold Ideal.cmp
    rw [← EReal.coe_sub]
    have : (0 : EReal) < (((128 : ℝ) - 0 : ℝ) : EReal) := by exact_mod_cast (by norm_num : (0 : ℝ) < 128 - 0)
    simp [this]
  rw [h1, select_one, hostDivf_apply, keepB_apply, reduceAdd3_apply, broadcastInDim_scalar_apply, subf_apply, constant_apply,
    constant_apply, sitofp_apply, hc, sitofp_zero, ofBits_128, Ideal.ofBits_zero_f32, ← EReal.coe_sub, sub_zero]
  refine congrArg₂ Ideal.div (congrArg₂ (· + ·) rfl (Finset.sum_congr rfl fun d _ => ?_)) rfl
  rw [mulf_apply, subf_apply, nodeB_apply, hostDivf_apply, keepB_apply, reduceAdd3_apply, broadcastInDim_scalar_apply,
    constant_apply, constant_apply, Ideal.ofBits_zero_f32, ofBits_128]

theorem lnScaled_apply (x : FVec Ideal S2x2048x128 .f32) (m v : FVec Ideal S2x2048x1 .f32) (g : FVec Ideal S128 .f32)
    (z : Fin 2) (n : Fin 2048) (d : Fin 128) :
    lnScaled x m v g (ix3 z n d) =
      Ideal.div (x (ix3 z n d) - m (ix3 z n (0 : Fin 1))) (Ideal.sqrt (v (ix3 z n (0 : Fin 1)) + (epsR : EReal))) * g (ix1 d) := by
  unfold lnScaled
  rw [mulf_apply, hostDivf_apply, subf_apply, nodeB_apply, nodeB_apply, hostSqrt_apply, addf_apply,
    broadcastInDim_scalar_apply, constant_apply, ofBits_eps]
  exact congrArg₂ (· * ·) rfl (rowB3_apply g z n d)

end Cert.RefSide

end
-- ==== Proof.RefValCoe.lean ====
import proofs.«208327_g62569083568895_cont_9to1c4b_407_46_alg».proof.Proof.RefValReduce

noncomputable section

namespace Cert.RefSide

open Cert.ReferenceIdeal Cert.ReferenceIdeal.Gen Idealize.ShloMosaic Idealize.ShloMosaic.ValueIdx
open scoped BigOperators

/-! On arrays of reals the stages are the real stages: coercions pushed through sums, the
mean, the variance and the layer norm. -/

/-- A sum of products of coerced reals is the coerced sum of products. -/
theorem sum_mul_coe {m : Nat} (f g : Fin m → EReal) (fr gr : Fin m → ℝ) (hf : ∀ i, f i = (fr i : EReal))
    (hg : ∀ i, g i = (gr i : EReal)) : ∑ i, f i * g i = ((∑ i, fr i * gr i : ℝ) : EReal) := by
  rw [coe_finset_sum]
  exact Finset.sum_congr rfl fun i _ => by rw [hf i, hg i, EReal.coe_mul]

theorem sum_coe {m : Nat} (f : Fin m → EReal) (fr : Fin m → ℝ) (hf : ∀ i, f i = (fr i : EReal)) :
    ∑ i, f i = ((∑ i, fr i : ℝ) : EReal) := by
  rw [coe_finset_sum]
  exact Finset.sum_congr rfl fun i _ => hf i

/-- A linear map with bias on coerced reals. -/
theorem lin_coe {m : Nat} (f g : Fin m → EReal) (b : EReal) (fr gr : Fin m → ℝ) (br : ℝ) (hf : ∀ i, f i = (fr i : EReal))
    (hg : ∀ i, g i = (gr i : EReal)) (hb : b = (br : EReal)) :
    (∑ i, f i * g i) + b = (((∑ i, fr i * gr i) + br : ℝ) : EReal) := by
  rw [sum_mul_coe f g fr gr hf hg, hb, EReal.coe_add]

theorem meanE_coe (x : FVec Ideal S2x2048x128 .f32) (z : Fin 2) (n : Fin 2048) (r : Fin 128 → ℝ)
    (hx : ∀ d, x (ix3 z n d) = (r d : EReal)) : meanE x z n = ((Spec.mean r : ℝ) : EReal) := by
  unfold meanE Spec.mean
  rw [sum_coe _ r hx, zero_add, Ideal.div_coe (by norm_num : (128 : ℝ) ≠ 0), ← EReal.coe_mul]
  congr 1; ring

theorem varE_coe (x : FVec Ideal S2x2048x128 .f32) (z : Fin 2) (n : Fin 2048) (r : Fin 128 → ℝ)
    (hx : ∀ d, x (ix3 z n d) = (r d : EReal)) : varE x z n = ((Spec.var r : ℝ) : EReal) := by
  unfold varE Spec.var
  rw [meanE_coe x z n r hx]
  rw [sum_coe _ (fun d => (r d - Spec.mean r) * (r d - Spec.mean r))
    (fun d => by rw [hx d, ← EReal.coe_sub, ← EReal.coe_mul])]
  rw [zero_add, Ideal.div_coe (by norm_num : (128 : ℝ) ≠ 0), ← EReal.coe_mul]
  congr 1; ring

theorem var_nonneg (r : Fin 128 → ℝ) : 0 ≤ Spec.var r := by
  unfold Spec.var
  exact div_nonneg (Finset.sum_nonneg fun d _ => mul_self_nonneg _) (by norm_num)

/-- The layer norm of the program on a row of coerced reals. -/
theorem ln_coe (x : FVec Ideal S2x2048x128 .f32) (g b : FVec Ideal S128 .f32) (z : Fin 2) (n : Fin 2048)
    (r gr br : Fin 128 → ℝ) (hx : ∀ d, x (ix3 z n d) = (r d : EReal)) (hg : ∀ d, g (ix1 d) = (gr d : EReal))
    (hb : ∀ d, b (ix1 d) = (br d : EReal)) (d : Fin 128) :
    addB3 (lnScaled x (mean3 x zeroF) (var3 zeroI x) g) (rowB3 b) (ix3 z n d) = ((Spec.ln epsR r gr br d : ℝ) : EReal) := by
  rw [addB3_apply, lnScaled_apply, mean3_apply, var3_apply, rowB3_apply, meanE_coe x z n r hx, varE_coe x z n r hx,
    hx d, hg d, hb d]
  have hv : 0 < Spec.var r + epsR := add_pos_of_nonneg_of_pos (var_nonneg r) epsR_pos
  have hs : Real.sqrt (Spec.var r + epsR) ≠ 0 := (Real.sqrt_pos.mpr hv).ne'
  rw [← EReal.coe_add, Ideal.sqrt_coe, if_neg (not_lt.mpr hv.le), Ideal.div_coe hs, ← EReal.coe_sub, ← EReal.coe_mul,
    ← EReal.coe_mul, ← EReal.coe_add]
  congr 1
  unfold Spec.ln
  ring

end Cert.RefSide

end
-- ==== Proof.RefValCat.lean ====
import proofs.«208327_g62569083568895_cont_9to1c4b_407_46_alg».proof.Proof.RefValPoint

noncomputable section

namespace Cert.RefSide

open Cert.ReferenceIdeal Cert.ReferenceIdeal.Gen Idealize.ShloMosaic Idealize.ShloMosaic.ValueIdx
open scoped BigOperators

/-! The concatenations read at an index, and the first linear map. -/

theorem cat2_apply {α : Type} (A B : S2x2048x32x128.Idx → α) (z : Fin 2) (n : Fin 2048) (k : Fin 32) (c : Fin 256) :
    concatenate S2x2048x32x256 3 [⟨S2x2048x32x128, A⟩, ⟨S2x2048x32x128, B⟩]
        concatenates_S2x2048x32x128_S2x2048x32x128_S2x2048x32x256_d3 (ix4 z n k c)
      = if h : c.val < 128 then A (ix4 z n k ⟨c.val, h⟩) else B (ix4 z n k ⟨c.val - 128, by omega⟩) := by
  by_cases h : c.val < 128
  · rw [dif_pos h]
    refine concatenate_apply_piece 3 _ _ (ix4 z n k c) 0 (by simp) S2x2048x32x128 A rfl rfl 0 rfl
      (ix4 z n k ⟨c.val, h⟩) ?_ ?_
    · intro b hb; fin_cases b <;> first | rfl | exact absurd rfl hb
    · show 0 + c.val = c.val; omega
  · rw [dif_neg h]
    refine concatenate_apply_piece 3 _ _ (ix4 z n k c) 1 (by simp) S2x2048x32x128 B rfl rfl 128 rfl
      (ix4 z n k ⟨c.val - 128, by omega⟩) ?_ ?_
    · intro b hb; fin_cases b <;> first | rfl | exact absurd rfl hb
    · show 128 + (c.val - 128) = c.val; omega

theorem cat3_apply {α : Type} (A B : S2x2048x32x128.Idx → α) (C : S2x2048x32x256.Idx → α)
    (z : Fin 2) (n : Fin 2048) (k : Fin 32) (c : Fin 512) :
    concatenate S2x2048x32x512 3 [⟨S2x2048x32x128, A⟩, ⟨S2x2048x32x128, B⟩, ⟨S2x2048x32x256, C⟩]
        concatenates_S2x2048x32x128_S2x2048x32x128_S2x2048x32x256_S2x2048x32x512_d3 (ix4 z n k c)
      = if h : c.val < 128 then A (ix4 z n k ⟨c.val, h⟩)
        else if h2 : c.val < 256 then B (ix4 z n k ⟨c.val - 128, by omega⟩)
        else C (ix4 z n k ⟨c.val - 256, by omega⟩) := by
  by_cases h : c.val < 128
  · rw [dif_pos h]
    refine concatenate_apply_piece 3 _ _ (ix4 z n k c) 0 (by simp) S2x2048x32x128 A rfl rfl 0 rfl
      (ix4 z n k ⟨c.val, h⟩) ?_ ?_
    · intro b hb; fin_cases b <;> first | rfl | exact absurd rfl hb
    · show 0 + c.val = c.val; omega
  · rw [dif_neg h]
    by_cases h2 : c.val < 256
    · rw [dif_pos h2]
      refine concatenate_apply_piece 3 _ _ (ix4 z n k c) 1 (by simp) S2x2048x32x128 B rfl rfl 128 rfl
        (ix4 z n k ⟨c.val - 128, by omega⟩) ?_ ?_
      · intro b hb; fin_cases b <;> first | rfl | exact absurd rfl hb
      · show 128 + (c.val - 128) = c.val; omega
    · rw [dif_neg h2]
      refine concatenate_apply_piece 3 _ _ (ix4 z n k c) 2 (by simp) S2x2048x32x256 C rfl rfl 256 rfl
        (ix4 z n k ⟨c.val - 256, by omega⟩) ?_ ?_
      · intro b hb; fin_cases b <;> first | rfl | exact absurd rfl hb
      · show 256 + (c.val - 256) = c.val; omega

theorem uitofp_apply' {s : Shape} (x : IVec s 1) (i : s.Idx) : (uitofp .f32 x : FVec Ideal s .f32) i = FloatOps.uitofp .f32 (x i) := rfl

theorem ecat_apply (E G : FVec Ideal S2x2048x32x128 .f32) (ar : IVec S2x2048x32 1) (z : Fin 2) (n : Fin 2048) (k : Fin 32) (c : Fin 256) :
    ecat E G ar (ix4 z n k c)
      = if h : c.val < 128 then E (ix4 z n k ⟨c.val, h⟩)
        else G (ix4 z n k ⟨c.val - 128, by omega⟩) * FloatOps.uitofp (F := Ideal) .f32 (ar (ix3 z n k)) := by
  unfold ecat
  rw [cat2_apply]
  by_cases h : c.val < 128
  · rw [dif_pos h, dif_pos h]
  · rw [dif_neg h, dif_neg h, mulf_apply]
    refine congrArg₂ (· * ·) rfl ?_
    rw [broadcastInDim_apply _ _ _ (ix4 z n k (⟨c.val - 128, by omega⟩ : Fin 128)) (ix4 z n k (0 : Fin 1)) (by intro a; fin_cases a <;> rfl)]
    rw [uitofp_apply']
    rw [broadcastInDim_apply _ _ _ (ix4 z n k (0 : Fin 1)) (ix3 z n k) (by intro a; fin_cases a <;> rfl)]

/-- The 512 concatenated features of an edge, as the program forms them. -/
def catE (Vi : FVec Ideal S2x2048x32x128 .f32) (ar : IVec S2x2048x32 1) (Vjn Vjo : FVec Ideal S2x2048x32x128 .f32)
    (Ec : FVec Ideal S2x2048x32x256 .f32) (z : Fin 2) (n : Fin 2048) (k : Fin 32) (c : Fin 512) : EReal :=
  if h : c.val < 128 then Vi (ix4 z n k ⟨c.val, h⟩)
  else if h2 : c.val < 256 then
    Scalar.select (ar (ix3 z n k)) (Vjn (ix4 z n k ⟨c.val - 128, by omega⟩)) (Vjo (ix4 z n k ⟨c.val - 128, by omega⟩))
  else Ec (ix4 z n k ⟨c.val - 256, by omega⟩)

theorem pre1_apply (Vi : FVec Ideal S2x2048x32x128 .f32) (ar : IVec S2x2048x32 1) (Vjn Vjo : FVec Ideal S2x2048x32x128 .f32)
    (Ec : FVec Ideal S2x2048x32x256 .f32) (W : FVec Ideal S512x128 .f32) (b : FVec Ideal S128 .f32)
    (z : Fin 2) (n : Fin 2048) (k : Fin 32) (j : Fin 128) :
    pre1 Vi ar Vjn Vjo Ec W b (ix4 z n k j) = (∑ c : Fin 512, catE Vi ar Vjn Vjo Ec z n k c * W (ix2 c j)) + b (ix1 j) := by
  unfold pre1
  rw [addf_apply, dot4_512_apply, bias4_apply]
  refine congrArg₂ (· + ·) (Finset.sum_congr rfl fun c _ => congrArg₂ (· * ·) ?_ rfl) rfl
  rw [cat3_apply]
  unfold catE
  by_cases h : c.val < 128
  · rw [dif_pos h, dif_pos h]
  · rw [dif_neg h, dif_neg h]
    by_cases h2 : c.val < 256
    · rw [dif_pos h2, dif_pos h2, select_apply]
      refine congrArg (fun w => Scalar.select w _ _) ?_
      rw [broadcastInDim_apply _ _ _ (ix4 z n k (⟨c.val - 128, by omega⟩ : Fin 128)) (ix4 z n k (0 : Fin 1)) (by intro a; fin_cases a <;> rfl)]
      rw [broadcastInDim_apply _ _ _ (ix4 z n k (0 : Fin 1)) (ix3 z n k) (by intro a; fin_cases a <;> rfl)]
    · rw [dif_neg h2, dif_neg h2]

end Cert.RefSide

end
-- ==== Proof.RefValGather.lean ====
import proofs.«208327_g62569083568895_cont_9to1c4b_407_46_alg».proof.Proof.RefValBase
import Idealize.ShloMosaic.PureOps.Reduce

noncomputable section

namespace Cert.RefSide

open Cert.ReferenceIdeal Cert.ReferenceIdeal.Gen Idealize.ShloMosaic Idealize.ShloMosaic.ValueIdx
open scoped BigOperators

/-! `take_along_axis` read at an index: where the index lies in `[0, 2047]` the result is the
source at that node. -/

theorem red5 : S2x2048x32x128x1.Reduces [4] S2x2048x32x128 := by decide

/-- The wrapped index array of the program, given a trailing unit axis. -/
def taIdx (Kb : IVec S2x2048x32x128 32) : IVec S2x2048x32x128x1 32 :=
  shapeCast S2x2048x32x128x1 (select (cmpi .slt Kb (broadcastInDim S2x2048x32x128 ![] bcast_S_S2x2048x32x128 (constantI S_ 32 0#32)))
    (addi Kb (broadcastInDim S2x2048x32x128 ![] bcast_S_S2x2048x32x128 (constantI S_ 32 2048#32))) Kb)
    shapeCasts_S2x2048x32x128_S2x2048x32x128x1

theorem cmpi_apply' {s : Shape} (p : CmpIPredicate) (x y : IVec s 32) (i : s.Idx) : cmpi p x y i = IntOp.cmpi p (x i) (y i) := rfl
theorem andi_apply' {s : Shape} (x y : IVec s 1) (i : s.Idx) : andi x y i = IntOp.andi (x i) (y i) := rfl

theorem taIdx_apply (Kb : IVec S2x2048x32x128 32) (z : Fin 2) (n : Fin 2048) (k : Fin 32) (d : Fin 128)
    (h0 : 0 ≤ (Kb (ix4 z n k d)).toInt) : taIdx Kb (ix5 z n k d (0 : Fin 1)) = Kb (ix4 z n k d) := by
  unfold taIdx
  rw [shapeCast_apply _ _ (ix5 z n k d (0 : Fin 1)) (ix4 z n k d) (by
    rw [Shape.rowMajor_val_four, Shape.rowMajor_val_five]
    show (((z.val * 2048 + n.val) * 32 + k.val) * 128 + d.val) = ((((z.val * 2048 + n.val) * 32 + k.val) * 128 + d.val) * 1 + 0)
    omega)]
  rw [select_apply, cmpi_apply', broadcastInDim_scalar_apply]
  have hz : (constantI S_ 32 0#32 : IVec S_ 32) ix0 = 0#32 := rfl
  rw [hz]
  have hlt : IntOp.cmpi .slt (Kb (ix4 z n k d)) 0#32 = 0#1 := by
    unfold IntOp.cmpi
    have : (Kb (ix4 z n k d)).slt 0#32 = false := by
      rw [BitVec.slt_eq_decide]; simp; exact h0
    rw [this]; rfl
  rw [hlt, select_zero]

theorem fold_fin_one {β : Type} (f : β → β → β) [Std.Commutative f] [Std.Associative f] (b : β) (g : Fin 1 → β) :
    (Finset.univ : Finset (Fin 1)).fold f b g = f (g 0) b := by
  rw [Finset.univ_unique, Finset.fold_singleton]; rfl

theorem takeCond_apply (Kb : IVec S2x2048x32x128 32) (z : Fin 2) (n : Fin 2048) (k : Fin 32) (d : Fin 128)
    (h0 : 0 ≤ (Kb (ix4 z n k d)).toInt) (h1 : (Kb (ix4 z n k d)).toInt ≤ 2047) :
    Host.reduce IntOp.andi
      (andi (cmpi .sge (taIdx Kb) (broadcastInDim S2x2048x32x128x1 ![] bcast_S_S2x2048x32x128x1 (constantI S_ 32 0#32)))
        (cmpi .sle (taIdx Kb) (broadcastInDim S2x2048x32x128x1 ![0, 1, 2, 3, 4] bcast_S1x1x1x1x1_S2x2048x32x128x1_0_1_2_3_4
          (broadcastInDim S1x1x1x1x1 ![4] bcast_S1_S1x1x1x1x1_4 (constantI S1 32 2047#32)))))
      (constantI S_ 1 1#1) reducesTo_S2x2048x32x128x1_S2x2048x32x128_d4 h_S_ (ix4 z n k d) = 1#1 := by
  rw [Host.reduce_eq_fold_single IntOp.andi _ _ _ red5]
  refine (fold_fin_one IntOp.andi _ _).trans ?_
  have hl : red5.lift (ix4 z n k d) (0 : Fin 1) = ix5 z n k d (0 : Fin 1) := by
    funext a; apply Fin.ext; fin_cases a <;> rfl
  show IntOp.andi (andi _ _ (red5.lift (ix4 z n k d) (0 : Fin 1))) _ = 1#1
  rw [hl, andi_apply', cmpi_apply', cmpi_apply', taIdx_apply Kb z n k d h0, broadcastInDim_scalar_apply]
  rw [broadcastInDim_apply _ _ _ (ix5 z n k d (0 : Fin 1)) (ix5 (0 : Fin 1) (0 : Fin 1) (0 : Fin 1) (0 : Fin 1) (0 : Fin 1))
    (by intro a; fin_cases a <;> rfl)]
  rw [broadcastInDim_apply _ _ _ (ix5 (0 : Fin 1) (0 : Fin 1) (0 : Fin 1) (0 : Fin 1) (0 : Fin 1)) (ix1 (0 : Fin 1))
    (by intro a; fin_cases a <;> rfl)]
  have hz : (constantI S_ 32 0#32 : IVec S_ 32) ix0 = 0#32 := rfl
  have hm : (constantI S1 32 2047#32 : IVec S1 32) (ix1 (0 : Fin 1)) = 2047#32 := rfl
  have hi : (constantI S_ 1 1#1 : IVec S_ 1) (Shape.Idx.first h_S_) = 1#1 := rfl
  rw [hz, hm, hi]
  have hge : IntOp.cmpi .sge (Kb (ix4 z n k d)) 0#32 = 1#1 := by
    unfold IntOp.cmpi
    have : (0#32 : BitVec 32).sle (Kb (ix4 z n k d)) = true := by
      rw [BitVec.sle_eq_decide]; simp; exact h0
    rw [this]; rfl
  have hle : IntOp.cmpi .sle (Kb (ix4 z n k d)) 2047#32 = 1#1 := by
    unfold IntOp.cmpi
    have : (Kb (ix4 z n k d)).sle 2047#32 = true := by
      rw [BitVec.sle_eq_decide]; simp; exact h1
    rw [this]; rfl
  rw [hge, hle]; rfl

/-- The gather of the program read at an index: on the gathered axis the start index (read signed, clamped into
    `[0, 2047]`), on the batching axes the result's own coordinates. -/
theorem gather_apply {α : Type} (X : S2x2048x32x128.Idx → α) (idx : IVec S2x2048x32x128x1 32)
    (z : Fin 2) (n : Fin 2048) (k : Fin 32) (d : Fin 128) :
    Host.gather gather_S2x2048x32x128_S2x2048x32x128x1_S2x2048x32x128_n_1_023_023_1_4_1111 X idx (ix4 z n k d)
      = X (ix4 z ⟨min (idx (ix5 z n k d (0 : Fin 1))).toInt.toNat 2047, by omega⟩ k d) := by
  unfold Host.gather
  congr 1
  funext a
  refine Fin.ext ?_
  show (gather_S2x2048x32x128_S2x2048x32x128x1_S2x2048x32x128_n_1_023_023_1_4_1111).start (ix4 z n k d) idx a + (gather_S2x2048x32x128_S2x2048x32x128x1_S2x2048x32x128_n_1_023_023_1_4_1111).batchCoord (ix4 z n k d) a + (gather_S2x2048x32x128_S2x2048x32x128x1_S2x2048x32x128_n_1_023_023_1_4_1111).offCoord (ix4 z n k d) a = _
  have hsi : (gather_S2x2048x32x128_S2x2048x32x128x1_S2x2048x32x128_n_1_023_023_1_4_1111).siIdx (ix4 z n k d) ⟨0, by decide⟩ = ix5 z n k d (0 : Fin 1) := by
    funext b; refine Fin.ext ?_
    match b with
    | ⟨0, _⟩ => rfl
    | ⟨1, _⟩ => rfl
    | ⟨2, _⟩ => rfl
    | ⟨3, _⟩ => rfl
    | ⟨4, _⟩ => rfl
  fin_cases a
  · have hs : (gather_S2x2048x32x128_S2x2048x32x128x1_S2x2048x32x128_n_1_023_023_1_4_1111).start (ix4 z n k d) idx (0 : Fin 4) = 0 := rfl
    have hb : (gather_S2x2048x32x128_S2x2048x32x128x1_S2x2048x32x128_n_1_023_023_1_4_1111).batchCoord (ix4 z n k d) (0 : Fin 4) = z.val := rfl
    have ho : (gather_S2x2048x32x128_S2x2048x32x128x1_S2x2048x32x128_n_1_023_023_1_4_1111).offCoord (ix4 z n k d) (0 : Fin 4) = 0 := rfl
    show (gather_S2x2048x32x128_S2x2048x32x128x1_S2x2048x32x128_n_1_023_023_1_4_1111).start (ix4 z n k d) idx (0 : Fin 4) + (gather_S2x2048x32x128_S2x2048x32x128x1_S2x2048x32x128_n_1_023_023_1_4_1111).batchCoord (ix4 z n k d) (0 : Fin 4) + (gather_S2x2048x32x128_S2x2048x32x128x1_S2x2048x32x128_n_1_023_023_1_4_1111).offCoord (ix4 z n k d) (0 : Fin 4) = z.val
    rw [hs, hb, ho]; omega
  · have hs : (gather_S2x2048x32x128_S2x2048x32x128x1_S2x2048x32x128_n_1_023_023_1_4_1111).start (ix4 z n k d) idx (1 : Fin 4)
        = min (idx ((gather_S2x2048x32x128_S2x2048x32x128x1_S2x2048x32x128_n_1_023_023_1_4_1111).siIdx (ix4 z n k d) ⟨0, by decide⟩)).toInt.toNat 2047 := rfl
    have hb : (gather_S2x2048x32x128_S2x2048x32x128x1_S2x2048x32x128_n_1_023_023_1_4_1111).batchCoord (ix4 z n k d) (1 : Fin 4) = 0 := rfl
    have ho : (gather_S2x2048x32x128_S2x2048x32x128x1_S2x2048x32x128_n_1_023_023_1_4_1111).offCoord (ix4 z n k d) (1 : Fin 4) = 0 := rfl
    show (gather_S2x2048x32x128_S2x2048x32x128x1_S2x2048x32x128_n_1_023_023_1_4_1111).start (ix4 z n k d) idx (1 : Fin 4) + (gather_S2x2048x32x128_S2x2048x32x128x1_S2x2048x32x128_n_1_023_023_1_4_1111).batchCoord (ix4 z n k d) (1 : Fin 4) + (gather_S2x2048x32x128_S2x2048x32x128x1_S2x2048x32x128_n_1_023_023_1_4_1111).offCoord (ix4 z n k d) (1 : Fin 4) = min (idx (ix5 z n k d (0 : Fin 1))).toInt.toNat 2047
    rw [hs, hb, ho, hsi]; omega
  · have hs : (gather_S2x2048x32x128_S2x2048x32x128x1_S2x2048x32x128_n_1_023_023_1_4_1111).start (ix4 z n k d) idx (2 : Fin 4) = 0 := rfl
    have hb : (gather_S2x2048x32x128_S2x2048x32x128x1_S2x2048x32x128_n_1_023_023_1_4_1111).batchCoord (ix4 z n k d) (2 : Fin 4) = k.val := rfl
    have ho : (gather_S2x2048x32x128_S2x2048x32x128x1_S2x2048x32x128_n_1_023_023_1_4_1111).offCoord (ix4 z n k d) (2 : Fin 4) = 0 := rfl
    show (gather_S2x2048x32x128_S2x2048x32x128x1_S2x2048x32x128_n_1_023_023_1_4_1111).start (ix4 z n k d) idx (2 : Fin 4) + (gather_S2x2048x32x128_S2x2048x32x128x1_S2x2048x32x128_n_1_023_023_1_4_1111).batchCoord (ix4 z n k d) (2 : Fin 4) + (gather_S2x2048x32x128_S2x2048x32x128x1_S2x2048x32x128_n_1_023_023_1_4_1111).offCoord (ix4 z n k d) (2 : Fin 4) = k.val
    rw [hs, hb, ho]; omega
  · have hs : (gather_S2x2048x32x128_S2x2048x32x128x1_S2x2048x32x128_n_1_023_023_1_4_1111).start (ix4 z n k d) idx (3 : Fin 4) = 0 := rfl
    have hb : (gather_S2x2048x32x128_S2x2048x32x128x1_S2x2048x32x128_n_1_023_023_1_4_1111).batchCoord (ix4 z n k d) (3 : Fin 4) = d.val := rfl
    have ho : (gather_S2x2048x32x128_S2x2048x32x128x1_S2x2048x32x128_n_1_023_023_1_4_1111).offCoord (ix4 z n k d) (3 : Fin 4) = 0 := rfl
    show (gather_S2x2048x32x128_S2x2048x32x128x1_S2x2048x32x128_n_1_023_023_1_4_1111).start (ix4 z n k d) idx (3 : Fin 4) + (gather_S2x2048x32x128_S2x2048x32x128x1_S2x2048x32x128_n_1_023_023_1_4_1111).batchCoord (ix4 z n k d) (3 : Fin 4) + (gather_S2x2048x32x128_S2x2048x32x128x1_S2x2048x32x128_n_1_023_023_1_4_1111).offCoord (ix4 z n k d) (3 : Fin 4) = d.val
    rw [hs, hb, ho]; omega

/-- `take_along_axis` at an index whose table entry lies in `[0, 2047]`: the source at that node. -/
theorem takeAlong_apply (Kb : IVec S2x2048x32x128 32) (X : FVec Ideal S2x2048x32x128 .f32)
    (z : Fin 2) (n : Fin 2048) (k : Fin 32) (d : Fin 128)
    (h0 : 0 ≤ (Kb (ix4 z n k d)).toInt) (h1 : (Kb (ix4 z n k d)).toInt ≤ 2047) :
    takeAlong Kb X (ix4 z n k d) = X (ix4 z ⟨min (Kb (ix4 z n k d)).toInt.toNat 2047, by omega⟩ k d) := by
  show select (Host.reduce IntOp.andi (andi (cmpi .sge (taIdx Kb) _) (cmpi .sle (taIdx Kb) _)) _ _ _)
    (Host.gather _ X (taIdx Kb)) _ (ix4 z n k d) = _
  rw [select_apply, takeCond_apply Kb z n k d h0 h1, select_one, gather_apply]
  refine congrArg X (congrArg (fun t => ix4 z t k d) (Fin.ext ?_))
  show min (taIdx Kb (ix5 z n k d (0 : Fin 1))).toInt.toNat 2047 = min (Kb (ix4 z n k d)).toInt.toNat 2047
  rw [taIdx_apply Kb z n k d h0]

end Cert.RefSide

end
-- ==== Proof.RefValFinal.lean ====
import proofs.«208327_g62569083568895_cont_9to1c4b_407_46_alg».proof.Proof.RefValCoe
import proofs.«208327_g62569083568895_cont_9to1c4b_407_46_alg».proof.Proof.RefValCat
import proofs.«208327_g62569083568895_cont_9to1c4b_407_46_alg».proof.Proof.RefValGather

noncomputable section

namespace Cert.RefSide

open Cert.ReferenceIdeal Cert.ReferenceIdeal.Gen Idealize.ShloMosaic Idealize.ShloMosaic.ValueIdx
open scoped BigOperators

/-! The reference's result is the real layer: for argument arrays that are (coercions of) real
arrays, with the neighbour table in `[0, 2047]`, `refTerm` at every index is the coercion of
`Spec.out`. Stage by stage. -/

/-- The argument arrays `A` are the real inputs `I`. -/
structure Agree (A : Args Ideal) (I : Spec.Inp) : Prop where
  Vn : ∀ z n d, A.Vn (ix3 z n d) = ((I.Vn z n d : ℝ) : EReal)
  Vo : ∀ z n d, A.Vo (ix3 z n d) = ((I.Vo z n d : ℝ) : EReal)
  E : ∀ z n k d, A.E (ix4 z n k d) = ((I.E z n k d : ℝ) : EReal)
  K : ∀ z n k, (A.K (ix3 z n k)).toInt = ((I.K z n k).val : ℤ)
  S : ∀ z n d, A.S (ix3 z n d) = ((I.S z n d : ℝ) : EReal)
  em : ∀ z n k, A.em (ix3 z n k) = ((I.em z n k : ℝ) : EReal)
  ar : ∀ z n k, A.ar (ix3 z n k) = BitVec.ofBool (I.ar z n k)
  W0 : ∀ i j, A.W0 (ix2 i j) = ((I.W0 i j : ℝ) : EReal)
  b0 : ∀ j, A.b0 (ix1 j) = ((I.b0 j : ℝ) : EReal)
  W1 : ∀ i j, A.W1 (ix2 i j) = ((I.W1 i j : ℝ) : EReal)
  b1 : ∀ j, A.b1 (ix1 j) = ((I.b1 j : ℝ) : EReal)
  W2 : ∀ i j, A.W2 (ix2 i j) = ((I.W2 i j : ℝ) : EReal)
  b2 : ∀ j, A.b2 (ix1 j) = ((I.b2 j : ℝ) : EReal)
  F0 : ∀ i j, A.F0 (ix2 i j) = ((I.F0 i j : ℝ) : EReal)
  fb0 : ∀ j, A.fb0 (ix1 j) = ((I.fb0 j : ℝ) : EReal)
  F1 : ∀ i j, A.F1 (ix2 i j) = ((I.F1 i j : ℝ) : EReal)
  fb1 : ∀ j, A.fb1 (ix1 j) = ((I.fb1 j : ℝ) : EReal)
  g1 : ∀ j, A.g1 (ix1 j) = ((I.g1 j : ℝ) : EReal)
  be1 : ∀ j, A.be1 (ix1 j) = ((I.be1 j : ℝ) : EReal)
  g2 : ∀ j, A.g2 (ix1 j) = ((I.g2 j : ℝ) : EReal)
  be2 : ∀ j, A.be2 (ix1 j) = ((I.be2 j : ℝ) : EReal)
  half : I.half = halfR
  c : I.c = cR
  eps : I.eps = epsR

variable {A : Args Ideal} {I : Spec.Inp}

/-- A node array gathered along the neighbour table: the source at the neighbour's node. -/
theorem gatherRow (X : FVec Ideal S2x2048x128 .f32) (K : IVec S2x2048x32 32) (z : Fin 2) (n : Fin 2048) (k : Fin 32)
    (d : Fin 128) (kk : Fin 2048) (hK : (K (ix3 z n k)).toInt = (kk.val : ℤ)) :
    takeAlong (idxB K) (rowB X) (ix4 z n k d) = X (ix3 z kk d) := by
  have hi : idxB K (ix4 z n k d) = K (ix3 z n k) := idxB_apply K z n k d
  have hkk := kk.isLt
  rw [takeAlong_apply (idxB K) (rowB X) z n k d (by rw [hi, hK]; omega) (by rw [hi, hK]; omega), rowB_apply]
  refine congrArg X (congrArg (fun t => ix3 z t d) (Fin.ext ?_))
  show min (idxB K (ix4 z n k d)).toInt.toNat 2047 = kk.val
  rw [hi, hK, Int.toNat_natCast]; omega

theorem uitofp_ofBool (b : Bool) :
    FloatOps.uitofp (F := Ideal) .f32 (BitVec.ofBool b) = (((if b then 1 else 0 : ℝ)) : EReal) := by
  show ((((BitVec.ofBool b).toNat : ℝ)) : EReal) = _
  cases b <;> simp

theorem v9_eq (h : Agree A I) (z : Fin 2) (n : Fin 2048) (k : Fin 32) (c : Fin 256) :
    res_main_v9 A (ix4 z n k c)
      = (((if hc : c.val < 128 then I.E z n k ⟨c.val, hc⟩ else Spec.Es I z n k ⟨c.val - 128, by omega⟩ : ℝ)) : EReal) := by
  show ecat A.E (takeAlong (idxB A.K) (rowB A.S)) A.ar (ix4 z n k c) = _
  rw [ecat_apply]
  by_cases hc : c.val < 128
  · rw [dif_pos hc, dif_pos hc, h.E]
  · rw [dif_neg hc, dif_neg hc, gatherRow A.S A.K z n k _ (I.K z n k) (h.K z n k), h.S, h.ar, uitofp_ofBool, ← EReal.coe_mul]
    rfl

theorem cat_eq (h : Agree A I) (z : Fin 2) (n : Fin 2048) (k : Fin 32) (c : Fin 512) :
    catE (res_main_v11 A) A.ar (res_main_v14 A) (res_main_v19 A) (res_main_v9 A) z n k c = ((Spec.cat I z n k c : ℝ) : EReal) := by
  unfold catE Spec.cat
  by_cases h1 : c.val < 128
  · rw [dif_pos h1, dif_pos h1]
    show rowB A.Vn (ix4 z n k ⟨c.val, h1⟩) = _
    rw [rowB_apply, h.Vn]
  · rw [dif_neg h1, dif_neg h1]
    by_cases h2 : c.val < 256
    · rw [dif_pos h2, dif_pos h2, h.ar]
      show Scalar.select _ (takeAlong (idxB A.K) (rowB A.Vn) _) (takeAlong (idxB A.K) (rowB A.Vo) _) = _
      rw [gatherRow A.Vn A.K z n k _ (I.K z n k) (h.K z n k), gatherRow A.Vo A.K z n k _ (I.K z n k) (h.K z n k), h.Vn, h.Vo]
      unfold Spec.Vj
      cases I.ar z n k
      · show Scalar.select 0#1 _ _ = _
        rw [select_zero]; rfl
      · show Scalar.select 1#1 _ _ = _
        rw [select_one]; rfl
    · rw [dif_neg h2, dif_neg h2, v9_eq h]
      by_cases h3 : c.val < 384
      · rw [dif_pos (by show c.val - 256 < 128; omega), dif_pos h3]
      · rw [dif_neg (by show ¬ c.val - 256 < 128; omega), dif_neg h3]
        refine congrArg (fun t => ((Spec.Es I z n k t : ℝ) : EReal)) (Fin.ext ?_)
        show c.val - 256 - 128 = c.val - 384
        omega

theorem v26_eq (h : Agree A I) (z : Fin 2) (n : Fin 2048) (k : Fin 32) (j : Fin 128) :
    res_main_v26 A (ix4 z n k j) = (((∑ i, Spec.cat I z n k i * I.W0 i j) + I.b0 j : ℝ) : EReal) := by
  show pre1 (res_main_v11 A) A.ar (res_main_v14 A) (res_main_v19 A) (res_main_v9 A) A.W0 A.b0 (ix4 z n k j) = _
  rw [pre1_apply]
  exact lin_coe _ _ _ _ _ _ (fun c => cat_eq h z n k c) (fun c => h.W0 c j) (h.b0 j)

theorem v33_eq (h : Agree A I) (z : Fin 2) (n : Fin 2048) (k : Fin 32) (j : Fin 128) :
    res_main_v33 A (ix4 z n k j) = ((Spec.h1 I z n k j : ℝ) : EReal) := by
  show gelu4 (res_main_v26 A) (ix4 z n k j) = _
  rw [gelu4_apply, v26_eq h, geluE_coe]
  unfold Spec.h1; rw [h.half, h.c]

theorem v44_eq (h : Agree A I) (z : Fin 2) (n : Fin 2048) (k : Fin 32) (j : Fin 128) :
    res_main_v44 A (ix4 z n k j) = ((Spec.h2 I z n k j : ℝ) : EReal) := by
  show gelu4 (lin4 (res_main_v33 A) A.W1 A.b1) (ix4 z n k j) = _
  rw [gelu4_apply, lin4_apply, lin_coe _ _ _ _ _ _ (fun i => v33_eq h z n k i) (fun i => h.W1 i j) (h.b1 j), geluE_coe]
  unfold Spec.h2; rw [h.half, h.c]

theorem v53_eq (h : Agree A I) (z : Fin 2) (n : Fin 2048) (d : Fin 128) :
    res_main_v53 A (ix3 z n d) = ((Spec.x1 I z n d : ℝ) : EReal) := by
  show x1sum A.Vn (res_main_v44 A) A.W2 A.b2 A.em (ix3 z n d) = _
  rw [x1sum_apply, h.Vn, zero_add]
  rw [sum_coe _ (fun k => Spec.mv I z n k d) (fun k => by
    rw [lin_coe _ _ _ _ _ _ (fun i => v44_eq h z n k i) (fun i => h.W2 i d) (h.b2 d), h.em, ← EReal.coe_mul]; rfl)]
  rw [← EReal.coe_add]; rfl

theorem v71_eq (h : Agree A I) (z : Fin 2) (n : Fin 2048) (d : Fin 128) :
    res_main_v71 A (ix3 z n d) = ((Spec.V1 I z n d : ℝ) : EReal) := by
  show addB3 (lnScaled (res_main_v53 A) (mean3 (res_main_v53 A) zeroF) (var3 zeroI (res_main_v53 A)) A.g1) (rowB3 A.be1)
    (ix3 z n d) = _
  rw [ln_coe (res_main_v53 A) A.g1 A.be1 z n (Spec.x1 I z n) I.g1 I.be1 (fun e => v53_eq h z n e) h.g1 h.be1 d]
  unfold Spec.V1; rw [h.eps]

theorem v82_eq (h : Agree A I) (z : Fin 2) (n : Fin 2048) (j : Fin 512) :
    res_main_v82 A (ix3 z n j) = ((Spec.ffh I z n j : ℝ) : EReal) := by
  show gelu3 (lin3a (res_main_v71 A) A.F0 A.fb0) (ix3 z n j) = _
  rw [gelu3_apply, lin3a_apply, lin_coe _ _ _ _ _ _ (fun i => v71_eq h z n i) (fun i => h.F0 i j) (h.fb0 j), geluE_coe]
  unfold Spec.ffh; rw [h.half, h.c]

theorem v87_eq (h : Agree A I) (z : Fin 2) (n : Fin 2048) (d : Fin 128) :
    res_main_v87 A (ix3 z n d) = ((Spec.V1 I z n d + Spec.ff I z n d : ℝ) : EReal) := by
  show resid (res_main_v71 A) (res_main_v82 A) A.F1 A.fb1 (ix3 z n d) = _
  rw [resid_apply, v71_eq h, lin_coe _ _ _ _ _ _ (fun j => v82_eq h z n j) (fun j => h.F1 j d) (h.fb1 d), ← EReal.coe_add]
  rfl

/-- The result buffer's term at every index is the real layer's value. -/
theorem v105_eq (h : Agree A I) (z : Fin 2) (n : Fin 2048) (d : Fin 128) :
    res_main_v105 A (ix3 z n d) = ((Spec.out I z n d : ℝ) : EReal) := by
  show addB3 (lnScaled (res_main_v87 A) (mean3 (res_main_v87 A) zeroF) (var3 zeroI (res_main_v87 A)) A.g2) (rowB3 A.be2)
    (ix3 z n d) = _
  rw [ln_coe (res_main_v87 A) A.g2 A.be2 z n (fun e => Spec.V1 I z n e + Spec.ff I z n e) I.g2 I.be2
    (fun e => v87_eq h z n e) h.g2 h.be2 d]
  unfold Spec.out; rw [h.eps]

/-- `refTerm` of argument arrays that are the real inputs `I`, at every index, is `Spec.out I`. -/
theorem refTerm_eq (h : Agree A I) (z : Fin 2) (n : Fin 2048) (d : Fin 128) :
    refTerm A.Vn A.Vo A.E A.K A.S A.em A.ar A.W0 A.b0 A.W1 A.b1 A.W2 A.b2 A.F0 A.fb0 A.F1 A.fb1 A.g1 A.be1 A.g2 A.be2 (ix3 z n d)
      = ((Spec.out I z n d : ℝ) : EReal) :=
  v105_eq h z n d

end Cert.RefSide

end
-- ==== Proof.RefValPre.lean ====
import proofs.«208327_g62569083568895_cont_9to1c4b_407_46_alg».proof.Proof.RefValFinal

noncomputable section

namespace Cert.RefSide

open Cert.ReferenceIdeal Cert.ReferenceIdeal.Gen Idealize.ShloMosaic Idealize.ShloMosaic.ValueIdx
open scoped BigOperators

/-! From entrywise facts to `Agree`: argument arrays whose float entries are all reals and whose
neighbour table lies in `[0, 2047]` are the coercions of their own real parts. -/

/-- Every entry of a float array is a real. -/
def AllReal {s : Shape} (x : FVec Ideal s .f32) : Prop := ∀ i, ∃ r : ℝ, x i = (r : EReal)

theorem coe_toReal_of {x : EReal} (h : ∃ r : ℝ, x = (r : EReal)) : ((x.toReal : ℝ) : EReal) = x := by
  obtain ⟨r, rfl⟩ := h
  rw [EReal.toReal_coe]

/-- The real inputs read off the argument arrays: the real part of each float entry, the table's
    entry as a node number, the mask's bit. -/
def inpOf (A : Args Ideal) : Spec.Inp where
  Vn z n d := (A.Vn (ix3 z n d)).toReal
  Vo z n d := (A.Vo (ix3 z n d)).toReal
  S z n d := (A.S (ix3 z n d)).toReal
  E z n k d := (A.E (ix4 z n k d)).toReal
  K z n k := ⟨min (A.K (ix3 z n k)).toInt.toNat 2047, by omega⟩
  ar z n k := decide (A.ar (ix3 z n k) = 1#1)
  em z n k := (A.em (ix3 z n k)).toReal
  W0 i j := (A.W0 (ix2 i j)).toReal
  W1 i j := (A.W1 (ix2 i j)).toReal
  W2 i j := (A.W2 (ix2 i j)).toReal
  F0 i j := (A.F0 (ix2 i j)).toReal
  F1 i j := (A.F1 (ix2 i j)).toReal
  b0 j := (A.b0 (ix1 j)).toReal
  b1 j := (A.b1 (ix1 j)).toReal
  b2 j := (A.b2 (ix1 j)).toReal
  fb0 j := (A.fb0 (ix1 j)).toReal
  fb1 j := (A.fb1 (ix1 j)).toReal
  g1 j := (A.g1 (ix1 j)).toReal
  be1 j := (A.be1 (ix1 j)).toReal
  g2 j := (A.g2 (ix1 j)).toReal
  be2 j := (A.be2 (ix1 j)).toReal
  half := halfR
  c := cR
  eps := epsR

/-- The entrywise facts the precondition gives. -/
structure Finite (A : Args Ideal) : Prop where
  Vn : AllReal A.Vn
  Vo : AllReal A.Vo
  S : AllReal A.S
  E : AllReal A.E
  em : AllReal A.em
  W0 : AllReal A.W0
  W1 : AllReal A.W1
  W2 : AllReal A.W2
  F0 : AllReal A.F0
  F1 : AllReal A.F1
  b0 : AllReal A.b0
  b1 : AllReal A.b1
  b2 : AllReal A.b2
  fb0 : AllReal A.fb0
  fb1 : AllReal A.fb1
  g1 : AllReal A.g1
  be1 : AllReal A.be1
  g2 : AllReal A.g2
  be2 : AllReal A.be2
  K : ∀ i, 0 ≤ (A.K i).toInt ∧ (A.K i).toInt ≤ 2047

theorem agree_of_finite (A : Args Ideal) (h : Finite A) : Agree A (inpOf A) where
  Vn z n d := (coe_toReal_of (h.Vn _)).symm
  Vo z n d := (coe_toReal_of (h.Vo _)).symm
  S z n d := (coe_toReal_of (h.S _)).symm
  E z n k d := (coe_toReal_of (h.E _)).symm
  em z n k := (coe_toReal_of (h.em _)).symm
  W0 i j := (coe_toReal_of (h.W0 _)).symm
  W1 i j := (coe_toReal_of (h.W1 _)).symm
  W2 i j := (coe_toReal_of (h.W2 _)).symm
  F0 i j := (coe_toReal_of (h.F0 _)).symm
  F1 i j := (coe_toReal_of (h.F1 _)).symm
  b0 j := (coe_toReal_of (h.b0 _)).symm
  b1 j := (coe_toReal_of (h.b1 _)).symm
  b2 j := (coe_toReal_of (h.b2 _)).symm
  fb0 j := (coe_toReal_of (h.fb0 _)).symm
  fb1 j := (coe_toReal_of (h.fb1 _)).symm
  g1 j := (coe_toReal_of (h.g1 _)).symm
  be1 j := (coe_toReal_of (h.be1 _)).symm
  g2 j := (coe_toReal_of (h.g2 _)).symm
  be2 j := (coe_toReal_of (h.be2 _)).symm
  K z n k := by
    show (A.K (ix3 z n k)).toInt = ((min (A.K (ix3 z n k)).toInt.toNat 2047 : ℕ) : ℤ)
    have := h.K (ix3 z n k)
    omega
  ar z n k := by
    show A.ar (ix3 z n k) = BitVec.ofBool (decide (A.ar (ix3 z n k) = 1#1))
    rcases BitVec.eq_zero_or_eq_one (A.ar (ix3 z n k)) with e | e <;> rw [e] <;> rfl
  half := rfl
  c := rfl
  eps := rfl

/-- The reference's term on such arguments is the real layer on their real parts. -/
theorem refTerm_eq_of_finite (A : Args Ideal) (h : Finite A) (z : Fin 2) (n : Fin 2048) (d : Fin 128) :
    refTerm A.Vn A.Vo A.E A.K A.S A.em A.ar A.W0 A.b0 A.W1 A.b1 A.W2 A.b2 A.F0 A.fb0 A.F1 A.fb1 A.g1 A.be1 A.g2 A.be2 (ix3 z n d)
      = ((Spec.out (inpOf A) z n d : ℝ) : EReal) :=
  refTerm_eq (agree_of_finite A h) z n d

end Cert.RefSide

end
-- ==== Proof.RefValDomain.lean ====
import proofs.«208327_g62569083568895_cont_9to1c4b_407_46_alg».proof.Proof.Gen.Pre_input_domain
import proofs.«208327_g62569083568895_cont_9to1c4b_407_46_alg».proof.Proof.RefValPre
import Idealize.ShloMosaic.Lib.ReduceAll
import Idealize.ShloMosaic.Lib.WordArith

noncomputable section

namespace Cert.RefSide

open Idealize.ShloMosaic Idealize.ShloMosaic.ValueIdx Cert.Pre_input_domain Cert.Pre_input_domain.Gen

/-! The precondition decoded: where the input-domain function is all ones, the neighbour table
lies in `[0, 2047]` (for any float values) and, at the ideal instance, every float entry is a
real; hence the reference's term is the real layer on the arguments' real parts. -/

instance : Subsingleton (⟨0, ![]⟩ : Shape).Idx := ⟨fun a b => funext fun d => d.elim0⟩

theorem ofBool_one {b : Bool} (h : BitVec.ofBool b = 1#1) : b = true := by
  revert h; cases b <;> decide

/-- An all-ones test of `0 ≤ K ≤ 2047` gives the range at every entry. -/
theorem kRange_of_test {s : Shape} {axes : List (Fin s.rank)} (K : IVec s 32) (hb : (⟨0, ![]⟩ : Shape).BroadcastsInDim s ![])
    (hr : s.ReducesTo axes ⟨0, ![]⟩) (hu : 0 < (⟨0, ![]⟩ : Shape).numel)
    (e : Host.reduce IntOp.andi (andi (cmpi .sge K (broadcastInDim s ![] hb (constantI ⟨0, ![]⟩ 32 0#32)))
      (cmpi .sle K (broadcastInDim s ![] hb (constantI ⟨0, ![]⟩ 32 2047#32)))) (constantI ⟨0, ![]⟩ 1 1#1) hr hu ix0 = 1#1) :
    ∀ x, 0 ≤ (K x).toInt ∧ (K x).toInt ≤ 2047 := by
  intro x
  have hx := Host.reduce_andi_all _ _ hr hu ix0 e x
  have hx' : IntOp.andi (IntOp.cmpi .sge (K x) 0#32) (IntOp.cmpi .sle (K x) 2047#32) = 1#1 := by
    rw [← hx]
    show _ = IntOp.andi (IntOp.cmpi .sge (K x) (broadcastInDim s ![] hb (constantI ⟨0, ![]⟩ 32 0#32) x))
      (IntOp.cmpi .sle (K x) (broadcastInDim s ![] hb (constantI ⟨0, ![]⟩ 32 2047#32) x))
    rw [broadcastInDim_scalar_apply, broadcastInDim_scalar_apply]
    rfl
  obtain ⟨hg, hl⟩ := IntOp.andi_eq_one.mp hx'
  unfold IntOp.cmpi at hg hl
  have hg' := ofBool_one hg
  have hl' := ofBool_one hl
  dsimp only at hg' hl'
  rw [BitVec.sle_eq_decide] at hg' hl'
  have h0 : (0#32 : BitVec 32).toInt = 0 := by decide
  have h2047 : (2047#32 : BitVec 32).toInt = 2047 := by decide
  rw [h0] at hg'; rw [h2047] at hl'
  exact ⟨of_decide_eq_true hg', of_decide_eq_true hl'⟩

/-- THE INTEGER PART, for any float values: where the input-domain function is all ones, the neighbour table's every
    entry lies in `[0, 2047]`. -/
theorem kRange {F : FTy → Type} [FloatOps F] (a0 : FVec F S2x2048x128 .f32) (a1 : FVec F S2x2048x128 .f32) (a2 : FVec F S2x2048x32x128 .f32) (a3 : IVec S2x2048x32 32) (a4 : FVec F S2x2048x128 .f32) (a5 : FVec F S2x2048x32 .f32) (a6 : IVec S2x2048x32 1) (a7 : FVec F S512x128 .f32) (a8 : FVec F S128 .f32) (a9 : FVec F S128x128 .f32) (a10 : FVec F S128 .f32) (a11 : FVec F S128x128 .f32) (a12 : FVec F S128 .f32) (a13 : FVec F S128x512 .f32) (a14 : FVec F S512 .f32) (a15 : FVec F S512x128 .f32) (a16 : FVec F S128 .f32) (a17 : FVec F S128 .f32) (a18 : FVec F S128 .f32) (a19 : FVec F S128 .f32) (a20 : FVec F S128 .f32)
    (h : Cert.Pre_input_domain.fn (F := F) a0 a1 a2 a3 a4 a5 a6 a7 a8 a9 a10 a11 a12 a13 a14 a15 a16 a17 a18 a19 a20 = fun _ => 1#1) :
    ∀ x, 0 ≤ (a3 x).toInt ∧ (a3 x).toInt ≤ 2047 := by
  have h0 := congrFun h ix0
  unfold Cert.Pre_input_domain.fn Cert.Pre_input_domain.fn_part1 Cert.Pre_input_domain.fn_part2 Cert.Pre_input_domain.fn_part3 Cert.Pre_input_domain.fn_part4 Cert.Pre_input_domain.fn_part5 at h0
  dsimp only at h0
  obtain ⟨-, hk⟩ := IntOp.andi_eq_one.mp h0
  exact kRange_of_test a3 _ _ _ hk

theorem ofBits_inf : Ideal.ofBits .f32 0x7F800000#32 = ⊤ := by simp [Ideal.ofBits, Ideal.ieee]

/-- An all-ones test of `|x| < +inf` at the ideal instance: every entry is a real. -/
theorem allReal_of_test {s : Shape} {axes : List (Fin s.rank)} (x : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) : AllReal x := by
  intro i
  have hi := Host.reduce_andi_all _ _ hr hu ix0 e i
  rw [cmpf_apply, broadcastInDim_scalar_apply, constant_apply, ofBits_inf] at hi
  change Ideal.cmp .olt (max (x i) (-(x i))) ⊤ = 1#1 at hi
  unfold Ideal.cmp at hi
  have hlt : max (x i) (-(x i)) < ⊤ := of_decide_eq_true (ofBool_one hi)
  have h1 : x i ≠ ⊤ := fun e => by rw [e] at hlt; simp at hlt
  have h2 : x i ≠ ⊥ := fun e => by rw [e] at hlt; simp at hlt
  exact ⟨(x i).toReal, (EReal.coe_toReal h1 h2).symm⟩

/-- At the ideal instance: where the input-domain function is all ones, every float entry is a real and the table is
    in range. -/
theorem finite_of_pre (A : Args Ideal)
    (h : Cert.Pre_input_domain.fn (F := Ideal) A.Vn A.Vo A.E A.K A.S A.em A.ar A.W0 A.b0 A.W1 A.b1 A.W2 A.b2 A.F0 A.fb0 A.F1 A.fb1
      A.g1 A.be1 A.g2 A.be2 = fun _ => 1#1) : Finite A := by
  have hK := kRange A.Vn A.Vo A.E A.K A.S A.em A.ar A.W0 A.b0 A.W1 A.b1 A.W2 A.b2 A.F0 A.fb0 A.F1 A.fb1 A.g1 A.be1 A.g2 A.be2 h
  have h0 := congrFun h ix0
  unfold Cert.Pre_input_domain.fn Cert.Pre_input_domain.fn_part1 Cert.Pre_input_domain.fn_part2 Cert.Pre_input_domain.fn_part3 Cert.Pre_input_domain.fn_part4 Cert.Pre_input_domain.fn_part5 at h0
  dsimp only at h0
  obtain ⟨h0, -⟩ := IntOp.andi_eq_one.mp h0
  obtain ⟨h0, t20⟩ := IntOp.andi_eq_one.mp h0
  obtain ⟨h0, t19⟩ := IntOp.andi_eq_one.mp h0
  obtain ⟨h0, t18⟩ := IntOp.andi_eq_one.mp h0
  obtain ⟨h0, t17⟩ := IntOp.andi_eq_one.mp h0
  obtain ⟨h0, t16⟩ := IntOp.andi_eq_one.mp h0
  obtain ⟨h0, t15⟩ := IntOp.andi_eq_one.mp h0
  obtain ⟨h0, t14⟩ := IntOp.andi_eq_one.mp h0
  obtain ⟨h0, t13⟩ := IntOp.andi_eq_one.mp h0
  obtain ⟨h0, t12⟩ := IntOp.andi_eq_one.mp h0
  obtain ⟨h0, t11⟩ := IntOp.andi_eq_one.mp h0
  obtain ⟨h0, t10⟩ := IntOp.andi_eq_one.mp h0
  obtain ⟨h0, t9⟩ := IntOp.andi_eq_one.mp h0
  obtain ⟨h0, t8⟩ := IntOp.andi_eq_one.mp h0
  obtain ⟨h0, t7⟩ := IntOp.andi_eq_one.mp h0
  obtain ⟨h0, t5⟩ := IntOp.andi_eq_one.mp h0
  obtain ⟨h0, t4⟩ := IntOp.andi_eq_one.mp h0
  obtain ⟨h0, t2⟩ := IntOp.andi_eq_one.mp h0
  obtain ⟨t0, t1⟩ := IntOp.andi_eq_one.mp h0
  exact {
    Vn := allReal_of_test _ _ _ _ t0
    Vo := allReal_of_test _ _ _ _ t1
    E := allReal_of_test _ _ _ _ t2
    S := allReal_of_test _ _ _ _ t4
    em := allReal_of_test _ _ _ _ t5
    W0 := allReal_of_test _ _ _ _ t7
    b0 := allReal_of_test _ _ _ _ t8
    W1 := allReal_of_test _ _ _ _ t9
    b1 := allReal_of_test _ _ _ _ t10
    W2 := allReal_of_test _ _ _ _ t11
    b2 := allReal_of_test _ _ _ _ t12
    F0 := allReal_of_test _ _ _ _ t13
    fb0 := allReal_of_test _ _ _ _ t14
    F1 := allReal_of_test _ _ _ _ t15
    fb1 := allReal_of_test _ _ _ _ t16
    g1 := allReal_of_test _ _ _ _ t17
    be1 := allReal_of_test _ _ _ _ t18
    g2 := allReal_of_test _ _ _ _ t19
    be2 := allReal_of_test _ _ _ _ t20
    K := hK }

/-- Under the precondition the reference's term, at every index, is the real layer on the arguments' real parts. -/
theorem refTerm_eq_of_pre (A : Args Ideal)
    (h : Cert.Pre_input_domain.fn (F := Ideal) A.Vn A.Vo A.E A.K A.S A.em A.ar A.W0 A.b0 A.W1 A.b1 A.W2 A.b2 A.F0 A.fb0 A.F1 A.fb1
      A.g1 A.be1 A.g2 A.be2 = fun _ => 1#1) (z : Fin 2) (n : Fin 2048) (d : Fin 128) :
    refTerm A.Vn A.Vo A.E A.K A.S A.em A.ar A.W0 A.b0 A.W1 A.b1 A.W2 A.b2 A.F0 A.fb0 A.F1 A.fb1 A.g1 A.be1 A.g2 A.be2 (ix3 z n d)
      = ((Spec.out (inpOf A) z n d : ℝ) : EReal) :=
  refTerm_eq_of_finite A (finite_of_pre A h) z n d

end Cert.RefSide

end
-- ==== Proof.KerSpec.lean ====
import proofs.«208327_g62569083568895_cont_9to1c4b_407_46_alg».proof.Proof.SpecReal

/-!
# The layer in the kernel's arrangement, on the reals

The kernels compute the same layer differently: the first linear map is split by the four
128-row bands of `W0`; the bands of the gathered node and sequence features are applied BEFORE
the gather, to whole tables whose rows the gather then selects (the old table or the new one
plus the sequence table, by the mask); GELU multiplies `x * half`; the layer norm multiplies by
the inverse square root. On the reals the two arrangements agree.
-/

open scoped BigOperators

namespace Cert.KerSide

open Cert.Spec

/-- The four 128-row bands of the first weight matrix. -/
def W0a (I : Inp) (i j : Fin 128) : ℝ := I.W0 ⟨i.val, by omega⟩ j
def W0b (I : Inp) (i j : Fin 128) : ℝ := I.W0 ⟨128 + i.val, by omega⟩ j
def W0c (I : Inp) (i j : Fin 128) : ℝ := I.W0 ⟨256 + i.val, by omega⟩ j
def W0d (I : Inp) (i j : Fin 128) : ℝ := I.W0 ⟨384 + i.val, by omega⟩ j

/-- A row of the gather table: the old node features through the second band (`a = false`: table rows
    `2048 z + m`), or the new ones through it plus the sequence features through the fourth (`a = true`: rows
    `4096 + 2048 z + m`). -/
noncomputable def Trow (I : Inp) (a : Bool) (z : Fin 2) (m : Fin 2048) (d : Fin 128) : ℝ :=
  if a then (∑ i, I.Vn z m i * W0b I i d) + (∑ i, I.S z m i * W0d I i d) else ∑ i, I.Vo z m i * W0b I i d

/-- The node's own features through the first band. -/
noncomputable def AiR (I : Inp) (z : Fin 2) (n : Fin 2048) (d : Fin 128) : ℝ := ∑ i, I.Vn z n i * W0a I i d

/-- The gathered table row of an edge. -/
noncomputable def GR (I : Inp) (z : Fin 2) (n : Fin 2048) (k : Fin 32) (d : Fin 128) : ℝ :=
  Trow I (I.ar z n k) z (I.K z n k) d

/-- The kernel's GELU. -/
noncomputable def geluK (half c x : ℝ) : ℝ := x * half * (1 + erfR (x * c))

noncomputable def preK (I : Inp) (z : Fin 2) (n : Fin 2048) (k : Fin 32) (j : Fin 128) : ℝ :=
  (((∑ i, I.E z n k i * W0c I i j) + GR I z n k j) + AiR I z n j) + I.b0 j

noncomputable def h1K (I : Inp) (z : Fin 2) (n : Fin 2048) (k : Fin 32) (j : Fin 128) : ℝ :=
  geluK I.half I.c (preK I z n k j)

noncomputable def h2K (I : Inp) (z : Fin 2) (n : Fin 2048) (k : Fin 32) (j : Fin 128) : ℝ :=
  geluK I.half I.c ((∑ i, h1K I z n k i * I.W1 i j) + I.b1 j)

noncomputable def mK (I : Inp) (z : Fin 2) (n : Fin 2048) (k : Fin 32) (j : Fin 128) : ℝ :=
  (∑ i, h2K I z n k i * I.W2 i j) + I.b2 j

noncomputable def x1K (I : Inp) (z : Fin 2) (n : Fin 2048) (d : Fin 128) : ℝ :=
  I.Vn z n d + ∑ k, mK I z n k d * I.em z n k

/-- The kernel's layer norm: the centred value times the inverse square root. -/
noncomputable def lnK (eps : ℝ) (x g b : Fin 128 → ℝ) (d : Fin 128) : ℝ :=
  (x d - mean x) * (Real.sqrt (var x + eps))⁻¹ * g d + b d

noncomputable def V1K (I : Inp) (z : Fin 2) (n : Fin 2048) (d : Fin 128) : ℝ := lnK I.eps (x1K I z n) I.g1 I.be1 d

noncomputable def ffhK (I : Inp) (z : Fin 2) (n : Fin 2048) (j : Fin 512) : ℝ :=
  geluK I.half I.c ((∑ i, V1K I z n i * I.F0 i j) + I.fb0 j)

noncomputable def ffK (I : Inp) (z : Fin 2) (n : Fin 2048) (d : Fin 128) : ℝ :=
  (∑ j, ffhK I z n j * I.F1 j d) + I.fb1 d

/-- The layer's result in the kernel's arrangement. -/
noncomputable def outK (I : Inp) : Fin 2 → Fin 2048 → Fin 128 → ℝ := fun z n d =>
  lnK I.eps (fun e => V1K I z n e + ffK I z n e) I.g2 I.be2 d

/-! ## The two arrangements agree -/

theorem geluK_eq (half c x : ℝ) : geluK half c x = gelu half c x := by unfold geluK gelu; ring

theorem lnK_eq (eps : ℝ) (x g b : Fin 128 → ℝ) (d : Fin 128) : lnK eps x g b d = ln eps x g b d := by
  unfold lnK ln; rw [div_eq_mul_inv]

/-- A sum over 512 as four sums over 128. -/
theorem sum512 (f : Fin 512 → ℝ) :
    ∑ i, f i = (∑ i : Fin 128, f ⟨i.val, by omega⟩) + (∑ i : Fin 128, f ⟨128 + i.val, by omega⟩)
      + (∑ i : Fin 128, f ⟨256 + i.val, by omega⟩) + (∑ i : Fin 128, f ⟨384 + i.val, by omega⟩) := by
  have h1 := Fin.sum_univ_add (a := 256) (b := 256) f
  have h2 := Fin.sum_univ_add (a := 128) (b := 128) (fun i : Fin 256 => f (Fin.castAdd 256 i))
  have h3 := Fin.sum_univ_add (a := 128) (b := 128) (fun i : Fin 256 => f (Fin.natAdd 256 i))
  rw [h1, h2, h3, ← add_assoc]
  refine congrArg₂ (· + ·) (congrArg₂ (· + ·) (congrArg₂ (· + ·) ?_ ?_) ?_) ?_ <;>
    exact Finset.sum_congr rfl fun i _ => congrArg f (Fin.ext (by simp [Fin.val_natAdd, Fin.val_castAdd]; try omega))

theorem preK_eq (I : Inp) (z : Fin 2) (n : Fin 2048) (k : Fin 32) (j : Fin 128) :
    preK I z n k j = (∑ i, cat I z n k i * I.W0 i j) + I.b0 j := by
  unfold preK
  refine congrArg (· + I.b0 j) ?_
  rw [sum512]
  have q1 : ∀ i : Fin 128, cat I z n k ⟨i.val, by omega⟩ = I.Vn z n i := fun i => by
    unfold cat; rw [dif_pos (by show i.val < 128; omega)]
  have q2 : ∀ i : Fin 128, cat I z n k ⟨128 + i.val, by omega⟩ = Vj I z n k i := fun i => by
    unfold cat
    rw [dif_neg (by show ¬ 128 + i.val < 128; omega), dif_pos (by show 128 + i.val < 256; omega)]
    exact congrArg (Vj I z n k) (Fin.ext (by show 128 + i.val - 128 = i.val; omega))
  have q3 : ∀ i : Fin 128, cat I z n k ⟨256 + i.val, by omega⟩ = I.E z n k i := fun i => by
    unfold cat
    rw [dif_neg (by show ¬ 256 + i.val < 128; omega), dif_neg (by show ¬ 256 + i.val < 256; omega),
      dif_pos (by show 256 + i.val < 384; omega)]
    exact congrArg (I.E z n k) (Fin.ext (by show 256 + i.val - 256 = i.val; omega))
  have q4 : ∀ i : Fin 128, cat I z n k ⟨384 + i.val, by omega⟩ = Es I z n k i := fun i => by
    unfold cat
    rw [dif_neg (by show ¬ 384 + i.val < 128; omega), dif_neg (by show ¬ 384 + i.val < 256; omega),
      dif_neg (by show ¬ 384 + i.val < 384; omega)]
    exact congrArg (Es I z n k) (Fin.ext (by show 384 + i.val - 384 = i.val; omega))
  simp only [q1, q2, q3, q4]
  unfold GR Trow AiR Vj Es
  cases I.ar z n k
  · simp only [Bool.false_eq_true, if_false, mul_zero, zero_mul, Finset.sum_const_zero, add_zero]
    unfold W0a W0b W0c
    ring
  · simp only [if_true, mul_one]
    unfold W0a W0b W0c W0d
    ring

theorem h1K_eq (I : Inp) : h1K I = h1 I := by
  funext z n k j; unfold h1K h1; rw [geluK_eq, preK_eq]

theorem h2K_eq (I : Inp) : h2K I = h2 I := by
  funext z n k j; unfold h2K h2; rw [geluK_eq, h1K_eq]

theorem x1K_eq (I : Inp) : x1K I = x1 I := by
  funext z n d; unfold x1K x1 mK mv; rw [h2K_eq]

theorem V1K_eq (I : Inp) : V1K I = V1 I := by
  funext z n d; unfold V1K V1; rw [lnK_eq, x1K_eq]

theorem ffK_eq (I : Inp) : ffK I = ff I := by
  funext z n d; unfold ffK ff ffhK ffh; simp only [geluK_eq, V1K_eq]

/-- On the reals the kernel's arrangement of the layer is the reference's. -/
theorem outK_eq (I : Inp) : outK I = out I := by
  funext z n d; unfold outK out; rw [lnK_eq, V1K_eq, ffK_eq]

end Cert.KerSide
-- ==== Proof.KerMsgTools.lean ====
import proofs.«208327_g62569083568895_cont_9to1c4b_407_46_alg».proof.Proof.BodyIdeal.R2Out
import proofs.«208327_g62569083568895_cont_9to1c4b_407_46_alg».proof.Proof.RefValCoe
import proofs.«208327_g62569083568895_cont_9to1c4b_407_46_alg».proof.Proof.KerSpec
import Idealize.ShloMosaic.Lib.ValueLayout

noncomputable section

namespace Cert.KerSide

open Cert.KernelIdeal Cert.KernelIdeal.Gen Cert.KernelIdeal.Body Idealize.ShloMosaic Idealize.ShloMosaic.ValueIdx
open scoped BigOperators

/-! Reading the message kernel's layout operations, reductions and products at an index. -/

theorem shapeCast_id {α : Type} {s : Shape} (x : s.Idx → α) (h : s.ShapeCasts s) : shapeCast s x h = x :=
  funext fun j => Idealize.ShloMosaic.shapeCast_apply x h j j rfl

theorem sc_8192_of_3 {α : Type} (y : (⟨3, ![256, 32, 128]⟩ : Shape).Idx → α)
    (h : (⟨3, ![256, 32, 128]⟩ : Shape).ShapeCasts ⟨2, ![8192, 128]⟩) (r : Fin 256) (k : Fin 32) (j : Fin 128) :
    shapeCast ⟨2, ![8192, 128]⟩ y h (ix2 (⟨r.val * 32 + k.val, by omega⟩ : Fin 8192) j) = y (ix3 r k j) :=
  Idealize.ShloMosaic.shapeCast_apply y h _ _ (by
    rw [Shape.rowMajor_val_three, Shape.rowMajor_val_two]
    show (r.val * 32 + k.val) * 128 + j.val = (r.val * 32 + k.val) * 128 + j.val
    rfl)

theorem sc_3_of_8192 {α : Type} (y : (⟨2, ![8192, 128]⟩ : Shape).Idx → α)
    (h : (⟨2, ![8192, 128]⟩ : Shape).ShapeCasts ⟨3, ![256, 32, 128]⟩) (r : Fin 256) (k : Fin 32) (j : Fin 128) :
    shapeCast ⟨3, ![256, 32, 128]⟩ y h (ix3 r k j) = y (ix2 (⟨r.val * 32 + k.val, by omega⟩ : Fin 8192) j) :=
  Idealize.ShloMosaic.shapeCast_apply y h _ _ (by
    rw [Shape.rowMajor_val_three, Shape.rowMajor_val_two]
    show (r.val * 32 + k.val) * 128 + j.val = (r.val * 32 + k.val) * 128 + j.val
    rfl)

theorem sc_256x1x128 {α : Type} (y : (⟨2, ![256, 128]⟩ : Shape).Idx → α)
    (h : (⟨2, ![256, 128]⟩ : Shape).ShapeCasts ⟨3, ![256, 1, 128]⟩) (r : Fin 256) (j : Fin 128) :
    shapeCast ⟨3, ![256, 1, 128]⟩ y h (ix3 r (0 : Fin 1) j) = y (ix2 r j) :=
  Idealize.ShloMosaic.shapeCast_apply y h _ _ (by
    rw [Shape.rowMajor_val_three, Shape.rowMajor_val_two]
    show r.val * 128 + j.val = (r.val * 1 + 0) * 128 + j.val
    omega)

theorem sc_256x32x1 {α : Type} (y : (⟨2, ![256, 32]⟩ : Shape).Idx → α)
    (h : (⟨2, ![256, 32]⟩ : Shape).ShapeCasts ⟨3, ![256, 32, 1]⟩) (r : Fin 256) (k : Fin 32) :
    shapeCast ⟨3, ![256, 32, 1]⟩ y h (ix3 r k (0 : Fin 1)) = y (ix2 r k) :=
  Idealize.ShloMosaic.shapeCast_apply y h _ _ (by
    rw [Shape.rowMajor_val_three, Shape.rowMajor_val_two]
    show r.val * 32 + k.val = (r.val * 32 + k.val) * 1 + 0
    omega)

theorem sc_256x1 {α : Type} (y : (⟨1, ![256]⟩ : Shape).Idx → α)
    (h : (⟨1, ![256]⟩ : Shape).ShapeCasts ⟨2, ![256, 1]⟩) (r : Fin 256) :
    shapeCast ⟨2, ![256, 1]⟩ y h (ix2 r (0 : Fin 1)) = y (ix1 r) :=
  Idealize.ShloMosaic.shapeCast_apply y h _ _ (by
    rw [Shape.rowMajor_val_two, Shape.rowMajor_val_one]
    show r.val = r.val * 1 + 0
    omega)

theorem sc_1n_n {α : Type} {m : Nat} (y : (⟨2, ![1, m]⟩ : Shape).Idx → α)
    (h : (⟨2, ![1, m]⟩ : Shape).ShapeCasts ⟨1, ![m]⟩) (j : Fin m) :
    shapeCast ⟨1, ![m]⟩ y h (ix1 j) = y (ix2 (0 : Fin 1) j) :=
  Idealize.ShloMosaic.shapeCast_apply y h _ _ (by
    rw [Shape.rowMajor_val_two, Shape.rowMajor_val_one]
    show 0 * m + j.val = j.val
    omega)

theorem sc_n_1n {α : Type} {m : Nat} (y : (⟨1, ![m]⟩ : Shape).Idx → α)
    (h : (⟨1, ![m]⟩ : Shape).ShapeCasts ⟨2, ![1, m]⟩) (j : Fin m) :
    shapeCast ⟨2, ![1, m]⟩ y h (ix2 (0 : Fin 1) j) = y (ix1 j) :=
  Idealize.ShloMosaic.shapeCast_apply y h _ _ (by
    rw [Shape.rowMajor_val_two, Shape.rowMajor_val_one]
    show j.val = 0 * m + j.val
    omega)

/-- A row `[1, m]` repeated over `a` rows. -/
theorem bt_row {α : Type} {a m : Nat} (y : (⟨2, ![1, m]⟩ : Shape).Idx → α)
    (h : (⟨2, ![1, m]⟩ : Shape).Broadcasts ⟨2, ![a, m]⟩) (R : Fin a) (j : Fin m) :
    broadcastTo ⟨2, ![a, m]⟩ y h (ix2 R j) = y (ix2 (0 : Fin 1) j) :=
  broadcastTo_1b_ab_apply y h R j

/-- A column `[a, 1]` repeated over `m` columns. -/
theorem bt_col {α : Type} (y : (⟨2, ![256, 1]⟩ : Shape).Idx → α)
    (h : (⟨2, ![256, 1]⟩ : Shape).Broadcasts ⟨2, ![256, 128]⟩) (r : Fin 256) (j : Fin 128) :
    broadcastTo ⟨2, ![256, 128]⟩ y h (ix2 r j) = y (ix2 r (0 : Fin 1)) :=
  Idealize.ShloMosaic.broadcastTo_apply y h _ _ (by intro a; fin_cases a <;> rfl)

theorem bt_mid {α : Type} (y : (⟨3, ![256, 1, 128]⟩ : Shape).Idx → α)
    (h : (⟨3, ![256, 1, 128]⟩ : Shape).Broadcasts ⟨3, ![256, 32, 128]⟩) (r : Fin 256) (k : Fin 32) (j : Fin 128) :
    broadcastTo ⟨3, ![256, 32, 128]⟩ y h (ix3 r k j) = y (ix3 r (0 : Fin 1) j) :=
  Idealize.ShloMosaic.broadcastTo_apply y h _ _ (by intro a; fin_cases a <;> rfl)

theorem bt_last {α : Type} (y : (⟨3, ![256, 32, 1]⟩ : Shape).Idx → α)
    (h : (⟨3, ![256, 32, 1]⟩ : Shape).Broadcasts ⟨3, ![256, 32, 128]⟩) (r : Fin 256) (k : Fin 32) (j : Fin 128) :
    broadcastTo ⟨3, ![256, 32, 128]⟩ y h (ix3 r k j) = y (ix3 r k (0 : Fin 1)) :=
  Idealize.ShloMosaic.broadcastTo_apply y h _ _ (by intro a; fin_cases a <;> rfl)

/-- The sum over the feature axis of a `[256, 128]` array. -/
theorem mr_row (v : FVec Ideal ⟨2, ![256, 128]⟩ .f32) (h : (⟨2, ![256, 128]⟩ : Shape).Reduces [1] ⟨1, ![256]⟩)
    (hφ : FKind.Formats .f32) (hacc : (0x00000000#32 : BitVec 32) = 0x00000000#32) (r : Fin 256) :
    multiReduction .add [1] ⟨1, ![256]⟩ v 0x00000000#32 h hφ hacc (ix1 r) = ∑ d : Fin 128, v (ix2 r d) :=
  (Ideal.multiReduction_add_single v _ h hφ hacc (ix1 r)).trans
    (Finset.sum_congr rfl fun d _ => congrArg v (by funext a; apply Fin.ext; fin_cases a <;> rfl))

/-- The sum over the neighbour axis of a `[256, 32, 128]` array. -/
theorem mr_mid (v : FVec Ideal ⟨3, ![256, 32, 128]⟩ .f32) (h : (⟨3, ![256, 32, 128]⟩ : Shape).Reduces [1] ⟨2, ![256, 128]⟩)
    (hφ : FKind.Formats .f32) (hacc : (0x00000000#32 : BitVec 32) = 0x00000000#32) (r : Fin 256) (j : Fin 128) :
    multiReduction .add [1] ⟨2, ![256, 128]⟩ v 0x00000000#32 h hφ hacc (ix2 r j) = ∑ k : Fin 32, v (ix3 r k j) :=
  (Ideal.multiReduction_add_single v _ h hφ hacc (ix2 r j)).trans
    (Finset.sum_congr rfl fun k _ => congrArg v (by funext a; apply Fin.ext; fin_cases a <;> rfl))

theorem mm_8192 (l : FVec Ideal ⟨2, ![8192, 128]⟩ .f32) (w : FVec Ideal ⟨2, ![128, 128]⟩ .f32) (acc : FVec Ideal ⟨2, ![8192, 128]⟩ .f32)
    (R : Fin 8192) (j : Fin 128) :
    matmul dot_S8192x128_S128x128_S8192x128_1_0_0_1_n_n none l w acc (ix2 R j) = acc (ix2 R j) + ∑ i : Fin 128, l (ix2 R i) * w (ix2 i j) := by
  show FloatOps.matmul _ none l w acc (ix2 R j) = _
  rw [Ideal.matmul_apply, ← Equiv.sum_comp (contrEquiv1 dot_S8192x128_S128x128_S8192x128_1_0_0_1_n_n 128 rfl rfl).symm]
  refine congrArg (acc (ix2 R j) + ·) (Finset.sum_congr rfl fun i _ => ?_)
  have c2 := contrEquiv1_symm_val dot_S8192x128_S128x128_S8192x128_1_0_0_1_n_n 128 rfl rfl i
  have l2 : (dot_S8192x128_S128x128_S8192x128_1_0_0_1_n_n).lhsIdx (ix2 R j) ((contrEquiv1 _ 128 rfl rfl).symm i) = ix2 R i := by
    funext ax; apply Fin.ext
    match ax with
    | ⟨0, _⟩ => simp [DotDims.lhsIdx, dot_S8192x128_S128x128_S8192x128_1_0_0_1_n_n]; rfl
    | ⟨1, _⟩ => simp [DotDims.lhsIdx, dot_S8192x128_S128x128_S8192x128_1_0_0_1_n_n]; exact c2
  have r2 : (dot_S8192x128_S128x128_S8192x128_1_0_0_1_n_n).rhsIdx (ix2 R j) ((contrEquiv1 _ 128 rfl rfl).symm i) = ix2 i j := by
    funext ax; apply Fin.ext
    match ax with
    | ⟨0, _⟩ => simp [DotDims.rhsIdx, dot_S8192x128_S128x128_S8192x128_1_0_0_1_n_n]; exact c2
    | ⟨1, _⟩ => simp [DotDims.rhsIdx, dot_S8192x128_S128x128_S8192x128_1_0_0_1_n_n]; rfl
  rw [l2, r2]

theorem mm_256_512 (l : FVec Ideal ⟨2, ![256, 128]⟩ .f32) (w : FVec Ideal ⟨2, ![128, 512]⟩ .f32) (acc : FVec Ideal ⟨2, ![256, 512]⟩ .f32)
    (R : Fin 256) (j : Fin 512) :
    matmul dot_S256x128_S128x512_S256x512_1_0_0_1_n_n none l w acc (ix2 R j) = acc (ix2 R j) + ∑ i : Fin 128, l (ix2 R i) * w (ix2 i j) := by
  show FloatOps.matmul _ none l w acc (ix2 R j) = _
  rw [Ideal.matmul_apply, ← Equiv.sum_comp (contrEquiv1 dot_S256x128_S128x512_S256x512_1_0_0_1_n_n 128 rfl rfl).symm]
  refine congrArg (acc (ix2 R j) + ·) (Finset.sum_congr rfl fun i _ => ?_)
  have c2 := contrEquiv1_symm_val dot_S256x128_S128x512_S256x512_1_0_0_1_n_n 128 rfl rfl i
  have l2 : (dot_S256x128_S128x512_S256x512_1_0_0_1_n_n).lhsIdx (ix2 R j) ((contrEquiv1 _ 128 rfl rfl).symm i) = ix2 R i := by
    funext ax; apply Fin.ext
    match ax with
    | ⟨0, _⟩ => simp [DotDims.lhsIdx, dot_S256x128_S128x512_S256x512_1_0_0_1_n_n]; rfl
    | ⟨1, _⟩ => simp [DotDims.lhsIdx, dot_S256x128_S128x512_S256x512_1_0_0_1_n_n]; exact c2
  have r2 : (dot_S256x128_S128x512_S256x512_1_0_0_1_n_n).rhsIdx (ix2 R j) ((contrEquiv1 _ 128 rfl rfl).symm i) = ix2 i j := by
    funext ax; apply Fin.ext
    match ax with
    | ⟨0, _⟩ => simp [DotDims.rhsIdx, dot_S256x128_S128x512_S256x512_1_0_0_1_n_n]; exact c2
    | ⟨1, _⟩ => simp [DotDims.rhsIdx, dot_S256x128_S128x512_S256x512_1_0_0_1_n_n]; rfl
  rw [l2, r2]

theorem mm_256_128 (l : FVec Ideal ⟨2, ![256, 512]⟩ .f32) (w : FVec Ideal ⟨2, ![512, 128]⟩ .f32) (acc : FVec Ideal ⟨2, ![256, 128]⟩ .f32)
    (R : Fin 256) (j : Fin 128) :
    matmul dot_S256x512_S512x128_S256x128_1_0_0_1_n_n none l w acc (ix2 R j) = acc (ix2 R j) + ∑ i : Fin 512, l (ix2 R i) * w (ix2 i j) := by
  show FloatOps.matmul _ none l w acc (ix2 R j) = _
  rw [Ideal.matmul_apply, ← Equiv.sum_comp (contrEquiv1 dot_S256x512_S512x128_S256x128_1_0_0_1_n_n 512 rfl rfl).symm]
  refine congrArg (acc (ix2 R j) + ·) (Finset.sum_congr rfl fun i _ => ?_)
  have c2 := contrEquiv1_symm_val dot_S256x512_S512x128_S256x128_1_0_0_1_n_n 512 rfl rfl i
  have l2 : (dot_S256x512_S512x128_S256x128_1_0_0_1_n_n).lhsIdx (ix2 R j) ((contrEquiv1 _ 512 rfl rfl).symm i) = ix2 R i := by
    funext ax; apply Fin.ext
    match ax with
    | ⟨0, _⟩ => simp [DotDims.lhsIdx, dot_S256x512_S512x128_S256x128_1_0_0_1_n_n]; rfl
    | ⟨1, _⟩ => simp [DotDims.lhsIdx, dot_S256x512_S512x128_S256x128_1_0_0_1_n_n]; exact c2
  have r2 : (dot_S256x512_S512x128_S256x128_1_0_0_1_n_n).rhsIdx (ix2 R j) ((contrEquiv1 _ 512 rfl rfl).symm i) = ix2 i j := by
    funext ax; apply Fin.ext
    match ax with
    | ⟨0, _⟩ => simp [DotDims.rhsIdx, dot_S256x512_S512x128_S256x128_1_0_0_1_n_n]; exact c2
    | ⟨1, _⟩ => simp [DotDims.rhsIdx, dot_S256x512_S512x128_S256x128_1_0_0_1_n_n]; rfl
  rw [l2, r2]

/-- The row sums of a `[256, 128]` array, as an array. -/
def sumRow (v : FVec Ideal ⟨2, ![256, 128]⟩ .f32) : FVec Ideal ⟨1, ![256]⟩ .f32 := fun j => ∑ d : Fin 128, v (ix2 (j 0) d)
theorem sumRow_apply (v : FVec Ideal ⟨2, ![256, 128]⟩ .f32) (r : Fin 256) : sumRow v (ix1 r) = ∑ d : Fin 128, v (ix2 r d) := rfl
theorem mr_row_fun (v : FVec Ideal ⟨2, ![256, 128]⟩ .f32) (h : (⟨2, ![256, 128]⟩ : Shape).Reduces [1] ⟨1, ![256]⟩)
    (hφ : FKind.Formats .f32) (hacc : (0x00000000#32 : BitVec 32) = 0x00000000#32) :
    multiReduction .add [1] ⟨1, ![256]⟩ v 0x00000000#32 h hφ hacc = sumRow v := by
  funext j
  obtain ⟨a, rfl⟩ : ∃ a, j = ix1 a := ⟨j 0, eq_ix1 j⟩
  exact mr_row v h hφ hacc a

/-- The sums over the middle axis of a `[256, 32, 128]` array, as an array. -/
def sumMid (v : FVec Ideal ⟨3, ![256, 32, 128]⟩ .f32) : FVec Ideal ⟨2, ![256, 128]⟩ .f32 :=
  fun j => ∑ k : Fin 32, v (ix3 (j 0) k (j 1))
theorem sumMid_apply (v : FVec Ideal ⟨3, ![256, 32, 128]⟩ .f32) (r : Fin 256) (d : Fin 128) :
    sumMid v (ix2 r d) = ∑ k : Fin 32, v (ix3 r k d) := rfl
theorem mr_mid_fun (v : FVec Ideal ⟨3, ![256, 32, 128]⟩ .f32) (h : (⟨3, ![256, 32, 128]⟩ : Shape).Reduces [1] ⟨2, ![256, 128]⟩)
    (hφ : FKind.Formats .f32) (hacc : (0x00000000#32 : BitVec 32) = 0x00000000#32) :
    multiReduction .add [1] ⟨2, ![256, 128]⟩ v 0x00000000#32 h hφ hacc = sumMid v := by
  funext j
  obtain ⟨a, b, rfl⟩ : ∃ a b, j = ix2 a b := ⟨j 0, j 1, eq_ix2 j⟩
  exact mr_mid v h hφ hacc a b

/-! ## Pointwise operations of the kernel -/

theorem erf_apply' {s : Shape} (a : FVec Ideal s .f32) (i : s.Idx) : erf a i = Ideal.erf (a i) := rfl
theorem rsqrt_apply' {s : Shape} (a : FVec Ideal s .f32) (i : s.Idx) : rsqrt a i = Ideal.rsqrt (a i) := rfl
theorem scalar_ofBits (b : BitVec 32) : Scalar.ofBits (F := Ideal) .f32 b = Ideal.ofBits .f32 b := rfl

/-- The kernel's GELU on an extended real. -/
def geluKE (x : EReal) : EReal :=
  (x * Ideal.ofBits .f32 0x3F000000#32) * (Ideal.ofBits .f32 0x3F800000#32 + Ideal.erf (x * Ideal.ofBits .f32 0x3F3504F3#32))

theorem geluKE_coe (r : ℝ) : geluKE (r : EReal) = ((geluK RefSide.halfR RefSide.cR r : ℝ) : EReal) := by
  unfold geluKE geluK
  rw [RefSide.ofBits_half, RefSide.ofBits_c, Ideal.ofBits_one_f32, ← EReal.coe_mul, ← EReal.coe_mul,
    Ideal.erf_coe, show (1 : EReal) = ((1 : ℝ) : EReal) from rfl, ← EReal.coe_add, ← EReal.coe_mul]
  rfl

end Cert.KerSide

end
-- ==== Proof.KerMsgPay.lean ====
import proofs.«208327_g62569083568895_cont_9to1c4b_407_46_alg».proof.Proof.KerMsgTools

noncomputable section

namespace Cert.KerSide

open Cert.KernelIdeal Cert.KernelIdeal.Gen Cert.KernelIdeal.Body Idealize.ShloMosaic Idealize.ShloMosaic.ValueIdx
open scoped BigOperators

/-! The message kernel's payloads read at an index (at the ideal instance), each over the values it takes. -/

abbrev V8 := FVec Ideal S8192x128 .f32
abbrev V2 := FVec Ideal S256x128 .f32

/-- The first pre-activation of an edge row, as the kernel forms it. -/
def pre1E (x0 : V8) (x5 : FVec Ideal S128x128 .f32) (x1 : V8) (x2 : V2) (x6 : FVec Ideal S1x128 .f32)
    (r : Fin 256) (k : Fin 32) (i : Fin 128) : EReal :=
  (((0 + ∑ c : Fin 128, x0 (ix2 (⟨r.val * 32 + k.val, by omega⟩ : Fin 8192) c) * x5 (ix2 c i)) + x1 (ix2 (⟨r.val * 32 + k.val, by omega⟩ : Fin 8192) i)) + x2 (ix2 r i)) + x6 (ix2 (0 : Fin 1) i)

set_option maxHeartbeats 1000000 in
theorem pay2_apply (x0 : V8) (x5 : FVec Ideal S128x128 .f32) (x1 : V8) (x2 : V2) (x6 : FVec Ideal S1x128 .f32)
    (x7 : FVec Ideal S128x128 .f32) (x8 : FVec Ideal S1x128 .f32) (r : Fin 256) (k : Fin 32) (j : Fin 128) :
    k2_pay2 (F := Ideal) x0 x5 x1 x2 x6 x7 x8 (ix2 (⟨r.val * 32 + k.val, by omega⟩ : Fin 8192) j)
      = (0 + ∑ i : Fin 128, geluKE (pre1E x0 x5 x1 x2 x6 r k i) * x7 (ix2 i j)) + x8 (ix2 (0 : Fin 1) j) := by
  unfold k2_pay2 pre1E geluKE
  simp only [addf_apply, mulf_apply, subf_apply, divf_apply, broadcast_apply, erf_apply', rsqrt_apply', scalar_ofBits, constant_apply, Ideal.ofBits_zero_f32, shapeCast_id, sc_8192_of_3, sc_3_of_8192, sc_256x1x128, sc_256x32x1, sc_256x1, sc_1n_n, sc_n_1n, bt_row, bt_col, bt_mid, bt_last, sumRow_apply, sumMid_apply, mm_8192, mm_256_512, mm_256_128]

set_option maxHeartbeats 1000000 in
theorem pay3_apply (x0 : V8) (x5 : FVec Ideal S128x128 .f32) (x1 : V8) (x2 : V2) (x6 : FVec Ideal S1x128 .f32)
    (x7 : FVec Ideal S128x128 .f32) (x8 : FVec Ideal S1x128 .f32) (i : S8192x128.Idx) :
    k2_pay3 (F := Ideal) x0 x5 x1 x2 x6 x7 x8 i = k2_pay2 (F := Ideal) x0 x5 x1 x2 x6 x7 x8 i * Ideal.ofBits .f32 0x3F000000#32 := rfl

theorem pay4_apply (i : S8192x128.Idx) : k2_pay4 (F := Ideal) i = Ideal.ofBits .f32 0x3F3504F3#32 := rfl

theorem pay5_apply (x : FVec Ideal S1x128 .f32) (j : Fin 128) : k2_pay5 (F := Ideal) x (ix1 j) = x (ix2 (0 : Fin 1) j) := by
  unfold k2_pay5; simp only [sc_1n_n]
theorem pay6_apply (x : FVec Ideal S1x128 .f32) (j : Fin 128) : k2_pay6 (F := Ideal) x (ix1 j) = x (ix2 (0 : Fin 1) j) := by
  unfold k2_pay6; simp only [sc_1n_n]
theorem pay10_apply (x : FVec Ideal S1x128 .f32) (j : Fin 128) : k2_pay10 (F := Ideal) x (ix1 j) = x (ix2 (0 : Fin 1) j) := by
  unfold k2_pay10; simp only [sc_1n_n]
theorem pay11_apply (x : FVec Ideal S1x128 .f32) (j : Fin 128) : k2_pay11 (F := Ideal) x (ix1 j) = x (ix2 (0 : Fin 1) j) := by
  unfold k2_pay11; simp only [sc_1n_n]

/-- The node value plus its masked messages, as the kernel forms it from the second pre-activation `v34`, its half
    `v36` and the constant `v37`. -/
def x1E (v34 v36 v37 : V8) (x9 : FVec Ideal S128x128 .f32) (x10 : FVec Ideal S1x128 .f32) (x4 : FVec Ideal S256x32 .f32) (x3 : V2)
    (r : Fin 256) (d : Fin 128) : EReal :=
  x3 (ix2 r d) + ∑ k : Fin 32,
    ((0 + ∑ i : Fin 128, (v36 (ix2 (⟨r.val * 32 + k.val, by omega⟩ : Fin 8192) i) * (Ideal.ofBits .f32 0x3F800000#32 + Ideal.erf (v34 (ix2 (⟨r.val * 32 + k.val, by omega⟩ : Fin 8192) i) * v37 (ix2 (⟨r.val * 32 + k.val, by omega⟩ : Fin 8192) i))))
        * x9 (ix2 i d)) + x10 (ix2 (0 : Fin 1) d)) * x4 (ix2 r k)

set_option maxHeartbeats 1000000 in
theorem pay7_apply (v34 v36 v37 : V8) (x9 : FVec Ideal S128x128 .f32) (x10 : FVec Ideal S1x128 .f32) (x4 : FVec Ideal S256x32 .f32) (x3 : V2)
    (r : Fin 256) (d : Fin 128) :
    k2_pay7 (F := Ideal) v34 v36 v37 x9 x10 x4 x3 (ix2 r d)
      = x1E v34 v36 v37 x9 x10 x4 x3 r d
        - Ideal.div (∑ e : Fin 128, x1E v34 v36 v37 x9 x10 x4 x3 r e) (Ideal.ofBits .f32 0x43000000#32) := by
  unfold k2_pay7 x1E
  rw [mr_mid_fun, mr_row_fun]
  simp only [addf_apply, mulf_apply, subf_apply, divf_apply, broadcast_apply, erf_apply', rsqrt_apply', scalar_ofBits, constant_apply, Ideal.ofBits_zero_f32, shapeCast_id, sc_8192_of_3, sc_3_of_8192, sc_256x1x128, sc_256x32x1, sc_256x1, sc_1n_n, sc_n_1n, bt_row, bt_col, bt_mid, bt_last, sumRow_apply, sumMid_apply, mm_8192, mm_256_512, mm_256_128]

set_option maxHeartbeats 1000000 in
theorem pay8_apply (v34 v36 v37 : V8) (x9 : FVec Ideal S128x128 .f32) (x10 : FVec Ideal S1x128 .f32) (x4 : FVec Ideal S256x32 .f32) (x3 : V2)
    (r : Fin 256) :
    k2_pay8 (F := Ideal) v34 v36 v37 x9 x10 x4 x3 (ix2 r (0 : Fin 1))
      = Ideal.div (∑ e : Fin 128, k2_pay7 (F := Ideal) v34 v36 v37 x9 x10 x4 x3 (ix2 r e) * k2_pay7 (F := Ideal) v34 v36 v37 x9 x10 x4 x3 (ix2 r e))
          (Ideal.ofBits .f32 0x43000000#32) + Ideal.ofBits .f32 0x3727C5AC#32 := by
  unfold k2_pay8
  rw [mr_row_fun]
  simp only [addf_apply, mulf_apply, subf_apply, divf_apply, broadcast_apply, erf_apply', rsqrt_apply', scalar_ofBits, constant_apply, Ideal.ofBits_zero_f32, shapeCast_id, sc_8192_of_3, sc_3_of_8192, sc_256x1x128, sc_256x32x1, sc_256x1, sc_1n_n, sc_n_1n, bt_row, bt_col, bt_mid, bt_last, sumRow_apply, sumMid_apply, mm_8192, mm_256_512, mm_256_128]

/-- The first layer norm's result, as the kernel forms it from the centred value `v70` and `v77` (variance plus epsilon). -/
def v1E (v62 v64 : FVec Ideal S128 .f32) (v70 : V2) (v77 : FVec Ideal S256x1 .f32) (r : Fin 256) (i : Fin 128) : EReal :=
  (v70 (ix2 r i) * Ideal.rsqrt (v77 (ix2 r (0 : Fin 1)))) * v62 (ix1 i) + v64 (ix1 i)

set_option maxHeartbeats 1000000 in
theorem pay9_apply (v62 v64 : FVec Ideal S128 .f32) (v70 : V2) (v77 : FVec Ideal S256x1 .f32) (x11 : FVec Ideal S128x512 .f32)
    (x12 : FVec Ideal S1x512 .f32) (x13 : FVec Ideal S512x128 .f32) (x14 : FVec Ideal S1x128 .f32) (r : Fin 256) (d : Fin 128) :
    k2_pay9 (F := Ideal) v62 v64 v70 v77 x11 x12 x13 x14 (ix2 r d)
      = v1E v62 v64 v70 v77 r d
        + ((0 + ∑ j : Fin 512, geluKE ((0 + ∑ i : Fin 128, v1E v62 v64 v70 v77 r i * x11 (ix2 i j)) + x12 (ix2 (0 : Fin 1) j)) * x13 (ix2 j d))
            + x14 (ix2 (0 : Fin 1) d)) := by
  unfold k2_pay9 v1E geluKE
  simp only [addf_apply, mulf_apply, subf_apply, divf_apply, broadcast_apply, erf_apply', rsqrt_apply', scalar_ofBits, constant_apply, Ideal.ofBits_zero_f32, shapeCast_id, sc_8192_of_3, sc_3_of_8192, sc_256x1x128, sc_256x32x1, sc_256x1, sc_1n_n, sc_n_1n, bt_row, bt_col, bt_mid, bt_last, sumRow_apply, sumMid_apply, mm_8192, mm_256_512, mm_256_128]

set_option maxHeartbeats 1000000 in
theorem pay12_apply (v62 v64 : FVec Ideal S128 .f32) (v70 : V2) (v77 : FVec Ideal S256x1 .f32) (x11 : FVec Ideal S128x512 .f32)
    (x12 : FVec Ideal S1x512 .f32) (x13 : FVec Ideal S512x128 .f32) (x14 : FVec Ideal S1x128 .f32) (r : Fin 256) (d : Fin 128) :
    k2_pay12 (F := Ideal) v62 v64 v70 v77 x11 x12 x13 x14 (ix2 r d)
      = Ideal.div (∑ e : Fin 128, k2_pay9 (F := Ideal) v62 v64 v70 v77 x11 x12 x13 x14 (ix2 r e)) (Ideal.ofBits .f32 0x43000000#32) := by
  unfold k2_pay12
  rw [mr_row_fun]
  simp only [addf_apply, mulf_apply, subf_apply, divf_apply, broadcast_apply, erf_apply', rsqrt_apply', scalar_ofBits, constant_apply, Ideal.ofBits_zero_f32, shapeCast_id, sc_8192_of_3, sc_3_of_8192, sc_256x1x128, sc_256x32x1, sc_256x1, sc_1n_n, sc_n_1n, bt_row, bt_col, bt_mid, bt_last, sumRow_apply, sumMid_apply, mm_8192, mm_256_512, mm_256_128]

set_option maxHeartbeats 1000000 in
theorem pay1_apply (v109 : V2) (v111 v113 : FVec Ideal S128 .f32) (v118 : V2) (r : Fin 256) (d : Fin 128) :
    k2_pay1 (F := Ideal) v109 v111 v113 v118 (ix2 r d)
      = ((v109 (ix2 r d) - v118 (ix2 r d))
          * Ideal.rsqrt (Ideal.div (∑ e : Fin 128, (v109 (ix2 r e) - v118 (ix2 r e)) * (v109 (ix2 r e) - v118 (ix2 r e)))
              (Ideal.ofBits .f32 0x43000000#32) + Ideal.ofBits .f32 0x3727C5AC#32))
          * v111 (ix1 d) + v113 (ix1 d) := by
  unfold k2_pay1
  rw [mr_row_fun]
  simp only [addf_apply, mulf_apply, subf_apply, divf_apply, broadcast_apply, erf_apply', rsqrt_apply', scalar_ofBits, constant_apply, Ideal.ofBits_zero_f32, shapeCast_id, sc_8192_of_3, sc_3_of_8192, sc_256x1x128, sc_256x32x1, sc_256x1, sc_1n_n, sc_n_1n, bt_row, bt_col, bt_mid, bt_last, sumRow_apply, sumMid_apply, mm_8192, mm_256_512, mm_256_128]

end Cert.KerSide

end
-- ==== Proof.KerMsgMain.lean ====
import proofs.«208327_g62569083568895_cont_9to1c4b_407_46_alg».proof.Proof.KerMsgPay

noncomputable section

namespace Cert.KerSide

open Cert.KernelIdeal Cert.KernelIdeal.Gen Cert.KernelIdeal.Body Idealize.ShloMosaic Idealize.ShloMosaic.ValueIdx
open scoped BigOperators

/-! The message kernel's block of the result is the real layer: for input blocks that are the
(coerced) real blocks of the layer's data — the edge features, the gathered table rows, the
node's own band, the node values, the mask, the weights — the output block at every row and
column is `Spec.out`. -/

/-- The nineteen input blocks of one grid point. -/
structure Blk where
  x0 : V8
  x1 : V8
  x2 : V2
  x3 : V2
  x4 : FVec Ideal S256x32 .f32
  x5 : FVec Ideal S128x128 .f32
  x6 : FVec Ideal S1x128 .f32
  x7 : FVec Ideal S128x128 .f32
  x8 : FVec Ideal S1x128 .f32
  x9 : FVec Ideal S128x128 .f32
  x10 : FVec Ideal S1x128 .f32
  x11 : FVec Ideal S128x512 .f32
  x12 : FVec Ideal S1x512 .f32
  x13 : FVec Ideal S512x128 .f32
  x14 : FVec Ideal S1x128 .f32
  x15 : FVec Ideal S1x128 .f32
  x16 : FVec Ideal S1x128 .f32
  x17 : FVec Ideal S1x128 .f32
  x18 : FVec Ideal S1x128 .f32

/-- The output block of a grid point. -/
def Blk.out (B : Blk) : V2 :=
  out2_19 (F := Ideal) B.x0 B.x1 B.x2 B.x3 B.x4 B.x5 B.x6 B.x7 B.x8 B.x9 B.x10 B.x11 B.x12 B.x13 B.x14 B.x15 B.x16 B.x17 B.x18

/-- The blocks hold the real data of the nodes `(z, nn r)`, `r` the block's row. -/
structure BlockAgree (B : Blk) (I : Spec.Inp) (z : Fin 2) (nn : Fin 256 → Fin 2048) : Prop where
  E : ∀ (r : Fin 256) (k : Fin 32) (i : Fin 128), B.x0 (ix2 (⟨r.val * 32 + k.val, by omega⟩ : Fin 8192) i) = ((I.E z (nn r) k i : ℝ) : EReal)
  G : ∀ (r : Fin 256) (k : Fin 32) (j : Fin 128), B.x1 (ix2 (⟨r.val * 32 + k.val, by omega⟩ : Fin 8192) j) = ((GR I z (nn r) k j : ℝ) : EReal)
  Ai : ∀ (r : Fin 256) (j : Fin 128), B.x2 (ix2 r j) = ((AiR I z (nn r) j : ℝ) : EReal)
  Vn : ∀ (r : Fin 256) (j : Fin 128), B.x3 (ix2 r j) = ((I.Vn z (nn r) j : ℝ) : EReal)
  em : ∀ (r : Fin 256) (k : Fin 32), B.x4 (ix2 r k) = ((I.em z (nn r) k : ℝ) : EReal)
  W0c : ∀ (i j : Fin 128), B.x5 (ix2 i j) = ((W0c I i j : ℝ) : EReal)
  b0 : ∀ j : Fin 128, B.x6 (ix2 (0 : Fin 1) j) = ((I.b0 j : ℝ) : EReal)
  W1 : ∀ (i j : Fin 128), B.x7 (ix2 i j) = ((I.W1 i j : ℝ) : EReal)
  b1 : ∀ j : Fin 128, B.x8 (ix2 (0 : Fin 1) j) = ((I.b1 j : ℝ) : EReal)
  W2 : ∀ (i j : Fin 128), B.x9 (ix2 i j) = ((I.W2 i j : ℝ) : EReal)
  b2 : ∀ j : Fin 128, B.x10 (ix2 (0 : Fin 1) j) = ((I.b2 j : ℝ) : EReal)
  F0 : ∀ (i : Fin 128) (j : Fin 512), B.x11 (ix2 i j) = ((I.F0 i j : ℝ) : EReal)
  fb0 : ∀ j : Fin 512, B.x12 (ix2 (0 : Fin 1) j) = ((I.fb0 j : ℝ) : EReal)
  F1 : ∀ (i : Fin 512) (j : Fin 128), B.x13 (ix2 i j) = ((I.F1 i j : ℝ) : EReal)
  fb1 : ∀ j : Fin 128, B.x14 (ix2 (0 : Fin 1) j) = ((I.fb1 j : ℝ) : EReal)
  g1 : ∀ j : Fin 128, B.x15 (ix2 (0 : Fin 1) j) = ((I.g1 j : ℝ) : EReal)
  be1 : ∀ j : Fin 128, B.x16 (ix2 (0 : Fin 1) j) = ((I.be1 j : ℝ) : EReal)
  g2 : ∀ j : Fin 128, B.x17 (ix2 (0 : Fin 1) j) = ((I.g2 j : ℝ) : EReal)
  be2 : ∀ j : Fin 128, B.x18 (ix2 (0 : Fin 1) j) = ((I.be2 j : ℝ) : EReal)
  half : I.half = RefSide.halfR
  c : I.c = RefSide.cR
  eps : I.eps = RefSide.epsR

variable {B : Blk} {I : Spec.Inp} {z : Fin 2} {nn : Fin 256 → Fin 2048}

open RefSide (sum_mul_coe sum_coe lin_coe coe_finset_sum ofBits_128 ofBits_eps epsR_pos var_nonneg)

theorem pre1E_coe (h : BlockAgree B I z nn) (r : Fin 256) (k : Fin 32) (i : Fin 128) :
    pre1E B.x0 B.x5 B.x1 B.x2 B.x6 r k i = ((preK I z (nn r) k i : ℝ) : EReal) := by
  unfold pre1E preK
  rw [zero_add, sum_mul_coe _ _ (fun c => I.E z (nn r) k c) (fun c => W0c I c i) (h.E r k) (fun c => h.W0c c i),
    h.G, h.Ai, h.b0, ← EReal.coe_add, ← EReal.coe_add, ← EReal.coe_add]

theorem pay2_coe (h : BlockAgree B I z nn) (r : Fin 256) (k : Fin 32) (j : Fin 128) :
    (k2_pay2 (F := Ideal) B.x0 B.x5 B.x1 B.x2 B.x6 B.x7 B.x8) (ix2 (⟨r.val * 32 + k.val, by omega⟩ : Fin 8192) j) = (((∑ i, h1K I z (nn r) k i * I.W1 i j) + I.b1 j : ℝ) : EReal) := by
  rw [pay2_apply, zero_add]
  exact lin_coe _ _ _ (fun i => h1K I z (nn r) k i) (fun i => I.W1 i j) (I.b1 j)
    (fun i => by rw [pre1E_coe h, geluKE_coe]; unfold h1K; rw [h.half, h.c]) (fun i => h.W1 i j) (h.b1 j)

theorem h2E_coe (h : BlockAgree B I z nn) (r : Fin 256) (k : Fin 32) (i : Fin 128) :
    (k2_pay3 (F := Ideal) B.x0 B.x5 B.x1 B.x2 B.x6 B.x7 B.x8) (ix2 (⟨r.val * 32 + k.val, by omega⟩ : Fin 8192) i) * (Ideal.ofBits .f32 0x3F800000#32 + Ideal.erf ((k2_pay2 (F := Ideal) B.x0 B.x5 B.x1 B.x2 B.x6 B.x7 B.x8) (ix2 (⟨r.val * 32 + k.val, by omega⟩ : Fin 8192) i) * (k2_pay4 (F := Ideal)) (ix2 (⟨r.val * 32 + k.val, by omega⟩ : Fin 8192) i)))
      = ((h2K I z (nn r) k i : ℝ) : EReal) := by
  rw [pay3_apply, pay4_apply, pay2_coe h]
  show geluKE _ = _
  rw [geluKE_coe]; unfold h2K; rw [h.half, h.c]

theorem x1E_coe (h : BlockAgree B I z nn) (r : Fin 256) (d : Fin 128) :
    x1E (k2_pay2 (F := Ideal) B.x0 B.x5 B.x1 B.x2 B.x6 B.x7 B.x8) (k2_pay3 (F := Ideal) B.x0 B.x5 B.x1 B.x2 B.x6 B.x7 B.x8) (k2_pay4 (F := Ideal)) B.x9 B.x10 B.x4 B.x3 r d = ((x1K I z (nn r) d : ℝ) : EReal) := by
  unfold x1E x1K
  rw [h.Vn, sum_coe _ (fun k => mK I z (nn r) k d * I.em z (nn r) k) (fun k => by
    rw [zero_add, lin_coe _ _ _ (fun i => h2K I z (nn r) k i) (fun i => I.W2 i d) (I.b2 d)
      (fun i => h2E_coe h r k i) (fun i => h.W2 i d) (h.b2 d), h.em, ← EReal.coe_mul]; rfl), ← EReal.coe_add]

theorem pay7_coe (h : BlockAgree B I z nn) (r : Fin 256) (d : Fin 128) :
    (k2_pay7 (F := Ideal) (k2_pay2 (F := Ideal) B.x0 B.x5 B.x1 B.x2 B.x6 B.x7 B.x8) (k2_pay3 (F := Ideal) B.x0 B.x5 B.x1 B.x2 B.x6 B.x7 B.x8) (k2_pay4 (F := Ideal)) B.x9 B.x10 B.x4 B.x3) (ix2 r d) = ((x1K I z (nn r) d - Spec.mean (x1K I z (nn r)) : ℝ) : EReal) := by
  rw [pay7_apply, x1E_coe h, sum_coe _ (x1K I z (nn r)) (fun e => x1E_coe h r e), ofBits_128,
    Ideal.div_coe (by norm_num : (128 : ℝ) ≠ 0), ← EReal.coe_mul, ← EReal.coe_sub]
  congr 1; unfold Spec.mean; ring

theorem pay8_coe (h : BlockAgree B I z nn) (r : Fin 256) :
    (k2_pay8 (F := Ideal) (k2_pay2 (F := Ideal) B.x0 B.x5 B.x1 B.x2 B.x6 B.x7 B.x8) (k2_pay3 (F := Ideal) B.x0 B.x5 B.x1 B.x2 B.x6 B.x7 B.x8) (k2_pay4 (F := Ideal)) B.x9 B.x10 B.x4 B.x3) (ix2 r (0 : Fin 1)) = ((Spec.var (x1K I z (nn r)) + RefSide.epsR : ℝ) : EReal) := by
  rw [pay8_apply, sum_coe _ (fun e => (x1K I z (nn r) e - Spec.mean (x1K I z (nn r))) * (x1K I z (nn r) e - Spec.mean (x1K I z (nn r))))
    (fun e => by rw [pay7_coe h, ← EReal.coe_mul]), ofBits_128, Ideal.div_coe (by norm_num : (128 : ℝ) ≠ 0), ← EReal.coe_mul,
    ofBits_eps, ← EReal.coe_add]
  congr 1; unfold Spec.var; ring

theorem rsqrt_pos_coe {v : ℝ} (hv : 0 < v) : Ideal.rsqrt (v : EReal) = (((Real.sqrt v)⁻¹ : ℝ) : EReal) := by
  rw [Ideal.rsqrt_coe, if_neg (not_lt.mpr hv.le), if_neg hv.ne']

theorem v1E_coe (h : BlockAgree B I z nn) (r : Fin 256) (i : Fin 128) :
    v1E (k2_pay5 (F := Ideal) B.x15) (k2_pay6 (F := Ideal) B.x16) (k2_pay7 (F := Ideal) (k2_pay2 (F := Ideal) B.x0 B.x5 B.x1 B.x2 B.x6 B.x7 B.x8) (k2_pay3 (F := Ideal) B.x0 B.x5 B.x1 B.x2 B.x6 B.x7 B.x8) (k2_pay4 (F := Ideal)) B.x9 B.x10 B.x4 B.x3) (k2_pay8 (F := Ideal) (k2_pay2 (F := Ideal) B.x0 B.x5 B.x1 B.x2 B.x6 B.x7 B.x8) (k2_pay3 (F := Ideal) B.x0 B.x5 B.x1 B.x2 B.x6 B.x7 B.x8) (k2_pay4 (F := Ideal)) B.x9 B.x10 B.x4 B.x3) r i = ((V1K I z (nn r) i : ℝ) : EReal) := by
  unfold v1E
  rw [pay7_coe h, pay8_coe h, pay5_apply, pay6_apply, h.g1, h.be1,
    rsqrt_pos_coe (add_pos_of_nonneg_of_pos (var_nonneg _) epsR_pos), ← EReal.coe_mul, ← EReal.coe_mul, ← EReal.coe_add]
  unfold V1K lnK; rw [h.eps]

theorem pay9_coe (h : BlockAgree B I z nn) (r : Fin 256) (d : Fin 128) :
    (k2_pay9 (F := Ideal) (k2_pay5 (F := Ideal) B.x15) (k2_pay6 (F := Ideal) B.x16) (k2_pay7 (F := Ideal) (k2_pay2 (F := Ideal) B.x0 B.x5 B.x1 B.x2 B.x6 B.x7 B.x8) (k2_pay3 (F := Ideal) B.x0 B.x5 B.x1 B.x2 B.x6 B.x7 B.x8) (k2_pay4 (F := Ideal)) B.x9 B.x10 B.x4 B.x3) (k2_pay8 (F := Ideal) (k2_pay2 (F := Ideal) B.x0 B.x5 B.x1 B.x2 B.x6 B.x7 B.x8) (k2_pay3 (F := Ideal) B.x0 B.x5 B.x1 B.x2 B.x6 B.x7 B.x8) (k2_pay4 (F := Ideal)) B.x9 B.x10 B.x4 B.x3) B.x11 B.x12 B.x13 B.x14) (ix2 r d) = ((V1K I z (nn r) d + ffK I z (nn r) d : ℝ) : EReal) := by
  rw [pay9_apply, v1E_coe h, zero_add]
  rw [lin_coe _ _ _ (fun j => ffhK I z (nn r) j) (fun j => I.F1 j d) (I.fb1 d) (fun j => by
    rw [zero_add, lin_coe _ _ _ (fun i => V1K I z (nn r) i) (fun i => I.F0 i j) (I.fb0 j) (fun i => v1E_coe h r i)
      (fun i => h.F0 i j) (h.fb0 j), geluKE_coe]; unfold ffhK; rw [h.half, h.c]) (fun j => h.F1 j d) (h.fb1 d), ← EReal.coe_add]
  rfl

theorem pay12_coe (h : BlockAgree B I z nn) (r : Fin 256) (d : Fin 128) :
    (k2_pay12 (F := Ideal) (k2_pay5 (F := Ideal) B.x15) (k2_pay6 (F := Ideal) B.x16) (k2_pay7 (F := Ideal) (k2_pay2 (F := Ideal) B.x0 B.x5 B.x1 B.x2 B.x6 B.x7 B.x8) (k2_pay3 (F := Ideal) B.x0 B.x5 B.x1 B.x2 B.x6 B.x7 B.x8) (k2_pay4 (F := Ideal)) B.x9 B.x10 B.x4 B.x3) (k2_pay8 (F := Ideal) (k2_pay2 (F := Ideal) B.x0 B.x5 B.x1 B.x2 B.x6 B.x7 B.x8) (k2_pay3 (F := Ideal) B.x0 B.x5 B.x1 B.x2 B.x6 B.x7 B.x8) (k2_pay4 (F := Ideal)) B.x9 B.x10 B.x4 B.x3) B.x11 B.x12 B.x13 B.x14) (ix2 r d) = ((Spec.mean (fun e => V1K I z (nn r) e + ffK I z (nn r) e) : ℝ) : EReal) := by
  rw [pay12_apply, sum_coe _ (fun e => V1K I z (nn r) e + ffK I z (nn r) e) (fun e => pay9_coe h r e), ofBits_128,
    Ideal.div_coe (by norm_num : (128 : ℝ) ≠ 0), ← EReal.coe_mul]
  congr 1; unfold Spec.mean; ring

theorem ld2 {Val : EltTy → Type} {e : EltTy} {a b : Nat} (X : (⟨2, ![a, b]⟩ : Shape).Idx → Val e)
    (inb : ∀ ax, (![0, 0] : Fin 2 → Nat) ax + (⟨2, ![a, b]⟩ : Shape).size ax ≤ (⟨2, ![a, b]⟩ : Shape).size ax) :
    View.ld (Val := Val) X (Rect.unit (s := ⟨2, ![a, b]⟩) ![0, 0] (⟨2, ![a, b]⟩ : Shape).size inb) = X :=
  View.ld_unit_zero (Val := Val) (by funext i; fin_cases i <;> rfl) inb X

/-- The output block is the last payload over the blocks. -/
theorem Blk.out_eq (B : Blk) :
    B.out = k2_pay1 (F := Ideal) (k2_pay9 (F := Ideal) (k2_pay5 (F := Ideal) B.x15) (k2_pay6 (F := Ideal) B.x16) (k2_pay7 (F := Ideal) (k2_pay2 (F := Ideal) B.x0 B.x5 B.x1 B.x2 B.x6 B.x7 B.x8) (k2_pay3 (F := Ideal) B.x0 B.x5 B.x1 B.x2 B.x6 B.x7 B.x8) (k2_pay4 (F := Ideal)) B.x9 B.x10 B.x4 B.x3) (k2_pay8 (F := Ideal) (k2_pay2 (F := Ideal) B.x0 B.x5 B.x1 B.x2 B.x6 B.x7 B.x8) (k2_pay3 (F := Ideal) B.x0 B.x5 B.x1 B.x2 B.x6 B.x7 B.x8) (k2_pay4 (F := Ideal)) B.x9 B.x10 B.x4 B.x3) B.x11 B.x12 B.x13 B.x14) (k2_pay10 (F := Ideal) B.x17) (k2_pay11 (F := Ideal) B.x18) (k2_pay12 (F := Ideal) (k2_pay5 (F := Ideal) B.x15) (k2_pay6 (F := Ideal) B.x16) (k2_pay7 (F := Ideal) (k2_pay2 (F := Ideal) B.x0 B.x5 B.x1 B.x2 B.x6 B.x7 B.x8) (k2_pay3 (F := Ideal) B.x0 B.x5 B.x1 B.x2 B.x6 B.x7 B.x8) (k2_pay4 (F := Ideal)) B.x9 B.x10 B.x4 B.x3) (k2_pay8 (F := Ideal) (k2_pay2 (F := Ideal) B.x0 B.x5 B.x1 B.x2 B.x6 B.x7 B.x8) (k2_pay3 (F := Ideal) B.x0 B.x5 B.x1 B.x2 B.x6 B.x7 B.x8) (k2_pay4 (F := Ideal)) B.x9 B.x10 B.x4 B.x3) B.x11 B.x12 B.x13 B.x14) := by
  unfold Blk.out out2_19
  rw [View.canon_unit_zero (by funext i; fin_cases i <;> rfl)]
  simp only [ld2]

/-- THE BLOCK: every element of a grid point's output block is the real layer's value at its node. -/
theorem out2_19_block (h : BlockAgree B I z nn) (r : Fin 256) (d : Fin 128) :
    B.out (ix2 r d) = ((Spec.out I z (nn r) d : ℝ) : EReal) := by
  rw [Blk.out_eq, pay1_apply, pay10_apply, pay11_apply, h.g2, h.be2, pay9_coe h, pay12_coe h]
  set f : Fin 128 → ℝ := fun e => V1K I z (nn r) e + ffK I z (nn r) e with hf
  rw [sum_coe _ (fun e => (f e - Spec.mean f) * (f e - Spec.mean f)) (fun e => by
    rw [pay9_coe h, pay12_coe h, ← EReal.coe_sub, ← EReal.coe_mul]), ofBits_128, Ideal.div_coe (by norm_num : (128 : ℝ) ≠ 0),
    ← EReal.coe_mul, ofBits_eps, ← EReal.coe_add, ← EReal.coe_sub]
  have hv : (∑ e, (f e - Spec.mean f) * (f e - Spec.mean f)) * (1 / 128) + RefSide.epsR = Spec.var f + RefSide.epsR := by
    unfold Spec.var; ring
  rw [hv, rsqrt_pos_coe (add_pos_of_nonneg_of_pos (var_nonneg _) epsR_pos), ← EReal.coe_mul, ← EReal.coe_mul, ← EReal.coe_add]
  rw [← outK_eq]
  unfold outK lnK; rw [h.eps]

end Cert.KerSide

end
-- ==== Proof.KerGlueA.lean ====
import proofs.«208327_g62569083568895_cont_9to1c4b_407_46_alg».proof.Proof.ScMain1
import proofs.«208327_g62569083568895_cont_9to1c4b_407_46_alg».proof.Proof.KerMsgMain

set_option maxRecDepth 16384

noncomputable section

namespace Cert.KerSide

open Cert.KernelIdeal Cert.KernelIdeal.Gen Cert.KernelIdeal.Body Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open scoped BigOperators

/-! From the message kernel's blocks to its output array: where the second pipeline's input arrays hold the real data
of the layer in node coordinates, its output array holds the real layer at every node. -/

/-- The printed index maps over the sixteen grid points: a blocked window's block row is the point, every other
    coordinate zero. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) = 0 ∧ win2_13.index t (1 : Fin 2) = 0
    ∧ win2_14.index t (0 : Fin 2) = 0 ∧ win2_14.index t (1 : Fin 2) = 0
    ∧ win2_15.index t (0 : Fin 2) = 0 ∧ win2_15.index t (1 : Fin 2) = 0
    ∧ win2_16.index t (0 : Fin 2) = 0 ∧ win2_16.index t (1 : Fin 2) = 0
    ∧ win2_17.index t (0 : Fin 2) = 0 ∧ win2_17.index t (1 : Fin 2) = 0
    ∧ win2_18.index t (0 : Fin 2) = 0 ∧ win2_18.index t (1 : Fin 2) = 0
    ∧ win2_19.index t (0 : Fin 2) = t.val ∧ win2_19.index t (1 : Fin 2) = 0 :=
  (by decide +kernel : ∀ t : Fin grid2.N, _)

section Blocks
variable (V : (c : Dev nD) → (b : Ref sig .tc) → Buf (Elt Ideal) ((c : Thread nD τ).loc b))

theorem iblk2_0_apply (c : Dev nD) (t : Fin cfg2.N) (a : Fin 8192) (b : Fin 128) :
    iblk2 V c 0 t (ix2 a b) = V c main_v4 (ix2 (⟨t.val * 8192 + a.val, by have := t.isLt; have : cfg2.N = 16 := rfl; omega⟩ : Fin 131072) b) := by
  show V c main_v4 (((cfg2.win 0).blk t).view.emb (ix2 a b)) = _
  refine congrArg (V c main_v4) ?_
  obtain ⟨e0, e1, -, -, -, -, -, -, -, -, -, -, -, -, -, -, -, -, -, -, -, -, -, -, -, -, -, -, -, -, -, -, -, -, -, -, -, -, -, -⟩ := idx_facts2 t
  funext ax; apply Fin.ext
  match ax with
  | ⟨0, _⟩ => show win2_0.index t (0 : Fin 2) * 8192 + 1 * a.val = t.val * 8192 + a.val; omega
  | ⟨1, _⟩ => show win2_0.index t (1 : Fin 2) * 128 + 1 * b.val = b.val; omega

theorem iblk2_1_apply (c : Dev nD) (t : Fin cfg2.N) (a : Fin 8192) (b : Fin 128) :
    iblk2 V c 1 t (ix2 a b) = V c main_v3 (ix2 (⟨t.val * 8192 + a.val, by have := t.isLt; have : cfg2.N = 16 := rfl; omega⟩ : Fin 131072) b) := by
  show V c main_v3 (((cfg2.win 1).blk t).view.emb (ix2 a b)) = _
  refine congrArg (V c main_v3) ?_
  obtain ⟨-, -, e0, e1, -, -, -, -, -, -, -, -, -, -, -, -, -, -, -, -, -, -, -, -, -, -, -, -, -, -, -, -, -, -, -, -, -, -, -, -⟩ := idx_facts2 t
  funext ax; apply Fin.ext
  match ax with
  | ⟨0, _⟩ => show win2_1.index t (0 : Fin 2) * 8192 + 1 * a.val = t.val * 8192 + a.val; omega
  | ⟨1, _⟩ => show win2_1.index t (1 : Fin 2) * 128 + 1 * b.val = b.val; omega

theorem iblk2_2_apply (c : Dev nD) (t : Fin cfg2.N) (a : Fin 256) (b : Fin 128) :
    iblk2 V c 2 t (ix2 a b) = V c main_v1_1 (ix2 (⟨t.val * 256 + a.val, by have := t.isLt; have : cfg2.N = 16 := rfl; omega⟩ : Fin 4096) b) := by
  show V c main_v1_1 (((cfg2.win 2).blk t).view.emb (ix2 a b)) = _
  refine congrArg (V c main_v1_1) ?_
  obtain ⟨-, -, -, -, e0, e1, -, -, -, -, -, -, -, -, -, -, -, -, -, -, -, -, -, -, -, -, -, -, -, -, -, -, -, -, -, -, -, -, -, -⟩ := idx_facts2 t
  funext ax; apply Fin.ext
  match ax with
  | ⟨0, _⟩ => show win2_2.index t (0 : Fin 2) * 256 + 1 * a.val = t.val * 256 + a.val; omega
  | ⟨1, _⟩ => show win2_2.index t (1 : Fin 2) * 128 + 1 * b.val = b.val; omega

theorem iblk2_3_apply (c : Dev nD) (t : Fin cfg2.N) (a : Fin 256) (b : Fin 128) :
    iblk2 V c 3 t (ix2 a b) = V c main_v5 (ix2 (⟨t.val * 256 + a.val, by have := t.isLt; have : cfg2.N = 16 := rfl; omega⟩ : Fin 4096) b) := by
  show V c main_v5 (((cfg2.win 3).blk t).view.emb (ix2 a b)) = _
  refine congrArg (V c main_v5) ?_
  obtain ⟨-, -, -, -, -, -, e0, e1, -, -, -, -, -, -, -, -, -, -, -, -, -, -, -, -, -, -, -, -, -, -, -, -, -, -, -, -, -, -, -, -⟩ := idx_facts2 t
  funext ax; apply Fin.ext
  match ax with
  | ⟨0, _⟩ => show win2_3.index t (0 : Fin 2) * 256 + 1 * a.val = t.val * 256 + a.val; omega
  | ⟨1, _⟩ => show win2_3.index t (1 : Fin 2) * 128 + 1 * b.val = b.val; omega

theorem iblk2_4_apply (c : Dev nD) (t : Fin cfg2.N) (a : Fin 256) (b : Fin 32) :
    iblk2 V c 4 t (ix2 a b) = V c main_v6 (ix2 (⟨t.val * 256 + a.val, by have := t.isLt; have : cfg2.N = 16 := rfl; omega⟩ : Fin 4096) b) := by
  show V c main_v6 (((cfg2.win 4).blk t).view.emb (ix2 a b)) = _
  refine congrArg (V c main_v6) ?_
  obtain ⟨-, -, -, -, -, -, -, -, e0, e1, -, -, -, -, -, -, -, -, -, -, -, -, -, -, -, -, -, -, -, -, -, -, -, -, -, -, -, -, -, -⟩ := idx_facts2 t
  funext ax; apply Fin.ext
  match ax with
  | ⟨0, _⟩ => show win2_4.index t (0 : Fin 2) * 256 + 1 * a.val = t.val * 256 + a.val; omega
  | ⟨1, _⟩ => show win2_4.index t (1 : Fin 2) * 32 + 1 * b.val = b.val; omega

theorem iblk2_5_apply (c : Dev nD) (t : Fin cfg2.N) (a : Fin 128) (b : Fin 128) :
    iblk2 V c 5 t (ix2 a b) = V c main_v7 (ix2 a b) := by
  show V c main_v7 (((cfg2.win 5).blk t).view.emb (ix2 a b)) = _
  refine congrArg (V c main_v7) ?_
  obtain ⟨-, -, -, -, -, -, -, -, -, -, e0, e1, -, -, -, -, -, -, -, -, -, -, -, -, -, -, -, -, -, -, -, -, -, -, -, -, -, -, -, -⟩ := idx_facts2 t
  funext ax; apply Fin.ext
  match ax with
  | ⟨0, _⟩ => show win2_5.index t (0 : Fin 2) * 128 + 1 * a.val = a.val; omega
  | ⟨1, _⟩ => show win2_5.index t (1 : Fin 2) * 128 + 1 * b.val = b.val; omega

theorem iblk2_6_apply (c : Dev nD) (t : Fin cfg2.N) (a : Fin 1) (b : Fin 128) :
    iblk2 V c 6 t (ix2 a b) = V c main_v8 (ix2 a b) := by
  show V c main_v8 (((cfg2.win 6).blk t).view.emb (ix2 a b)) = _
  refine congrArg (V c main_v8) ?_
  obtain ⟨-, -, -, -, -, -, -, -, -, -, -, -, e0, e1, -, -, -, -, -, -, -, -, -, -, -, -, -, -, -, -, -, -, -, -, -, -, -, -, -, -⟩ := idx_facts2 t
  funext ax; apply Fin.ext
  match ax with
  | ⟨0, _⟩ => show win2_6.index t (0 : Fin 2) * 1 + 1 * a.val = a.val; omega
  | ⟨1, _⟩ => show win2_6.index t (1 : Fin 2) * 128 + 1 * b.val = b.val; omega

theorem iblk2_7_apply (c : Dev nD) (t : Fin cfg2.N) (a : Fin 128) (b : Fin 128) :
    iblk2 V c 7 t (ix2 a b) = V c main_arg9 (ix2 a b) := by
  show V c main_arg9 (((cfg2.win 7).blk t).view.emb (ix2 a b)) = _
  refine congrArg (V c main_arg9) ?_
  obtain ⟨-, -, -, -, -, -, -, -, -, -, -, -, -, -, e0, e1, -, -, -, -, -, -, -, -, -, -, -, -, -, -, -, -, -, -, -, -, -, -, -, -⟩ := idx_facts2 t
  funext ax; apply Fin.ext
  match ax with
  | ⟨0, _⟩ => show win2_7.index t (0 : Fin 2) * 128 + 1 * a.val = a.val; omega
  | ⟨1, _⟩ => show win2_7.index t (1 : Fin 2) * 128 + 1 * b.val = b.val; omega

theorem iblk2_8_apply (c : Dev nD) (t : Fin cfg2.N) (a : Fin 1) (b : Fin 128) :
    iblk2 V c 8 t (ix2 a b) = V c main_v9 (ix2 a b) := by
  show V c main_v9 (((cfg2.win 8).blk t).view.emb (ix2 a b)) = _
  refine congrArg (V c main_v9) ?_
  obtain ⟨-, -, -, -, -, -, -, -, -, -, -, -, -, -, -, -, e0, e1, -, -, -, -, -, -, -, -, -, -, -, -, -, -, -, -, -, -, -, -, -, -⟩ := idx_facts2 t
  funext ax; apply Fin.ext
  match ax with
  | ⟨0, _⟩ => show win2_8.index t (0 : Fin 2) * 1 + 1 * a.val = a.val; omega
  | ⟨1, _⟩ => show win2_8.index t (1 : Fin 2) * 128 + 1 * b.val = b.val; omega

theorem iblk2_9_apply (c : Dev nD) (t : Fin cfg2.N) (a : Fin 128) (b : Fin 128) :
    iblk2 V c 9 t (ix2 a b) = V c main_arg11 (ix2 a b) := by
  show V c main_arg11 (((cfg2.win 9).blk t).view.emb (ix2 a b)) = _
  refine congrArg (V c main_arg11) ?_
  obtain ⟨-, -, -, -, -, -, -, -, -, -, -, -, -, -, -, -, -, -, e0, e1, -, -, -, -, -, -, -, -, -, -, -, -, -, -, -, -, -, -, -, -⟩ := idx_facts2 t
  funext ax; apply Fin.ext
  match ax with
  | ⟨0, _⟩ => show win2_9.index t (0 : Fin 2) * 128 + 1 * a.val = a.val; omega
  | ⟨1, _⟩ => show win2_9.index t (1 : Fin 2) * 128 + 1 * b.val = b.val; omega

theorem iblk2_10_apply (c : Dev nD) (t : Fin cfg2.N) (a : Fin 1) (b : Fin 128) :
    iblk2 V c 10 t (ix2 a b) = V c main_v10 (ix2 a b) := by
  show V c main_v10 (((cfg2.win 10).blk t).view.emb (ix2 a b)) = _
  refine congrArg (V c main_v10) ?_
  obtain ⟨-, -, -, -, -, -, -, -, -, -, -, -, -, -, -, -, -, -, -, -, e0, e1, -, -, -, -, -, -, -, -, -, -, -, -, -, -, -, -, -, -⟩ := idx_facts2 t
  funext ax; apply Fin.ext
  match ax with
  | ⟨0, _⟩ => show win2_10.index t (0 : Fin 2) * 1 + 1 * a.val = a.val; omega
  | ⟨1, _⟩ => show win2_10.index t (1 : Fin 2) * 128 + 1 * b.val = b.val; omega

theorem iblk2_11_apply (c : Dev nD) (t : Fin cfg2.N) (a : Fin 128) (b : Fin 512) :
    iblk2 V c 11 t (ix2 a b) = V c main_arg13 (ix2 a b) := by
  show V c main_arg13 (((cfg2.win 11).blk t).view.emb (ix2 a b)) = _
  refine congrArg (V c main_arg13) ?_
  obtain ⟨-, -, -, -, -, -, -, -, -, -, -, -, -, -, -, -, -, -, -, -, -, -, e0, e1, -, -, -, -, -, -, -, -, -, -, -, -, -, -, -, -⟩ := idx_facts2 t
  funext ax; apply Fin.ext
  match ax with
  | ⟨0, _⟩ => show win2_11.index t (0 : Fin 2) * 128 + 1 * a.val = a.val; omega
  | ⟨1, _⟩ => show win2_11.index t (1 : Fin 2) * 512 + 1 * b.val = b.val; omega

theorem iblk2_12_apply (c : Dev nD) (t : Fin cfg2.N) (a : Fin 1) (b : Fin 512) :
    iblk2 V c 12 t (ix2 a b) = V c main_v11 (ix2 a b) := by
  show V c main_v11 (((cfg2.win 12).blk t).view.emb (ix2 a b)) = _
  refine congrArg (V c main_v11) ?_
  obtain ⟨-, -, -, -, -, -, -, -, -, -, -, -, -, -, -, -, -, -, -, -, -, -, -, -, e0, e1, -, -, -, -, -, -, -, -, -, -, -, -, -, -⟩ := idx_facts2 t
  funext ax; apply Fin.ext
  match ax with
  | ⟨0, _⟩ => show win2_12.index t (0 : Fin 2) * 1 + 1 * a.val = a.val; omega
  | ⟨1, _⟩ => show win2_12.index t (1 : Fin 2) * 512 + 1 * b.val = b.val; omega

theorem iblk2_13_apply (c : Dev nD) (t : Fin cfg2.N) (a : Fin 512) (b : Fin 128) :
    iblk2 V c 13 t (ix2 a b) = V c main_arg15 (ix2 a b) := by
  show V c main_arg15 (((cfg2.win 13).blk t).view.emb (ix2 a b)) = _
  refine congrArg (V c main_arg15) ?_
  obtain ⟨-, -, -, -, -, -, -, -, -, -, -, -, -, -, -, -, -, -, -, -, -, -, -, -, -, -, e0, e1, -, -, -, -, -, -, -, -, -, -, -, -⟩ := idx_facts2 t
  funext ax; apply Fin.ext
  match ax with
  | ⟨0, _⟩ => show win2_13.index t (0 : Fin 2) * 512 + 1 * a.val = a.val; omega
  | ⟨1, _⟩ => show win2_13.index t (1 : Fin 2) * 128 + 1 * b.val = b.val; omega

theorem iblk2_14_apply (c : Dev nD) (t : Fin cfg2.N) (a : Fin 1) (b : Fin 128) :
    iblk2 V c 14 t (ix2 a b) = V c main_v12 (ix2 a b) := by
  show V c main_v12 (((cfg2.win 14).blk t).view.emb (ix2 a b)) = _
  refine congrArg (V c main_v12) ?_
  obtain ⟨-, -, -, -, -, -, -, -, -, -, -, -, -, -, -, -, -, -, -, -, -, -, -, -, -, -, -, -, e0, e1, -, -, -, -, -, -, -, -, -, -⟩ := idx_facts2 t
  funext ax; apply Fin.ext
  match ax with
  | ⟨0, _⟩ => show win2_14.index t (0 : Fin 2) * 1 + 1 * a.val = a.val; omega
  | ⟨1, _⟩ => show win2_14.index t (1 : Fin 2) * 128 + 1 * b.val = b.val; omega

theorem iblk2_15_apply (c : Dev nD) (t : Fin cfg2.N) (a : Fin 1) (b : Fin 128) :
    iblk2 V c 15 t (ix2 a b) = V c main_v13 (ix2 a b) := by
  show V c main_v13 (((cfg2.win 15).blk t).view.emb (ix2 a b)) = _
  refine congrArg (V c main_v13) ?_
  obtain ⟨-, -, -, -, -, -, -, -, -, -, -, -, -, -, -, -, -, -, -, -, -, -, -, -, -, -, -, -, -, -, e0, e1, -, -, -, -, -, -, -, -⟩ := idx_facts2 t
  funext ax; apply Fin.ext
  match ax with
  | ⟨0, _⟩ => show win2_15.index t (0 : Fin 2) * 1 + 1 * a.val = a.val; omega
  | ⟨1, _⟩ => show win2_15.index t (1 : Fin 2) * 128 + 1 * b.val = b.val; omega

theorem iblk2_16_apply (c : Dev nD) (t : Fin cfg2.N) (a : Fin 1) (b : Fin 128) :
    iblk2 V c 16 t (ix2 a b) = V c main_v14 (ix2 a b) := by
  show V c main_v14 (((cfg2.win 16).blk t).view.emb (ix2 a b)) = _
  refine congrArg (V c main_v14) ?_
  obtain ⟨-, -, -, -, -, -, -, -, -, -, -, -, -, -, -, -, -, -, -, -, -, -, -, -, -, -, -, -, -, -, -, -, e0, e1, -, -, -, -, -, -⟩ := idx_facts2 t
  funext ax; apply Fin.ext
  match ax with
  | ⟨0, _⟩ => show win2_16.index t (0 : Fin 2) * 1 + 1 * a.val = a.val; omega
  | ⟨1, _⟩ => show win2_16.index t (1 : Fin 2) * 128 + 1 * b.val = b.val; omega

theorem iblk2_17_apply (c : Dev nD) (t : Fin cfg2.N) (a : Fin 1) (b : Fin 128) :
    iblk2 V c 17 t (ix2 a b) = V c main_v15 (ix2 a b) := by
  show V c main_v15 (((cfg2.win 17).blk t).view.emb (ix2 a b)) = _
  refine congrArg (V c main_v15) ?_
  obtain ⟨-, -, -, -, -, -, -, -, -, -, -, -, -, -, -, -, -, -, -, -, -, -, -, -, -, -, -, -, -, -, -, -, -, -, e0, e1, -, -, -, -⟩ := idx_facts2 t
  funext ax; apply Fin.ext
  match ax with
  | ⟨0, _⟩ => show win2_17.index t (0 : Fin 2) * 1 + 1 * a.val = a.val; omega
  | ⟨1, _⟩ => show win2_17.index t (1 : Fin 2) * 128 + 1 * b.val = b.val; omega

theorem iblk2_18_apply (c : Dev nD) (t : Fin cfg2.N) (a : Fin 1) (b : Fin 128) :
    iblk2 V c 18 t (ix2 a b) = V c main_v16 (ix2 a b) := by
  show V c main_v16 (((cfg2.win 18).blk t).view.emb (ix2 a b)) = _
  refine congrArg (V c main_v16) ?_
  obtain ⟨-, -, -, -, -, -, -, -, -, -, -, -, -, -, -, -, -, -, -, -, -, -, -, -, -, -, -, -, -, -, -, -, -, -, -, -, e0, e1, -, -⟩ := idx_facts2 t
  funext ax; apply Fin.ext
  match ax with
  | ⟨0, _⟩ => show win2_18.index t (0 : Fin 2) * 1 + 1 * a.val = a.val; omega
  | ⟨1, _⟩ => show win2_18.index t (1 : Fin 2) * 128 + 1 * b.val = b.val; omega

/-- The second pipeline's input arrays hold the layer's real data, in node coordinates. -/
structure ArrAgree (c : Dev nD) (I : Spec.Inp) : Prop where
  E : ∀ (z : Fin 2) (n : Fin 2048) (k : Fin 32) (i : Fin 128), V c main_v4 (ix2 (⟨(2048 * z.val + n.val) * 32 + k.val, by omega⟩ : Fin 131072) i) = ((I.E z n k i : ℝ) : EReal)
  G : ∀ (z : Fin 2) (n : Fin 2048) (k : Fin 32) (j : Fin 128), V c main_v3 (ix2 (⟨(2048 * z.val + n.val) * 32 + k.val, by omega⟩ : Fin 131072) j) = ((GR I z n k j : ℝ) : EReal)
  Ai : ∀ (z : Fin 2) (n : Fin 2048) (j : Fin 128), V c main_v1_1 (ix2 (⟨2048 * z.val + n.val, by omega⟩ : Fin 4096) j) = ((AiR I z n j : ℝ) : EReal)
  Vn : ∀ (z : Fin 2) (n : Fin 2048) (j : Fin 128), V c main_v5 (ix2 (⟨2048 * z.val + n.val, by omega⟩ : Fin 4096) j) = ((I.Vn z n j : ℝ) : EReal)
  em : ∀ (z : Fin 2) (n : Fin 2048) (k : Fin 32), V c main_v6 (ix2 (⟨2048 * z.val + n.val, by omega⟩ : Fin 4096) k) = ((I.em z n k : ℝ) : EReal)
  W0c : ∀ (i j : Fin 128), V c main_v7 (ix2 i j) = ((W0c I i j : ℝ) : EReal)
  b0 : ∀ j : Fin 128, V c main_v8 (ix2 (0 : Fin 1) j) = ((I.b0 j : ℝ) : EReal)
  W1 : ∀ (i j : Fin 128), V c main_arg9 (ix2 i j) = ((I.W1 i j : ℝ) : EReal)
  b1 : ∀ j : Fin 128, V c main_v9 (ix2 (0 : Fin 1) j) = ((I.b1 j : ℝ) : EReal)
  W2 : ∀ (i j : Fin 128), V c main_arg11 (ix2 i j) = ((I.W2 i j : ℝ) : EReal)
  b2 : ∀ j : Fin 128, V c main_v10 (ix2 (0 : Fin 1) j) = ((I.b2 j : ℝ) : EReal)
  F0 : ∀ (i : Fin 128) (j : Fin 512), V c main_arg13 (ix2 i j) = ((I.F0 i j : ℝ) : EReal)
  fb0 : ∀ j : Fin 512, V c main_v11 (ix2 (0 : Fin 1) j) = ((I.fb0 j : ℝ) : EReal)
  F1 : ∀ (i : Fin 512) (j : Fin 128), V c main_arg15 (ix2 i j) = ((I.F1 i j : ℝ) : EReal)
  fb1 : ∀ j : Fin 128, V c main_v12 (ix2 (0 : Fin 1) j) = ((I.fb1 j : ℝ) : EReal)
  g1 : ∀ j : Fin 128, V c main_v13 (ix2 (0 : Fin 1) j) = ((I.g1 j : ℝ) : EReal)
  be1 : ∀ j : Fin 128, V c main_v14 (ix2 (0 : Fin 1) j) = ((I.be1 j : ℝ) : EReal)
  g2 : ∀ j : Fin 128, V c main_v15 (ix2 (0 : Fin 1) j) = ((I.g2 j : ℝ) : EReal)
  be2 : ∀ j : Fin 128, V c main_v16 (ix2 (0 : Fin 1) j) = ((I.be2 j : ℝ) : EReal)
  half : I.half = RefSide.halfR
  c : I.c = RefSide.cR
  eps : I.eps = RefSide.epsR

/-- The input blocks of grid point `t`. -/
def blkOf (c : Dev nD) (t : Fin cfg2.N) : Blk :=
  ⟨iblk2 V c 0 t, iblk2 V c 1 t, iblk2 V c 2 t, iblk2 V c 3 t, iblk2 V c 4 t, iblk2 V c 5 t, iblk2 V c 6 t, iblk2 V c 7 t, iblk2 V c 8 t, iblk2 V c 9 t, iblk2 V c 10 t, iblk2 V c 11 t, iblk2 V c 12 t, iblk2 V c 13 t, iblk2 V c 14 t, iblk2 V c 15 t, iblk2 V c 16 t, iblk2 V c 17 t, iblk2 V c 18 t⟩

/-- The batch element and the node of row `r` of grid point `t`'s block: `256 t + r = 2048 z + n`. -/
def zOf (t : Fin cfg2.N) : Fin 2 := ⟨t.val / 8, by have := t.isLt; have : cfg2.N = 16 := rfl; omega⟩
def nOf (t : Fin cfg2.N) (r : Fin 256) : Fin 2048 := ⟨(256 * t.val + r.val) % 2048, Nat.mod_lt _ (by decide)⟩

theorem blockAgree_of_arr {c : Dev nD} {I : Spec.Inp} (h : ArrAgree V c I) (t : Fin cfg2.N) :
    BlockAgree (blkOf V c t) I (zOf t) (nOf t) := by
  have ht : t.val < 16 := t.isLt
  refine ⟨?_, ?_, ?_, ?_, ?_, ?_, ?_, ?_, ?_, ?_, ?_, ?_, ?_, ?_, ?_, ?_, ?_, ?_, ?_, h.half, h.c, h.eps⟩
  · intro r k i
    show iblk2 V c 0 t (ix2 _ i) = _
    rw [iblk2_0_apply, ← h.E (zOf t) (nOf t r) k i]
    refine congrArg (fun R => V c main_v4 (ix2 R i)) (Fin.ext ?_)
    show t.val * 8192 + (r.val * 32 + k.val) = (2048 * (t.val / 8) + (256 * t.val + r.val) % 2048) * 32 + k.val
    omega
  · intro r k j
    show iblk2 V c 1 t (ix2 _ j) = _
    rw [iblk2_1_apply, ← h.G (zOf t) (nOf t r) k j]
    refine congrArg (fun R => V c main_v3 (ix2 R j)) (Fin.ext ?_)
    show t.val * 8192 + (r.val * 32 + k.val) = (2048 * (t.val / 8) + (256 * t.val + r.val) % 2048) * 32 + k.val
    omega
  · intro r j
    show iblk2 V c 2 t (ix2 r j) = _
    rw [iblk2_2_apply, ← h.Ai (zOf t) (nOf t r) j]
    refine congrArg (fun R => V c main_v1_1 (ix2 R j)) (Fin.ext ?_)
    show t.val * 256 + r.val = 2048 * (t.val / 8) + (256 * t.val + r.val) % 2048
    omega
  · intro r j
    show iblk2 V c 3 t (ix2 r j) = _
    rw [iblk2_3_apply, ← h.Vn (zOf t) (nOf t r) j]
    refine congrArg (fun R => V c main_v5 (ix2 R j)) (Fin.ext ?_)
    show t.val * 256 + r.val = 2048 * (t.val / 8) + (256 * t.val + r.val) % 2048
    omega
  · intro r k
    show iblk2 V c 4 t (ix2 r k) = _
    rw [iblk2_4_apply, ← h.em (zOf t) (nOf t r) k]
    refine congrArg (fun R => V c main_v6 (ix2 R k)) (Fin.ext ?_)
    show t.val * 256 + r.val = 2048 * (t.val / 8) + (256 * t.val + r.val) % 2048
    omega
  · intro i j
    show iblk2 V c 5 t (ix2 _ _) = _
    rw [iblk2_5_apply]; exact h.W0c i j
  · intro j
    show iblk2 V c 6 t (ix2 _ _) = _
    rw [iblk2_6_apply]; exact h.b0 j
  · intro i j
    show iblk2 V c 7 t (ix2 _ _) = _
    rw [iblk2_7_apply]; exact h.W1 i j
  · intro j
    show iblk2 V c 8 t (ix2 _ _) = _
    rw [iblk2_8_apply]; exact h.b1 j
  · intro i j
    show iblk2 V c 9 t (ix2 _ _) = _
    rw [iblk2_9_apply]; exact h.W2 i j
  · intro j
    show iblk2 V c 10 t (ix2 _ _) = _
    rw [iblk2_10_apply]; exact h.b2 j
  · intro i j
    show iblk2 V c 11 t (ix2 _ _) = _
    rw [iblk2_11_apply]; exact h.F0 i j
  · intro j
    show iblk2 V c 12 t (ix2 _ _) = _
    rw [iblk2_12_apply]; exact h.fb0 j
  · intro i j
    show iblk2 V c 13 t (ix2 _ _) = _
    rw [iblk2_13_apply]; exact h.F1 i j
  · intro j
    show iblk2 V c 14 t (ix2 _ _) = _
    rw [iblk2_14_apply]; exact h.fb1 j
  · intro j
    show iblk2 V c 15 t (ix2 _ _) = _
    rw [iblk2_15_apply]; exact h.g1 j
  · intro j
    show iblk2 V c 16 t (ix2 _ _) = _
    rw [iblk2_16_apply]; exact h.be1 j
  · intro j
    show iblk2 V c 17 t (ix2 _ _) = _
    rw [iblk2_17_apply]; exact h.g2 j
  · intro j
    show iblk2 V c 18 t (ix2 _ _) = _
    rw [iblk2_18_apply]; exact h.be2 j

/-- The output array the second pipeline must end with: the real layer at node `(row / 2048, row % 2048)`. -/
def Gfun (I : Spec.Inp) : S4096x128.Idx → EReal := fun i =>
  ((Spec.out I ⟨(i 0).val / 2048, by have := (i 0).isLt; show (i 0).val / 2048 < 2; have : (i 0).val < 4096 := (i 0).isLt; omega⟩
    ⟨(i 0).val % 2048, Nat.mod_lt _ (by decide)⟩ (i 1) : ℝ) : EReal)

variable {Ix : Type} [DecidableEq Ix] {Name : Type} [DecidableEq Name] {U : Type} [URA U] {Lvl : Type} [Preorder Lvl]
variable (O : CellTallies nD τ sig Ix) (B : Set (SemLoc sig × Ix))

theorem emb19 (t : Fin cfg2.N) (r : Fin 256) (d : Fin 128) :
    ((cfg2.win 19).blk t).view.emb (ix2 r d)
      = ix2 (⟨t.val * 256 + r.val, by have := t.isLt; have : cfg2.N = 16 := rfl; omega⟩ : Fin 4096) d := by
  obtain ⟨-, -, -, -, -, -, -, -, -, -, -, -, -, -, -, -, -, -, -, -, -, -, -, -, -, -, -, -, -, -, -, -, -, -, -, -, -, -, e0, e1⟩ := idx_facts2 t
  funext ax; apply Fin.ext
  match ax with
  | ⟨0, _⟩ => show win2_19.index t (0 : Fin 2) * 256 + 1 * r.val = t.val * 256 + r.val; omega
  | ⟨1, _⟩ => show win2_19.index t (1 : Fin 2) * 128 + 1 * d.val = d.val; omega

/-- What grid point `t` writes back is its block of the real layer. -/
theorem flushed19_eq {c : Dev nD} {I : Spec.Inp} (h : ArrAgree V c I) (t : Fin cfg2.N) :
    (dat2 (Ix := Ix) (Name := Name) (U := U) (Lvl := Lvl) V O B c).flushed 19 t
      = ((cfg2.win 19).blk t).view.read (Elt Ideal) (Gfun I) := by
  show (cfg2.win 19).cut (grid2.coords t) ((dat2 (Ix := Ix) (Name := Name) (U := U) (Lvl := Lvl) V O B c).after 19 t) = _
  rw [after2_19]
  funext j
  obtain ⟨r, d, rfl⟩ : ∃ (r : Fin 256) (d : Fin 128), j = ix2 r d := ⟨j 0, j 1, eq_ix2 j⟩
  show (blkOf V c t).out (ix2 r d) = Gfun I (((cfg2.win 19).blk t).view.emb (ix2 r d))
  rw [out2_19_block (blockAgree_of_arr V h t) r d, emb19]
  have ht : t.val < 16 := t.isLt
  unfold Gfun
  refine congrArg (fun x : ℝ => (x : EReal)) ?_
  refine congrArg₂ (fun (a : Fin 2) (b : Fin 2048) => Spec.out I a b d) (Fin.ext ?_) (Fin.ext ?_)
  · show t.val / 8 = (t.val * 256 + r.val) / 2048; omega
  · show (256 * t.val + r.val) % 2048 = (t.val * 256 + r.val) % 2048; omega

/-- An index of the output array is in point `t`'s block iff each coordinate is in the block's range. -/
theorem mem_blk19 (t : Fin cfg2.N) (i : S4096x128.Idx) :
    i ∈ ((cfg2.win 19).blk t).view.set ↔ ∀ a : Fin 2, win2_19.index t a * S256x128.size a ≤ (i a).val ∧ (i a).val < win2_19.index t a * S256x128.size a + S256x128.size a := by
  show i ∈ ((View.whole main_v17).slice (win2_19.rect t)).set ↔ _
  rw [View.set_slice_whole, Rect.mem_set_unit]
  exact Iff.rfl

/-- THE OUTPUT ARRAY of the second pipeline at a node: the real layer. -/
theorem arr19_apply {c : Dev nD} {I : Spec.Inp} (h : ArrAgree V c I) (z : Fin 2) (n : Fin 2048) (d : Fin 128) :
    (dat2 (Ix := Ix) (Name := Name) (U := U) (Lvl := Lvl) V O B c).arrAt 19 cfg2.N
        (ix2 (⟨2048 * z.val + n.val, by omega⟩ : Fin 4096) d) = ((Spec.out I z n d : ℝ) : EReal) := by
  have hN : cfg2.N = 16 := rfl
  let t : Fin cfg2.N := ⟨(2048 * z.val + n.val) / 256, by rw [hN]; omega⟩
  have hmem : (ix2 (⟨2048 * z.val + n.val, by omega⟩ : Fin 4096) d : S4096x128.Idx) ∈ ((cfg2.win 19).blk t).view.set := by
    rw [mem_blk19]
    obtain ⟨-, -, -, -, -, -, -, -, -, -, -, -, -, -, -, -, -, -, -, -, -, -, -, -, -, -, -, -, -, -, -, -, -, -, -, -, -, -, e0, e1⟩ := idx_facts2 t
    intro a
    match a with
    | ⟨0, _⟩ =>
      show win2_19.index t (0 : Fin 2) * 256 ≤ 2048 * z.val + n.val ∧ 2048 * z.val + n.val < win2_19.index t (0 : Fin 2) * 256 + 256
      rw [e0]; show (2048 * z.val + n.val) / 256 * 256 ≤ _ ∧ _ < (2048 * z.val + n.val) / 256 * 256 + 256; omega
    | ⟨1, _⟩ =>
      show win2_19.index t (1 : Fin 2) * 128 ≤ d.val ∧ d.val < win2_19.index t (1 : Fin 2) * 128 + 128
      rw [e1]; omega
  rw [(dat2 (Ix := Ix) (Name := Name) (U := U) (Lvl := Lvl) V O B c).arrAt_apply_of_mem 19 (Gfun I)
    (fun t _ => flushed19_eq V O B h t) cfg2.N t _ t.isLt (flush2_19 t) hmem]
  unfold Gfun
  refine congrArg (fun x : ℝ => (x : EReal)) ?_
  refine congrArg₂ (fun (a : Fin 2) (b : Fin 2048) => Spec.out I a b d) (Fin.ext ?_) (Fin.ext ?_)
  · show (2048 * z.val + n.val) / 2048 = z.val; omega
  · show (2048 * z.val + n.val) % 2048 = n.val; omega

end Blocks

end Cert.KerSide

end
-- ==== Proof.KerValBase.lean ====
import proofs.«208327_g62569083568895_cont_9to1c4b_407_46_alg».proof.Proof.BodyIdeal.R0Out
import proofs.«208327_g62569083568895_cont_9to1c4b_407_46_alg».proof.Proof.KerSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KerSide.Tab

open Cert.Spec Cert.KerSide Cert.KernelIdeal Cert.KernelIdeal.Gen Cert.KernelIdeal.Body
open Idealize.ShloMosaic Idealize.ShloMosaic.ValueIdx
open scoped BigOperators

/-! Reading the tables body's values at an index, at the ideal instance: sums of coerced reals, the
matrix product at an index, the slabs and weight bands the body loads, and a store's piece. -/

/-- The coercion of a finite sum of reals is the sum of the coercions. -/
theorem coe_sum_fin {m : Nat} (f : Fin m → ℝ) : ((∑ i, f i : ℝ) : EReal) = ∑ i, (f i : EReal) := by
  classical
  induction (Finset.univ : Finset (Fin m)) using Finset.induction_on with
  | empty => simp
  | insert a s ha ih => rw [Finset.sum_insert ha, Finset.sum_insert ha, EReal.coe_add, ih]

/-- A sum of products of coerced reals is the coerced sum of products. -/
theorem sum_mul_coe_fin {m : Nat} (f g : Fin m → EReal) (fr gr : Fin m → ℝ) (hf : ∀ i, f i = (fr i : EReal))
    (hg : ∀ i, g i = (gr i : EReal)) : ∑ i, f i * g i = ((∑ i, fr i * gr i : ℝ) : EReal) := by
  rw [coe_sum_fin]
  exact Finset.sum_congr rfl fun i _ => by rw [hf i, hg i, EReal.coe_mul]

/-- The body's matrix product into the zero splat, read at an index: the sum over the contracted coordinate. -/
theorem mm_apply (l : FVec Ideal S2048x128 .f32) (r : FVec Ideal S128x128 .f32) (m : Fin 2048) (d : Fin 128) :
    matmul dot_S2048x128_S128x128_S2048x128_1_0_0_1_n_n none l r (constant S2048x128 .f32 0x00000000#32) (ix2 m d)
      = ∑ i : Fin 128, l (ix2 m i) * r (ix2 i d) := by
  show FloatOps.matmul _ none l r _ (ix2 m d) = _
  rw [Ideal.matmul_constant_zero_apply, ← Equiv.sum_comp (contrEquiv1 dot_S2048x128_S128x128_S2048x128_1_0_0_1_n_n 128 rfl rfl).symm]
  refine Finset.sum_congr rfl fun i _ => ?_
  have c2 := contrEquiv1_symm_val dot_S2048x128_S128x128_S2048x128_1_0_0_1_n_n 128 rfl rfl i
  have l2 : (dot_S2048x128_S128x128_S2048x128_1_0_0_1_n_n).lhsIdx (ix2 m d) ((contrEquiv1 _ 128 rfl rfl).symm i) = ix2 m i := by
    funext ax; apply Fin.ext
    match ax with
    | ⟨0, _⟩ => simp [DotDims.lhsIdx, dot_S2048x128_S128x128_S2048x128_1_0_0_1_n_n]; rfl
    | ⟨1, _⟩ => simp [DotDims.lhsIdx, dot_S2048x128_S128x128_S2048x128_1_0_0_1_n_n]; exact c2
  have r2 : (dot_S2048x128_S128x128_S2048x128_1_0_0_1_n_n).rhsIdx (ix2 m d) ((contrEquiv1 _ 128 rfl rfl).symm i) = ix2 i d := by
    funext ax; apply Fin.ext
    match ax with
    | ⟨0, _⟩ => simp [DotDims.rhsIdx, dot_S2048x128_S128x128_S2048x128_1_0_0_1_n_n]; exact c2
    | ⟨1, _⟩ => simp [DotDims.rhsIdx, dot_S2048x128_S128x128_S2048x128_1_0_0_1_n_n]; rfl
  rw [l2, r2]

/-! ## The loads -/

/-- The first slab of a [2, 2048, 128] array. -/
theorem ldN_0 {Val : EltTy → Type} {e : EltTy} (x : S2x2048x128.Idx → Val e) (m : Fin 2048) (i : Fin 128) :
    View.ld x rN_0 (ix3 (0 : Fin 1) m i) = x (ix3 (0 : Fin 2) m i) := by
  refine congrArg x (funext fun a => Fin.ext ?_)
  match a with
  | ⟨0, _⟩ => rfl
  | ⟨1, _⟩ => show 0 + 1 * m.val = m.val; omega
  | ⟨2, _⟩ => show 0 + 1 * i.val = i.val; omega

/-- The second slab of a [2, 2048, 128] array. -/
theorem ldN_1 {Val : EltTy → Type} {e : EltTy} (x : S2x2048x128.Idx → Val e) (m : Fin 2048) (i : Fin 128) :
    View.ld x rN_1 (ix3 (0 : Fin 1) m i) = x (ix3 (1 : Fin 2) m i) := by
  refine congrArg x (funext fun a => Fin.ext ?_)
  match a with
  | ⟨0, _⟩ => rfl
  | ⟨1, _⟩ => show 0 + 1 * m.val = m.val; omega
  | ⟨2, _⟩ => show 0 + 1 * i.val = i.val; omega

/-- The weight rows from 0. -/
theorem ldW_0 {Val : EltTy → Type} {e : EltTy} (x : S512x128.Idx → Val e) (i d : Fin 128) :
    View.ld x rW_0 (ix2 i d) = x (ix2 (⟨i.val, by omega⟩ : Fin 512) d) := by
  refine congrArg x (funext fun a => Fin.ext ?_)
  match a with
  | ⟨0, _⟩ => show 0 + 1 * i.val = i.val; omega
  | ⟨1, _⟩ => show 0 + 1 * d.val = d.val; omega

/-- The weight rows from 128. -/
theorem ldW_128 {Val : EltTy → Type} {e : EltTy} (x : S512x128.Idx → Val e) (i d : Fin 128) :
    View.ld x rW_128 (ix2 i d) = x (ix2 (⟨128 + i.val, by omega⟩ : Fin 512) d) := by
  refine congrArg x (funext fun a => Fin.ext ?_)
  match a with
  | ⟨0, _⟩ => show 128 + 1 * i.val = 128 + i.val; omega
  | ⟨1, _⟩ => show 0 + 1 * d.val = d.val; omega

/-- The weight rows from 384. -/
theorem ldW_384 {Val : EltTy → Type} {e : EltTy} (x : S512x128.Idx → Val e) (i d : Fin 128) :
    View.ld x rW_384 (ix2 i d) = x (ix2 (⟨384 + i.val, by omega⟩ : Fin 512) d) := by
  refine congrArg x (funext fun a => Fin.ext ?_)
  match a with
  | ⟨0, _⟩ => show 384 + 1 * i.val = 384 + i.val; omega
  | ⟨1, _⟩ => show 0 + 1 * d.val = d.val; omega

/-! ## The bands of the weights as reals -/

theorem W_0_coe (I : Inp) (x5 : Vec Ideal S512x128 .f32) (hW : ∀ i j, x5 (ix2 i j) = ((I.W0 i j : ℝ) : EReal)) (i d : Fin 128) :
    View.ld x5 rW_0 (ix2 i d) = ((W0a I i d : ℝ) : EReal) := by rw [ldW_0, hW]; rfl

theorem W_128_coe (I : Inp) (x5 : Vec Ideal S512x128 .f32) (hW : ∀ i j, x5 (ix2 i j) = ((I.W0 i j : ℝ) : EReal)) (i d : Fin 128) :
    View.ld x5 rW_128 (ix2 i d) = ((W0b I i d : ℝ) : EReal) := by rw [ldW_128, hW]; rfl

theorem W_384_coe (I : Inp) (x5 : Vec Ideal S512x128 .f32) (hW : ∀ i j, x5 (ix2 i j) = ((I.W0 i j : ℝ) : EReal)) (i d : Fin 128) :
    View.ld x5 rW_384 (ix2 i d) = ((W0d I i d : ℝ) : EReal) := by rw [ldW_384, hW]; rfl

end Cert.KerSide.Tab

end
-- ==== Proof.KerValPay.lean ====
import proofs.«208327_g62569083568895_cont_9to1c4b_407_46_alg».proof.Proof.KerValBase
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KerSide.Tab

open Cert.Spec Cert.KerSide Cert.KernelIdeal Cert.KernelIdeal.Gen Cert.KernelIdeal.Body
open Idealize.ShloMosaic Idealize.ShloMosaic.ValueIdx
open scoped BigOperators

/-! The float payloads of the tables body at an index, on slabs and weight bands of coerced reals, and a
list of stores read at an index under one of its pieces. -/

/-- A slab with its unit axis dropped, times a weight band, into the zero splat: the coerced real sum. -/
theorem mmW_coe (v : FVec Ideal S1x2048x128 .f32) (w : FVec Ideal S128x128 .f32) (h : S1x2048x128.ShapeCasts S2048x128)
    (X : Fin 2048 → Fin 128 → ℝ) (Wr : Fin 128 → Fin 128 → ℝ)
    (hv : ∀ m i, v (ix3 (0 : Fin 1) m i) = ((X m i : ℝ) : EReal)) (hw : ∀ i d, w (ix2 i d) = ((Wr i d : ℝ) : EReal))
    (m : Fin 2048) (d : Fin 128) :
    matmul (F := Ideal) dot_S2048x128_S128x128_S2048x128_1_0_0_1_n_n none (shapeCast S2048x128 v h) w
        (constant (F := Ideal) S2048x128 .f32 0x00000000#32) (ix2 m d) = ((∑ i, X m i * Wr i d : ℝ) : EReal) := by
  rw [mm_apply]
  exact sum_mul_coe_fin _ _ _ _ (fun i => by rw [shapeCast_1ab_ab_apply, hv]) (fun i => hw i d)

section Pay
variable (w1 w2 : FVec Ideal S128x128 .f32) (v v' : FVec Ideal S1x2048x128 .f32)
  (X X' : Fin 2048 → Fin 128 → ℝ) (W1 W2 : Fin 128 → Fin 128 → ℝ)
  (hv : ∀ m i, v (ix3 (0 : Fin 1) m i) = ((X m i : ℝ) : EReal))
  (hv' : ∀ m i, v' (ix3 (0 : Fin 1) m i) = ((X' m i : ℝ) : EReal))
  (hw1 : ∀ i d, w1 (ix2 i d) = ((W1 i d : ℝ) : EReal)) (hw2 : ∀ i d, w2 (ix2 i d) = ((W2 i d : ℝ) : EReal))
  (m : Fin 2048) (d : Fin 128)
include hv hw1

theorem pay3_coe : k0_pay3 (F := Ideal) w1 v (ix2 m d) = ((∑ i, X m i * W1 i d : ℝ) : EReal) := mmW_coe v w1 _ X W1 hv hw1 m d
theorem pay11_coe : k0_pay11 (F := Ideal) w1 v (ix2 m d) = ((∑ i, X m i * W1 i d : ℝ) : EReal) := mmW_coe v w1 _ X W1 hv hw1 m d
theorem pay5_coe : k0_pay5 (F := Ideal) w1 v (ix2 m d) = ((∑ i, X m i * W1 i d : ℝ) : EReal) := mmW_coe v w1 _ X W1 hv hw1 m d
theorem pay13_coe : k0_pay13 (F := Ideal) w1 v (ix2 m d) = ((∑ i, X m i * W1 i d : ℝ) : EReal) := mmW_coe v w1 _ X W1 hv hw1 m d

include hv' hw2
theorem pay4_coe : k0_pay4 (F := Ideal) w1 w2 v v' (ix2 m d) = (((∑ i, X m i * W1 i d) + (∑ i, X' m i * W2 i d) : ℝ) : EReal) := by
  rw [EReal.coe_add, ← mmW_coe v w1 shapeCasts_S1x2048x128_S2048x128 X W1 hv hw1 m d, ← mmW_coe v' w2 shapeCasts_S1x2048x128_S2048x128 X' W2 hv' hw2 m d]
  rfl
theorem pay12_coe : k0_pay12 (F := Ideal) w1 w2 v v' (ix2 m d) = (((∑ i, X m i * W1 i d) + (∑ i, X' m i * W2 i d) : ℝ) : EReal) := by
  rw [EReal.coe_add, ← mmW_coe v w1 shapeCasts_S1x2048x128_S2048x128 X W1 hv hw1 m d, ← mmW_coe v' w2 shapeCasts_S1x2048x128_S2048x128 X' W2 hv' hw2 m d]
  rfl
end Pay

/-! ## A list of stores read under one piece -/

section Canon
variable {Val : EltTy → Type} [∀ e, Nonempty (Val e)] {S : Shape} {e : EltTy}

/-- Under the last store's rectangle, its payload. -/
theorem canon_hit (r : Rect S) (w : r.shape.Idx → Val e) (L : List (View.Piece Val S e)) (y : S.Idx) (x : r.shape.Idx)
    (h : r.emb x = y) : View.canon (⟨r, w⟩ :: L) y = w x := by
  subst h; exact View.canon_cons_emb r w L x

end Canon

/-- A row outside a rank-2 row block is not in it. -/
theorem not_mem_rows {n0 n1 : Nat} {off size : Fin 2 → Nat} {inb} (row : Fin n0) (d : Fin n1)
    (h : row.val < off 0 ∨ off 0 + size 0 ≤ row.val) :
    ix2 row d ∉ (Rect.unit (s := ⟨2, ![n0, n1]⟩) off size inb).set := fun hm => by
  have h0 := (Rect.mem_set_unit.mp hm) 0
  have h1 : off 0 ≤ row.val := h0.1
  have h2 : row.val < off 0 + size 0 := h0.2
  omega

/-- A leading coordinate outside a rank-3 slab is not in it. -/
theorem not_mem_slab {n0 n1 n2 : Nat} {off size : Fin 3 → Nat} {inb} (z : Fin n0) (n : Fin n1) (k : Fin n2)
    (h : z.val < off 0 ∨ off 0 + size 0 ≤ z.val) :
    ix3 z n k ∉ (Rect.unit (s := ⟨3, ![n0, n1, n2]⟩) off size inb).set := fun hm => by
  have h0 := (Rect.mem_set_unit.mp hm) 0
  have h1 : off 0 ≤ z.val := h0.1
  have h2 : z.val < off 0 + size 0 := h0.2
  omega

end Cert.KerSide.Tab

end
-- ==== Proof.KerValWord.lean ====
import proofs.«208327_g62569083568895_cont_9to1c4b_407_46_alg».proof.Proof.KerValBase
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KerSide.Tab

open Cert.Spec Cert.KerSide Cert.KernelIdeal Cert.KernelIdeal.Gen Cert.KernelIdeal.Body
open Idealize.ShloMosaic Idealize.ShloMosaic.ValueIdx
open scoped BigOperators

/-! The integer payloads of the tables body at an index, and the arithmetic of their 32-bit words. -/

/-- The first slab of a [2, 2048, 32] array. -/
theorem ldK_0 {Val : EltTy → Type} {e : EltTy} (x : S2x2048x32.Idx → Val e) (n : Fin 2048) (k : Fin 32) :
    View.ld x rK_0 (ix3 (0 : Fin 1) n k) = x (ix3 (0 : Fin 2) n k) := by
  refine congrArg x (funext fun a => Fin.ext ?_)
  match a with
  | ⟨0, _⟩ => rfl
  | ⟨1, _⟩ => show 0 + 1 * n.val = n.val; omega
  | ⟨2, _⟩ => show 0 + 1 * k.val = k.val; omega

/-- The second slab of a [2, 2048, 32] array. -/
theorem ldK_1 {Val : EltTy → Type} {e : EltTy} (x : S2x2048x32.Idx → Val e) (n : Fin 2048) (k : Fin 32) :
    View.ld x rK_1 (ix3 (0 : Fin 1) n k) = x (ix3 (1 : Fin 2) n k) := by
  refine congrArg x (funext fun a => Fin.ext ?_)
  match a with
  | ⟨0, _⟩ => rfl
  | ⟨1, _⟩ => show 0 + 1 * n.val = n.val; omega
  | ⟨2, _⟩ => show 0 + 1 * k.val = k.val; omega

/-- An index below 2048 plus an offset of at most 2048 plus 4096 times a 0/1 word: no wrap-around at 32 bits. -/
theorem word_val (a b : BitVec 32) (c K : Nat) (hK : a.toNat = K) (hK2 : K < 2048) (hc : c ≤ 2048) (ar : Bool)
    (hb : b = if ar then 1#32 else 0#32) :
    (a + BitVec.ofNat 32 c + b * 4096#32).toNat = K + c + (if ar then 4096 else 0) := by
  subst hb
  cases ar
  · simp only [Bool.false_eq_true, if_false, BitVec.zero_mul, BitVec.add_zero, BitVec.toNat_add, BitVec.toNat_ofNat, hK, Nat.add_zero]
    omega
  · simp only [if_true, BitVec.one_mul, BitVec.toNat_add, BitVec.toNat_ofNat, hK]
    omega

/-- The integer payload at an index: the slab's word plus the splat offset plus the mask's word times 4096. -/
theorem payK_apply (a b : IVec S1x2048x32 32) (c : BitVec 32) (h1 : S1x2048x32.ShapeCasts S2048x32)
    (h2 : S2048x32.ShapeCasts S1x2048x32) (n : Fin 2048) (k : Fin 32) :
    shapeCast S1x2048x32 (addi (addi (shapeCast S2048x32 a h1) (broadcast S2048x32 c))
        (muli (shapeCast S2048x32 b h1) (broadcast S2048x32 4096#32))) h2 (ix3 (0 : Fin 1) n k)
      = a (ix3 (0 : Fin 1) n k) + c + b (ix3 (0 : Fin 1) n k) * 4096#32 := by
  rw [shapeCast_ab_1ab_apply]
  show IntOp.addi (IntOp.addi (shapeCast S2048x32 a h1 (ix2 n k)) c) (IntOp.muli (shapeCast S2048x32 b h1 (ix2 n k)) 4096#32) = _
  rw [shapeCast_1ab_ab_apply, shapeCast_1ab_ab_apply]
  rfl

theorem pay9_apply (a b : Vec Ideal S1x2048x32 .i32) (n : Fin 2048) (k : Fin 32) :
    k0_pay9 (k0_pay6 (F := Ideal) a) (k0_pay7 (F := Ideal) b) k0_pay8 (ix3 (0 : Fin 1) n k)
      = a (ix3 (0 : Fin 1) n k) + BitVec.ofNat 32 0 + b (ix3 (0 : Fin 1) n k) * 4096#32 :=
  payK_apply a b 0#32 _ _ n k

theorem pay1_apply (a b : Vec Ideal S1x2048x32 .i32) (n : Fin 2048) (k : Fin 32) :
    k0_pay1 (k0_pay14 (F := Ideal) a) (k0_pay15 (F := Ideal) b) k0_pay16 (ix3 (0 : Fin 1) n k)
      = a (ix3 (0 : Fin 1) n k) + BitVec.ofNat 32 2048 + b (ix3 (0 : Fin 1) n k) * 4096#32 :=
  payK_apply a b 2048#32 _ _ n k

end Cert.KerSide.Tab

end
-- ==== Proof.KerValTables.lean ====
import proofs.«208327_g62569083568895_cont_9to1c4b_407_46_alg».proof.Proof.KerValPay
import proofs.«208327_g62569083568895_cont_9to1c4b_407_46_alg».proof.Proof.KerValWord
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KerSide

open Cert.Spec Cert.KerSide Cert.KernelIdeal Cert.KernelIdeal.Gen Cert.KernelIdeal.Body
open Idealize.ShloMosaic Idealize.ShloMosaic.ValueIdx
open scoped BigOperators

open Cert.KerSide.Tab

/-! What the tables body leaves in its three outputs, index by index: the gather table's rows, the
node's own features through the first weight band, and the gather indices as numbers. -/

namespace Tab

section Canon
variable {Val : EltTy → Type} [∀ e, Nonempty (Val e)] {S : Shape} {e : EltTy}

/-- Off the last store's rectangle, the earlier stores decide. -/
theorem canon_skip (r : Rect S) (w : r.shape.Idx → Val e) (L : List (View.Piece Val S e)) (y : S.Idx) (h : y ∉ r.set) (v : Val e)
    (hv : View.canon L y = v) : View.canon ((⟨r, w⟩ : View.Piece Val S e) :: L) y = v :=
  (View.canon_cons_of_not_mem ⟨r, w⟩ L h).trans hv

end Canon

theorem Trow_false (I : Inp) (z : Fin 2) (m : Fin 2048) (d : Fin 128) :
    Trow I false z m d = ∑ i, I.Vo z m i * W0b I i d := by unfold Trow; simp

theorem Trow_true (I : Inp) (z : Fin 2) (m : Fin 2048) (d : Fin 128) :
    Trow I true z m d = (∑ i, I.Vn z m i * W0b I i d) + (∑ i, I.S z m i * W0d I i d) := by unfold Trow; simp

end Tab

/-- (T), the old half: table row `2048 z + m` is the old node features through the second band. -/
theorem out0_6_old (I : Inp) (x0 x1 x2 : Vec Ideal S2x2048x128 .f32) (x5 : Vec Ideal S512x128 .f32)
    (hVo : ∀ z n i, x1 (ix3 z n i) = ((I.Vo z n i : ℝ) : EReal))
    (hW : ∀ i j, x5 (ix2 i j) = ((I.W0 i j : ℝ) : EReal))
    (z : Fin 2) (m : Fin 2048) (d : Fin 128) :
    out0_6 x0 x1 x2 x5 (ix2 (⟨2048 * z.val + m.val, by omega⟩ : Fin 8192) d) = ((Trow I false z m d : ℝ) : EReal) := by
  rw [Tab.Trow_false]
  unfold out0_6
  match z with
  | ⟨0, hz⟩ =>
    refine Tab.canon_skip rT_6144 _ _ _ (not_mem_rows _ _ (Or.inl (by show 2048 * 0 + m.val < 6144; omega))) _ ?_
    refine Tab.canon_skip rT_2048 _ _ _ (not_mem_rows _ _ (Or.inl (by show 2048 * 0 + m.val < 2048; omega))) _ ?_
    refine Tab.canon_skip rT_4096 _ _ _ (not_mem_rows _ _ (Or.inl (by show 2048 * 0 + m.val < 4096; omega))) _ ?_
    refine (canon_hit rT_0 _ _ _ (ix2 m d) (by
      funext a; apply Fin.ext
      match a with
      | ⟨0, _⟩ => show 0 + 1 * m.val = _; first | rfl | (show _ = 2048 * 0 + m.val; omega)
      | ⟨1, _⟩ => show 0 + 1 * d.val = d.val; omega)).trans ?_
    exact pay3_coe (w1 := View.ld x5 rW_128) (v := View.ld x1 rN_0) (X := fun m i => I.Vo ⟨0, hz⟩ m i) (W1 := W0b I)
      (fun m i => (ldN_0 x1 m i).trans (hVo _ m i)) (W_128_coe I x5 hW) m d
  | ⟨1, hz⟩ =>
    refine Tab.canon_skip rT_6144 _ _ _ (not_mem_rows _ _ (Or.inl (by show 2048 * 1 + m.val < 6144; omega))) _ ?_
    refine (canon_hit rT_2048 _ _ _ (ix2 m d) (by
      funext a; apply Fin.ext
      match a with
      | ⟨0, _⟩ => show 2048 + 1 * m.val = _; first | rfl | (show _ = 2048 * 1 + m.val; omega)
      | ⟨1, _⟩ => show 0 + 1 * d.val = d.val; omega)).trans ?_
    exact pay11_coe (w1 := View.ld x5 rW_128) (v := View.ld x1 rN_1) (X := fun m i => I.Vo ⟨1, hz⟩ m i) (W1 := W0b I)
      (fun m i => (ldN_1 x1 m i).trans (hVo _ m i)) (W_128_coe I x5 hW) m d

/-- (T), the new half: table row `4096 + 2048 z + m` is the new node features through the second band plus the
    sequence features through the fourth. -/
theorem out0_6_new (I : Inp) (x0 x1 x2 : Vec Ideal S2x2048x128 .f32) (x5 : Vec Ideal S512x128 .f32)
    (hVn : ∀ z n i, x0 (ix3 z n i) = ((I.Vn z n i : ℝ) : EReal))
    (hS : ∀ z n i, x2 (ix3 z n i) = ((I.S z n i : ℝ) : EReal))
    (hW : ∀ i j, x5 (ix2 i j) = ((I.W0 i j : ℝ) : EReal))
    (z : Fin 2) (m : Fin 2048) (d : Fin 128) :
    out0_6 x0 x1 x2 x5 (ix2 (⟨4096 + 2048 * z.val + m.val, by omega⟩ : Fin 8192) d) = ((Trow I true z m d : ℝ) : EReal) := by
  rw [Tab.Trow_true]
  unfold out0_6
  match z with
  | ⟨0, hz⟩ =>
    refine Tab.canon_skip rT_6144 _ _ _ (not_mem_rows _ _ (Or.inl (by show 4096 + 2048 * 0 + m.val < 6144; omega))) _ ?_
    refine Tab.canon_skip rT_2048 _ _ _ (not_mem_rows _ _ (Or.inr (by show 2048 + 2048 ≤ 4096 + 2048 * 0 + m.val; omega))) _ ?_
    refine (canon_hit rT_4096 _ _ _ (ix2 m d) (by
      funext a; apply Fin.ext
      match a with
      | ⟨0, _⟩ => show 4096 + 1 * m.val = _; first | rfl | (show _ = 4096 + 2048 * 0 + m.val; omega)
      | ⟨1, _⟩ => show 0 + 1 * d.val = d.val; omega)).trans ?_
    exact pay4_coe (w1 := View.ld x5 rW_128) (w2 := View.ld x5 rW_384) (v := View.ld x0 rN_0) (v' := View.ld x2 rN_0)
      (X := fun m i => I.Vn ⟨0, hz⟩ m i) (X' := fun m i => I.S ⟨0, hz⟩ m i) (W1 := W0b I) (W2 := W0d I)
      (fun m i => (ldN_0 x0 m i).trans (hVn _ m i)) (fun m i => (ldN_0 x2 m i).trans (hS _ m i))
      (W_128_coe I x5 hW) (W_384_coe I x5 hW) m d
  | ⟨1, hz⟩ =>
    refine (canon_hit rT_6144 _ _ _ (ix2 m d) (by
      funext a; apply Fin.ext
      match a with
      | ⟨0, _⟩ => show 6144 + 1 * m.val = _; first | rfl | (show _ = 4096 + 2048 * 1 + m.val; omega)
      | ⟨1, _⟩ => show 0 + 1 * d.val = d.val; omega)).trans ?_
    exact pay12_coe (w1 := View.ld x5 rW_128) (w2 := View.ld x5 rW_384) (v := View.ld x0 rN_1) (v' := View.ld x2 rN_1)
      (X := fun m i => I.Vn ⟨1, hz⟩ m i) (X' := fun m i => I.S ⟨1, hz⟩ m i) (W1 := W0b I) (W2 := W0d I)
      (fun m i => (ldN_1 x0 m i).trans (hVn _ m i)) (fun m i => (ldN_1 x2 m i).trans (hS _ m i))
      (W_128_coe I x5 hW) (W_384_coe I x5 hW) m d

/-- (A): row `2048 z + n` is the node's own new features through the first band. -/
theorem out0_7_val (I : Inp) (x0 : Vec Ideal S2x2048x128 .f32) (x5 : Vec Ideal S512x128 .f32)
    (hVn : ∀ z n i, x0 (ix3 z n i) = ((I.Vn z n i : ℝ) : EReal))
    (hW : ∀ i j, x5 (ix2 i j) = ((I.W0 i j : ℝ) : EReal))
    (z : Fin 2) (m : Fin 2048) (d : Fin 128) :
    out0_7 x0 x5 (ix2 (⟨2048 * z.val + m.val, by omega⟩ : Fin 4096) d) = ((AiR I z m d : ℝ) : EReal) := by
  unfold AiR out0_7
  match z with
  | ⟨0, hz⟩ =>
    refine Tab.canon_skip rA_2048 _ _ _ (not_mem_rows _ _ (Or.inl (by show 2048 * 0 + m.val < 2048; omega))) _ ?_
    refine (canon_hit rA_0 _ _ _ (ix2 m d) (by
      funext a; apply Fin.ext
      match a with
      | ⟨0, _⟩ => show 0 + 1 * m.val = _; first | rfl | (show _ = 2048 * 0 + m.val; omega)
      | ⟨1, _⟩ => show 0 + 1 * d.val = d.val; omega)).trans ?_
    exact pay5_coe (w1 := View.ld x5 rW_0) (v := View.ld x0 rN_0) (X := fun m i => I.Vn ⟨0, hz⟩ m i) (W1 := W0a I)
      (fun m i => (ldN_0 x0 m i).trans (hVn _ m i)) (W_0_coe I x5 hW) m d
  | ⟨1, hz⟩ =>
    refine (canon_hit rA_2048 _ _ _ (ix2 m d) (by
      funext a; apply Fin.ext
      match a with
      | ⟨0, _⟩ => show 2048 + 1 * m.val = _; first | rfl | (show _ = 2048 * 1 + m.val; omega)
      | ⟨1, _⟩ => show 0 + 1 * d.val = d.val; omega)).trans ?_
    exact pay13_coe (w1 := View.ld x5 rW_0) (v := View.ld x0 rN_1) (X := fun m i => I.Vn ⟨1, hz⟩ m i) (W1 := W0a I)
      (fun m i => (ldN_1 x0 m i).trans (hVn _ m i)) (W_0_coe I x5 hW) m d

/-- (K): the gather index of an edge as a number — the neighbour's index, plus 2048 per batch, plus 4096 where the
    mask is set; all below 8192, so the 32-bit sum does not wrap. -/
theorem out0_8_val (I : Inp) (x3 x4 : Vec Ideal S2x2048x32 .i32)
    (hK : ∀ z n k, (x3 (ix3 z n k)).toNat = (I.K z n k).val)
    (har : ∀ z n k, x4 (ix3 z n k) = if I.ar z n k then 1#32 else 0#32)
    (z : Fin 2) (n : Fin 2048) (k : Fin 32) :
    (out0_8 (F := Ideal) x3 x4 (ix3 z n k)).toNat = (I.K z n k).val + 2048 * z.val + (if I.ar z n k then 4096 else 0) := by
  unfold out0_8
  match z with
  | ⟨0, hz⟩ =>
    rw [Tab.canon_skip rK_1 _ _ _ (not_mem_slab _ _ _ (Or.inl (by show 0 < 1; omega))) _
      ((canon_hit rK_0 _ _ _ (ix3 (0 : Fin 1) n k) (by
      funext a; apply Fin.ext
      match a with
      | ⟨0, _⟩ => rfl
      | ⟨1, _⟩ => show 0 + 1 * n.val = n.val; omega
      | ⟨2, _⟩ => show 0 + 1 * k.val = k.val; omega)).trans (pay9_apply _ _ n k))]
    rw [ldK_0, ldK_0]
    exact word_val _ _ 0 _ (hK _ n k) (I.K _ n k).isLt (by omega) (I.ar _ n k) (har _ n k)
  | ⟨1, hz⟩ =>
    rw [(canon_hit rK_1 _ _ _ (ix3 (0 : Fin 1) n k) (by
      funext a; apply Fin.ext
      match a with
      | ⟨0, _⟩ => rfl
      | ⟨1, _⟩ => show 0 + 1 * n.val = n.val; omega
      | ⟨2, _⟩ => show 0 + 1 * k.val = k.val; omega)).trans (pay1_apply _ _ n k)]
    rw [ldK_1, ldK_1]
    exact word_val _ _ 2048 _ (hK _ n k) (I.K _ n k).isLt (by omega) (I.ar _ n k) (har _ n k)

end Cert.KerSide

end
-- ==== Proof.KerGlueB2.lean ====
import proofs.«208327_g62569083568895_cont_9to1c4b_407_46_alg».proof.Proof.KerGlueB1
import proofs.«208327_g62569083568895_cont_9to1c4b_407_46_alg».proof.Proof.KerGlueA
import proofs.«208327_g62569083568895_cont_9to1c4b_407_46_alg».proof.Proof.KerValTables
import proofs.«208327_g62569083568895_cont_9to1c4b_407_46_alg».proof.Proof.RefValFinal

set_option maxRecDepth 16384

noncomputable section

namespace Cert.KerSide

open Cert.KernelIdeal Cert.KernelIdeal.Gen Cert.KernelIdeal.Body Cert.KernelIdeal.Sc
open Idealize.ShloMosaic Idealize.ShloMosaic.ValueIdx Idealize.ShloMosaic.TcCoe Idealize.ShloMosaic.StableHlo
open Idealize.SL Idealize.SL.Sem
open Idealize.ShloMosaic.Pipeline (Dat Cfg Window)

/-! The second pipeline's input arrays, in node coordinates, from the launch memory: the host reshapes and the slice read at
an index, the tables kernel's results, and the gathered rows. -/

variable (m : (ℓ : Loc nD τ sig) → Buf (Elt Ideal) ℓ) (G3 : (d : Dev nD) → Buf (Elt Ideal) (outLoc d)) (d : Dev nD)

/-- The launch arrays as an argument record. -/
def argsOfMem : RefSide.Args Ideal :=
  ⟨m (d, Proc.devRef .tc main_arg0), m (d, Proc.devRef .tc main_arg1), m (d, Proc.devRef .tc main_arg2), m (d, Proc.devRef .tc main_arg3), m (d, Proc.devRef .tc main_arg4), m (d, Proc.devRef .tc main_arg5), m (d, Proc.devRef .tc main_arg6), m (d, Proc.devRef .tc main_arg7), m (d, Proc.devRef .tc main_arg8), m (d, Proc.devRef .tc main_arg9), m (d, Proc.devRef .tc main_arg10), m (d, Proc.devRef .tc main_arg11), m (d, Proc.devRef .tc main_arg12), m (d, Proc.devRef .tc main_arg13), m (d, Proc.devRef .tc main_arg14), m (d, Proc.devRef .tc main_arg15), m (d, Proc.devRef .tc main_arg16), m (d, Proc.devRef .tc main_arg17), m (d, Proc.devRef .tc main_arg18), m (d, Proc.devRef .tc main_arg19), m (d, Proc.devRef .tc main_arg20)⟩

theorem W5_v4 (z : Fin 2) (n : Fin 2048) (k : Fin 32) (i : Fin 128) :
    W5 m G3 d (Proc.devRef .tc main_v4) (ix2 (⟨(2048 * z.val + n.val) * 32 + k.val, by omega⟩ : Fin 131072) i) = m (d, Proc.devRef .tc main_arg2) (ix4 z n k i) := by
  have e : W5 m G3 d (Proc.devRef .tc main_v4) = fun i => shapeCast ⟨2, ![131072, 128]⟩ (W4 m G3 d (Proc.devRef .tc main_arg2)) shapeCasts_S2x2048x32x128_S131072x128 i := by
    show StableHlo.after ops5 (W4 m G3 d) (Proc.devRef .tc main_v4) = _
    after_results; rfl
  rw [e, W4_pass m G3 d main_arg2 (by decide) (by decide) (by decide) (by decide)]
  exact Idealize.ShloMosaic.shapeCast_apply _ _ _ _ (by
    show ((⟨4, ![2, 2048, 32, 128]⟩ : Shape).rowMajor (ix4 z n k i)).val = ((⟨2, ![131072, 128]⟩ : Shape).rowMajor (ix2 _ i)).val
    rw [Shape.rowMajor_val_four, Shape.rowMajor_val_two]
    show ((z.val * 2048 + n.val) * 32 + k.val) * 128 + i.val = ((2048 * z.val + n.val) * 32 + k.val) * 128 + i.val
    omega)

theorem W5_v3 : W5 m G3 d (Proc.devRef .tc main_v3) = G3 d := by
  have e : W5 m G3 d (Proc.devRef .tc main_v3) = W4 m G3 d (Proc.devRef .tc main_v3) := by
    show StableHlo.after ops5 (W4 m G3 d) (Proc.devRef .tc main_v3) = _
    after_results
  rw [e, W4_v3]

theorem W5_v1_1 : W5 m G3 d (Proc.devRef .tc main_v1_1) = out0_7 (F := Ideal) (m (d, Proc.devRef .tc main_arg0)) (m (d, Proc.devRef .tc main_arg7)) := by
  have e : W5 m G3 d (Proc.devRef .tc main_v1_1) = W4 m G3 d (Proc.devRef .tc main_v1_1) := by
    show StableHlo.after ops5 (W4 m G3 d) (Proc.devRef .tc main_v1_1) = _
    after_results
  rw [e, W4_of_ne m G3 d main_v1_1 (by decide), W3_of_ne m d main_v1_1 (by decide)]
  show W2 m d (Proc.devRef .tc (Pipeline.arrRef spec0 7)) = _
  rw [W2_arr, arr0_7]
  show out0_7 (W1 m d (Proc.devRef .tc main_arg0)) (W1 m d (Proc.devRef .tc main_arg7)) = _
  rw [W1_of_ne m d main_arg0 (by decide), W1_of_ne m d main_arg7 (by decide)]

theorem W5_v5 (z : Fin 2) (n : Fin 2048) (j : Fin 128) :
    W5 m G3 d (Proc.devRef .tc main_v5) (ix2 (⟨2048 * z.val + n.val, by omega⟩ : Fin 4096) j) = m (d, Proc.devRef .tc main_arg0) (ix3 z n j) := by
  have e : W5 m G3 d (Proc.devRef .tc main_v5) = fun i => shapeCast ⟨2, ![4096, 128]⟩ (W4 m G3 d (Proc.devRef .tc main_arg0)) shapeCasts_S2x2048x128_S4096x128 i := by
    show StableHlo.after ops5 (W4 m G3 d) (Proc.devRef .tc main_v5) = _
    after_results; rfl
  rw [e, show W4 m G3 d (Proc.devRef .tc main_arg0) = m (d, Proc.devRef .tc main_arg0) from
    W4_in m G3 d 0 (fun _ => rfl) (by decide) (by decide) (by decide)]
  exact Idealize.ShloMosaic.shapeCast_apply _ _ _ _ (by
    show ((⟨3, ![2, 2048, 128]⟩ : Shape).rowMajor (ix3 z n j)).val = ((⟨2, ![4096, 128]⟩ : Shape).rowMajor (ix2 _ j)).val
    rw [Shape.rowMajor_val_three, Shape.rowMajor_val_two]
    show (z.val * 2048 + n.val) * 128 + j.val = (2048 * z.val + n.val) * 128 + j.val
    omega)

theorem W5_v6 (z : Fin 2) (n : Fin 2048) (k : Fin 32) :
    W5 m G3 d (Proc.devRef .tc main_v6) (ix2 (⟨2048 * z.val + n.val, by omega⟩ : Fin 4096) k) = m (d, Proc.devRef .tc main_arg5) (ix3 z n k) := by
  have e : W5 m G3 d (Proc.devRef .tc main_v6) = fun i => shapeCast ⟨2, ![4096, 32]⟩ (W4 m G3 d (Proc.devRef .tc main_arg5)) shapeCasts_S2x2048x32_S4096x32 i := by
    show StableHlo.after ops5 (W4 m G3 d) (Proc.devRef .tc main_v6) = _
    after_results; rfl
  rw [e, W4_pass m G3 d main_arg5 (by decide) (by decide) (by decide) (by decide)]
  exact Idealize.ShloMosaic.shapeCast_apply _ _ _ _ (by
    show ((⟨3, ![2, 2048, 32]⟩ : Shape).rowMajor (ix3 z n k)).val = ((⟨2, ![4096, 32]⟩ : Shape).rowMajor (ix2 _ k)).val
    rw [Shape.rowMajor_val_three, Shape.rowMajor_val_two]
    show (z.val * 2048 + n.val) * 32 + k.val = (2048 * z.val + n.val) * 32 + k.val
    omega)

theorem W5_v7 (i j : Fin 128) :
    W5 m G3 d (Proc.devRef .tc main_v7) (ix2 i j) = m (d, Proc.devRef .tc main_arg7) (ix2 (⟨256 + i.val, by omega⟩ : Fin 512) j) := by
  have e : W5 m G3 d (Proc.devRef .tc main_v7) = extractStridedSlice ⟨2, ![128, 128]⟩ ![256, 0] (W4 m G3 d (Proc.devRef .tc main_arg7)) slices_S512x128_S128x128_256_0 := by
    show StableHlo.after ops5 (W4 m G3 d) (Proc.devRef .tc main_v7) = _
    after_results
  rw [e, show W4 m G3 d (Proc.devRef .tc main_arg7) = m (d, Proc.devRef .tc main_arg7) from
    W4_in m G3 d 5 (fun _ => rfl) (by decide) (by decide) (by decide)]
  exact slice2_axis0_apply 256 _ _ i j _ rfl

theorem W5_v8 (j : Fin 128) : W5 m G3 d (Proc.devRef .tc main_v8) (ix2 (0 : Fin 1) j) = m (d, Proc.devRef .tc main_arg8) (ix1 j) := by
  have e : W5 m G3 d (Proc.devRef .tc main_v8) = fun i => shapeCast ⟨2, ![1, 128]⟩ (W4 m G3 d (Proc.devRef .tc main_arg8)) shapeCasts_S128_S1x128 i := by
    show StableHlo.after ops5 (W4 m G3 d) (Proc.devRef .tc main_v8) = _
    after_results; rfl
  rw [e, W4_pass m G3 d main_arg8 (by decide) (by decide) (by decide) (by decide)]
  exact sc_n_1n _ _ j

theorem W5_v9 (j : Fin 128) : W5 m G3 d (Proc.devRef .tc main_v9) (ix2 (0 : Fin 1) j) = m (d, Proc.devRef .tc main_arg10) (ix1 j) := by
  have e : W5 m G3 d (Proc.devRef .tc main_v9) = fun i => shapeCast ⟨2, ![1, 128]⟩ (W4 m G3 d (Proc.devRef .tc main_arg10)) shapeCasts_S128_S1x128 i := by
    show StableHlo.after ops5 (W4 m G3 d) (Proc.devRef .tc main_v9) = _
    after_results; rfl
  rw [e, W4_pass m G3 d main_arg10 (by decide) (by decide) (by decide) (by decide)]
  exact sc_n_1n _ _ j

theorem W5_v10 (j : Fin 128) : W5 m G3 d (Proc.devRef .tc main_v10) (ix2 (0 : Fin 1) j) = m (d, Proc.devRef .tc main_arg12) (ix1 j) := by
  have e : W5 m G3 d (Proc.devRef .tc main_v10) = fun i => shapeCast ⟨2, ![1, 128]⟩ (W4 m G3 d (Proc.devRef .tc main_arg12)) shapeCasts_S128_S1x128 i := by
    show StableHlo.after ops5 (W4 m G3 d) (Proc.devRef .tc main_v10) = _
    after_results; rfl
  rw [e, W4_pass m G3 d main_arg12 (by decide) (by decide) (by decide) (by decide)]
  exact sc_n_1n _ _ j

theorem W5_v11 (j : Fin 512) : W5 m G3 d (Proc.devRef .tc main_v11) (ix2 (0 : Fin 1) j) = m (d, Proc.devRef .tc main_arg14) (ix1 j) := by
  have e : W5 m G3 d (Proc.devRef .tc main_v11) = fun i => shapeCast ⟨2, ![1, 512]⟩ (W4 m G3 d (Proc.devRef .tc main_arg14)) shapeCasts_S512_S1x512 i := by
    show StableHlo.after ops5 (W4 m G3 d) (Proc.devRef .tc main_v11) = _
    after_results; rfl
  rw [e, W4_pass m G3 d main_arg14 (by decide) (by decide) (by decide) (by decide)]
  exact sc_n_1n _ _ j

theorem W5_v12 (j : Fin 128) : W5 m G3 d (Proc.devRef .tc main_v12) (ix2 (0 : Fin 1) j) = m (d, Proc.devRef .tc main_arg16) (ix1 j) := by
  have e : W5 m G3 d (Proc.devRef .tc main_v12) = fun i => shapeCast ⟨2, ![1, 128]⟩ (W4 m G3 d (Proc.devRef .tc main_arg16)) shapeCasts_S128_S1x128 i := by
    show StableHlo.after ops5 (W4 m G3 d) (Proc.devRef .tc main_v12) = _
    after_results; rfl
  rw [e, W4_pass m G3 d main_arg16 (by decide) (by decide) (by decide) (by decide)]
  exact sc_n_1n _ _ j

theorem W5_v13 (j : Fin 128) : W5 m G3 d (Proc.devRef .tc main_v13) (ix2 (0 : Fin 1) j) = m (d, Proc.devRef .tc main_arg17) (ix1 j) := by
  have e : W5 m G3 d (Proc.devRef .tc main_v13) = fun i => shapeCast ⟨2, ![1, 128]⟩ (W4 m G3 d (Proc.devRef .tc main_arg17)) shapeCasts_S128_S1x128 i := by
    show StableHlo.after ops5 (W4 m G3 d) (Proc.devRef .tc main_v13) = _
    after_results; rfl
  rw [e, W4_pass m G3 d main_arg17 (by decide) (by decide) (by decide) (by decide)]
  exact sc_n_1n _ _ j

theorem W5_v14 (j : Fin 128) : W5 m G3 d (Proc.devRef .tc main_v14) (ix2 (0 : Fin 1) j) = m (d, Proc.devRef .tc main_arg18) (ix1 j) := by
  have e : W5 m G3 d (Proc.devRef .tc main_v14) = fun i => shapeCast ⟨2, ![1, 128]⟩ (W4 m G3 d (Proc.devRef .tc main_arg18)) shapeCasts_S128_S1x128 i := by
    show StableHlo.after ops5 (W4 m G3 d) (Proc.devRef .tc main_v14) = _
    after_results; rfl
  rw [e, W4_pass m G3 d main_arg18 (by decide) (by decide) (by decide) (by decide)]
  exact sc_n_1n _ _ j

theorem W5_v15 (j : Fin 128) : W5 m G3 d (Proc.devRef .tc main_v15) (ix2 (0 : Fin 1) j) = m (d, Proc.devRef .tc main_arg19) (ix1 j) := by
  have e : W5 m G3 d (Proc.devRef .tc main_v15) = fun i => shapeCast ⟨2, ![1, 128]⟩ (W4 m G3 d (Proc.devRef .tc main_arg19)) shapeCasts_S128_S1x128 i := by
    show StableHlo.after ops5 (W4 m G3 d) (Proc.devRef .tc main_v15) = _
    after_results; rfl
  rw [e, W4_pass m G3 d main_arg19 (by decide) (by decide) (by decide) (by decide)]
  exact sc_n_1n _ _ j

theorem W5_v16 (j : Fin 128) : W5 m G3 d (Proc.devRef .tc main_v16) (ix2 (0 : Fin 1) j) = m (d, Proc.devRef .tc main_arg20) (ix1 j) := by
  have e : W5 m G3 d (Proc.devRef .tc main_v16) = fun i => shapeCast ⟨2, ![1, 128]⟩ (W4 m G3 d (Proc.devRef .tc main_arg20)) shapeCasts_S128_S1x128 i := by
    show StableHlo.after ops5 (W4 m G3 d) (Proc.devRef .tc main_v16) = _
    after_results; rfl
  rw [e, W4_pass m G3 d main_arg20 (by decide) (by decide) (by decide) (by decide)]
  exact sc_n_1n _ _ j

theorem W5_arg9 : W5 m G3 d (Proc.devRef .tc main_arg9) = m (d, Proc.devRef .tc main_arg9) := by
  have e : W5 m G3 d (Proc.devRef .tc main_arg9) = W4 m G3 d (Proc.devRef .tc main_arg9) := by
    show StableHlo.after ops5 (W4 m G3 d) (Proc.devRef .tc main_arg9) = _
    after_results
  rw [e, W4_pass m G3 d main_arg9 (by decide) (by decide) (by decide) (by decide)]

theorem W5_arg11 : W5 m G3 d (Proc.devRef .tc main_arg11) = m (d, Proc.devRef .tc main_arg11) := by
  have e : W5 m G3 d (Proc.devRef .tc main_arg11) = W4 m G3 d (Proc.devRef .tc main_arg11) := by
    show StableHlo.after ops5 (W4 m G3 d) (Proc.devRef .tc main_arg11) = _
    after_results
  rw [e, W4_pass m G3 d main_arg11 (by decide) (by decide) (by decide) (by decide)]

theorem W5_arg13 : W5 m G3 d (Proc.devRef .tc main_arg13) = m (d, Proc.devRef .tc main_arg13) := by
  have e : W5 m G3 d (Proc.devRef .tc main_arg13) = W4 m G3 d (Proc.devRef .tc main_arg13) := by
    show StableHlo.after ops5 (W4 m G3 d) (Proc.devRef .tc main_arg13) = _
    after_results
  rw [e, W4_pass m G3 d main_arg13 (by decide) (by decide) (by decide) (by decide)]

theorem W5_arg15 : W5 m G3 d (Proc.devRef .tc main_arg15) = m (d, Proc.devRef .tc main_arg15) := by
  have e : W5 m G3 d (Proc.devRef .tc main_arg15) = W4 m G3 d (Proc.devRef .tc main_arg15) := by
    show StableHlo.after ops5 (W4 m G3 d) (Proc.devRef .tc main_arg15) = _
    after_results
  rw [e, W4_pass m G3 d main_arg15 (by decide) (by decide) (by decide) (by decide)]

end Cert.KerSide

end
-- ==== Proof.KerGlueC.lean ====
import proofs.«208327_g62569083568895_cont_9to1c4b_407_46_alg».proof.Proof.KerGlueB2
import proofs.«208327_g62569083568895_cont_9to1c4b_407_46_alg».proof.Proof.RefValDomain

set_option maxRecDepth 16384

noncomputable section

namespace Cert.KerSide

open Cert.KernelIdeal Cert.KernelIdeal.Gen Cert.KernelIdeal.Body Cert.KernelIdeal.Sc
open Idealize.ShloMosaic Idealize.ShloMosaic.ValueIdx Idealize.ShloMosaic.TcCoe Idealize.ShloMosaic.StableHlo
open Idealize.SL Idealize.SL.Sem
open Idealize.ShloMosaic.Pipeline (Dat Cfg Window)

/-! The kernel program's result is the real layer: the gathered rows are the table rows the index words name, the second
pipeline's input arrays hold the layer's real data, and the last reshape reads its output array at the node. -/

variable (m : (ℓ : Loc nD τ sig) → Buf (Elt Ideal) ℓ) (G3 : (d : Dev nD) → Buf (Elt Ideal) (outLoc d)) (d : Dev nD)

/-- A 32-bit word whose signed value is a small natural has that unsigned value. -/
theorem toNat_of_toInt (w : BitVec 32) (k : Nat) (hk : k < 2048) (h : w.toInt = (k : ℤ)) : w.toNat = k := by
  have h1 := BitVec.toInt_eq_toNat_cond w
  have h2 := w.isLt
  split_ifs at h1 <;> omega

theorem extui_ofBool (b : Bool) : (BitVec.ofBool b).setWidth 32 = if b then 1#32 else 0#32 := by
  cases b <;> rfl

/-- The table the gather reads: the tables kernel's first result over the launch arrays. -/
theorem TabOf_eq : TabOf m d = out0_6 (F := Ideal) (m (d, Proc.devRef .tc main_arg0)) (m (d, Proc.devRef .tc main_arg1)) (m (d, Proc.devRef .tc main_arg4)) (m (d, Proc.devRef .tc main_arg7)) := by
  unfold TabOf
  rw [W3_of_ne m d main_v1_0 (by decide)]
  show W2 m d (Proc.devRef .tc (Pipeline.arrRef spec0 6)) = _
  rw [W2_arr, arr0_6]
  show out0_6 (W1 m d (Proc.devRef .tc main_arg0)) (W1 m d (Proc.devRef .tc main_arg1)) (W1 m d (Proc.devRef .tc main_arg4))
    (W1 m d (Proc.devRef .tc main_arg7)) = _
  rw [W1_of_ne m d main_arg0 (by decide), W1_of_ne m d main_arg1 (by decide), W1_of_ne m d main_arg4 (by decide),
    W1_of_ne m d main_arg7 (by decide)]

/-- The index list the gather reads, at the word of edge `(z, n, k)`: the tables kernel's third result there. -/
theorem IdxOf_apply (z : Fin 2) (n : Fin 2048) (k : Fin 32) :
    IdxOf m d (ix2 (⟨((2048 * z.val + n.val) * 32 + k.val) / 128, by omega⟩ : Fin 1024)
        (⟨((2048 * z.val + n.val) * 32 + k.val) % 128, Nat.mod_lt _ (by decide)⟩ : Fin 128))
      = out0_8 (F := Ideal) (m (d, Proc.devRef .tc main_arg3)) (extui 32 (m (d, Proc.devRef .tc main_arg6)) natLt_1_32) (ix3 z n k) := by
  unfold IdxOf
  have e : W3 m d (Proc.devRef .tc main_v2) = fun i => shapeCast ⟨2, ![1024, 128]⟩ (W2 m d (Proc.devRef .tc main_v1_2)) shapeCasts_S2x2048x32_S1024x128 i :=
    (reshape_result _ _ _ _ _ _ _).trans rfl
  rw [e]
  have e2 : W2 m d (Proc.devRef .tc main_v1_2) = out0_8 (F := Ideal) (m (d, Proc.devRef .tc main_arg3)) (extui 32 (m (d, Proc.devRef .tc main_arg6)) natLt_1_32) := by
    show W2 m d (Proc.devRef .tc (Pipeline.arrRef spec0 8)) = _
    rw [W2_arr, arr0_8]
    show out0_8 (W1 m d (Proc.devRef .tc main_arg3)) (W1 m d (Proc.devRef .tc main_v0)) = _
    rw [W1_of_ne m d main_arg3 (by decide), W1_v0]
  rw [e2]
  exact Idealize.ShloMosaic.shapeCast_apply _ _ _ _ (by
    show ((⟨3, ![2, 2048, 32]⟩ : Shape).rowMajor (ix3 z n k)).val = ((⟨2, ![1024, 128]⟩ : Shape).rowMajor (ix2 _ _)).val
    rw [Shape.rowMajor_val_three, Shape.rowMajor_val_two]
    show (z.val * 2048 + n.val) * 32 + k.val
      = ((2048 * z.val + n.val) * 32 + k.val) / 128 * 128 + ((2048 * z.val + n.val) * 32 + k.val) % 128
    omega)

variable {I : Spec.Inp}

/-- THE GATHERED ROWS: row `(z, n, k)` of the gather's result is the table row the mask and the neighbour table name. -/
theorem gathered_row (h : RefSide.Agree (argsOfMem m d) I) (hG : GoutOK (TabOf m) (IdxOf m) d (G3 d))
    (z : Fin 2) (n : Fin 2048) (k : Fin 32) (j : Fin 128) :
    G3 d (ix2 (⟨(2048 * z.val + n.val) * 32 + k.val, by omega⟩ : Fin 131072) j) = ((GR I z n k j : ℝ) : EReal) := by
  rw [hG (⟨(2048 * z.val + n.val) * 32 + k.val, by omega⟩ : Fin 131072) j, TabOf_eq]
  have hw := IdxOf_apply m d z n k
  have hK : ∀ z n k, ((m (d, Proc.devRef .tc main_arg3)) (ix3 z n k) : BitVec 32).toNat = (I.K z n k).val := fun z n k =>
    toNat_of_toInt _ _ (I.K z n k).isLt (h.K z n k)
  have har : ∀ z n k, (extui 32 (m (d, Proc.devRef .tc main_arg6)) natLt_1_32 : IVec S2x2048x32 32) (ix3 z n k) = if I.ar z n k then 1#32 else 0#32 := fun z n k => by
    show ((m (d, Proc.devRef .tc main_arg6)) (ix3 z n k) : BitVec 1).setWidth 32 = _
    rw [show (m (d, Proc.devRef .tc main_arg6)) (ix3 z n k) = BitVec.ofBool (I.ar z n k) from h.ar z n k, extui_ofBool]
  have hv := out0_8_val I (m (d, Proc.devRef .tc main_arg3)) (extui 32 (m (d, Proc.devRef .tc main_arg6)) natLt_1_32) hK har z n k
  have hVo : ∀ z n i, (m (d, Proc.devRef .tc main_arg1)) (ix3 z n i) = ((I.Vo z n i : ℝ) : EReal) := h.Vo
  have hVn : ∀ z n i, (m (d, Proc.devRef .tc main_arg0)) (ix3 z n i) = ((I.Vn z n i : ℝ) : EReal) := h.Vn
  have hS : ∀ z n i, (m (d, Proc.devRef .tc main_arg4)) (ix3 z n i) = ((I.S z n i : ℝ) : EReal) := h.S
  have hW : ∀ i j, (m (d, Proc.devRef .tc main_arg7)) (ix2 i j) = ((I.W0 i j : ℝ) : EReal) := h.W0
  have hKlt := (I.K z n k).isLt
  unfold GR
  cases har2 : I.ar z n k
  · rw [har2] at hv
    rw [← out0_6_old I (m (d, Proc.devRef .tc main_arg0)) (m (d, Proc.devRef .tc main_arg1)) (m (d, Proc.devRef .tc main_arg4)) (m (d, Proc.devRef .tc main_arg7)) hVo hW z (I.K z n k) j]
    refine congrArg (fun R => out0_6 (F := Ideal) (m (d, Proc.devRef .tc main_arg0)) (m (d, Proc.devRef .tc main_arg1)) (m (d, Proc.devRef .tc main_arg4)) (m (d, Proc.devRef .tc main_arg7)) (ix2 R j)) (Fin.ext ?_)
    show (IdxOf m d _ : BitVec 32).toNat % 8192 = 2048 * z.val + (I.K z n k).val
    rw [hw, hv]; simp only [Bool.false_eq_true, if_false]; omega
  · rw [har2] at hv
    rw [← out0_6_new I (m (d, Proc.devRef .tc main_arg0)) (m (d, Proc.devRef .tc main_arg1)) (m (d, Proc.devRef .tc main_arg4)) (m (d, Proc.devRef .tc main_arg7)) hVn hS hW z (I.K z n k) j]
    refine congrArg (fun R => out0_6 (F := Ideal) (m (d, Proc.devRef .tc main_arg0)) (m (d, Proc.devRef .tc main_arg1)) (m (d, Proc.devRef .tc main_arg4)) (m (d, Proc.devRef .tc main_arg7)) (ix2 R j)) (Fin.ext ?_)
    show (IdxOf m d _ : BitVec 32).toNat % 8192 = 4096 + 2048 * z.val + (I.K z n k).val
    rw [hw, hv]; simp only [if_true]; omega

/-- The second pipeline's input arrays hold the layer's real data. -/
theorem arrAgree_V5 (h : RefSide.Agree (argsOfMem m d) I) (hG : GoutOK (TabOf m) (IdxOf m) d (G3 d)) :
    ArrAgree (V5 m G3) d I where
  E z n k i := (W5_v4 m G3 d z n k i).trans (h.E z n k i)
  G z n k j := by
    show W5 m G3 d (Proc.devRef .tc main_v3) _ = _
    rw [W5_v3]; exact gathered_row m G3 d h hG z n k j
  Ai z n j := by
    show W5 m G3 d (Proc.devRef .tc main_v1_1) _ = _
    rw [W5_v1_1]; exact out0_7_val I _ _ h.Vn h.W0 z n j
  Vn z n j := (W5_v5 m G3 d z n j).trans (h.Vn z n j)
  em z n k := (W5_v6 m G3 d z n k).trans (h.em z n k)
  W0c i j := (W5_v7 m G3 d i j).trans (h.W0 _ j)
  b0 j := (W5_v8 m G3 d j).trans (h.b0 j)
  W1 i j := (congrFun (W5_arg9 m G3 d) _).trans (h.W1 i j)
  b1 j := (W5_v9 m G3 d j).trans (h.b1 j)
  W2 i j := (congrFun (W5_arg11 m G3 d) _).trans (h.W2 i j)
  b2 j := (W5_v10 m G3 d j).trans (h.b2 j)
  F0 i j := (congrFun (W5_arg13 m G3 d) _).trans (h.F0 i j)
  fb0 j := (W5_v11 m G3 d j).trans (h.fb0 j)
  F1 i j := (congrFun (W5_arg15 m G3 d) _).trans (h.F1 i j)
  fb1 j := (W5_v12 m G3 d j).trans (h.fb1 j)
  g1 j := (W5_v13 m G3 d j).trans (h.g1 j)
  be1 j := (W5_v14 m G3 d j).trans (h.be1 j)
  g2 j := (W5_v15 m G3 d j).trans (h.g2 j)
  be2 j := (W5_v16 m G3 d j).trans (h.be2 j)
  half := h.half
  c := h.c
  eps := h.eps

/-- The result buffer at the program's return, at a node, for launch arrays that are the real inputs `I`. -/
theorem kernel_value_of_agree (h : RefSide.Agree (argsOfMem m d) I) (hG : GoutOK (TabOf m) (IdxOf m) d (G3 d))
    (z : Fin 2) (n : Fin 2048) (dd : Fin 128) :
    W7 m G3 d (Proc.devRef .tc main_v18) (ix3 z n dd) = ((Spec.out I z n dd : ℝ) : EReal) := by
  have e : W7 m G3 d (Proc.devRef .tc main_v18) = fun i => shapeCast ⟨3, ![2, 2048, 128]⟩ (W6 m G3 d (Proc.devRef .tc main_v17)) shapeCasts_S4096x128_S2x2048x128 i :=
    (reshape_result _ _ _ _ _ _ _).trans rfl
  rw [e]
  have e2 : W6 m G3 d (Proc.devRef .tc main_v17) = (D2 m G3 d).arrAt 19 cfg2.N := W6_arr m G3 d 19
  rw [e2]
  refine (Idealize.ShloMosaic.shapeCast_apply _ _ _ (ix2 (⟨2048 * z.val + n.val, by omega⟩ : Fin 4096) dd) (by
    show ((⟨2, ![4096, 128]⟩ : Shape).rowMajor (ix2 _ dd)).val = ((⟨3, ![2, 2048, 128]⟩ : Shape).rowMajor (ix3 z n dd)).val
    rw [Shape.rowMajor_val_three, Shape.rowMajor_val_two]
    show (2048 * z.val + n.val) * 128 + dd.val = (z.val * 2048 + n.val) * 128 + dd.val
    omega)).trans ?_
  exact arr19_apply (V5 m G3) _ _ (arrAgree_V5 m G3 d h hG) z n dd

/-- THE KERNEL'S VALUE: under the precondition on the launch arrays, and the gather's result rows being the table rows its
    index words name, the result buffer at the program's return is the real layer on the arguments' real parts. -/
theorem kernel_value
    (hpre : Cert.Pre_input_domain.fn (F := Ideal) (m (d, Proc.devRef .tc main_arg0)) (m (d, Proc.devRef .tc main_arg1)) (m (d, Proc.devRef .tc main_arg2)) (m (d, Proc.devRef .tc main_arg3)) (m (d, Proc.devRef .tc main_arg4)) (m (d, Proc.devRef .tc main_arg5)) (m (d, Proc.devRef .tc main_arg6)) (m (d, Proc.devRef .tc main_arg7)) (m (d, Proc.devRef .tc main_arg8)) (m (d, Proc.devRef .tc main_arg9)) (m (d, Proc.devRef .tc main_arg10)) (m (d, Proc.devRef .tc main_arg11)) (m (d, Proc.devRef .tc main_arg12)) (m (d, Proc.devRef .tc main_arg13)) (m (d, Proc.devRef .tc main_arg14)) (m (d, Proc.devRef .tc main_arg15)) (m (d, Proc.devRef .tc main_arg16)) (m (d, Proc.devRef .tc main_arg17)) (m (d, Proc.devRef .tc main_arg18)) (m (d, Proc.devRef .tc main_arg19)) (m (d, Proc.devRef .tc main_arg20)) = fun _ => 1#1)
    (hG : GoutOK (TabOf m) (IdxOf m) d (G3 d)) (z : Fin 2) (n : Fin 2048) (dd : Fin 128) :
    W7 m G3 d (Proc.devRef .tc main_v18) (ix3 z n dd)
      = ((Spec.out (RefSide.inpOf (argsOfMem m d)) z n dd : ℝ) : EReal) :=
  kernel_value_of_agree m G3 d (RefSide.agree_of_finite _ (RefSide.finite_of_pre (argsOfMem m d) hpre)) hG z n dd

end Cert.KerSide

end
-- ==== Proof.Assemble.lean ====
import proofs.«208327_g62569083568895_cont_9to1c4b_407_46_alg».proof.Defs
import proofs.«208327_g62569083568895_cont_9to1c4b_407_46_alg».proof.Proof.RefRun
import proofs.«208327_g62569083568895_cont_9to1c4b_407_46_alg».proof.Proof.RefValDomain
import proofs.«208327_g62569083568895_cont_9to1c4b_407_46_alg».proof.Proof.KerGlueC
import proofs.«208327_g62569083568895_cont_9to1c4b_407_46_alg».proof.Proof.Gen.Kernel
import proofs.«208327_g62569083568895_cont_9to1c4b_407_46_alg».proof.Proof.Gen.KernelIdeal
import proofs.«208327_g62569083568895_cont_9to1c4b_407_46_alg».proof.Proof.Gen.ReferenceIdeal
import proofs.«208327_g62569083568895_cont_9to1c4b_407_46_alg».proof.Proof.Gen.Pre_input_domain

set_option maxRecDepth 16384

noncomputable section

namespace Cert.Assemble

open Idealize.ShloMosaic Idealize.ShloMosaic.ValueIdx Idealize.ShloMosaic.TcCoe Idealize.SL.Sem

/-! The claims assembled: the reference's frame from its run; the kernel's frame and the
agreement of the two results from the kernel's run, taken here as a hypothesis in the form the
value theorem reads (the result buffer is the last reshape of the second pipeline's output over
SOME gathered rows that are the table rows their index words name; the arguments unchanged). -/

/-- The reference runs and its arguments end unchanged. -/
theorem frame_ri : Cert.frame_ReferenceIdeal (hReferenceIdeal := Cert.ReferenceIdeal.Gen.facts)
    (hPre_input_domain := Cert.Pre_input_domain.Gen.facts) :=
  fun m g _ => (θ_run _ _ _).mono (fun _ h c => (h c).2) (Cert.RefSide.run (F := Ideal) m g)

theorem preserves : Cert.preserves_Kernel_KernelIdeal := trivial

/-- The kernel's run, in the form the value theorem reads. -/
def KRun (m : (ℓ : Loc Cert.KernelIdeal.nD Cert.KernelIdeal.τ Cert.KernelIdeal.sig) → Buf (Elt Ideal) ℓ)
    (g : Dev Cert.KernelIdeal.nD → PrngReg) : Prop :=
  θ_run (Cert.KernelIdeal.defs (F := Ideal)) (Cert.KernelIdeal.threads (F := Ideal)) ⟨m, fun _ => 0, g⟩ (fun r => ∀ c : Dev Cert.KernelIdeal.nD,
      (∃ G3 : (d : Dev Cert.KernelIdeal.nD) → Buf (Elt Ideal) (Cert.KernelIdeal.Sc.outLoc d),
        Cert.KernelIdeal.Sc.GoutOK (Cert.KernelIdeal.Sc.TabOf m) (Cert.KernelIdeal.Sc.IdxOf m) c (G3 c)
        ∧ r.2.mem ((c.tc : Thread Cert.KernelIdeal.nD Cert.KernelIdeal.τ).loc Cert.KernelIdeal.main_v18)
            = Cert.KernelIdeal.Sc.W7 m G3 c (Proc.devRef .tc Cert.KernelIdeal.main_v18))
      ∧ (r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
        ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
        ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)))

/-- The kernel runs and its arguments end unchanged. -/
theorem frame_ki_of_run
    (hrun : ∀ m g, Cert.Pre_KernelIdeal (hPre_input_domain := Cert.Pre_input_domain.Gen.facts) m → KRun m g) :
    Cert.frame_KernelIdeal (hKernelIdeal := Cert.KernelIdeal.Gen.facts) (hPre_input_domain := Cert.Pre_input_domain.Gen.facts) :=
  fun m g hpre => (θ_run _ _ _).mono (fun _ h c => (h c).2) (hrun m g hpre)

/-- The two programs end with equal results: both are the real layer on the arguments' real parts. -/
theorem algebraic_of_run
    (hrun : ∀ m g, Cert.Pre_KernelIdeal (hPre_input_domain := Cert.Pre_input_domain.Gen.facts) m → KRun m g) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hag
  refine ⟨fun c => (fun i : Cert.KernelIdeal.S2x2048x128.Idx =>
    ((Cert.Spec.out (Cert.RefSide.inpOf (Cert.KerSide.argsOfMem m c)) (i 0) (i 1) (i 2) : ℝ) : EReal)), ?_, ?_⟩
  · refine (θ_run _ _ _).mono (fun r h c => ?_) (hrun m g hpre)
    obtain ⟨⟨G3, hG, hv⟩, hargs⟩ := h c
    refine ⟨?_, hargs⟩
    rw [hv]
    funext i
    obtain ⟨z, n, dd, rfl⟩ : ∃ (z : Fin 2) (n : Fin 2048) (dd : Fin 128), i = ix3 z n dd := ⟨i 0, i 1, i 2, eq_ix3 i⟩
    exact Cert.KerSide.kernel_value m G3 c (hpre c) hG z n dd
  · refine (θ_run _ _ _).mono (fun r h c => ?_) (Cert.RefSide.run (F := Ideal) m' g')
    refine ⟨?_, (h c).2⟩
    rw [(h c).1]
    obtain ⟨e0, e1, e2, e3, e4, e5, e6, e7, e8, e9, e10, e11, e12, e13, e14, e15, e16, e17, e18, e19, e20⟩ := hag c
    rw [e0, e1, e2, e3, e4, e5, e6, e7, e8, e9, e10, e11, e12, e13, e14, e15, e16, e17, e18, e19, e20]
    funext i
    obtain ⟨z, n, dd, rfl⟩ : ∃ (z : Fin 2) (n : Fin 2048) (dd : Fin 128), i = ix3 z n dd := ⟨i 0, i 1, i 2, eq_ix3 i⟩
    exact Cert.RefSide.refTerm_eq_of_pre (Cert.KerSide.argsOfMem m c) (hpre c) z n dd

/-- The certificate's claim from the two kernel runs. -/
theorem claim_of_runs
    (hk : Cert.frame_Kernel (hKernel := Cert.Kernel.Gen.facts) (hPre_input_domain := Cert.Pre_input_domain.Gen.facts))
    (hrun : ∀ m g, Cert.Pre_KernelIdeal (hPre_input_domain := Cert.Pre_input_domain.Gen.facts) m → KRun m g) :
    Cert.Claim :=
  ⟨Cert.Kernel.Gen.facts, Cert.KernelIdeal.Gen.facts, Cert.ReferenceIdeal.Gen.facts, Cert.Pre_input_domain.Gen.facts,
    hk, frame_ki_of_run hrun, frame_ri, preserves, algebraic_of_run hrun⟩

end Cert.Assemble

end
-- ==== Proof.FinalIdeal.lean ====
import proofs.«208327_g62569083568895_cont_9to1c4b_407_46_alg».proof.Proof.ScRun
import proofs.«208327_g62569083568895_cont_9to1c4b_407_46_alg».proof.Proof.ScMain4
import proofs.«208327_g62569083568895_cont_9to1c4b_407_46_alg».proof.Proof.ScDealPf
import proofs.«208327_g62569083568895_cont_9to1c4b_407_46_alg».proof.Proof.ScGtc
import proofs.«208327_g62569083568895_cont_9to1c4b_407_46_alg».proof.Proof.ScMain5
import proofs.«208327_g62569083568895_cont_9to1c4b_407_46_alg».proof.Proof.KerGlueQ
import proofs.«208327_g62569083568895_cont_9to1c4b_407_46_alg».proof.Proof.KerIdxBound
import proofs.«208327_g62569083568895_cont_9to1c4b_407_46_alg».proof.Proof.Assemble

set_option maxRecDepth 16384

noncomputable section

namespace Cert.Final

open Cert.KernelIdeal Cert.KernelIdeal.Gen Cert.KernelIdeal.Sc
open Idealize.ShloMosaic Idealize.ShloMosaic.TcCoe Idealize.SL Idealize.SL.Sem

/-! The kernel program's run at the ideal instance, in the form the value theorem reads: under the precondition the index
words are below the table's rows, so the gather's subcores deal its rows out, the program runs, and its final memory is the
last boundary's contents over gathered rows that are the table rows their index words name. -/

theorem kernel_run : ∀ (m : (ℓ : Loc nD τ sig) → Buf (Elt Ideal) ℓ) (g : Dev nD → PrngReg),
    Cert.Pre_KernelIdeal (hPre_input_domain := Cert.Pre_input_domain.Gen.facts) m → Cert.Assemble.KRun m g :=
  fun m g hpre =>
    run_main (TabOf m) (IdxOf m) m g (FIN m) (fq m) _
      (fun d x => Cert.KerSide.idx_bound m d (hpre d) x)
      (fun κ d => by
        rw [G_eq_Gtc]
        exact hmain m g κ d (scDeal (TabOf m) (IdxOf m) d (fun x => Cert.KerSide.idx_bound m d (hpre d) x)))
      (hfin m)
      (fun s' h c => by
        obtain ⟨g', hG, hm⟩ := h c
        exact Cert.KerSide.post_of_final m s'.mem.mem c (G3of m c g') (by rw [G3of_self]; exact hG) hm)

end Cert.Final

end
-- ==== Proof.Bits.ScBase.lean ====
/-
  The idealized kernel's program as the SparseCore launch theorem sees it: the call table, the body table, the
  variants, the program's stated facts about the launch semaphores, and the ghost state — the handshakes' rounds,
  the subcore barrier cells' rounds, the TensorCore pipelines' staging cells' rounds, and the transfers' counters.
-/
import proofs.«208327_g62569083568895_cont_9to1c4b_407_46_alg».proof.Kernel
import proofs.«208327_g62569083568895_cont_9to1c4b_407_46_alg».proof.Proof.Gen.Kernel
import proofs.«208327_g62569083568895_cont_9to1c4b_407_46_alg».proof.Proof.Gen.Kernel.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore pipelines' staging cells' rounds library. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

end Cert.Kernel.Sc

end
-- ==== Proof.Bits.ScCells.lean ====
/-
  The subcore barrier of the gather kernel as cells of the rounds library, and what it carries. On each SparseCore the
  first vector subcore copies the whole table into the SparseCore's shared vector memory and every subcore then meets
  the others at the barrier; what the barrier hands over is READ ACCESS to that copy: the first subcore's duty in
  subcore j's round carries the j-th of sixteen read shares of the shared table, at the table's contents. The other
  duties carry nothing.
-/
import proofs.«208327_g62569083568895_cont_9to1c4b_407_46_alg».proof.Proof.Bits.ScBase

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays the kernel touches -/

/-- The table in HBM (the first TensorCore call's first result), the index list (its third result, reshaped) and the
    gathered rows (the SparseCore call's result). -/
abbrev tabLoc (d : Dev nD) : Loc nD τ sig := (SparseCore.T d).loc main_v1_0
abbrev idxLoc (d : Dev nD) : Loc nD τ sig := (SparseCore.T d).loc main_v2
abbrev outLoc (d : Dev nD) : Loc nD τ sig := (SparseCore.T d).loc main_v3

/-- SparseCore `c`'s shared vector memory, as every subcore of it addresses it. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem bound_one : grid1.bound 1 = 16 := rfl
theorem bound_zero : grid1.bound 0 = 2 := rfl

variable (Tab : (d : Dev nD) → Buf (Elt F) (tabLoc d))

/-- The table's contents as contents of SparseCore `c`'s shared memory: the same 8192 × 128 numbers. -/
def TabSh (d : Dev nD) (c : Fin τ.nSC) : Buf (Elt F) (shLoc d c) := fun i => Tab d i

/-- The j-th of sixteen read shares of the shared table. -/
abbrev shTok (j : Fin 16) : PosShare TreeShare := Transfers.shareTok fullShare 16 j
abbrev shShare (d : Dev nD) (c : Fin τ.nSC) (j : Fin 16) : sProp 𝕄 := shLoc d c ↦{shTok j} TabSh Tab d c

/-! ## The barrier cells -/

variable [FloatOps F]

/-- Subcore `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What a duty in subcore `j`'s round hands over: the first subcore's, subcore `j`'s read share of the shared table;
    the others', nothing. -/
def bPay (g : GSem nD τ sig) (n : ℕ) : sProp 𝕄 :=
  match g with
  | ((d, .scVector c j), _) => if n = 0 then shShare Tab d c (Fin.cast nSub_eq j) else iprop(emp)
  | _ => iprop(emp)

/-- The barrier cells' schedule: one round on each, of one unit duty per subcore of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay Tab g n
  amount_pos _ _ _ _ := Nat.one_pos

instance bRd_payload_storable (g : GSem nD τ sig) (r n : ℕ) : BI.Storable (upEmb : UEmb _ 𝕄) ((bRd (F := F) Tab).payload g r n) := by
  show BI.Storable upEmb (bPay Tab g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) Tab).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) Tab).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) Tab).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a subcore owe for the barrier: a unit on every subcore's cell of its SparseCore, at the call's
    index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Subcore `(c, i)`'s barrier kit: every subcore's cell invariant of its SparseCore and that each has reached round 0,
    its own position at the origin of round 0, its duty token in every subcore's round 0, and the credit for the sixteen
    units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) Tab) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

end Cert.Kernel.Sc

end
-- ==== Proof.Bits.ScTile.lean ====
/-
  One vector subcore's task of the gather kernel: what it is handed, what it hands back, and its run.
-/
import proofs.«208327_g62569083568895_cont_9to1c4b_407_46_alg».proof.Proof.Bits.ScCells

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v1_0_scv : Memref Cert.Kernel.sig Kind.scVector Space.hbm Cert.Kernel.S8192x128 EltTy.f32)
local notation "iV" => (Memref.whole Cert.Kernel.main_v2_scv : Memref Cert.Kernel.sig Kind.scVector Space.hbm Cert.Kernel.S1024x128 EltTy.i32)
local notation "oV" => (Memref.whole Cert.Kernel.main_v3_scv : Memref Cert.Kernel.sig Kind.scVector Space.hbm Cert.Kernel.S131072x128 EltTy.f32)
local notation "s0V" => (Memref.whole Cert.Kernel.cc1_scratch0 : Memref Cert.Kernel.sig Kind.scVector Space.vmem Cert.Kernel.S32x128 EltTy.i32)
local notation "s1V" => (Memref.whole Cert.Kernel.cc1_scratch1 : Memref Cert.Kernel.sig Kind.scVector Space.vmem Cert.Kernel.S2x128x128 EltTy.f32)
local notation "shV" => (Memref.whole Cert.Kernel.cc1_scratch2 : Memref Cert.Kernel.sig Kind.scVector Space.shared Cert.Kernel.S8192x128 EltTy.f32)

variable (Tab : (d : Dev nD) → Buf (Elt F) (tabLoc d)) (Idx : (d : Dev nD) → Buf (Elt F) (idxLoc d))

section Tile

variable (d : Dev nD) (L : grid1.Coords)

abbrev cV (L : grid1.Coords) : Fin τ.nSC := (L 0).castLE hcore1
abbrev jV (L : grid1.Coords) : Fin τ.nSub := (L 1).castLE hsub1
abbrev jL (L : grid1.Coords) : Fin 16 := Fin.cast bound_one (L 1)

/-- The subcore's thirty-two rows of the index list, and its k-th block of 128 rows of the result. -/
abbrev idxChunk (L : grid1.Coords) : Memref sig .scVector .hbm S32x128 .i32 :=
  (iV).slice (Rect.unit (s := S1024x128) (k1_off1 L) S32x128.size (k1_off1_inb L)) (fun _ => rfl)
abbrev outBlk (L : grid1.Coords) (k : Fin k1_t1_loop.trips) : Memref sig .scVector .hbm S128x128 .f32 :=
  (oV).slice (Rect.unit (s := S131072x128) (k1_off8 L k) S128x128.size (k1_off8_inb L k)) (fun _ => rfl)

variable [FloatOps F]

abbrev gCell (d : Dev nD) (c : Fin τ.nSC) (i : Fin τ.nSub) : GSem nD τ sig := (V d c i, .dma cc1_scratch3.sem)
abbrev oCell (d : Dev nD) (c : Fin τ.nSC) (i : Fin τ.nSub) : GSem nD τ sig := (V d c i, .dma cc1_scratch4.sem)
abbrev aCell (d : Dev nD) (c : Fin τ.nSC) (i : Fin τ.nSub) : GSem nD τ sig := (V d c i, .dma cc1_scoped0.sem)
abbrev bCell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (gCell d (cV L) (jV L)) 0 ∗ semVal (oCell d (cV L) (jV L)) 0 ∗ semVal (aCell d (cV L) (jV L)) 0 ∗ semVal (bCell d (cV L) (jV L)) 0
          ∗ bigSep (((((ownCells (V d (cV L) (jV L))).erase (gCell d (cV L) (jV L))).erase (oCell d (cV L) (jV L))).erase (aCell d (cV L) (jV L))).erase (bCell d (cV L) (jV L))) fun g => semVal g 0) := by
  unfold SparseCore.Cfg.ownSems0
  rw [SparseCore.bigSep_erase' ((mem_ownCells (g := gCell d (cV L) (jV L))).mpr ⟨rfl, by
      show (SemLoc.dma cc1_scratch3.sem : SemLoc sig).isScoped .scVector = true; decide⟩),
    SparseCore.bigSep_erase' (Finset.mem_erase.mpr ⟨by simp [gCell, oCell]; decide, (mem_ownCells (g := oCell d (cV L) (jV L))).mpr ⟨rfl, by
      show (SemLoc.dma cc1_scratch4.sem : SemLoc sig).isScoped .scVector = true; decide⟩⟩),
    SparseCore.bigSep_erase' (Finset.mem_erase.mpr ⟨by simp [oCell, aCell]; decide, Finset.mem_erase.mpr ⟨by simp [gCell, aCell]; decide,
      (mem_ownCells (g := aCell d (cV L) (jV L))).mpr ⟨rfl, by show (SemLoc.dma cc1_scoped0.sem : SemLoc sig).isScoped .scVector = true; decide⟩⟩⟩),
    SparseCore.bigSep_erase' (Finset.mem_erase.mpr ⟨by simp [aCell, bCell]; decide, Finset.mem_erase.mpr ⟨by simp [oCell, bCell]; decide, Finset.mem_erase.mpr ⟨by simp [gCell, bCell]; decide,
      (mem_ownCells (g := bCell d (cV L) (jV L))).mpr ⟨rfl, by show (SemLoc.dma cc1_scoped1.sem : SemLoc sig).isScoped .scVector = true; decide⟩⟩⟩⟩)]

omit [FloatOps F] in
/-- The index scratch and the two-slot row scratch are among the subcore's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase ((Proc.scVector (cV L) (jV L)).devRef cc1_scratch1))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc1_scratch0) rfl),
    SparseCore.bigSep_erase' (Finset.mem_erase.mpr ⟨(by intro e; have h := congrArg (fun b => b.idx.val) e; exact absurd h (by show (1 : Nat) ≠ 0; decide)), SparseCore.Cfg.mem_ownRefs_of_owner (p := Proc.scVector (cV L) (jV L)) (b := (Proc.scVector (cV L) (jV L)).devRef cc1_scratch1) rfl⟩)]

end Tile

end Cert.Kernel.Sc

end
-- ==== Proof.Bits.ScPay.lean ====
/-
  What the SparseCore call's handshakes carry. The TensorCore hands each SparseCore a read share of the table, its
  subcores' rows of the index list and their blocks of the result; the sequencer hands each subcore its own, and the
  first subcore also the table's share and the SparseCore's shared memory; each subcore hands back what it was given,
  its blocks written, and its read share of the shared table (the first, also the rest of it).
-/
import proofs.«208327_g62569083568895_cont_9to1c4b_407_46_alg».proof.Proof.Bits.ScTile

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

/-- The grid point of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The share of the HBM table a SparseCore's first subcore reads it through. -/
abbrev tabTok (L : grid1.Coords) : PosShare TreeShare := Transfers.shareTok fullShare 2 (Fin.cast bound_zero (L 0))

local notation "tV" => (Memref.whole Cert.Kernel.main_v1_0_scv : Memref Cert.Kernel.sig Kind.scVector Space.hbm Cert.Kernel.S8192x128 EltTy.f32)

theorem inb_chunkRow (k : Fin k1_t1_loop.trips) : ∀ a, (![k.val, 0] : Fin 2 → Nat) a + S1x128.size a ≤ S32x128.size a := by
  revert k; decide

/-- The k-th row of a subcore's rows of the index list. -/
abbrev chunkRow (L : grid1.Coords) (k : Fin k1_t1_loop.trips) : Memref sig .scVector .hbm S128 .i32 :=
  ((idxChunk L).slice (Rect.unit (s := S32x128) ![k.val, 0] S1x128.size (inb_chunkRow k)) (fun _ => rfl)).squeeze S128 squeezes_S1x128_S128

/-- What block k of a subcore's rows of the result must hold: the rows of the table that the k-th row of its rows of
    the index list names. -/
def ExpBlk (d : Dev nD) (L : grid1.Coords) (k : Fin k1_t1_loop.trips)
    (hb : ∀ x, (View.read (Elt F) (chunkRow L k).view (Idx d) x).toNat < S8192x128.size gathers_S8192x128_S128x128.axis) : S128x128.Idx → Elt F .f32 :=
  SparseCore.gatherPayload gathers_S8192x128_S128x128 (View.read (Elt F) (tV).view (Tab d))
    (SparseCore.rows (View.read (Elt F) (chunkRow L k).view (Idx d)) rfl hb)

variable [FloatOps F]

/-- Block k of a subcore's rows of the result, written: at contents that are the gathered rows. -/
abbrev BlkDone (d : Dev nD) (L : grid1.Coords) (k : Fin k1_t1_loop.trips) : sProp 𝕄 :=
  iprop(∃ f, (outLoc d ↦[(outBlk L k).view.set]{fullShare} f)
    ∗ ⌜∀ hb, View.read (Elt F) (outBlk L k).view f = ExpBlk Tab Idx d L k hb⌝)

section Tile

variable (d : Dev nD) (L : grid1.Coords)

/-- What the subcore is handed: its rows of the index list, its blocks of the result at contents not chosen; the first
    subcore of a SparseCore also a read share of the table and the SparseCore's shared memory. -/
abbrev goTile : sProp 𝕄 :=
  iprop((if (L 1).val = 0 then iprop((tabLoc d ↦{tabTok L} Tab d) ∗ ∃ f, shLoc d (cV L) ↦{fullShare} f) else iprop(emp))
    ∗ (idxLoc d ↦[(idxChunk L).view.set]{fullShare} Idx d)
    ∗ bigSep Finset.univ fun k : Fin k1_t1_loop.trips => iprop(∃ f, outLoc d ↦[(outBlk L k).view.set]{fullShare} f))

/-- What it hands back. -/
abbrev tdTile : sProp 𝕄 :=
  iprop((if (L 1).val = 0 then iprop((tabLoc d ↦{tabTok L} Tab d) ∗ shLoc d (cV L) ↦{Transfers.shareDrop fullShare 16} TabSh Tab d (cV L)) else iprop(emp))
    ∗ shShare Tab d (cV L) (jL L)
    ∗ (idxLoc d ↦[(idxChunk L).view.set]{fullShare} Idx d)
    ∗ bigSep Finset.univ fun k : Fin k1_t1_loop.trips => BlkDone Tab Idx d L k)

end Tile

/-- What the TensorCore hands SparseCore `c` at the call, and gets back. -/
abbrev stCore (d : Dev nD) (c : Fin (grid1.bound 0)) : sProp 𝕄 :=
  iprop((tabLoc d ↦{Transfers.shareTok fullShare 2 (Fin.cast bound_zero c)} Tab d)
    ∗ (bigSep Finset.univ fun s : Fin (grid1.bound 1) => idxLoc d ↦[(idxChunk (coordsV c s)).view.set]{fullShare} Idx d)
    ∗ bigSep Finset.univ fun s : Fin (grid1.bound 1) => bigSep Finset.univ fun k : Fin k1_t1_loop.trips =>
        iprop(∃ f, outLoc d ↦[(outBlk (coordsV c s) k).view.set]{fullShare} f))

/-- What the TensorCore gets back from SparseCore `c`: the same, the blocks written with the gathered rows. -/
abbrev dnCore (d : Dev nD) (c : Fin (grid1.bound 0)) : sProp 𝕄 :=
  iprop((tabLoc d ↦{Transfers.shareTok fullShare 2 (Fin.cast bound_zero c)} Tab d)
    ∗ (bigSep Finset.univ fun s : Fin (grid1.bound 1) => idxLoc d ↦[(idxChunk (coordsV c s)).view.set]{fullShare} Idx d)
    ∗ bigSep Finset.univ fun s : Fin (grid1.bound 1) => bigSep Finset.univ fun k : Fin k1_t1_loop.trips =>
        BlkDone Tab Idx d (coordsV c s) k)

def P : (K (F := F)).Pay (nD := nD) (Val := Elt F) (Name := ℕ) (U := UU) where
  st := fun q d c => match q with | 0 => stCore Tab Idx d c
  dn := fun q d c => match q with | 0 => dnCore Tab Idx d c
  go := fun q d c i => match q with | 0 => goTile Tab Idx d (coordsV c i)
  td := fun q d c i => match q with | 0 => tdTile Tab Idx d (coordsV c i)
  x := fun _ thr => match thr with
    | (d, .scVector c i) => if c.val < 2 then bkit Tab d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub1) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) Tab Idx).IsStorable where
  st q d c := match q with
    | 0 => (inferInstance : BI.Storable (upEmb : UEmb _ 𝕄) (stCore Tab Idx d c))
  dn q d c := match q with
    | 0 => (inferInstance : BI.Storable (upEmb : UEmb _ 𝕄) (dnCore Tab Idx d c))
  go q d c i := match q with
    | 0 => by
      show BI.Storable (upEmb : UEmb _ 𝕄) (goTile Tab Idx d (coordsV c i))
      unfold goTile; split <;> infer_instance
  td q d c i := match q with
    | 0 => by
      show BI.Storable (upEmb : UEmb _ 𝕄) (tdTile Tab Idx d (coordsV c i))
      unfold tdTile; split <;> infer_instance

end Cert.Kernel.Sc

end
-- ==== Proof.Bits.ScTileGeom.lean ====
/-
  The memrefs one vector subcore's task addresses — the two slots of its row scratch, the rows of its index scratch,
  the SparseCore's shared memory through the kernel's full-extent slice — with the set facts the run needs, and
  what the barrier's duties hand over.
-/
import proofs.«208327_g62569083568895_cont_9to1c4b_407_46_alg».proof.Proof.Bits.ScPay
import Idealize.ShloMosaic.Lib.Pipeline.Value

set_option pp.maxSteps 6000
set_option pp.deepTerms false

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v1_0_scv : Memref Cert.Kernel.sig Kind.scVector Space.hbm Cert.Kernel.S8192x128 EltTy.f32)
local notation "iV" => (Memref.whole Cert.Kernel.main_v2_scv : Memref Cert.Kernel.sig Kind.scVector Space.hbm Cert.Kernel.S1024x128 EltTy.i32)
local notation "oV" => (Memref.whole Cert.Kernel.main_v3_scv : Memref Cert.Kernel.sig Kind.scVector Space.hbm Cert.Kernel.S131072x128 EltTy.f32)
local notation "s0V" => (Memref.whole Cert.Kernel.cc1_scratch0 : Memref Cert.Kernel.sig Kind.scVector Space.vmem Cert.Kernel.S32x128 EltTy.i32)
local notation "s1V" => (Memref.whole Cert.Kernel.cc1_scratch1 : Memref Cert.Kernel.sig Kind.scVector Space.vmem Cert.Kernel.S2x128x128 EltTy.f32)
local notation "shV" => (Memref.whole Cert.Kernel.cc1_scratch2 : Memref Cert.Kernel.sig Kind.scVector Space.shared Cert.Kernel.S8192x128 EltTy.f32)

variable (Tab : (d : Dev nD) → Buf (Elt F) (tabLoc d)) (Idx : (d : Dev nD) → Buf (Elt F) (idxLoc d))

section Tile

variable (d : Dev nD) (L : grid1.Coords)

variable [FloatOps F]

/-- Before the barrier the first subcore's sixteen read shares are what its duties hand over, one per round. -/
theorem pays_intro (h0 : (L 1).val = 0) :
    (bigSep Finset.univ fun j : Fin 16 => shShare Tab d (cV L) j)
    ⊢ (bigSep Finset.univ fun j : Fin (grid1.bound 1) => (bRd (F := F) Tab).payload (bcell d (cV L) (j.castLE hsub1)) 0 (jV L).val : sProp 𝕄) := by
  refine Entails.of_eq ?_
  refine bigSep_congr fun j _ => ?_
  show _ = bPay Tab (bcell d (cV L) (j.castLE hsub1)) (jV L).val
  unfold bPay; dsimp only
  rw [if_pos (show (jV L).val = 0 from h0)]
  rfl

/-- The other subcores' duties hand over nothing. -/
theorem pays_intro' (h0 : ¬ (L 1).val = 0) :
    (iprop(emp) : sProp 𝕄)
    ⊢ (bigSep Finset.univ fun j : Fin (grid1.bound 1) => (bRd (F := F) Tab).payload (bcell d (cV L) (j.castLE hsub1)) 0 (jV L).val : sProp 𝕄) := by
  rw [show (bigSep Finset.univ fun j : Fin (grid1.bound 1) => (bRd (F := F) Tab).payload (bcell d (cV L) (j.castLE hsub1)) 0 (jV L).val)
      = bigSep Finset.univ fun _ : Fin (grid1.bound 1) => (iprop(emp) : sProp 𝕄) from
      bigSep_congr fun j _ => if_neg (show ¬ (jV L).val = 0 from h0), bigSep_emp']

/-- After the barrier, what a subcore's own round collected holds its read share of the shared table. -/
theorem pays_elim : (bigSep ((bRd (F := F) Tab).duties (bcell d (cV L) (jV L)) 0 \ ∅) fun n => (bRd (F := F) Tab).payload (bcell d (cV L) (jV L)) 0 n)
    ⊢ (shShare Tab d (cV L) (jL L) : sProp 𝕄) := by
  rw [Finset.sdiff_empty, bRd_duties₀]
  refine (bigSep_elim (i := 0) (Finset.mem_image.mpr ⟨(⟨0, by decide⟩ : Fin τ.nSub), Finset.mem_univ _, rfl⟩)).trans ?_
  show bPay Tab (bcell d (cV L) (jV L)) 0 ⊢ _
  unfold bPay; dsimp only
  rw [if_pos rfl]; exact BI.Entails.refl _

/-! ## The two slots of the row scratch -/

/-- One slot of the two-slot row scratch, at printed offsets. -/
abbrev slotAt (off : Fin 3 → Nat) (h : ∀ a, off a + S1x128x128.size a ≤ S2x128x128.size a) : Memref sig .scVector .vmem S128x128 .f32 :=
  ((s1V).slice (Rect.unit (s := S2x128x128) off S1x128x128.size h) (fun _ => rfl)).squeeze S128x128 squeezes_S1x128x128_S128x128

theorem inb_slot (b : Fin 2) : ∀ a, (![b.val, 0, 0] : Fin 3 → Nat) a + S1x128x128.size a ≤ S2x128x128.size a := by
  revert b; decide

/-- Slot `b`. -/
abbrev slot (b : Fin 2) : Memref sig .scVector .vmem S128x128 .f32 := slotAt ![b.val, 0, 0] (inb_slot b)

theorem slotAt_congr {off off' : Fin 3 → Nat} (e : off = off') (h : ∀ a, off a + S1x128x128.size a ≤ S2x128x128.size a) :
    slotAt off h = slotAt off' (e ▸ h) := by subst e; rfl

theorem set_slotAt (off : Fin 3 → Nat) (h : ∀ a, off a + S1x128x128.size a ≤ S2x128x128.size a) :
    (slotAt off h).view.set = (Rect.unit (s := S2x128x128) off S1x128x128.size h).set := by
  show (((s1V).view.slice (Rect.unit (s := S2x128x128) off S1x128x128.size h)).reshape S128x128 squeezes_S1x128x128_S128x128.numel_eq).set = _
  rw [View.set_reshape, View.set_slice_whole]

theorem mem_slot (b : Fin 2) (x : S2x128x128.Idx) : x ∈ (slot b).view.set ↔ (x 0).val = b.val := by
  rw [set_slotAt, Rect.mem_set_unit]
  have h0 : (x 0).val < 2 := (x 0).isLt
  have h1 : (x 1).val < 128 := (x 1).isLt
  have h2 : (x 2).val < 128 := (x 2).isLt
  constructor
  · intro h
    have := h 0
    change b.val ≤ (x 0).val ∧ (x 0).val < b.val + 1 at this
    omega
  · intro h a
    match a with
    | ⟨0, _⟩ => change b.val ≤ (x 0).val ∧ (x 0).val < b.val + 1; omega
    | ⟨1, _⟩ => change 0 ≤ (x 1).val ∧ (x 1).val < 0 + 128; omega
    | ⟨2, _⟩ => change 0 ≤ (x 2).val ∧ (x 2).val < 0 + 128; omega

theorem slots_disjoint : Disjoint (slot 0).view.set (slot 1).view.set :=
  Finset.disjoint_left.mpr fun x h0 h1 => by
    rw [mem_slot] at h0 h1; simp at h0 h1; omega

theorem slots_cover : (slot 0).view.set ∪ (slot 1).view.set = Finset.univ :=
  Finset.eq_univ_of_forall fun x => by
    rw [Finset.mem_union, mem_slot, mem_slot]
    have h0 : (x 0).val < 2 := (x 0).isLt
    simp; omega

/-- The SparseCore's shared memory through the full-extent slice the kernel gathers from. -/
abbrev shFull : Memref sig .scVector .shared S8192x128 .f32 :=
  (shV).slice (Rect.unit (s := S8192x128) ![0, 0] S8192x128.size inb_S8192x128_S8192x128_0_0) (fun _ => rfl)

omit [FloatOps F] in
theorem set_shFull : (shFull).view.set = Finset.univ := by
  show ((View.whole cc1_scratch2).slice _).set = _
  rw [View.set_slice_whole]
  exact Finset.eq_univ_of_forall (View.mem_set_unit_zero (by funext a; fin_cases a <;> rfl) _)

omit [FloatOps F] in
theorem pts_shFull (q : PosShare TreeShare) (f : Buf (Elt F) (shLoc d (cV L))) :
    ((shFull).view.loc (V d (cV L) (jV L)) ↦[(shFull).view.set]{q} f : sProp 𝕄) = shLoc d (cV L) ↦{q} f := by
  rw [set_shFull]; rfl

omit [FloatOps F] in
/-- The row scratch is its two slots. -/
theorem pts_slots (f : Buf (Elt F) ((V d (cV L) (jV L)).loc cc1_scratch1)) :
    ((V d (cV L) (jV L)).loc cc1_scratch1 ↦{fullShare} f : sProp 𝕄)
      ⊣⊢ iprop(((slot 0).view.loc (V d (cV L) (jV L)) ↦[(slot 0).view.set]{fullShare} f) ∗ ((slot 1).view.loc (V d (cV L) (jV L)) ↦[(slot 1).view.set]{fullShare} f)) := by
  have h : (((V d (cV L) (jV L)).loc cc1_scratch1 ↦[(slot 0).view.set ∪ (slot 1).view.set]{fullShare} f : sProp 𝕄)
      ⊣⊢ iprop(((V d (cV L) (jV L)).loc cc1_scratch1 ↦[(slot 0).view.set]{fullShare} f) ∗ ((V d (cV L) (jV L)).loc cc1_scratch1 ↦[(slot 1).view.set]{fullShare} f))) :=
    pointsTo_union slots_disjoint
  rw [slots_cover] at h
  exact h

omit [FloatOps F] in
theorem pts_idx (q : PosShare TreeShare) (f : Buf (Elt F) (idxLoc d)) :
    ((idxChunk L).view.loc (V d (cV L) (jV L)) ↦[(idxChunk L).view.set]{q} f : sProp 𝕄) = idxLoc d ↦[(idxChunk L).view.set]{q} f := rfl
omit [FloatOps F] in
theorem pts_s0 (f : Buf (Elt F) ((V d (cV L) (jV L)).loc cc1_scratch0)) :
    ((s0V).view.loc (V d (cV L) (jV L)) ↦{fullShare} f : sProp 𝕄) = (V d (cV L) (jV L)).loc cc1_scratch0 ↦{fullShare} f := rfl
omit [FloatOps F] in
theorem pts_blk (k : Fin k1_t1_loop.trips) (f : Buf (Elt F) (outLoc d)) :
    ((outBlk L k).view.loc (V d (cV L) (jV L)) ↦[(outBlk L k).view.set]{fullShare} f : sProp 𝕄) = outLoc d ↦[(outBlk L k).view.set]{fullShare} f := rfl

/-- A row of the index scratch, at printed offsets. -/
abbrev idxRowAt (row : Fin 2 → Nat) (hk : ∀ a, row a + S1x128.size a ≤ S32x128.size a) : Memref sig .scVector .vmem S128 .i32 :=
  ((s0V).slice (Rect.unit (s := S32x128) row S1x128.size hk) (fun _ => rfl)).squeeze S128 squeezes_S1x128_S128

omit [FloatOps F] in
/-- Every word of the index scratch, once the subcore's rows of the index list have been copied into it, names a row of
    the table: the copied rows are the list's, whose words are below 8192. Stated for any row of the scratch and any
    prior contents of it. -/
theorem inb_of_idx (hIdx : ∀ x, ((iV).view.read (Elt F) (Idx d) x).toNat < 8192)
    (g0 : Buf (Elt F) ((s0V).view.loc (V d (cV L) (jV L))))
    (pay : S32x128.Idx → Elt F .i32) (hpay : pay = View.read (Elt F) (idxChunk L).view (Idx d))
    (row : Fin 2 → Nat) (hk : ∀ a, row a + S1x128.size a ≤ S32x128.size a) :
    ∀ x, (View.read (Elt F) (idxRowAt row hk).view
      (View.write (Elt F) (s0V).view g0 pay Finset.univ) x).toNat < 8192 := by
  subst hpay; intro x
  have e : View.read (Elt F) (idxRowAt row hk).view (View.write (Elt F) (s0V).view g0 (View.read (Elt F) (idxChunk L).view (Idx d)) Finset.univ) x
      = View.read (Elt F) (s0V).view (View.write (Elt F) (s0V).view g0 (View.read (Elt F) (idxChunk L).view (Idx d)) Finset.univ)
          ((Rect.unit (s := S32x128) row S1x128.size hk).emb ((Shape.reshapeEquiv squeezes_S1x128_S128.numel_eq) x)) := by
    rw [View.read_apply, View.read_apply]; rfl
  rw [e, View.read_write_univ]
  have e2 : ∀ y, View.read (Elt F) (idxChunk L).view (Idx d) y
      = View.read (Elt F) (iV).view (Idx d) ((Rect.unit (s := S1024x128) (k1_off1 L) S32x128.size (k1_off1_inb L)).emb y) := fun y => by
    rw [View.read_apply, View.read_apply]; rfl
  rw [e2]; exact hIdx _

end Tile

end Cert.Kernel.Sc

end
-- ==== Proof.Bits.ScLoop.lean ====
/-
  The gather loop of one vector subcore's task, by its invariant: before trip n the n-th gather is in flight into slot
  n mod 2, the copy of block n-1 out of the other slot is in flight, the blocks before it are written; the last two
  copies out are one counted batch, drained after the loop.
-/
import proofs.«208327_g62569083568895_cont_9to1c4b_407_46_alg».proof.Proof.Bits.ScTileGeom

set_option pp.maxSteps 6000
set_option pp.deepTerms false

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v1_0_scv : Memref Cert.Kernel.sig Kind.scVector Space.hbm Cert.Kernel.S8192x128 EltTy.f32)
local notation "iV" => (Memref.whole Cert.Kernel.main_v2_scv : Memref Cert.Kernel.sig Kind.scVector Space.hbm Cert.Kernel.S1024x128 EltTy.i32)
local notation "oV" => (Memref.whole Cert.Kernel.main_v3_scv : Memref Cert.Kernel.sig Kind.scVector Space.hbm Cert.Kernel.S131072x128 EltTy.f32)
local notation "s0V" => (Memref.whole Cert.Kernel.cc1_scratch0 : Memref Cert.Kernel.sig Kind.scVector Space.vmem Cert.Kernel.S32x128 EltTy.i32)
local notation "s1V" => (Memref.whole Cert.Kernel.cc1_scratch1 : Memref Cert.Kernel.sig Kind.scVector Space.vmem Cert.Kernel.S2x128x128 EltTy.f32)
local notation "shV" => (Memref.whole Cert.Kernel.cc1_scratch2 : Memref Cert.Kernel.sig Kind.scVector Space.shared Cert.Kernel.S8192x128 EltTy.f32)

variable (Tab : (d : Dev nD) → Buf (Elt F) (tabLoc d)) (Idx : (d : Dev nD) → Buf (Elt F) (idxLoc d))

section Tile

variable (d : Dev nD) (L : grid1.Coords)

variable [FloatOps F]

local notation "thr" => (V d (cV L) (jV L))

theorem trips_eq : k1_t1_loop.trips = 32 := by decide

theorem inb_slotN (n : ℕ) : ∀ a, (![n % 2, 0, 0] : Fin 3 → Nat) a + S1x128x128.size a ≤ S2x128x128.size a := by
  intro a
  have h : n % 2 < 2 := Nat.mod_lt _ (by decide)
  match a with
  | ⟨0, _⟩ => show n % 2 + 1 ≤ 2; omega
  | ⟨1, _⟩ => show 0 + 128 ≤ 128; omega
  | ⟨2, _⟩ => show 0 + 128 ≤ 128; omega

/-- The slot the n-th gather lands in. -/
abbrev slotN (n : ℕ) : Memref sig .scVector .vmem S128x128 .f32 := slotAt ![n % 2, 0, 0] (inb_slotN n)

theorem inb_rowN (n : ℕ) (h : n < 32) : ∀ a, (![n, 0] : Fin 2 → Nat) a + S1x128.size a ≤ S32x128.size a := by
  intro a
  match a with
  | ⟨0, _⟩ => show n + 1 ≤ 32; omega
  | ⟨1, _⟩ => show 0 + 128 ≤ 128; omega

/-- The n-th row of the index scratch: the n-th gather's list. -/
abbrev rowN (n : ℕ) (h : n < 32) : Memref sig .scVector .vmem S128 .i32 := idxRowAt ![n, 0] (inb_rowN n h)

theorem idxRowAt_congr {row row' : Fin 2 → Nat} (e : row = row') (h : ∀ a, row a + S1x128.size a ≤ S32x128.size a) :
    idxRowAt row h = idxRowAt row' (e ▸ h) := by subst e; rfl

/-- The trip's two conditions: there is a next gather; there is a previous copy out. -/
theorem cond2_iff : ∀ k : Fin k1_t1_loop.trips, k1_cond2 k = 1#1 ↔ k.val + 1 < 32 := by decide
theorem cond3_iff : ∀ k : Fin k1_t1_loop.trips, k1_cond3 k = 1#1 ↔ 1 ≤ k.val := by decide

theorem slot_off2 (k : Fin k1_t1_loop.trips) : slotAt (k1_off2 k) (k1_off2_inb k) = slotN k.val := slotAt_congr (k1_off2_eq k) _
theorem slot_off6 (k : Fin k1_t1_loop.trips) (h2 : k1_cond2 k = 1#1) : slotAt (k1_off6 k) (k1_off6_inb k h2) = slotN (k.val + 1) := by
  rw [slotAt_congr (k1_off6_eq k)]
  exact slotAt_congr (by rw [show 1 - k.val % 2 = (k.val + 1) % 2 by omega]) _
theorem row_off7 (k : Fin k1_t1_loop.trips) (h2 : k1_cond2 k = 1#1) (h : k.val + 1 < 32) :
    idxRowAt (k1_off7 k) (k1_off7_inb k h2) = rowN (k.val + 1) h := idxRowAt_congr (k1_off7_eq k) _

def kOf (m : ℕ) (hm : m < 32) : Fin k1_t1_loop.trips := ⟨m, by rw [trips_eq]; exact hm⟩

/-! ## What the loop holds -/

abbrev SlotPts (n : ℕ) : sProp 𝕄 :=
  iprop(∃ f : Buf (Elt F) ((V d (cV L) (jV L)).loc cc1_scratch1), (V d (cV L) (jV L)).loc cc1_scratch1 ↦[(slotN n).view.set]{fullShare} f)

omit [FloatOps F] in
/-- A slot held under its number is the slot under any printed spelling of it. -/
theorem slot_respell (n : ℕ) (off : Fin 3 → Nat) (h : ∀ a, off a + S1x128x128.size a ≤ S2x128x128.size a) (e : (![n % 2, 0, 0] : Fin 3 → Nat) = off)
    (f : Buf (Elt F) ((V d (cV L) (jV L)).loc cc1_scratch1)) :
    ((V d (cV L) (jV L)).loc cc1_scratch1 ↦[(slotN n).view.set]{fullShare} f : sProp 𝕄)
      = ((slotAt off h).view.loc thr ↦[(slotAt off h).view.set]{fullShare} f) := by
  subst e; rfl

omit [FloatOps F] in
/-- A row of the index scratch under its number is the row under any printed spelling of it. -/
theorem row_respell (n : ℕ) (hn : n < 32) (row : Fin 2 → Nat) (h : ∀ a, row a + S1x128.size a ≤ S32x128.size a) (e : (![n, 0] : Fin 2 → Nat) = row) :
    (rowN n hn).view.set = (idxRowAt row h).view.set := by
  subst e; rfl

omit [FloatOps F] in
/-- A slot of the row scratch, as the run addresses it. -/
theorem pts_slotAt (off : Fin 3 → Nat) (h : ∀ a, off a + S1x128x128.size a ≤ S2x128x128.size a) (f : Buf (Elt F) ((V d (cV L) (jV L)).loc cc1_scratch1)) :
    ((slotAt off h).view.loc thr ↦[(slotAt off h).view.set]{fullShare} f : sProp 𝕄)
      = ((V d (cV L) (jV L)).loc cc1_scratch1 ↦[(slotAt off h).view.set]{fullShare} f) := rfl
abbrev BlkPts (k : Fin k1_t1_loop.trips) : sProp 𝕄 := iprop(∃ f, (outBlk L k).view.loc thr ↦[(outBlk L k).view.set]{fullShare} f)
abbrev ShPts : sProp 𝕄 := (shFull).view.loc thr ↦[(shFull).view.set]{shTok (jL L)} TabSh Tab d (cV L)

variable (fo : Buf (Elt F) ((s0V).view.loc (V d (cV L) (jV L))))
variable (hfo : ∀ n h x, (View.read (Elt F) (rowN n h).view fo x).toNat < 8192)

/-- The rows the n-th gather fetches: the shared table's rows named by the n-th row of the index scratch. -/
def GPn (n : ℕ) (h : n < 32) : S128x128.Idx → Elt F .f32 :=
  SparseCore.gatherPayload gathers_S8192x128_S128x128 (View.read (Elt F) (shFull).view (TabSh Tab d (cV L)))
    (SparseCore.rows (View.read (Elt F) (rowN n h).view fo) rfl (hfo n h))

/-- Slot n mod 2 holding the n-th gather's rows. -/
abbrev SlotG (n : ℕ) (h : n < 32) : sProp 𝕄 :=
  iprop(∃ f : Buf (Elt F) ((V d (cV L) (jV L)).loc cc1_scratch1), ((V d (cV L) (jV L)).loc cc1_scratch1 ↦[(slotN n).view.set]{fullShare} f)
    ∗ ⌜View.read (Elt F) (slotN n).view f = GPn Tab d L fo hfo n h⌝)

/-- Block m of the subcore's rows of the result, written with the m-th gather's rows. -/
abbrev BlkG (m : ℕ) (hm : m < 32) : sProp 𝕄 :=
  iprop(∃ f, ((outBlk L (kOf m hm)).view.loc thr ↦[(outBlk L (kOf m hm)).view.set]{fullShare} f)
    ∗ ⌜View.read (Elt F) (outBlk L (kOf m hm)).view f = GPn Tab d L fo hfo m hm⌝)

/-- Before trip n, block j is written if its copy out has been waited for (j + 1 < n), else at contents not chosen. -/
def BlkAt (n : ℕ) (j : Fin k1_t1_loop.trips) : sProp 𝕄 :=
  if h : j.val + 1 < n then BlkG Tab d L fo hfo j.val (Nat.lt_of_lt_of_eq j.isLt trips_eq) else BlkPts d L j

/-- What the n-th gather delivers: its slot written, its row of the index scratch and the shared table's share back. -/
abbrev DG (n : ℕ) (h : n < 32) : sProp 𝕄 :=
  iprop(SlotG Tab d L fo hfo n h ∗ ((s0V).view.loc thr ↦[(rowN n h).view.set]{fullShare} fo) ∗ ShPts Tab d L)

/-- What the m-th copy out delivers: the block written, the slot back. -/
abbrev DO (m : ℕ) (hm : m < 32) : sProp 𝕄 := iprop(SlotPts d L m ∗ BlkG Tab d L fo hfo m hm)

/-- The gather side before trip n. -/
def GSide (n : ℕ) : sProp 𝕄 :=
  if h : n < 32 then
    iprop(Transfers.Flight countersEmb thr (SemLoc.dma cc1_scratch3.sem) (default : HIx 1) 524288 (DG Tab d L fo hfo n h)
      ∗ ((s0V).view.loc thr ↦[Finset.univ \ (rowN n h).view.set]{fullShare} fo))
  else iprop(semVal (gCell d (cV L) (jV L)) 0 ∗ ((s0V).view.loc thr ↦{fullShare} fo) ∗ ShPts Tab d L)

/-- What the last two copies out deliver: they are one counted batch on their semaphore. -/
abbrev DB : Fin 2 → sProp 𝕄 := fun t => DO Tab d L fo hfo (30 + t.val) (by have := t.isLt; omega)

/-- The copy-out side before trip n. -/
def OSide (n : ℕ) : sProp 𝕄 :=
  if h0 : n = 0 then iprop(semVal (oCell d (cV L) (jV L)) 0 ∗ SlotPts d L 1 ∗ bigSep Finset.univ (BlkAt Tab d L fo hfo n))
  else if h30 : n ≤ 30 then
    iprop(Transfers.Flight countersEmb thr (SemLoc.dma cc1_scratch4.sem) (default : HIx 1) 524288 (DO Tab d L fo hfo (n - 1) (by omega))
      ∗ bigSep (Finset.univ.erase (kOf (n - 1) (by omega))) (BlkAt Tab d L fo hfo n))
  else if h31 : n = 31 then
    iprop(Transfers.Batch countersEmb thr (SemLoc.dma cc1_scratch4.sem) (default : HIx 1) 524288 (DB Tab d L fo hfo) 1 0
      ∗ bigSep (Finset.univ.erase (kOf 30 (by omega))) (BlkAt Tab d L fo hfo n))
  else
    iprop(Transfers.Batch countersEmb thr (SemLoc.dma cc1_scratch4.sem) (default : HIx 1) 524288 (DB Tab d L fo hfo) 2 0
      ∗ bigSep ((Finset.univ.erase (kOf 30 (by omega))).erase (kOf 31 (by omega))) (BlkAt Tab d L fo hfo n))

variable (O : CellTallies nD τ sig (HIx 1)) (W0 : Waits sig (HIx 1))

omit [FloatOps F] in
/-- The words of any row of the index scratch name rows of the table, whatever the row's printed spelling. -/
theorem hin_of (hfo : ∀ n h x, (View.read (Elt F) (rowN n h).view fo x).toNat < 8192)
    (row : Fin 2 → Nat) (hk : ∀ a, row a + S1x128.size a ≤ S32x128.size a) (n : ℕ) (hn : n < 32) (e : row = ![n, 0]) :
    ∀ x, (View.read (Elt F) (idxRowAt row hk).view fo x).toNat < 8192 := by
  subst e; exact hfo n hn

def LoopInvT (n : ℕ) : sProp 𝕄 :=
  iprop(Transfers.MayWaits thr (default : HIx 1) O
    ∗ (∃ W', ⌜∀ p ∈ W', p ∈ W0 ∨ p.2 = none⌝ ∗ owes thr O W')
    ∗ GSide Tab d L fo hfo n ∗ OSide Tab d L fo hfo n)

omit [FloatOps F] in
/-- Reading a slot under its number is reading it under any printed spelling of it. -/
theorem slot_read_respell (n : ℕ) (off : Fin 3 → Nat) (h : ∀ a, off a + S1x128x128.size a ≤ S2x128x128.size a) (e : (![n % 2, 0, 0] : Fin 3 → Nat) = off)
    (f : Buf (Elt F) ((V d (cV L) (jV L)).loc cc1_scratch1)) :
    View.read (Elt F) (slotN n).view f = View.read (Elt F) (slotAt off h).view f := by
  subst e; rfl

omit [FloatOps F] in
/-- The gathered rows, for the row of the index scratch under any printed spelling of it. -/
theorem gp_respell (n : ℕ) (hn : n < 32) (row : Fin 2 → Nat) (hrow : ∀ a, row a + S1x128.size a ≤ S32x128.size a) (e : (![n, 0] : Fin 2 → Nat) = row)
    (hin : ∀ x, (View.read (Elt F) (idxRowAt row hrow).view fo x).toNat < 8192) :
    SparseCore.gatherPayload gathers_S8192x128_S128x128 (View.read (Elt F) (shFull).view (TabSh Tab d (cV L)))
        (SparseCore.rows (View.read (Elt F) (idxRowAt row hrow).view fo) rfl hin) = GPn Tab d L fo hfo n hn := by
  subst e; rfl

set_option maxHeartbeats 4000000 in
/-- A middle trip (1 ≤ k ≤ 29). -/
theorem step_mid
    (k : Fin k1_t1_loop.trips) (hk1 : 1 ≤ k.val) (hk2 : k.val ≤ 29) :
    LoopInvT Tab d L fo hfo O W0 k.val
      ⊢ wp frame (wpE (defs₀ (F := F)) 𝒱₀ thr none) Set.univ
          (k1_t1_body L tV (Memref.isWhole_whole _) iV (Memref.isWhole_whole _) oV (Memref.isWhole_whole _) s0V (Memref.isWhole_whole _) s1V (Memref.isWhole_whole _)
            shV (Memref.isWhole_whole _) cc1_scratch3 cc1_scratch4 cc1_scoped0 cc1_scoped1 k ())
          fun _ => LoopInvT Tab d L fo hfo O W0 (k.val + 1) := by
  have hlt : k.val < 32 := by omega
  have h2 : k1_cond2 k = 1#1 := (cond2_iff k).mpr (by omega)
  have h3 : k1_cond3 k = 1#1 := (cond3_iff k).mpr hk1
  unfold k1_t1_body
  rw [show LoopInvT Tab d L fo hfo O W0 k.val = iprop(Transfers.MayWaits thr (default : HIx 1) O
      ∗ (∃ W', ⌜∀ p ∈ W', p ∈ W0 ∨ p.2 = none⌝ ∗ owes thr O W')
      ∗ (Transfers.Flight countersEmb thr (SemLoc.dma cc1_scratch3.sem) (default : HIx 1) 524288 (DG Tab d L fo hfo k.val hlt)
        ∗ ((s0V).view.loc thr ↦[Finset.univ \ (rowN k.val hlt).view.set]{fullShare} fo))
      ∗ (Transfers.Flight countersEmb thr (SemLoc.dma cc1_scratch4.sem) (default : HIx 1) 524288 (DO Tab d L fo hfo (k.val - 1) (by omega))
        ∗ bigSep (Finset.univ.erase (kOf (k.val - 1) (by omega))) (BlkAt Tab d L fo hfo k.val))) from by
    unfold LoopInvT GSide OSide
    rw [dif_pos hlt, dif_neg (by omega : ¬ k.val = 0), dif_pos (by omega : k.val ≤ 30)]]
  iintro ⟨#Hmw, ⟨%W', %hW', HO⟩, ⟨HFg, Hs0r⟩, ⟨HFo, Hblks⟩⟩
  sl_exec
  -- the k-th gather has landed: its slot, its row of the index scratch, the shared table's share
  ihave Hmwg := (Transfers.MayWaits.elim (SemLoc.dma cc1_scratch3.sem)) $$ Hmw
  iapply (Transfers.wp_waitLocalO countersEmb 𝒱₀ thr none (default : HIx 1) rfl) $$ [HFg HO Hmwg]
  · isplitl [HFg]; · iexact HFg
    isplitl [HO]; · iexact HO
    iexact Hmwg
  iintro ⟨⟨⟨%fs, Hslot, %hfs⟩, Hrow, Hsh⟩, HsemG, HO⟩
  ihave Hs0 := ((pointsTo_split_subset (ℓ := (s0V).view.loc thr) (q := fullShare) (f := fo) (Finset.subset_univ (rowN k.val hlt).view.set)).2) $$ [Hrow Hs0r]
  · isplitl [Hrow]; · iexact Hrow
    iexact Hs0r
  sl_exec
  -- the copy of block k-1 out has landed: the other slot is free again, the block is written
  ihave Hmwo := (Transfers.MayWaits.elim (SemLoc.dma cc1_scratch4.sem)) $$ Hmw
  iapply (Transfers.wp_waitLocalO countersEmb 𝒱₀ thr none (default : HIx 1) rfl) $$ [HFo HO Hmwo]
  · isplitl [HFo]; · iexact HFo
    isplitl [HO]; · iexact HO
    iexact Hmwo
  iintro ⟨⟨⟨%fp, Hprev⟩, Hblkp⟩, HsemO, HO⟩
  -- the resources in the trip's own spellings
  have e6 : (![(k.val - 1) % 2, 0, 0] : Fin 3 → Nat) = k1_off6 k := by
    rw [k1_off6_eq k, show (k.val - 1) % 2 = 1 - k.val % 2 by omega]
  have e2 : (![k.val % 2, 0, 0] : Fin 3 → Nat) = k1_off2 k := (k1_off2_eq k).symm
  have hk' : k.val + 1 < 32 := by omega
  have hin7 : ∀ x, (View.read (Elt F) (idxRowAt (k1_off7 k) (k1_off7_inb k h2)).view fo x).toNat < 8192 :=
    hin_of d L fo hfo (k1_off7 k) (k1_off7_inb k h2) (k.val + 1) hk' (k1_off7_eq k)
  ihave Hprev' := (Entails.of_eq (slot_respell (F := F) d L (k.val - 1) (k1_off6 k) (k1_off6_inb k h2) e6 fp)) $$ Hprev
  ihave Hslot' := (Entails.of_eq (slot_respell (F := F) d L k.val (k1_off2 k) (k1_off2_inb k) e2 fs)) $$ Hslot
  -- block k, out of the blocks still held
  have hmem : k ∈ Finset.univ.erase (kOf (k.val - 1) (by omega)) :=
    Finset.mem_erase.mpr ⟨fun e => by have := congrArg Fin.val e; simp [kOf] at this; omega, Finset.mem_univ _⟩
  ihave Hblks' := (Entails.of_eq (SparseCore.bigSep_erase' (Φ := BlkAt (F := F) Tab d L fo hfo k.val) hmem)) $$ Hblks
  icases Hblks' with ⟨Hblk0, Hblks⟩
  ihave Hblk1 := (Entails.of_eq (show BlkAt (F := F) Tab d L fo hfo k.val k = BlkPts d L k from by unfold BlkAt; rw [dif_neg (by omega)])) $$ Hblk0
  icases Hblk1 with ⟨%fb, Hblk⟩
  sl_exec
  sl_step
  -- the invariant before trip k + 1
  have e6' : (![(k.val + 1) % 2, 0, 0] : Fin 3 → Nat) = k1_off6 k := by
    rw [k1_off6_eq k, show (k.val + 1) % 2 = 1 - k.val % 2 by omega]
  have er : (rowN (k.val + 1) hk').view.set = (idxRowAt (k1_off7 k) (k1_off7_inb k h2)).view.set :=
    row_respell (k.val + 1) hk' (k1_off7 k) (k1_off7_inb k h2) (k1_off7_eq k).symm
  unfold LoopInvT GSide OSide
  rw [dif_pos hk', dif_neg (by omega : ¬ k.val + 1 = 0), dif_pos (by omega : k.val + 1 ≤ 30)]
  isplitr; · iexact Hmw
  isplitl [HO]
  · iexists _
    isplitr
    swap; · iexact HO
    ipureintro
    intro p hp
    rcases Finset.mem_insert.mp hp with hp | hp; · exact Or.inr (by rw [hp]; rfl)
    rcases Finset.mem_insert.mp hp with hp | hp; · exact Or.inr (by rw [hp]; rfl)
    exact hW' p hp
  isplitl [HsemG Hs0]
  · isplitl [HsemG]
    · iapply (Transfers.Flight_mono countersEmb thr ?_) $$ HsemG
      iintro ⟨⟨Hd, Hr⟩, Hs⟩
      isplitl [Hd]
      · iexists _
        isplitl [Hd]
        · iapply (Entails.of_eq (slot_respell (F := F) d L (k.val + 1) (k1_off6 k) (k1_off6_inb k h2) e6' _).symm)
          iexact Hd
        · ipureintro
          rw [slot_read_respell (F := F) d L (k.val + 1) (k1_off6 k) (k1_off6_inb k h2) e6', View.read_writes_whole]
          exact gp_respell Tab d L fo hfo (k.val + 1) hk' (k1_off7 k) (k1_off7_inb k h2) (k1_off7_eq k).symm hin7
      isplitl [Hr]
      · rw [er]; iexact Hr
      · iexact Hs
    · rw [er]; iexact Hs0
  · isplitl [HsemO]
    · iapply (Transfers.Flight_mono countersEmb thr ?_) $$ HsemO
      iintro ⟨Hb, Hsl⟩
      isplitl [Hsl]
      · iexists _
        iapply (Entails.of_eq (slot_respell (F := F) d L k.val (k1_off2 k) (k1_off2_inb k) e2 _).symm)
        iexact Hsl
      · iexists _
        isplitl [Hb]; · iexact Hb
        ipureintro
        show View.read (Elt F) (outBlk L k).view _ = _
        rw [View.read_writes_whole]
        exact (slot_read_respell (F := F) d L k.val (k1_off2 k) (k1_off2_inb k) e2 fs).symm.trans hfs
    · have ek : ∀ h, kOf (k.val + 1 - 1) h = k := fun h => Fin.ext (by show k.val + 1 - 1 = k.val; omega)
      have hmemp : kOf (k.val - 1) (by omega) ∈ Finset.univ.erase k :=
        Finset.mem_erase.mpr ⟨fun e => by have := congrArg Fin.val e; simp [kOf] at this; omega, Finset.mem_univ _⟩
      rw [ek, SparseCore.bigSep_erase' hmemp, Finset.erase_right_comm]
      isplitl [Hblkp]
      · unfold BlkAt
        rw [dif_pos (show (kOf (k.val - 1) (by omega)).val + 1 < k.val + 1 by show k.val - 1 + 1 < k.val + 1; omega)]
        iexact Hblkp
      have hcong : (bigSep ((Finset.univ.erase k).erase (kOf (k.val - 1) (by omega))) (BlkAt (F := F) Tab d L fo hfo (k.val + 1)) : sProp 𝕄)
          = bigSep ((Finset.univ.erase k).erase (kOf (k.val - 1) (by omega))) (BlkAt (F := F) Tab d L fo hfo k.val) :=
        bigSep_congr fun j hj => by
          have hjp : j ≠ kOf (k.val - 1) (by omega) := (Finset.mem_erase.mp hj).1
          have hjk : j ≠ k := (Finset.mem_erase.mp (Finset.mem_erase.mp hj).2).1
          have h1 : j.val ≠ k.val := fun e => hjk (Fin.ext e)
          have h2' : j.val ≠ k.val - 1 := fun e => hjp (Fin.ext e)
          unfold BlkAt
          by_cases hc : j.val + 1 < k.val
          · rw [dif_pos hc, dif_pos (by omega)]
          · rw [dif_neg hc, dif_neg (by omega)]
      rw [hcong]; iexact Hblks

set_option maxHeartbeats 4000000 in
/-- The first trip: no copy out is pending yet; the second slot is free from the start. -/
theorem step_zero
    (k : Fin k1_t1_loop.trips) (hk0 : k.val = 0) :
    LoopInvT Tab d L fo hfo O W0 k.val
      ⊢ wp frame (wpE (defs₀ (F := F)) 𝒱₀ thr none) Set.univ
          (k1_t1_body L tV (Memref.isWhole_whole _) iV (Memref.isWhole_whole _) oV (Memref.isWhole_whole _) s0V (Memref.isWhole_whole _) s1V (Memref.isWhole_whole _)
            shV (Memref.isWhole_whole _) cc1_scratch3 cc1_scratch4 cc1_scoped0 cc1_scoped1 k ())
          fun _ => LoopInvT Tab d L fo hfo O W0 (k.val + 1) := by
  have hlt : k.val < 32 := by omega
  have h2 : k1_cond2 k = 1#1 := (cond2_iff k).mpr (by omega)
  have h3 : ¬ k1_cond3 k = 1#1 := fun h => by have := (cond3_iff k).mp h; omega
  unfold k1_t1_body
  rw [show LoopInvT Tab d L fo hfo O W0 k.val = iprop(Transfers.MayWaits thr (default : HIx 1) O
      ∗ (∃ W', ⌜∀ p ∈ W', p ∈ W0 ∨ p.2 = none⌝ ∗ owes thr O W')
      ∗ (Transfers.Flight countersEmb thr (SemLoc.dma cc1_scratch3.sem) (default : HIx 1) 524288 (DG Tab d L fo hfo k.val hlt)
        ∗ ((s0V).view.loc thr ↦[Finset.univ \ (rowN k.val hlt).view.set]{fullShare} fo))
      ∗ (semVal (oCell d (cV L) (jV L)) 0 ∗ SlotPts d L 1 ∗ bigSep Finset.univ (BlkAt Tab d L fo hfo k.val))) from by
    unfold LoopInvT GSide OSide
    rw [dif_pos hlt, dif_pos hk0]]
  iintro ⟨#Hmw, ⟨%W', %hW', HO⟩, ⟨HFg, Hs0r⟩, ⟨HsemO, ⟨%fp, Hprev⟩, Hblks⟩⟩
  sl_exec
  -- the k-th gather has landed: its slot, its row of the index scratch, the shared table's share
  ihave Hmwg := (Transfers.MayWaits.elim (SemLoc.dma cc1_scratch3.sem)) $$ Hmw
  iapply (Transfers.wp_waitLocalO countersEmb 𝒱₀ thr none (default : HIx 1) rfl) $$ [HFg HO Hmwg]
  · isplitl [HFg]; · iexact HFg
    isplitl [HO]; · iexact HO
    iexact Hmwg
  iintro ⟨⟨⟨%fs, Hslot, %hfs⟩, Hrow, Hsh⟩, HsemG, HO⟩
  ihave Hs0 := ((pointsTo_split_subset (ℓ := (s0V).view.loc thr) (q := fullShare) (f := fo) (Finset.subset_univ (rowN k.val hlt).view.set)).2) $$ [Hrow Hs0r]
  · isplitl [Hrow]; · iexact Hrow
    iexact Hs0r
  -- the resources in the trip's own spellings
  have e6 : (![1 % 2, 0, 0] : Fin 3 → Nat) = k1_off6 k := by
    rw [k1_off6_eq k, show 1 % 2 = 1 - k.val % 2 by omega]
  have e2 : (![k.val % 2, 0, 0] : Fin 3 → Nat) = k1_off2 k := (k1_off2_eq k).symm
  have hk' : k.val + 1 < 32 := by omega
  have hin7 : ∀ x, (View.read (Elt F) (idxRowAt (k1_off7 k) (k1_off7_inb k h2)).view fo x).toNat < 8192 :=
    hin_of d L fo hfo (k1_off7 k) (k1_off7_inb k h2) (k.val + 1) hk' (k1_off7_eq k)
  ihave Hprev' := (Entails.of_eq (slot_respell (F := F) d L 1 (k1_off6 k) (k1_off6_inb k h2) e6 fp)) $$ Hprev
  ihave Hslot' := (Entails.of_eq (slot_respell (F := F) d L k.val (k1_off2 k) (k1_off2_inb k) e2 fs)) $$ Hslot
  -- block k, out of the blocks still held
  ihave Hblks' := (Entails.of_eq (SparseCore.bigSep_erase' (Φ := BlkAt (F := F) Tab d L fo hfo k.val) (Finset.mem_univ k))) $$ Hblks
  icases Hblks' with ⟨Hblk0, Hblks⟩
  ihave Hblk1 := (Entails.of_eq (show BlkAt (F := F) Tab d L fo hfo k.val k = BlkPts d L k from by unfold BlkAt; rw [dif_neg (by omega)])) $$ Hblk0
  icases Hblk1 with ⟨%fb, Hblk⟩
  sl_exec
  sl_step
  -- the invariant before trip k + 1
  have e6' : (![(k.val + 1) % 2, 0, 0] : Fin 3 → Nat) = k1_off6 k := by
    rw [k1_off6_eq k, show (k.val + 1) % 2 = 1 - k.val % 2 by omega]
  have er : (rowN (k.val + 1) hk').view.set = (idxRowAt (k1_off7 k) (k1_off7_inb k h2)).view.set :=
    row_respell (k.val + 1) hk' (k1_off7 k) (k1_off7_inb k h2) (k1_off7_eq k).symm
  unfold LoopInvT GSide OSide
  rw [dif_pos hk', dif_neg (by omega : ¬ k.val + 1 = 0), dif_pos (by omega : k.val + 1 ≤ 30)]
  isplitr; · iexact Hmw
  isplitl [HO]
  · iexists _
    isplitr
    swap; · iexact HO
    ipureintro
    intro p hp
    rcases Finset.mem_insert.mp hp with hp | hp; · exact Or.inr (by rw [hp]; rfl)
    exact hW' p hp
  isplitl [HsemG Hs0]
  · isplitl [HsemG]
    · iapply (Transfers.Flight_mono countersEmb thr ?_) $$ HsemG
      iintro ⟨⟨Hd, Hr⟩, Hs⟩
      isplitl [Hd]
      · iexists _
        isplitl [Hd]
        · iapply (Entails.of_eq (slot_respell (F := F) d L (k.val + 1) (k1_off6 k) (k1_off6_inb k h2) e6' _).symm)
          iexact Hd
        · ipureintro
          rw [slot_read_respell (F := F) d L (k.val + 1) (k1_off6 k) (k1_off6_inb k h2) e6', View.read_writes_whole]
          exact gp_respell Tab d L fo hfo (k.val + 1) hk' (k1_off7 k) (k1_off7_inb k h2) (k1_off7_eq k).symm hin7
      isplitl [Hr]
      · rw [er]; iexact Hr
      · iexact Hs
    · rw [er]; iexact Hs0
  · isplitl [HsemO]
    · iapply (Transfers.Flight_mono countersEmb thr ?_) $$ HsemO
      iintro ⟨Hb, Hsl⟩
      isplitl [Hsl]
      · iexists _
        iapply (Entails.of_eq (slot_respell (F := F) d L k.val (k1_off2 k) (k1_off2_inb k) e2 _).symm)
        iexact Hsl
      · iexists _
        isplitl [Hb]; · iexact Hb
        ipureintro
        show View.read (Elt F) (outBlk L k).view _ = _
        rw [View.read_writes_whole]
        exact (slot_read_respell (F := F) d L k.val (k1_off2 k) (k1_off2_inb k) e2 fs).symm.trans hfs
    · have ek : ∀ h, kOf (k.val + 1 - 1) h = k := fun h => Fin.ext (by show k.val + 1 - 1 = k.val; omega)
      rw [ek]
      have hcong : (bigSep (Finset.univ.erase k) (BlkAt (F := F) Tab d L fo hfo (k.val + 1)) : sProp 𝕄)
          = bigSep (Finset.univ.erase k) (BlkAt (F := F) Tab d L fo hfo k.val) :=
        bigSep_congr fun j hj => by
          have hjk : j ≠ k := (Finset.mem_erase.mp hj).1
          have : j.val ≠ k.val := fun e => hjk (Fin.ext e)
          unfold BlkAt
          rw [dif_neg (by omega), dif_neg (by omega)]
      rw [hcong]; iexact Hblks

end Tile

end Cert.Kernel.Sc

end
-- ==== Proof.Bits.ScLoopEnd.lean ====
/-
  The last two trips of the gather loop — where the last two copies out become one counted batch on their semaphore —
  and the loop whole.
-/
import proofs.«208327_g62569083568895_cont_9to1c4b_407_46_alg».proof.Proof.Bits.ScLoop

set_option pp.maxSteps 6000
set_option pp.deepTerms false

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v1_0_scv : Memref Cert.Kernel.sig Kind.scVector Space.hbm Cert.Kernel.S8192x128 EltTy.f32)
local notation "iV" => (Memref.whole Cert.Kernel.main_v2_scv : Memref Cert.Kernel.sig Kind.scVector Space.hbm Cert.Kernel.S1024x128 EltTy.i32)
local notation "oV" => (Memref.whole Cert.Kernel.main_v3_scv : Memref Cert.Kernel.sig Kind.scVector Space.hbm Cert.Kernel.S131072x128 EltTy.f32)
local notation "s0V" => (Memref.whole Cert.Kernel.cc1_scratch0 : Memref Cert.Kernel.sig Kind.scVector Space.vmem Cert.Kernel.S32x128 EltTy.i32)
local notation "s1V" => (Memref.whole Cert.Kernel.cc1_scratch1 : Memref Cert.Kernel.sig Kind.scVector Space.vmem Cert.Kernel.S2x128x128 EltTy.f32)
local notation "shV" => (Memref.whole Cert.Kernel.cc1_scratch2 : Memref Cert.Kernel.sig Kind.scVector Space.shared Cert.Kernel.S8192x128 EltTy.f32)

variable (Tab : (d : Dev nD) → Buf (Elt F) (tabLoc d)) (Idx : (d : Dev nD) → Buf (Elt F) (idxLoc d))

section Tile

variable (d : Dev nD) (L : grid1.Coords)

variable [FloatOps F]

local notation "thr" => (V d (cV L) (jV L))

variable (fo : Buf (Elt F) ((s0V).view.loc (V d (cV L) (jV L))))
variable (hfo : ∀ n h x, (View.read (Elt F) (rowN n h).view fo x).toNat < 8192)
variable (O : CellTallies nD τ sig (HIx 1)) (W0 : Waits sig (HIx 1))

omit [FloatOps F] in
/-- The gathered rows depend on the gather's number only. -/
theorem GPn_congr {n n' : ℕ} (e : n = n') (h : n < 32) (h' : n' < 32) : GPn Tab d L fo hfo n h = GPn Tab d L fo hfo n' h' := by
  subst e; rfl

omit [FloatOps F] in
/-- A block held at the gathered rows is the block written, whatever the spelling of its number. -/
theorem blkG_intro (m : ℕ) (hm : m < 32) (k : Fin k1_t1_loop.trips) (hk : k.val = m) (f : Buf (Elt F) ((outBlk L k).view.loc (V d (cV L) (jV L))))
    (hf : View.read (Elt F) (outBlk L k).view f = GPn Tab d L fo hfo m hm) :
    ((outBlk L k).view.loc thr ↦[(outBlk L k).view.set]{fullShare} f : sProp 𝕄) ⊢ BlkG Tab d L fo hfo m hm := by
  obtain rfl : k = kOf m hm := Fin.ext hk
  iintro H
  iexists _
  isplitl [H]; · iexact H
  ipureintro; exact hf

set_option synthInstance.maxHeartbeats 400000 in
instance DB_storable (t : Fin 2) : BI.Storable (upEmb : UEmb _ 𝕄) (DB (F := F) Tab d L fo hfo t) := by
  unfold DB DO SlotPts BlkG; infer_instance

set_option synthInstance.maxHeartbeats 400000 in
set_option maxHeartbeats 4000000 in
/-- Trip 30: the copy of block 29 out is waited for, the last gather issued, and the copy of block 30 out opens the
    batch of the last two. -/
theorem step_30
    (k : Fin k1_t1_loop.trips) (hk30 : k.val = 30) :
    LoopInvT Tab d L fo hfo O W0 k.val
      ⊢ wp frame (wpE (defs₀ (F := F)) 𝒱₀ thr none) Set.univ
          (k1_t1_body L tV (Memref.isWhole_whole _) iV (Memref.isWhole_whole _) oV (Memref.isWhole_whole _) s0V (Memref.isWhole_whole _) s1V (Memref.isWhole_whole _)
            shV (Memref.isWhole_whole _) cc1_scratch3 cc1_scratch4 cc1_scoped0 cc1_scoped1 k ())
          fun _ => LoopInvT Tab d L fo hfo O W0 (k.val + 1) := by
  have hlt : k.val < 32 := by omega
  have h2 : k1_cond2 k = 1#1 := (cond2_iff k).mpr (by omega)
  have h3 : k1_cond3 k = 1#1 := (cond3_iff k).mpr (by omega)
  unfold k1_t1_body
  rw [show LoopInvT Tab d L fo hfo O W0 k.val = iprop(Transfers.MayWaits thr (default : HIx 1) O
      ∗ (∃ W', ⌜∀ p ∈ W', p ∈ W0 ∨ p.2 = none⌝ ∗ owes thr O W')
      ∗ (Transfers.Flight countersEmb thr (SemLoc.dma cc1_scratch3.sem) (default : HIx 1) 524288 (DG Tab d L fo hfo k.val hlt)
        ∗ ((s0V).view.loc thr ↦[Finset.univ \ (rowN k.val hlt).view.set]{fullShare} fo))
      ∗ (Transfers.Flight countersEmb thr (SemLoc.dma cc1_scratch4.sem) (default : HIx 1) 524288 (DO Tab d L fo hfo (k.val - 1) (by omega))
        ∗ bigSep (Finset.univ.erase (kOf (k.val - 1) (by omega))) (BlkAt Tab d L fo hfo k.val))) from by
    unfold LoopInvT GSide OSide
    rw [dif_pos hlt, dif_neg (by omega : ¬ k.val = 0), dif_pos (by omega : k.val ≤ 30)]]
  iintro ⟨#Hmw, ⟨%W', %hW', HO⟩, ⟨HFg, Hs0r⟩, ⟨HFo, Hblks⟩⟩
  sl_exec
  ihave Hmwg := (Transfers.MayWaits.elim (SemLoc.dma cc1_scratch3.sem)) $$ Hmw
  iapply (Transfers.wp_waitLocalO countersEmb 𝒱₀ thr none (default : HIx 1) rfl) $$ [HFg HO Hmwg]
  · isplitl [HFg]; · iexact HFg
    isplitl [HO]; · iexact HO
    iexact Hmwg
  iintro ⟨⟨⟨%fs, Hslot, %hfs⟩, Hrow, Hsh⟩, HsemG, HO⟩
  ihave Hs0 := ((pointsTo_split_subset (ℓ := (s0V).view.loc thr) (q := fullShare) (f := fo) (Finset.subset_univ (rowN k.val hlt).view.set)).2) $$ [Hrow Hs0r]
  · isplitl [Hrow]; · iexact Hrow
    iexact Hs0r
  sl_exec
  ihave Hmwo := (Transfers.MayWaits.elim (SemLoc.dma cc1_scratch4.sem)) $$ Hmw
  iapply (Transfers.wp_waitLocalO countersEmb 𝒱₀ thr none (default : HIx 1) rfl) $$ [HFo HO Hmwo]
  · isplitl [HFo]; · iexact HFo
    isplitl [HO]; · iexact HO
    iexact Hmwo
  iintro ⟨⟨⟨%fp, Hprev⟩, Hblkp⟩, HsemO, HO⟩
  -- the batch of the last two copies out, allocated from their semaphore at zero
  imod (Transfers.batch_alloc' countersEmb (c := thr) (sm := SemLoc.dma cc1_scratch4.sem) (default : HIx 1) 524288 (DB (F := F) Tab d L fo hfo) (E := Set.univ)) $$ HsemO with HB
  have e6 : (![(k.val - 1) % 2, 0, 0] : Fin 3 → Nat) = k1_off6 k := by
    rw [k1_off6_eq k, show (k.val - 1) % 2 = 1 - k.val % 2 by omega]
  have e2 : (![k.val % 2, 0, 0] : Fin 3 → Nat) = k1_off2 k := (k1_off2_eq k).symm
  have hk' : k.val + 1 < 32 := by omega
  have hin7 : ∀ x, (View.read (Elt F) (idxRowAt (k1_off7 k) (k1_off7_inb k h2)).view fo x).toNat < 8192 :=
    hin_of d L fo hfo (k1_off7 k) (k1_off7_inb k h2) (k.val + 1) hk' (k1_off7_eq k)
  ihave Hprev' := (Entails.of_eq (slot_respell (F := F) d L (k.val - 1) (k1_off6 k) (k1_off6_inb k h2) e6 fp)) $$ Hprev
  ihave Hslot' := (Entails.of_eq (slot_respell (F := F) d L k.val (k1_off2 k) (k1_off2_inb k) e2 fs)) $$ Hslot
  sl_exec
  have hmem : k ∈ Finset.univ.erase (kOf (k.val - 1) (by omega)) :=
    Finset.mem_erase.mpr ⟨fun e => by have := congrArg Fin.val e; simp [kOf] at this; omega, Finset.mem_univ _⟩
  -- block k, out of the blocks still held; its copy out is transfer 0 of the batch
  ihave Hblks' := (Entails.of_eq (SparseCore.bigSep_erase' (Φ := BlkAt (F := F) Tab d L fo hfo k.val) hmem)) $$ Hblks
  icases Hblks' with ⟨Hblk0, Hblks⟩
  ihave Hblk1 := (Entails.of_eq (show BlkAt (F := F) Tab d L fo hfo k.val k = BlkPts d L k from by unfold BlkAt; rw [dif_neg (by omega)])) $$ Hblk0
  icases Hblk1 with ⟨%fb, Hblk⟩
  have hkk : kOf (30 + 0) (by omega) = k := Fin.ext (by show 30 + 0 = k.val; omega)
  have eS : (![(30 + 0) % 2, 0, 0] : Fin 3 → Nat) = k1_off2 k := by
    rw [k1_off2_eq k, show (30 + 0) % 2 = k.val % 2 by omega]
  have hval : ∀ (m : ℕ) (hm : m < 32), m = k.val → View.read (Elt F) (outBlk L k).view (View.write (Elt F) (outBlk L k).view fb
      (ReadAs.same.apply (View.read (Elt F) (slotAt (k1_off2 k) (k1_off2_inb k)).view fs)) Finset.univ) = GPn Tab d L fo hfo m hm := by
    intro m hm e; subst e
    rw [View.read_write_univ]
    exact (slot_read_respell (F := F) d L k.val (k1_off2 k) (k1_off2_inb k) e2 fs).symm.trans hfs
  iapply (Transfers.wp_dmaBatch countersEmb 𝒱₀ thr none (fs := fs) (fd := fb) (D := DB (F := F) Tab d L fo hfo) (default : HIx 1) 524288 rfl (Finset.Subset.refl _) (show 0 < 2 by decide) (Nat.zero_le _) ?hD) $$ [Hslot' Hblk HB]
  case hD =>
    iintro ⟨Hb, Hsl⟩
    isplitl [Hsl]
    · iexists _
      iapply (Entails.of_eq (slot_respell (F := F) d L (30 + 0) (k1_off2 k) (k1_off2_inb k) eS _).symm)
      iexact Hsl
    · iapply (blkG_intro Tab d L fo hfo _ _ k (by show k.val = 30 + 0; omega) _ (hval _ _ (by show 30 + 0 = k.val; omega)))
      iexact Hb
  · isplitl [Hslot']; · iexact Hslot'
    isplitl [Hblk]; · iexact Hblk
    iexact HB
  iintro HB
  sl_step
  -- the invariant before trip 31
  have e6' : (![(k.val + 1) % 2, 0, 0] : Fin 3 → Nat) = k1_off6 k := by
    rw [k1_off6_eq k, show (k.val + 1) % 2 = 1 - k.val % 2 by omega]
  have er : (rowN (k.val + 1) hk').view.set = (idxRowAt (k1_off7 k) (k1_off7_inb k h2)).view.set :=
    row_respell (k.val + 1) hk' (k1_off7 k) (k1_off7_inb k h2) (k1_off7_eq k).symm
  unfold LoopInvT GSide OSide
  rw [dif_pos hk', dif_neg (by omega : ¬ k.val + 1 = 0), dif_neg (by omega : ¬ k.val + 1 ≤ 30), dif_pos (by omega : k.val + 1 = 31)]
  isplitr; · iexact Hmw
  isplitl [HO]
  · iexists _
    isplitr
    swap; · iexact HO
    ipureintro
    intro p hp
    rcases Finset.mem_insert.mp hp with hp | hp; · exact Or.inr (by rw [hp]; rfl)
    rcases Finset.mem_insert.mp hp with hp | hp; · exact Or.inr (by rw [hp]; rfl)
    exact hW' p hp
  isplitl [HsemG Hs0]
  · isplitl [HsemG]
    · iapply (Transfers.Flight_mono countersEmb thr ?_) $$ HsemG
      iintro ⟨⟨Hd, Hr⟩, Hs⟩
      isplitl [Hd]
      · iexists _
        isplitl [Hd]
        · iapply (Entails.of_eq (slot_respell (F := F) d L (k.val + 1) (k1_off6 k) (k1_off6_inb k h2) e6' _).symm)
          iexact Hd
        · ipureintro
          rw [slot_read_respell (F := F) d L (k.val + 1) (k1_off6 k) (k1_off6_inb k h2) e6', View.read_writes_whole]
          exact gp_respell Tab d L fo hfo (k.val + 1) hk' (k1_off7 k) (k1_off7_inb k h2) (k1_off7_eq k).symm hin7
      isplitl [Hr]
      · rw [er]; iexact Hr
      · iexact Hs
    · rw [er]; iexact Hs0
  · isplitl [HB]; · iexact HB
    have ek : ∀ h, kOf 30 h = k := fun h => Fin.ext (by show 30 = k.val; omega)
    have hmemp : kOf (k.val - 1) (by omega) ∈ Finset.univ.erase k :=
      Finset.mem_erase.mpr ⟨fun e => by have := congrArg Fin.val e; simp [kOf] at this; omega, Finset.mem_univ _⟩
    rw [ek, SparseCore.bigSep_erase' hmemp, Finset.erase_right_comm]
    isplitl [Hblkp]
    · unfold BlkAt
      rw [dif_pos (show (kOf (k.val - 1) (by omega)).val + 1 < k.val + 1 by show k.val - 1 + 1 < k.val + 1; omega)]
      iexact Hblkp
    have hcong : (bigSep ((Finset.univ.erase k).erase (kOf (k.val - 1) (by omega))) (BlkAt (F := F) Tab d L fo hfo (k.val + 1)) : sProp 𝕄)
        = bigSep ((Finset.univ.erase k).erase (kOf (k.val - 1) (by omega))) (BlkAt (F := F) Tab d L fo hfo k.val) :=
      bigSep_congr fun j hj => by
        have hjp : j ≠ kOf (k.val - 1) (by omega) := (Finset.mem_erase.mp hj).1
        have hjk : j ≠ k := (Finset.mem_erase.mp (Finset.mem_erase.mp hj).2).1
        have h1 : j.val ≠ k.val := fun e => hjk (Fin.ext e)
        have h2' : j.val ≠ k.val - 1 := fun e => hjp (Fin.ext e)
        unfold BlkAt
        by_cases hc : j.val + 1 < k.val
        · rw [dif_pos hc, dif_pos (by omega)]
        · rw [dif_neg hc, dif_neg (by omega)]
    rw [hcong]; iexact Hblks

set_option synthInstance.maxHeartbeats 400000 in
set_option maxHeartbeats 4000000 in
/-- The last trip: the last gather is waited for, no further gather issued, and the copy of block 31 out closes the
    batch of the last two. -/
theorem step_31
    (k : Fin k1_t1_loop.trips) (hk31 : k.val = 31) :
    LoopInvT Tab d L fo hfo O W0 k.val
      ⊢ wp frame (wpE (defs₀ (F := F)) 𝒱₀ thr none) Set.univ
          (k1_t1_body L tV (Memref.isWhole_whole _) iV (Memref.isWhole_whole _) oV (Memref.isWhole_whole _) s0V (Memref.isWhole_whole _) s1V (Memref.isWhole_whole _)
            shV (Memref.isWhole_whole _) cc1_scratch3 cc1_scratch4 cc1_scoped0 cc1_scoped1 k ())
          fun _ => LoopInvT Tab d L fo hfo O W0 (k.val + 1) := by
  have hlt : k.val < 32 := by omega
  have h2 : ¬ k1_cond2 k = 1#1 := fun h => by have := (cond2_iff k).mp h; omega
  unfold k1_t1_body
  rw [show LoopInvT Tab d L fo hfo O W0 k.val = iprop(Transfers.MayWaits thr (default : HIx 1) O
      ∗ (∃ W', ⌜∀ p ∈ W', p ∈ W0 ∨ p.2 = none⌝ ∗ owes thr O W')
      ∗ (Transfers.Flight countersEmb thr (SemLoc.dma cc1_scratch3.sem) (default : HIx 1) 524288 (DG Tab d L fo hfo k.val hlt)
        ∗ ((s0V).view.loc thr ↦[Finset.univ \ (rowN k.val hlt).view.set]{fullShare} fo))
      ∗ (Transfers.Batch countersEmb thr (SemLoc.dma cc1_scratch4.sem) (default : HIx 1) 524288 (DB Tab d L fo hfo) 1 0
        ∗ bigSep (Finset.univ.erase (kOf 30 (by omega))) (BlkAt Tab d L fo hfo k.val))) from by
    unfold LoopInvT GSide OSide
    rw [dif_pos hlt, dif_neg (by omega : ¬ k.val = 0), dif_neg (by omega : ¬ k.val ≤ 30), dif_pos hk31]]
  iintro ⟨#Hmw, ⟨%W', %hW', HO⟩, ⟨HFg, Hs0r⟩, ⟨HB, Hblks⟩⟩
  sl_exec
  ihave Hmwg := (Transfers.MayWaits.elim (SemLoc.dma cc1_scratch3.sem)) $$ Hmw
  iapply (Transfers.wp_waitLocalO countersEmb 𝒱₀ thr none (default : HIx 1) rfl) $$ [HFg HO Hmwg]
  · isplitl [HFg]; · iexact HFg
    isplitl [HO]; · iexact HO
    iexact Hmwg
  iintro ⟨⟨⟨%fs, Hslot, %hfs⟩, Hrow, Hsh⟩, HsemG, HO⟩
  ihave Hs0 := ((pointsTo_split_subset (ℓ := (s0V).view.loc thr) (q := fullShare) (f := fo) (Finset.subset_univ (rowN k.val hlt).view.set)).2) $$ [Hrow Hs0r]
  · isplitl [Hrow]; · iexact Hrow
    iexact Hs0r
  have e2 : (![k.val % 2, 0, 0] : Fin 3 → Nat) = k1_off2 k := (k1_off2_eq k).symm
  ihave Hslot' := (Entails.of_eq (slot_respell (F := F) d L k.val (k1_off2 k) (k1_off2_inb k) e2 fs)) $$ Hslot
  sl_exec
  have hmem : k ∈ Finset.univ.erase (kOf 30 (by omega)) :=
    Finset.mem_erase.mpr ⟨fun e => by have := congrArg Fin.val e; simp [kOf] at this; omega, Finset.mem_univ _⟩
  -- block k, out of the blocks still held; its copy out is transfer 1 of the batch
  ihave Hblks' := (Entails.of_eq (SparseCore.bigSep_erase' (Φ := BlkAt (F := F) Tab d L fo hfo k.val) hmem)) $$ Hblks
  icases Hblks' with ⟨Hblk0, Hblks⟩
  ihave Hblk1 := (Entails.of_eq (show BlkAt (F := F) Tab d L fo hfo k.val k = BlkPts d L k from by unfold BlkAt; rw [dif_neg (by omega)])) $$ Hblk0
  icases Hblk1 with ⟨%fb, Hblk⟩
  have hkk : kOf (30 + 1) (by omega) = k := Fin.ext (by show 30 + 1 = k.val; omega)
  have eS : (![(30 + 1) % 2, 0, 0] : Fin 3 → Nat) = k1_off2 k := by
    rw [k1_off2_eq k, show (30 + 1) % 2 = k.val % 2 by omega]
  have hval : ∀ (m : ℕ) (hm : m < 32), m = k.val → View.read (Elt F) (outBlk L k).view (View.write (Elt F) (outBlk L k).view fb
      (ReadAs.same.apply (View.read (Elt F) (slotAt (k1_off2 k) (k1_off2_inb k)).view fs)) Finset.univ) = GPn Tab d L fo hfo m hm := by
    intro m hm e; subst e
    rw [View.read_write_univ]
    exact (slot_read_respell (F := F) d L k.val (k1_off2 k) (k1_off2_inb k) e2 fs).symm.trans hfs
  iapply (Transfers.wp_dmaBatch countersEmb 𝒱₀ thr none (fs := fs) (fd := fb) (D := DB (F := F) Tab d L fo hfo) (default : HIx 1) 524288 rfl (Finset.Subset.refl _) (show 1 < 2 by decide) (Nat.zero_le _) ?hD) $$ [Hslot' Hblk HB]
  case hD =>
    iintro ⟨Hb, Hsl⟩
    isplitl [Hsl]
    · iexists _
      iapply (Entails.of_eq (slot_respell (F := F) d L (30 + 1) (k1_off2 k) (k1_off2_inb k) eS _).symm)
      iexact Hsl
    · iapply (blkG_intro Tab d L fo hfo _ _ k (by show k.val = 30 + 1; omega) _ (hval _ _ (by show 30 + 1 = k.val; omega)))
      iexact Hb
  · isplitl [Hslot']; · iexact Hslot'
    isplitl [Hblk]; · iexact Hblk
    iexact HB
  iintro HB
  sl_step
  -- the invariant at the loop's exit
  unfold LoopInvT GSide OSide
  rw [dif_neg (by omega : ¬ k.val + 1 < 32), dif_neg (by omega : ¬ k.val + 1 = 0), dif_neg (by omega : ¬ k.val + 1 ≤ 30), dif_neg (by omega : ¬ k.val + 1 = 31)]
  isplitr; · iexact Hmw
  isplitl [HO]
  · iexists _
    isplitr
    swap; · iexact HO
    ipureintro
    intro p hp
    rcases Finset.mem_insert.mp hp with hp | hp; · exact Or.inr (by rw [hp]; rfl)
    exact hW' p hp
  isplitl [HsemG Hs0 Hsh]
  · isplitl [HsemG]; · iexact HsemG
    isplitl [Hs0]; · iexact Hs0
    iexact Hsh
  · isplitl [HB]; · iexact HB
    have ek : ∀ h, kOf 31 h = k := fun h => Fin.ext (by show 31 = k.val; omega)
    rw [ek]
    have hcong : (bigSep ((Finset.univ.erase (kOf 30 (by omega))).erase k) (BlkAt (F := F) Tab d L fo hfo (k.val + 1)) : sProp 𝕄)
        = bigSep ((Finset.univ.erase (kOf 30 (by omega))).erase k) (BlkAt (F := F) Tab d L fo hfo k.val) :=
      bigSep_congr fun j hj => by
        have hjk : j ≠ k := (Finset.mem_erase.mp hj).1
        have hj30 : j ≠ kOf 30 (by omega) := (Finset.mem_erase.mp (Finset.mem_erase.mp hj).2).1
        have h1 : j.val ≠ k.val := fun e => hjk (Fin.ext e)
        have h3' : j.val ≠ 30 := fun e => hj30 (Fin.ext e)
        unfold BlkAt
        by_cases hc : j.val + 1 < k.val
        · rw [dif_pos hc, dif_pos (by omega)]
        · rw [dif_neg hc, dif_neg (by omega)]
    rw [hcong]; iexact Hblks

end Tile

end Cert.Kernel.Sc

end
-- ==== Proof.Bits.ScTailProg.lean ====
/-
  The part of a vector subcore's task that follows the subcore barrier, as one program: the copy of the subcore's rows
  of the index list into its index scratch, the first gather, the gather loop, the two closing waits.
-/
import proofs.«208327_g62569083568895_cont_9to1c4b_407_46_alg».proof.Proof.Bits.ScTileGeom

noncomputable section

namespace Cert.Kernel.Sc

open Cert.Kernel Cert.Kernel.Gen
open Idealize.ShloMosaic Idealize.SL.Sem

variable {F : FTy → Type} [FloatOps F]

set_option maxHeartbeats 4000000 in
/-- The task after the subcore barrier: the subcore's rows of the index list into its index scratch, the first gather
    issued, the gather loop, and the two closing waits for the copies out. -/
noncomputable def k1_tail (i : grid1.Coords) (arg2 : Memref sig .scVector .hbm S8192x128 .f32) (harg2 : arg2.IsWhole) (arg3 : Memref sig .scVector .hbm S1024x128 .i32) (harg3 : arg3.IsWhole) (arg4 : Memref sig .scVector .hbm S131072x128 .f32) (harg4 : arg4.IsWhole) (arg5 : Memref sig .scVector .vmem S32x128 .i32) (harg5 : arg5.IsWhole) (arg6 : Memref sig .scVector .vmem S2x128x128 .f32) (harg6 : arg6.IsWhole) (arg7 : Memref sig .scVector .shared S8192x128 .f32) (harg7 : arg7.IsWhole) (arg8 : DmaSems sig S_) (arg9 : DmaSems sig S_) (v25_r0 : DmaSems sig S_) (v25_r1 : DmaSems sig S_) :
    Prog (TpuEff nD τ sig (Elt F) Λ₀ (.scVector ((i 0).castLE hcore1) ((i 1).castLE hsub1))) (PUnit) := do
  (do
    let v27_r1 : Memref sig .scVector .hbm S32x128 .i32 := arg3.slice (Rect.unit (s := S1024x128) (k1_off1 i) S32x128.size (k1_off1_inb i)) (fun _ => rfl)
    Prog.lift (.enqueueDma v27_r1 (.here arg5) (.dma v25_r1.sem) (View.wordExact_bits rfl) harg5.wordExact ⟨Or.inl rfl, trivial⟩)
    let v29_r1 : Memref sig .scVector .hbm S32x128 .i32 := arg3.slice (Rect.unit (s := S1024x128) (k1_off1 i) S32x128.size (k1_off1_inb i)) (fun _ => rfl)
    Prog.lift (.waitDma2 v25_r1.sem v29_r1 arg5 (View.wordExact_bits rfl) harg5.wordExact)
    let v7 : Memref sig .scVector .vmem S1x128x128 .f32 := arg6.slice (Rect.unit (s := S2x128x128) ![0, 0, 0] S1x128x128.size inb_S2x128x128_S1x128x128_0_0_0) (fun _ => rfl)
    let v8 : Memref sig .scVector .vmem S128x128 .f32 := v7.squeeze S128x128 squeezes_S1x128x128_S128x128
    let v9 : Memref sig .scVector .vmem S1x128 .i32 := arg5.slice (Rect.unit (s := S32x128) ![0, 0] S1x128.size inb_S32x128_S1x128_0_0) (fun _ => rfl)
    let v10 : Memref sig .scVector .vmem S128 .i32 := v9.squeeze S128 squeezes_S1x128_S128
    let v11 : Memref sig .scVector .shared S8192x128 .f32 := arg7.slice (Rect.unit (s := S8192x128) ![0, 0] S8192x128.size inb_S8192x128_S8192x128_0_0) (fun _ => rfl)
    SparseCore.enqueueIndirectGather rfl v11 v8 gathers_S8192x128_S128x128 v10 rfl arg8.sem (View.wordExact_bits rfl) rfl (Or.inr rfl)
    Scf.Loop.for k1_t1_loop k1_t1_ok ⟨⟩ (k1_t1_body i arg2 harg2 arg3 harg3 arg4 harg4 arg5 harg5 arg6 harg6 arg7 harg7 arg8 arg9 v25_r0 v25_r1)
    pure ⟨⟩)
  let v16 : Memref sig .scVector .hbm S128x128 .f32 := arg4.slice (Rect.unit (s := S131072x128) (k1_off9 i) S128x128.size (k1_off9_inb i)) (fun _ => rfl)
  let v17 : Memref sig .scVector .vmem S1x128x128 .f32 := arg6.slice (Rect.unit (s := S2x128x128) ![0, 0, 0] S1x128x128.size inb_S2x128x128_S1x128x128_0_0_0) (fun _ => rfl)
  let v18 : Memref sig .scVector .vmem S128x128 .f32 := v17.squeeze S128x128 squeezes_S1x128x128_S128x128
  Prog.lift (.waitDma2 arg9.sem v18 v16 ((View.wordExact_bits rfl).reshape _ _) (View.wordExact_bits rfl))
  let v22 : Memref sig .scVector .hbm S128x128 .f32 := arg4.slice (Rect.unit (s := S131072x128) (k1_off9 i) S128x128.size (k1_off9_inb i)) (fun _ => rfl)
  let v23 : Memref sig .scVector .vmem S1x128x128 .f32 := arg6.slice (Rect.unit (s := S2x128x128) ![0, 0, 0] S1x128x128.size inb_S2x128x128_S1x128x128_0_0_0) (fun _ => rfl)
  let v24 : Memref sig .scVector .vmem S128x128 .f32 := v23.squeeze S128x128 squeezes_S1x128x128_S128x128
  Prog.lift (.waitDma2 arg9.sem v24 v22 ((View.wordExact_bits rfl).reshape _ _) (View.wordExact_bits rfl))
  pure ⟨⟩

end Cert.Kernel.Sc

end
-- ==== Proof.Bits.ScTail.lean ====
/-
  One vector subcore's task after the subcore barrier: its rows of the index list fetched, the gather loop by its
  invariant, the batch of the last two copies out drained, and the subcore's blocks of the result at the gathered rows.
-/
import proofs.«208327_g62569083568895_cont_9to1c4b_407_46_alg».proof.Proof.Bits.ScLoopEnd
import proofs.«208327_g62569083568895_cont_9to1c4b_407_46_alg».proof.Proof.Bits.ScTailProg

set_option pp.maxSteps 6000
set_option pp.deepTerms false

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v1_0_scv : Memref Cert.Kernel.sig Kind.scVector Space.hbm Cert.Kernel.S8192x128 EltTy.f32)
local notation "iV" => (Memref.whole Cert.Kernel.main_v2_scv : Memref Cert.Kernel.sig Kind.scVector Space.hbm Cert.Kernel.S1024x128 EltTy.i32)
local notation "oV" => (Memref.whole Cert.Kernel.main_v3_scv : Memref Cert.Kernel.sig Kind.scVector Space.hbm Cert.Kernel.S131072x128 EltTy.f32)
local notation "s0V" => (Memref.whole Cert.Kernel.cc1_scratch0 : Memref Cert.Kernel.sig Kind.scVector Space.vmem Cert.Kernel.S32x128 EltTy.i32)
local notation "s1V" => (Memref.whole Cert.Kernel.cc1_scratch1 : Memref Cert.Kernel.sig Kind.scVector Space.vmem Cert.Kernel.S2x128x128 EltTy.f32)
local notation "shV" => (Memref.whole Cert.Kernel.cc1_scratch2 : Memref Cert.Kernel.sig Kind.scVector Space.shared Cert.Kernel.S8192x128 EltTy.f32)

variable (Tab : (d : Dev nD) → Buf (Elt F) (tabLoc d)) (Idx : (d : Dev nD) → Buf (Elt F) (idxLoc d))

section Tile

variable (d : Dev nD) (L : grid1.Coords)

variable [FloatOps F]

local notation "thr" => (V d (cV L) (jV L))

variable (fo : Buf (Elt F) ((s0V).view.loc (V d (cV L) (jV L))))
variable (hfo : ∀ n h x, (View.read (Elt F) (rowN n h).view fo x).toNat < 8192)
variable (O : CellTallies nD τ sig (HIx 1)) (W0 : Waits sig (HIx 1))

omit [FloatOps F] in
/-- The rows an offset list names depend on the list's words only. -/
theorem rows_congr {si : Shape} {o z : ℕ} {idx idx' : si.Idx → Elt F .i32} (e : idx = idx') (hn : si.numel = o)
    (h : ∀ x, (idx x).toNat < z) (h' : ∀ x, (idx' x).toNat < z) : SparseCore.rows idx hn h = SparseCore.rows idx' hn h' := by
  subst e; rfl

omit [FloatOps F] in
/-- With the index scratch holding the subcore's rows of the index list and the shared memory the table, the rows the
    m-th gather fetches are the table's rows named by the m-th row of the subcore's rows of the index list. -/
theorem gpn_eq_exp (f0 : Buf (Elt F) ((s0V).view.loc (V d (cV L) (jV L)))) (pay : S32x128.Idx → Elt F .i32)
    (hpay : pay = View.read (Elt F) (idxChunk L).view (Idx d))
    (hfo0 : ∀ n h x, (View.read (Elt F) (rowN n h).view (View.write (Elt F) (s0V).view f0 pay Finset.univ) x).toNat < 8192)
    (m : ℕ) (hm : m < 32) (hb : ∀ x, (View.read (Elt F) (chunkRow L (kOf m hm)).view (Idx d) x).toNat < S8192x128.size gathers_S8192x128_S128x128.axis) :
    GPn Tab d L (View.write (Elt F) (s0V).view f0 pay Finset.univ) hfo0 m hm = ExpBlk Tab Idx d L (kOf m hm) hb := by
  subst hpay
  have hA : View.read (Elt F) (shFull).view (TabSh Tab d (cV L)) = View.read (Elt F) (tV).view (Tab d) := by
    funext x
    have hemb : (shFull).view.emb x = (tV).view.emb x := by
      funext a
      apply Fin.ext
      show ((Rect.unit (s := S8192x128) ![0, 0] S8192x128.size inb_S8192x128_S8192x128_0_0).emb x a : ℕ) = (x a : ℕ)
      have h : ((Rect.unit (s := S8192x128) ![0, 0] S8192x128.size inb_S8192x128_S8192x128_0_0).emb x a : ℕ) = (![0, 0] : Fin 2 → ℕ) a + 1 * (x a : ℕ) := rfl
      rw [h]
      match a with
      | ⟨0, _⟩ => simp
      | ⟨1, _⟩ => simp
    rw [View.read_apply, View.read_apply, hemb]; rfl
  have hB : View.read (Elt F) (rowN m hm).view (View.write (Elt F) (s0V).view f0 (View.read (Elt F) (idxChunk L).view (Idx d)) Finset.univ)
      = View.read (Elt F) (chunkRow L (kOf m hm)).view (Idx d) := by
    funext x
    have e : View.read (Elt F) (rowN m hm).view (View.write (Elt F) (s0V).view f0 (View.read (Elt F) (idxChunk L).view (Idx d)) Finset.univ) x
        = View.read (Elt F) (s0V).view (View.write (Elt F) (s0V).view f0 (View.read (Elt F) (idxChunk L).view (Idx d)) Finset.univ)
            ((Rect.unit (s := S32x128) ![m, 0] S1x128.size (inb_rowN m hm)).emb ((Shape.reshapeEquiv squeezes_S1x128_S128.numel_eq) x)) := by
      rw [View.read_apply, View.read_apply]; rfl
    rw [e, View.read_write_univ]
    rw [View.read_apply, View.read_apply]; rfl
  unfold GPn ExpBlk
  rw [hA]
  exact congrArg _ (rows_congr hB _ _ _)

omit [FloatOps F] in
/-- The two slots together are the row scratch. -/
theorem pts_cover (f : Buf (Elt F) ((V d (cV L) (jV L)).loc cc1_scratch1)) :
    ((V d (cV L) (jV L)).loc cc1_scratch1 ↦[(slot 0).view.set ∪ (slot 1).view.set]{fullShare} f : sProp 𝕄)
      = ((V d (cV L) (jV L)).loc cc1_scratch1 ↦{fullShare} f) := by
  rw [slots_cover]

/-- One trip of the gather loop, whichever. -/
theorem step_all (k : Fin k1_t1_loop.trips) (acc : PUnit) :
    LoopInvT Tab d L fo hfo O W0 k.val
      ⊢ wp frame (wpE (defs₀ (F := F)) 𝒱₀ thr none) Set.univ
          (k1_t1_body L tV (Memref.isWhole_whole _) iV (Memref.isWhole_whole _) oV (Memref.isWhole_whole _) s0V (Memref.isWhole_whole _) s1V (Memref.isWhole_whole _)
            shV (Memref.isWhole_whole _) cc1_scratch3 cc1_scratch4 cc1_scoped0 cc1_scoped1 k acc)
          fun _ => LoopInvT Tab d L fo hfo O W0 (k.val + 1) := by
  have hlt : k.val < 32 := Nat.lt_of_lt_of_eq k.isLt trips_eq
  by_cases h0 : k.val = 0
  · exact step_zero Tab d L fo hfo O W0 k h0
  by_cases h29 : k.val ≤ 29
  · exact step_mid Tab d L fo hfo O W0 k (by omega) h29
  by_cases h30 : k.val = 30
  · exact step_30 Tab d L fo hfo O W0 k h30
  · exact step_31 Tab d L fo hfo O W0 k (by omega)

set_option maxRecDepth 65536 in
set_option synthInstance.maxHeartbeats 400000 in
set_option maxHeartbeats 4000000 in
/-- The task after the barrier. -/
theorem tile_tail (hIdx : ∀ x, ((iV).view.read (Elt F) (Idx d) x).toNat < 8192) (W1 : Waits sig (HIx 1)) :
    iprop(Transfers.MayWaits thr (default : HIx 1) O ∗ owes thr O W1
        ∗ shShare Tab d (cV L) (jL L)
        ∗ (idxLoc d ↦[(idxChunk L).view.set]{fullShare} Idx d)
        ∗ (bigSep Finset.univ fun k : Fin k1_t1_loop.trips => iprop(∃ f, outLoc d ↦[(outBlk L k).view.set]{fullShare} f))
        ∗ (∃ f, (V d (cV L) (jV L)).loc cc1_scratch0 ↦{fullShare} f) ∗ (∃ f, (V d (cV L) (jV L)).loc cc1_scratch1 ↦{fullShare} f)
        ∗ semVal (gCell d (cV L) (jV L)) 0 ∗ semVal (oCell d (cV L) (jV L)) 0 ∗ semVal (bCell d (cV L) (jV L)) 0)
      ⊢ wp frame (wpE (defs₀ (F := F)) 𝒱₀ thr none) Set.univ
          (k1_tail L tV (Memref.isWhole_whole _) iV (Memref.isWhole_whole _) oV (Memref.isWhole_whole _) s0V (Memref.isWhole_whole _) s1V (Memref.isWhole_whole _)
            shV (Memref.isWhole_whole _) cc1_scratch3 cc1_scratch4 cc1_scoped0 cc1_scoped1)
          fun _ => iprop(shShare Tab d (cV L) (jL L)
            ∗ (idxLoc d ↦[(idxChunk L).view.set]{fullShare} Idx d)
            ∗ (bigSep Finset.univ fun k : Fin k1_t1_loop.trips => BlkDone Tab Idx d L k)
            ∗ (∃ f, (V d (cV L) (jV L)).loc cc1_scratch0 ↦{fullShare} f) ∗ (∃ f, (V d (cV L) (jV L)).loc cc1_scratch1 ↦{fullShare} f)
            ∗ semVal (gCell d (cV L) (jV L)) 0 ∗ semVal (oCell d (cV L) (jV L)) 0 ∗ semVal (bCell d (cV L) (jV L)) 0
            ∗ ∃ W', ⌜∀ p ∈ W', p ∈ W1 ∨ p.2 = none⌝ ∗ owes thr O W') := by
  unfold k1_tail
  iintro ⟨#Hmw, HO, Hsh, Hidx, Hout, ⟨%f0, Hs0⟩, ⟨%f1, Hs1⟩, HsemG, HsemO, HsemB⟩
  ihave Hsh' := (Entails.of_eq (pts_shFull (F := F) d L _ _).symm) $$ Hsh
  ihave Hsl := ((pts_slots (F := F) d L f1).1) $$ Hs1
  icases Hsl with ⟨Hsl0, Hsl1⟩
  ihave Hidx' := (Entails.of_eq (pts_idx (F := F) d L _ _).symm) $$ Hidx
  ihave Hs0' := (Entails.of_eq (pts_s0 (F := F) d L _).symm) $$ Hs0
  sl_exec
  have hidx0 := fun g => inb_of_idx (F := F) Idx d L hIdx g (tile_tail.sl.dma0 Idx d L) rfl ![0, 0] inb_S32x128_S1x128_0_0
  sl_exec
  -- the loop, by its invariant
  have hfo0 : ∀ n h x, (View.read (Elt F) (rowN n h).view (View.write (Elt F) (s0V).view f0 (tile_tail.sl.dma0 Idx d L) Finset.univ) x).toNat < 8192 :=
    fun n h => inb_of_idx (F := F) Idx d L hIdx f0 (tile_tail.sl.dma0 Idx d L) rfl ![n, 0] (inb_rowN n h)
  rw [bind_assoc]
  iapply (Scf.wp_for_bind frame (wpE (defs₀ (F := F)) 𝒱₀ thr none) Set.univ k1_t1_loop.lb k1_t1_loop.ub k1_t1_loop.st k1_t1_ok PUnit.unit
      (k1_t1_body L tV (Memref.isWhole_whole _) iV (Memref.isWhole_whole _) oV (Memref.isWhole_whole _) s0V (Memref.isWhole_whole _) s1V (Memref.isWhole_whole _)
        shV (Memref.isWhole_whole _) cc1_scratch3 cc1_scratch4 cc1_scoped0 cc1_scoped1)
      (fun n _ => LoopInvT Tab d L (View.write (Elt F) (s0V).view f0 (tile_tail.sl.dma0 Idx d L) Finset.univ) hfo0 O
        (insert (SemLoc.dma cc1_scoped1.sem, (default : HIx 1)) W1) n)
      (fun k acc => step_all Tab d L _ hfo0 O _ k acc)) $$ [HO HsemG Hs0' HsemO Hsl1 Hout]
  · unfold LoopInvT GSide OSide
    rw [dif_pos (by decide : 0 < 32), dif_pos rfl]
    isplitr; · iexact Hmw
    isplitl [HO]
    · iexists _
      isplitr
      swap; · iexact HO
      ipureintro; intro p hp; exact Or.inl hp
    isplitl [HsemG Hs0']
    · isplitl [HsemG]
      · iapply (Transfers.Flight_mono countersEmb thr ?_) $$ HsemG
        iintro ⟨⟨Hd, Hr⟩, Hs⟩
        isplitl [Hd]
        · iexists _
          isplitl [Hd]; · iexact Hd
          ipureintro
          exact View.read_writes_whole _ _ _
        isplitl [Hr]; · iexact Hr
        iexact Hs
      · iexact Hs0'
    · isplitl [HsemO]; · iexact HsemO
      isplitl [Hsl1]; · iexists _; iexact Hsl1
      rw [show (bigSep Finset.univ (BlkAt (F := F) Tab d L (View.write (Elt F) (s0V).view f0 (tile_tail.sl.dma0 Idx d L) Finset.univ) hfo0 0) : sProp 𝕄)
          = bigSep Finset.univ (BlkPts (F := F) d L) from bigSep_congr fun j _ => by unfold BlkAt; rw [dif_neg (by omega)]]
      iexact Hout
  iintro %acc Hinv
  ihave Hinv' := (Entails.of_eq (show LoopInvT Tab d L (View.write (Elt F) (s0V).view f0 (tile_tail.sl.dma0 Idx d L) Finset.univ) hfo0 O (insert (SemLoc.dma cc1_scoped1.sem, (default : HIx 1)) W1) (Scf.trips k1_t1_loop.lb k1_t1_loop.ub k1_t1_loop.st)
      = iprop(Transfers.MayWaits thr (default : HIx 1) O
        ∗ (∃ W', ⌜∀ p ∈ W', p ∈ (insert (SemLoc.dma cc1_scoped1.sem, (default : HIx 1)) W1) ∨ p.2 = none⌝ ∗ owes thr O W')
        ∗ (semVal (gCell d (cV L) (jV L)) 0 ∗ ((s0V).view.loc thr ↦{fullShare} (View.write (Elt F) (s0V).view f0 (tile_tail.sl.dma0 Idx d L) Finset.univ)) ∗ ShPts Tab d L)
        ∗ (Transfers.Batch countersEmb thr (SemLoc.dma cc1_scratch4.sem) (default : HIx 1) 524288 (DB Tab d L (View.write (Elt F) (s0V).view f0 (tile_tail.sl.dma0 Idx d L) Finset.univ) hfo0) 2 0
          ∗ bigSep ((Finset.univ.erase (kOf 30 (by omega))).erase (kOf 31 (by omega))) (BlkAt Tab d L (View.write (Elt F) (s0V).view f0 (tile_tail.sl.dma0 Idx d L) Finset.univ) hfo0 32))) from by
    rw [show Scf.trips k1_t1_loop.lb k1_t1_loop.ub k1_t1_loop.st = 32 from trips_eq]
    unfold LoopInvT GSide OSide
    rw [dif_neg (by decide), dif_neg (by decide), dif_neg (by decide), dif_neg (by decide)])) $$ Hinv
  icases Hinv' with ⟨-, ⟨%W', %hW', HO⟩, ⟨HsemG, Hs0, Hsh⟩, ⟨HB, Hblks⟩⟩
  sl_exec
  sl_step
  -- what the subcore hands back
  have hdone : ∀ (m : ℕ) (hm : m < 32), (BlkG Tab d L (View.write (Elt F) (s0V).view f0 (tile_tail.sl.dma0 Idx d L) Finset.univ) hfo0 m hm : sProp 𝕄) ⊢ BlkDone Tab Idx d L (kOf m hm) := fun m hm => by
    iintro ⟨%f, H, %hf⟩
    iexists f
    isplitl [H]; · iexact H
    ipureintro
    intro hb
    exact hf.trans (gpn_eq_exp Tab Idx d L f0 _ rfl hfo0 m hm hb)
  isplitl [Hsh]
  · iapply (Entails.of_eq (pts_shFull (F := F) d L _ _)); iexact Hsh
  isplitl [Hidx']
  · iapply (Entails.of_eq (pts_idx (F := F) d L _ _)); iexact Hidx'
  isplitl [Hblks HB_src0 HB_src1]
  · have h31 : kOf 31 (by omega) ∈ Finset.univ.erase (kOf 30 (by omega)) :=
      Finset.mem_erase.mpr ⟨by intro e; have := congrArg Fin.val e; simp [kOf] at this, Finset.mem_univ _⟩
    rw [SparseCore.bigSep_erase' (Finset.mem_univ (kOf 30 (by omega))), SparseCore.bigSep_erase' h31]
    isplitl [HB_src0]; · iapply (hdone _ _) $$ HB_src0
    isplitl [HB_src1]; · iapply (hdone _ _) $$ HB_src1
    have hm : (bigSep ((Finset.univ.erase (kOf 30 (by omega))).erase (kOf 31 (by omega))) (BlkAt (F := F) Tab d L (View.write (Elt F) (s0V).view f0 (tile_tail.sl.dma0 Idx d L) Finset.univ) hfo0 32) : sProp 𝕄)
        ⊢ bigSep ((Finset.univ.erase (kOf 30 (by omega))).erase (kOf 31 (by omega))) (fun k => BlkDone Tab Idx d L k) :=
      bigSep_mono fun j hj => by
        have hj31 : j ≠ kOf 31 (by omega) := (Finset.mem_erase.mp hj).1
        have hlt : j.val < 32 := Nat.lt_of_lt_of_eq j.isLt trips_eq
        have h1 : j.val ≠ 31 := fun e => hj31 (Fin.ext e)
        unfold BlkAt
        rw [dif_pos (by omega)]
        exact hdone j.val hlt
    iapply hm $$ Hblks
  isplitl [Hs0]
  · iexists _; iapply (Entails.of_eq (pts_s0 (F := F) d L _)); iexact Hs0
  isplitl [HB_dst0 HB_dst1]
  · icases HB_dst0 with ⟨%g0, Hg0⟩
    icases HB_dst1 with ⟨%g1, Hg1⟩
    ihave Hj := (pointsTo_join (ℓ := (V d (cV L) (jV L)).loc cc1_scratch1) (q := fullShare) (f := g0) (g := g1) slots_disjoint) $$ [Hg0 Hg1]
    · isplitl [Hg0]; · iexact Hg0
      iexact Hg1
    iexists _
    iapply (Entails.of_eq (pts_cover (F := F) d L _)) $$ Hj
  isplitl [HsemG]; · iexact HsemG
  isplitl [HB]; · iexact HB
  isplitl [HsemB]; · iexact HsemB
  iexists _
  isplitr
  swap; · iexact HO
  ipureintro
  intro p hp
  rcases Finset.mem_insert.mp hp with hp | hp; · exact Or.inr (by rw [hp]; rfl)
  rcases Finset.mem_insert.mp hp with hp | hp; · exact Or.inr (by rw [hp]; rfl)
  rcases hW' p hp with h | h
  · rcases Finset.mem_insert.mp h with h | h
    · exact Or.inr (by rw [h]; rfl)
    · exact Or.inl h
  · exact Or.inr h

end Tile

end Cert.Kernel.Sc

end
-- ==== Proof.Bits.ScShDeal.lean ====
/-
  The first subcore of a SparseCore, once it has copied the table into the SparseCore's shared memory, deals the shared
  memory out as read shares: sixteen shares, one per subcore, and the remainder, all at the table's contents. And what
  a whole-buffer copy of the whole table leaves in the shared memory is the table's contents.
-/
import proofs.«208327_g62569083568895_cont_9to1c4b_407_46_alg».proof.Proof.Bits.ScPay

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

local notation "tV" => (Memref.whole Cert.Kernel.main_v1_0_scv : Memref Cert.Kernel.sig Kind.scVector Space.hbm Cert.Kernel.S8192x128 EltTy.f32)
local notation "shV" => (Memref.whole Cert.Kernel.cc1_scratch2 : Memref Cert.Kernel.sig Kind.scVector Space.shared Cert.Kernel.S8192x128 EltTy.f32)

/-- The shared memory whole, at the table's contents, is the remainder and the sixteen read shares. -/
theorem sh_deal (d : Dev nD) (c : Fin τ.nSC) (f : Buf (Elt F) (shLoc d c)) (hf : ∀ i, f i = TabSh Tab d c i) :
    (shLoc d c ↦{fullShare} f : sProp 𝕄)
      ⊢ iprop((shLoc d c ↦{Transfers.shareDrop fullShare 16} TabSh Tab d c) ∗ bigSep Finset.univ fun j : Fin 16 => shShare Tab d c j) := by
  rw [show f = TabSh Tab d c from funext hf]
  exact Transfers.pointsTo_toks_split fullShare 16

/-- The table read whole and written whole over the shared memory leaves the table's contents there. -/
theorem sh_copied (d : Dev nD) (c : Fin τ.nSC) (f0 : Buf (Elt F) (shLoc d c)) :
    ∀ i, (shV).view.write (Elt F) f0 ((tV).view.read (Elt F) (Tab d)) Finset.univ i = TabSh Tab d c i :=
  fun i => congrFun (View.write_whole_univ (Val := Elt F) cc1_scratch2 f0 ((tV).view.read (Elt F) (Tab d))) i

end Cert.Kernel.Sc

end
-- ==== Proof.Bits.ScTileBody.lean ====
/-
  The run of one vector subcore's task: on the first subcore of a SparseCore the copy of the table into the shared
  memory and the dealing of its sixteen read shares; the subcore barrier; then the task after the barrier.
-/
import proofs.«208327_g62569083568895_cont_9to1c4b_407_46_alg».proof.Proof.Bits.ScTail
import proofs.«208327_g62569083568895_cont_9to1c4b_407_46_alg».proof.Proof.Bits.ScShDeal

set_option pp.maxSteps 6000
set_option pp.deepTerms false

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v1_0_scv : Memref Cert.Kernel.sig Kind.scVector Space.hbm Cert.Kernel.S8192x128 EltTy.f32)
local notation "iV" => (Memref.whole Cert.Kernel.main_v2_scv : Memref Cert.Kernel.sig Kind.scVector Space.hbm Cert.Kernel.S1024x128 EltTy.i32)
local notation "oV" => (Memref.whole Cert.Kernel.main_v3_scv : Memref Cert.Kernel.sig Kind.scVector Space.hbm Cert.Kernel.S131072x128 EltTy.f32)
local notation "s0V" => (Memref.whole Cert.Kernel.cc1_scratch0 : Memref Cert.Kernel.sig Kind.scVector Space.vmem Cert.Kernel.S32x128 EltTy.i32)
local notation "s1V" => (Memref.whole Cert.Kernel.cc1_scratch1 : Memref Cert.Kernel.sig Kind.scVector Space.vmem Cert.Kernel.S2x128x128 EltTy.f32)
local notation "shV" => (Memref.whole Cert.Kernel.cc1_scratch2 : Memref Cert.Kernel.sig Kind.scVector Space.shared Cert.Kernel.S8192x128 EltTy.f32)

variable (Tab : (d : Dev nD) → Buf (Elt F) (tabLoc d)) (Idx : (d : Dev nD) → Buf (Elt F) (idxLoc d))

section Tile

variable (d : Dev nD) (L : grid1.Coords)

variable [FloatOps F]

/-- Whether a subcore is the first of its SparseCore, as the kernel computes it. -/
theorem first_iff : ∀ x : Fin 16,
    ((Scalar.cmpi .ne (Scalar.extui (Scalar.cmpi .eq (BitVec.ofNat 32 x.val) 0#32) : BitVec 32) 0#32 : BitVec 1) = 1#1) ↔ x.val = 0 := by decide

omit [FloatOps F] in
theorem pts_tab (q : PosShare TreeShare) (f : Buf (Elt F) (tabLoc d)) :
    ((tV).view.loc (V d (cV L) (jV L)) ↦{q} f : sProp 𝕄) = tabLoc d ↦{q} f := rfl
omit [FloatOps F] in
theorem pts_shV (q : PosShare TreeShare) (f : Buf (Elt F) (shLoc d (cV L))) :
    ((shV).view.loc (V d (cV L) (jV L)) ↦{q} f : sProp 𝕄) = shLoc d (cV L) ↦{q} f := rfl

set_option maxRecDepth 65536 in
set_option maxHeartbeats 4000000 in
/-- The task on vector subcore `(L 0, L 1)` of device `d`. -/
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hIdx : ∀ x, ((iV).view.read (Elt F) (Idx d) x).toNat < 8192) :
    iprop(levAts (K (F := F)).L (K (F := F)).lev ∗ bkit Tab d (cV L) (jV L)
        ∗ goTile Tab Idx d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1_k L tV (Memref.isWhole_whole _) iV (Memref.isWhole_whole _) oV (Memref.isWhole_whole _) s0V (Memref.isWhole_whole _) s1V (Memref.isWhole_whole _)
            shV (Memref.isWhole_whole _) cc1_scratch3 cc1_scratch4 cc1_scoped0 cc1_scoped1)
          fun _ => iprop(tdTile Tab Idx d L
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1_k_eq_skeleton]; unfold cc1_k_skel
  simp only [k1_part1_eq_skeleton]; unfold k1_part1_skel
  rw [(K (F := F)).scopedBufs_V hF d (cV L) (jV L), SparseCore.Cfg.scopedSems0_V (Val := Elt F) d (cV L) (jV L), ownSems0_V, ownBufs_V]
  unfold bkit goTile tdTile
  have hO' : ∀ g, (O + oxV d (cV L)) g none = 0 := fun g => by rw [Pi.add_apply, Finsupp.add_apply, hO g, oxV_none]
  by_cases h0 : (L 1).val = 0
  · rw [if_pos h0, if_pos h0]
    have hc : ((Scalar.cmpi .ne (Scalar.extui (Scalar.cmpi .eq (BitVec.ofNat 32 (L 1).val) 0#32) : BitVec 32) 0#32 : BitVec 1) = 1#1) :=
      (first_iff (jL L)).mpr h0
    iintro ⟨#Hlv, ⟨⟨%κ, #Hinv⟩, Htoks, #Hrch, Hat, Hcred⟩, ⟨⟨Htab, ⟨%fsh, Hshw⟩⟩, Hidx, Hout⟩, ⟨⟨%f0, Hs0⟩, ⟨%f1, Hs1⟩, Hbufs⟩, ⟨HsemG, HsemO, HsemA, HsemB, Hsems⟩, HO⟩
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    ihave Hmw2 := (show levAts (K (F := F)).L (K (F := F)).lev ⊢ Transfers.MayWaits (V d (cV L) (jV L)) (default : HIx 1) O from
      (K (F := F)).mayWaits_none (thr := V d (cV L) (jV L)) hO) $$ Hlv
    ihave Htab' := (Entails.of_eq (pts_tab (F := F) d L _ _).symm) $$ Htab
    ihave Hshw' := (Entails.of_eq (pts_shV (F := F) d L _ _).symm) $$ Hshw
    -- the table into the shared memory, and the wait
    sl_exec
    rw [bind_assoc]
    -- the shared table's sixteen read shares, one for each subcore's round
    ihave Hshw2 := (Entails.of_eq (pts_shV (F := F) d L _ _)) $$ Hshw'
    ihave Hdeal := (sh_deal (F := F) Tab d (cV L) (View.write (Elt F) (shV).view fsh (tile_body.sl.dma0 Tab d) Finset.univ) (fun i => sh_copied (F := F) Tab d (cV L) fsh i)) $$ Hshw2
    icases Hdeal with ⟨Hrest, Htoks16⟩
    ihave Hpays := (pays_intro (F := F) Tab d L h0) $$ Htoks16
    iapply (SparseCore.wp_subcoreBarrier 𝒱₀ none EB (bRd (F := F) Tab) d (sc := cV L) (i := jV L) sc_bar0 (grid1.bound 1) hsub1 (L 1) rfl κ (fun _ => 0) (jV L).val
        (fun j => bRd_mem₀ Tab d _ _ _) (fun _ => rfl) (bRd_expect Tab d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsh := (pays_elim (F := F) Tab d L) $$ Hgot
    -- the task after the barrier
    iapply (wp_wand frame (wpE (defs₀ (F := F)) 𝒱₀ (V d (cV L) (jV L)) none) Set.univ) $$ [HO Hsh Hidx Hout Hs0 Hs1 HsemG HsemO HsemB] [Htab' Hrest Hbufs HsemA Hsems]
    · iapply (tile_tail Tab Idx d L O hIdx _)
      isplitr; · iexact Hmw2
      isplitl [HO]; · iexact HO
      isplitl [Hsh]; · iexact Hsh
      isplitl [Hidx]; · iexact Hidx
      isplitl [Hout]; · iexact Hout
      isplitl [Hs0]; · iexists _; iexact Hs0
      isplitl [Hs1]; · iexists _; iexact Hs1
      isplitl [HsemG]; · iexact HsemG
      isplitl [HsemO]; · iexact HsemO
      iexact HsemB
    · iintro %a ⟨Hsh, Hidx, Hblks, Hs0, Hs1, HsemG, HsemO, HsemB, ⟨%W'', %hW'', HO⟩⟩
      isplitl [Htab' Hrest Hsh Hidx Hblks]
      · isplitl [Htab' Hrest]
        · isplitl [Htab']; · iapply (Entails.of_eq (pts_tab (F := F) d L _ _)); iexact Htab'
          iexact Hrest
        isplitl [Hsh]; · iexact Hsh
        isplitl [Hidx]; · iexact Hidx
        iexact Hblks
      isplitl [Hs0 Hs1 Hbufs]
      · isplitl [Hs0]; · iexact Hs0
        isplitl [Hs1]; · iexact Hs1
        iexact Hbufs
      isplitl [HsemG HsemO HsemA HsemB Hsems]
      · isplitl [HsemG]; · iexact HsemG
        isplitl [HsemO]; · iexact HsemO
        isplitl [HsemA]; · iexact HsemA
        isplitl [HsemB]; · iexact HsemB
        iexact Hsems
      iexists _
      isplitr
      swap; · iexact HO
      ipureintro
      intro p hp
      rcases hW'' p hp with h | h
      · rcases Finset.mem_insert.mp h with h | h
        · exact Or.inr (Or.inr (by rw [h]))
        rcases Finset.mem_insert.mp h with h | h
        · exact Or.inr (Or.inl (by rw [h]; rfl))
        · exact Or.inl h
      · exact Or.inr (Or.inl h)
  · rw [if_neg h0, if_neg h0]
    have hc : ¬ ((Scalar.cmpi .ne (Scalar.extui (Scalar.cmpi .eq (BitVec.ofNat 32 (L 1).val) 0#32) : BitVec 32) 0#32 : BitVec 1) = 1#1) :=
      fun h => h0 ((first_iff (jL L)).mp h)
    iintro ⟨#Hlv, ⟨⟨%κ, #Hinv⟩, Htoks, #Hrch, Hat, Hcred⟩, ⟨-, Hidx, Hout⟩, ⟨⟨%f0, Hs0⟩, ⟨%f1, Hs1⟩, Hbufs⟩, ⟨HsemG, HsemO, HsemA, HsemB, Hsems⟩, HO⟩
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    ihave Hmw2 := (show levAts (K (F := F)).L (K (F := F)).lev ⊢ Transfers.MayWaits (V d (cV L) (jV L)) (default : HIx 1) O from
      (K (F := F)).mayWaits_none (thr := V d (cV L) (jV L)) hO) $$ Hlv
    sl_exec
    rw [bind_assoc]
    -- the barrier: nothing handed over, the subcore's read share of the shared table received
    ihave Hpays := (pays_intro' (F := F) Tab d L h0) $$ []
    · iempintro
    iapply (SparseCore.wp_subcoreBarrier 𝒱₀ none EB (bRd (F := F) Tab) d (sc := cV L) (i := jV L) sc_bar0 (grid1.bound 1) hsub1 (L 1) rfl κ (fun _ => 0) (jV L).val
        (fun j => bRd_mem₀ Tab d _ _ _) (fun _ => rfl) (bRd_expect Tab d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsh := (pays_elim (F := F) Tab d L) $$ Hgot
    -- the task after the barrier
    iapply (wp_wand frame (wpE (defs₀ (F := F)) 𝒱₀ (V d (cV L) (jV L)) none) Set.univ) $$ [HO Hsh Hidx Hout Hs0 Hs1 HsemG HsemO HsemB] [Hbufs HsemA Hsems]
    · iapply (tile_tail Tab Idx d L O hIdx _)
      isplitr; · iexact Hmw2
      isplitl [HO]; · iexact HO
      isplitl [Hsh]; · iexact Hsh
      isplitl [Hidx]; · iexact Hidx
      isplitl [Hout]; · iexact Hout
      isplitl [Hs0]; · iexists _; iexact Hs0
      isplitl [Hs1]; · iexists _; iexact Hs1
      isplitl [HsemG]; · iexact HsemG
      isplitl [HsemO]; · iexact HsemO
      iexact HsemB
    · iintro %a ⟨Hsh, Hidx, Hblks, Hs0, Hs1, HsemG, HsemO, HsemB, ⟨%W'', %hW'', HO⟩⟩
      isplitl [Hsh Hidx Hblks]
      · isplitr; · iempintro
        isplitl [Hsh]; · iexact Hsh
        isplitl [Hidx]; · iexact Hidx
        iexact Hblks
      isplitl [Hs0 Hs1 Hbufs]
      · isplitl [Hs0]; · iexact Hs0
        isplitl [Hs1]; · iexact Hs1
        iexact Hbufs
      isplitl [HsemG HsemO HsemA HsemB Hsems]
      · isplitl [HsemG]; · iexact HsemG
        isplitl [HsemO]; · iexact HsemO
        isplitl [HsemA]; · iexact HsemA
        isplitl [HsemB]; · iexact HsemB
        iexact Hsems
      iexists _
      isplitr
      swap; · iexact HO
      ipureintro
      intro p hp
      rcases hW'' p hp with h | h
      · rcases Finset.mem_insert.mp h with h | h
        · exact Or.inr (Or.inr (by rw [h]))
        · exact Or.inl h
      · exact Or.inr (Or.inl h)

end Tile

end Cert.Kernel.Sc

end
-- ==== Proof.Bits.ScObl.lean ====
/-
  The vector-subcore kernel's obligation to the launch theorem: the body table's entry for a subcore of the call's grid
  is the kernel function at that subcore's grid point, on the whole HBM arrays and its scratch, and the task's run at a
  symbolic grid point is the obligation at every subcore.
-/
import proofs.«208327_g62569083568895_cont_9to1c4b_407_46_alg».proof.Proof.Bits.ScTileBody

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

local notation "tV" => (Memref.whole Cert.Kernel.main_v1_0_scv : Memref Cert.Kernel.sig Kind.scVector Space.hbm Cert.Kernel.S8192x128 EltTy.f32)
local notation "iV" => (Memref.whole Cert.Kernel.main_v2_scv : Memref Cert.Kernel.sig Kind.scVector Space.hbm Cert.Kernel.S1024x128 EltTy.i32)
local notation "oV" => (Memref.whole Cert.Kernel.main_v3_scv : Memref Cert.Kernel.sig Kind.scVector Space.hbm Cert.Kernel.S131072x128 EltTy.f32)
local notation "s0V" => (Memref.whole Cert.Kernel.cc1_scratch0 : Memref Cert.Kernel.sig Kind.scVector Space.vmem Cert.Kernel.S32x128 EltTy.i32)
local notation "s1V" => (Memref.whole Cert.Kernel.cc1_scratch1 : Memref Cert.Kernel.sig Kind.scVector Space.vmem Cert.Kernel.S2x128x128 EltTy.f32)
local notation "shV" => (Memref.whole Cert.Kernel.cc1_scratch2 : Memref Cert.Kernel.sig Kind.scVector Space.shared Cert.Kernel.S8192x128 EltTy.f32)

variable [FloatOps F]

theorem defs₀_vector (c : Fin τ.nSC) (s : Fin τ.nSub) :
    defs₀ (F := F) (.scVector c s) 1 ()
      = SparseCore.onTile hcore1 hsub1 (fun c s => cc1_k (coordsV c s)
          tV (Memref.isWhole_whole _) iV (Memref.isWhole_whole _) oV (Memref.isWhole_whole _) s0V (Memref.isWhole_whole _) s1V (Memref.isWhole_whole _)
          shV (Memref.isWhole_whole _) cc1_scratch3 cc1_scratch4 cc1_scoped0 cc1_scoped1) ⟨⟩ c s := rfl

set_option maxRecDepth 16384 in
theorem tileObl (hF : (K (F := F)).Facts)
    (hIdx : ∀ d x, ((iV).view.read (Elt F) (Idx d) x).toNat < 8192) :
    (K (F := F)).TileObl (D (F := F)) 𝒱 (P Tab Idx) v₀ 0 := by
  intro d c i O W hO hOlev _
  have hc : ((K (F := F)).core 0 c).val < 2 := c.isLt
  have hci : ((K (F := F)).core 0 c).val < grid1.bound 0 ∧ ((K (F := F)).sub 0 i).val < grid1.bound 1 := ⟨c.isLt, i.isLt⟩
  rw [show (P Tab Idx).ox 0 (V d ((K (F := F)).core 0 c) ((K (F := F)).sub 0 i)) = oxV d ((K (F := F)).core 0 c) from if_pos hc,
    show (P Tab Idx).x 0 (V d ((K (F := F)).core 0 c) ((K (F := F)).sub 0 i)) = bkit Tab d ((K (F := F)).core 0 c) ((K (F := F)).sub 0 i) from if_pos hc]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body Tab Idx d (coordsV ⟨_, hci.1⟩ ⟨_, hci.2⟩) hF O W hO hOlev (hIdx d)

end Cert.Kernel.Sc

end
-- ==== Proof.Bits.ScSplit.lean ====
/-
  How a SparseCore's operands split among its sixteen vector subcores and rejoin. The TensorCore hands SparseCore `c`
  a read share of the table, every subcore's rows of the index list and every subcore's blocks of the result; the
  sequencer holds the SparseCore's shared memory among its own buffers. The first subcore is handed the table's share
  and the shared memory whole, every subcore its own rows and blocks. Back come the first subcore's table share and
  what is left of the shared memory after sixteen read shares were taken off it, from every subcore its read share,
  all at the table's contents — the sixteen shares and the remainder are the shared memory whole again — and every
  subcore's blocks, written with the gathered rows.
-/
import proofs.«208327_g62569083568895_cont_9to1c4b_407_46_alg».proof.Proof.Bits.ScPay

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

/-! ## The payload's fields, as equations -/

variable [FloatOps F]

theorem P_st (d : Dev nD) (c : Fin ((K (F := F)).nCore 0)) : (P (F := F) Tab Idx).st 0 d c = stCore Tab Idx d c := rfl
theorem P_dn (d : Dev nD) (c : Fin ((K (F := F)).nCore 0)) : (P (F := F) Tab Idx).dn 0 d c = dnCore Tab Idx d c := rfl
theorem P_go (d : Dev nD) (c : Fin ((K (F := F)).nCore 0)) (i : Fin ((K (F := F)).nSub 0)) :
    (P (F := F) Tab Idx).go 0 d c i = goTile Tab Idx d (coordsV c i) := rfl
theorem P_td (d : Dev nD) (c : Fin ((K (F := F)).nCore 0)) (i : Fin ((K (F := F)).nSub 0)) :
    (P (F := F) Tab Idx).td 0 d c i = tdTile Tab Idx d (coordsV c i) := rfl

/-! ## Regrouping over the subcores -/

omit [FloatOps F] in
theorem sep_emp_eq (X : sProp 𝕄) : iprop(X ∗ emp) = X := equiv_iff.mp Idealize.SL.BI.sep_emp

theorem bound_one_pos : 0 < grid1.bound 1 := Nat.succ_pos 15
/-- The first subcore. -/
abbrev sub0 : Fin (grid1.bound 1) := ⟨0, bound_one_pos⟩

omit [FloatOps F] in
/-- A family that is `emp` off the first subcore is its value there. -/
theorem bigSep_first (c : Fin (grid1.bound 0)) (Φ : Fin (grid1.bound 1) → sProp 𝕄) :
    (bigSep Finset.univ fun i : Fin (grid1.bound 1) => if (coordsV c i 1).val = 0 then Φ i else iprop(emp)) = Φ sub0 := by
  rw [SparseCore.bigSep_erase' (Finset.mem_univ sub0), if_pos (show (coordsV c sub0 1).val = 0 from rfl),
    bigSep_congr (Ψ := fun _ => iprop(emp)) (fun i hi => if_neg (fun h : (coordsV c i 1).val = 0 => (Finset.mem_erase.mp hi).1 (Fin.ext (show i.val = (sub0).val from h)))),
    bigSep_emp', sep_emp_eq]

/-- What the sixteen subcores are handed: the table's share and the shared memory (the first subcore's), every
    subcore's rows of the index list, every subcore's blocks of the result. -/
theorem go_all (d : Dev nD) (c : Fin (grid1.bound 0)) :
    (bigSep Finset.univ fun i : Fin (grid1.bound 1) => goTile Tab Idx d (coordsV c i))
      = iprop(((tabLoc d ↦{Transfers.shareTok fullShare 2 (Fin.cast bound_zero c)} Tab d) ∗ ∃ f, shLoc d (coreOf (F := F) c) ↦{fullShare} f)
          ∗ (bigSep Finset.univ fun s : Fin (grid1.bound 1) => idxLoc d ↦[(idxChunk (coordsV c s)).view.set]{fullShare} Idx d)
          ∗ bigSep Finset.univ fun s : Fin (grid1.bound 1) => bigSep Finset.univ fun k : Fin k1_t1_loop.trips =>
              iprop(∃ f, outLoc d ↦[(outBlk (coordsV c s) k).view.set]{fullShare} f)) := by
  unfold goTile
  rw [bigSep_sep', bigSep_sep', bigSep_first]
  rfl

/-- What they hand back: the first subcore's table share and the remainder of the shared memory, every subcore's read
    share of it, the rows, and the blocks written. -/
theorem td_all (d : Dev nD) (c : Fin (grid1.bound 0)) :
    (bigSep Finset.univ fun i : Fin (grid1.bound 1) => tdTile Tab Idx d (coordsV c i))
      = iprop(((tabLoc d ↦{Transfers.shareTok fullShare 2 (Fin.cast bound_zero c)} Tab d)
            ∗ shLoc d (coreOf (F := F) c) ↦{Transfers.shareDrop fullShare 16} TabSh Tab d (coreOf (F := F) c))
          ∗ (bigSep Finset.univ fun i : Fin (grid1.bound 1) => shShare Tab d (coreOf (F := F) c) (jL (coordsV c i)))
          ∗ (bigSep Finset.univ fun s : Fin (grid1.bound 1) => idxLoc d ↦[(idxChunk (coordsV c s)).view.set]{fullShare} Idx d)
          ∗ bigSep Finset.univ fun s : Fin (grid1.bound 1) => bigSep Finset.univ fun k : Fin k1_t1_loop.trips =>
              BlkDone Tab Idx d (coordsV c s) k) := by
  unfold tdTile
  rw [bigSep_sep', bigSep_sep', bigSep_sep', bigSep_first]
  rfl

omit [FloatOps F] in
/-- The remainder and the sixteen read shares, all at the table's contents, are the shared memory whole. -/
theorem sh_join (d : Dev nD) (cc : Fin τ.nSC) (c : Fin (grid1.bound 0)) :
    iprop((shLoc d cc ↦{Transfers.shareDrop fullShare 16} TabSh Tab d cc)
        ∗ bigSep Finset.univ fun i : Fin (grid1.bound 1) => shShare Tab d cc (jL (coordsV c i)))
      ⊢ (shLoc d cc ↦{fullShare} TabSh Tab d cc : sProp 𝕄) :=
  Transfers.pointsTo_toks_join (ℓ := shLoc d cc) (S := Finset.univ) (f := TabSh Tab d cc) fullShare 16

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## The split -/

theorem vecSplit_core (d : Dev nD) (c : Fin (grid1.bound 0)) :
    iprop(stCore Tab Idx d c ∗ ownBufs (S d (coreOf (F := F) c))) ⊢ |={Set.univ}=> iprop(
      (bigSep Finset.univ fun i : Fin (grid1.bound 1) => goTile Tab Idx d (coordsV c i))
      ∗ ((bigSep Finset.univ fun i : Fin (grid1.bound 1) => tdTile Tab Idx d (coordsV c i))
          -∗ iprop(dnCore Tab Idx d c ∗ ownBufs (S d (coreOf (F := F) c))))) := by
  rw [go_all, td_all, ownBufs_S]
  unfold stCore dnCore
  iintro ⟨⟨Htab, Hidx, Hout⟩, ⟨%fsh, Hsh⟩, Hrest⟩; imodintro
  isplitl [Htab Hidx Hout Hsh]
  · isplitl [Htab Hsh]
    · isplitl [Htab]; · iexact Htab
      iexists fsh; iexact Hsh
    isplitl [Hidx]; · iexact Hidx
    iexact Hout
  iintro ⟨⟨Htab, Hdrop⟩, Htoks, Hidx, Hout⟩
  isplitl [Htab Hidx Hout]
  · isplitl [Htab]; · iexact Htab
    isplitl [Hidx]; · iexact Hidx
    iexact Hout
  isplitl [Hdrop Htoks]
  · iexists (TabSh Tab d (coreOf (F := F) c))
    iapply (sh_join Tab d (coreOf (F := F) c) c)
    isplitl [Hdrop]; · iexact Hdrop
    iexact Htoks
  iexact Hrest

theorem vecSplit : (K (F := F)).VecSplit (P Tab Idx) 0 := fun d c => vecSplit_core Tab Idx d c

end Cert.Kernel.Sc

end
-- ==== Proof.Bits.ScElem.lean ====
/-
  The launch element of the ghost state. The element is the handshake cells' rounds, the subcore barrier cells' rounds,
  the TensorCore pipelines' staging cells' rounds, and no transfer counted. From it, the credit for the subcores' own
  debts and the free semaphores at zero, the launch funds the barrier cells' rounds, allocates their invariants at once
  and deals every subcore its barrier kit; it funds the staging cells' rounds and hands each device's TensorCore the
  ghost state its two pipelines start from; the handshake cells' rounds go to the launch theorem.
-/
import proofs.«208327_g62569083568895_cont_9to1c4b_407_46_alg».proof.Proof.Bits.ScPay
import proofs.«208327_g62569083568895_cont_9to1c4b_407_46_alg».proof.Proof.Gen.Kernel.Launch

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

variable [FloatOps F]

/-! ## The element -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a SparseCore. -/
def bToks : Finset (GSem nD τ sig × ℕ × ℕ) :=
  Finset.univ.image fun x : DCI × Fin (grid1.bound 1) => (bcell x.1.1 x.1.2.1 (x.2.castLE hsub1), 0, x.1.2.2.val)

def u₀ : UU := (initOf (K (F := F)).hsCells (K (F := F)).hsToks, (initOf bCells bToks,
  (initOf (Pipeline.cells (nD := nD) (τ := τ) cfgs cellOf_inj) (Pipeline.launchToks (nD := nD) (τ := τ) cfgs cellOf_inj), 1)))

/-- What @main's proof starts from on device `d`: its two pipelines' staging cells' ghost state and their transfers'
    duty tokens. -/
def G (d : Dev nD) : sProp 𝕄 :=
  bigSep Finset.univ fun p : Fin 2 => iprop(Pipeline.cellsGhost cfgs EP p d ∗ Pipeline.toksInit cfgs EP p d)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The element is its three rounds libraries' parts. -/
theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ ownU ((1, (b, (p, 1))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (ownU ((1, (b, (p, 1))) : UU) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op (p, (1 : Counters))))))
  iintro Hu
  ihave H := h1 $$ Hu
  icases H with ⟨HH, Hr⟩
  ihave H2 := h2 $$ Hr
  icases H2 with ⟨HB, HP⟩
  isplitl [HH]; · iexact HH
  isplitl [HB]; · iexact HB
  iexact HP

/-! ## The barrier cells -/

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) Tab) g 0)
    ⊢ |={Set.univ}=> iprop(∃ κ : GSem nD τ sig → ℕ, bigSep bCells fun g => cellInv EB (bRd (F := F) Tab) (κ g) g) := by
  refine (Rounds.bodies_intro EB (bRd (F := F) Tab) bCells).trans ((inv_alloc_family bCells (Rounds.body EB (bRd (F := F) Tab)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each subcore the sixteen units of its own cell. -/
theorem creds_b : ((P (F := F) Tab Idx).oxCred : sProp 𝕄)
    ⊢ bigSep Finset.univ fun dci : DCI => if dci.2.1.val < 2 then cred (tallyAt (bcell₃ dci) (some 0) (grid1.bound 1)) else (BI.emp : sProp 𝕄) := by
  unfold SparseCore.Cfg.Pay.oxCred
  rw [SparseCore.Cfg.bigSep_threads (fun thr : Thread nD τ => (cred ((P (F := F) Tab Idx).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid1.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid1.bound 1)) : sProp 𝕄) else BI.emp)]
  refine bigSep_mono fun c _ => ?_
  dsimp only
  by_cases hc : c.val < 2
  · simp only [hc, ↓reduceIte]
    have hox : ∀ i, (P (F := F) Tab Idx).oxFrom 0 (V d c i) = oxV d c := fun i => by
      rw [show (0 : ℕ) = (0 : Fin 1).val from rfl, (P Tab Idx).oxFrom_step, (P Tab Idx).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) Tab Idx).x q (SparseCore.T d)) = iprop(emp) :=
  bigSep_univ_of_subsingleton (0 : Fin 1)
theorem Px_S (d : Dev nD) (c : Fin τ.nSC) : (bigSep Finset.univ fun q : Fin 1 => (P (F := F) Tab Idx).x q (S d c)) = iprop(emp) :=
  bigSep_univ_of_subsingleton (0 : Fin 1)
theorem Px_V (d : Dev nD) (c : Fin τ.nSC) (i : Fin τ.nSub) :
    (bigSep Finset.univ fun q : Fin 1 => (P (F := F) Tab Idx).x q (V d c i)) = if c.val < 2 then bkit Tab d c i else iprop(emp) :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev shared : sProp 𝕄 :=
  iprop((∃ κ : GSem nD τ sig → ℕ, bigSep Finset.univ fun x : DCI => cellInv EB (bRd (F := F) Tab) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ (if dci.2.1.val < 2 then cred (tallyAt (bcell₃ dci) (some 0) (grid1.bound 1)) else BI.emp))

/-- One subcore's kit out of those. -/
theorem kit_intro (dci : DCI) : iprop(shared (F := F) Tab ∗ mine (F := F) dci) ⊢ (if dci.2.1.val < 2 then bkit (F := F) Tab dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid1.bound 1)))) (Φ := fun _ => iprop(emp))
        (R := bigSep Finset.univ fun x : DCI => cellInv EB (bRd (F := F) Tab) (κ (bcell₃ x)) (bcell₃ x)) fun j _ =>
          sep_elim_left.trans (bigSep_elim (Φ := fun x : DCI => (cellInv EB (bRd (F := F) Tab) (κ (bcell₃ x)) (bcell₃ x) : sProp 𝕄))
            (i := (d, c, Fin.castLE hsub1 j)) (Finset.mem_univ _))))
      isplitl; · iexact Hinv
      rw [bigSep_emp']; iempintro
    isplitl [Htok]; · iexact Htok
    isplitr
    · iapply (SparseCore.ent (bigSep_mono_frame (s := (Finset.univ : Finset (Fin (grid1.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub1 j)) (Finset.mem_univ _))))
      isplitl; · iexact Hr
      rw [bigSep_emp']; iempintro
    isplitl [Hat]; · iexact Hat
    iexact Hcred
  · iempintro

/-- Each subcore its kit. -/
theorem kits_deal :
    iprop(shared (F := F) Tab ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => if dci.2.1.val < 2 then cred (tallyAt (bcell₃ dci) (some 0) (grid1.bound 1)) else BI.emp))
      ⊢ (bigSep Finset.univ fun thr : Thread nD τ => bigSep Finset.univ fun q : Fin 1 => (P (F := F) Tab Idx).x q thr : sProp 𝕄) := by
  rw [SparseCore.Cfg.bigSep_threads (fun thr : Thread nD τ => bigSep Finset.univ fun q : Fin 1 => (P Tab Idx).x q thr)]
  simp only [Px_T, Px_S, Px_V, bigSep_emp']
  iintro ⟨#Hsh, Hat, Htok, Hcred⟩
  isplitr; · iempintro
  isplitr; · iempintro
  iapply (bigSep_mono_frame (R := shared (F := F) Tab) (Φ := mine (F := F)) fun dci _ => kit_intro (F := F) Tab dci)
  isplitr; · iexact Hsh
  unfold mine
  rw [bigSep_sep', bigSep_sep']
  isplitl [Hat]; · iexact Hat
  isplitl [Htok]; · iexact Htok
  iexact Hcred

/-! ## The TensorCore pipelines' staging cells -/

omit [FloatOps F] in
/-- Every device's start, regrouped: the staging cells' ghost state of every device and pipeline, and the tokens. -/
theorem G_all : (bigSep Finset.univ fun d : Dev nD => G (F := F) d)
    = iprop((bigSep Finset.univ fun c : Dev nD => bigSep Finset.univ fun p : Fin 2 => Pipeline.cellsGhost cfgs (EP (F := F)) p c)
        ∗ (bigSep Finset.univ fun c : Dev nD => bigSep Finset.univ fun p : Fin 2 => (Pipeline.toksInit cfgs (EP (F := F)) p c : sProp 𝕄))) := by
  unfold G
  simp only [bigSep_sep']

/-! ## The launch element -/

theorem hu₀ : iprop(ownU (u₀ (F := F)) ∗ (P (F := F) Tab Idx).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (P Tab Idx).x q thr) : sProp 𝕄) := by
  unfold u₀
  rw [G_all]
  iintro ⟨Hu, Hcred, Hfree⟩
  ihave H := (ownU_split _ _ _) $$ Hu
  icases H with ⟨HH, HB, HP⟩
  imod (Rounds.fund EB (bRd (F := F) Tab) bCells bToks) $$ HB with ⟨Hst, #Hr, Hat, Htok⟩
  imod (Pipeline.fund_ghost (nD := nD) (τ := τ) cfgs (EP (F := F)) cellOf_inj) $$ HP with ⟨Hg, Ht⟩
  ihave Hsems := (sems_b (F := F)) $$ Hfree
  imod (invs_b (F := F) Tab) $$ [Hsems Hst] with ⟨%κ, #Hinv⟩
  · isplitl [Hsems] <;> iassumption
  ihave Hcred' := (creds_b Tab Idx) $$ Hcred
  ihave Hinv' := (Entails.of_eq (bCells_eq (F := F) fun g => cellInv EB (bRd (F := F) Tab) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hg Ht]
  · isplitl [Hg]; · iexact Hg
    iexact Ht
  iapply (kits_deal Tab Idx)
  isplitr
  · isplitl; · iexists κ; iexact Hinv'
    iexact Hr'
  isplitl [Hat']; · iexact Hat'
  isplitl [Htok']; · iexact Htok'
  iexact Hcred'

end Cert.Kernel.Sc

end
-- ==== Proof.Bits.ScRun.lean ====
/-
  The program's run from the launch theorem: the vector-subcore kernel's obligation, the split of a SparseCore's
  operands among its subcores, the launch element of the ghost state, and — as hypotheses — @main on the TensorCore
  and how its final assertion reads the claim off the final memory.
-/
import proofs.«208327_g62569083568895_cont_9to1c4b_407_46_alg».proof.Proof.Bits.ScObl
import proofs.«208327_g62569083568895_cont_9to1c4b_407_46_alg».proof.Proof.Bits.ScSplit
import proofs.«208327_g62569083568895_cont_9to1c4b_407_46_alg».proof.Proof.Bits.ScElem

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

local notation "iV" => (Memref.whole Cert.Kernel.main_v2_scv : Memref Cert.Kernel.sig Kind.scVector Space.hbm Cert.Kernel.S1024x128 EltTy.i32)

variable [FloatOps F]

variable (m : (ℓ : Loc nD τ sig) → Buf (Elt F) ℓ) (ρ : Dev nD → PrngReg)
variable (FIN : Dev nD → sProp (MT nD τ sig (HIx 1) (Elt F) ℕ UU ℕ)) (fq : Dev nD → Phys nD τ sig (Elt F) → Prop) (Q : PUnit × MemSt nD τ sig (Elt F) → Prop)

theorem run_main [∀ e, Nonempty (Elt F e)]
    (hIdx : ∀ d x, ((iV).view.read (Elt F) (Idx d) x).toNat < 8192)
    (hmain : ∀ (κ : GSem nD τ sig → ℕ) (d : Dev nD),
      iprop((K (F := F)).ctx EH (P Tab Idx) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN d))
    (hfin : ∀ d s', iprop(FIN d ∗ SI s') ⊢ (⌜fq d s'⌝ : sProp 𝕄))
    (hQ : ∀ s' : Phys nD τ sig (Elt F), (∀ d, fq d s') → Q (⟨⟩, s'.mem)) :
    θ_run (Cert.Kernel.defs (F := F)) (Cert.Kernel.threads (F := F)) ⟨m, fun _ => 0, ρ⟩ Q :=
  SparseCore.Cfg.θ_run_sc (K := K (F := F)) (D := D (F := F)) (𝒱 := 𝒱) (EH := EH) (P := P Tab Idx) facts v₀
    (fun q hq => match q with | 0 => nomatch hq)
    (fun q _ => match q with | 0 => tileObl Tab Idx facts hIdx)
    (fun q _ => match q with | 0 => vecSplit Tab Idx)
    m ρ main (fun d => G (F := F) d) FIN (u₀ (F := F)) (hu₀ Tab Idx) hmain fq hfin Q hQ

end Cert.Kernel.Sc

end
-- ==== Proof.BodyBits.Common.lean ====
/-
  The TensorCore regions' kernel half, the part shared by both regions: the region invariant of a body that keeps
  nothing between points, at any index type, name type, user algebra and level type.
-/
import proofs.«208327_g62569083568895_cont_9to1c4b_407_46_alg».proof.Proof.Gen.Kernel.Launch
import proofs.«208327_g62569083568895_cont_9to1c4b_407_46_alg».proof.Proof.Gen.Kernel.Skeleton
import proofs.«208327_g62569083568895_cont_9to1c4b_407_46_alg».proof.Proof.Gen.Kernel.Points
import Idealize.ShloMosaic.Lib.Pipeline.FrameBody
import Idealize.ShloMosaic.Lib.Ring
import Idealize.ShloMosaic.Lib.Tactic

noncomputable section

namespace Cert.Kernel.Body

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
variable {Ix : Type} [DecidableEq Ix] {Name : Type} [DecidableEq Name] {U : Type} [URA U] {Lvl : Type}

/-- The invariant of a region whose body keeps nothing from point to point, on core `c`: the core's scoped buffers
    that are no staging buffer of the region, each whole at some contents, and its generator register at some
    state. The body neither reads nor describes either. -/
def ΦG {gr : Nat} {W : Nat} (win : Fin W → Pipeline.WinSpec sig gr) (c : Dev nD) : sProp (MT nD τ sig Ix (Elt F) Name U Lvl) :=
  iprop(Pipeline.scopedRest (Ix := Ix) (Name := Name) (U := U) (Lvl := Lvl) (Val := Elt F) win c ∗ ∃ r, prngReg c r)

end Cert.Kernel.Body

end
-- ==== Proof.BodyBits.R0Out.lean ====
/-
  Region 0 (the tables kernel, no grid: one point): the windows' blocks read off the region-entry contents, the
  rectangles the body loads and stores through, and what the body leaves in each of its three output windows'
  staging buffers as the canonical contents of its stores over the input blocks.
-/
import proofs.«208327_g62569083568895_cont_9to1c4b_407_46_alg».proof.Proof.BodyBits.Common

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

/-! ## The windows' blocks -/

section Blocks
-- the TensorCore's buffer contents when the region is entered
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Blocks

/-! ## The body's accesses -/

-- the weight window (512 rows): the row blocks at 0, 128 and 384
abbrev rW_0 : Rect S512x128 := Rect.unit (s := S512x128) ![0, 0] S128x128.size inb_S512x128_S128x128_0_0
abbrev rW_128 : Rect S512x128 := Rect.unit (s := S512x128) ![128, 0] S128x128.size inb_S512x128_S128x128_128_0
abbrev rW_384 : Rect S512x128 := Rect.unit (s := S512x128) ![384, 0] S128x128.size inb_S512x128_S128x128_384_0
-- a [2, 2048, 128] window: its two leading slabs
abbrev rN_0 : Rect S2x2048x128 := Rect.unit (s := S2x2048x128) ![0, 0, 0] S1x2048x128.size inb_S2x2048x128_S1x2048x128_0_0_0
abbrev rN_1 : Rect S2x2048x128 := Rect.unit (s := S2x2048x128) ![1, 0, 0] S1x2048x128.size inb_S2x2048x128_S1x2048x128_1_0_0
-- a [2, 2048, 32] window: its two leading slabs
abbrev rK_0 : Rect S2x2048x32 := Rect.unit (s := S2x2048x32) ![0, 0, 0] S1x2048x32.size inb_S2x2048x32_S1x2048x32_0_0_0
abbrev rK_1 : Rect S2x2048x32 := Rect.unit (s := S2x2048x32) ![1, 0, 0] S1x2048x32.size inb_S2x2048x32_S1x2048x32_1_0_0
-- the table window (8192 rows): its four row blocks of 2048
abbrev rT_0 : Rect S8192x128 := Rect.unit (s := S8192x128) ![0, 0] S2048x128.size inb_S8192x128_S2048x128_0_0
abbrev rT_2048 : Rect S8192x128 := Rect.unit (s := S8192x128) ![2048, 0] S2048x128.size inb_S8192x128_S2048x128_2048_0
abbrev rT_4096 : Rect S8192x128 := Rect.unit (s := S8192x128) ![4096, 0] S2048x128.size inb_S8192x128_S2048x128_4096_0
abbrev rT_6144 : Rect S8192x128 := Rect.unit (s := S8192x128) ![6144, 0] S2048x128.size inb_S8192x128_S2048x128_6144_0
-- the [4096, 128] window: its two row blocks of 2048
abbrev rA_0 : Rect S4096x128 := Rect.unit (s := S4096x128) ![0, 0] S2048x128.size inb_S4096x128_S2048x128_0_0
abbrev rA_2048 : Rect S4096x128 := Rect.unit (s := S4096x128) ![2048, 0] S2048x128.size inb_S4096x128_S2048x128_2048_0

/-! ## What the body leaves in each output window's buffer -/

/-- Window 6's staging buffer (the table, 8192 rows) after the body, from the blocks of windows 0, 1, 2 and 5: its
    four stores as pieces, LAST FIRST. -/
def out0_6 (x0 : Vec F S2x2048x128 .f32) (x1 : Vec F S2x2048x128 .f32) (x2 : Vec F S2x2048x128 .f32) (x5 : Vec F S512x128 .f32) :
    Vec F S8192x128 .f32 :=
  View.canon [⟨rT_6144, k0_pay12 (View.ld x5 rW_128) (View.ld x5 rW_384) (View.ld x0 rN_1) (View.ld x2 rN_1)⟩,
    ⟨rT_2048, k0_pay11 (View.ld x5 rW_128) (View.ld x1 rN_1)⟩,
    ⟨rT_4096, k0_pay4 (View.ld x5 rW_128) (View.ld x5 rW_384) (View.ld x0 rN_0) (View.ld x2 rN_0)⟩,
    ⟨rT_0, k0_pay3 (View.ld x5 rW_128) (View.ld x1 rN_0)⟩]

/-- Its stores tile the buffer (checked by evaluation), so they cover it. -/
theorem cover0_6 (p0 p1 p2 p3 : Vec F S2048x128 .f32) (y : S8192x128.Idx) :
    ∃ pc ∈ ([⟨rT_6144, p0⟩, ⟨rT_2048, p1⟩, ⟨rT_4096, p2⟩, ⟨rT_0, p3⟩] : List (View.Piece (Elt F) S8192x128 .f32)), y ∈ pc.1.set :=
  View.cover_of_tiled [⟨rT_6144, p0⟩, ⟨rT_2048, p1⟩, ⟨rT_4096, p2⟩, ⟨rT_0, p3⟩] S2048x128.size (by rfl) y

/-- Window 7's staging buffer (4096 rows) after the body, from the blocks of windows 0 and 5: its two stores as
    pieces, LAST FIRST. -/
def out0_7 (x0 : Vec F S2x2048x128 .f32) (x5 : Vec F S512x128 .f32) : Vec F S4096x128 .f32 :=
  View.canon [⟨rA_2048, k0_pay13 (View.ld x5 rW_0) (View.ld x0 rN_1)⟩,
    ⟨rA_0, k0_pay5 (View.ld x5 rW_0) (View.ld x0 rN_0)⟩]

/-- Its stores tile the buffer (checked by evaluation), so they cover it. -/
theorem cover0_7 (p0 p1 : Vec F S2048x128 .f32) (y : S4096x128.Idx) :
    ∃ pc ∈ ([⟨rA_2048, p0⟩, ⟨rA_0, p1⟩] : List (View.Piece (Elt F) S4096x128 .f32)), y ∈ pc.1.set :=
  View.cover_of_tiled [⟨rA_2048, p0⟩, ⟨rA_0, p1⟩] S2048x128.size (by rfl) y

/-- Window 8's staging buffer (the gather indices, [2, 2048, 32] words) after the body, from the blocks of windows 3
    and 4: its two stores as pieces, LAST FIRST. -/
def out0_8 (x3 : Vec F S2x2048x32 .i32) (x4 : Vec F S2x2048x32 .i32) : Vec F S2x2048x32 .i32 :=
  View.canon [⟨rK_1, k0_pay1 (k0_pay14 (View.ld x3 rK_1)) (k0_pay15 (View.ld x4 rK_1)) k0_pay16⟩,
    ⟨rK_0, k0_pay9 (k0_pay6 (View.ld x3 rK_0)) (k0_pay7 (View.ld x4 rK_0)) k0_pay8⟩]

/-- Its stores tile the buffer (checked by evaluation), so they cover it. -/
theorem cover0_8 (p0 p1 : Vec F S1x2048x32 .i32) (y : S2x2048x32.Idx) :
    ∃ pc ∈ ([⟨rK_1, p0⟩, ⟨rK_0, p1⟩] : List (View.Piece (Elt F) S2x2048x32 .i32)), y ∈ pc.1.set :=
  View.cover_of_tiled [⟨rK_1, p0⟩, ⟨rK_0, p1⟩] S1x2048x32.size (by rfl) y

end Cert.Kernel.Body

end
-- ==== Proof.BodyBits.R0Run.lean ====
/-
  Region 0: the body's triple. The kernel body on whole staging memrefs, the six inputs' at read contents and the
  three outputs' at anything, runs to the continuation holding the inputs' as they were and each output's at the
  canonical contents of its stores.
-/
import proofs.«208327_g62569083568895_cont_9to1c4b_407_46_alg».proof.Proof.BodyBits.R0Out

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

variable [Preorder Lvl]

local notation "𝕄" => MT nD τ sig Ix (Elt F) Name U Lvl

set_option maxHeartbeats 4000000 in
/-- The body's triple: the printed function and its two parts are their skeletons, run operation by operation; each
    output's buffer ends at its listed stores over what it held, which reads as their canonical contents because the
    stores cover the buffer. -/
theorem sound_kernel0 (c : Dev nD) (E : Set Name) (arg0 : Memref sig .tc .vmem S2x2048x128 .f32) (harg0 : arg0.IsWhole) (arg1 : Memref sig .tc .vmem S2x2048x128 .f32) (harg1 : arg1.IsWhole) (arg2 : Memref sig .tc .vmem S2x2048x128 .f32) (harg2 : arg2.IsWhole) (arg3 : Memref sig .tc .vmem S2x2048x32 .i32) (harg3 : arg3.IsWhole) (arg4 : Memref sig .tc .vmem S2x2048x32 .i32) (harg4 : arg4.IsWhole) (arg5 : Memref sig .tc .vmem S512x128 .f32) (harg5 : arg5.IsWhole) (arg6 : Memref sig .tc .vmem S8192x128 .f32) (harg6 : arg6.IsWhole) (arg7 : Memref sig .tc .vmem S4096x128 .f32) (harg7 : arg7.IsWhole) (arg8 : Memref sig .tc .vmem S2x2048x32 .i32) (harg8 : arg8.IsWhole)
    (x0 : Vec F S2x2048x128 .f32) (x1 : Vec F S2x2048x128 .f32) (x2 : Vec F S2x2048x128 .f32) (x3 : Vec F S2x2048x32 .i32) (x4 : Vec F S2x2048x32 .i32) (x5 : Vec F S512x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x5) ∗ owns (c : Thread nD τ) arg7 fullShare (out0_7 x0 x5) ∗ owns (c : Thread nD τ) arg8 fullShare (out0_8 x3 x4)) -∗ K ⟨⟩))
      ⊢ wp frame (wpE (defs₀ (F := F)) Variants.none c none) E (cc0__tables_body arg0 harg0 arg1 harg1 arg2 harg2 arg3 harg3 arg4 harg4 arg5 harg5 arg6 harg6 arg7 harg7 arg8 harg8) K := by
  simp only [cc0__tables_body_eq_skeleton]; unfold cc0__tables_body_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _ _ _ _)
  isplitl [H7]
  · iexists _; isplitr
    swap; · iexact H7
    ipureintro
    exact View.read_writes_eq_canon _ _ _ (cover0_7 _ _)
  iexists _; isplitr
  swap; · iexact H8
  ipureintro
  exact View.read_writes_eq_canon _ _ _ (cover0_8 _ _)

end Cert.Kernel.Body

end
-- ==== Proof.BodyBits.R0.lean ====
/-
  Region 0: the pipeline's proof data at the region-entry contents, what each window's staging buffer holds before
  and after the body, and the body obligation at every point, for any index the core's debts are recorded at.
-/
import proofs.«208327_g62569083568895_cont_9to1c4b_407_46_alg».proof.Proof.BodyBits.R0Run

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

variable [Preorder Lvl]

local notation "𝕄" => MT nD τ sig Ix (Elt F) Name U Lvl

-- the TensorCore's buffer contents when the region is entered
variable (V : (c : Dev nD) → (b : Ref sig .tc) → Buf (Elt F) ((c : Thread nD τ).loc b))

/-! ## Each input window's buffer holds its block, fetched there or not -/

/-- Input window 0's current staging buffer holds its block at every point, for ANY proof data whose array is the
    region-entry contents' (`hA`) and whose body leaves the block in place (`hafter`): the window is uncut and never idle. -/
theorem before0_0_of {c : Dev nD} (dat : Dat τ (Elt F) Ix Name U Lvl cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for ANY proof data whose array is the
    region-entry contents' (`hA`) and whose body leaves the block in place (`hafter`): the window is uncut and never idle. -/
theorem before0_1_of {c : Dev nD} (dat : Dat τ (Elt F) Ix Name U Lvl cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for ANY proof data whose array is the
    region-entry contents' (`hA`) and whose body leaves the block in place (`hafter`): the window is uncut and never idle. -/
theorem before0_2_of {c : Dev nD} (dat : Dat τ (Elt F) Ix Name U Lvl cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, for ANY proof data whose array is the
    region-entry contents' (`hA`) and whose body leaves the block in place (`hafter`): the window is uncut and never idle. -/
theorem before0_3_of {c : Dev nD} (dat : Dat τ (Elt F) Ix Name U Lvl cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, for ANY proof data whose array is the
    region-entry contents' (`hA`) and whose body leaves the block in place (`hafter`): the window is uncut and never idle. -/
theorem before0_4_of {c : Dev nD} (dat : Dat τ (Elt F) Ix Name U Lvl cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, for ANY proof data whose array is the
    region-entry contents' (`hA`) and whose body leaves the block in place (`hafter`): the window is uncut and never idle. -/
theorem before0_5_of {c : Dev nD} (dat : Dat τ (Elt F) Ix Name U Lvl cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

-- what the core owes across the region (units it will pay after it)
variable (O : CellTallies nD τ sig Ix)
-- a bound on the pairs the core's waits have recorded when the region is entered
variable (B : Set (SemLoc sig × Ix))

/-- The proof data of pipeline 0 on core `c`: the arrays as the region finds them (`V`); after the body at point `t`
    each input's buffer at its block and each output's at the canonical contents of its stores over the input blocks;
    the invariant the scoped rest and the generator register, untouched; the core owing the tallies `O` at every point (the body neither pays nor takes on any), its recorded pairs within `B`; full shares. -/
def dat0 (c : Dev nD) : Dat τ (Elt F) Ix Name U Lvl cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 5 t)
    | ⟨7, _⟩ => out0_7 (iblk0 V c 0 t) (iblk0 V c 5 t)
    | ⟨8, _⟩ => out0_8 (iblk0 V c 3 t) (iblk0 V c 4 t)
  Φ _ := ΦG spec0 c
  q _ := fullShare
  owed _ := O
  recorded _ := B

/-- The proof data's arrays are the region-entry contents. -/
theorem A_eq0 (c : Dev nD) (w : Fin cfg0.W) : (dat0 (Ix := Ix) (Name := Name) (U := U) (Lvl := Lvl) V O B c).A w = V c (Pipeline.arrRef spec0 w) := by
  dsimp only [dat0]

/-- The proof data owes the tallies `O` at every point. -/
theorem owed_eq0 (c : Dev nD) (t : Fin (cfg0.N + 1)) : (dat0 (Ix := Ix) (Name := Name) (U := U) (Lvl := Lvl) V O B c).owed t = O := by
  dsimp only [dat0]

/-- Its bound on the recorded pairs at every point. -/
theorem recorded_eq0 (c : Dev nD) (t : Fin (cfg0.N + 1)) : (dat0 (Ix := Ix) (Name := Name) (U := U) (Lvl := Lvl) V O B c).recorded t = B := by
  dsimp only [dat0]

/-- Its invariant at every point. -/
theorem Φ_eq0 (c : Dev nD) (t : Fin (cfg0.N + 1)) : (dat0 (Ix := Ix) (Name := Name) (U := U) (Lvl := Lvl) V O B c).Φ t = ΦG spec0 c := by
  dsimp only [dat0]

/-- What the body leaves, window by window. -/
theorem after0_0 (c : Dev nD) (t : Fin cfg0.N) : (dat0 (Ix := Ix) (Name := Name) (U := U) (Lvl := Lvl) V O B c).after 0 t = iblk0 V c 0 t := by dsimp only [dat0]
theorem after0_1 (c : Dev nD) (t : Fin cfg0.N) : (dat0 (Ix := Ix) (Name := Name) (U := U) (Lvl := Lvl) V O B c).after 1 t = iblk0 V c 1 t := by dsimp only [dat0]
theorem after0_2 (c : Dev nD) (t : Fin cfg0.N) : (dat0 (Ix := Ix) (Name := Name) (U := U) (Lvl := Lvl) V O B c).after 2 t = iblk0 V c 2 t := by dsimp only [dat0]
theorem after0_3 (c : Dev nD) (t : Fin cfg0.N) : (dat0 (Ix := Ix) (Name := Name) (U := U) (Lvl := Lvl) V O B c).after 3 t = iblk0 V c 3 t := by dsimp only [dat0]
theorem after0_4 (c : Dev nD) (t : Fin cfg0.N) : (dat0 (Ix := Ix) (Name := Name) (U := U) (Lvl := Lvl) V O B c).after 4 t = iblk0 V c 4 t := by dsimp only [dat0]
theorem after0_5 (c : Dev nD) (t : Fin cfg0.N) : (dat0 (Ix := Ix) (Name := Name) (U := U) (Lvl := Lvl) V O B c).after 5 t = iblk0 V c 5 t := by dsimp only [dat0]
theorem after0_6 (c : Dev nD) (t : Fin cfg0.N) : (dat0 (Ix := Ix) (Name := Name) (U := U) (Lvl := Lvl) V O B c).after 6 t = out0_6 (iblk0 V c 0 t) (iblk0 V c 1 t) (iblk0 V c 2 t) (iblk0 V c 5 t) := by dsimp only [dat0]
theorem after0_7 (c : Dev nD) (t : Fin cfg0.N) : (dat0 (Ix := Ix) (Name := Name) (U := U) (Lvl := Lvl) V O B c).after 7 t = out0_7 (iblk0 V c 0 t) (iblk0 V c 5 t) := by dsimp only [dat0]
theorem after0_8 (c : Dev nD) (t : Fin cfg0.N) : (dat0 (Ix := Ix) (Name := Name) (U := U) (Lvl := Lvl) V O B c).after 8 t = out0_8 (iblk0 V c 3 t) (iblk0 V c 4 t) := by dsimp only [dat0]

/-- Each input's current staging buffer holds its block at every point, fetched there or not. -/
theorem before0_0 (c : Dev nD) (t : Fin cfg0.N) (d) : (dat0 (Ix := Ix) (Name := Name) (U := U) (Lvl := Lvl) V O B c).before 0 t d = iblk0 V c 0 t :=
  before0_0_of V (dat0 V O B c) (A_eq0 V O B c 0) (after0_0 V O B c) t d
theorem before0_1 (c : Dev nD) (t : Fin cfg0.N) (d) : (dat0 (Ix := Ix) (Name := Name) (U := U) (Lvl := Lvl) V O B c).before 1 t d = iblk0 V c 1 t :=
  before0_1_of V (dat0 V O B c) (A_eq0 V O B c 1) (after0_1 V O B c) t d
theorem before0_2 (c : Dev nD) (t : Fin cfg0.N) (d) : (dat0 (Ix := Ix) (Name := Name) (U := U) (Lvl := Lvl) V O B c).before 2 t d = iblk0 V c 2 t :=
  before0_2_of V (dat0 V O B c) (A_eq0 V O B c 2) (after0_2 V O B c) t d
theorem before0_3 (c : Dev nD) (t : Fin cfg0.N) (d) : (dat0 (Ix := Ix) (Name := Name) (U := U) (Lvl := Lvl) V O B c).before 3 t d = iblk0 V c 3 t :=
  before0_3_of V (dat0 V O B c) (A_eq0 V O B c 3) (after0_3 V O B c) t d
theorem before0_4 (c : Dev nD) (t : Fin cfg0.N) (d) : (dat0 (Ix := Ix) (Name := Name) (U := U) (Lvl := Lvl) V O B c).before 4 t d = iblk0 V c 4 t :=
  before0_4_of V (dat0 V O B c) (A_eq0 V O B c 4) (after0_4 V O B c) t d
theorem before0_5 (c : Dev nD) (t : Fin cfg0.N) (d) : (dat0 (Ix := Ix) (Name := Name) (U := U) (Lvl := Lvl) V O B c).before 5 t d = iblk0 V c 5 t :=
  before0_5_of V (dat0 V O B c) (A_eq0 V O B c 5) (after0_5 V O B c) t d

/-! ## The body obligation, at a generic point -/

/-- What the body is called with at point `t` (the obligation's precondition, the windows one by one), -/
def bodyPre0 (ι : Ix) (c : Dev nD) (t : Fin cfg0.N) : sProp 𝕄 :=
  iprop((dat0 (Ix := Ix) (Name := Name) (U := U) (Lvl := Lvl) V O B c).Φ t.castSucc ∗ (dat0 (Ix := Ix) (Name := Name) (U := U) (Lvl := Lvl) V O B c).owesAt ι t.castSucc
    ∗ (∃ d, owns (c : Thread nD τ) (st0_0 t) fullShare ((dat0 (Ix := Ix) (Name := Name) (U := U) (Lvl := Lvl) V O B c).before 0 t d))
    ∗ (∃ d, owns (c : Thread nD τ) (st0_1 t) fullShare ((dat0 (Ix := Ix) (Name := Name) (U := U) (Lvl := Lvl) V O B c).before 1 t d))
    ∗ (∃ d, owns (c : Thread nD τ) (st0_2 t) fullShare ((dat0 (Ix := Ix) (Name := Name) (U := U) (Lvl := Lvl) V O B c).before 2 t d))
    ∗ (∃ d, owns (c : Thread nD τ) (st0_3 t) fullShare ((dat0 (Ix := Ix) (Name := Name) (U := U) (Lvl := Lvl) V O B c).before 3 t d))
    ∗ (∃ d, owns (c : Thread nD τ) (st0_4 t) fullShare ((dat0 (Ix := Ix) (Name := Name) (U := U) (Lvl := Lvl) V O B c).before 4 t d))
    ∗ (∃ d, owns (c : Thread nD τ) (st0_5 t) fullShare ((dat0 (Ix := Ix) (Name := Name) (U := U) (Lvl := Lvl) V O B c).before 5 t d))
    ∗ (∃ d, owns (c : Thread nD τ) (st0_6 t) fullShare ((dat0 (Ix := Ix) (Name := Name) (U := U) (Lvl := Lvl) V O B c).before 6 t d))
    ∗ (∃ d, owns (c : Thread nD τ) (st0_7 t) fullShare ((dat0 (Ix := Ix) (Name := Name) (U := U) (Lvl := Lvl) V O B c).before 7 t d))
    ∗ (∃ d, owns (c : Thread nD τ) (st0_8 t) fullShare ((dat0 (Ix := Ix) (Name := Name) (U := U) (Lvl := Lvl) V O B c).before 8 t d)))

/-- and what it returns. -/
def bodyPost0 (ι : Ix) (c : Dev nD) (t : Fin cfg0.N) : sProp 𝕄 :=
  iprop((dat0 (Ix := Ix) (Name := Name) (U := U) (Lvl := Lvl) V O B c).Φ t.succ ∗ (dat0 (Ix := Ix) (Name := Name) (U := U) (Lvl := Lvl) V O B c).owesAt ι t.succ
    ∗ owns (c : Thread nD τ) (st0_0 t) fullShare ((dat0 (Ix := Ix) (Name := Name) (U := U) (Lvl := Lvl) V O B c).after 0 t)
    ∗ owns (c : Thread nD τ) (st0_1 t) fullShare ((dat0 (Ix := Ix) (Name := Name) (U := U) (Lvl := Lvl) V O B c).after 1 t)
    ∗ owns (c : Thread nD τ) (st0_2 t) fullShare ((dat0 (Ix := Ix) (Name := Name) (U := U) (Lvl := Lvl) V O B c).after 2 t)
    ∗ owns (c : Thread nD τ) (st0_3 t) fullShare ((dat0 (Ix := Ix) (Name := Name) (U := U) (Lvl := Lvl) V O B c).after 3 t)
    ∗ owns (c : Thread nD τ) (st0_4 t) fullShare ((dat0 (Ix := Ix) (Name := Name) (U := U) (Lvl := Lvl) V O B c).after 4 t)
    ∗ owns (c : Thread nD τ) (st0_5 t) fullShare ((dat0 (Ix := Ix) (Name := Name) (U := U) (Lvl := Lvl) V O B c).after 5 t)
    ∗ owns (c : Thread nD τ) (st0_6 t) fullShare ((dat0 (Ix := Ix) (Name := Name) (U := U) (Lvl := Lvl) V O B c).after 6 t)
    ∗ owns (c : Thread nD τ) (st0_7 t) fullShare ((dat0 (Ix := Ix) (Name := Name) (U := U) (Lvl := Lvl) V O B c).after 7 t)
    ∗ owns (c : Thread nD τ) (st0_8 t) fullShare ((dat0 (Ix := Ix) (Name := Name) (U := U) (Lvl := Lvl) V O B c).after 8 t))

set_option maxHeartbeats 1000000 in
/-- The body at any point: the inputs' memrefs hold their blocks, so the body's triple applies; the invariant and the
    core's debts pass through unread. -/
theorem sound_body0 (ι : Ix) (c : Dev nD) (t : Fin cfg0.N) :
    bodyPre0 (Name := Name) (U := U) (Lvl := Lvl) V O B ι c t ⊢ wp frame (wpE (defs₀ (F := F)) Variants.none c none) Set.univ (bodyAt0 t) (fun _ => bodyPost0 (Name := Name) (U := U) (Lvl := Lvl) V O B ι c t) := by
  unfold bodyPre0 bodyPost0 bodyAt0
  simp only [before0_0, before0_1, before0_2, before0_3, before0_4, before0_5]
  rw [show (dat0 (Ix := Ix) (Name := Name) (U := U) (Lvl := Lvl) V O B c).Φ t.succ = (dat0 (Ix := Ix) (Name := Name) (U := U) (Lvl := Lvl) V O B c).Φ t.castSucc from rfl,
    show (dat0 (Ix := Ix) (Name := Name) (U := U) (Lvl := Lvl) V O B c).owesAt ι t.succ = (dat0 (Ix := Ix) (Name := Name) (U := U) (Lvl := Lvl) V O B c).owesAt ι t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation0 (ι : Ix) (c : Dev nD) :
    BodyObligation (dat0 (F := F) (Ix := Ix) (Name := Name) (U := U) (Lvl := Lvl) V O B c) (defs₀ (F := F)) Variants.none ι Set.univ := fun t => by
  rw [bigSep_W0, bigSep_W0]
  exact sound_body0 V O B ι c t

/-- The same in the form a region segment takes: no window of the region is cut, so the two forms agree. -/
theorem body_obligation0_loose (ι : Ix) (c : Dev nD) :
    BodyObligationLoose (dat0 (F := F) (Ix := Ix) (Name := Name) (U := U) (Lvl := Lvl) V O B c) (defs₀ (F := F)) Variants.none ι Set.univ :=
  (body_obligation0 V O B ι c).loose

end Cert.Kernel.Body

end
-- ==== Proof.BodyBits.R2Out.lean ====
/-
  Region 2 (the main kernel, a grid of 16 points): the windows' blocks read off the region-entry contents, the
  rectangles the body loads and stores through (each the whole of its window's buffer), and what the body leaves in
  its output window's staging buffer as the canonical contents of its one store over the input blocks.
-/
import proofs.«208327_g62569083568895_cont_9to1c4b_407_46_alg».proof.Proof.BodyBits.Common

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

/-! ## The windows' blocks -/

section Blocks
-- the TensorCore's buffer contents when the region is entered
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Blocks

/-! ## The body's accesses: every load and the store take the whole of a staging buffer -/

abbrev rF_8192x128 : Rect S8192x128 := Rect.unit (s := S8192x128) ![0, 0] S8192x128.size inb_S8192x128_S8192x128_0_0
abbrev rF_256x128 : Rect S256x128 := Rect.unit (s := S256x128) ![0, 0] S256x128.size inb_S256x128_S256x128_0_0
abbrev rF_256x32 : Rect S256x32 := Rect.unit (s := S256x32) ![0, 0] S256x32.size inb_S256x32_S256x32_0_0
abbrev rF_128x128 : Rect S128x128 := Rect.unit (s := S128x128) ![0, 0] S128x128.size inb_S128x128_S128x128_0_0
abbrev rF_1x128 : Rect S1x128 := Rect.unit (s := S1x128) ![0, 0] S1x128.size inb_S1x128_S1x128_0_0
abbrev rF_128x512 : Rect S128x512 := Rect.unit (s := S128x512) ![0, 0] S128x512.size inb_S128x512_S128x512_0_0
abbrev rF_1x512 : Rect S1x512 := Rect.unit (s := S1x512) ![0, 0] S1x512.size inb_S1x512_S1x512_0_0
abbrev rF_512x128 : Rect S512x128 := Rect.unit (s := S512x128) ![0, 0] S512x128.size inb_S512x128_S512x128_0_0

/-! ## What the body leaves in the output window's buffer -/

/-- Window 19's staging buffer after the body, from the blocks of the nineteen input windows: its one store as a
    piece, the payload written out over the loads (each load the whole of its window's block). -/
def out2_19 (x0 : Vec F S8192x128 .f32) (x1 : Vec F S8192x128 .f32) (x2 : Vec F S256x128 .f32) (x3 : Vec F S256x128 .f32) (x4 : Vec F S256x32 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x512 .f32) (x12 : Vec F S1x512 .f32) (x13 : Vec F S512x128 .f32) (x14 : Vec F S1x128 .f32) (x15 : Vec F S1x128 .f32) (x16 : Vec F S1x128 .f32) (x17 : Vec F S1x128 .f32) (x18 : Vec F S1x128 .f32) : Vec F S256x128 .f32 :=
  View.canon [⟨rF_256x128, k2_pay1 (k2_pay9 (k2_pay5 (View.ld x15 rF_1x128)) (k2_pay6 (View.ld x16 rF_1x128)) (k2_pay7 (k2_pay2 (View.ld x0 rF_8192x128) (View.ld x5 rF_128x128) (View.ld x1 rF_8192x128) (View.ld x2 rF_256x128) (View.ld x6 rF_1x128) (View.ld x7 rF_128x128) (View.ld x8 rF_1x128)) (k2_pay3 (View.ld x0 rF_8192x128) (View.ld x5 rF_128x128) (View.ld x1 rF_8192x128) (View.ld x2 rF_256x128) (View.ld x6 rF_1x128) (View.ld x7 rF_128x128) (View.ld x8 rF_1x128)) (k2_pay4 (F := F)) (View.ld x9 rF_128x128) (View.ld x10 rF_1x128) (View.ld x4 rF_256x32) (View.ld x3 rF_256x128)) (k2_pay8 (k2_pay2 (View.ld x0 rF_8192x128) (View.ld x5 rF_128x128) (View.ld x1 rF_8192x128) (View.ld x2 rF_256x128) (View.ld x6 rF_1x128) (View.ld x7 rF_128x128) (View.ld x8 rF_1x128)) (k2_pay3 (View.ld x0 rF_8192x128) (View.ld x5 rF_128x128) (View.ld x1 rF_8192x128) (View.ld x2 rF_256x128) (View.ld x6 rF_1x128) (View.ld x7 rF_128x128) (View.ld x8 rF_1x128)) (k2_pay4 (F := F)) (View.ld x9 rF_128x128) (View.ld x10 rF_1x128) (View.ld x4 rF_256x32) (View.ld x3 rF_256x128)) (View.ld x11 rF_128x512) (View.ld x12 rF_1x512) (View.ld x13 rF_512x128) (View.ld x14 rF_1x128)) (k2_pay10 (View.ld x17 rF_1x128)) (k2_pay11 (View.ld x18 rF_1x128)) (k2_pay12 (k2_pay5 (View.ld x15 rF_1x128)) (k2_pay6 (View.ld x16 rF_1x128)) (k2_pay7 (k2_pay2 (View.ld x0 rF_8192x128) (View.ld x5 rF_128x128) (View.ld x1 rF_8192x128) (View.ld x2 rF_256x128) (View.ld x6 rF_1x128) (View.ld x7 rF_128x128) (View.ld x8 rF_1x128)) (k2_pay3 (View.ld x0 rF_8192x128) (View.ld x5 rF_128x128) (View.ld x1 rF_8192x128) (View.ld x2 rF_256x128) (View.ld x6 rF_1x128) (View.ld x7 rF_128x128) (View.ld x8 rF_1x128)) (k2_pay4 (F := F)) (View.ld x9 rF_128x128) (View.ld x10 rF_1x128) (View.ld x4 rF_256x32) (View.ld x3 rF_256x128)) (k2_pay8 (k2_pay2 (View.ld x0 rF_8192x128) (View.ld x5 rF_128x128) (View.ld x1 rF_8192x128) (View.ld x2 rF_256x128) (View.ld x6 rF_1x128) (View.ld x7 rF_128x128) (View.ld x8 rF_1x128)) (k2_pay3 (View.ld x0 rF_8192x128) (View.ld x5 rF_128x128) (View.ld x1 rF_8192x128) (View.ld x2 rF_256x128) (View.ld x6 rF_1x128) (View.ld x7 rF_128x128) (View.ld x8 rF_1x128)) (k2_pay4 (F := F)) (View.ld x9 rF_128x128) (View.ld x10 rF_1x128) (View.ld x4 rF_256x32) (View.ld x3 rF_256x128)) (View.ld x11 rF_128x512) (View.ld x12 rF_1x512) (View.ld x13 rF_512x128) (View.ld x14 rF_1x128))⟩]

/-- Its store is the whole buffer (checked by evaluation), so it covers it. -/
theorem cover2_19 (p0 : Vec F S256x128 .f32) (y : S256x128.Idx) :
    ∃ pc ∈ ([⟨rF_256x128, p0⟩] : List (View.Piece (Elt F) S256x128 .f32)), y ∈ pc.1.set :=
  View.cover_of_tiled [⟨rF_256x128, p0⟩] S256x128.size (by rfl) y

end Cert.Kernel.Body

end
-- ==== Proof.BodyBits.R2Run.lean ====
/-
  Region 2: the body's triple. The kernel body on whole staging memrefs, the nineteen inputs' at read contents and
  the output's at anything, runs to the continuation holding the inputs' as they were and the output's at the
  canonical contents of its store.
-/
import proofs.«208327_g62569083568895_cont_9to1c4b_407_46_alg».proof.Proof.BodyBits.R2Out

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

variable [Preorder Lvl]

local notation "𝕄" => MT nD τ sig Ix (Elt F) Name U Lvl

set_option maxHeartbeats 4000000 in
/-- The body's triple, at any grid coordinates: the printed function and its three parts are their skeletons, run
    operation by operation; the output's buffer ends at its one store over what it held, which reads as the store's
    canonical contents because the store covers the buffer. -/
theorem sound_kernel2 (c : Dev nD) (E : Set Name) (i : grid2.Coords) (arg1 : Memref sig .tc .vmem S8192x128 .f32) (harg1 : arg1.IsWhole) (arg2 : Memref sig .tc .vmem S8192x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x32 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x512 .f32) (harg12 : arg12.IsWhole) (arg13 : Memref sig .tc .vmem S1x512 .f32) (harg13 : arg13.IsWhole) (arg14 : Memref sig .tc .vmem S512x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S256x128 .f32) (harg20 : arg20.IsWhole)
    (x0 : Vec F S8192x128 .f32) (x1 : Vec F S8192x128 .f32) (x2 : Vec F S256x128 .f32) (x3 : Vec F S256x128 .f32) (x4 : Vec F S256x32 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x512 .f32) (x12 : Vec F S1x512 .f32) (x13 : Vec F S512x128 .f32) (x14 : Vec F S1x128 .f32) (x15 : Vec F S1x128 .f32) (x16 : Vec F S1x128 .f32) (x17 : Vec F S1x128 .f32) (x18 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out2_19 x0 x1 x2 x3 x4 x5 x6 x7 x8 x9 x10 x11 x12 x13 x14 x15 x16 x17 x18)) -∗ K ⟨⟩))
      ⊢ wp frame (wpE (defs₀ (F := F)) Variants.none c none) E (cc2__main_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc2__main_body_eq_skeleton]; unfold cc2__main_body_skel
  simp only [k2_part1_eq_skeleton]; unfold k2_part1_skel
  simp only [k2_part2_eq_skeleton]; unfold k2_part2_skel
  simp only [k2_part3_eq_skeleton]; unfold k2_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  iexists _; isplitr
  swap; · iexact H19
  ipureintro
  exact View.read_writes_eq_canon _ _ _ (cover2_19 _)

end Cert.Kernel.Body

end
-- ==== Proof.BodyBits.R2.lean ====
/-
  Region 2: the pipeline's proof data at the region-entry contents, what each window's staging buffer holds before
  and after the body, and the body obligation at every point of the grid, for any index the core's debts are
  recorded at.
-/
import proofs.«208327_g62569083568895_cont_9to1c4b_407_46_alg».proof.Proof.BodyBits.R2Run

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

variable [Preorder Lvl]

local notation "𝕄" => MT nD τ sig Ix (Elt F) Name U Lvl

-- the TensorCore's buffer contents when the region is entered
variable (V : (c : Dev nD) → (b : Ref sig .tc) → Buf (Elt F) ((c : Thread nD τ).loc b))

/-! ## Each input window's buffer holds its block, fetched there or not -/

/-- Input window 0's current staging buffer holds its block at every point, for ANY proof data whose array is the
    region-entry contents' (`hA`) and whose body leaves the block in place (`hafter`): where the window is not fetched
    its block index has not moved; the window is uncut and never idle. -/
theorem before2_0_of {c : Dev nD} (dat : Dat τ (Elt F) Ix Name U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, for ANY proof data whose array is the
    region-entry contents' (`hA`) and whose body leaves the block in place (`hafter`): where the window is not fetched
    its block index has not moved; the window is uncut and never idle. -/
theorem before2_1_of {c : Dev nD} (dat : Dat τ (Elt F) Ix Name U Lvl cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, for ANY proof data whose array is the
    region-entry contents' (`hA`) and whose body leaves the block in place (`hafter`): where the window is not fetched
    its block index has not moved; the window is uncut and never idle. -/
theorem before2_2_of {c : Dev nD} (dat : Dat τ (Elt F) Ix Name U Lvl cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, for ANY proof data whose array is the
    region-entry contents' (`hA`) and whose body leaves the block in place (`hafter`): where the window is not fetched
    its block index has not moved; the window is uncut and never idle. -/
theorem before2_3_of {c : Dev nD} (dat : Dat τ (Elt F) Ix Name U Lvl cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, for ANY proof data whose array is the
    region-entry contents' (`hA`) and whose body leaves the block in place (`hafter`): where the window is not fetched
    its block index has not moved; the window is uncut and never idle. -/
theorem before2_4_of {c : Dev nD} (dat : Dat τ (Elt F) Ix Name U Lvl cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, for ANY proof data whose array is the
    region-entry contents' (`hA`) and whose body leaves the block in place (`hafter`): where the window is not fetched
    its block index has not moved; the window is uncut and never idle. -/
theorem before2_5_of {c : Dev nD} (dat : Dat τ (Elt F) Ix Name U Lvl cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, for ANY proof data whose array is the
    region-entry contents' (`hA`) and whose body leaves the block in place (`hafter`): where the window is not fetched
    its block index has not moved; the window is uncut and never idle. -/
theorem before2_6_of {c : Dev nD} (dat : Dat τ (Elt F) Ix Name U Lvl cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, for ANY proof data whose array is the
    region-entry contents' (`hA`) and whose body leaves the block in place (`hafter`): where the window is not fetched
    its block index has not moved; the window is uncut and never idle. -/
theorem before2_7_of {c : Dev nD} (dat : Dat τ (Elt F) Ix Name U Lvl cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, for ANY proof data whose array is the
    region-entry contents' (`hA`) and whose body leaves the block in place (`hafter`): where the window is not fetched
    its block index has not moved; the window is uncut and never idle. -/
theorem before2_8_of {c : Dev nD} (dat : Dat τ (Elt F) Ix Name U Lvl cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, for ANY proof data whose array is the
    region-entry contents' (`hA`) and whose body leaves the block in place (`hafter`): where the window is not fetched
    its block index has not moved; the window is uncut and never idle. -/
theorem before2_9_of {c : Dev nD} (dat : Dat τ (Elt F) Ix Name U Lvl cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's current staging buffer holds its block at every point, for ANY proof data whose array is the
    region-entry contents' (`hA`) and whose body leaves the block in place (`hafter`): where the window is not fetched
    its block index has not moved; the window is uncut and never idle. -/
theorem before2_10_of {c : Dev nD} (dat : Dat τ (Elt F) Ix Name U Lvl cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's current staging buffer holds its block at every point, for ANY proof data whose array is the
    region-entry contents' (`hA`) and whose body leaves the block in place (`hafter`): where the window is not fetched
    its block index has not moved; the window is uncut and never idle. -/
theorem before2_11_of {c : Dev nD} (dat : Dat τ (Elt F) Ix Name U Lvl cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- Input window 12's current staging buffer holds its block at every point, for ANY proof data whose array is the
    region-entry contents' (`hA`) and whose body leaves the block in place (`hafter`): where the window is not fetched
    its block index has not moved; the window is uncut and never idle. -/
theorem before2_12_of {c : Dev nD} (dat : Dat τ (Elt F) Ix Name U Lvl cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-- Input window 13's current staging buffer holds its block at every point, for ANY proof data whose array is the
    region-entry contents' (`hA`) and whose body leaves the block in place (`hafter`): where the window is not fetched
    its block index has not moved; the window is uncut and never idle. -/
theorem before2_13_of {c : Dev nD} (dat : Dat τ (Elt F) Ix Name U Lvl cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

/-- Input window 14's current staging buffer holds its block at every point, for ANY proof data whose array is the
    region-entry contents' (`hA`) and whose body leaves the block in place (`hafter`): where the window is not fetched
    its block index has not moved; the window is uncut and never idle. -/
theorem before2_14_of {c : Dev nD} (dat : Dat τ (Elt F) Ix Name U Lvl cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)

/-- Input window 15's current staging buffer holds its block at every point, for ANY proof data whose array is the
    region-entry contents' (`hA`) and whose body leaves the block in place (`hafter`): where the window is not fetched
    its block index has not moved; the window is uncut and never idle. -/
theorem before2_15_of {c : Dev nD} (dat : Dat τ (Elt F) Ix Name U Lvl cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)

/-- Input window 16's current staging buffer holds its block at every point, for ANY proof data whose array is the
    region-entry contents' (`hA`) and whose body leaves the block in place (`hafter`): where the window is not fetched
    its block index has not moved; the window is uncut and never idle. -/
theorem before2_16_of {c : Dev nD} (dat : Dat τ (Elt F) Ix Name U Lvl cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)

/-- Input window 17's current staging buffer holds its block at every point, for ANY proof data whose array is the
    region-entry contents' (`hA`) and whose body leaves the block in place (`hafter`): where the window is not fetched
    its block index has not moved; the window is uncut and never idle. -/
theorem before2_17_of {c : Dev nD} (dat : Dat τ (Elt F) Ix Name U Lvl cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)

/-- Input window 18's current staging buffer holds its block at every point, for ANY proof data whose array is the
    region-entry contents' (`hA`) and whose body leaves the block in place (`hafter`): where the window is not fetched
    its block index has not moved; the window is uncut and never idle. -/
theorem before2_18_of {c : Dev nD} (dat : Dat τ (Elt F) Ix Name U Lvl cfg2 c) (hA : dat.A 18 = V c (Pipeline.arrRef spec2 18))
    (hafter : ∀ t, dat.after 18 t = iblk2 V c 18 t) (t : Fin cfg2.N) (d) : dat.before 18 t d = iblk2 V c 18 t :=
  (dat.before_in_eq_fetched 18 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

-- what the core owes across the region (units it will pay after it)
variable (O : CellTallies nD τ sig Ix)
-- a bound on the pairs the core's waits have recorded when the region is entered
variable (B : Set (SemLoc sig × Ix))

/-- The proof data of pipeline 1 (the third custom call) on core `c`: the arrays as the region finds them (`V`); after
    the body at point `t` each input's buffer at its block and the output's at the canonical contents of its store over
    the input blocks; the invariant the scoped rest and the generator register, untouched; the core owing the tallies `O` at every point (the body neither pays nor takes on any), its recorded pairs within `B`; full shares. -/
def dat2 (c : Dev nD) : Dat τ (Elt F) Ix Name U Lvl cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => out2_19 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t)
    | ⟨_ + 20, h⟩ => absurd h (Nat.not_lt.2 (Nat.le_add_left _ _))
  Φ _ := ΦG spec2 c
  q _ := fullShare
  owed _ := O
  recorded _ := B

/-- The proof data's arrays are the region-entry contents. -/
theorem A_eq2 (c : Dev nD) (w : Fin cfg2.W) : (dat2 (Ix := Ix) (Name := Name) (U := U) (Lvl := Lvl) V O B c).A w = V c (Pipeline.arrRef spec2 w) := by
  dsimp only [dat2]

/-- The proof data owes the tallies `O` at every point. -/
theorem owed_eq2 (c : Dev nD) (t : Fin (cfg2.N + 1)) : (dat2 (Ix := Ix) (Name := Name) (U := U) (Lvl := Lvl) V O B c).owed t = O := by
  dsimp only [dat2]

/-- Its bound on the recorded pairs at every point. -/
theorem recorded_eq2 (c : Dev nD) (t : Fin (cfg2.N + 1)) : (dat2 (Ix := Ix) (Name := Name) (U := U) (Lvl := Lvl) V O B c).recorded t = B := by
  dsimp only [dat2]

/-- Its invariant at every point. -/
theorem Φ_eq2 (c : Dev nD) (t : Fin (cfg2.N + 1)) : (dat2 (Ix := Ix) (Name := Name) (U := U) (Lvl := Lvl) V O B c).Φ t = ΦG spec2 c := by
  dsimp only [dat2]

/-- What the body leaves, window by window. -/
theorem after2_0 (c : Dev nD) (t : Fin cfg2.N) : (dat2 (Ix := Ix) (Name := Name) (U := U) (Lvl := Lvl) V O B c).after 0 t = iblk2 V c 0 t := by dsimp only [dat2]
theorem after2_1 (c : Dev nD) (t : Fin cfg2.N) : (dat2 (Ix := Ix) (Name := Name) (U := U) (Lvl := Lvl) V O B c).after 1 t = iblk2 V c 1 t := by dsimp only [dat2]
theorem after2_2 (c : Dev nD) (t : Fin cfg2.N) : (dat2 (Ix := Ix) (Name := Name) (U := U) (Lvl := Lvl) V O B c).after 2 t = iblk2 V c 2 t := by dsimp only [dat2]
theorem after2_3 (c : Dev nD) (t : Fin cfg2.N) : (dat2 (Ix := Ix) (Name := Name) (U := U) (Lvl := Lvl) V O B c).after 3 t = iblk2 V c 3 t := by dsimp only [dat2]
theorem after2_4 (c : Dev nD) (t : Fin cfg2.N) : (dat2 (Ix := Ix) (Name := Name) (U := U) (Lvl := Lvl) V O B c).after 4 t = iblk2 V c 4 t := by dsimp only [dat2]
theorem after2_5 (c : Dev nD) (t : Fin cfg2.N) : (dat2 (Ix := Ix) (Name := Name) (U := U) (Lvl := Lvl) V O B c).after 5 t = iblk2 V c 5 t := by dsimp only [dat2]
theorem after2_6 (c : Dev nD) (t : Fin cfg2.N) : (dat2 (Ix := Ix) (Name := Name) (U := U) (Lvl := Lvl) V O B c).after 6 t = iblk2 V c 6 t := by dsimp only [dat2]
theorem after2_7 (c : Dev nD) (t : Fin cfg2.N) : (dat2 (Ix := Ix) (Name := Name) (U := U) (Lvl := Lvl) V O B c).after 7 t = iblk2 V c 7 t := by dsimp only [dat2]
theorem after2_8 (c : Dev nD) (t : Fin cfg2.N) : (dat2 (Ix := Ix) (Name := Name) (U := U) (Lvl := Lvl) V O B c).after 8 t = iblk2 V c 8 t := by dsimp only [dat2]
theorem after2_9 (c : Dev nD) (t : Fin cfg2.N) : (dat2 (Ix := Ix) (Name := Name) (U := U) (Lvl := Lvl) V O B c).after 9 t = iblk2 V c 9 t := by dsimp only [dat2]
theorem after2_10 (c : Dev nD) (t : Fin cfg2.N) : (dat2 (Ix := Ix) (Name := Name) (U := U) (Lvl := Lvl) V O B c).after 10 t = iblk2 V c 10 t := by dsimp only [dat2]
theorem after2_11 (c : Dev nD) (t : Fin cfg2.N) : (dat2 (Ix := Ix) (Name := Name) (U := U) (Lvl := Lvl) V O B c).after 11 t = iblk2 V c 11 t := by dsimp only [dat2]
theorem after2_12 (c : Dev nD) (t : Fin cfg2.N) : (dat2 (Ix := Ix) (Name := Name) (U := U) (Lvl := Lvl) V O B c).after 12 t = iblk2 V c 12 t := by dsimp only [dat2]
theorem after2_13 (c : Dev nD) (t : Fin cfg2.N) : (dat2 (Ix := Ix) (Name := Name) (U := U) (Lvl := Lvl) V O B c).after 13 t = iblk2 V c 13 t := by dsimp only [dat2]
theorem after2_14 (c : Dev nD) (t : Fin cfg2.N) : (dat2 (Ix := Ix) (Name := Name) (U := U) (Lvl := Lvl) V O B c).after 14 t = iblk2 V c 14 t := by dsimp only [dat2]
theorem after2_15 (c : Dev nD) (t : Fin cfg2.N) : (dat2 (Ix := Ix) (Name := Name) (U := U) (Lvl := Lvl) V O B c).after 15 t = iblk2 V c 15 t := by dsimp only [dat2]
theorem after2_16 (c : Dev nD) (t : Fin cfg2.N) : (dat2 (Ix := Ix) (Name := Name) (U := U) (Lvl := Lvl) V O B c).after 16 t = iblk2 V c 16 t := by dsimp only [dat2]
theorem after2_17 (c : Dev nD) (t : Fin cfg2.N) : (dat2 (Ix := Ix) (Name := Name) (U := U) (Lvl := Lvl) V O B c).after 17 t = iblk2 V c 17 t := by dsimp only [dat2]
theorem after2_18 (c : Dev nD) (t : Fin cfg2.N) : (dat2 (Ix := Ix) (Name := Name) (U := U) (Lvl := Lvl) V O B c).after 18 t = iblk2 V c 18 t := by dsimp only [dat2]
theorem after2_19 (c : Dev nD) (t : Fin cfg2.N) : (dat2 (Ix := Ix) (Name := Name) (U := U) (Lvl := Lvl) V O B c).after 19 t = out2_19 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) := by dsimp only [dat2]

/-- Each input's current staging buffer holds its block at every point, fetched there or not. -/
theorem before2_0 (c : Dev nD) (t : Fin cfg2.N) (d) : (dat2 (Ix := Ix) (Name := Name) (U := U) (Lvl := Lvl) V O B c).before 0 t d = iblk2 V c 0 t :=
  before2_0_of V (dat2 V O B c) (A_eq2 V O B c 0) (after2_0 V O B c) t d
theorem before2_1 (c : Dev nD) (t : Fin cfg2.N) (d) : (dat2 (Ix := Ix) (Name := Name) (U := U) (Lvl := Lvl) V O B c).before 1 t d = iblk2 V c 1 t :=
  before2_1_of V (dat2 V O B c) (A_eq2 V O B c 1) (after2_1 V O B c) t d
theorem before2_2 (c : Dev nD) (t : Fin cfg2.N) (d) : (dat2 (Ix := Ix) (Name := Name) (U := U) (Lvl := Lvl) V O B c).before 2 t d = iblk2 V c 2 t :=
  before2_2_of V (dat2 V O B c) (A_eq2 V O B c 2) (after2_2 V O B c) t d
theorem before2_3 (c : Dev nD) (t : Fin cfg2.N) (d) : (dat2 (Ix := Ix) (Name := Name) (U := U) (Lvl := Lvl) V O B c).before 3 t d = iblk2 V c 3 t :=
  before2_3_of V (dat2 V O B c) (A_eq2 V O B c 3) (after2_3 V O B c) t d
theorem before2_4 (c : Dev nD) (t : Fin cfg2.N) (d) : (dat2 (Ix := Ix) (Name := Name) (U := U) (Lvl := Lvl) V O B c).before 4 t d = iblk2 V c 4 t :=
  before2_4_of V (dat2 V O B c) (A_eq2 V O B c 4) (after2_4 V O B c) t d
theorem before2_5 (c : Dev nD) (t : Fin cfg2.N) (d) : (dat2 (Ix := Ix) (Name := Name) (U := U) (Lvl := Lvl) V O B c).before 5 t d = iblk2 V c 5 t :=
  before2_5_of V (dat2 V O B c) (A_eq2 V O B c 5) (after2_5 V O B c) t d
theorem before2_6 (c : Dev nD) (t : Fin cfg2.N) (d) : (dat2 (Ix := Ix) (Name := Name) (U := U) (Lvl := Lvl) V O B c).before 6 t d = iblk2 V c 6 t :=
  before2_6_of V (dat2 V O B c) (A_eq2 V O B c 6) (after2_6 V O B c) t d
theorem before2_7 (c : Dev nD) (t : Fin cfg2.N) (d) : (dat2 (Ix := Ix) (Name := Name) (U := U) (Lvl := Lvl) V O B c).before 7 t d = iblk2 V c 7 t :=
  before2_7_of V (dat2 V O B c) (A_eq2 V O B c 7) (after2_7 V O B c) t d
theorem before2_8 (c : Dev nD) (t : Fin cfg2.N) (d) : (dat2 (Ix := Ix) (Name := Name) (U := U) (Lvl := Lvl) V O B c).before 8 t d = iblk2 V c 8 t :=
  before2_8_of V (dat2 V O B c) (A_eq2 V O B c 8) (after2_8 V O B c) t d
theorem before2_9 (c : Dev nD) (t : Fin cfg2.N) (d) : (dat2 (Ix := Ix) (Name := Name) (U := U) (Lvl := Lvl) V O B c).before 9 t d = iblk2 V c 9 t :=
  before2_9_of V (dat2 V O B c) (A_eq2 V O B c 9) (after2_9 V O B c) t d
theorem before2_10 (c : Dev nD) (t : Fin cfg2.N) (d) : (dat2 (Ix := Ix) (Name := Name) (U := U) (Lvl := Lvl) V O B c).before 10 t d = iblk2 V c 10 t :=
  before2_10_of V (dat2 V O B c) (A_eq2 V O B c 10) (after2_10 V O B c) t d
theorem before2_11 (c : Dev nD) (t : Fin cfg2.N) (d) : (dat2 (Ix := Ix) (Name := Name) (U := U) (Lvl := Lvl) V O B c).before 11 t d = iblk2 V c 11 t :=
  before2_11_of V (dat2 V O B c) (A_eq2 V O B c 11) (after2_11 V O B c) t d
theorem before2_12 (c : Dev nD) (t : Fin cfg2.N) (d) : (dat2 (Ix := Ix) (Name := Name) (U := U) (Lvl := Lvl) V O B c).before 12 t d = iblk2 V c 12 t :=
  before2_12_of V (dat2 V O B c) (A_eq2 V O B c 12) (after2_12 V O B c) t d
theorem before2_13 (c : Dev nD) (t : Fin cfg2.N) (d) : (dat2 (Ix := Ix) (Name := Name) (U := U) (Lvl := Lvl) V O B c).before 13 t d = iblk2 V c 13 t :=
  before2_13_of V (dat2 V O B c) (A_eq2 V O B c 13) (after2_13 V O B c) t d
theorem before2_14 (c : Dev nD) (t : Fin cfg2.N) (d) : (dat2 (Ix := Ix) (Name := Name) (U := U) (Lvl := Lvl) V O B c).before 14 t d = iblk2 V c 14 t :=
  before2_14_of V (dat2 V O B c) (A_eq2 V O B c 14) (after2_14 V O B c) t d
theorem before2_15 (c : Dev nD) (t : Fin cfg2.N) (d) : (dat2 (Ix := Ix) (Name := Name) (U := U) (Lvl := Lvl) V O B c).before 15 t d = iblk2 V c 15 t :=
  before2_15_of V (dat2 V O B c) (A_eq2 V O B c 15) (after2_15 V O B c) t d
theorem before2_16 (c : Dev nD) (t : Fin cfg2.N) (d) : (dat2 (Ix := Ix) (Name := Name) (U := U) (Lvl := Lvl) V O B c).before 16 t d = iblk2 V c 16 t :=
  before2_16_of V (dat2 V O B c) (A_eq2 V O B c 16) (after2_16 V O B c) t d
theorem before2_17 (c : Dev nD) (t : Fin cfg2.N) (d) : (dat2 (Ix := Ix) (Name := Name) (U := U) (Lvl := Lvl) V O B c).before 17 t d = iblk2 V c 17 t :=
  before2_17_of V (dat2 V O B c) (A_eq2 V O B c 17) (after2_17 V O B c) t d
theorem before2_18 (c : Dev nD) (t : Fin cfg2.N) (d) : (dat2 (Ix := Ix) (Name := Name) (U := U) (Lvl := Lvl) V O B c).before 18 t d = iblk2 V c 18 t :=
  before2_18_of V (dat2 V O B c) (A_eq2 V O B c 18) (after2_18 V O B c) t d

/-! ## The body obligation, at a generic point -/

/-- What the body is called with at point `t` (the obligation's precondition, the windows one by one), -/
def bodyPre2 (ι : Ix) (c : Dev nD) (t : Fin cfg2.N) : sProp 𝕄 :=
  iprop((dat2 (Ix := Ix) (Name := Name) (U := U) (Lvl := Lvl) V O B c).Φ t.castSucc ∗ (dat2 (Ix := Ix) (Name := Name) (U := U) (Lvl := Lvl) V O B c).owesAt ι t.castSucc
    ∗ (∃ d, owns (c : Thread nD τ) (st2_0 t) fullShare ((dat2 (Ix := Ix) (Name := Name) (U := U) (Lvl := Lvl) V O B c).before 0 t d))
    ∗ (∃ d, owns (c : Thread nD τ) (st2_1 t) fullShare ((dat2 (Ix := Ix) (Name := Name) (U := U) (Lvl := Lvl) V O B c).before 1 t d))
    ∗ (∃ d, owns (c : Thread nD τ) (st2_2 t) fullShare ((dat2 (Ix := Ix) (Name := Name) (U := U) (Lvl := Lvl) V O B c).before 2 t d))
    ∗ (∃ d, owns (c : Thread nD τ) (st2_3 t) fullShare ((dat2 (Ix := Ix) (Name := Name) (U := U) (Lvl := Lvl) V O B c).before 3 t d))
    ∗ (∃ d, owns (c : Thread nD τ) (st2_4 t) fullShare ((dat2 (Ix := Ix) (Name := Name) (U := U) (Lvl := Lvl) V O B c).before 4 t d))
    ∗ (∃ d, owns (c : Thread nD τ) (st2_5 t) fullShare ((dat2 (Ix := Ix) (Name := Name) (U := U) (Lvl := Lvl) V O B c).before 5 t d))
    ∗ (∃ d, owns (c : Thread nD τ) (st2_6 t) fullShare ((dat2 (Ix := Ix) (Name := Name) (U := U) (Lvl := Lvl) V O B c).before 6 t d))
    ∗ (∃ d, owns (c : Thread nD τ) (st2_7 t) fullShare ((dat2 (Ix := Ix) (Name := Name) (U := U) (Lvl := Lvl) V O B c).before 7 t d))
    ∗ (∃ d, owns (c : Thread nD τ) (st2_8 t) fullShare ((dat2 (Ix := Ix) (Name := Name) (U := U) (Lvl := Lvl) V O B c).before 8 t d))
    ∗ (∃ d, owns (c : Thread nD τ) (st2_9 t) fullShare ((dat2 (Ix := Ix) (Name := Name) (U := U) (Lvl := Lvl) V O B c).before 9 t d))
    ∗ (∃ d, owns (c : Thread nD τ) (st2_10 t) fullShare ((dat2 (Ix := Ix) (Name := Name) (U := U) (Lvl := Lvl) V O B c).before 10 t d))
    ∗ (∃ d, owns (c : Thread nD τ) (st2_11 t) fullShare ((dat2 (Ix := Ix) (Name := Name) (U := U) (Lvl := Lvl) V O B c).before 11 t d))
    ∗ (∃ d, owns (c : Thread nD τ) (st2_12 t) fullShare ((dat2 (Ix := Ix) (Name := Name) (U := U) (Lvl := Lvl) V O B c).before 12 t d))
    ∗ (∃ d, owns (c : Thread nD τ) (st2_13 t) fullShare ((dat2 (Ix := Ix) (Name := Name) (U := U) (Lvl := Lvl) V O B c).before 13 t d))
    ∗ (∃ d, owns (c : Thread nD τ) (st2_14 t) fullShare ((dat2 (Ix := Ix) (Name := Name) (U := U) (Lvl := Lvl) V O B c).before 14 t d))
    ∗ (∃ d, owns (c : Thread nD τ) (st2_15 t) fullShare ((dat2 (Ix := Ix) (Name := Name) (U := U) (Lvl := Lvl) V O B c).before 15 t d))
    ∗ (∃ d, owns (c : Thread nD τ) (st2_16 t) fullShare ((dat2 (Ix := Ix) (Name := Name) (U := U) (Lvl := Lvl) V O B c).before 16 t d))
    ∗ (∃ d, owns (c : Thread nD τ) (st2_17 t) fullShare ((dat2 (Ix := Ix) (Name := Name) (U := U) (Lvl := Lvl) V O B c).before 17 t d))
    ∗ (∃ d, owns (c : Thread nD τ) (st2_18 t) fullShare ((dat2 (Ix := Ix) (Name := Name) (U := U) (Lvl := Lvl) V O B c).before 18 t d))
    ∗ (∃ d, owns (c : Thread nD τ) (st2_19 t) fullShare ((dat2 (Ix := Ix) (Name := Name) (U := U) (Lvl := Lvl) V O B c).before 19 t d)))

/-- and what it returns. -/
def bodyPost2 (ι : Ix) (c : Dev nD) (t : Fin cfg2.N) : sProp 𝕄 :=
  iprop((dat2 (Ix := Ix) (Name := Name) (U := U) (Lvl := Lvl) V O B c).Φ t.succ ∗ (dat2 (Ix := Ix) (Name := Name) (U := U) (Lvl := Lvl) V O B c).owesAt ι t.succ
    ∗ owns (c : Thread nD τ) (st2_0 t) fullShare ((dat2 (Ix := Ix) (Name := Name) (U := U) (Lvl := Lvl) V O B c).after 0 t)
    ∗ owns (c : Thread nD τ) (st2_1 t) fullShare ((dat2 (Ix := Ix) (Name := Name) (U := U) (Lvl := Lvl) V O B c).after 1 t)
    ∗ owns (c : Thread nD τ) (st2_2 t) fullShare ((dat2 (Ix := Ix) (Name := Name) (U := U) (Lvl := Lvl) V O B c).after 2 t)
    ∗ owns (c : Thread nD τ) (st2_3 t) fullShare ((dat2 (Ix := Ix) (Name := Name) (U := U) (Lvl := Lvl) V O B c).after 3 t)
    ∗ owns (c : Thread nD τ) (st2_4 t) fullShare ((dat2 (Ix := Ix) (Name := Name) (U := U) (Lvl := Lvl) V O B c).after 4 t)
    ∗ owns (c : Thread nD τ) (st2_5 t) fullShare ((dat2 (Ix := Ix) (Name := Name) (U := U) (Lvl := Lvl) V O B c).after 5 t)
    ∗ owns (c : Thread nD τ) (st2_6 t) fullShare ((dat2 (Ix := Ix) (Name := Name) (U := U) (Lvl := Lvl) V O B c).after 6 t)
    ∗ owns (c : Thread nD τ) (st2_7 t) fullShare ((dat2 (Ix := Ix) (Name := Name) (U := U) (Lvl := Lvl) V O B c).after 7 t)
    ∗ owns (c : Thread nD τ) (st2_8 t) fullShare ((dat2 (Ix := Ix) (Name := Name) (U := U) (Lvl := Lvl) V O B c).after 8 t)
    ∗ owns (c : Thread nD τ) (st2_9 t) fullShare ((dat2 (Ix := Ix) (Name := Name) (U := U) (Lvl := Lvl) V O B c).after 9 t)
    ∗ owns (c : Thread nD τ) (st2_10 t) fullShare ((dat2 (Ix := Ix) (Name := Name) (U := U) (Lvl := Lvl) V O B c).after 10 t)
    ∗ owns (c : Thread nD τ) (st2_11 t) fullShare ((dat2 (Ix := Ix) (Name := Name) (U := U) (Lvl := Lvl) V O B c).after 11 t)
    ∗ owns (c : Thread nD τ) (st2_12 t) fullShare ((dat2 (Ix := Ix) (Name := Name) (U := U) (Lvl := Lvl) V O B c).after 12 t)
    ∗ owns (c : Thread nD τ) (st2_13 t) fullShare ((dat2 (Ix := Ix) (Name := Name) (U := U) (Lvl := Lvl) V O B c).after 13 t)
    ∗ owns (c : Thread nD τ) (st2_14 t) fullShare ((dat2 (Ix := Ix) (Name := Name) (U := U) (Lvl := Lvl) V O B c).after 14 t)
    ∗ owns (c : Thread nD τ) (st2_15 t) fullShare ((dat2 (Ix := Ix) (Name := Name) (U := U) (Lvl := Lvl) V O B c).after 15 t)
    ∗ owns (c : Thread nD τ) (st2_16 t) fullShare ((dat2 (Ix := Ix) (Name := Name) (U := U) (Lvl := Lvl) V O B c).after 16 t)
    ∗ owns (c : Thread nD τ) (st2_17 t) fullShare ((dat2 (Ix := Ix) (Name := Name) (U := U) (Lvl := Lvl) V O B c).after 17 t)
    ∗ owns (c : Thread nD τ) (st2_18 t) fullShare ((dat2 (Ix := Ix) (Name := Name) (U := U) (Lvl := Lvl) V O B c).after 18 t)
    ∗ owns (c : Thread nD τ) (st2_19 t) fullShare ((dat2 (Ix := Ix) (Name := Name) (U := U) (Lvl := Lvl) V O B c).after 19 t))

set_option maxHeartbeats 2000000 in
/-- The body at any point: the inputs' memrefs hold their blocks, so the body's triple applies; the invariant and the
    core's debts pass through unread. -/
theorem sound_body2 (ι : Ix) (c : Dev nD) (t : Fin cfg2.N) :
    bodyPre2 (Name := Name) (U := U) (Lvl := Lvl) V O B ι c t ⊢ wp frame (wpE (defs₀ (F := F)) Variants.none c none) Set.univ (bodyAt2 t) (fun _ => bodyPost2 (Name := Name) (U := U) (Lvl := Lvl) V O B ι c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17, before2_18]
  rw [show (dat2 (Ix := Ix) (Name := Name) (U := U) (Lvl := Lvl) V O B c).Φ t.succ = (dat2 (Ix := Ix) (Name := Name) (U := U) (Lvl := Lvl) V O B c).Φ t.castSucc from rfl,
    show (dat2 (Ix := Ix) (Name := Name) (U := U) (Lvl := Lvl) V O B c).owesAt ι t.succ = (dat2 (Ix := Ix) (Name := Name) (U := U) (Lvl := Lvl) V O B c).owesAt ι t.castSucc from rfl,
    after2_0, after2_1, after2_2, after2_3, after2_4, after2_5, after2_6, after2_7, after2_8, after2_9, after2_10, after2_11, after2_12, after2_13, after2_14, after2_15, after2_16, after2_17, after2_18, after2_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel2 c Set.univ _ _ _ _ _ _ _ _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body obligation, at every point. -/
theorem body_obligation2 (ι : Ix) (c : Dev nD) :
    BodyObligation (dat2 (F := F) (Ix := Ix) (Name := Name) (U := U) (Lvl := Lvl) V O B c) (defs₀ (F := F)) Variants.none ι Set.univ := fun t => by
  rw [bigSep_W2, bigSep_W2]
  exact sound_body2 V O B ι c t

/-- The same in the form a region segment takes: no window of the region is cut, so the two forms agree. -/
theorem body_obligation2_loose (ι : Ix) (c : Dev nD) :
    BodyObligationLoose (dat2 (F := F) (Ix := Ix) (Name := Name) (U := U) (Lvl := Lvl) V O B c) (defs₀ (F := F)) Variants.none ι Set.univ :=
  (body_obligation2 V O B ι c).loose

end Cert.Kernel.Body

end
-- ==== Proof.Bits.ScMain1.lean ====
/-
  @main on the TensorCore, the data: the host operations of @main as named terms, the contents of the TensorCore's
  unscoped buffers at each boundary of @main as a fold from the launch memory (through the first pipeline's
  write-backs, the SparseCore call's result array, the second pipeline's write-backs), the table and the index list
  the SparseCore call is handed, and the two pipelines' proof data at their regions' entry contents.
-/
import proofs.«208327_g62569083568895_cont_9to1c4b_407_46_alg».proof.Proof.Bits.ScPay
import proofs.«208327_g62569083568895_cont_9to1c4b_407_46_alg».proof.Proof.BodyBits.R0
import proofs.«208327_g62569083568895_cont_9to1c4b_407_46_alg».proof.Proof.BodyBits.R2
import proofs.«208327_g62569083568895_cont_9to1c4b_407_46_alg».proof.Proof.Gen.Kernel.Launch
import Idealize.ShloMosaic.Lib.Pipeline.FrameSuffix
import Idealize.ShloMosaic.Lib.Pipeline.RegionsLoop
import Idealize.ShloMosaic.Lib.Pipeline.Regions

set_option maxRecDepth 16384

noncomputable section

namespace Cert.Kernel.Sc

open Cert.Kernel Cert.Kernel.Gen Cert.Kernel.Body

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.Pipeline (Dat Cfg Window BodyObligation BodyObligationLoose)

variable {F : FTy → Type} [FloatOps F]

local notation "𝕄" => MT nD τ sig (HIx 1) (Elt F) ℕ UU ℕ

/-! ## The host operations of @main, in order -/

abbrev op0 : HloOp τ sig (Elt F) := StableHlo.unary main_arg6 main_v0 ((extui 32 · natLt_1_32) : (⟨S2x2048x32, .i1⟩ : BufTy).Contents (Elt F) → (⟨S2x2048x32, .i32⟩ : BufTy).Contents (Elt F))
abbrev op2 : HloOp τ sig (Elt F) := StableHlo.reshape main_v1_2 main_v2 rfl shapeCasts_S2x2048x32_S1024x128
abbrev op4 : HloOp τ sig (Elt F) := StableHlo.reshape main_arg2 main_v4 rfl shapeCasts_S2x2048x32x128_S131072x128
abbrev op5 : HloOp τ sig (Elt F) := StableHlo.reshape main_arg0 main_v5 rfl shapeCasts_S2x2048x128_S4096x128
abbrev op6 : HloOp τ sig (Elt F) := StableHlo.reshape main_arg5 main_v6 rfl shapeCasts_S2x2048x32_S4096x32
abbrev op7 : HloOp τ sig (Elt F) := StableHlo.unary main_arg7 main_v7 ((extractStridedSlice S128x128 ![256, 0] · slices_S512x128_S128x128_256_0) : (⟨S512x128, .f32⟩ : BufTy).Contents (Elt F) → (⟨S128x128, .f32⟩ : BufTy).Contents (Elt F))
abbrev op8 : HloOp τ sig (Elt F) := StableHlo.reshape main_arg8 main_v8 rfl shapeCasts_S128_S1x128
abbrev op9 : HloOp τ sig (Elt F) := StableHlo.reshape main_arg10 main_v9 rfl shapeCasts_S128_S1x128
abbrev op10 : HloOp τ sig (Elt F) := StableHlo.reshape main_arg12 main_v10 rfl shapeCasts_S128_S1x128
abbrev op11 : HloOp τ sig (Elt F) := StableHlo.reshape main_arg14 main_v11 rfl shapeCasts_S512_S1x512
abbrev op12 : HloOp τ sig (Elt F) := StableHlo.reshape main_arg16 main_v12 rfl shapeCasts_S128_S1x128
abbrev op13 : HloOp τ sig (Elt F) := StableHlo.reshape main_arg17 main_v13 rfl shapeCasts_S128_S1x128
abbrev op14 : HloOp τ sig (Elt F) := StableHlo.reshape main_arg18 main_v14 rfl shapeCasts_S128_S1x128
abbrev op15 : HloOp τ sig (Elt F) := StableHlo.reshape main_arg19 main_v15 rfl shapeCasts_S128_S1x128
abbrev op16 : HloOp τ sig (Elt F) := StableHlo.reshape main_arg20 main_v16 rfl shapeCasts_S128_S1x128
abbrev op18 : HloOp τ sig (Elt F) := StableHlo.reshape main_v17 main_v18 rfl shapeCasts_S4096x128_S2x2048x128

/-- The thirteen operations between the SparseCore call and the second pipeline. -/
abbrev ops5 : List (HloOp τ sig (Elt F)) := [op4, op5, op6, op7, op8, op9, op10, op11, op12, op13, op14, op15, op16]

/-! ## What the TensorCore owes across each region, and the bound on its recorded pairs -/

/-- What the TensorCore of `d` owes before SparseCore call `n` (its start signals for the calls from `n` on). -/
abbrev Oq (d : Dev nD) (n : ℕ) : CellTallies nD τ sig (HIx 1) := (K (F := F)).Otc d n
/-- The pairs at or below the level every pair recorded before call `n` sits at. -/
def Bq (d : Dev nD) (n : ℕ) : Set (SemLoc sig × HIx 1) := {p | (K (F := F)).lev (T d, p.1) p.2 ≤ 8 * n}

/-! ## The buffer contents at each boundary of @main -/

variable (m : (ℓ : Loc nD τ sig) → Buf (Elt F) ℓ)

/-- Device `d`'s buffers at launch. -/
abbrev W0 (d : Dev nD) : Valuation τ sig (Elt F) := fun b => m (d, b)
/-- After the conversion of the mask (the first pipeline's entry). -/
abbrev W1 (d : Dev nD) : Valuation τ sig (Elt F) := (op0 (F := F)).result (W0 m d)
abbrev V1 : (c : Dev nD) → (b : Ref sig .tc) → Buf (Elt F) ((c : Thread nD τ).loc b) := fun c b => W1 m c b
/-- The first pipeline's proof data, at its entry contents. -/
abbrev D0 (d : Dev nD) : Dat τ (Elt F) (HIx 1) ℕ UU ℕ cfg0 d := dat0 (V1 m) (Oq (F := F) d 0) (Bq (F := F) d 0) d
/-- At the first pipeline's exit: its arrays at what the pipeline leaves, every other buffer as entered. -/
def W2 (d : Dev nD) : Valuation τ sig (Elt F) := Pipeline.withArrays spec0 d (W1 m d) fun w => (D0 m d).arrAt w cfg0.N
abbrev V2 : (c : Dev nD) → (b : Ref sig .tc) → Buf (Elt F) ((c : Thread nD τ).loc b) := fun c b => W2 m c b
/-- After the reshape of the gather indices (the SparseCore call's entry). -/
abbrev W3 (d : Dev nD) : Valuation τ sig (Elt F) := (op2 (F := F)).result (W2 m d)

/-- The table the SparseCore call gathers from: the first pipeline's first result. -/
def TabOf (d : Dev nD) : Buf (Elt F) (tabLoc d) := W3 m d (Proc.devRef .tc main_v1_0)
/-- The index list it gathers by: the first pipeline's third result, reshaped. -/
def IdxOf (d : Dev nD) : Buf (Elt F) (idxLoc d) := W3 m d (Proc.devRef .tc main_v2)

-- the gathered rows: what the SparseCore call leaves in its result array
variable (G3 : (d : Dev nD) → Buf (Elt F) (outLoc d))

/-- After the SparseCore call: its result array at the gathered rows. -/
def W4 (d : Dev nD) : Valuation τ sig (Elt F) := Function.update (W3 m d) (Proc.devRef .tc main_v3) (G3 d)
/-- After the thirteen reshapes and the slice (the second pipeline's entry). -/
abbrev W5 (d : Dev nD) : Valuation τ sig (Elt F) := StableHlo.after (ops5 (F := F)) (W4 m G3 d)
abbrev V5 : (c : Dev nD) → (b : Ref sig .tc) → Buf (Elt F) ((c : Thread nD τ).loc b) := fun c b => W5 m G3 c b
/-- The second pipeline's proof data, at its entry contents. -/
abbrev D2 (d : Dev nD) : Dat τ (Elt F) (HIx 1) ℕ UU ℕ cfg2 d := dat2 (V5 m G3) (Oq (F := F) d 1) (Bq (F := F) d 1) d
/-- At the second pipeline's exit. -/
def W6 (d : Dev nD) : Valuation τ sig (Elt F) := Pipeline.withArrays spec2 d (W5 m G3 d) fun w => (D2 m G3 d).arrAt w cfg2.N
abbrev V6 : (c : Dev nD) → (b : Ref sig .tc) → Buf (Elt F) ((c : Thread nD τ).loc b) := fun c b => W6 m G3 c b
/-- After the last reshape: the contents at @main's return. -/
abbrev W7 (d : Dev nD) : Valuation τ sig (Elt F) := (op18 (F := F)).result (W6 m G3 d)

/-! ## The pipelines' proof data as one family -/

/-- The prefetched tables' admissible contents: no pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) (HIx 1) ℕ UU ℕ (Pipeline.pin (pcfgs (F := F)) adm p) c
  | ⟨0, _⟩ => fun c => D0 m c
  | ⟨1, _⟩ => fun c => D2 m G3 c

theorem W2_arr (c : Dev nD) (w : Fin cfg0.W) :
    W2 m c (Proc.devRef .tc (Pipeline.arrRef spec0 w)) = (D0 m c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (D0 m c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W6_arr (c : Dev nD) (w : Fin cfg2.W) :
    W6 m G3 c (Proc.devRef .tc (Pipeline.arrRef spec2 w)) = (D2 m G3 c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m G3 c (Proc.devRef .tc b) = W5 m G3 c (Proc.devRef .tc b) := by
  unfold W6; exact Pipeline.withArrays_of_ne spec2 c _ _ b hb
theorem hF2 (c : Dev nD) (w : Fin cfg2.W) : (D2 m G3 c).arrAt w cfg2.N = V6 m G3 c (Pipeline.arrRef spec2 w) :=
  (W6_arr m G3 c w).symm
theorem hrest2 (c : Dev nD) : ∀ b, b ∉ Finset.univ.image (Pipeline.arrRef spec2) → V6 m G3 c b = V5 m G3 c b :=
  fun b hb => W6_of_ne m G3 c b fun w e => hb (Finset.mem_image.mpr ⟨w, Finset.mem_univ _, e⟩)

end Cert.Kernel.Sc

end
-- ==== Proof.Bits.ScMain2.lean ====
/-
  @main on the TensorCore, the two pipelines' regions: each as a region record over the thread state "every unscoped
  buffer at the boundary's contents, the generator register at some state, the TensorCore owing the SparseCores its
  later start signals", and each region's step inside the SparseCore program's body table.
-/
import proofs.«208327_g62569083568895_cont_9to1c4b_407_46_alg».proof.Proof.Bits.ScMain1
import Idealize.ShloMosaic.Lib.SparseCore.Threads

set_option maxRecDepth 16384

noncomputable section

namespace Cert.Kernel.Sc

open Cert.Kernel Cert.Kernel.Gen Cert.Kernel.Body

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.Pipeline (Dat Cfg Window BodyObligation BodyObligationLoose)

variable {F : FTy → Type} [FloatOps F]

local notation "𝕄" => MT nD τ sig (HIx 1) (Elt F) ℕ UU ℕ

variable (m : (ℓ : Loc nD τ sig) → Buf (Elt F) ℓ) (G3 : (d : Dev nD) → Buf (Elt F) (outLoc d))

/-- The levels every proof of the program is stated at: the launch protocol's own. -/
abbrev LL : GSem nD τ sig → Finset (HIx 1) := (K (F := F)).L
abbrev lvl : GSem nD τ sig → HIx 1 → ℕ := (K (F := F)).lev

/-- What rides beside the buffers through a region entered before call `n`: the generator register at some state, and
    what the TensorCore owes, every pair its waits have recorded at or below the level of call `n`. -/
abbrev Rr (c : Dev nD) (n : ℕ) : sProp 𝕄 :=
  iprop((∃ r, prngReg c r) ∗ ∃ W, ⌜(K (F := F)).WBelow (T c) W (8 * n)⌝ ∗ owes (T c) ((K (F := F)).Otc c n) W)

/-- The TensorCore owes nothing at the index of a kernel's own waits: every unit it owes is a start signal, at a call's index. -/
theorem Otc_none (c : Dev nD) (n : ℕ) (g : GSem nD τ sig) : (K (F := F)).Otc c n g none = 0 := by
  by_contra h
  have := (K (F := F)).lev_of_Otc_pos (Nat.pos_of_ne_zero h)
  rw [SparseCore.Cfg.lev_none] at this; omega

set_option backward.isDefEq.respectTransparency.types false in
/-- The first pipeline's region over the thread state: entered from every unscoped buffer at its entry contents,
    left at its exit contents. Its arrays are split out of the unscoped buffers and put back at the exit contents; the
    generator register goes into the invariant and comes out; what the TensorCore owes the SparseCores rides through
    unchanged, every pair the pipeline's waits record at level zero; no semaphore of the kernel's own. -/
def reg0 : Pipeline.RegionSeg (pcfgs (F := F)) adm (pdats m G3) none defs₀ 𝒱₀ (LL (F := F)) (lvl (F := F)) 0 where
  win := launch0.win.to₀
  block_pos := launch0.block_pos
  stage_whole := launch0.stage_whole
  K := PEmpty
  osem k := k.elim
  ho := Pipeline.OwnSemFacts.none _
  hbody c := body_obligation0_loose (V1 m) (Oq (F := F) c 0) (Bq (F := F) c 0) none c
  hwaits c := Pipeline.cellsWaits_intro _ _ _ 0 c fun w s t =>
    (K (F := F)).mayWait_none _ (O := Oq (F := F) c 0) (fun g => Otc_none c 0 g)
  pre c := iprop(held (c : Thread nD τ) (Pipeline.ucRefs τ sig) (W1 m c) ∗ Rr (F := F) c 0)
  post c := iprop(held (c : Thread nD τ) (Pipeline.ucRefs τ sig) (W2 m c) ∗ Rr (F := F) c 0)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m G3) launch0.win launch0.arr_whole c
      ((pdats m G3 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m G3 0 c).Φ 0 = ΦG spec0 c from rfl]; unfold ΦG
    iintro ⟨Hp, -, Hr⟩
    isplitl [Hr]; · iexact Hr
    iexact Hp
  hout c := by
    rw [Pipeline.ownSems0_none, show (pdats m G3 0 c).Φ (Fin.last _) = ΦG spec0 c from rfl]; unfold ΦG
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m G3) ((pdats m G3 0 c).share_full fun _ => rfl)
      (V1 m c) (V2 m c) ((pdats m G3 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

set_option backward.isDefEq.respectTransparency.types false in
/-- The second pipeline's region over the thread state: entered from every unscoped buffer at its entry contents,
    left at its exit contents. Its arrays are split out of the unscoped buffers and put back at the exit contents; the
    generator register goes into the invariant and comes out; what the TensorCore owes the SparseCores rides through
    unchanged, every pair the pipeline's waits record at level zero; no semaphore of the kernel's own. -/
def reg2 : Pipeline.RegionSeg (pcfgs (F := F)) adm (pdats m G3) none defs₀ 𝒱₀ (LL (F := F)) (lvl (F := F)) 1 where
  win := launch2.win.to₀
  block_pos := launch2.block_pos
  stage_whole := launch2.stage_whole
  K := PEmpty
  osem k := k.elim
  ho := Pipeline.OwnSemFacts.none _
  hbody c := body_obligation2_loose (V5 m G3) (Oq (F := F) c 1) (Bq (F := F) c 1) none c
  hwaits c := Pipeline.cellsWaits_intro _ _ _ 1 c fun w s t =>
    (K (F := F)).mayWait_none _ (O := Oq (F := F) c 1) (fun g => Otc_none c 1 g)
  pre c := iprop(held (c : Thread nD τ) (Pipeline.ucRefs τ sig) (W5 m G3 c) ∗ Rr (F := F) c 1)
  post c := iprop(held (c : Thread nD τ) (Pipeline.ucRefs τ sig) (W6 m G3 c) ∗ Rr (F := F) c 1)
  X c := iprop(∃ r, prngReg c r)
  Y c := iprop(∃ r, prngReg c r)
  Z c := Pipeline.unscopedRest (Ix := HIx 1) (Name := ℕ) (U := UU) (Lvl := ℕ) spec2 c (V5 m G3 c)
  hentry c := by
    rw [Pipeline.ownSems0_none]
    have hsplit := Pipeline.arrays_of_unscopedBufs (p := 1) (pcfgs (F := F)) adm (pdats m G3) launch2.win launch2.arr_whole c
      ((pdats m G3 1 c).share_full fun _ => rfl) (V5 m G3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m G3 1 c).Φ 0 = ΦG spec2 c from rfl]; unfold ΦG
    iintro ⟨Hp, -, Hr⟩
    isplitl [Hr]; · iexact Hr
    iexact Hp
  hout c := by
    rw [Pipeline.ownSems0_none, show (pdats m G3 1 c).Φ (Fin.last _) = ΦG spec2 c from rfl]; unfold ΦG
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m G3) ((pdats m G3 1 c).share_full fun _ => rfl)
      (V5 m G3 c) (V6 m G3 c) ((pdats m G3 1 c).arrAt · cfg2.N) (hF2 m G3 c) (hrest2 m G3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

end Cert.Kernel.Sc

end
-- ==== Proof.Bits.ScMain3.lean ====
/-
  @main on the TensorCore, the steps: the pipelines' ghost state the launch hands @main, each region's step inside the
  SparseCore program's body table, the host operations' buffers among the unscoped ones, and the handshake state with
  what the TensorCore owes taken apart.
-/
import proofs.«208327_g62569083568895_cont_9to1c4b_407_46_alg».proof.Proof.Bits.ScMain2

set_option maxRecDepth 16384

noncomputable section

namespace Cert.Kernel.Sc

open Cert.Kernel Cert.Kernel.Gen Cert.Kernel.Body

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.Pipeline (Dat Cfg Window BodyObligation BodyObligationLoose)

variable {F : FTy → Type} [FloatOps F]

local notation "𝕄" => MT nD τ sig (HIx 1) (Elt F) ℕ UU ℕ

variable [∀ e, Nonempty (Elt F e)]
variable (m : (ℓ : Loc nD τ sig) → Buf (Elt F) ℓ) (G3 : (d : Dev nD) → Buf (Elt F) (outLoc d))

/-! ## The pipelines' ghost state -/

/-- What the launch element leaves @main on device `d`: both pipelines' staging cells' rounds state and duty tokens. -/
def Gtc (d : Dev nD) : sProp 𝕄 :=
  bigSep Finset.univ fun p : Fin 2 => iprop(Pipeline.cellsGhost (Pipeline.pin (pcfgs (F := F)) adm) EP p d ∗ Pipeline.toksInit (Pipeline.pin (pcfgs (F := F)) adm) EP p d)

omit [FloatOps F] [∀ e, Nonempty (Elt F e)] in
theorem Gtc_split (d : Dev nD) :
    (Gtc (F := F) d : sProp 𝕄) = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)) := by
  unfold Gtc
  rw [show (Finset.univ : Finset (Fin 2)) = {0, 1} by decide, SparseCore.bigSep_insert' (by decide), bigSep_singleton]

/-! ## A region's step inside the SparseCore program -/

omit [∀ e, Nonempty (Elt F e)] in
/-- A pipeline's call as @main spells it is the call under the pipelines' labels, carried into the SparseCore
    program's labels. -/
theorem lift_entry (p : Fin 2) :
    (Prog.lift (.customCall (SparseCore.inner (Pipeline.entry p)) ()) : Prog (TpuEff nD τ sig (Elt F) (SparseCore.Sig (ΛP (F := F)) 1) .tc) PUnit)
      = SparseCore.liftProg (Prog.lift (.customCall (Pipeline.entry p) ())) := rfl

omit [∀ e, Nonempty (Elt F e)] in
theorem wp_lift (d : Dev nD) (p : Fin 2) (Φ : PUnit → sProp 𝕄) :
    wp frame (wpE (D (F := F)) 𝒱 (T d) none) Set.univ (Prog.lift (.customCall (Pipeline.entry p) ())) Φ
      ⊢ wp frame (wpE ((K (F := F)).defs (D (F := F))) 𝒱 (T d) none) Set.univ
          (Prog.lift (.customCall (SparseCore.inner (Pipeline.entry p)) ())) Φ := by
  rw [lift_entry]
  exact (K (F := F)).wp_liftProg (D (F := F)) 𝒱 (T d) Set.univ none _ Φ

set_option backward.isDefEq.respectTransparency.types false in
/-- The first pipeline's call under the pipelines' body table: from the boundary, the region's entry state, the level
    facts and the pipeline's ghost state, to the boundary and the region's exit state. -/
theorem wp_reg0_in (d : Dev nD) (Φ : PUnit → sProp 𝕄) :
    iprop((iprop(boundary (T d) ∗ (reg0 m G3).post d) -∗ wp frame (wpE (D (F := F)) 𝒱 (T d) none) Set.univ (.ret ⟨⟩) Φ)
        ∗ boundary (T d) ∗ (reg0 m G3).pre d ∗ levAts (LL (F := F)) (lvl (F := F))
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ (Prog.lift (.customCall (Pipeline.entry 0) ())) Φ :=
  Pipeline.RegionSeg.wp (pcfgs (F := F)) adm (pdats m G3) none cellOf_inj EP defs₀ 𝒱₀ LL lvl (reg0 m G3) d none
    (by intro u hu; cases hu) (fun a => .ret a) Φ

/-- The same call as @main spells it, inside the SparseCore program's body table. -/
theorem wp_reg0 (d : Dev nD) (Φ : PUnit → sProp 𝕄) :
    iprop((iprop(boundary (T d) ∗ held (T d) (Pipeline.ucRefs τ sig) (W2 m d) ∗ Rr (F := F) d 0) -∗ Φ ⟨⟩)
        ∗ boundary (T d) ∗ (held (T d) (Pipeline.ucRefs τ sig) (W1 m d) ∗ Rr (F := F) d 0) ∗ levAts (LL (F := F)) (lvl (F := F))
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Φ := by
  refine .trans ?_ (wp_lift d 0 Φ)
  refine .trans ?_ (wp_reg0_in m (fun c => W3 m c (Proc.devRef .tc main_v3)) d Φ)
  rw [show (reg0 m (fun c => W3 m c (Proc.devRef .tc main_v3))).pre d = iprop(held (T d) (Pipeline.ucRefs τ sig) (W1 m d) ∗ Rr (F := F) d 0) from rfl,
    show (reg0 m (fun c => W3 m c (Proc.devRef .tc main_v3))).post d = iprop(held (T d) (Pipeline.ucRefs τ sig) (W2 m d) ∗ Rr (F := F) d 0) from rfl]
  iintro ⟨Hk, Hb, Hpre, Hlev, Hg, Ht⟩
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht

set_option backward.isDefEq.respectTransparency.types false in
/-- The second pipeline's call under the pipelines' body table: from the boundary, the region's entry state, the level
    facts and the pipeline's ghost state, to the boundary and the region's exit state. -/
theorem wp_reg2_in (d : Dev nD) (Φ : PUnit → sProp 𝕄) :
    iprop((iprop(boundary (T d) ∗ (reg2 m G3).post d) -∗ wp frame (wpE (D (F := F)) 𝒱 (T d) none) Set.univ (.ret ⟨⟩) Φ)
        ∗ boundary (T d) ∗ (reg2 m G3).pre d ∗ levAts (LL (F := F)) (lvl (F := F))
        ∗ Pipeline.cellsGhost (Pipeline.pin (pcfgs (F := F)) adm) EP 1 d ∗ Pipeline.toksInit (Pipeline.pin (pcfgs (F := F)) adm) EP 1 d)
      ⊢ wp frame (wpE (D (F := F)) 𝒱 (T d) none) Set.univ (Prog.lift (.customCall (Pipeline.entry 1) ())) Φ :=
  Pipeline.RegionSeg.wp (pcfgs (F := F)) adm (pdats m G3) none cellOf_inj EP defs₀ 𝒱₀ LL lvl (reg2 m G3) d none
    (by intro u hu; cases hu) (fun a => .ret a) Φ

/-- The same call as @main spells it, inside the SparseCore program's body table. -/
theorem wp_reg2 (d : Dev nD) (Φ : PUnit → sProp 𝕄) :
    iprop((iprop(boundary (T d) ∗ held (T d) (Pipeline.ucRefs τ sig) (W6 m G3 d) ∗ Rr (F := F) d 1) -∗ Φ ⟨⟩)
        ∗ boundary (T d) ∗ (held (T d) (Pipeline.ucRefs τ sig) (W5 m G3 d) ∗ Rr (F := F) d 1) ∗ levAts (LL (F := F)) (lvl (F := F))
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Φ := by
  refine .trans ?_ (wp_lift d 1 Φ)
  refine .trans ?_ (wp_reg2_in m G3 d Φ)
  rw [show (reg2 m G3).pre d = iprop(held (T d) (Pipeline.ucRefs τ sig) (W5 m G3 d) ∗ Rr (F := F) d 1) from rfl,
    show (reg2 m G3).post d = iprop(held (T d) (Pipeline.ucRefs τ sig) (W6 m G3 d) ∗ Rr (F := F) d 1) from rfl]
  iintro ⟨Hk, Hb, Hpre, Hlev, Hg, Ht⟩
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht

/-! ## The host operations' buffers are unscoped buffers of the TensorCore -/

theorem hsub0 : (op0 (F := F)).bufs ⊆ Pipeline.ucRefs τ sig := Pipeline.sub_ucRefs _ (StableHlo.unary_bufs_sub ..)
theorem hsub2 : (op2 (F := F)).bufs ⊆ Pipeline.ucRefs τ sig := Pipeline.sub_ucRefs _ (StableHlo.reshape_bufs_sub ..)
theorem hsub4 : (op4 (F := F)).bufs ⊆ Pipeline.ucRefs τ sig := Pipeline.sub_ucRefs _ (StableHlo.reshape_bufs_sub ..)
theorem hsub5 : (op5 (F := F)).bufs ⊆ Pipeline.ucRefs τ sig := Pipeline.sub_ucRefs _ (StableHlo.reshape_bufs_sub ..)
theorem hsub6 : (op6 (F := F)).bufs ⊆ Pipeline.ucRefs τ sig := Pipeline.sub_ucRefs _ (StableHlo.reshape_bufs_sub ..)
theorem hsub7 : (op7 (F := F)).bufs ⊆ Pipeline.ucRefs τ sig := Pipeline.sub_ucRefs _ (StableHlo.unary_bufs_sub ..)
theorem hsub8 : (op8 (F := F)).bufs ⊆ Pipeline.ucRefs τ sig := Pipeline.sub_ucRefs _ (StableHlo.reshape_bufs_sub ..)
theorem hsub9 : (op9 (F := F)).bufs ⊆ Pipeline.ucRefs τ sig := Pipeline.sub_ucRefs _ (StableHlo.reshape_bufs_sub ..)
theorem hsub10 : (op10 (F := F)).bufs ⊆ Pipeline.ucRefs τ sig := Pipeline.sub_ucRefs _ (StableHlo.reshape_bufs_sub ..)
theorem hsub11 : (op11 (F := F)).bufs ⊆ Pipeline.ucRefs τ sig := Pipeline.sub_ucRefs _ (StableHlo.reshape_bufs_sub ..)
theorem hsub12 : (op12 (F := F)).bufs ⊆ Pipeline.ucRefs τ sig := Pipeline.sub_ucRefs _ (StableHlo.reshape_bufs_sub ..)
theorem hsub13 : (op13 (F := F)).bufs ⊆ Pipeline.ucRefs τ sig := Pipeline.sub_ucRefs _ (StableHlo.reshape_bufs_sub ..)
theorem hsub14 : (op14 (F := F)).bufs ⊆ Pipeline.ucRefs τ sig := Pipeline.sub_ucRefs _ (StableHlo.reshape_bufs_sub ..)
theorem hsub15 : (op15 (F := F)).bufs ⊆ Pipeline.ucRefs τ sig := Pipeline.sub_ucRefs _ (StableHlo.reshape_bufs_sub ..)
theorem hsub16 : (op16 (F := F)).bufs ⊆ Pipeline.ucRefs τ sig := Pipeline.sub_ucRefs _ (StableHlo.reshape_bufs_sub ..)
theorem hsub18 : (op18 (F := F)).bufs ⊆ Pipeline.ucRefs τ sig := Pipeline.sub_ucRefs _ (StableHlo.reshape_bufs_sub ..)

/-! ## The handshake state, what the TensorCore owes apart -/

/-- What the TensorCore owes before call `n`, its recorded pairs bounded. -/
abbrev Ow (d : Dev nD) (n : ℕ) : sProp 𝕄 :=
  iprop(∃ W, ⌜(K (F := F)).WBelow (T d) W (8 * n)⌝ ∗ owes (T d) ((K (F := F)).Otc d n) W)

end Cert.Kernel.Sc

end
-- ==== Proof.Bits.ScGout.lean ====
/-
  What the result array must hold once the SparseCore call has ended: row `R` of its 131072 is the table's row that
  word `R` of the index list, read as 1024 × 128, names.
-/
import proofs.«208327_g62569083568895_cont_9to1c4b_407_46_alg».proof.Proof.Bits.ScPay
import Idealize.ShloMosaic.Lib.ValueIdx

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Row `R` of the result is the table's row named by word `R` of the reshaped index list (the remainder modulo the
    table's 8192 rows only makes the statement total). -/
def GoutOK (Tab : (d : Dev nD) → Buf (Elt F) (tabLoc d)) (Idx : (d : Dev nD) → Buf (Elt F) (idxLoc d)) (d : Dev nD) (g : Buf (Elt F) (outLoc d)) : Prop :=
  ∀ (R : Fin 131072) (j : Fin 128), g (ValueIdx.ix2 R j) = Tab d (ValueIdx.ix2 (⟨(Idx d (ValueIdx.ix2 (⟨R.val / 128, by omega⟩ : Fin 1024) (⟨R.val % 128, Nat.mod_lt _ (by decide)⟩ : Fin 128)) : BitVec 32).toNat % 8192, Nat.mod_lt _ (by decide)⟩ : Fin 8192) j)

end Cert.Kernel.Sc

end
-- ==== Proof.Bits.ScDeal.lean ====
/-
  The SparseCore call's operands between the TensorCore and the SparseCores: what it means that the three arrays the
  TensorCore holds whole split into what each SparseCore of the grid is handed and join back.
-/
import proofs.«208327_g62569083568895_cont_9to1c4b_407_46_alg».proof.Proof.Bits.ScPay
import proofs.«208327_g62569083568895_cont_9to1c4b_407_46_alg».proof.Proof.Bits.ScGout

set_option maxRecDepth 16384

noncomputable section

namespace Cert.Kernel.Sc

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.Pipeline (Dat Cfg Window BodyObligation BodyObligationLoose)

variable {F : FTy → Type} [FloatOps F]

local notation "𝕄" => MT nD τ sig (HIx 1) (Elt F) ℕ UU ℕ

/-- The SparseCore call's operands, held whole by the TensorCore, dealt to the SparseCores of the call's grid and
    gathered back: the table's full share is a remainder and one read share per SparseCore; the index list is the
    subcores' chunks; the result array, at any contents, is the subcores' blocks, which come back at the gathered rows
    and join to the array at contents that are the table's rows the index list names. -/
structure ScDeal (Tab : (d : Dev nD) → Buf (Elt F) (tabLoc d)) (Idx : (d : Dev nD) → Buf (Elt F) (idxLoc d)) (d : Dev nD) : Prop where
  split : ∀ f : Buf (Elt F) (outLoc d),
    iprop((tabLoc d ↦{fullShare} Tab d) ∗ (idxLoc d ↦{fullShare} Idx d) ∗ (outLoc d ↦{fullShare} f))
      ⊢ (iprop((tabLoc d ↦{Transfers.shareDrop fullShare 2} Tab d)
          ∗ bigSep Finset.univ fun c : Fin ((K (F := F)).nCore 0) => (P Tab Idx).st 0 d c) : sProp 𝕄)
  join :
    iprop((tabLoc d ↦{Transfers.shareDrop fullShare 2} Tab d)
        ∗ bigSep Finset.univ fun c : Fin ((K (F := F)).nCore 0) => (P Tab Idx).dn 0 d c)
      ⊢ (iprop((tabLoc d ↦{fullShare} Tab d) ∗ (idxLoc d ↦{fullShare} Idx d)
          ∗ ∃ g : Buf (Elt F) (outLoc d), (outLoc d ↦{fullShare} g) ∗ ⌜GoutOK Tab Idx d g⌝) : sProp 𝕄)

end Cert.Kernel.Sc

end
-- ==== Proof.Bits.ScMain4.lean ====
/-
  @main on the TensorCore inside the SparseCore launch: from what the launch deals the TensorCore, its handshake state
  before the SparseCore call and the two pipelines' ghost state, @main runs — the mask's conversion, the first
  pipeline's region, the reshape of the gather indices, the SparseCore call (the table, the index list and the result
  array dealt to the SparseCores and gathered back), thirteen host operations, the second pipeline's region, the last
  reshape — to the handshake state after the call and every unscoped buffer at the final contents.
-/
import proofs.«208327_g62569083568895_cont_9to1c4b_407_46_alg».proof.Proof.Bits.ScMain3
import proofs.«208327_g62569083568895_cont_9to1c4b_407_46_alg».proof.Proof.Bits.ScDeal

set_option maxRecDepth 16384

noncomputable section

namespace Cert.Kernel.Sc

open Cert.Kernel Cert.Kernel.Gen Cert.Kernel.Body

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.Pipeline (Dat Cfg Window BodyObligation BodyObligationLoose)

variable {F : FTy → Type} [FloatOps F]

local notation "𝕄" => MT nD τ sig (HIx 1) (Elt F) ℕ UU ℕ

variable [∀ e, Nonempty (Elt F e)]
variable (m : (ℓ : Loc nD τ sig) → Buf (Elt F) ℓ) (ρ : Dev nD → PrngReg)

/-! ## The handshake state, what the TensorCore owes apart -/

/-- The TensorCore's handshake state before call `n` but for what it owes: its position on its `done` cell, the rounds
    reached, the later calls' start tokens and credit. -/
abbrev tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] [∀ e, Nonempty (Elt F e)] in
theorem tcSt_eq (d : Dev nD) (n : ℕ) : ((K (F := F)).tcSt EH d n : sProp 𝕄) = iprop(Ow (F := F) d n ∗ tcRest (F := F) d n) := rfl

/-! ## The SparseCore call's three arrays among the unscoped buffers -/

abbrev tab' : DevRef τ sig := Proc.devRef .tc (main_v1_0 : Ref sig .tc)
abbrev idx' : DevRef τ sig := Proc.devRef .tc (main_v2 : Ref sig .tc)
abbrev out' : DevRef τ sig := Proc.devRef .tc (main_v3 : Ref sig .tc)
/-- The table, the index list, the result array. -/
abbrev T3 : Finset (DevRef τ sig) := {tab', idx', out'}
theorem T3_sub : T3 ⊆ Pipeline.ucRefs τ sig := by decide

omit [FloatOps F] [∀ e, Nonempty (Elt F e)] in
theorem held_T3 (d : Dev nD) (W : Valuation τ sig (Elt F)) :
    (held (SparseCore.T d) T3 W : sProp 𝕄) = iprop((tabLoc d ↦{fullShare} W tab') ∗ (idxLoc d ↦{fullShare} W idx') ∗ (outLoc d ↦{fullShare} W out')) := by
  unfold held T3
  rw [SparseCore.bigSep_insert' (by decide), SparseCore.bigSep_insert' (by decide), bigSep_singleton]

/-- A device's result array as a family over the devices: the given contents on the device, what the array held elsewhere. -/
def G3of (d : Dev nD) (g : Buf (Elt F) (outLoc d)) : (c : Dev nD) → Buf (Elt F) (outLoc c) :=
  fun c => if h : c = d then h ▸ g else W3 m c out'
theorem G3of_self (d : Dev nD) (g : Buf (Elt F) (outLoc d)) : G3of m d g d = g := by
  unfold G3of; rw [dif_pos rfl]

/-- Every unscoped buffer before the call: the three arrays and the rest. -/
theorem held_W3 (d : Dev nD) :
    (held (SparseCore.T d) (Pipeline.ucRefs τ sig) (W3 m d) : sProp 𝕄)
      = iprop(((tabLoc d ↦{fullShare} TabOf m d) ∗ (idxLoc d ↦{fullShare} IdxOf m d) ∗ (outLoc d ↦{fullShare} W3 m d out'))
          ∗ held (SparseCore.T d) (Pipeline.ucRefs τ sig \ T3) (W3 m d)) := by
  rw [StableHlo.held_sub_split (SparseCore.T d) T3_sub (W3 m d), held_T3]; rfl

/-- and after it: the result array at the gathered rows, everything else as it was. -/
theorem held_W4 (G3 : (d : Dev nD) → Buf (Elt F) (outLoc d)) (d : Dev nD) :
    (held (SparseCore.T d) (Pipeline.ucRefs τ sig) (W4 m G3 d) : sProp 𝕄)
      = iprop(((tabLoc d ↦{fullShare} TabOf m d) ∗ (idxLoc d ↦{fullShare} IdxOf m d) ∗ (outLoc d ↦{fullShare} G3 d))
          ∗ held (SparseCore.T d) (Pipeline.ucRefs τ sig \ T3) (W3 m d)) := by
  rw [StableHlo.held_sub_split (SparseCore.T d) T3_sub (W4 m G3 d), held_T3]
  have h1 : W4 m G3 d tab' = TabOf m d := Function.update_of_ne (show tab' ≠ out' by decide) _ _
  have h2 : W4 m G3 d idx' = IdxOf m d := Function.update_of_ne (show idx' ≠ out' by decide) _ _
  have h3 : W4 m G3 d out' = G3 d := Function.update_self _ _ _
  rw [h1, h2, h3, StableHlo.held_congr (SparseCore.T d) (S := Pipeline.ucRefs τ sig \ T3) (V := W4 m G3 d) (V' := W3 m d) fun b hb =>
    Function.update_of_ne (fun e => (Finset.mem_sdiff.mp hb).2 (by rw [e]; decide)) _ _]

/-- What the launch deals the TensorCore of its arrays: every unscoped buffer at the launch contents. -/
theorem unscoped_held0 (d : Dev nD) :
    (unscopedBufs d (fun b => m ((SparseCore.T d).loc b)) : sProp 𝕄) = held (SparseCore.T d) (Pipeline.ucRefs τ sig) (W0 m d) :=
  Pipeline.unscopedBufs_held (Ix := HIx 1) (Name := ℕ) (U := UU) (Lvl := ℕ) d (W0 m d)

/-! ## What @main leaves -/

/-- Every unscoped buffer of the TensorCore at the final contents, over a result of the SparseCore call that holds the
    table's rows the index list names. -/
def FIN (d : Dev nD) : sProp 𝕄 :=
  iprop(∃ g : Buf (Elt F) (outLoc d), ⌜GoutOK (TabOf m) (IdxOf m) d g⌝
    ∗ held (SparseCore.T d) (Pipeline.ucRefs τ sig) (W7 m (G3of m d g) d))

/-! ## @main -/

set_option maxHeartbeats 8000000 in
/-- @main on device `d`'s TensorCore. -/
theorem hmain (κ : GSem nD τ sig → ℕ) (d : Dev nD) (hdeal : ScDeal (TabOf m) (IdxOf m) d) :
    iprop((K (F := F)).ctx EH (P (TabOf m) (IdxOf m)) κ ∗ (K (F := F)).tcSt EH d 0 ∗ (K (F := F)).tcRes m ρ d ∗ Gtc (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [Gtc_split, unscoped_held0]
  simp only [main, wp_bind, wp_pure]
  iintro ⟨#Hctx, Hst, ⟨Hb, Hheld, -, Hprng⟩, ⟨Hg0, Ht0⟩, ⟨Hg1, Ht1⟩⟩
  ihave #Hlev := (SparseCore.Cfg.ctx_levAts κ) $$ Hctx
  ihave Hst' := (Entails.of_eq (tcSt_eq d 0)) $$ Hst
  icases Hst' with ⟨HOw, Hrest⟩
  -- the mask's conversion
  iapply (wp_hlo_within 𝒱 (SparseCore.T d) none Set.univ (op := op0) (S := Pipeline.ucRefs τ sig) hsub0 (V := W0 m d)) $$ [Hb Hheld]
  · isplitl [Hb] <;> iassumption
  iintro ⟨Hb, Hheld⟩
  rw [wp_ret]; imodintro
  -- the first pipeline
  iapply (wp_reg0 m d _)
  isplitr [Hb Hheld Hprng HOw Hg0 Ht0]
  swap
  · isplitl [Hb]; · iexact Hb
    isplitl [Hheld Hprng HOw]
    · isplitl [Hheld]; · iexact Hheld
      isplitl [Hprng]; · iexists _; iexact Hprng
      iexact HOw
    isplitr; · iexact Hlev
    isplitl [Hg0]; · iexact Hg0
    iexact Ht0
  iintro ⟨Hb, Hheld, ⟨%r0, Hprng⟩, HOw⟩
  -- the reshape of the gather indices
  iapply (wp_hlo_within 𝒱 (SparseCore.T d) none Set.univ (op := op2) (S := Pipeline.ucRefs τ sig) hsub2 (V := W2 m d)) $$ [Hb Hheld]
  · isplitl [Hb] <;> iassumption
  iintro ⟨Hb, Hheld⟩
  rw [wp_ret]; imodintro
  -- the SparseCore call: the three arrays to the SparseCores and back
  ihave Hh := (Entails.of_eq (held_W3 m d)) $$ Hheld
  icases Hh with ⟨H3, Hhrest⟩
  ihave Hsp := (hdeal.split _) $$ H3
  icases Hsp with ⟨Hdrop, Hstc⟩
  ihave Hst := (Entails.of_eq (tcSt_eq (F := F) d 0).symm) $$ [HOw Hrest]
  · isplitl [HOw] <;> iassumption
  iapply ((K (F := F)).wp_run (D (F := F)) 𝒱 (EH := EH) (P := P (TabOf m) (IdxOf m)) κ d 0)
  rw [show ((0 : Fin 1).val + 1) = 1 from rfl]
  isplitr; · iexact Hctx
  isplitl [Hst]; · iexact Hst
  isplitl [Hstc]; · iexact Hstc
  iintro ⟨Hst, Hdn⟩
  ihave Hj := hdeal.join $$ [Hdrop Hdn]
  · isplitl [Hdrop] <;> iassumption
  icases Hj with ⟨Htab, Hidx, ⟨%g, Hout, %hg⟩⟩
  ihave Hheld := (Entails.of_eq (held_W4 m (G3of m d g) d).symm) $$ [Htab Hidx Hout Hhrest]
  · isplitr [Hhrest]; swap; · iexact Hhrest
    isplitl [Htab]; · iexact Htab
    isplitl [Hidx]; · iexact Hidx
    rw [G3of_self]; iexact Hout
  ihave Hst' := (Entails.of_eq (tcSt_eq d 1)) $$ Hst
  icases Hst' with ⟨HOw, Hrest⟩
  -- the thirteen host operations
  iapply (wp_hlo_within 𝒱 (SparseCore.T d) none Set.univ (op := op4) (S := Pipeline.ucRefs τ sig) hsub4 (V := W4 m (G3of m d g) d)) $$ [Hb Hheld]
  · isplitl [Hb] <;> iassumption
  iintro ⟨Hb, Hheld⟩
  rw [wp_ret]; imodintro
  iapply (wp_hlo_within 𝒱 (SparseCore.T d) none Set.univ (op := op5) (S := Pipeline.ucRefs τ sig) hsub5 (V := (op4 (F := F)).result (W4 m (G3of m d g) d))) $$ [Hb Hheld]
  · isplitl [Hb] <;> iassumption
  iintro ⟨Hb, Hheld⟩
  rw [wp_ret]; imodintro
  iapply (wp_hlo_within 𝒱 (SparseCore.T d) none Set.univ (op := op6) (S := Pipeline.ucRefs τ sig) hsub6 (V := (op5 (F := F)).result ((op4 (F := F)).result (W4 m (G3of m d g) d)))) $$ [Hb Hheld]
  · isplitl [Hb] <;> iassumption
  iintro ⟨Hb, Hheld⟩
  rw [wp_ret]; imodintro
  iapply (wp_hlo_within 𝒱 (SparseCore.T d) none Set.univ (op := op7) (S := Pipeline.ucRefs τ sig) hsub7 (V := (op6 (F := F)).result ((op5 (F := F)).result ((op4 (F := F)).result (W4 m (G3of m d g) d))))) $$ [Hb Hheld]
  · isplitl [Hb] <;> iassumption
  iintro ⟨Hb, Hheld⟩
  rw [wp_ret]; imodintro
  iapply (wp_hlo_within 𝒱 (SparseCore.T d) none Set.univ (op := op8) (S := Pipeline.ucRefs τ sig) hsub8 (V := (op7 (F := F)).result ((op6 (F := F)).result ((op5 (F := F)).result ((op4 (F := F)).result (W4 m (G3of m d g) d)))))) $$ [Hb Hheld]
  · isplitl [Hb] <;> iassumption
  iintro ⟨Hb, Hheld⟩
  rw [wp_ret]; imodintro
  iapply (wp_hlo_within 𝒱 (SparseCore.T d) none Set.univ (op := op9) (S := Pipeline.ucRefs τ sig) hsub9 (V := (op8 (F := F)).result ((op7 (F := F)).result ((op6 (F := F)).result ((op5 (F := F)).result ((op4 (F := F)).result (W4 m (G3of m d g) d))))))) $$ [Hb Hheld]
  · isplitl [Hb] <;> iassumption
  iintro ⟨Hb, Hheld⟩
  rw [wp_ret]; imodintro
  iapply (wp_hlo_within 𝒱 (SparseCore.T d) none Set.univ (op := op10) (S := Pipeline.ucRefs τ sig) hsub10 (V := (op9 (F := F)).result ((op8 (F := F)).result ((op7 (F := F)).result ((op6 (F := F)).result ((op5 (F := F)).result ((op4 (F := F)).result (W4 m (G3of m d g) d)))))))) $$ [Hb Hheld]
  · isplitl [Hb] <;> iassumption
  iintro ⟨Hb, Hheld⟩
  rw [wp_ret]; imodintro
  iapply (wp_hlo_within 𝒱 (SparseCore.T d) none Set.univ (op := op11) (S := Pipeline.ucRefs τ sig) hsub11 (V := (op10 (F := F)).result ((op9 (F := F)).result ((op8 (F := F)).result ((op7 (F := F)).result ((op6 (F := F)).result ((op5 (F := F)).result ((op4 (F := F)).result (W4 m (G3of m d g) d))))))))) $$ [Hb Hheld]
  · isplitl [Hb] <;> iassumption
  iintro ⟨Hb, Hheld⟩
  rw [wp_ret]; imodintro
  iapply (wp_hlo_within 𝒱 (SparseCore.T d) none Set.univ (op := op12) (S := Pipeline.ucRefs τ sig) hsub12 (V := (op11 (F := F)).result ((op10 (F := F)).result ((op9 (F := F)).result ((op8 (F := F)).result ((op7 (F := F)).result ((op6 (F := F)).result ((op5 (F := F)).result ((op4 (F := F)).result (W4 m (G3of m d g) d)))))))))) $$ [Hb Hheld]
  · isplitl [Hb] <;> iassumption
  iintro ⟨Hb, Hheld⟩
  rw [wp_ret]; imodintro
  iapply (wp_hlo_within 𝒱 (SparseCore.T d) none Set.univ (op := op13) (S := Pipeline.ucRefs τ sig) hsub13 (V := (op12 (F := F)).result ((op11 (F := F)).result ((op10 (F := F)).result ((op9 (F := F)).result ((op8 (F := F)).result ((op7 (F := F)).result ((op6 (F := F)).result ((op5 (F := F)).result ((op4 (F := F)).result (W4 m (G3of m d g) d))))))))))) $$ [Hb Hheld]
  · isplitl [Hb] <;> iassumption
  iintro ⟨Hb, Hheld⟩
  rw [wp_ret]; imodintro
  iapply (wp_hlo_within 𝒱 (SparseCore.T d) none Set.univ (op := op14) (S := Pipeline.ucRefs τ sig) hsub14 (V := (op13 (F := F)).result ((op12 (F := F)).result ((op11 (F := F)).result ((op10 (F := F)).result ((op9 (F := F)).result ((op8 (F := F)).result ((op7 (F := F)).result ((op6 (F := F)).result ((op5 (F := F)).result ((op4 (F := F)).result (W4 m (G3of m d g) d)))))))))))) $$ [Hb Hheld]
  · isplitl [Hb] <;> iassumption
  iintro ⟨Hb, Hheld⟩
  rw [wp_ret]; imodintro
  iapply (wp_hlo_within 𝒱 (SparseCore.T d) none Set.univ (op := op15) (S := Pipeline.ucRefs τ sig) hsub15 (V := (op14 (F := F)).result ((op13 (F := F)).result ((op12 (F := F)).result ((op11 (F := F)).result ((op10 (F := F)).result ((op9 (F := F)).result ((op8 (F := F)).result ((op7 (F := F)).result ((op6 (F := F)).result ((op5 (F := F)).result ((op4 (F := F)).result (W4 m (G3of m d g) d))))))))))))) $$ [Hb Hheld]
  · isplitl [Hb] <;> iassumption
  iintro ⟨Hb, Hheld⟩
  rw [wp_ret]; imodintro
  iapply (wp_hlo_within 𝒱 (SparseCore.T d) none Set.univ (op := op16) (S := Pipeline.ucRefs τ sig) hsub16 (V := (op15 (F := F)).result ((op14 (F := F)).result ((op13 (F := F)).result ((op12 (F := F)).result ((op11 (F := F)).result ((op10 (F := F)).result ((op9 (F := F)).result ((op8 (F := F)).result ((op7 (F := F)).result ((op6 (F := F)).result ((op5 (F := F)).result ((op4 (F := F)).result (W4 m (G3of m d g) d)))))))))))))) $$ [Hb Hheld]
  · isplitl [Hb] <;> iassumption
  iintro ⟨Hb, Hheld⟩
  rw [wp_ret]; imodintro
  -- the second pipeline
  iapply (wp_reg2 m (G3of m d g) d _)
  isplitr [Hb Hheld Hprng HOw Hg1 Ht1]
  swap
  · isplitl [Hb]; · iexact Hb
    isplitl [Hheld Hprng HOw]
    · isplitl [Hheld]; · iexact Hheld
      isplitl [Hprng]; · iexists _; iexact Hprng
      iexact HOw
    isplitr; · iexact Hlev
    isplitl [Hg1]; · iexact Hg1
    iexact Ht1
  iintro ⟨Hb, Hheld, ⟨%r1, Hprng⟩, HOw⟩
  -- the last reshape
  iapply (wp_hlo_within 𝒱 (SparseCore.T d) none Set.univ (op := op18) (S := Pipeline.ucRefs τ sig) hsub18 (V := W6 m (G3of m d g) d)) $$ [Hb Hheld]
  · isplitl [Hb] <;> iassumption
  iintro ⟨Hb, Hheld⟩
  rw [wp_ret]; imodintro
  imodintro
  isplitl [HOw Hrest]
  · iapply (Entails.of_eq (tcSt_eq (F := F) d 1).symm)
    isplitl [HOw] <;> iassumption
  unfold FIN
  iexists g
  isplitr; · ipureintro; exact hg
  iexact Hheld

end Cert.Kernel.Sc

end
-- ==== Proof.Bits.ScMain5.lean ====
/-
  @main on the TensorCore, what the final state says: every unscoped buffer of the TensorCore reads its final contents
  in the fold, and the fold at each argument array walks back to the launch memory (no host operation and no region
  writes an argument: a region reads it through an input window or bypasses it).
-/
import proofs.«208327_g62569083568895_cont_9to1c4b_407_46_alg».proof.Proof.Bits.ScMain4

set_option maxRecDepth 16384

noncomputable section

namespace Cert.Kernel.Sc

open Cert.Kernel Cert.Kernel.Gen Cert.Kernel.Body

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.Pipeline (Dat Cfg Window BodyObligation BodyObligationLoose)

variable {F : FTy → Type} [FloatOps F]

local notation "𝕄" => MT nD τ sig (HIx 1) (Elt F) ℕ UU ℕ

variable [∀ e, Nonempty (Elt F e)]
variable (m : (ℓ : Loc nD τ sig) → Buf (Elt F) ℓ)

/-! ## The final assertion read against the final state -/

/-- What the final state of device `d` says: for a result of the SparseCore call holding the table's rows the index
    list names, every unscoped buffer of the TensorCore holds its final contents. -/
def fq (d : Dev nD) (s' : Phys nD τ sig (Elt F)) : Prop :=
  ∃ g : Buf (Elt F) (outLoc d), GoutOK (TabOf m) (IdxOf m) d g
    ∧ ∀ b ∈ Pipeline.ucRefs τ sig, s'.mem.mem ((d, b) : Loc nD τ sig) = W7 m (G3of m d g) d b

theorem hfin (d : Dev nD) (s' : Phys nD τ sig (Elt F)) : iprop(FIN m d ∗ SI s') ⊢ (⌜fq m d s'⌝ : sProp 𝕄) := by
  unfold FIN
  iintro ⟨⟨%g, %hg, Hh⟩, HSI⟩
  unfold StableHlo.held
  ihave H := (pointsTo_read_all (Pipeline.ucRefs τ sig) (fun b => ((d, b) : Loc nD τ sig)) (W7 m (G3of m d g) d) s') $$ [Hh HSI]
  · isplitl [Hh] <;> iassumption
  icases H with ⟨%h, -⟩
  ipureintro; exact ⟨g, hg, h⟩

/-- An unscoped TensorCore reference is among those the final assertion holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched -/

variable (G3 : (d : Dev nD) → Buf (Elt F) (outLoc d))

/-- What the thirteen operations between the SparseCore call and the second pipeline write. -/
abbrev wr5 : Finset (DevRef τ sig) := {Proc.devRef .tc (main_v4 : Ref sig .tc), Proc.devRef .tc (main_v5 : Ref sig .tc), Proc.devRef .tc (main_v6 : Ref sig .tc), Proc.devRef .tc (main_v7 : Ref sig .tc), Proc.devRef .tc (main_v8 : Ref sig .tc), Proc.devRef .tc (main_v9 : Ref sig .tc), Proc.devRef .tc (main_v10 : Ref sig .tc), Proc.devRef .tc (main_v11 : Ref sig .tc), Proc.devRef .tc (main_v12 : Ref sig .tc), Proc.devRef .tc (main_v13 : Ref sig .tc), Proc.devRef .tc (main_v14 : Ref sig .tc), Proc.devRef .tc (main_v15 : Ref sig .tc), Proc.devRef .tc (main_v16 : Ref sig .tc)}

omit [∀ e, Nonempty (Elt F e)] in
theorem ops5_not_writes {b : DevRef τ sig} (hb : b ∉ wr5) : ∀ op ∈ (ops5 (F := F)), b ∉ op.writes := by
  intro op hop hw
  apply hb
  simp only [ops5, List.mem_cons, List.not_mem_nil, or_false] at hop
  rcases hop with rfl | rfl | rfl | rfl | rfl | rfl | rfl | rfl | rfl | rfl | rfl | rfl | rfl
  all_goals (have e := Finset.mem_singleton.mp hw; subst e; decide)

omit [∀ e, Nonempty (Elt F e)] in
/-- The second pipeline's result array at the end: what its write-backs leave. -/
theorem W6_main_v17 (d : Dev nD) : W6 m G3 d (Proc.devRef .tc main_v17) = (D2 m G3 d).arrAt 19 cfg2.N := W6_arr m G3 d 19

omit [∀ e, Nonempty (Elt F e)] in
/-- @main's result: the reshape of the second pipeline's result array. -/
theorem W7_main_v18 (d : Dev nD) :
    W7 m G3 d (Proc.devRef .tc main_v18) = (op18 (F := F)).fn (fun b => W6 m G3 d b.1) ⟨Proc.devRef .tc main_v18, Finset.mem_singleton_self _⟩ :=
  (op18 (F := F)).result_of_mem _ _

omit [∀ e, Nonempty (Elt F e)] in
theorem W7_main_arg0 (d : Dev nD) : W7 m G3 d (Proc.devRef .tc main_arg0) = m ((SparseCore.T d).loc main_arg0) :=
  calc W7 m G3 d (Proc.devRef .tc main_arg0)
    _ = W6 m G3 d (Proc.devRef .tc main_arg0) := (op18 (F := F)).result_of_not_mem _ (show _ ∉ ({Proc.devRef .tc (main_v18 : Ref sig .tc)} : Finset (DevRef τ sig)) by decide)
    _ = W5 m G3 d (Proc.devRef .tc main_arg0) := W6_of_ne m G3 d main_arg0 (by decide)
    _ = W4 m G3 d (Proc.devRef .tc main_arg0) := StableHlo.after_of_forall_not_mem (b := Proc.devRef .tc main_arg0) _ _ (ops5_not_writes (by decide))
    _ = W3 m d (Proc.devRef .tc main_arg0) := Function.update_of_ne (by decide) _ _
    _ = W2 m d (Proc.devRef .tc main_arg0) := (op2 (F := F)).result_of_not_mem _ (show _ ∉ ({Proc.devRef .tc (main_v2 : Ref sig .tc)} : Finset (DevRef τ sig)) by decide)
    _ = W1 m d (Proc.devRef .tc main_arg0) := (W2_arr m d 0).trans (((D0 m d).arrAt_in 0 rfl _).trans (A_eq0 (V1 m) _ _ d 0))
    _ = W0 m d (Proc.devRef .tc main_arg0) := (op0 (F := F)).result_of_not_mem _ (show _ ∉ ({Proc.devRef .tc (main_v0 : Ref sig .tc)} : Finset (DevRef τ sig)) by decide)
    _ = m ((SparseCore.T d).loc main_arg0) := rfl

omit [∀ e, Nonempty (Elt F e)] in
theorem W7_main_arg1 (d : Dev nD) : W7 m G3 d (Proc.devRef .tc main_arg1) = m ((SparseCore.T d).loc main_arg1) :=
  calc W7 m G3 d (Proc.devRef .tc main_arg1)
    _ = W6 m G3 d (Proc.devRef .tc main_arg1) := (op18 (F := F)).result_of_not_mem _ (show _ ∉ ({Proc.devRef .tc (main_v18 : Ref sig .tc)} : Finset (DevRef τ sig)) by decide)
    _ = W5 m G3 d (Proc.devRef .tc main_arg1) := W6_of_ne m G3 d main_arg1 (by decide)
    _ = W4 m G3 d (Proc.devRef .tc main_arg1) := StableHlo.after_of_forall_not_mem (b := Proc.devRef .tc main_arg1) _ _ (ops5_not_writes (by decide))
    _ = W3 m d (Proc.devRef .tc main_arg1) := Function.update_of_ne (by decide) _ _
    _ = W2 m d (Proc.devRef .tc main_arg1) := (op2 (F := F)).result_of_not_mem _ (show _ ∉ ({Proc.devRef .tc (main_v2 : Ref sig .tc)} : Finset (DevRef τ sig)) by decide)
    _ = W1 m d (Proc.devRef .tc main_arg1) := (W2_arr m d 1).trans (((D0 m d).arrAt_in 1 rfl _).trans (A_eq0 (V1 m) _ _ d 1))
    _ = W0 m d (Proc.devRef .tc main_arg1) := (op0 (F := F)).result_of_not_mem _ (show _ ∉ ({Proc.devRef .tc (main_v0 : Ref sig .tc)} : Finset (DevRef τ sig)) by decide)
    _ = m ((SparseCore.T d).loc main_arg1) := rfl

omit [∀ e, Nonempty (Elt F e)] in
theorem W7_main_arg2 (d : Dev nD) : W7 m G3 d (Proc.devRef .tc main_arg2) = m ((SparseCore.T d).loc main_arg2) :=
  calc W7 m G3 d (Proc.devRef .tc main_arg2)
    _ = W6 m G3 d (Proc.devRef .tc main_arg2) := (op18 (F := F)).result_of_not_mem _ (show _ ∉ ({Proc.devRef .tc (main_v18 : Ref sig .tc)} : Finset (DevRef τ sig)) by decide)
    _ = W5 m G3 d (Proc.devRef .tc main_arg2) := W6_of_ne m G3 d main_arg2 (by decide)
    _ = W4 m G3 d (Proc.devRef .tc main_arg2) := StableHlo.after_of_forall_not_mem (b := Proc.devRef .tc main_arg2) _ _ (ops5_not_writes (by decide))
    _ = W3 m d (Proc.devRef .tc main_arg2) := Function.update_of_ne (by decide) _ _
    _ = W2 m d (Proc.devRef .tc main_arg2) := (op2 (F := F)).result_of_not_mem _ (show _ ∉ ({Proc.devRef .tc (main_v2 : Ref sig .tc)} : Finset (DevRef τ sig)) by decide)
    _ = W1 m d (Proc.devRef .tc main_arg2) := W2_of_ne m d main_arg2 (by decide)
    _ = W0 m d (Proc.devRef .tc main_arg2) := (op0 (F := F)).result_of_not_mem _ (show _ ∉ ({Proc.devRef .tc (main_v0 : Ref sig .tc)} : Finset (DevRef τ sig)) by decide)
    _ = m ((SparseCore.T d).loc main_arg2) := rfl

omit [∀ e, Nonempty (Elt F e)] in
theorem W7_main_arg3 (d : Dev nD) : W7 m G3 d (Proc.devRef .tc main_arg3) = m ((SparseCore.T d).loc main_arg3) :=
  calc W7 m G3 d (Proc.devRef .tc main_arg3)
    _ = W6 m G3 d (Proc.devRef .tc main_arg3) := (op18 (F := F)).result_of_not_mem _ (show _ ∉ ({Proc.devRef .tc (main_v18 : Ref sig .tc)} : Finset (DevRef τ sig)) by decide)
    _ = W5 m G3 d (Proc.devRef .tc main_arg3) := W6_of_ne m G3 d main_arg3 (by decide)
    _ = W4 m G3 d (Proc.devRef .tc main_arg3) := StableHlo.after_of_forall_not_mem (b := Proc.devRef .tc main_arg3) _ _ (ops5_not_writes (by decide))
    _ = W3 m d (Proc.devRef .tc main_arg3) := Function.update_of_ne (by decide) _ _
    _ = W2 m d (Proc.devRef .tc main_arg3) := (op2 (F := F)).result_of_not_mem _ (show _ ∉ ({Proc.devRef .tc (main_v2 : Ref sig .tc)} : Finset (DevRef τ sig)) by decide)
    _ = W1 m d (Proc.devRef .tc main_arg3) := (W2_arr m d 3).trans (((D0 m d).arrAt_in 3 rfl _).trans (A_eq0 (V1 m) _ _ d 3))
    _ = W0 m d (Proc.devRef .tc main_arg3) := (op0 (F := F)).result_of_not_mem _ (show _ ∉ ({Proc.devRef .tc (main_v0 : Ref sig .tc)} : Finset (DevRef τ sig)) by decide)
    _ = m ((SparseCore.T d).loc main_arg3) := rfl

omit [∀ e, Nonempty (Elt F e)] in
theorem W7_main_arg4 (d : Dev nD) : W7 m G3 d (Proc.devRef .tc main_arg4) = m ((SparseCore.T d).loc main_arg4) :=
  calc W7 m G3 d (Proc.devRef .tc main_arg4)
    _ = W6 m G3 d (Proc.devRef .tc main_arg4) := (op18 (F := F)).result_of_not_mem _ (show _ ∉ ({Proc.devRef .tc (main_v18 : Ref sig .tc)} : Finset (DevRef τ sig)) by decide)
    _ = W5 m G3 d (Proc.devRef .tc main_arg4) := W6_of_ne m G3 d main_arg4 (by decide)
    _ = W4 m G3 d (Proc.devRef .tc main_arg4) := StableHlo.after_of_forall_not_mem (b := Proc.devRef .tc main_arg4) _ _ (ops5_not_writes (by decide))
    _ = W3 m d (Proc.devRef .tc main_arg4) := Function.update_of_ne (by decide) _ _
    _ = W2 m d (Proc.devRef .tc main_arg4) := (op2 (F := F)).result_of_not_mem _ (show _ ∉ ({Proc.devRef .tc (main_v2 : Ref sig .tc)} : Finset (DevRef τ sig)) by decide)
    _ = W1 m d (Proc.devRef .tc main_arg4) := (W2_arr m d 2).trans (((D0 m d).arrAt_in 2 rfl _).trans (A_eq0 (V1 m) _ _ d 2))
    _ = W0 m d (Proc.devRef .tc main_arg4) := (op0 (F := F)).result_of_not_mem _ (show _ ∉ ({Proc.devRef .tc (main_v0 : Ref sig .tc)} : Finset (DevRef τ sig)) by decide)
    _ = m ((SparseCore.T d).loc main_arg4) := rfl

omit [∀ e, Nonempty (Elt F e)] in
theorem W7_main_arg5 (d : Dev nD) : W7 m G3 d (Proc.devRef .tc main_arg5) = m ((SparseCore.T d).loc main_arg5) :=
  calc W7 m G3 d (Proc.devRef .tc main_arg5)
    _ = W6 m G3 d (Proc.devRef .tc main_arg5) := (op18 (F := F)).result_of_not_mem _ (show _ ∉ ({Proc.devRef .tc (main_v18 : Ref sig .tc)} : Finset (DevRef τ sig)) by decide)
    _ = W5 m G3 d (Proc.devRef .tc main_arg5) := W6_of_ne m G3 d main_arg5 (by decide)
    _ = W4 m G3 d (Proc.devRef .tc main_arg5) := StableHlo.after_of_forall_not_mem (b := Proc.devRef .tc main_arg5) _ _ (ops5_not_writes (by decide))
    _ = W3 m d (Proc.devRef .tc main_arg5) := Function.update_of_ne (by decide) _ _
    _ = W2 m d (Proc.devRef .tc main_arg5) := (op2 (F := F)).result_of_not_mem _ (show _ ∉ ({Proc.devRef .tc (main_v2 : Ref sig .tc)} : Finset (DevRef τ sig)) by decide)
    _ = W1 m d (Proc.devRef .tc main_arg5) := W2_of_ne m d main_arg5 (by decide)
    _ = W0 m d (Proc.devRef .tc main_arg5) := (op0 (F := F)).result_of_not_mem _ (show _ ∉ ({Proc.devRef .tc (main_v0 : Ref sig .tc)} : Finset (DevRef τ sig)) by decide)
    _ = m ((SparseCore.T d).loc main_arg5) := rfl

omit [∀ e, Nonempty (Elt F e)] in
theorem W7_main_arg6 (d : Dev nD) : W7 m G3 d (Proc.devRef .tc main_arg6) = m ((SparseCore.T d).loc main_arg6) :=
  calc W7 m G3 d (Proc.devRef .tc main_arg6)
    _ = W6 m G3 d (Proc.devRef .tc main_arg6) := (op18 (F := F)).result_of_not_mem _ (show _ ∉ ({Proc.devRef .tc (main_v18 : Ref sig .tc)} : Finset (DevRef τ sig)) by decide)
    _ = W5 m G3 d (Proc.devRef .tc main_arg6) := W6_of_ne m G3 d main_arg6 (by decide)
    _ = W4 m G3 d (Proc.devRef .tc main_arg6) := StableHlo.after_of_forall_not_mem (b := Proc.devRef .tc main_arg6) _ _ (ops5_not_writes (by decide))
    _ = W3 m d (Proc.devRef .tc main_arg6) := Function.update_of_ne (by decide) _ _
    _ = W2 m d (Proc.devRef .tc main_arg6) := (op2 (F := F)).result_of_not_mem _ (show _ ∉ ({Proc.devRef .tc (main_v2 : Ref sig .tc)} : Finset (DevRef τ sig)) by decide)
    _ = W1 m d (Proc.devRef .tc main_arg6) := W2_of_ne m d main_arg6 (by decide)
    _ = W0 m d (Proc.devRef .tc main_arg6) := (op0 (F := F)).result_of_not_mem _ (show _ ∉ ({Proc.devRef .tc (main_v0 : Ref sig .tc)} : Finset (DevRef τ sig)) by decide)
    _ = m ((SparseCore.T d).loc main_arg6) := rfl

omit [∀ e, Nonempty (Elt F e)] in
theorem W7_main_arg7 (d : Dev nD) : W7 m G3 d (Proc.devRef .tc main_arg7) = m ((SparseCore.T d).loc main_arg7) :=
  calc W7 m G3 d (Proc.devRef .tc main_arg7)
    _ = W6 m G3 d (Proc.devRef .tc main_arg7) := (op18 (F := F)).result_of_not_mem _ (show _ ∉ ({Proc.devRef .tc (main_v18 : Ref sig .tc)} : Finset (DevRef τ sig)) by decide)
    _ = W5 m G3 d (Proc.devRef .tc main_arg7) := W6_of_ne m G3 d main_arg7 (by decide)
    _ = W4 m G3 d (Proc.devRef .tc main_arg7) := StableHlo.after_of_forall_not_mem (b := Proc.devRef .tc main_arg7) _ _ (ops5_not_writes (by decide))
    _ = W3 m d (Proc.devRef .tc main_arg7) := Function.update_of_ne (by decide) _ _
    _ = W2 m d (Proc.devRef .tc main_arg7) := (op2 (F := F)).result_of_not_mem _ (show _ ∉ ({Proc.devRef .tc (main_v2 : Ref sig .tc)} : Finset (DevRef τ sig)) by decide)
    _ = W1 m d (Proc.devRef .tc main_arg7) := (W2_arr m d 5).trans (((D0 m d).arrAt_in 5 rfl _).trans (A_eq0 (V1 m) _ _ d 5))
    _ = W0 m d (Proc.devRef .tc main_arg7) := (op0 (F := F)).result_of_not_mem _ (show _ ∉ ({Proc.devRef .tc (main_v0 : Ref sig .tc)} : Finset (DevRef τ sig)) by decide)
    _ = m ((SparseCore.T d).loc main_arg7) := rfl

omit [∀ e, Nonempty (Elt F e)] in
theorem W7_main_arg8 (d : Dev nD) : W7 m G3 d (Proc.devRef .tc main_arg8) = m ((SparseCore.T d).loc main_arg8) :=
  calc W7 m G3 d (Proc.devRef .tc main_arg8)
    _ = W6 m G3 d (Proc.devRef .tc main_arg8) := (op18 (F := F)).result_of_not_mem _ (show _ ∉ ({Proc.devRef .tc (main_v18 : Ref sig .tc)} : Finset (DevRef τ sig)) by decide)
    _ = W5 m G3 d (Proc.devRef .tc main_arg8) := W6_of_ne m G3 d main_arg8 (by decide)
    _ = W4 m G3 d (Proc.devRef .tc main_arg8) := StableHlo.after_of_forall_not_mem (b := Proc.devRef .tc main_arg8) _ _ (ops5_not_writes (by decide))
    _ = W3 m d (Proc.devRef .tc main_arg8) := Function.update_of_ne (by decide) _ _
    _ = W2 m d (Proc.devRef .tc main_arg8) := (op2 (F := F)).result_of_not_mem _ (show _ ∉ ({Proc.devRef .tc (main_v2 : Ref sig .tc)} : Finset (DevRef τ sig)) by decide)
    _ = W1 m d (Proc.devRef .tc main_arg8) := W2_of_ne m d main_arg8 (by decide)
    _ = W0 m d (Proc.devRef .tc main_arg8) := (op0 (F := F)).result_of_not_mem _ (show _ ∉ ({Proc.devRef .tc (main_v0 : Ref sig .tc)} : Finset (DevRef τ sig)) by decide)
    _ = m ((SparseCore.T d).loc main_arg8) := rfl

omit [∀ e, Nonempty (Elt F e)] in
theorem W7_main_arg9 (d : Dev nD) : W7 m G3 d (Proc.devRef .tc main_arg9) = m ((SparseCore.T d).loc main_arg9) :=
  calc W7 m G3 d (Proc.devRef .tc main_arg9)
    _ = W6 m G3 d (Proc.devRef .tc main_arg9) := (op18 (F := F)).result_of_not_mem _ (show _ ∉ ({Proc.devRef .tc (main_v18 : Ref sig .tc)} : Finset (DevRef τ sig)) by decide)
    _ = W5 m G3 d (Proc.devRef .tc main_arg9) := (W6_arr m G3 d 7).trans (((D2 m G3 d).arrAt_in 7 rfl _).trans (A_eq2 (V5 m G3) _ _ d 7))
    _ = W4 m G3 d (Proc.devRef .tc main_arg9) := StableHlo.after_of_forall_not_mem (b := Proc.devRef .tc main_arg9) _ _ (ops5_not_writes (by decide))
    _ = W3 m d (Proc.devRef .tc main_arg9) := Function.update_of_ne (by decide) _ _
    _ = W2 m d (Proc.devRef .tc main_arg9) := (op2 (F := F)).result_of_not_mem _ (show _ ∉ ({Proc.devRef .tc (main_v2 : Ref sig .tc)} : Finset (DevRef τ sig)) by decide)
    _ = W1 m d (Proc.devRef .tc main_arg9) := W2_of_ne m d main_arg9 (by decide)
    _ = W0 m d (Proc.devRef .tc main_arg9) := (op0 (F := F)).result_of_not_mem _ (show _ ∉ ({Proc.devRef .tc (main_v0 : Ref sig .tc)} : Finset (DevRef τ sig)) by decide)
    _ = m ((SparseCore.T d).loc main_arg9) := rfl

omit [∀ e, Nonempty (Elt F e)] in
theorem W7_main_arg10 (d : Dev nD) : W7 m G3 d (Proc.devRef .tc main_arg10) = m ((SparseCore.T d).loc main_arg10) :=
  calc W7 m G3 d (Proc.devRef .tc main_arg10)
    _ = W6 m G3 d (Proc.devRef .tc main_arg10) := (op18 (F := F)).result_of_not_mem _ (show _ ∉ ({Proc.devRef .tc (main_v18 : Ref sig .tc)} : Finset (DevRef τ sig)) by decide)
    _ = W5 m G3 d (Proc.devRef .tc main_arg10) := W6_of_ne m G3 d main_arg10 (by decide)
    _ = W4 m G3 d (Proc.devRef .tc main_arg10) := StableHlo.after_of_forall_not_mem (b := Proc.devRef .tc main_arg10) _ _ (ops5_not_writes (by decide))
    _ = W3 m d (Proc.devRef .tc main_arg10) := Function.update_of_ne (by decide) _ _
    _ = W2 m d (Proc.devRef .tc main_arg10) := (op2 (F := F)).result_of_not_mem _ (show _ ∉ ({Proc.devRef .tc (main_v2 : Ref sig .tc)} : Finset (DevRef τ sig)) by decide)
    _ = W1 m d (Proc.devRef .tc main_arg10) := W2_of_ne m d main_arg10 (by decide)
    _ = W0 m d (Proc.devRef .tc main_arg10) := (op0 (F := F)).result_of_not_mem _ (show _ ∉ ({Proc.devRef .tc (main_v0 : Ref sig .tc)} : Finset (DevRef τ sig)) by decide)
    _ = m ((SparseCore.T d).loc main_arg10) := rfl

omit [∀ e, Nonempty (Elt F e)] in
theorem W7_main_arg11 (d : Dev nD) : W7 m G3 d (Proc.devRef .tc main_arg11) = m ((SparseCore.T d).loc main_arg11) :=
  calc W7 m G3 d (Proc.devRef .tc main_arg11)
    _ = W6 m G3 d (Proc.devRef .tc main_arg11) := (op18 (F := F)).result_of_not_mem _ (show _ ∉ ({Proc.devRef .tc (main_v18 : Ref sig .tc)} : Finset (DevRef τ sig)) by decide)
    _ = W5 m G3 d (Proc.devRef .tc main_arg11) := (W6_arr m G3 d 9).trans (((D2 m G3 d).arrAt_in 9 rfl _).trans (A_eq2 (V5 m G3) _ _ d 9))
    _ = W4 m G3 d (Proc.devRef .tc main_arg11) := StableHlo.after_of_forall_not_mem (b := Proc.devRef .tc main_arg11) _ _ (ops5_not_writes (by decide))
    _ = W3 m d (Proc.devRef .tc main_arg11) := Function.update_of_ne (by decide) _ _
    _ = W2 m d (Proc.devRef .tc main_arg11) := (op2 (F := F)).result_of_not_mem _ (show _ ∉ ({Proc.devRef .tc (main_v2 : Ref sig .tc)} : Finset (DevRef τ sig)) by decide)
    _ = W1 m d (Proc.devRef .tc main_arg11) := W2_of_ne m d main_arg11 (by decide)
    _ = W0 m d (Proc.devRef .tc main_arg11) := (op0 (F := F)).result_of_not_mem _ (show _ ∉ ({Proc.devRef .tc (main_v0 : Ref sig .tc)} : Finset (DevRef τ sig)) by decide)
    _ = m ((SparseCore.T d).loc main_arg11) := rfl

omit [∀ e, Nonempty (Elt F e)] in
theorem W7_main_arg12 (d : Dev nD) : W7 m G3 d (Proc.devRef .tc main_arg12) = m ((SparseCore.T d).loc main_arg12) :=
  calc W7 m G3 d (Proc.devRef .tc main_arg12)
    _ = W6 m G3 d (Proc.devRef .tc main_arg12) := (op18 (F := F)).result_of_not_mem _ (show _ ∉ ({Proc.devRef .tc (main_v18 : Ref sig .tc)} : Finset (DevRef τ sig)) by decide)
    _ = W5 m G3 d (Proc.devRef .tc main_arg12) := W6_of_ne m G3 d main_arg12 (by decide)
    _ = W4 m G3 d (Proc.devRef .tc main_arg12) := StableHlo.after_of_forall_not_mem (b := Proc.devRef .tc main_arg12) _ _ (ops5_not_writes (by decide))
    _ = W3 m d (Proc.devRef .tc main_arg12) := Function.update_of_ne (by decide) _ _
    _ = W2 m d (Proc.devRef .tc main_arg12) := (op2 (F := F)).result_of_not_mem _ (show _ ∉ ({Proc.devRef .tc (main_v2 : Ref sig .tc)} : Finset (DevRef τ sig)) by decide)
    _ = W1 m d (Proc.devRef .tc main_arg12) := W2_of_ne m d main_arg12 (by decide)
    _ = W0 m d (Proc.devRef .tc main_arg12) := (op0 (F := F)).result_of_not_mem _ (show _ ∉ ({Proc.devRef .tc (main_v0 : Ref sig .tc)} : Finset (DevRef τ sig)) by decide)
    _ = m ((SparseCore.T d).loc main_arg12) := rfl

omit [∀ e, Nonempty (Elt F e)] in
theorem W7_main_arg13 (d : Dev nD) : W7 m G3 d (Proc.devRef .tc main_arg13) = m ((SparseCore.T d).loc main_arg13) :=
  calc W7 m G3 d (Proc.devRef .tc main_arg13)
    _ = W6 m G3 d (Proc.devRef .tc main_arg13) := (op18 (F := F)).result_of_not_mem _ (show _ ∉ ({Proc.devRef .tc (main_v18 : Ref sig .tc)} : Finset (DevRef τ sig)) by decide)
    _ = W5 m G3 d (Proc.devRef .tc main_arg13) := (W6_arr m G3 d 11).trans (((D2 m G3 d).arrAt_in 11 rfl _).trans (A_eq2 (V5 m G3) _ _ d 11))
    _ = W4 m G3 d (Proc.devRef .tc main_arg13) := StableHlo.after_of_forall_not_mem (b := Proc.devRef .tc main_arg13) _ _ (ops5_not_writes (by decide))
    _ = W3 m d (Proc.devRef .tc main_arg13) := Function.update_of_ne (by decide) _ _
    _ = W2 m d (Proc.devRef .tc main_arg13) := (op2 (F := F)).result_of_not_mem _ (show _ ∉ ({Proc.devRef .tc (main_v2 : Ref sig .tc)} : Finset (DevRef τ sig)) by decide)
    _ = W1 m d (Proc.devRef .tc main_arg13) := W2_of_ne m d main_arg13 (by decide)
    _ = W0 m d (Proc.devRef .tc main_arg13) := (op0 (F := F)).result_of_not_mem _ (show _ ∉ ({Proc.devRef .tc (main_v0 : Ref sig .tc)} : Finset (DevRef τ sig)) by decide)
    _ = m ((SparseCore.T d).loc main_arg13) := rfl

omit [∀ e, Nonempty (Elt F e)] in
theorem W7_main_arg14 (d : Dev nD) : W7 m G3 d (Proc.devRef .tc main_arg14) = m ((SparseCore.T d).loc main_arg14) :=
  calc W7 m G3 d (Proc.devRef .tc main_arg14)
    _ = W6 m G3 d (Proc.devRef .tc main_arg14) := (op18 (F := F)).result_of_not_mem _ (show _ ∉ ({Proc.devRef .tc (main_v18 : Ref sig .tc)} : Finset (DevRef τ sig)) by decide)
    _ = W5 m G3 d (Proc.devRef .tc main_arg14) := W6_of_ne m G3 d main_arg14 (by decide)
    _ = W4 m G3 d (Proc.devRef .tc main_arg14) := StableHlo.after_of_forall_not_mem (b := Proc.devRef .tc main_arg14) _ _ (ops5_not_writes (by decide))
    _ = W3 m d (Proc.devRef .tc main_arg14) := Function.update_of_ne (by decide) _ _
    _ = W2 m d (Proc.devRef .tc main_arg14) := (op2 (F := F)).result_of_not_mem _ (show _ ∉ ({Proc.devRef .tc (main_v2 : Ref sig .tc)} : Finset (DevRef τ sig)) by decide)
    _ = W1 m d (Proc.devRef .tc main_arg14) := W2_of_ne m d main_arg14 (by decide)
    _ = W0 m d (Proc.devRef .tc main_arg14) := (op0 (F := F)).result_of_not_mem _ (show _ ∉ ({Proc.devRef .tc (main_v0 : Ref sig .tc)} : Finset (DevRef τ sig)) by decide)
    _ = m ((SparseCore.T d).loc main_arg14) := rfl

omit [∀ e, Nonempty (Elt F e)] in
theorem W7_main_arg15 (d : Dev nD) : W7 m G3 d (Proc.devRef .tc main_arg15) = m ((SparseCore.T d).loc main_arg15) :=
  calc W7 m G3 d (Proc.devRef .tc main_arg15)
    _ = W6 m G3 d (Proc.devRef .tc main_arg15) := (op18 (F := F)).result_of_not_mem _ (show _ ∉ ({Proc.devRef .tc (main_v18 : Ref sig .tc)} : Finset (DevRef τ sig)) by decide)
    _ = W5 m G3 d (Proc.devRef .tc main_arg15) := (W6_arr m G3 d 13).trans (((D2 m G3 d).arrAt_in 13 rfl _).trans (A_eq2 (V5 m G3) _ _ d 13))
    _ = W4 m G3 d (Proc.devRef .tc main_arg15) := StableHlo.after_of_forall_not_mem (b := Proc.devRef .tc main_arg15) _ _ (ops5_not_writes (by decide))
    _ = W3 m d (Proc.devRef .tc main_arg15) := Function.update_of_ne (by decide) _ _
    _ = W2 m d (Proc.devRef .tc main_arg15) := (op2 (F := F)).result_of_not_mem _ (show _ ∉ ({Proc.devRef .tc (main_v2 : Ref sig .tc)} : Finset (DevRef τ sig)) by decide)
    _ = W1 m d (Proc.devRef .tc main_arg15) := W2_of_ne m d main_arg15 (by decide)
    _ = W0 m d (Proc.devRef .tc main_arg15) := (op0 (F := F)).result_of_not_mem _ (show _ ∉ ({Proc.devRef .tc (main_v0 : Ref sig .tc)} : Finset (DevRef τ sig)) by decide)
    _ = m ((SparseCore.T d).loc main_arg15) := rfl

omit [∀ e, Nonempty (Elt F e)] in
theorem W7_main_arg16 (d : Dev nD) : W7 m G3 d (Proc.devRef .tc main_arg16) = m ((SparseCore.T d).loc main_arg16) :=
  calc W7 m G3 d (Proc.devRef .tc main_arg16)
    _ = W6 m G3 d (Proc.devRef .tc main_arg16) := (op18 (F := F)).result_of_not_mem _ (show _ ∉ ({Proc.devRef .tc (main_v18 : Ref sig .tc)} : Finset (DevRef τ sig)) by decide)
    _ = W5 m G3 d (Proc.devRef .tc main_arg16) := W6_of_ne m G3 d main_arg16 (by decide)
    _ = W4 m G3 d (Proc.devRef .tc main_arg16) := StableHlo.after_of_forall_not_mem (b := Proc.devRef .tc main_arg16) _ _ (ops5_not_writes (by decide))
    _ = W3 m d (Proc.devRef .tc main_arg16) := Function.update_of_ne (by decide) _ _
    _ = W2 m d (Proc.devRef .tc main_arg16) := (op2 (F := F)).result_of_not_mem _ (show _ ∉ ({Proc.devRef .tc (main_v2 : Ref sig .tc)} : Finset (DevRef τ sig)) by decide)
    _ = W1 m d (Proc.devRef .tc main_arg16) := W2_of_ne m d main_arg16 (by decide)
    _ = W0 m d (Proc.devRef .tc main_arg16) := (op0 (F := F)).result_of_not_mem _ (show _ ∉ ({Proc.devRef .tc (main_v0 : Ref sig .tc)} : Finset (DevRef τ sig)) by decide)
    _ = m ((SparseCore.T d).loc main_arg16) := rfl

omit [∀ e, Nonempty (Elt F e)] in
theorem W7_main_arg17 (d : Dev nD) : W7 m G3 d (Proc.devRef .tc main_arg17) = m ((SparseCore.T d).loc main_arg17) :=
  calc W7 m G3 d (Proc.devRef .tc main_arg17)
    _ = W6 m G3 d (Proc.devRef .tc main_arg17) := (op18 (F := F)).result_of_not_mem _ (show _ ∉ ({Proc.devRef .tc (main_v18 : Ref sig .tc)} : Finset (DevRef τ sig)) by decide)
    _ = W5 m G3 d (Proc.devRef .tc main_arg17) := W6_of_ne m G3 d main_arg17 (by decide)
    _ = W4 m G3 d (Proc.devRef .tc main_arg17) := StableHlo.after_of_forall_not_mem (b := Proc.devRef .tc main_arg17) _ _ (ops5_not_writes (by decide))
    _ = W3 m d (Proc.devRef .tc main_arg17) := Function.update_of_ne (by decide) _ _
    _ = W2 m d (Proc.devRef .tc main_arg17) := (op2 (F := F)).result_of_not_mem _ (show _ ∉ ({Proc.devRef .tc (main_v2 : Ref sig .tc)} : Finset (DevRef τ sig)) by decide)
    _ = W1 m d (Proc.devRef .tc main_arg17) := W2_of_ne m d main_arg17 (by decide)
    _ = W0 m d (Proc.devRef .tc main_arg17) := (op0 (F := F)).result_of_not_mem _ (show _ ∉ ({Proc.devRef .tc (main_v0 : Ref sig .tc)} : Finset (DevRef τ sig)) by decide)
    _ = m ((SparseCore.T d).loc main_arg17) := rfl

omit [∀ e, Nonempty (Elt F e)] in
theorem W7_main_arg18 (d : Dev nD) : W7 m G3 d (Proc.devRef .tc main_arg18) = m ((SparseCore.T d).loc main_arg18) :=
  calc W7 m G3 d (Proc.devRef .tc main_arg18)
    _ = W6 m G3 d (Proc.devRef .tc main_arg18) := (op18 (F := F)).result_of_not_mem _ (show _ ∉ ({Proc.devRef .tc (main_v18 : Ref sig .tc)} : Finset (DevRef τ sig)) by decide)
    _ = W5 m G3 d (Proc.devRef .tc main_arg18) := W6_of_ne m G3 d main_arg18 (by decide)
    _ = W4 m G3 d (Proc.devRef .tc main_arg18) := StableHlo.after_of_forall_not_mem (b := Proc.devRef .tc main_arg18) _ _ (ops5_not_writes (by decide))
    _ = W3 m d (Proc.devRef .tc main_arg18) := Function.update_of_ne (by decide) _ _
    _ = W2 m d (Proc.devRef .tc main_arg18) := (op2 (F := F)).result_of_not_mem _ (show _ ∉ ({Proc.devRef .tc (main_v2 : Ref sig .tc)} : Finset (DevRef τ sig)) by decide)
    _ = W1 m d (Proc.devRef .tc main_arg18) := W2_of_ne m d main_arg18 (by decide)
    _ = W0 m d (Proc.devRef .tc main_arg18) := (op0 (F := F)).result_of_not_mem _ (show _ ∉ ({Proc.devRef .tc (main_v0 : Ref sig .tc)} : Finset (DevRef τ sig)) by decide)
    _ = m ((SparseCore.T d).loc main_arg18) := rfl

omit [∀ e, Nonempty (Elt F e)] in
theorem W7_main_arg19 (d : Dev nD) : W7 m G3 d (Proc.devRef .tc main_arg19) = m ((SparseCore.T d).loc main_arg19) :=
  calc W7 m G3 d (Proc.devRef .tc main_arg19)
    _ = W6 m G3 d (Proc.devRef .tc main_arg19) := (op18 (F := F)).result_of_not_mem _ (show _ ∉ ({Proc.devRef .tc (main_v18 : Ref sig .tc)} : Finset (DevRef τ sig)) by decide)
    _ = W5 m G3 d (Proc.devRef .tc main_arg19) := W6_of_ne m G3 d main_arg19 (by decide)
    _ = W4 m G3 d (Proc.devRef .tc main_arg19) := StableHlo.after_of_forall_not_mem (b := Proc.devRef .tc main_arg19) _ _ (ops5_not_writes (by decide))
    _ = W3 m d (Proc.devRef .tc main_arg19) := Function.update_of_ne (by decide) _ _
    _ = W2 m d (Proc.devRef .tc main_arg19) := (op2 (F := F)).result_of_not_mem _ (show _ ∉ ({Proc.devRef .tc (main_v2 : Ref sig .tc)} : Finset (DevRef τ sig)) by decide)
    _ = W1 m d (Proc.devRef .tc main_arg19) := W2_of_ne m d main_arg19 (by decide)
    _ = W0 m d (Proc.devRef .tc main_arg19) := (op0 (F := F)).result_of_not_mem _ (show _ ∉ ({Proc.devRef .tc (main_v0 : Ref sig .tc)} : Finset (DevRef τ sig)) by decide)
    _ = m ((SparseCore.T d).loc main_arg19) := rfl

omit [∀ e, Nonempty (Elt F e)] in
theorem W7_main_arg20 (d : Dev nD) : W7 m G3 d (Proc.devRef .tc main_arg20) = m ((SparseCore.T d).loc main_arg20) :=
  calc W7 m G3 d (Proc.devRef .tc main_arg20)
    _ = W6 m G3 d (Proc.devRef .tc main_arg20) := (op18 (F := F)).result_of_not_mem _ (show _ ∉ ({Proc.devRef .tc (main_v18 : Ref sig .tc)} : Finset (DevRef τ sig)) by decide)
    _ = W5 m G3 d (Proc.devRef .tc main_arg20) := W6_of_ne m G3 d main_arg20 (by decide)
    _ = W4 m G3 d (Proc.devRef .tc main_arg20) := StableHlo.after_of_forall_not_mem (b := Proc.devRef .tc main_arg20) _ _ (ops5_not_writes (by decide))
    _ = W3 m d (Proc.devRef .tc main_arg20) := Function.update_of_ne (by decide) _ _
    _ = W2 m d (Proc.devRef .tc main_arg20) := (op2 (F := F)).result_of_not_mem _ (show _ ∉ ({Proc.devRef .tc (main_v2 : Ref sig .tc)} : Finset (DevRef τ sig)) by decide)
    _ = W1 m d (Proc.devRef .tc main_arg20) := W2_of_ne m d main_arg20 (by decide)
    _ = W0 m d (Proc.devRef .tc main_arg20) := (op0 (F := F)).result_of_not_mem _ (show _ ∉ ({Proc.devRef .tc (main_v0 : Ref sig .tc)} : Finset (DevRef τ sig)) by decide)
    _ = m ((SparseCore.T d).loc main_arg20) := rfl

end Cert.Kernel.Sc

end
-- ==== Proof.Bits.ScGeom.lean ====
/-
  The index list and the result array as the subcores' pieces. Subcore `s` of SparseCore `c` holds rows
  `64 s + 32 c … + 32` of the index list's 1024 and, for each of its 32 rounds `k`, rows
  `8192 s + 4096 c + 128 k … + 128` of the result's 131072: the pieces are pairwise disjoint and cover the arrays.
-/
import proofs.«208327_g62569083568895_cont_9to1c4b_407_46_alg».proof.Proof.Bits.ScPay

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

namespace Geom

/-! ## The index list's chunks -/

theorem mem_idxChunk (L : grid1.Coords) (i : S1024x128.Idx) :
    i ∈ (idxChunk L).view.set ↔ 64 * (L 1).val + 32 * (L 0).val ≤ (i 0).val ∧ (i 0).val < 64 * (L 1).val + 32 * (L 0).val + 32 := by
  rw [show (idxChunk L).view.set = (Rect.unit (s := S1024x128) (k1_off1 L) S32x128.size (k1_off1_inb L)).set from View.set_slice_whole _ _,
    Rect.mem_set_unit, k1_off1_eq, Fin.forall_fin_two]
  have h1 : (i 1).val < 128 := (i 1).isLt
  show (64 * (L 1).val + 32 * (L 0).val ≤ (i 0).val ∧ (i 0).val < 64 * (L 1).val + 32 * (L 0).val + 32) ∧ (0 ≤ (i 1).val ∧ (i 1).val < 0 + 128) ↔ _
  exact ⟨fun h => h.1, fun h => ⟨h, Nat.zero_le _, by omega⟩⟩

theorem idxChunk_disjoint {c c' : Fin (grid1.bound 0)} {s s' : Fin (grid1.bound 1)} (h : (c, s) ≠ (c', s')) :
    Disjoint (idxChunk (coordsV c s)).view.set (idxChunk (coordsV c' s')).view.set := by
  rw [Finset.disjoint_left]
  intro i hi hi'
  rw [mem_idxChunk] at hi hi'
  have hc : c.val < 2 := c.isLt
  have hc' : c'.val < 2 := c'.isLt
  change 64 * s.val + 32 * c.val ≤ (i 0).val ∧ (i 0).val < 64 * s.val + 32 * c.val + 32 at hi
  change 64 * s'.val + 32 * c'.val ≤ (i 0).val ∧ (i 0).val < 64 * s'.val + 32 * c'.val + 32 at hi'
  exact h (Prod.ext (Fin.ext (show c.val = c'.val by omega)) (Fin.ext (show s.val = s'.val by omega)))

theorem idxChunk_cover (i : S1024x128.Idx) : ∃ (c : Fin (grid1.bound 0)) (s : Fin (grid1.bound 1)), i ∈ (idxChunk (coordsV c s)).view.set := by
  have h0 : (i 0).val < 1024 := (i 0).isLt
  refine ⟨⟨(i 0).val % 64 / 32, by show _ < 2; omega⟩, ⟨(i 0).val / 64, by show _ < 16; omega⟩, ?_⟩
  rw [mem_idxChunk]
  show 64 * ((i 0).val / 64) + 32 * ((i 0).val % 64 / 32) ≤ (i 0).val ∧ (i 0).val < 64 * ((i 0).val / 64) + 32 * ((i 0).val % 64 / 32) + 32
  omega

/-! ## The result's blocks -/

theorem mem_outBlk (L : grid1.Coords) (k : Fin k1_t1_loop.trips) (i : S131072x128.Idx) :
    i ∈ (outBlk L k).view.set ↔ 8192 * (L 1).val + 4096 * (L 0).val + 128 * k.val ≤ (i 0).val ∧ (i 0).val < 8192 * (L 1).val + 4096 * (L 0).val + 128 * k.val + 128 := by
  rw [show (outBlk L k).view.set = (Rect.unit (s := S131072x128) (k1_off8 L k) S128x128.size (k1_off8_inb L k)).set from View.set_slice_whole _ _,
    Rect.mem_set_unit, k1_off8_eq, Fin.forall_fin_two]
  have h1 : (i 1).val < 128 := (i 1).isLt
  show (8192 * (L 1).val + 4096 * (L 0).val + 128 * k.val ≤ (i 0).val ∧ (i 0).val < 8192 * (L 1).val + 4096 * (L 0).val + 128 * k.val + 128) ∧ (0 ≤ (i 1).val ∧ (i 1).val < 0 + 128) ↔ _
  exact ⟨fun h => h.1, fun h => ⟨h, Nat.zero_le _, by omega⟩⟩

theorem outBlk_disjoint {c c' : Fin (grid1.bound 0)} {s s' : Fin (grid1.bound 1)} {k k' : Fin k1_t1_loop.trips} (h : (c, s, k) ≠ (c', s', k')) :
    Disjoint (outBlk (coordsV c s) k).view.set (outBlk (coordsV c' s') k').view.set := by
  rw [Finset.disjoint_left]
  intro i hi hi'
  rw [mem_outBlk] at hi hi'
  have hc : c.val < 2 := c.isLt
  have hc' : c'.val < 2 := c'.isLt
  have hk : k.val < 32 := k.isLt
  have hk' : k'.val < 32 := k'.isLt
  change 8192 * s.val + 4096 * c.val + 128 * k.val ≤ (i 0).val ∧ (i 0).val < 8192 * s.val + 4096 * c.val + 128 * k.val + 128 at hi
  change 8192 * s'.val + 4096 * c'.val + 128 * k'.val ≤ (i 0).val ∧ (i 0).val < 8192 * s'.val + 4096 * c'.val + 128 * k'.val + 128 at hi'
  exact h (Prod.ext (Fin.ext (show c.val = c'.val by omega)) (Prod.ext (Fin.ext (show s.val = s'.val by omega)) (Fin.ext (show k.val = k'.val by omega))))

theorem outBlk_cover (i : S131072x128.Idx) :
    ∃ (c : Fin (grid1.bound 0)) (s : Fin (grid1.bound 1)) (k : Fin k1_t1_loop.trips), i ∈ (outBlk (coordsV c s) k).view.set := by
  have h0 : (i 0).val < 131072 := (i 0).isLt
  refine ⟨⟨(i 0).val % 8192 / 4096, by show _ < 2; omega⟩, ⟨(i 0).val / 8192, by show _ < 16; omega⟩, ⟨(i 0).val % 4096 / 128, by show _ < 32; omega⟩, ?_⟩
  rw [mem_outBlk]
  show 8192 * ((i 0).val / 8192) + 4096 * ((i 0).val % 8192 / 4096) + 128 * ((i 0).val % 4096 / 128) ≤ (i 0).val
    ∧ (i 0).val < 8192 * ((i 0).val / 8192) + 4096 * ((i 0).val % 8192 / 4096) + 128 * ((i 0).val % 4096 / 128) + 128
  omega

end Geom

end Cert.Kernel.Sc

end
-- ==== Proof.Bits.ScGoutPf.lean ====
import proofs.«208327_g62569083568895_cont_9to1c4b_407_46_alg».proof.Proof.Bits.ScGout
import Idealize.ShloMosaic.Lib.ValueIdx

noncomputable section

namespace Cert.Kernel.Sc

open Cert.Kernel Cert.Kernel.Gen

open Idealize.ShloMosaic Idealize.ShloMosaic.ValueIdx
open Idealize.ShloMosaic.SparseCore (S V T)
open Idealize.SL.Sem

variable {F : FTy → Type}

/-! The gather kernel's result as one array: every row of the result lies in exactly one block of one subcore, and
what that block holds at the row is the table's row that the matching word of the index list names. -/

namespace GoutPf

/-- Block `k` of subcore `(c, s)` read at `(ρ, j)` is the result array at row `8192 s + 4096 c + 128 k + ρ`. -/
theorem read_outBlk (d : Dev nD) (c : Fin (grid1.bound 0)) (s : Fin (grid1.bound 1)) (k : Fin k1_t1_loop.trips)
    (g : Buf (Elt F) (outLoc d)) (ρ j : Fin 128) (R : Fin 131072)
    (hR : R.val = 8192 * s.val + 4096 * c.val + 128 * k.val + ρ.val) :
    View.read (Elt F) (outBlk (coordsV c s) k).view g (ix2 ρ j) = g (ix2 R j) := by
  refine congrArg g (funext fun a => Fin.ext ?_)
  match a with
  | ⟨0, _⟩ =>
    show k1_off8 (coordsV c s) k 0 + 1 * ρ.val = R.val
    rw [k1_off8_eq]
    show (8192 * s.val + 4096 * c.val + 128 * k.val) + 1 * ρ.val = R.val
    omega
  | ⟨1, _⟩ =>
    show k1_off8 (coordsV c s) k 1 + 1 * j.val = j.val
    rw [k1_off8_eq]
    show 0 + 1 * j.val = j.val
    omega

/-- Word `ρ` of row `k` of subcore `(c, s)`'s rows of the index list is word `(64 s + 32 c + k, ρ)` of the list. -/
theorem read_chunkRow (d : Dev nD) (c : Fin (grid1.bound 0)) (s : Fin (grid1.bound 1)) (k : Fin k1_t1_loop.trips)
    (f : Buf (Elt F) (idxLoc d)) (ρ : Fin 128) (Q : Fin 1024) (hQ : Q.val = 64 * s.val + 32 * c.val + k.val) :
    View.read (Elt F) (chunkRow (coordsV c s) k).view f (ix1 ρ) = f (ix2 Q ρ) := by
  have e : Shape.reshapeEquiv (s := S1x128) (s' := S128) squeezes_S1x128_S128.numel_eq (ix1 ρ) = ix2 (0 : Fin 1) ρ :=
    Shape.reshapeEquiv_eq_of_rowMajor _ (by
      rw [Shape.rowMajor_val_two, Shape.rowMajor_val_one]
      show 0 * 128 + ρ.val = ρ.val
      omega)
  show f ((Memref.whole main_v2_scv : Memref sig .scVector .hbm S1024x128 .i32).view.emb
    ((Rect.unit (s := S1024x128) (k1_off1 (coordsV c s)) S32x128.size (k1_off1_inb _)).emb
      ((Rect.unit (s := S32x128) ![k.val, 0] S1x128.size (inb_chunkRow k)).emb
        (Shape.reshapeEquiv squeezes_S1x128_S128.numel_eq (ix1 ρ))))) = _
  rw [e]
  refine congrArg f (funext fun a => Fin.ext ?_)
  match a with
  | ⟨0, _⟩ =>
    show k1_off1 (coordsV c s) 0 + 1 * (k.val + 1 * 0) = Q.val
    rw [k1_off1_eq]
    show (64 * s.val + 32 * c.val) + 1 * (k.val + 1 * 0) = Q.val
    omega
  | ⟨1, _⟩ =>
    show k1_off1 (coordsV c s) 1 + 1 * (0 + 1 * ρ.val) = ρ.val
    rw [k1_off1_eq]
    show 0 + 1 * (0 + 1 * ρ.val) = ρ.val
    omega

/-- The row-major position `ρ` of a rank-1 shape is the index `ρ`. -/
theorem rowMajor_symm_ix1 (ρ : Fin 128) (h : S128.numel = 128) : S128.rowMajor.symm (ρ.cast h.symm) = ix1 ρ := by
  rw [Equiv.symm_apply_eq]
  apply Fin.ext
  rw [Shape.rowMajor_val_one]
  rfl

variable (Tab : (d : Dev nD) → Buf (Elt F) (tabLoc d)) (Idx : (d : Dev nD) → Buf (Elt F) (idxLoc d))

/-- What block `k` of subcore `(c, s)` must hold, at `(ρ, j)`: the table at the row that word `(64 s + 32 c + k, ρ)` of
    the index list names, column `j`. -/
theorem expBlk_apply (d : Dev nD) (c : Fin (grid1.bound 0)) (s : Fin (grid1.bound 1)) (k : Fin k1_t1_loop.trips)
    (hb : ∀ x, (View.read (Elt F) (chunkRow (coordsV c s) k).view (Idx d) x).toNat < S8192x128.size gathers_S8192x128_S128x128.axis)
    (ρ j : Fin 128) (Q : Fin 1024) (hQ : Q.val = 64 * s.val + 32 * c.val + k.val) (T : Fin 8192)
    (hT : T.val = (Idx d (ix2 Q ρ) : BitVec 32).toNat) :
    ExpBlk Tab Idx d (coordsV c s) k hb (ix2 ρ j) = Tab d (ix2 T j) := by
  unfold ExpBlk SparseCore.gatherPayload
  refine congrArg (Tab d) (funext fun a => Fin.ext ?_)
  match a with
  | ⟨0, _⟩ =>
    have e := Shape.Gathers.idx_axis gathers_S8192x128_S128x128
      (SparseCore.rows (View.read (Elt F) (chunkRow (coordsV c s) k).view (Idx d)) rfl hb) (ix2 ρ j)
    refine (congrArg Fin.val e).trans ?_
    show (View.read (Elt F) (chunkRow (coordsV c s) k).view (Idx d) (S128.rowMajor.symm (ρ.cast _))).toNat = T.val
    rw [rowMajor_symm_ix1 ρ rfl, read_chunkRow d c s k (Idx d) ρ Q hQ, hT]
  | ⟨1, _⟩ =>
    exact Shape.Gathers.idx_of_ne gathers_S8192x128_S128x128
      (SparseCore.rows (View.read (Elt F) (chunkRow (coordsV c s) k).view (Idx d)) rfl hb) (ix2 ρ j) ⟨1, by decide⟩ (by decide)

end GoutPf

open GoutPf

/-- The blocks' contents, subcore by subcore and block by block, give the whole result array row by row. -/
theorem gout_of_blocks (Tab : (d : Dev nD) → Buf (Elt F) (tabLoc d)) (Idx : (d : Dev nD) → Buf (Elt F) (idxLoc d)) (d : Dev nD)
    (g : Buf (Elt F) (outLoc d))
    (h : ∀ (c : Fin (grid1.bound 0)) (s : Fin (grid1.bound 1)) (k : Fin k1_t1_loop.trips) hb,
      View.read (Elt F) (outBlk (coordsV c s) k).view g = ExpBlk Tab Idx d (coordsV c s) k hb)
    (hIdx : ∀ x, ((Memref.whole main_v2_scv : Memref sig .scVector .hbm S1024x128 .i32).view.read (Elt F) (Idx d) x).toNat < 8192) :
    GoutOK Tab Idx d g := by
  intro R j
  have hRlt : R.val < 131072 := R.isLt
  have hb : ∀ (c : Fin (grid1.bound 0)) (s : Fin (grid1.bound 1)) (k : Fin k1_t1_loop.trips) x,
      (View.read (Elt F) (chunkRow (coordsV c s) k).view (Idx d) x).toNat < S8192x128.size gathers_S8192x128_S128x128.axis :=
    fun c s k x => hIdx _
  have hblk := congrFun (h ⟨(R.val / 4096) % 2, Nat.mod_lt _ (by decide)⟩ ⟨R.val / 8192, by show R.val / 8192 < 16; omega⟩
    ⟨(R.val / 128) % 32, Nat.mod_lt _ (by decide)⟩ (hb _ _ _)) (ix2 (⟨R.val % 128, Nat.mod_lt _ (by decide)⟩ : Fin 128) j)
  rw [read_outBlk d _ _ _ g _ j R (by show R.val = 8192 * (R.val / 8192) + 4096 * ((R.val / 4096) % 2) + 128 * ((R.val / 128) % 32) + R.val % 128; omega)] at hblk
  rw [hblk]
  have hw : (Idx d (ix2 (⟨R.val / 128, by omega⟩ : Fin 1024) (⟨R.val % 128, Nat.mod_lt _ (by decide)⟩ : Fin 128)) : BitVec 32).toNat < 8192 := hIdx _
  exact expBlk_apply Tab Idx d _ _ _ _ _ j ⟨R.val / 128, by omega⟩
    (by show R.val / 128 = 64 * (R.val / 8192) + 32 * ((R.val / 4096) % 2) + (R.val / 128) % 32; omega) _
    (by show _ % 8192 = _; exact Nat.mod_eq_of_lt hw)

end Cert.Kernel.Sc

end
-- ==== Proof.Bits.ScDealCore.lean ====
/-
  The SparseCore call's operands between the TensorCore and the SparseCores. The table's full share is a remainder and
  one read share per SparseCore. The index list is the subcores' chunks, which are pairwise disjoint and cover it. The
  result array is the subcores' blocks, likewise; the blocks come back each at contents of its own that read, through
  the block, as the gathered rows; joined, the array is at contents that agree with each block's on the block, so each
  block of it reads as the gathered rows, which is what the whole array must hold.
-/
import proofs.«208327_g62569083568895_cont_9to1c4b_407_46_alg».proof.Proof.Bits.ScGeom
import proofs.«208327_g62569083568895_cont_9to1c4b_407_46_alg».proof.Proof.Bits.ScGoutPf

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

variable [FloatOps F]

namespace Geom

abbrev T2 : Type := Fin (grid1.bound 0) × Fin (grid1.bound 1)
abbrev T3 : Type := Fin (grid1.bound 0) × Fin (grid1.bound 1) × Fin k1_t1_loop.trips

omit [FloatOps F] in
theorem flat2 (Ψ : T2 → sProp 𝕄) :
    bigSep Finset.univ Ψ = bigSep Finset.univ fun c : Fin (grid1.bound 0) => bigSep Finset.univ fun s : Fin (grid1.bound 1) => Ψ (c, s) :=
  bigSep_univ_prod Ψ

omit [FloatOps F] in
theorem flat3 (Ψ : T3 → sProp 𝕄) :
    bigSep Finset.univ Ψ = bigSep Finset.univ fun c : Fin (grid1.bound 0) => bigSep Finset.univ fun s : Fin (grid1.bound 1) =>
      bigSep Finset.univ fun k : Fin k1_t1_loop.trips => Ψ (c, s, k) := by
  rw [bigSep_univ_prod]
  exact bigSep_congr fun c _ => bigSep_univ_prod (fun sk : Fin (grid1.bound 1) × Fin k1_t1_loop.trips => Ψ (c, sk))

/-- A subcore's chunk of the index list and its blocks of the result, as sets of the arrays' indices. -/
abbrev idxSet (d : Dev nD) (t : T2) : Finset (Idealize.ShloMosaic.Idx (idxLoc d)) := (idxChunk (coordsV t.1 t.2)).view.set
abbrev outSet (d : Dev nD) (t : T3) : Finset (Idealize.ShloMosaic.Idx (outLoc d)) := (outBlk (coordsV t.1 t.2.1) t.2.2).view.set

theorem idx_disj (d : Dev nD) : ∀ t ∈ (Finset.univ : Finset T2), ∀ t' ∈ (Finset.univ : Finset T2), t ≠ t' → Disjoint (idxSet d t) (idxSet d t') :=
  fun ⟨_, _⟩ _ ⟨_, _⟩ _ h => idxChunk_disjoint h
theorem out_disj (d : Dev nD) : ∀ t ∈ (Finset.univ : Finset T3), ∀ t' ∈ (Finset.univ : Finset T3), t ≠ t' → Disjoint (outSet d t) (outSet d t') :=
  fun ⟨_, _, _⟩ _ ⟨_, _, _⟩ _ h => outBlk_disjoint h

theorem idx_cover (d : Dev nD) : (Finset.univ : Finset T2).biUnion (idxSet d) = Finset.univ := by
  ext i
  simp only [Finset.mem_biUnion, Finset.mem_univ, true_and, iff_true]
  obtain ⟨c, s, h⟩ := idxChunk_cover i
  exact ⟨(c, s), h⟩
theorem out_cover (d : Dev nD) : (Finset.univ : Finset T3).biUnion (outSet d) = Finset.univ := by
  ext i
  simp only [Finset.mem_biUnion, Finset.mem_univ, true_and, iff_true]
  obtain ⟨c, s, k, h⟩ := outBlk_cover i
  exact ⟨(c, s, k), h⟩

omit [FloatOps F] in
/-- The index list whole is the subcores' chunks. -/
theorem idx_split (d : Dev nD) (f : Buf (Elt F) (idxLoc d)) :
    (idxLoc d ↦{fullShare} f : sProp 𝕄)
      = bigSep Finset.univ fun c : Fin (grid1.bound 0) => bigSep Finset.univ fun s : Fin (grid1.bound 1) =>
          idxLoc d ↦[(idxChunk (coordsV c s)).view.set]{fullShare} f := by
  have e : (idxLoc d ↦[(Finset.univ : Finset T2).biUnion (idxSet d)]{fullShare} f : sProp 𝕄)
      = bigSep Finset.univ fun t : T2 => idxLoc d ↦[idxSet d t]{fullShare} f := pointsTo_biUnion Finset.univ (idxSet d) (idx_disj d)
  rw [idx_cover] at e
  exact e.trans (flat2 (fun t : T2 => idxLoc d ↦[idxSet d t]{fullShare} f))

omit [FloatOps F] in
/-- The result array whole is the subcores' blocks. -/
theorem out_split (d : Dev nD) (f : Buf (Elt F) (outLoc d)) :
    (outLoc d ↦{fullShare} f : sProp 𝕄)
      = bigSep Finset.univ fun c : Fin (grid1.bound 0) => bigSep Finset.univ fun s : Fin (grid1.bound 1) =>
          bigSep Finset.univ fun k : Fin k1_t1_loop.trips => outLoc d ↦[(outBlk (coordsV c s) k).view.set]{fullShare} f := by
  have e : (outLoc d ↦[(Finset.univ : Finset T3).biUnion (outSet d)]{fullShare} f : sProp 𝕄)
      = bigSep Finset.univ fun t : T3 => outLoc d ↦[outSet d t]{fullShare} f := pointsTo_biUnion Finset.univ (outSet d) (out_disj d)
  rw [out_cover] at e
  exact e.trans (flat3 (fun t : T3 => outLoc d ↦[outSet d t]{fullShare} f))

/-- The blocks, each written with its gathered rows, are the result array at contents that hold what they must. -/
theorem out_join (d : Dev nD)
    (hIdx : ∀ x, ((Memref.whole main_v2_scv : Memref sig .scVector .hbm S1024x128 .i32).view.read (Elt F) (Idx d) x).toNat < 8192) :
    (bigSep Finset.univ fun c : Fin (grid1.bound 0) => bigSep Finset.univ fun s : Fin (grid1.bound 1) =>
        bigSep Finset.univ fun k : Fin k1_t1_loop.trips => BlkDone Tab Idx d (coordsV c s) k)
      ⊢ (iprop(∃ g : Buf (Elt F) (outLoc d), (outLoc d ↦{fullShare} g) ∗ ⌜GoutOK Tab Idx d g⌝) : sProp 𝕄) := by
  have e : (bigSep Finset.univ fun c : Fin (grid1.bound 0) => bigSep Finset.univ fun s : Fin (grid1.bound 1) =>
        bigSep Finset.univ fun k : Fin k1_t1_loop.trips => BlkDone Tab Idx d (coordsV c s) k)
      = bigSep Finset.univ fun t : T3 => BlkDone Tab Idx d (coordsV t.1 t.2.1) t.2.2 :=
    (flat3 (fun t : T3 => BlkDone Tab Idx d (coordsV t.1 t.2.1) t.2.2)).symm
  rw [e]
  refine (bigSep_exists_pi Finset.univ (fun (t : T3) (f : Buf (Elt F) (outLoc d)) =>
    iprop((outLoc d ↦[outSet d t]{fullShare} f)
      ∗ ⌜∀ hb, View.read (Elt F) (outBlk (coordsV t.1 t.2.1) t.2.2).view f = ExpBlk Tab Idx d (coordsV t.1 t.2.1) t.2.2 hb⌝))).trans ?_
  iintro ⟨%fs, H⟩
  have hswap : (bigSep Finset.univ fun t : T3 => iprop((outLoc d ↦[outSet d t]{fullShare} fs t)
        ∗ ⌜∀ hb, View.read (Elt F) (outBlk (coordsV t.1 t.2.1) t.2.2).view (fs t) = ExpBlk Tab Idx d (coordsV t.1 t.2.1) t.2.2 hb⌝))
      ⊢ (iprop(⌜∀ t ∈ (Finset.univ : Finset T3), ∀ hb, View.read (Elt F) (outBlk (coordsV t.1 t.2.1) t.2.2).view (fs t) = ExpBlk Tab Idx d (coordsV t.1 t.2.1) t.2.2 hb⌝
          ∗ bigSep Finset.univ fun t : T3 => outLoc d ↦[outSet d t]{fullShare} fs t) : sProp 𝕄) :=
    (bigSep_mono fun t _ => Idealize.SL.BI.sep_comm).trans
      (bigSep_pure_sep Finset.univ
        (fun t : T3 => ∀ hb, View.read (Elt F) (outBlk (coordsV t.1 t.2.1) t.2.2).view (fs t) = ExpBlk Tab Idx d (coordsV t.1 t.2.1) t.2.2 hb)
        (fun t : T3 => (outLoc d ↦[outSet d t]{fullShare} fs t : sProp 𝕄)))
  ihave H2 := hswap $$ H
  icases H2 with ⟨%hφ, Hpts⟩
  ihave H3 := (pointsTo_biUnion_join (Finset.univ : Finset T3) (outSet d) fs (fs (⟨0, Nat.succ_pos 1⟩, ⟨0, Nat.succ_pos 15⟩, ⟨0, Nat.succ_pos 31⟩)) (out_disj d)) $$ Hpts
  icases H3 with ⟨%g, %hg, Hg⟩
  rw [out_cover]
  iexists g
  isplitl [Hg]; · iexact Hg
  ipureintro
  refine gout_of_blocks Tab Idx d g (fun c s k hb => ?_) hIdx
  rw [← hφ (c, s, k) (Finset.mem_univ _) hb]
  exact View.read_congr fun i hi => hg (c, s, k) (Finset.mem_univ _) i hi

end Geom

/-! ## The deal and the gathering -/

theorem deal_split (d : Dev nD) (f : Buf (Elt F) (outLoc d)) :
    iprop((tabLoc d ↦{fullShare} Tab d) ∗ (idxLoc d ↦{fullShare} Idx d) ∗ (outLoc d ↦{fullShare} f))
      ⊢ (iprop((tabLoc d ↦{Transfers.shareDrop fullShare 2} Tab d)
          ∗ bigSep Finset.univ fun c : Fin (grid1.bound 0) => stCore Tab Idx d c) : sProp 𝕄) := by
  unfold stCore
  rw [bigSep_sep', bigSep_sep', Geom.idx_split, Geom.out_split]
  iintro ⟨Htab, Hidx, Hout⟩
  ihave Ht := (Transfers.pointsTo_toks_split (ℓ := tabLoc d) (S := Finset.univ) (f := Tab d) fullShare 2) $$ Htab
  icases Ht with ⟨Hdrop, Htoks⟩
  isplitl [Hdrop]; · iexact Hdrop
  isplitl [Htoks]; · iexact Htoks
  isplitl [Hidx]; · iexact Hidx
  iapply (SparseCore.ent (bigSep_mono fun c _ => bigSep_mono fun s _ => bigSep_mono fun k _ =>
    BI.BIClass.exists_intro (Φ := fun g : Buf (Elt F) (outLoc d) => (outLoc d ↦[(outBlk (coordsV c s) k).view.set]{fullShare} g : sProp 𝕄)) f))
  iexact Hout

theorem deal_join (d : Dev nD)
    (hIdx : ∀ x, ((Memref.whole main_v2_scv : Memref sig .scVector .hbm S1024x128 .i32).view.read (Elt F) (Idx d) x).toNat < 8192) :
    iprop((tabLoc d ↦{Transfers.shareDrop fullShare 2} Tab d)
        ∗ bigSep Finset.univ fun c : Fin (grid1.bound 0) => dnCore Tab Idx d c)
      ⊢ (iprop((tabLoc d ↦{fullShare} Tab d) ∗ (idxLoc d ↦{fullShare} Idx d)
          ∗ ∃ g : Buf (Elt F) (outLoc d), (outLoc d ↦{fullShare} g) ∗ ⌜GoutOK Tab Idx d g⌝) : sProp 𝕄) := by
  unfold dnCore
  rw [bigSep_sep', bigSep_sep', Geom.idx_split (F := F) d (Idx d)]
  iintro ⟨Hdrop, Htoks, Hidx, Hout⟩
  isplitl [Hdrop Htoks]
  · iapply (Transfers.pointsTo_toks_join (ℓ := tabLoc d) (S := Finset.univ) (f := Tab d) fullShare 2)
    isplitl [Hdrop]; · iexact Hdrop
    iexact Htoks
  isplitl [Hidx]; · iexact Hidx
  iapply (Geom.out_join Tab Idx d hIdx); iexact Hout

end Cert.Kernel.Sc

end
-- ==== Proof.Bits.ScDealPf.lean ====
/-
  The SparseCore call's operands are dealt to the SparseCores and gathered back.
-/
import proofs.«208327_g62569083568895_cont_9to1c4b_407_46_alg».proof.Proof.Bits.ScDeal
import proofs.«208327_g62569083568895_cont_9to1c4b_407_46_alg».proof.Proof.Bits.ScDealCore

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

variable [FloatOps F]

theorem scDeal (d : Dev nD)
    (hIdx : ∀ x, ((Memref.whole main_v2_scv : Memref sig .scVector .hbm S1024x128 .i32).view.read (Elt F) (Idx d) x).toNat < 8192) :
    ScDeal Tab Idx d where
  split := fun f => deal_split Tab Idx d f
  join := deal_join Tab Idx d hIdx

end Cert.Kernel.Sc

end
-- ==== Proof.Bits.ScGtc.lean ====
/-
  What the launch element hands @main on a device is what @main's proof starts from: the pipelines' configurations
  pinned at their admissions are the configurations.
-/
import proofs.«208327_g62569083568895_cont_9to1c4b_407_46_alg».proof.Proof.Bits.ScElem
import proofs.«208327_g62569083568895_cont_9to1c4b_407_46_alg».proof.Proof.Bits.ScMain3

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (Tab : (d : Dev nD) → Buf (Elt F) (tabLoc d)) (Idx : (d : Dev nD) → Buf (Elt F) (idxLoc d))

variable [FloatOps F]

theorem G_eq_Gtc (d : Dev nD) : G (F := F) d = Gtc (F := F) d := rfl

end Cert.Kernel.Sc

end
-- ==== Proof.Bits.KerGlueB0.lean ====
import proofs.«208327_g62569083568895_cont_9to1c4b_407_46_alg».proof.Proof.Bits.ScMain1
import Idealize.ShloMosaic.Lib.ValueIdx
import Idealize.ShloMosaic.Lib.Pipeline.Value

set_option maxRecDepth 16384

noncomputable section

namespace Cert.KerSideB

open Cert.Kernel Cert.Kernel.Gen Cert.Kernel.Body Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open scoped BigOperators

/-! The tables kernel's three result arrays: the region has one point and its blocks are the whole arrays, so each result
array ends at the body's output over the entry arrays. -/

theorem idx_facts0 : ∀ t : Fin cfg0.N,
    win0_0.index t (0 : Fin 3) = 0
    ∧ win0_0.index t (1 : Fin 3) = 0
    ∧ win0_0.index t (2 : Fin 3) = 0
    ∧ win0_1.index t (0 : Fin 3) = 0
    ∧ win0_1.index t (1 : Fin 3) = 0
    ∧ win0_1.index t (2 : Fin 3) = 0
    ∧ win0_2.index t (0 : Fin 3) = 0
    ∧ win0_2.index t (1 : Fin 3) = 0
    ∧ win0_2.index t (2 : Fin 3) = 0
    ∧ win0_3.index t (0 : Fin 3) = 0
    ∧ win0_3.index t (1 : Fin 3) = 0
    ∧ win0_3.index t (2 : Fin 3) = 0
    ∧ win0_4.index t (0 : Fin 3) = 0
    ∧ win0_4.index t (1 : Fin 3) = 0
    ∧ win0_4.index t (2 : Fin 3) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 3) = 0
    ∧ win0_8.index t (1 : Fin 3) = 0
    ∧ win0_8.index t (2 : Fin 3) = 0 :=
  (by decide +kernel : ∀ t : Fin grid0.N, _)

section R0
variable {F : FTy → Type} [FloatOps F]
variable (V : (c : Dev nD) → (b : Ref sig .tc) → Buf (Elt F) ((c : Thread nD τ).loc b))

theorem iblk0_0_eq (c : Dev nD) (t : Fin cfg0.N) : iblk0 V c 0 t = V c main_arg0 := by
  funext j
  show V c main_arg0 (((cfg0.win 0).blk t).view.emb j) = _
  refine congrArg (V c main_arg0) ?_
  obtain ⟨e0, e1, e2, -, -, -, -, -, -, -, -, -, -, -, -, -, -, -, -, -, -, -, -, -⟩ := idx_facts0 t
  funext ax; apply Fin.ext
  match ax with
  | ⟨0, _⟩ => show win0_0.index t (0 : Fin 3) * 2 + 1 * (j 0).val = (j 0).val; omega
  | ⟨1, _⟩ => show win0_0.index t (1 : Fin 3) * 2048 + 1 * (j 1).val = (j 1).val; omega
  | ⟨2, _⟩ => show win0_0.index t (2 : Fin 3) * 128 + 1 * (j 2).val = (j 2).val; omega

theorem iblk0_1_eq (c : Dev nD) (t : Fin cfg0.N) : iblk0 V c 1 t = V c main_arg1 := by
  funext j
  show V c main_arg1 (((cfg0.win 1).blk t).view.emb j) = _
  refine congrArg (V c main_arg1) ?_
  obtain ⟨-, -, -, e0, e1, e2, -, -, -, -, -, -, -, -, -, -, -, -, -, -, -, -, -, -⟩ := idx_facts0 t
  funext ax; apply Fin.ext
  match ax with
  | ⟨0, _⟩ => show win0_1.index t (0 : Fin 3) * 2 + 1 * (j 0).val = (j 0).val; omega
  | ⟨1, _⟩ => show win0_1.index t (1 : Fin 3) * 2048 + 1 * (j 1).val = (j 1).val; omega
  | ⟨2, _⟩ => show win0_1.index t (2 : Fin 3) * 128 + 1 * (j 2).val = (j 2).val; omega

theorem iblk0_2_eq (c : Dev nD) (t : Fin cfg0.N) : iblk0 V c 2 t = V c main_arg4 := by
  funext j
  show V c main_arg4 (((cfg0.win 2).blk t).view.emb j) = _
  refine congrArg (V c main_arg4) ?_
  obtain ⟨-, -, -, -, -, -, e0, e1, e2, -, -, -, -, -, -, -, -, -, -, -, -, -, -, -⟩ := idx_facts0 t
  funext ax; apply Fin.ext
  match ax with
  | ⟨0, _⟩ => show win0_2.index t (0 : Fin 3) * 2 + 1 * (j 0).val = (j 0).val; omega
  | ⟨1, _⟩ => show win0_2.index t (1 : Fin 3) * 2048 + 1 * (j 1).val = (j 1).val; omega
  | ⟨2, _⟩ => show win0_2.index t (2 : Fin 3) * 128 + 1 * (j 2).val = (j 2).val; omega

theorem iblk0_3_eq (c : Dev nD) (t : Fin cfg0.N) : iblk0 V c 3 t = V c main_arg3 := by
  funext j
  show V c main_arg3 (((cfg0.win 3).blk t).view.emb j) = _
  refine congrArg (V c main_arg3) ?_
  obtain ⟨-, -, -, -, -, -, -, -, -, e0, e1, e2, -, -, -, -, -, -, -, -, -, -, -, -⟩ := idx_facts0 t
  funext ax; apply Fin.ext
  match ax with
  | ⟨0, _⟩ => show win0_3.index t (0 : Fin 3) * 2 + 1 * (j 0).val = (j 0).val; omega
  | ⟨1, _⟩ => show win0_3.index t (1 : Fin 3) * 2048 + 1 * (j 1).val = (j 1).val; omega
  | ⟨2, _⟩ => show win0_3.index t (2 : Fin 3) * 32 + 1 * (j 2).val = (j 2).val; omega

theorem iblk0_4_eq (c : Dev nD) (t : Fin cfg0.N) : iblk0 V c 4 t = V c main_v0 := by
  funext j
  show V c main_v0 (((cfg0.win 4).blk t).view.emb j) = _
  refine congrArg (V c main_v0) ?_
  obtain ⟨-, -, -, -, -, -, -, -, -, -, -, -, e0, e1, e2, -, -, -, -, -, -, -, -, -⟩ := idx_facts0 t
  funext ax; apply Fin.ext
  match ax with
  | ⟨0, _⟩ => show win0_4.index t (0 : Fin 3) * 2 + 1 * (j 0).val = (j 0).val; omega
  | ⟨1, _⟩ => show win0_4.index t (1 : Fin 3) * 2048 + 1 * (j 1).val = (j 1).val; omega
  | ⟨2, _⟩ => show win0_4.index t (2 : Fin 3) * 32 + 1 * (j 2).val = (j 2).val; omega

theorem iblk0_5_eq (c : Dev nD) (t : Fin cfg0.N) : iblk0 V c 5 t = V c main_arg7 := by
  funext j
  show V c main_arg7 (((cfg0.win 5).blk t).view.emb j) = _
  refine congrArg (V c main_arg7) ?_
  obtain ⟨-, -, -, -, -, -, -, -, -, -, -, -, -, -, -, e0, e1, -, -, -, -, -, -, -⟩ := idx_facts0 t
  funext ax; apply Fin.ext
  match ax with
  | ⟨0, _⟩ => show win0_5.index t (0 : Fin 2) * 512 + 1 * (j 0).val = (j 0).val; omega
  | ⟨1, _⟩ => show win0_5.index t (1 : Fin 2) * 128 + 1 * (j 1).val = (j 1).val; omega

theorem mem_blk0_6 (t : Fin cfg0.N) (i : S8192x128.Idx) : i ∈ ((cfg0.win 6).blk t).view.set := by
  show i ∈ ((View.whole main_v1_0).slice (win0_6.rect t)).set
  rw [View.set_slice_whole, Rect.mem_set_unit]
  obtain ⟨-, -, -, -, -, -, -, -, -, -, -, -, -, -, -, -, -, e0, e1, -, -, -, -, -⟩ := idx_facts0 t
  intro a
  match a with
  | ⟨0, _⟩ => show win0_6.index t (0 : Fin 2) * 8192 ≤ (i 0).val ∧ (i 0).val < win0_6.index t (0 : Fin 2) * 8192 + 8192; have hh : (i 0).val < 8192 := (i 0).isLt; omega
  | ⟨1, _⟩ => show win0_6.index t (1 : Fin 2) * 128 ≤ (i 1).val ∧ (i 1).val < win0_6.index t (1 : Fin 2) * 128 + 128; have hh : (i 1).val < 128 := (i 1).isLt; omega

theorem mem_blk0_7 (t : Fin cfg0.N) (i : S4096x128.Idx) : i ∈ ((cfg0.win 7).blk t).view.set := by
  show i ∈ ((View.whole main_v1_1).slice (win0_7.rect t)).set
  rw [View.set_slice_whole, Rect.mem_set_unit]
  obtain ⟨-, -, -, -, -, -, -, -, -, -, -, -, -, -, -, -, -, -, -, e0, e1, -, -, -⟩ := idx_facts0 t
  intro a
  match a with
  | ⟨0, _⟩ => show win0_7.index t (0 : Fin 2) * 4096 ≤ (i 0).val ∧ (i 0).val < win0_7.index t (0 : Fin 2) * 4096 + 4096; have hh : (i 0).val < 4096 := (i 0).isLt; omega
  | ⟨1, _⟩ => show win0_7.index t (1 : Fin 2) * 128 ≤ (i 1).val ∧ (i 1).val < win0_7.index t (1 : Fin 2) * 128 + 128; have hh : (i 1).val < 128 := (i 1).isLt; omega

theorem mem_blk0_8 (t : Fin cfg0.N) (i : S2x2048x32.Idx) : i ∈ ((cfg0.win 8).blk t).view.set := by
  show i ∈ ((View.whole main_v1_2).slice (win0_8.rect t)).set
  rw [View.set_slice_whole, Rect.mem_set_unit]
  obtain ⟨-, -, -, -, -, -, -, -, -, -, -, -, -, -, -, -, -, -, -, -, -, e0, e1, e2⟩ := idx_facts0 t
  intro a
  match a with
  | ⟨0, _⟩ => show win0_8.index t (0 : Fin 3) * 2 ≤ (i 0).val ∧ (i 0).val < win0_8.index t (0 : Fin 3) * 2 + 2; have hh : (i 0).val < 2 := (i 0).isLt; omega
  | ⟨1, _⟩ => show win0_8.index t (1 : Fin 3) * 2048 ≤ (i 1).val ∧ (i 1).val < win0_8.index t (1 : Fin 3) * 2048 + 2048; have hh : (i 1).val < 2048 := (i 1).isLt; omega
  | ⟨2, _⟩ => show win0_8.index t (2 : Fin 3) * 32 ≤ (i 2).val ∧ (i 2).val < win0_8.index t (2 : Fin 3) * 32 + 32; have hh : (i 2).val < 32 := (i 2).isLt; omega

variable {Ix : Type} [DecidableEq Ix] {Name : Type} [DecidableEq Name] {U : Type} [URA U] {Lvl : Type} [Preorder Lvl]
variable (O : CellTallies nD τ sig Ix) (B : Set (SemLoc sig × Ix))

theorem arr0_6 (c : Dev nD) :
    (dat0 (Ix := Ix) (Name := Name) (U := U) (Lvl := Lvl) V O B c).arrAt 6 cfg0.N = out0_6 (V c main_arg0) (V c main_arg1) (V c main_arg4) (V c main_arg7) := by
  refine (dat0 (Ix := Ix) (Name := Name) (U := U) (Lvl := Lvl) V O B c).arrAt_eq_of_cover 6 (out0_6 (V c main_arg0) (V c main_arg1) (V c main_arg4) (V c main_arg7)) (fun t _ => ?_)
    (fun i => ⟨⟨0, by decide⟩, flush0_6 _, ?_⟩)
  · show (cfg0.win 6).cut (grid0.coords t) ((dat0 (Ix := Ix) (Name := Name) (U := U) (Lvl := Lvl) V O B c).after 6 t) = _
    rw [after0_6, iblk0_0_eq, iblk0_1_eq, iblk0_2_eq, iblk0_5_eq]
    generalize out0_6 (V c main_arg0) (V c main_arg1) (V c main_arg4) (V c main_arg7) = P
    funext j
    show P ((cfg0.win 6).xinj (grid0.coords t) j) = P (((cfg0.win 6).blk t).view.emb j)
    refine congrArg P ?_
    obtain ⟨-, -, -, -, -, -, -, -, -, -, -, -, -, -, -, -, -, e0, e1, -, -, -, -, -⟩ := idx_facts0 t
    funext ax; apply Fin.ext
    match ax with
    | ⟨0, _⟩ => show (j 0).val = win0_6.index t (0 : Fin 2) * 8192 + 1 * (j 0).val; omega
    | ⟨1, _⟩ => show (j 1).val = win0_6.index t (1 : Fin 2) * 128 + 1 * (j 1).val; omega
  · exact mem_blk0_6 _ i

theorem arr0_7 (c : Dev nD) :
    (dat0 (Ix := Ix) (Name := Name) (U := U) (Lvl := Lvl) V O B c).arrAt 7 cfg0.N = out0_7 (V c main_arg0) (V c main_arg7) := by
  refine (dat0 (Ix := Ix) (Name := Name) (U := U) (Lvl := Lvl) V O B c).arrAt_eq_of_cover 7 (out0_7 (V c main_arg0) (V c main_arg7)) (fun t _ => ?_)
    (fun i => ⟨⟨0, by decide⟩, flush0_7 _, ?_⟩)
  · show (cfg0.win 7).cut (grid0.coords t) ((dat0 (Ix := Ix) (Name := Name) (U := U) (Lvl := Lvl) V O B c).after 7 t) = _
    rw [after0_7, iblk0_0_eq, iblk0_5_eq]
    generalize out0_7 (V c main_arg0) (V c main_arg7) = P
    funext j
    show P ((cfg0.win 7).xinj (grid0.coords t) j) = P (((cfg0.win 7).blk t).view.emb j)
    refine congrArg P ?_
    obtain ⟨-, -, -, -, -, -, -, -, -, -, -, -, -, -, -, -, -, -, -, e0, e1, -, -, -⟩ := idx_facts0 t
    funext ax; apply Fin.ext
    match ax with
    | ⟨0, _⟩ => show (j 0).val = win0_7.index t (0 : Fin 2) * 4096 + 1 * (j 0).val; omega
    | ⟨1, _⟩ => show (j 1).val = win0_7.index t (1 : Fin 2) * 128 + 1 * (j 1).val; omega
  · exact mem_blk0_7 _ i

theorem arr0_8 (c : Dev nD) :
    (dat0 (Ix := Ix) (Name := Name) (U := U) (Lvl := Lvl) V O B c).arrAt 8 cfg0.N = out0_8 (V c main_arg3) (V c main_v0) := by
  refine (dat0 (Ix := Ix) (Name := Name) (U := U) (Lvl := Lvl) V O B c).arrAt_eq_of_cover 8 (out0_8 (V c main_arg3) (V c main_v0)) (fun t _ => ?_)
    (fun i => ⟨⟨0, by decide⟩, flush0_8 _, ?_⟩)
  · show (cfg0.win 8).cut (grid0.coords t) ((dat0 (Ix := Ix) (Name := Name) (U := U) (Lvl := Lvl) V O B c).after 8 t) = _
    rw [after0_8, iblk0_3_eq, iblk0_4_eq]
    generalize out0_8 (V c main_arg3) (V c main_v0) = P
    funext j
    show P ((cfg0.win 8).xinj (grid0.coords t) j) = P (((cfg0.win 8).blk t).view.emb j)
    refine congrArg P ?_
    obtain ⟨-, -, -, -, -, -, -, -, -, -, -, -, -, -, -, -, -, -, -, -, -, e0, e1, e2⟩ := idx_facts0 t
    funext ax; apply Fin.ext
    match ax with
    | ⟨0, _⟩ => show (j 0).val = win0_8.index t (0 : Fin 3) * 2 + 1 * (j 0).val; omega
    | ⟨1, _⟩ => show (j 1).val = win0_8.index t (1 : Fin 3) * 2048 + 1 * (j 1).val; omega
    | ⟨2, _⟩ => show (j 2).val = win0_8.index t (2 : Fin 3) * 32 + 1 * (j 2).val; omega
  · exact mem_blk0_8 _ i

end R0

end Cert.KerSideB

end
-- ==== Proof.Bits.KerGlueB1.lean ====
import proofs.«208327_g62569083568895_cont_9to1c4b_407_46_alg».proof.Proof.Bits.KerGlueB0
import proofs.«208327_g62569083568895_cont_9to1c4b_407_46_alg».proof.Proof.Bits.ScGout

set_option maxRecDepth 16384

noncomputable section

namespace Cert.KerSideB

open Cert.Kernel Cert.Kernel.Gen Cert.Kernel.Body Cert.Kernel.Sc
open Idealize.ShloMosaic Idealize.ShloMosaic.ValueIdx Idealize.ShloMosaic.TcCoe Idealize.ShloMosaic.StableHlo
open Idealize.SL Idealize.SL.Sem
open Idealize.ShloMosaic.Pipeline (Dat Cfg Window)

/-! The buffers at each boundary of the program, followed from the launch memory: which buffers pass through the mask
conversion, the first pipeline, the reshape of the indices, the gather and the thirteen host operations unchanged, and
what the others hold. -/

variable {F : FTy → Type} [FloatOps F]
variable (m : (ℓ : Loc nD τ sig) → Buf (Elt F) ℓ) (G3 : (d : Dev nD) → Buf (Elt F) (outLoc d)) (d : Dev nD)

theorem W1_of_ne (b : Ref sig .tc) (h : b ≠ main_v0) : W1 m d (Proc.devRef .tc b) = m (d, Proc.devRef .tc b) :=
  unary_result_ne _ _ _ _ _ _ h

theorem W1_v0 : W1 m d (Proc.devRef .tc main_v0) = extui 32 (m (d, Proc.devRef .tc main_arg6)) natLt_1_32 :=
  unary_result _ _ _ _ _ _

theorem W2_pass (b : Ref sig .tc) (hs : ∀ w, Pipeline.arrRef spec0 w ≠ b) (h0 : b ≠ main_v0) :
    W2 m d (Proc.devRef .tc b) = m (d, Proc.devRef .tc b) :=
  (W2_of_ne m d b hs).trans (W1_of_ne m d b h0)

/-- An input array of the first pipeline is unchanged by it. -/
theorem W2_in (w : Fin cfg0.W) (hnf : ∀ t, (cfg0.win w).flush t = false) (h0 : Pipeline.arrRef spec0 w ≠ main_v0) :
    W2 m d (Proc.devRef .tc (Pipeline.arrRef spec0 w)) = m (d, Proc.devRef .tc (Pipeline.arrRef spec0 w)) := by
  rw [W2_arr]
  funext i
  rw [(D0 m d).arrAt_apply_of_forall_not_mem w cfg0.N i (fun t _ hf => absurd hf (by rw [hnf t]; decide))]
  show (dat0 (V1 m) _ _ d).A w i = _
  rw [A_eq0]
  exact congrFun (W1_of_ne m d _ h0) i

theorem W3_of_ne (b : Ref sig .tc) (h : b ≠ main_v2) : W3 m d (Proc.devRef .tc b) = W2 m d (Proc.devRef .tc b) :=
  reshape_result_ne _ _ _ _ _ _ _ h

theorem W4_of_ne (b : Ref sig .tc) (h : b ≠ main_v3) : W4 m G3 d (Proc.devRef .tc b) = W3 m d (Proc.devRef .tc b) := by
  unfold W4
  exact Function.update_of_ne (devRef_ne_of_ne h) _ _

theorem W4_v3 : W4 m G3 d (Proc.devRef .tc main_v3) = G3 d := by
  unfold W4
  exact Function.update_self _ _ _

/-- A buffer that no step before the second pipeline's host operations touches still holds its launch contents. -/
theorem W4_pass (b : Ref sig .tc) (h3 : b ≠ main_v3) (h2 : b ≠ main_v2) (hs : ∀ w, Pipeline.arrRef spec0 w ≠ b) (h0 : b ≠ main_v0) :
    W4 m G3 d (Proc.devRef .tc b) = m (d, Proc.devRef .tc b) :=
  (W4_of_ne m G3 d b h3).trans ((W3_of_ne m d b h2).trans (W2_pass m d b hs h0))

/-- An input array of the first pipeline still holds its launch contents there. -/
theorem W4_in (w : Fin cfg0.W) (hnf : ∀ t, (cfg0.win w).flush t = false) (h0 : Pipeline.arrRef spec0 w ≠ main_v0)
    (h3 : Pipeline.arrRef spec0 w ≠ main_v3) (h2 : Pipeline.arrRef spec0 w ≠ main_v2) :
    W4 m G3 d (Proc.devRef .tc (Pipeline.arrRef spec0 w)) = m (d, Proc.devRef .tc (Pipeline.arrRef spec0 w)) :=
  (W4_of_ne m G3 d _ h3).trans ((W3_of_ne m d _ h2).trans (W2_in m d w hnf h0))

end Cert.KerSideB

end
-- ==== Proof.Bits.KerGlueArgs.lean ====
import proofs.«208327_g62569083568895_cont_9to1c4b_407_46_alg».proof.Proof.Bits.KerGlueB1

set_option maxRecDepth 16384

noncomputable section

namespace Cert.KerSideB

open Cert.Kernel Cert.Kernel.Gen Cert.Kernel.Body Cert.Kernel.Sc
open Idealize.ShloMosaic Idealize.ShloMosaic.ValueIdx Idealize.ShloMosaic.TcCoe Idealize.ShloMosaic.StableHlo
open Idealize.SL Idealize.SL.Sem
open Idealize.ShloMosaic.Pipeline (Dat Cfg Window)

/-! The argument arrays at the program's return are the launch arrays: no host operation writes one, the first pipeline
reads five of them and the second four, and a pipeline never writes an array it only reads. Any float values. -/

variable {F : FTy → Type} [FloatOps F]
variable (m : (ℓ : Loc nD τ sig) → Buf (Elt F) ℓ) (G3 : (d : Dev nD) → Buf (Elt F) (outLoc d)) (d : Dev nD)

theorem W7_of_ne (b : Ref sig .tc) (h : b ≠ main_v18) : W7 m G3 d (Proc.devRef .tc b) = W6 m G3 d (Proc.devRef .tc b) :=
  reshape_result_ne _ _ _ _ _ _ _ h

/-- An input array of the second pipeline is unchanged by it. -/
theorem W6_in (w : Fin cfg2.W) (hnf : ∀ t, (cfg2.win w).flush t = false) :
    W6 m G3 d (Proc.devRef .tc (Pipeline.arrRef spec2 w)) = W5 m G3 d (Proc.devRef .tc (Pipeline.arrRef spec2 w)) := by
  rw [W6_arr]
  funext i
  rw [(D2 m G3 d).arrAt_apply_of_forall_not_mem w cfg2.N i (fun t _ hf => absurd hf (by rw [hnf t]; decide))]
  show (dat2 (V5 m G3) _ _ d).A w i = _
  rw [A_eq2]

theorem W7_arg0 : W7 m G3 d (Proc.devRef .tc main_arg0) = m (d, Proc.devRef .tc main_arg0) := by
  rw [W7_of_ne m G3 d main_arg0 (by decide)]
  refine (W6_of_ne m G3 d main_arg0 (by decide)).trans ?_
  have e : W5 m G3 d (Proc.devRef .tc main_arg0) = W4 m G3 d (Proc.devRef .tc main_arg0) := by
    show StableHlo.after ops5 (W4 m G3 d) (Proc.devRef .tc main_arg0) = _
    after_results
  rw [e]
  exact W4_in m G3 d 0 (fun _ => rfl) (by decide) (by decide) (by decide)

theorem W7_arg1 : W7 m G3 d (Proc.devRef .tc main_arg1) = m (d, Proc.devRef .tc main_arg1) := by
  rw [W7_of_ne m G3 d main_arg1 (by decide)]
  refine (W6_of_ne m G3 d main_arg1 (by decide)).trans ?_
  have e : W5 m G3 d (Proc.devRef .tc main_arg1) = W4 m G3 d (Proc.devRef .tc main_arg1) := by
    show StableHlo.after ops5 (W4 m G3 d) (Proc.devRef .tc main_arg1) = _
    after_results
  rw [e]
  exact W4_in m G3 d 1 (fun _ => rfl) (by decide) (by decide) (by decide)

theorem W7_arg2 : W7 m G3 d (Proc.devRef .tc main_arg2) = m (d, Proc.devRef .tc main_arg2) := by
  rw [W7_of_ne m G3 d main_arg2 (by decide)]
  refine (W6_of_ne m G3 d main_arg2 (by decide)).trans ?_
  have e : W5 m G3 d (Proc.devRef .tc main_arg2) = W4 m G3 d (Proc.devRef .tc main_arg2) := by
    show StableHlo.after ops5 (W4 m G3 d) (Proc.devRef .tc main_arg2) = _
    after_results
  rw [e]
  exact W4_pass m G3 d main_arg2 (by decide) (by decide) (by decide) (by decide)

theorem W7_arg3 : W7 m G3 d (Proc.devRef .tc main_arg3) = m (d, Proc.devRef .tc main_arg3) := by
  rw [W7_of_ne m G3 d main_arg3 (by decide)]
  refine (W6_of_ne m G3 d main_arg3 (by decide)).trans ?_
  have e : W5 m G3 d (Proc.devRef .tc main_arg3) = W4 m G3 d (Proc.devRef .tc main_arg3) := by
    show StableHlo.after ops5 (W4 m G3 d) (Proc.devRef .tc main_arg3) = _
    after_results
  rw [e]
  exact W4_in m G3 d 3 (fun _ => rfl) (by decide) (by decide) (by decide)

theorem W7_arg4 : W7 m G3 d (Proc.devRef .tc main_arg4) = m (d, Proc.devRef .tc main_arg4) := by
  rw [W7_of_ne m G3 d main_arg4 (by decide)]
  refine (W6_of_ne m G3 d main_arg4 (by decide)).trans ?_
  have e : W5 m G3 d (Proc.devRef .tc main_arg4) = W4 m G3 d (Proc.devRef .tc main_arg4) := by
    show StableHlo.after ops5 (W4 m G3 d) (Proc.devRef .tc main_arg4) = _
    after_results
  rw [e]
  exact W4_in m G3 d 2 (fun _ => rfl) (by decide) (by decide) (by decide)

theorem W7_arg5 : W7 m G3 d (Proc.devRef .tc main_arg5) = m (d, Proc.devRef .tc main_arg5) := by
  rw [W7_of_ne m G3 d main_arg5 (by decide)]
  refine (W6_of_ne m G3 d main_arg5 (by decide)).trans ?_
  have e : W5 m G3 d (Proc.devRef .tc main_arg5) = W4 m G3 d (Proc.devRef .tc main_arg5) := by
    show StableHlo.after ops5 (W4 m G3 d) (Proc.devRef .tc main_arg5) = _
    after_results
  rw [e]
  exact W4_pass m G3 d main_arg5 (by decide) (by decide) (by decide) (by decide)

theorem W7_arg6 : W7 m G3 d (Proc.devRef .tc main_arg6) = m (d, Proc.devRef .tc main_arg6) := by
  rw [W7_of_ne m G3 d main_arg6 (by decide)]
  refine (W6_of_ne m G3 d main_arg6 (by decide)).trans ?_
  have e : W5 m G3 d (Proc.devRef .tc main_arg6) = W4 m G3 d (Proc.devRef .tc main_arg6) := by
    show StableHlo.after ops5 (W4 m G3 d) (Proc.devRef .tc main_arg6) = _
    after_results
  rw [e]
  exact W4_pass m G3 d main_arg6 (by decide) (by decide) (by decide) (by decide)

theorem W7_arg7 : W7 m G3 d (Proc.devRef .tc main_arg7) = m (d, Proc.devRef .tc main_arg7) := by
  rw [W7_of_ne m G3 d main_arg7 (by decide)]
  refine (W6_of_ne m G3 d main_arg7 (by decide)).trans ?_
  have e : W5 m G3 d (Proc.devRef .tc main_arg7) = W4 m G3 d (Proc.devRef .tc main_arg7) := by
    show StableHlo.after ops5 (W4 m G3 d) (Proc.devRef .tc main_arg7) = _
    after_results
  rw [e]
  exact W4_in m G3 d 5 (fun _ => rfl) (by decide) (by decide) (by decide)

theorem W7_arg8 : W7 m G3 d (Proc.devRef .tc main_arg8) = m (d, Proc.devRef .tc main_arg8) := by
  rw [W7_of_ne m G3 d main_arg8 (by decide)]
  refine (W6_of_ne m G3 d main_arg8 (by decide)).trans ?_
  have e : W5 m G3 d (Proc.devRef .tc main_arg8) = W4 m G3 d (Proc.devRef .tc main_arg8) := by
    show StableHlo.after ops5 (W4 m G3 d) (Proc.devRef .tc main_arg8) = _
    after_results
  rw [e]
  exact W4_pass m G3 d main_arg8 (by decide) (by decide) (by decide) (by decide)

theorem W7_arg9 : W7 m G3 d (Proc.devRef .tc main_arg9) = m (d, Proc.devRef .tc main_arg9) := by
  rw [W7_of_ne m G3 d main_arg9 (by decide)]
  refine (W6_in m G3 d 7 (by decide)).trans ?_
  have e : W5 m G3 d (Proc.devRef .tc main_arg9) = W4 m G3 d (Proc.devRef .tc main_arg9) := by
    show StableHlo.after ops5 (W4 m G3 d) (Proc.devRef .tc main_arg9) = _
    after_results
  rw [e]
  exact W4_pass m G3 d main_arg9 (by decide) (by decide) (by decide) (by decide)

theorem W7_arg10 : W7 m G3 d (Proc.devRef .tc main_arg10) = m (d, Proc.devRef .tc main_arg10) := by
  rw [W7_of_ne m G3 d main_arg10 (by decide)]
  refine (W6_of_ne m G3 d main_arg10 (by decide)).trans ?_
  have e : W5 m G3 d (Proc.devRef .tc main_arg10) = W4 m G3 d (Proc.devRef .tc main_arg10) := by
    show StableHlo.after ops5 (W4 m G3 d) (Proc.devRef .tc main_arg10) = _
    after_results
  rw [e]
  exact W4_pass m G3 d main_arg10 (by decide) (by decide) (by decide) (by decide)

theorem W7_arg11 : W7 m G3 d (Proc.devRef .tc main_arg11) = m (d, Proc.devRef .tc main_arg11) := by
  rw [W7_of_ne m G3 d main_arg11 (by decide)]
  refine (W6_in m G3 d 9 (by decide)).trans ?_
  have e : W5 m G3 d (Proc.devRef .tc main_arg11) = W4 m G3 d (Proc.devRef .tc main_arg11) := by
    show StableHlo.after ops5 (W4 m G3 d) (Proc.devRef .tc main_arg11) = _
    after_results
  rw [e]
  exact W4_pass m G3 d main_arg11 (by decide) (by decide) (by decide) (by decide)

theorem W7_arg12 : W7 m G3 d (Proc.devRef .tc main_arg12) = m (d, Proc.devRef .tc main_arg12) := by
  rw [W7_of_ne m G3 d main_arg12 (by decide)]
  refine (W6_of_ne m G3 d main_arg12 (by decide)).trans ?_
  have e : W5 m G3 d (Proc.devRef .tc main_arg12) = W4 m G3 d (Proc.devRef .tc main_arg12) := by
    show StableHlo.after ops5 (W4 m G3 d) (Proc.devRef .tc main_arg12) = _
    after_results
  rw [e]
  exact W4_pass m G3 d main_arg12 (by decide) (by decide) (by decide) (by decide)

theorem W7_arg13 : W7 m G3 d (Proc.devRef .tc main_arg13) = m (d, Proc.devRef .tc main_arg13) := by
  rw [W7_of_ne m G3 d main_arg13 (by decide)]
  refine (W6_in m G3 d 11 (by decide)).trans ?_
  have e : W5 m G3 d (Proc.devRef .tc main_arg13) = W4 m G3 d (Proc.devRef .tc main_arg13) := by
    show StableHlo.after ops5 (W4 m G3 d) (Proc.devRef .tc main_arg13) = _
    after_results
  rw [e]
  exact W4_pass m G3 d main_arg13 (by decide) (by decide) (by decide) (by decide)

theorem W7_arg14 : W7 m G3 d (Proc.devRef .tc main_arg14) = m (d, Proc.devRef .tc main_arg14) := by
  rw [W7_of_ne m G3 d main_arg14 (by decide)]
  refine (W6_of_ne m G3 d main_arg14 (by decide)).trans ?_
  have e : W5 m G3 d (Proc.devRef .tc main_arg14) = W4 m G3 d (Proc.devRef .tc main_arg14) := by
    show StableHlo.after ops5 (W4 m G3 d) (Proc.devRef .tc main_arg14) = _
    after_results
  rw [e]
  exact W4_pass m G3 d main_arg14 (by decide) (by decide) (by decide) (by decide)

theorem W7_arg15 : W7 m G3 d (Proc.devRef .tc main_arg15) = m (d, Proc.devRef .tc main_arg15) := by
  rw [W7_of_ne m G3 d main_arg15 (by decide)]
  refine (W6_in m G3 d 13 (by decide)).trans ?_
  have e : W5 m G3 d (Proc.devRef .tc main_arg15) = W4 m G3 d (Proc.devRef .tc main_arg15) := by
    show StableHlo.after ops5 (W4 m G3 d) (Proc.devRef .tc main_arg15) = _
    after_results
  rw [e]
  exact W4_pass m G3 d main_arg15 (by decide) (by decide) (by decide) (by decide)

theorem W7_arg16 : W7 m G3 d (Proc.devRef .tc main_arg16) = m (d, Proc.devRef .tc main_arg16) := by
  rw [W7_of_ne m G3 d main_arg16 (by decide)]
  refine (W6_of_ne m G3 d main_arg16 (by decide)).trans ?_
  have e : W5 m G3 d (Proc.devRef .tc main_arg16) = W4 m G3 d (Proc.devRef .tc main_arg16) := by
    show StableHlo.after ops5 (W4 m G3 d) (Proc.devRef .tc main_arg16) = _
    after_results
  rw [e]
  exact W4_pass m G3 d main_arg16 (by decide) (by decide) (by decide) (by decide)

theorem W7_arg17 : W7 m G3 d (Proc.devRef .tc main_arg17) = m (d, Proc.devRef .tc main_arg17) := by
  rw [W7_of_ne m G3 d main_arg17 (by decide)]
  refine (W6_of_ne m G3 d main_arg17 (by decide)).trans ?_
  have e : W5 m G3 d (Proc.devRef .tc main_arg17) = W4 m G3 d (Proc.devRef .tc main_arg17) := by
    show StableHlo.after ops5 (W4 m G3 d) (Proc.devRef .tc main_arg17) = _
    after_results
  rw [e]
  exact W4_pass m G3 d main_arg17 (by decide) (by decide) (by decide) (by decide)

theorem W7_arg18 : W7 m G3 d (Proc.devRef .tc main_arg18) = m (d, Proc.devRef .tc main_arg18) := by
  rw [W7_of_ne m G3 d main_arg18 (by decide)]
  refine (W6_of_ne m G3 d main_arg18 (by decide)).trans ?_
  have e : W5 m G3 d (Proc.devRef .tc main_arg18) = W4 m G3 d (Proc.devRef .tc main_arg18) := by
    show StableHlo.after ops5 (W4 m G3 d) (Proc.devRef .tc main_arg18) = _
    after_results
  rw [e]
  exact W4_pass m G3 d main_arg18 (by decide) (by decide) (by decide) (by decide)

theorem W7_arg19 : W7 m G3 d (Proc.devRef .tc main_arg19) = m (d, Proc.devRef .tc main_arg19) := by
  rw [W7_of_ne m G3 d main_arg19 (by decide)]
  refine (W6_of_ne m G3 d main_arg19 (by decide)).trans ?_
  have e : W5 m G3 d (Proc.devRef .tc main_arg19) = W4 m G3 d (Proc.devRef .tc main_arg19) := by
    show StableHlo.after ops5 (W4 m G3 d) (Proc.devRef .tc main_arg19) = _
    after_results
  rw [e]
  exact W4_pass m G3 d main_arg19 (by decide) (by decide) (by decide) (by decide)

theorem W7_arg20 : W7 m G3 d (Proc.devRef .tc main_arg20) = m (d, Proc.devRef .tc main_arg20) := by
  rw [W7_of_ne m G3 d main_arg20 (by decide)]
  refine (W6_of_ne m G3 d main_arg20 (by decide)).trans ?_
  have e : W5 m G3 d (Proc.devRef .tc main_arg20) = W4 m G3 d (Proc.devRef .tc main_arg20) := by
    show StableHlo.after ops5 (W4 m G3 d) (Proc.devRef .tc main_arg20) = _
    after_results
  rw [e]
  exact W4_pass m G3 d main_arg20 (by decide) (by decide) (by decide) (by decide)

end Cert.KerSideB

end
-- ==== Proof.Bits.KerGlueQ.lean ====
import proofs.«208327_g62569083568895_cont_9to1c4b_407_46_alg».proof.Proof.Bits.KerGlueArgs
import proofs.«208327_g62569083568895_cont_9to1c4b_407_46_alg».proof.Proof.Bits.ScGout

set_option maxRecDepth 16384

noncomputable section

namespace Cert.KerSideB

open Cert.Kernel Cert.Kernel.Gen Cert.Kernel.Body Cert.Kernel.Sc
open Idealize.ShloMosaic Idealize.ShloMosaic.ValueIdx Idealize.ShloMosaic.TcCoe Idealize.ShloMosaic.StableHlo
open Idealize.SL Idealize.SL.Sem

/-! From the final memory to the run's postcondition: a memory that on the TensorCore's unscoped buffers of a device is
the last boundary's contents, over gathered rows that are the table rows their index words name, has the result buffer at
that boundary's contents and the argument arrays at their launch contents. Any float values. -/

variable {F : FTy → Type} [FloatOps F]
variable (m : (ℓ : Loc nD τ sig) → Buf (Elt F) ℓ)

/-- The argument arrays of a device, unchanged. -/
def ArgsKept (mem : (ℓ : Loc nD τ sig) → Buf (Elt F) ℓ) (d : Dev nD) : Prop :=
  mem ((d.tc : Thread nD τ).loc main_arg0) = m ((d.tc : Thread nD τ).loc main_arg0)
      ∧ mem ((d.tc : Thread nD τ).loc main_arg1) = m ((d.tc : Thread nD τ).loc main_arg1)
      ∧ mem ((d.tc : Thread nD τ).loc main_arg2) = m ((d.tc : Thread nD τ).loc main_arg2)
      ∧ mem ((d.tc : Thread nD τ).loc main_arg3) = m ((d.tc : Thread nD τ).loc main_arg3)
      ∧ mem ((d.tc : Thread nD τ).loc main_arg4) = m ((d.tc : Thread nD τ).loc main_arg4)
      ∧ mem ((d.tc : Thread nD τ).loc main_arg5) = m ((d.tc : Thread nD τ).loc main_arg5)
      ∧ mem ((d.tc : Thread nD τ).loc main_arg6) = m ((d.tc : Thread nD τ).loc main_arg6)
      ∧ mem ((d.tc : Thread nD τ).loc main_arg7) = m ((d.tc : Thread nD τ).loc main_arg7)
      ∧ mem ((d.tc : Thread nD τ).loc main_arg8) = m ((d.tc : Thread nD τ).loc main_arg8)
      ∧ mem ((d.tc : Thread nD τ).loc main_arg9) = m ((d.tc : Thread nD τ).loc main_arg9)
      ∧ mem ((d.tc : Thread nD τ).loc main_arg10) = m ((d.tc : Thread nD τ).loc main_arg10)
      ∧ mem ((d.tc : Thread nD τ).loc main_arg11) = m ((d.tc : Thread nD τ).loc main_arg11)
      ∧ mem ((d.tc : Thread nD τ).loc main_arg12) = m ((d.tc : Thread nD τ).loc main_arg12)
      ∧ mem ((d.tc : Thread nD τ).loc main_arg13) = m ((d.tc : Thread nD τ).loc main_arg13)
      ∧ mem ((d.tc : Thread nD τ).loc main_arg14) = m ((d.tc : Thread nD τ).loc main_arg14)
      ∧ mem ((d.tc : Thread nD τ).loc main_arg15) = m ((d.tc : Thread nD τ).loc main_arg15)
      ∧ mem ((d.tc : Thread nD τ).loc main_arg16) = m ((d.tc : Thread nD τ).loc main_arg16)
      ∧ mem ((d.tc : Thread nD τ).loc main_arg17) = m ((d.tc : Thread nD τ).loc main_arg17)
      ∧ mem ((d.tc : Thread nD τ).loc main_arg18) = m ((d.tc : Thread nD τ).loc main_arg18)
      ∧ mem ((d.tc : Thread nD τ).loc main_arg19) = m ((d.tc : Thread nD τ).loc main_arg19)
      ∧ mem ((d.tc : Thread nD τ).loc main_arg20) = m ((d.tc : Thread nD τ).loc main_arg20)

theorem argsKept_of_final (mem : (ℓ : Loc nD τ sig) → Buf (Elt F) ℓ) (d : Dev nD) (G3 : (c : Dev nD) → Buf (Elt F) (outLoc c))
    (hm : ∀ b ∈ Pipeline.ucRefs τ sig, mem (d, b) = W7 m G3 d b) : ArgsKept m mem d :=
  ⟨(hm (Proc.devRef .tc main_arg0) (by decide)).trans (W7_arg0 m G3 d),
    (hm (Proc.devRef .tc main_arg1) (by decide)).trans (W7_arg1 m G3 d),
    (hm (Proc.devRef .tc main_arg2) (by decide)).trans (W7_arg2 m G3 d),
    (hm (Proc.devRef .tc main_arg3) (by decide)).trans (W7_arg3 m G3 d),
    (hm (Proc.devRef .tc main_arg4) (by decide)).trans (W7_arg4 m G3 d),
    (hm (Proc.devRef .tc main_arg5) (by decide)).trans (W7_arg5 m G3 d),
    (hm (Proc.devRef .tc main_arg6) (by decide)).trans (W7_arg6 m G3 d),
    (hm (Proc.devRef .tc main_arg7) (by decide)).trans (W7_arg7 m G3 d),
    (hm (Proc.devRef .tc main_arg8) (by decide)).trans (W7_arg8 m G3 d),
    (hm (Proc.devRef .tc main_arg9) (by decide)).trans (W7_arg9 m G3 d),
    (hm (Proc.devRef .tc main_arg10) (by decide)).trans (W7_arg10 m G3 d),
    (hm (Proc.devRef .tc main_arg11) (by decide)).trans (W7_arg11 m G3 d),
    (hm (Proc.devRef .tc main_arg12) (by decide)).trans (W7_arg12 m G3 d),
    (hm (Proc.devRef .tc main_arg13) (by decide)).trans (W7_arg13 m G3 d),
    (hm (Proc.devRef .tc main_arg14) (by decide)).trans (W7_arg14 m G3 d),
    (hm (Proc.devRef .tc main_arg15) (by decide)).trans (W7_arg15 m G3 d),
    (hm (Proc.devRef .tc main_arg16) (by decide)).trans (W7_arg16 m G3 d),
    (hm (Proc.devRef .tc main_arg17) (by decide)).trans (W7_arg17 m G3 d),
    (hm (Proc.devRef .tc main_arg18) (by decide)).trans (W7_arg18 m G3 d),
    (hm (Proc.devRef .tc main_arg19) (by decide)).trans (W7_arg19 m G3 d),
    (hm (Proc.devRef .tc main_arg20) (by decide)).trans (W7_arg20 m G3 d)⟩

/-- The result buffer and the arguments of a device at the program's return. -/
theorem post_of_final (mem : (ℓ : Loc nD τ sig) → Buf (Elt F) ℓ) (d : Dev nD) (G3 : (c : Dev nD) → Buf (Elt F) (outLoc c))
    (hG : GoutOK (TabOf m) (IdxOf m) d (G3 d)) (hm : ∀ b ∈ Pipeline.ucRefs τ sig, mem (d, b) = W7 m G3 d b) :
    (∃ G3 : (c : Dev nD) → Buf (Elt F) (outLoc c), GoutOK (TabOf m) (IdxOf m) d (G3 d)
        ∧ mem ((d.tc : Thread nD τ).loc main_v18) = W7 m G3 d (Proc.devRef .tc main_v18))
      ∧ ArgsKept m mem d :=
  ⟨⟨G3, hG, hm (Proc.devRef .tc main_v18) (by decide)⟩, argsKept_of_final m mem d G3 hm⟩

end Cert.KerSideB

end
-- ==== Proof.Bits.KerIdxBound.lean ====
import proofs.«208327_g62569083568895_cont_9to1c4b_407_46_alg».proof.Proof.Bits.KerGlueB1
import proofs.«208327_g62569083568895_cont_9to1c4b_407_46_alg».proof.Proof.Gen.Pre_input_domain
import Idealize.ShloMosaic.Lib.ReduceAll
import Idealize.ShloMosaic.Lib.IdealHost
import Idealize.ShloMosaic.Lib.ValueLayout

set_option maxRecDepth 16384

noncomputable section

namespace Cert.KerSideB

open Cert.Kernel Cert.Kernel.Gen Cert.Kernel.Body Cert.Kernel.Sc
open Idealize.ShloMosaic Idealize.ShloMosaic.ValueIdx Idealize.ShloMosaic.TcCoe Idealize.ShloMosaic.StableHlo
open Idealize.SL Idealize.SL.Sem
open Idealize.ShloMosaic.Pipeline (Dat Cfg Window)

/-! The gather's index words are below the table's 8192 rows, for any float values: the neighbour table lies in
`[0, 2047]` by the precondition, and the tables kernel adds 2048 per batch element and 4096 times the mask bit, with
no wrap-around at 32 bits. Integer arithmetic only. -/

instance subsingletonIdx0 : Subsingleton (⟨0, ![]⟩ : Shape).Idx := ⟨fun a b => funext fun d => d.elim0⟩

theorem ofBool_one_iff {b : Bool} (h : BitVec.ofBool b = 1#1) : b = true := by
  revert h; cases b <;> decide

/-- An all-ones test of `0 ≤ K ≤ 2047` bounds every entry. -/
theorem kRangeF_of_test {s : Shape} {axes : List (Fin s.rank)} (K : IVec s 32) (hb : (⟨0, ![]⟩ : Shape).BroadcastsInDim s ![])
    (hr : s.ReducesTo axes ⟨0, ![]⟩) (hu : 0 < (⟨0, ![]⟩ : Shape).numel)
    (e : Host.reduce IntOp.andi (andi (cmpi .sge K (broadcastInDim s ![] hb (constantI ⟨0, ![]⟩ 32 0#32)))
      (cmpi .sle K (broadcastInDim s ![] hb (constantI ⟨0, ![]⟩ 32 2047#32)))) (constantI ⟨0, ![]⟩ 1 1#1) hr hu ix0 = 1#1) :
    ∀ x, 0 ≤ (K x).toInt ∧ (K x).toInt ≤ 2047 := by
  intro x
  have hx := Host.reduce_andi_all _ _ hr hu ix0 e x
  have hx' : IntOp.andi (IntOp.cmpi .sge (K x) 0#32) (IntOp.cmpi .sle (K x) 2047#32) = 1#1 := by
    rw [← hx]
    show _ = IntOp.andi (IntOp.cmpi .sge (K x) (broadcastInDim s ![] hb (constantI ⟨0, ![]⟩ 32 0#32) x))
      (IntOp.cmpi .sle (K x) (broadcastInDim s ![] hb (constantI ⟨0, ![]⟩ 32 2047#32) x))
    rw [broadcastInDim_scalar_apply, broadcastInDim_scalar_apply]
    rfl
  obtain ⟨hg, hl⟩ := IntOp.andi_eq_one.mp hx'
  unfold IntOp.cmpi at hg hl
  have hg' := ofBool_one_iff hg
  have hl' := ofBool_one_iff hl
  dsimp only at hg' hl'
  rw [BitVec.sle_eq_decide] at hg' hl'
  have h0 : (0#32 : BitVec 32).toInt = 0 := by decide
  have h2047 : (2047#32 : BitVec 32).toInt = 2047 := by decide
  rw [h0] at hg'; rw [h2047] at hl'
  exact ⟨of_decide_eq_true hg', of_decide_eq_true hl'⟩

section Words
variable {F : FTy → Type} [FloatOps F]

/-- Where the input-domain function is all ones the neighbour table's every entry lies in `[0, 2047]`. -/
theorem kRangeF (a0 : FVec F S2x2048x128 .f32) (a1 : FVec F S2x2048x128 .f32) (a2 : FVec F S2x2048x32x128 .f32) (a3 : IVec S2x2048x32 32) (a4 : FVec F S2x2048x128 .f32) (a5 : FVec F S2x2048x32 .f32) (a6 : IVec S2x2048x32 1) (a7 : FVec F S512x128 .f32) (a8 : FVec F S128 .f32) (a9 : FVec F S128x128 .f32) (a10 : FVec F S128 .f32) (a11 : FVec F S128x128 .f32) (a12 : FVec F S128 .f32) (a13 : FVec F S128x512 .f32) (a14 : FVec F S512 .f32) (a15 : FVec F S512x128 .f32) (a16 : FVec F S128 .f32) (a17 : FVec F S128 .f32) (a18 : FVec F S128 .f32) (a19 : FVec F S128 .f32) (a20 : FVec F S128 .f32)
    (h : Cert.Pre_input_domain.fn (F := F) a0 a1 a2 a3 a4 a5 a6 a7 a8 a9 a10 a11 a12 a13 a14 a15 a16 a17 a18 a19 a20 = fun _ => 1#1) :
    ∀ x, 0 ≤ (a3 x).toInt ∧ (a3 x).toInt ≤ 2047 := by
  have h0 := congrFun h ix0
  unfold Cert.Pre_input_domain.fn Cert.Pre_input_domain.fn_part1 Cert.Pre_input_domain.fn_part2 Cert.Pre_input_domain.fn_part3 Cert.Pre_input_domain.fn_part4 Cert.Pre_input_domain.fn_part5 at h0
  dsimp only at h0
  obtain ⟨-, hk⟩ := IntOp.andi_eq_one.mp h0
  exact kRangeF_of_test a3 _ _ _ hk

theorem slabK_0 {Val : EltTy → Type} {e : EltTy} (x : S2x2048x32.Idx → Val e) (n : Fin 2048) (k : Fin 32) :
    View.ld x rK_0 (ix3 (0 : Fin 1) n k) = x (ix3 (0 : Fin 2) n k) := by
  refine congrArg x (funext fun a => Fin.ext ?_)
  match a with
  | ⟨0, _⟩ => rfl
  | ⟨1, _⟩ => show 0 + 1 * n.val = n.val; omega
  | ⟨2, _⟩ => show 0 + 1 * k.val = k.val; omega

theorem slabK_1 {Val : EltTy → Type} {e : EltTy} (x : S2x2048x32.Idx → Val e) (n : Fin 2048) (k : Fin 32) :
    View.ld x rK_1 (ix3 (0 : Fin 1) n k) = x (ix3 (1 : Fin 2) n k) := by
  refine congrArg x (funext fun a => Fin.ext ?_)
  match a with
  | ⟨0, _⟩ => rfl
  | ⟨1, _⟩ => show 0 + 1 * n.val = n.val; omega
  | ⟨2, _⟩ => show 0 + 1 * k.val = k.val; omega

/-- The integer payload at an index: the slab's word plus the splat offset plus the mask's word times 4096. -/
theorem wordPay_apply (a b : IVec S1x2048x32 32) (c : BitVec 32) (h1 : S1x2048x32.ShapeCasts S2048x32)
    (h2 : S2048x32.ShapeCasts S1x2048x32) (n : Fin 2048) (k : Fin 32) :
    shapeCast S1x2048x32 (addi (addi (shapeCast S2048x32 a h1) (broadcast S2048x32 c))
        (muli (shapeCast S2048x32 b h1) (broadcast S2048x32 4096#32))) h2 (ix3 (0 : Fin 1) n k)
      = a (ix3 (0 : Fin 1) n k) + c + b (ix3 (0 : Fin 1) n k) * 4096#32 := by
  rw [shapeCast_ab_1ab_apply]
  show IntOp.addi (IntOp.addi (shapeCast S2048x32 a h1 (ix2 n k)) c) (IntOp.muli (shapeCast S2048x32 b h1 (ix2 n k)) 4096#32) = _
  rw [shapeCast_1ab_ab_apply, shapeCast_1ab_ab_apply]
  rfl

theorem wordPay9 (a b : Vec F S1x2048x32 .i32) (n : Fin 2048) (k : Fin 32) :
    k0_pay9 (k0_pay6 (F := F) a) (k0_pay7 (F := F) b) k0_pay8 (ix3 (0 : Fin 1) n k)
      = a (ix3 (0 : Fin 1) n k) + 0#32 + b (ix3 (0 : Fin 1) n k) * 4096#32 :=
  wordPay_apply a b 0#32 _ _ n k

theorem wordPay1 (a b : Vec F S1x2048x32 .i32) (n : Fin 2048) (k : Fin 32) :
    k0_pay1 (k0_pay14 (F := F) a) (k0_pay15 (F := F) b) k0_pay16 (ix3 (0 : Fin 1) n k)
      = a (ix3 (0 : Fin 1) n k) + 2048#32 + b (ix3 (0 : Fin 1) n k) * 4096#32 :=
  wordPay_apply a b 2048#32 _ _ n k

/-- An index at most 2047 plus an offset of at most 2048 plus 4096 times a 0/1 word stays below 8192 (no wrap-around). -/
theorem word_lt (a b c : BitVec 32) (ha : a.toNat ≤ 2047) (hc : c.toNat ≤ 2048) (hb : b.toNat ≤ 1) :
    (a + c + b * 4096#32).toNat < 8192 := by
  have h4 : (4096#32 : BitVec 32).toNat = 4096 := by decide
  simp only [BitVec.toNat_add, BitVec.toNat_mul, h4]
  omega

section Canon
variable {Val : EltTy → Type} [∀ e, Nonempty (Val e)] {S : Shape} {e : EltTy}
theorem canonHit (r : Rect S) (w : r.shape.Idx → Val e) (L : List (View.Piece Val S e)) (y : S.Idx) (x : r.shape.Idx)
    (h : r.emb x = y) : View.canon (⟨r, w⟩ :: L) y = w x := by
  subst h; exact View.canon_cons_emb r w L x
theorem canonSkip (r : Rect S) (w : r.shape.Idx → Val e) (L : List (View.Piece Val S e)) (y : S.Idx) (h : y ∉ r.set) (v : Val e)
    (hv : View.canon L y = v) : View.canon ((⟨r, w⟩ : View.Piece Val S e) :: L) y = v :=
  (View.canon_cons_of_not_mem ⟨r, w⟩ L h).trans hv
end Canon

theorem notMemSlab {n0 n1 n2 : Nat} {off size : Fin 3 → Nat} {inb} (z : Fin n0) (n : Fin n1) (k : Fin n2)
    (h : z.val < off 0 ∨ off 0 + size 0 ≤ z.val) :
    ix3 z n k ∉ (Rect.unit (s := ⟨3, ![n0, n1, n2]⟩) off size inb).set := fun hm => by
  have h0 := (Rect.mem_set_unit.mp hm) 0
  have h1 : off 0 ≤ z.val := h0.1
  have h2 : z.val < off 0 + size 0 := h0.2
  omega

/-- The tables kernel's index words are below 8192 where the table's entries are at most 2047 and the mask's words are bits. -/
theorem out0_8_lt (x3 x4 : Vec F S2x2048x32 .i32) (hK : ∀ i, (x3 i : BitVec 32).toNat ≤ 2047) (hb : ∀ i, (x4 i : BitVec 32).toNat ≤ 1)
    (z : Fin 2) (n : Fin 2048) (k : Fin 32) : (out0_8 (F := F) x3 x4 (ix3 z n k) : BitVec 32).toNat < 8192 := by
  unfold out0_8
  match z with
  | ⟨0, hz⟩ =>
    rw [canonSkip rK_1 _ _ _ (notMemSlab _ _ _ (Or.inl (by show 0 < 1; omega))) _
      ((canonHit rK_0 _ _ _ (ix3 (0 : Fin 1) n k) (by
      funext a; apply Fin.ext
      match a with
      | ⟨0, _⟩ => rfl
      | ⟨1, _⟩ => show 0 + 1 * n.val = n.val; omega
      | ⟨2, _⟩ => show 0 + 1 * k.val = k.val; omega)).trans (wordPay9 _ _ n k))]
    rw [slabK_0, slabK_0]
    exact word_lt _ _ _ (hK _) (by decide) (hb _)
  | ⟨1, hz⟩ =>
    rw [(canonHit rK_1 _ _ _ (ix3 (0 : Fin 1) n k) (by
      funext a; apply Fin.ext
      match a with
      | ⟨0, _⟩ => rfl
      | ⟨1, _⟩ => show 0 + 1 * n.val = n.val; omega
      | ⟨2, _⟩ => show 0 + 1 * k.val = k.val; omega)).trans (wordPay1 _ _ n k)]
    rw [slabK_1, slabK_1]
    exact word_lt _ _ _ (hK _) (by decide) (hb _)

variable (m : (ℓ : Loc nD τ sig) → Buf (Elt F) ℓ) (d : Dev nD)

/-- The index list at word `(a, b)`: the tables kernel's third result at the edge the word's position names. -/
theorem IdxOfF_apply (a : Fin 1024) (b : Fin 128) :
    IdxOf m d (ix2 a b)
      = out0_8 (F := F) (m (d, Proc.devRef .tc main_arg3)) (extui 32 (m (d, Proc.devRef .tc main_arg6)) natLt_1_32)
          (ix3 (⟨(a.val * 128 + b.val) / 65536, by omega⟩ : Fin 2) (⟨(a.val * 128 + b.val) / 32 % 2048, Nat.mod_lt _ (by decide)⟩ : Fin 2048)
            (⟨(a.val * 128 + b.val) % 32, Nat.mod_lt _ (by decide)⟩ : Fin 32)) := by
  unfold IdxOf
  have e : W3 m d (Proc.devRef .tc main_v2) = fun i => shapeCast ⟨2, ![1024, 128]⟩ (W2 m d (Proc.devRef .tc main_v1_2)) shapeCasts_S2x2048x32_S1024x128 i :=
    (reshape_result _ _ _ _ _ _ _).trans rfl
  rw [e]
  have e2 : W2 m d (Proc.devRef .tc main_v1_2) = out0_8 (F := F) (m (d, Proc.devRef .tc main_arg3)) (extui 32 (m (d, Proc.devRef .tc main_arg6)) natLt_1_32) := by
    show W2 m d (Proc.devRef .tc (Pipeline.arrRef spec0 8)) = _
    rw [W2_arr, arr0_8]
    show out0_8 (W1 m d (Proc.devRef .tc main_arg3)) (W1 m d (Proc.devRef .tc main_v0)) = _
    rw [W1_of_ne m d main_arg3 (by decide), W1_v0]
  rw [e2]
  exact Idealize.ShloMosaic.shapeCast_apply _ _ _ _ (by
    show ((⟨3, ![2, 2048, 32]⟩ : Shape).rowMajor (ix3 _ _ _)).val = ((⟨2, ![1024, 128]⟩ : Shape).rowMajor (ix2 a b)).val
    rw [Shape.rowMajor_val_three, Shape.rowMajor_val_two]
    show ((a.val * 128 + b.val) / 65536 * 2048 + (a.val * 128 + b.val) / 32 % 2048) * 32 + (a.val * 128 + b.val) % 32 = a.val * 128 + b.val
    omega)

/-- THE INDEX BOUND: under the precondition every word of the index list the gather is handed is below 8192. -/
theorem idx_bound
    (hpre : Cert.Pre_input_domain.fn (F := F) (m (d, Proc.devRef .tc main_arg0)) (m (d, Proc.devRef .tc main_arg1)) (m (d, Proc.devRef .tc main_arg2)) (m (d, Proc.devRef .tc main_arg3)) (m (d, Proc.devRef .tc main_arg4)) (m (d, Proc.devRef .tc main_arg5)) (m (d, Proc.devRef .tc main_arg6)) (m (d, Proc.devRef .tc main_arg7)) (m (d, Proc.devRef .tc main_arg8)) (m (d, Proc.devRef .tc main_arg9)) (m (d, Proc.devRef .tc main_arg10)) (m (d, Proc.devRef .tc main_arg11)) (m (d, Proc.devRef .tc main_arg12)) (m (d, Proc.devRef .tc main_arg13)) (m (d, Proc.devRef .tc main_arg14)) (m (d, Proc.devRef .tc main_arg15)) (m (d, Proc.devRef .tc main_arg16)) (m (d, Proc.devRef .tc main_arg17)) (m (d, Proc.devRef .tc main_arg18)) (m (d, Proc.devRef .tc main_arg19)) (m (d, Proc.devRef .tc main_arg20)) = fun _ => 1#1) :
    ∀ x, ((Memref.whole main_v2_scv : Memref sig .scVector .hbm S1024x128 .i32).view.read (Elt F) (IdxOf m d) x : BitVec 32).toNat < 8192 := by
  intro x
  have hk := kRangeF _ _ _ _ _ _ _ _ _ _ _ _ _ _ _ _ _ _ _ _ _ hpre
  obtain ⟨a, b, rfl⟩ : ∃ (a : Fin 1024) (b : Fin 128), x = ix2 a b := ⟨x 0, x 1, eq_ix2 x⟩
  have hx : (Memref.whole main_v2_scv : Memref sig .scVector .hbm S1024x128 .i32).view.read (Elt F) (IdxOf m d) (ix2 a b)
      = IdxOf m d (ix2 a b) := by
    show IdxOf m d ((Memref.whole main_v2_scv : Memref sig .scVector .hbm S1024x128 .i32).view.emb (ix2 a b)) = _
    refine congrArg (IdxOf m d) (funext fun ax => Fin.ext ?_)
    match ax with
    | ⟨0, _⟩ => rfl
    | ⟨1, _⟩ => rfl
  rw [hx, IdxOfF_apply]
  refine out0_8_lt _ _ (fun i => ?_) (fun i => ?_) _ _ _
  · have h1 := BitVec.toInt_eq_toNat_cond ((m (d, Proc.devRef .tc main_arg3)) i : BitVec 32)
    have h2 := ((m (d, Proc.devRef .tc main_arg3)) i : BitVec 32).isLt
    obtain ⟨h3, h4⟩ := hk i
    split_ifs at h1 <;> omega
  · show (((m (d, Proc.devRef .tc main_arg6)) i : BitVec 1).setWidth 32).toNat ≤ 1
    have h1 := ((m (d, Proc.devRef .tc main_arg6)) i : BitVec 1).isLt
    rw [BitVec.toNat_setWidth]
    have : ((m (d, Proc.devRef .tc main_arg6)) i : BitVec 1).toNat % 2 ^ 32 ≤ ((m (d, Proc.devRef .tc main_arg6)) i : BitVec 1).toNat := Nat.mod_le _ _
    omega

end Words

end Cert.KerSideB

end
-- ==== Proof.FinalBits.lean ====
import proofs.«208327_g62569083568895_cont_9to1c4b_407_46_alg».proof.Defs
import proofs.«208327_g62569083568895_cont_9to1c4b_407_46_alg».proof.Proof.Bits.ScRun
import proofs.«208327_g62569083568895_cont_9to1c4b_407_46_alg».proof.Proof.Bits.ScMain5
import proofs.«208327_g62569083568895_cont_9to1c4b_407_46_alg».proof.Proof.Bits.ScDealPf
import proofs.«208327_g62569083568895_cont_9to1c4b_407_46_alg».proof.Proof.Bits.ScGtc
import proofs.«208327_g62569083568895_cont_9to1c4b_407_46_alg».proof.Proof.Bits.KerGlueQ
import proofs.«208327_g62569083568895_cont_9to1c4b_407_46_alg».proof.Proof.Bits.KerIdxBound
import proofs.«208327_g62569083568895_cont_9to1c4b_407_46_alg».proof.Proof.Gen.Kernel
import proofs.«208327_g62569083568895_cont_9to1c4b_407_46_alg».proof.Proof.Gen.Pre_input_domain

set_option maxRecDepth 16384

noncomputable section

namespace Cert.Final

open Cert.Kernel Cert.Kernel.Gen Cert.Kernel.Sc
open Idealize.ShloMosaic Idealize.ShloMosaic.TcCoe Idealize.SL Idealize.SL.Sem

/-! The word-level kernel program's frame: under the precondition the index words are below the table's rows (integer
arithmetic on the neighbour table and the mask, whatever the float words are), so the program runs, and at its return
every argument array holds its launch contents. -/

theorem frame_kernel : Cert.frame_Kernel (hKernel := Cert.Kernel.Gen.facts) (hPre_input_domain := Cert.Pre_input_domain.Gen.facts) :=
  fun m g hpre =>
    run_main (TabOf m) (IdxOf m) m g (FIN m) (fq m) _
      (fun d x => Cert.KerSideB.idx_bound m d (hpre d) x)
      (fun κ d => by
        rw [G_eq_Gtc]
        exact hmain m g κ d (scDeal (TabOf m) (IdxOf m) d (fun x => Cert.KerSideB.idx_bound m d (hpre d) x)))
      (hfin m)
      (fun s' h c => by
        obtain ⟨g', -, hm⟩ := h c
        exact Cert.KerSideB.argsKept_of_final m s'.mem.mem c (G3of m c g') hm)

end Cert.Final

end
-- ==== Proof.lean ====
/-
  The claim. The word-level kernel program and its reading at the ideal values both run from every launch memory in the
  input domain and leave their twenty-one argument arrays unchanged; the reference program does likewise; and at the ideal
  values the kernel program's result equals the reference's, element by element. Both results are the same real function of
  the arguments' real parts: for each node, the messages of its thirty-two neighbours (the concatenated node, neighbour, edge
  and sequence features through three linear maps with the exact GELU between them) are masked and summed onto the node, a
  layer norm follows, then a feed-forward block with a residual, and a second layer norm. The kernel forms the first linear
  map band by band, applying the neighbour bands to whole tables before gathering their rows, which on the reals is the same sum.
-/
import proofs.«208327_g62569083568895_cont_9to1c4b_407_46_alg».proof.Defs
import proofs.«208327_g62569083568895_cont_9to1c4b_407_46_alg».proof.Proof.FinalIdeal
import proofs.«208327_g62569083568895_cont_9to1c4b_407_46_alg».proof.Proof.FinalBits

noncomputable section

namespace Cert.Proof

theorem claim : Cert.Claim := Cert.Assemble.claim_of_runs Cert.Final.frame_kernel Cert.Final.kernel_run

end Cert.Proof

end
